-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  IdealRules.named_const.Statement Cert.KernelIdeal.κ "fold_c_524288_14529495" .f32 0x3D13CD3A#32 ((524288 / 14529495 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x768 : Shape := ⟨2, ![4096, 768]⟩
abbrev S256x256 : Shape := ⟨2, ![256, 256]⟩
abbrev S256 : Shape := ⟨1, ![256]⟩
abbrev S256x768 : Shape := ⟨2, ![256, 768]⟩
abbrev S1536x768 : Shape := ⟨2, ![1536, 768]⟩
abbrev S1536 : Shape := ⟨1, ![1536]⟩
abbrev S200x768 : Shape := ⟨2, ![200, 768]⟩
abbrev S200 : Shape := ⟨1, ![200]⟩
abbrev S2x200 : Shape := ⟨2, ![2, 200]⟩
abbrev S768x768 : Shape := ⟨2, ![768, 768]⟩
abbrev S768 : Shape := ⟨1, ![768]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x768 : S_.BroadcastsInDim S4096x768 (![] : Fin 0 → Fin S4096x768.rank)
  reducesTo_S4096x768_S_d0_1 : S4096x768.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x768 : S_.BroadcastsInDim S256x768 (![] : Fin 0 → Fin S256x768.rank)
  reducesTo_S256x768_S_d0_1 : S256x768.ReducesTo [0, 1] S_
  bcast_S_S1536x768 : S_.BroadcastsInDim S1536x768 (![] : Fin 0 → Fin S1536x768.rank)
  reducesTo_S1536x768_S_d0_1 : S1536x768.ReducesTo [0, 1] S_
  bcast_S_S1536 : S_.BroadcastsInDim S1536 (![] : Fin 0 → Fin S1536.rank)
  reducesTo_S1536_S_d0 : S1536.ReducesTo [0] S_
  bcast_S_S200x768 : S_.BroadcastsInDim S200x768 (![] : Fin 0 → Fin S200x768.rank)
  reducesTo_S200x768_S_d0_1 : S200x768.ReducesTo [0, 1] S_
  bcast_S_S200 : S_.BroadcastsInDim S200 (![] : Fin 0 → Fin S200.rank)
  reducesTo_S200_S_d0 : S200.ReducesTo [0] S_
  bcast_S_S2x200 : S_.BroadcastsInDim S2x200 (![] : Fin 0 → Fin S2x200.rank)
  reducesTo_S2x200_S_d0_1 : S2x200.ReducesTo [0, 1] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part5 {F : FTy → Type} [FloatOps F] (main_v83 : IVec S_ 1) (main_v84 : FVec F S768 .f32) (main_cst_32 : FVec F S_ .f32) : IVec S_ 1 :=
  let main_v85 : FVec F S768 .f32 := broadcastInDim S768 ![] bcast_S_S768 main_cst_32
  let main_v86 : IVec S768 1 := cmpf .olt main_v84 main_v85
  let main_c_33 : IVec S_ 1 := constantI S_ 1 1#1
  let main_v87 : IVec S_ 1 := (fun x v => Host.reduce IntOp.andi x v reducesTo_S768_S_d0 h_S_) main_v86 main_c_33
  let main_v88 : IVec S_ 1 := andi main_v83 main_v87
  main_v88

def fn_part4 {F : FTy → Type} [FloatOps F] (main_arg14 : FVec F S2x200 .f32) (main_arg15 : FVec F S2x200 .f32) (main_arg16 : FVec F S768x768 .f32) (main_arg17 : FVec F S768 .f32) (main_v63 : IVec S_ 1) (main_v67 : IVec S_ 1) : IVec S_ 1 :=
  let main_v68 : IVec S_ 1 := andi main_v63 main_v67
  let main_v69 : FVec F S2x200 .f32 := Host.absf main_arg14
  let main_cst_26 : FVec F S_ .f32 := constant S_ .f32 0x7F800000#32
  let main_v70 : FVec F S2x200 .f32 := broadcastInDim S2x200 ![] bcast_S_S2x200 main_cst_26
  let main_v71 : IVec S2x200 1 := cmpf .olt main_v69 main_v70
  let main_c_27 : IVec S_ 1 := constantI S_ 1 1#1
  let main_v72 : IVec S_ 1 := (fun x v => Host.reduce IntOp.andi x v reducesTo_S2x200_S_d0_1 h_S_) main_v71 main_c_27
  let main_v73 : IVec S_ 1 := andi main_v68 main_v72
  let main_v74 : FVec F S2x200 .f32 := Host.absf main_arg15
  let main_cst_28 : FVec F S_ .f32 := constant S_ .f32 0x7F800000#32
  let main_v75 : FVec F S2x200 .f32 := broadcastInDim S2x200 ![] bcast_S_S2x200 main_cst_28
  let main_v76 : IVec S2x200 1 := cmpf .olt main_v74 main_v75
  let main_c_29 : IVec S_ 1 := constantI S_ 1 1#1
  let main_v77 : IVec S_ 1 := (fun x v => Host.reduce IntOp.andi x v reducesTo_S2x200_S_d0_1 h_S_) main_v76 main_c_29
  let main_v78 : IVec S_ 1 := andi main_v73 main_v77
  let main_v79 : FVec F S768x768 .f32 := Host.absf main_arg16
  let main_cst_30 : FVec F S_ .f32 := constant S_ .f32 0x7F800000#32
  let main_v80 : FVec F S768x768 .f32 := broadcastInDim S768x768 ![] bcast_S_S768x768 main_cst_30
  let main_v81 : IVec S768x768 1 := cmpf .olt main_v79 main_v80
  let main_c_31 : IVec S_ 1 := constantI S_ 1 1#1
  let main_v82 : IVec S_ 1 := (fun x v => Host.reduce IntOp.andi x v reducesTo_S768x768_S_d0_1 h_S_) main_v81 main_c_31
  let main_v83 : IVec S_ 1 := andi main_v78 main_v82
  let main_v84 : FVec F S768 .f32 := Host.absf main_arg17
  let main_cst_32 : FVec F S_ .f32 := constant S_ .f32 0x7F800000#32
  fn_part5 (F := F) main_v83 main_v84 main_cst_32

def fn_part3 {F : FTy → Type} [FloatOps F] (main_arg11 : FVec F S1536 .f32) (main_arg12 : FVec F S200x768 .f32) (main_arg13 : FVec F S200 .f32) (main_arg14 : FVec F S2x200 .f32) (main_arg15 : FVec F S2x200 .f32) (main_arg16 : FVec F S768x768 .f32) (main_arg17 : FVec F S768 .f32) (main_v48 : IVec S_ 1) (main_v49 : FVec F S1536x768 .f32) (main_v50 : FVec F S1536x768 .f32) : IVec S_ 1 :=
  let main_v51 : IVec S1536x768 1 := cmpf .olt main_v49 main_v50
  let main_c_19 : IVec S_ 1 := constantI S_ 1 1#1
  let main_v52 : IVec S_ 1 := (fun x v => Host.reduce IntOp.andi x v reducesTo_S1536x768_S_d0_1 h_S_) main_v51 main_c_19
  let main_v53 : IVec S_ 1 := andi main_v48 main_v52
  let main_v54 : FVec F S1536 .f32 := Host.absf main_arg11
  let main_cst_20 : FVec F S_ .f32 := constant S_ .f32 0x7F800000#32
  let main_v55 : FVec F S1536 .f32 := broadcastInDim S1536 ![] bcast_S_S1536 main_cst_20
  let main_v56 : IVec S1536 1 := cmpf .olt main_v54 main_v55
  let main_c_21 : IVec S_ 1 := constantI S_ 1 1#1
  let main_v57 : IVec S_ 1 := (fun x v => Host.reduce IntOp.andi x v reducesTo_S1536_S_d0 h_S_) main_v56 main_c_21
  let main_v58 : IVec S_ 1 := andi main_v53 main_v57
  let main_v59 : FVec F S200x768 .f32 := Host.absf main_arg12
  let main_cst_22 : FVec F S_ .f32 := constant S_ .f32 0x7F800000#32
  let main_v60 : FVec F S200x768 .f32 := broadcastInDim S200x768 ![] bcast_S_S200x768 main_cst_22
  let main_v61 : IVec S200x768 1 := cmpf .olt main_v59 main_v60
  let main_c_23 : IVec S_ 1 := constantI S_ 1 1#1
  let main_v62 : IVec S_ 1 := (fun x v => Host.reduce IntOp.andi x v reducesTo_S200x768_S_d0_1 h_S_) main_v61 main_c_23
  let main_v63 : IVec S_ 1 := andi main_v58 main_v62
  let main_v64 : FVec F S200 .f32 := Host.absf main_arg13
  let main_cst_24 : FVec F S_ .f32 := constant S_ .f32 0x7F800000#32
  let main_v65 : FVec F S200 .f32 := broadcastInDim S200 ![] bcast_S_S200 main_cst_24
  let main_v66 : IVec S200 1 := cmpf .olt main_v64 main_v65
  let main_c_25 : IVec S_ 1 := constantI S_ 1 1#1
  let main_v67 : IVec S_ 1 := (fun x v => Host.reduce IntOp.andi x v reducesTo_S200_S_d0 h_S_) main_v66 main_c_25
  fn_part4 (F := F) main_arg14 main_arg15 main_arg16 main_arg17 main_v63 main_v67

def fn_part2 {F : FTy → Type} [FloatOps F] (main_arg7 : FVec F S256 .f32) (main_arg8 : FVec F S256x256 .f32) (main_arg9 : FVec F S256 .f32) (main_arg10 : FVec F S1536x768 .f32) (main_arg11 : FVec F S1536 .f32) (main_arg12 : FVec F S200x768 .f32) (main_arg13 : FVec F S200 .f32) (main_arg14 : FVec F S2x200 .f32) (main_arg15 : FVec F S2x200 .f32) (main_arg16 : FVec F S768x768 .f32) (main_arg17 : FVec F S768 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S1536x768 .f32 := Host.absf main_arg10
  let main_cst_18 : FVec F S_ .f32 := constant S_ .f32 0x7F800000#32
  let main_v50 : FVec F S1536x768 .f32 := broadcastInDim S1536x768 ![] bcast_S_S1536x768 main_cst_18
  fn_part3 (F := F) main_arg11 main_arg12 main_arg13 main_arg14 main_arg15 main_arg16 main_arg17 main_v48 main_v49 main_v50

def fn_part1 {F : FTy → Type} [FloatOps F] (main_arg4 : FVec F S256x768 .f32) (main_arg5 : FVec F S256 .f32) (main_arg6 : FVec F S256x768 .f32) (main_arg7 : FVec F S256 .f32) (main_arg8 : FVec F S256x256 .f32) (main_arg9 : FVec F S256 .f32) (main_arg10 : FVec F S1536x768 .f32) (main_arg11 : FVec F S1536 .f32) (main_arg12 : FVec F S200x768 .f32) (main_arg13 : FVec F S200 .f32) (main_arg14 : FVec F S2x200 .f32) (main_arg15 : FVec F S2x200 .f32) (main_arg16 : FVec F S768x768 .f32) (main_arg17 : FVec F S768 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x768 .f32 := Host.absf main_arg4
  let main_cst_6 : FVec F S_ .f32 := constant S_ .f32 0x7F800000#32
  let main_v20 : FVec F S256x768 .f32 := broadcastInDim S256x768 ![] bcast_S_S256x768 main_cst_6
  let main_v21 : IVec S256x768 1 := cmpf .olt main_v19 main_v20
  let main_c_7 : IVec S_ 1 := constantI S_ 1 1#1
  let main_v22 : IVec S_ 1 := (fun x v => Host.reduce IntOp.andi x v reducesTo_S256x768_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x768 .f32 := Host.absf main_arg6
  let main_cst_10 : FVec F S_ .f32 := constant S_ .f32 0x7F800000#32
  let main_v30 : FVec F S256x768 .f32 := broadcastInDim S256x768 ![] bcast_S_S256x768 main_cst_10
  let main_v31 : IVec S256x768 1 := cmpf .olt main_v29 main_v30
  let main_c_11 : IVec S_ 1 := constantI S_ 1 1#1
  let main_v32 : IVec S_ 1 := (fun x v => Host.reduce IntOp.andi x v reducesTo_S256x768_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S4096x256 .f32) (main_arg1 : FVec F S4096x768 .f32) (main_arg2 : FVec F S256x256 .f32) (main_arg3 : FVec F S256 .f32) (main_arg4 : FVec F S256x768 .f32) (main_arg5 : FVec F S256 .f32) (main_arg6 : FVec F S256x768 .f32) (main_arg7 : FVec F S256 .f32) (main_arg8 : FVec F S256x256 .f32) (main_arg9 : FVec F S256 .f32) (main_arg10 : FVec F S1536x768 .f32) (main_arg11 : FVec F S1536 .f32) (main_arg12 : FVec F S200x768 .f32) (main_arg13 : FVec F S200 .f32) (main_arg14 : FVec F S2x200 .f32) (main_arg15 : FVec F S2x200 .f32) (main_arg16 : FVec F S768x768 .f32) (main_arg17 : FVec F S768 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x768 .f32 := Host.absf main_arg1
  let main_cst_0 : FVec F S_ .f32 := constant S_ .f32 0x7F800000#32
  let main_v5 : FVec F S4096x768 .f32 := broadcastInDim S4096x768 ![] bcast_S_S4096x768 main_cst_0
  let main_v6 : IVec S4096x768 1 := cmpf .olt main_v4 main_v5
  let main_c_1 : IVec S_ 1 := constantI S_ 1 1#1
  let main_v7 : IVec S_ 1 := (fun x v => Host.reduce IntOp.andi x v reducesTo_S4096x768_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S4096x256 : Shape := ⟨2, ![4096, 256]⟩
abbrev S4096x768 : Shape := ⟨2, ![4096, 768]⟩
abbrev S256x256 : Shape := ⟨2, ![256, 256]⟩
abbrev S256 : Shape := ⟨1, ![256]⟩
abbrev S256x768 : Shape := ⟨2, ![256, 768]⟩
abbrev S1536x768 : Shape := ⟨2, ![1536, 768]⟩
abbrev S1536 : Shape := ⟨1, ![1536]⟩
abbrev S200x768 : Shape := ⟨2, ![200, 768]⟩
abbrev S200 : Shape := ⟨1, ![200]⟩
abbrev S2x200 : Shape := ⟨2, ![2, 200]⟩
abbrev S768x768 : Shape := ⟨2, ![768, 768]⟩
abbrev S768 : Shape := ⟨1, ![768]⟩
abbrev S1x256 : Shape := ⟨2, ![1, 256]⟩
abbrev S1x1536 : Shape := ⟨2, ![1, 1536]⟩
abbrev S1x200 : Shape := ⟨2, ![1, 200]⟩
abbrev S1x768 : Shape := ⟨2, ![1, 768]⟩
abbrev S512x256 : Shape := ⟨2, ![512, 256]⟩
abbrev S4096x200 : Shape := ⟨2, ![4096, 200]⟩
abbrev S512x768 : Shape := ⟨2, ![512, 768]⟩
abbrev S512x200 : Shape := ⟨2, ![512, 200]⟩
abbrev S768x1536 : Shape := ⟨2, ![768, 1536]⟩
abbrev S512x1536 : Shape := ⟨2, ![512, 1536]⟩
abbrev S768x200 : Shape := ⟨2, ![768, 200]⟩
abbrev S512x1 : Shape := ⟨2, ![512, 1]⟩
abbrev S768x512 : Shape := ⟨2, ![768, 512]⟩
abbrev S512x512 : Shape := ⟨2, ![512, 512]⟩
abbrev S200x512 : Shape := ⟨2, ![200, 512]⟩
abbrev S512 : Shape := ⟨1, ![512]⟩
abbrev S768x256 : Shape := ⟨2, ![768, 256]⟩

abbrev nBuf : Space → Nat
  | .hbm => 43
  | .vmem => 80
  | .smem => 0
  | _ => 0

abbrev bufTy : (tb : Table) → Fin (tcTables nBuf tb) → BufTy
  | .hbm, ⟨0, _⟩ => ⟨S4096x256, .f32⟩
  | .hbm, ⟨1, _⟩ => ⟨S4096x768, .f32⟩
  | .hbm, ⟨2, _⟩ => ⟨S256x256, .f32⟩
  | .hbm, ⟨3, _⟩ => ⟨S256, .f32⟩
  | .hbm, ⟨4, _⟩ => ⟨S256x768, .f32⟩
  | .hbm, ⟨5, _⟩ => ⟨S256, .f32⟩
  | .hbm, ⟨6, _⟩ => ⟨S256x768, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S1536x768, .f32⟩
  | .hbm, ⟨11, _⟩ => ⟨S1536, .f32⟩
  | .hbm, ⟨12, _⟩ => ⟨S200x768, .f32⟩
  | .hbm, ⟨13, _⟩ => ⟨S200, .f32⟩
  | .hbm, ⟨14, _⟩ => ⟨S2x200, .f32⟩
  | .hbm, ⟨15, _⟩ => ⟨S2x200, .f32⟩
  | .hbm, ⟨16, _⟩ => ⟨S768x768, .f32⟩
  | .hbm, ⟨17, _⟩ => ⟨S768, .f32⟩
  | .hbm, ⟨18, _⟩ => ⟨S1x256, .f32⟩
  | .hbm, ⟨19, _⟩ => ⟨S1x256, .f32⟩
  | .hbm, ⟨20, _⟩ => ⟨S1x256, .f32⟩
  | .hbm, ⟨21, _⟩ => ⟨S1x256, .f32⟩
  | .hbm, ⟨22, _⟩ => ⟨S1x1536, .f32⟩
  | .hbm, ⟨23, _⟩ => ⟨S1x200, .f32⟩
  | .hbm, ⟨24, _⟩ => ⟨S1x768, .f32⟩
  | .hbm, ⟨25, _⟩ => ⟨S256x256, .bf16⟩
  | .hbm, ⟨26, _⟩ => ⟨S256x768, .bf16⟩
  | .hbm, ⟨27, _⟩ => ⟨S256x768, .bf16⟩
  | .hbm, ⟨28, _⟩ => ⟨S256x256, .bf16⟩
  | .hbm, ⟨29, _⟩ => ⟨S1536x768, .bf16⟩
  | .hbm, ⟨30, _⟩ => ⟨S200x768, .bf16⟩
  | .hbm, ⟨31, _⟩ => ⟨S768x768, .bf16⟩
  | .hbm, ⟨32, _⟩ => ⟨S4096x256, .f32⟩
  | .hbm, ⟨33, _⟩ => ⟨S4096x768, .f32⟩
  | .hbm, ⟨34, _⟩ => ⟨S4096x768, .f32⟩
  | .hbm, ⟨35, _⟩ => ⟨S4096x200, .f32⟩
  | .hbm, ⟨36, _⟩ => ⟨S4096x200, .f32⟩
  | .hbm, ⟨37, _⟩ => ⟨S4096x256, .f32⟩
  | .hbm, ⟨38, _⟩ => ⟨S4096x256, .f32⟩
  | .hbm, ⟨39, _⟩ => ⟨S4096x256, .f32⟩
  | .hbm, ⟨40, _⟩ => ⟨S4096x256, .f32⟩
  | .hbm, ⟨41, _⟩ => ⟨S4096x256, .f32⟩
  | .hbm, ⟨42, _⟩ => ⟨S4096x256, .f32⟩
  | .local _ .vmem, ⟨0, _⟩ => ⟨S512x256, .f32⟩
  | .local _ .vmem, ⟨1, _⟩ => ⟨S512x256, .f32⟩
  | .local _ .vmem, ⟨2, _⟩ => ⟨S256x256, .bf16⟩
  | .local _ .vmem, ⟨3, _⟩ => ⟨S1x256, .f32⟩
  | .local _ .vmem, ⟨4, _⟩ => ⟨S512x256, .f32⟩
  | .local _ .vmem, ⟨5, _⟩ => ⟨S512x256, .f32⟩
  | .local _ .vmem, ⟨6, _⟩ => ⟨S512x768, .f32⟩
  | .local _ .vmem, ⟨7, _⟩ => ⟨S512x768, .f32⟩
  | .local _ .vmem, ⟨8, _⟩ => ⟨S1536x768, .bf16⟩
  | .local _ .vmem, ⟨9, _⟩ => ⟨S1x1536, .f32⟩
  | .local _ .vmem, ⟨10, _⟩ => ⟨S200x768, .bf16⟩
  | .local _ .vmem, ⟨11, _⟩ => ⟨S1x200, .f32⟩
  | .local _ .vmem, ⟨12, _⟩ => ⟨S2x200, .f32⟩
  | .local _ .vmem, ⟨13, _⟩ => ⟨S2x200, .f32⟩
  | .local _ .vmem, ⟨14, _⟩ => ⟨S512x768, .f32⟩
  | .local _ .vmem, ⟨15, _⟩ => ⟨S512x768, .f32⟩
  | .local _ .vmem, ⟨16, _⟩ => ⟨S512x768, .f32⟩
  | .local _ .vmem, ⟨17, _⟩ => ⟨S512x768, .f32⟩
  | .local _ .vmem, ⟨18, _⟩ => ⟨S512x200, .f32⟩
  | .local _ .vmem, ⟨19, _⟩ => ⟨S512x200, .f32⟩
  | .local _ .vmem, ⟨20, _⟩ => ⟨S512x200, .f32⟩
  | .local _ .vmem, ⟨21, _⟩ => ⟨S512x200, .f32⟩
  | .local _ .vmem, ⟨22, _⟩ => ⟨S512x768, .f32⟩
  | .local _ .vmem, ⟨23, _⟩ => ⟨S512x768, .f32⟩
  | .local _ .vmem, ⟨24, _⟩ => ⟨S512x768, .f32⟩
  | .local _ .vmem, ⟨25, _⟩ => ⟨S512x768, .f32⟩
  | .local _ .vmem, ⟨26, _⟩ => ⟨S512x200, .f32⟩
  | .local _ .vmem, ⟨27, _⟩ => ⟨S512x200, .f32⟩
  | .local _ .vmem, ⟨28, _⟩ => ⟨S512x200, .f32⟩
  | .local _ .vmem, ⟨29, _⟩ => ⟨S512x200, .f32⟩
  | .local _ .vmem, ⟨30, _⟩ => ⟨S512x768, .f32⟩
  | .local _ .vmem, ⟨31, _⟩ => ⟨S512x768, .f32⟩
  | .local _ .vmem, ⟨32, _⟩ => ⟨S512x768, .f32⟩
  | .local _ .vmem, ⟨33, _⟩ => ⟨S512x768, .f32⟩
  | .local _ .vmem, ⟨34, _⟩ => ⟨S768x768, .bf16⟩
  | .local _ .vmem, ⟨35, _⟩ => ⟨S1x768, .f32⟩
  | .local _ .vmem, ⟨36, _⟩ => ⟨S256x768, .bf16⟩
  | .local _ .vmem, ⟨37, _⟩ => ⟨S1x256, .f32⟩
  | .local _ .vmem, ⟨38, _⟩ => ⟨S256x768, .bf16⟩
  | .local _ .vmem, ⟨39, _⟩ => ⟨S1x256, .f32⟩
  | .local _ .vmem, ⟨40, _⟩ => ⟨S512x256, .f32⟩
  | .local _ .vmem, ⟨41, _⟩ => ⟨S512x256, .f32⟩
  | .local _ .vmem, ⟨42, _⟩ => ⟨S512x256, .f32⟩
  | .local _ .vmem, ⟨43, _⟩ => ⟨S512x256, .f32⟩
  | .local _ .vmem, ⟨44, _⟩ => ⟨S512x1, .f32⟩
  | .local _ .vmem, ⟨45, _⟩ => ⟨S512x1, .f32⟩
  | .local _ .vmem, ⟨46, _⟩ => ⟨S512x768, .f32⟩
  | .local _ .vmem, ⟨47, _⟩ => ⟨S512x256, .f32⟩
  | .local _ .vmem, ⟨48, _⟩ => ⟨S512x256, .f32⟩
  | .local _ .vmem, ⟨49, _⟩ => ⟨S512x256, .f32⟩
  | .local _ .vmem, ⟨50, _⟩ => ⟨S512x256, .f32⟩
  | .local _ .vmem, ⟨51, _⟩ => ⟨S4096x256, .f32⟩
  | .local _ .vmem, ⟨52, _⟩ => ⟨S4096x256, .f32⟩
  | .local _ .vmem, ⟨53, _⟩ => ⟨S512x256, .f32⟩
  | .local _ .vmem, ⟨54, _⟩ => ⟨S512x256, .f32⟩
  | .local _ .vmem, ⟨55, _⟩ => ⟨S512x256, .f32⟩
  | .local _ .vmem, ⟨56, _⟩ => ⟨S512x256, .f32⟩
  | .local _ .vmem, ⟨57, _⟩ => ⟨S512x256, .f32⟩
  | .local _ .vmem, ⟨58, _⟩ => ⟨S512x256, .f32⟩
  | .local _ .vmem, ⟨59, _⟩ => ⟨S4096x256, .f32⟩
  | .local _ .vmem, ⟨60, _⟩ => ⟨S4096x256, .f32⟩
  | .local _ .vmem, ⟨61, _⟩ => ⟨S512x256, .f32⟩
  | .local _ .vmem, ⟨62, _⟩ => ⟨S512x256, .f32⟩
  | .local _ .vmem, ⟨63, _⟩ => ⟨S512x256, .f32⟩
  | .local _ .vmem, ⟨64, _⟩ => ⟨S512x256, .f32⟩
  | .local _ .vmem, ⟨65, _⟩ => ⟨S256x256, .bf16⟩
  | .local _ .vmem, ⟨66, _⟩ => ⟨S1x256, .f32⟩
  | .local _ .vmem, ⟨67, _⟩ => ⟨S512x256, .f32⟩
  | .local _ .vmem, ⟨68, _⟩ => ⟨S512x256, .f32⟩
  | .local _ .vmem, ⟨69, _⟩ => ⟨S512x256, .f32⟩
  | .local _ .vmem, ⟨70, _⟩ => ⟨S512x256, .f32⟩
  | .local _ .vmem, ⟨71, _⟩ => ⟨S512x256, .f32⟩
  | .local _ .vmem, ⟨72, _⟩ => ⟨S512x256, .f32⟩
  | .local _ .vmem, ⟨73, _⟩ => ⟨S4096x256, .f32⟩
  | .local _ .vmem, ⟨74, _⟩ => ⟨S4096x256, .f32⟩
  | .local _ .vmem, ⟨75, _⟩ => ⟨S4096x256, .f32⟩
  | .local _ .vmem, ⟨76, _⟩ => ⟨S512x256, .f32⟩
  | .local _ .vmem, ⟨77, _⟩ => ⟨S512x256, .f32⟩
  | .local _ .vmem, ⟨78, _⟩ => ⟨S512x256, .f32⟩
  | .local _ .vmem, ⟨79, _⟩ => ⟨S512x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | _, _ => false

abbrev semScoped : Fin 0 → Bool
  | ⟨_, h⟩ => absurd h (Nat.not_lt_zero _)

abbrev dmaSemScoped : Fin 77 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | _ => false

abbrev sig : RefSig :=
  ofTc nBuf bufTy 0 77 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15_0 : Ref sig .tc := ⟨.hbm, 33, rfl⟩
abbrev main_v15_1 : Ref sig .tc := ⟨.hbm, 34, rfl⟩
abbrev main_v15_2 : Ref sig .tc := ⟨.hbm, 35, rfl⟩
abbrev main_v15_3 : Ref sig .tc := ⟨.hbm, 36, rfl⟩
abbrev main_v16_0 : Ref sig .tc := ⟨.hbm, 37, rfl⟩
abbrev main_v16_1 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg7_1 : Ref sig .tc := ⟨.vmem, 15, rfl⟩
abbrev cc1_stg8_0 : Ref sig .tc := ⟨.vmem, 16, rfl⟩
abbrev cc1_stg8_1 : Ref sig .tc := ⟨.vmem, 17, rfl⟩
abbrev cc1_stg9_0 : Ref sig .tc := ⟨.vmem, 18, rfl⟩
abbrev cc1_stg9_1 : Ref sig .tc := ⟨.vmem, 19, rfl⟩
abbrev cc1_stg10_0 : Ref sig .tc := ⟨.vmem, 20, rfl⟩
abbrev cc1_stg10_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc2_stg4_0 : Ref sig .tc := ⟨.vmem, 30, rfl⟩
abbrev cc2_stg4_1 : Ref sig .tc := ⟨.vmem, 31, rfl⟩
abbrev cc2_stg5_0 : Ref sig .tc := ⟨.vmem, 32, rfl⟩
abbrev cc2_stg5_1 : Ref sig .tc := ⟨.vmem, 33, rfl⟩
abbrev cc2_stg6_0 : Ref sig .tc := ⟨.vmem, 34, rfl⟩
abbrev cc2_stg7_0 : Ref sig .tc := ⟨.vmem, 35, rfl⟩
abbrev cc2_stg8_0 : Ref sig .tc := ⟨.vmem, 36, rfl⟩
abbrev cc2_stg9_0 : Ref sig .tc := ⟨.vmem, 37, rfl⟩
abbrev cc2_stg10_0 : Ref sig .tc := ⟨.vmem, 38, rfl⟩
abbrev cc2_stg11_0 : Ref sig .tc := ⟨.vmem, 39, rfl⟩
abbrev cc2_stg12_0 : Ref sig .tc := ⟨.vmem, 40, rfl⟩
abbrev cc2_stg12_1 : Ref sig .tc := ⟨.vmem, 41, rfl⟩
abbrev cc2_stg13_0 : Ref sig .tc := ⟨.vmem, 42, rfl⟩
abbrev cc2_stg13_1 : Ref sig .tc := ⟨.vmem, 43, rfl⟩
abbrev cc2_scratch0 : Ref sig .tc := ⟨.vmem, 44, rfl⟩
abbrev cc2_scratch1 : Ref sig .tc := ⟨.vmem, 45, rfl⟩
abbrev cc2_scratch2 : Ref sig .tc := ⟨.vmem, 46, rfl⟩
abbrev cc3_stg0_0 : Ref sig .tc := ⟨.vmem, 47, rfl⟩
abbrev cc3_stg0_1 : Ref sig .tc := ⟨.vmem, 48, rfl⟩
abbrev cc3_stg1_0 : Ref sig .tc := ⟨.vmem, 49, rfl⟩
abbrev cc3_stg1_1 : Ref sig .tc := ⟨.vmem, 50, rfl⟩
abbrev cc3_stg2_0 : Ref sig .tc := ⟨.vmem, 51, rfl⟩
abbrev cc3_stg3_0 : Ref sig .tc := ⟨.vmem, 52, rfl⟩
abbrev cc3_stg4_0 : Ref sig .tc := ⟨.vmem, 53, rfl⟩
abbrev cc3_stg4_1 : Ref sig .tc := ⟨.vmem, 54, rfl⟩
abbrev cc4_stg0_0 : Ref sig .tc := ⟨.vmem, 55, rfl⟩
abbrev cc4_stg0_1 : Ref sig .tc := ⟨.vmem, 56, rfl⟩
abbrev cc4_stg1_0 : Ref sig .tc := ⟨.vmem, 57, rfl⟩
abbrev cc4_stg1_1 : Ref sig .tc := ⟨.vmem, 58, rfl⟩
abbrev cc4_stg2_0 : Ref sig .tc := ⟨.vmem, 59, rfl⟩
abbrev cc4_stg3_0 : Ref sig .tc := ⟨.vmem, 60, rfl⟩
abbrev cc4_stg4_0 : Ref sig .tc := ⟨.vmem, 61, rfl⟩
abbrev cc4_stg4_1 : Ref sig .tc := ⟨.vmem, 62, rfl⟩
abbrev cc5_stg0_0 : Ref sig .tc := ⟨.vmem, 63, rfl⟩
abbrev cc5_stg0_1 : Ref sig .tc := ⟨.vmem, 64, rfl⟩
abbrev cc5_stg1_0 : Ref sig .tc := ⟨.vmem, 65, rfl⟩
abbrev cc5_stg2_0 : Ref sig .tc := ⟨.vmem, 66, rfl⟩
abbrev cc5_stg3_0 : Ref sig .tc := ⟨.vmem, 67, rfl⟩
abbrev cc5_stg3_1 : Ref sig .tc := ⟨.vmem, 68, rfl⟩
abbrev cc6_stg0_0 : Ref sig .tc := ⟨.vmem, 69, rfl⟩
abbrev cc6_stg0_1 : Ref sig .tc := ⟨.vmem, 70, rfl⟩
abbrev cc6_stg1_0 : Ref sig .tc := ⟨.vmem, 71, rfl⟩
abbrev cc6_stg1_1 : Ref sig .tc := ⟨.vmem, 72, rfl⟩
abbrev cc6_stg2_0 : Ref sig .tc := ⟨.vmem, 73, rfl⟩
abbrev cc6_stg3_0 : Ref sig .tc := ⟨.vmem, 74, rfl⟩
abbrev cc6_stg4_0 : Ref sig .tc := ⟨.vmem, 75, rfl⟩
abbrev cc6_stg5_0 : Ref sig .tc := ⟨.vmem, 76, rfl⟩
abbrev cc6_stg5_1 : Ref sig .tc := ⟨.vmem, 77, rfl⟩
abbrev cc6_stg6_0 : Ref sig .tc := ⟨.vmem, 78, rfl⟩
abbrev cc6_stg6_1 : Ref sig .tc := ⟨.vmem, 79, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem7_1 : DmaSem sig := 15
abbrev cc1_sem8_0 : DmaSem sig := 16
abbrev cc1_sem8_1 : DmaSem sig := 17
abbrev cc1_sem9_0 : DmaSem sig := 18
abbrev cc1_sem9_1 : DmaSem sig := 19
abbrev cc1_sem10_0 : DmaSem sig := 20
abbrev cc1_sem10_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem3_1 : DmaSem sig := 29
abbrev cc2_sem4_0 : DmaSem sig := 30
abbrev cc2_sem4_1 : DmaSem sig := 31
abbrev cc2_sem5_0 : DmaSem sig := 32
abbrev cc2_sem5_1 : DmaSem sig := 33
abbrev cc2_sem6_0 : DmaSem sig := 34
abbrev cc2_sem7_0 : DmaSem sig := 35
abbrev cc2_sem8_0 : DmaSem sig := 36
abbrev cc2_sem9_0 : DmaSem sig := 37
abbrev cc2_sem10_0 : DmaSem sig := 38
abbrev cc2_sem11_0 : DmaSem sig := 39
abbrev cc2_sem12_0 : DmaSem sig := 40
abbrev cc2_sem12_1 : DmaSem sig := 41
abbrev cc2_sem13_0 : DmaSem sig := 42
abbrev cc2_sem13_1 : DmaSem sig := 43
abbrev cc3_sem0_0 : DmaSem sig := 44
abbrev cc3_sem0_1 : DmaSem sig := 45
abbrev cc3_sem1_0 : DmaSem sig := 46
abbrev cc3_sem1_1 : DmaSem sig := 47
abbrev cc3_sem2_0 : DmaSem sig := 48
abbrev cc3_sem3_0 : DmaSem sig := 49
abbrev cc3_sem4_0 : DmaSem sig := 50
abbrev cc3_sem4_1 : DmaSem sig := 51
abbrev cc4_sem0_0 : DmaSem sig := 52
abbrev cc4_sem0_1 : DmaSem sig := 53
abbrev cc4_sem1_0 : DmaSem sig := 54
abbrev cc4_sem1_1 : DmaSem sig := 55
abbrev cc4_sem2_0 : DmaSem sig := 56
abbrev cc4_sem3_0 : DmaSem sig := 57
abbrev cc4_sem4_0 : DmaSem sig := 58
abbrev cc4_sem4_1 : DmaSem sig := 59
abbrev cc5_sem0_0 : DmaSem sig := 60
abbrev cc5_sem0_1 : DmaSem sig := 61
abbrev cc5_sem1_0 : DmaSem sig := 62
abbrev cc5_sem2_0 : DmaSem sig := 63
abbrev cc5_sem3_0 : DmaSem sig := 64
abbrev cc5_sem3_1 : DmaSem sig := 65
abbrev cc6_sem0_0 : DmaSem sig := 66
abbrev cc6_sem0_1 : DmaSem sig := 67
abbrev cc6_sem1_0 : DmaSem sig := 68
abbrev cc6_sem1_1 : DmaSem sig := 69
abbrev cc6_sem2_0 : DmaSem sig := 70
abbrev cc6_sem3_0 : DmaSem sig := 71
abbrev cc6_sem4_0 : DmaSem sig := 72
abbrev cc6_sem5_0 : DmaSem sig := 73
abbrev cc6_sem5_1 : DmaSem sig := 74
abbrev cc6_sem6_0 : DmaSem sig := 75
abbrev cc6_sem6_1 : DmaSem sig := 76

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1536x768 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1536 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S200x768 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x200 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2x200 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S2x200 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S512x768 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S512x768 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S512x200 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S512x200 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨2, ![8, 8], ![false, false]⟩

def k2_cond2 (i : grid2.Coords) : BitVec 1 :=
  let arg1 : BitVec 32 := BitVec.ofNat 32 (i 1).val
  let c7_i32 : BitVec 32 := 7#32
  let v53 : BitVec 1 := Scalar.cmpi .eq arg1 c7_i32
  let v54 : BitVec 32 := Scalar.extui v53
  let c0_i32_28 : BitVec 32 := 0#32
  let v55 : BitVec 1 := Scalar.cmpi .ne v54 c0_i32_28
  v55

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_13 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S512x768 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x768 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x200 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S512x200 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S512x768 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![false, true]

abbrev stage2_5 : Fin 2 → Memref sig .tc .vmem S512x768 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 1 → Memref sig .tc .vmem S768x768 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S1x768 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 1 → Memref sig .tc .vmem S256x768 .bf16 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev stage2_9 : Fin 1 → Memref sig .tc .vmem S1x256 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false, false]

abbrev stage2_10 : Fin 1 → Memref sig .tc .vmem S256x768 .bf16 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false, false]

abbrev stage2_11 : Fin 1 → Memref sig .tc .vmem S1x256 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false, false]

abbrev stage2_12 : Fin 2 → Memref sig .tc .vmem S512x256 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true, false]

abbrev stage2_13 : Fin 2 → Memref sig .tc .vmem S512x256 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true, false]

abbrev grid3 : Pipeline.Grid := ⟨1, ![8], ![false]⟩

@[reducible] def k3_t1_loop : Scf.Loop 32 :=
  let c0_i32 : BitVec 32 := 0#32
  let c16_i32 : BitVec 32 := 16#32
  let v3 : BitVec 32 := Scalar.addi c0_i32 c16_i32
  let c1_i32 : BitVec 32 := 1#32
  ⟨c0_i32, v3, c1_i32⟩
def k3_mult1 (k3_t1 : Fin k3_t1_loop.trips) : BitVec 32 :=
  let c0_i32 : BitVec 32 := 0#32
  let c1_i32 : BitVec 32 := 1#32
  let arg6 : BitVec 32 := Scf.iv c0_i32 c1_i32 k3_t1
  let c256_i32 : BitVec 32 := 256#32
  let v17 : BitVec 32 := Scalar.muli arg6 c256_i32
  v17
def k3_off1 (k3_t1 : Fin k3_t1_loop.trips) : Fin 2 → Nat :=
  let c0_i32 : BitVec 32 := 0#32
  let c1_i32 : BitVec 32 := 1#32
  let arg6 : BitVec 32 := Scf.iv c0_i32 c1_i32 k3_t1
  let c256_i32 : BitVec 32 := 256#32
  let v17 : BitVec 32 := Scalar.muli arg6 c256_i32
  let v18 : BitVec 32 := v17
  let v19 : Index := Scalar.indexCast v18
  let c0_9 : Index := 0#32
  ![v19.toNat, 0]
def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S4096x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S4096x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S512x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![8], ![false]⟩

@[reducible] def k4_t1_loop : Scf.Loop 32 :=
  let c0_i32 : BitVec 32 := 0#32
  let c16_i32 : BitVec 32 := 16#32
  let v3 : BitVec 32 := Scalar.addi c0_i32 c16_i32
  let c1_i32 : BitVec 32 := 1#32
  ⟨c0_i32, v3, c1_i32⟩
def k4_mult1 (k4_t1 : Fin k4_t1_loop.trips) : BitVec 32 :=
  let c0_i32 : BitVec 32 := 0#32
  let c1_i32 : BitVec 32 := 1#32
  let arg6 : BitVec 32 := Scf.iv c0_i32 c1_i32 k4_t1
  let c256_i32 : BitVec 32 := 256#32
  let v17 : BitVec 32 := Scalar.muli arg6 c256_i32
  v17
def k4_off1 (k4_t1 : Fin k4_t1_loop.trips) : Fin 2 → Nat :=
  let c0_i32 : BitVec 32 := 0#32
  let c1_i32 : BitVec 32 := 1#32
  let arg6 : BitVec 32 := Scf.iv c0_i32 c1_i32 k4_t1
  let c256_i32 : BitVec 32 := 256#32
  let v17 : BitVec 32 := Scalar.muli arg6 c256_i32
  let v18 : BitVec 32 := v17
  let v19 : Index := Scalar.indexCast v18
  let c0_9 : Index := 0#32
  ![v19.toNat, 0]
def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S512x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S4096x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S4096x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S512x256 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S512x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S256x256 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S512x256 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![8], ![false]⟩

@[reducible] def k6_t1_loop : Scf.Loop 32 :=
  let c0_i32 : BitVec 32 := 0#32
  let c16_i32 : BitVec 32 := 16#32
  let v8 : BitVec 32 := Scalar.addi c0_i32 c16_i32
  let c1_i32 : BitVec 32 := 1#32
  ⟨c0_i32, v8, c1_i32⟩
def k6_mult1 (k6_t1 : Fin k6_t1_loop.trips) : BitVec 32 :=
  let c0_i32 : BitVec 32 := 0#32
  let c1_i32 : BitVec 32 := 1#32
  let arg8 : BitVec 32 := Scf.iv c0_i32 c1_i32 k6_t1
  let c256_i32 : BitVec 32 := 256#32
  let v26 : BitVec 32 := Scalar.muli arg8 c256_i32
  v26
def k6_off1 (k6_t1 : Fin k6_t1_loop.trips) : Fin 2 → Nat :=
  let c0_i32 : BitVec 32 := 0#32
  let c1_i32 : BitVec 32 := 1#32
  let arg8 : BitVec 32 := Scf.iv c0_i32 c1_i32 k6_t1
  let c256_i32 : BitVec 32 := 256#32
  let v26 : BitVec 32 := Scalar.muli arg8 c256_i32
  let v27 : BitVec 32 := v26
  let v28 : Index := Scalar.indexCast v27
  let c0_12 : Index := 0#32
  ![v28.toNat, 0]
def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S512x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S512x256 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S4096x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S4096x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S4096x256 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S512x256 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S512x256 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

class Facts₀ : Prop where
  shapeCasts_S256_S1x256 : S256.ShapeCasts S1x256
  shapeCasts_S1536_S1x1536 : S1536.ShapeCasts S1x1536
  shapeCasts_S200_S1x200 : S200.ShapeCasts S1x200
  shapeCasts_S768_S1x768 : S768.ShapeCasts S1x768
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  transposes_S256x256_p1_0_S256x256 : S256x256.Transposes [1, 0] S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x768_S512x768_0_0 : ∀ a, (![0, 0] : Fin 2 → Nat) a + S512x768.size a ≤ S512x768.size a
  h_S512x768 : 0 < S512x768.numel
  inb_S1536x768_S1536x768_0_0 : ∀ a, (![0, 0] : Fin 2 → Nat) a + S1536x768.size a ≤ S1536x768.size a
  h_S1536x768 : 0 < S1536x768.numel
  shapeCasts_S1536x768_S1536x768 : S1536x768.ShapeCasts S1536x768
  transposes_S1536x768_p1_0_S768x1536 : S1536x768.Transposes [1, 0] S768x1536
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S512x1536 : S1x1536.Broadcasts S512x1536
  slices_S512x1536_o0_0_S512x768 : S512x1536.Slices ![0, 0] S512x768
  slices_S512x1536_o0_768_S512x768 : S512x1536.Slices ![0, 768] S512x768
  inb_S200x768_S200x768_0_0 : ∀ a, (![0, 0] : Fin 2 → Nat) a + S200x768.size a ≤ S200x768.size a
  h_S200x768 : 0 < S200x768.numel
  shapeCasts_S200x768_S200x768 : S200x768.ShapeCasts S200x768
  transposes_S200x768_p1_0_S768x200 : S200x768.Transposes [1, 0] S768x200
  inb_S1x200_S1x200_0_0 : ∀ a, (![0, 0] : Fin 2 → Nat) a + S1x200.size a ≤ S1x200.size a
  h_S1x200 : 0 < S1x200.numel
  shapeCasts_S1x200_S1x200 : S1x200.ShapeCasts S1x200
  broadcasts_S1x200_S512x200 : S1x200.Broadcasts S512x200
  inb_S2x200_S1x200_0_0 : ∀ a, (![0, 0] : Fin 2 → Nat) a + S1x200.size a ≤ S2x200.size a
  shapeCasts_S1x200_S200 : S1x200.ShapeCasts S200
  inb_S2x200_S1x200_1_0 : ∀ a, (![1, 0] : Fin 2 → Nat) a + S1x200.size a ≤ S2x200.size a
  inb_S512x200_S512x200_0_0 : ∀ a, (![0, 0] : Fin 2 → Nat) a + S512x200.size a ≤ S512x200.size a
  h_S512x200 : 0 < S512x200.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  shapeCasts_S512x768_S512x768 : S512x768.ShapeCasts S512x768
  transposes_S512x768_p1_0_S768x512 : S512x768.Transposes [1, 0] S768x512
  shapeCasts_S512x200_S512x200 : S512x200.ShapeCasts S512x200
  transposes_S512x200_p1_0_S200x512 : S512x200.Transposes [1, 0] S200x512
  reduces_S512x512_S512 : S512x512.Reduces [1] S512
  shapeCasts_S512_S512x1 : S512.ShapeCasts S512x1
  broadcasts_S512x1_S512x512 : S512x1.Broadcasts S512x512
  broadcasts_S512x1_S512x768 : S512x1.Broadcasts S512x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  transposes_S768x768_p1_0_S768x768 : S768x768.Transposes [1, 0] S768x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S512x768 : S1x768.Broadcasts S512x768
  inb_S256x768_S256x768_0_0 : ∀ a, (![0, 0] : Fin 2 → Nat) a + S256x768.size a ≤ S256x768.size a
  h_S256x768 : 0 < S256x768.numel
  shapeCasts_S256x768_S256x768 : S256x768.ShapeCasts S256x768
  transposes_S256x768_p1_0_S768x256 : S256x768.Transposes [1, 0] S768x256
  shapeCasts_S512x256_S512x256 : S512x256.ShapeCasts S512x256
  reduces_S512x256_S512 : S512x256.Reduces [1] S512
  broadcasts_S512x1_S512x256 : S512x1.Broadcasts S512x256
  dot_S512x256_S256x256_S512x256_1_0_0_1_n_n_wf : DotDims.WF S512x256 S256x256 S512x256 [1] [0] [0] [1] [] []
  dot_S512x768_S768x1536_S512x1536_1_0_0_1_n_n_wf : DotDims.WF S512x768 S768x1536 S512x1536 [1] [0] [0] [1] [] []
  dot_S512x768_S768x200_S512x200_1_0_0_1_n_n_wf : DotDims.WF S512x768 S768x200 S512x200 [1] [0] [0] [1] [] []
  dot_S512x768_S768x512_S512x512_1_0_0_1_n_n_wf : DotDims.WF S512x768 S768x512 S512x512 [1] [0] [0] [1] [] []
  dot_S512x200_S200x512_S512x512_1_0_0_1_n_n_wf : DotDims.WF S512x200 S200x512 S512x512 [1] [0] [0] [1] [] []
  dot_S512x512_S512x768_S512x768_1_0_0_1_n_n_wf : DotDims.WF S512x512 S512x768 S512x768 [1] [0] [0] [1] [] []
  dot_S512x768_S768x768_S512x768_1_0_0_1_n_n_wf : DotDims.WF S512x768 S768x768 S512x768 [1] [0] [0] [1] [] []
  dot_S512x768_S768x256_S512x256_1_0_0_1_n_n_wf : DotDims.WF S512x768 S768x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S4096x256.size a
  hwx0_0 : ∀ i : grid0.Coords, EltTy.bits .f32 = 32 ∨ (Rect.block (s := S4096x256) S512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S4096x256.size a
  hwx0_3 : ∀ i : grid0.Coords, EltTy.bits .f32 = 32 ∨ (Rect.block (s := S4096x256) S512x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x768.size a ≤ S4096x768.size a
  hwx1_0 : ∀ i : grid1.Coords, EltTy.bits .f32 = 32 ∨ (Rect.block (s := S4096x768) S512x768.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1536x768.size a ≤ S1536x768.size a
  hwx1_1 : ∀ i : grid1.Coords, EltTy.bits .bf16 = 32 ∨ (Rect.block (s := S1536x768) S1536x768.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1536.size a ≤ S1x1536.size a
  hwx1_2 : ∀ i : grid1.Coords, EltTy.bits .f32 = 32 ∨ (Rect.block (s := S1x1536) S1x1536.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S200x768.size a ≤ S200x768.size a
  hwx1_3 : ∀ i : grid1.Coords, EltTy.bits .bf16 = 32 ∨ (Rect.block (s := S200x768) S200x768.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x200.size a ≤ S1x200.size a
  hwx1_4 : ∀ i : grid1.Coords, EltTy.bits .f32 = 32 ∨ (Rect.block (s := S1x200) S1x200.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S2x200.size a ≤ S2x200.size a
  hwx1_5 : ∀ i : grid1.Coords, EltTy.bits .f32 = 32 ∨ (Rect.block (s := S2x200) S2x200.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S2x200.size a ≤ S2x200.size a
  hwx1_6 : ∀ i : grid1.Coords, EltTy.bits .f32 = 32 ∨ (Rect.block (s := S2x200) S2x200.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S512x768.size a ≤ S4096x768.size a
  hwx1_7 : ∀ i : grid1.Coords, EltTy.bits .f32 = 32 ∨ (Rect.block (s := S4096x768) S512x768.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S512x768.size a ≤ S4096x768.size a
  hwx1_8 : ∀ i : grid1.Coords, EltTy.bits .f32 = 32 ∨ (Rect.block (s := S4096x768) S512x768.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S512x200.size a ≤ S4096x200.size a
  hwx1_9 : ∀ i : grid1.Coords, EltTy.bits .f32 = 32 ∨ (Rect.block (s := S4096x200) S512x200.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S512x200.size a ≤ S4096x200.size a
  hwx1_10 : ∀ i : grid1.Coords, EltTy.bits .f32 = 32 ∨ (Rect.block (s := S4096x200) S512x200.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x768.size a ≤ S4096x768.size a
  hwx2_0 : ∀ i : grid2.Coords, EltTy.bits .f32 = 32 ∨ (Rect.block (s := S4096x768) S512x768.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x768.size a ≤ S4096x768.size a
  hwx2_1 : ∀ i : grid2.Coords, EltTy.bits .f32 = 32 ∨ (Rect.block (s := S4096x768) S512x768.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x200.size a ≤ S4096x200.size a
  hwx2_2 : ∀ i : grid2.Coords, EltTy.bits .f32 = 32 ∨ (Rect.block (s := S4096x200) S512x200.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x200.size a ≤ S4096x200.size a
  hwx2_3 : ∀ i : grid2.Coords, EltTy.bits .f32 = 32 ∨ (Rect.block (s := S4096x200) S512x200.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S512x768.size a ≤ S4096x768.size a
  hwx2_4 : ∀ i : grid2.Coords, EltTy.bits .f32 = 32 ∨ (Rect.block (s := S4096x768) S512x768.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S512x768.size a ≤ S4096x768.size a
  hwx2_5 : ∀ i : grid2.Coords, EltTy.bits .f32 = 32 ∨ (Rect.block (s := S4096x768) S512x768.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S768x768.size a ≤ S768x768.size a
  hwx2_6 : ∀ i : grid2.Coords, EltTy.bits .bf16 = 32 ∨ (Rect.block (s := S768x768) S768x768.size (cc2_transform_6 i) (hinb2_6 i)).WholeWords (EltTy.packing .bf16)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x768.size a ≤ S1x768.size a
  hwx2_7 : ∀ i : grid2.Coords, EltTy.bits .f32 = 32 ∨ (Rect.block (s := S1x768) S1x768.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S256x768.size a ≤ S256x768.size a
  hwx2_8 : ∀ i : grid2.Coords, EltTy.bits .bf16 = 32 ∨ (Rect.block (s := S256x768) S256x768.size (cc2_transform_8 i) (hinb2_8 i)).WholeWords (EltTy.packing .bf16)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x256.size a ≤ S1x256.size a
  hwx2_9 : ∀ i : grid2.Coords, EltTy.bits .f32 = 32 ∨ (Rect.block (s := S1x256) S1x256.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S256x768.size a ≤ S256x768.size a
  hwx2_10 : ∀ i : grid2.Coords, EltTy.bits .bf16 = 32 ∨ (Rect.block (s := S256x768) S256x768.size (cc2_transform_10 i) (hinb2_10 i)).WholeWords (EltTy.packing .bf16)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x256.size a ≤ S1x256.size a
  hwx2_11 : ∀ i : grid2.Coords, EltTy.bits .f32 = 32 ∨ (Rect.block (s := S1x256) S1x256.size (cc2_transform_11 i) (hinb2_11 i)).WholeWords (EltTy.packing .f32)
  hstage2_12 : ∀ j, (stage2_12 j).IsWhole
  nbuf2_12 : grid2.bufCount reads2_12 false = 2
  hreads2_12 : ∀ i i' : grid2.Coords, (∀ a, reads2_12 a = true → i a = i' a) → cc2_transform_12 i = cc2_transform_12 i'
  hinb2_12 : ∀ (i : grid2.Coords) a, (cc2_transform_12 i a + 1) * S512x256.size a ≤ S4096x256.size a
  hwx2_12 : ∀ i : grid2.Coords, EltTy.bits .f32 = 32 ∨ (Rect.block (s := S4096x256) S512x256.size (cc2_transform_12 i) (hinb2_12 i)).WholeWords (EltTy.packing .f32)
  hstage2_13 : ∀ j, (stage2_13 j).IsWhole
  nbuf2_13 : grid2.bufCount reads2_13 false = 2
  hreads2_13 : ∀ i i' : grid2.Coords, (∀ a, reads2_13 a = true → i a = i' a) → cc2_transform_13 i = cc2_transform_13 i'
  hinb2_13 : ∀ (i : grid2.Coords) a, (cc2_transform_13 i a + 1) * S512x256.size a ≤ S4096x256.size a
  hwx2_13 : ∀ i : grid2.Coords, EltTy.bits .f32 = 32 ∨ (Rect.block (s := S4096x256) S512x256.size (cc2_transform_13 i) (hinb2_13 i)).WholeWords (EltTy.packing .f32)
  hrank3 : 0 < grid3.rank
  k3_t1_ok : k3_t1_loop.OK
  k3_mult1_dvd : ∀ k3_t1 : Fin k3_t1_loop.trips, 256 ∣ (k3_mult1 k3_t1).toNat
  k3_off1_inb : ∀ k3_t1 : Fin k3_t1_loop.trips, ∀ a, (k3_off1 k3_t1) a + S256x256.size a ≤ S4096x256.size a
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x256.size a ≤ S4096x256.size a
  hwx3_0 : ∀ i : grid3.Coords, EltTy.bits .f32 = 32 ∨ (Rect.block (s := S4096x256) S512x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S512x256.size a ≤ S4096x256.size a
  hwx3_1 : ∀ i : grid3.Coords, EltTy.bits .f32 = 32 ∨ (Rect.block (s := S4096x256) S512x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S4096x256.size a ≤ S4096x256.size a
  hwx3_2 : ∀ i : grid3.Coords, EltTy.bits .f32 = 32 ∨ (Rect.block (s := S4096x256) S4096x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S4096x256.size a ≤ S4096x256.size a
  hwx3_3 : ∀ i : grid3.Coords, EltTy.bits .f32 = 32 ∨ (Rect.block (s := S4096x256) S4096x256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S512x256.size a ≤ S4096x256.size a
  hwx3_4 : ∀ i : grid3.Coords, EltTy.bits .f32 = 32 ∨ (Rect.block (s := S4096x256) S512x256.size (cc3_transform_4 i) (hinb3_4 i)).WholeWords (EltTy.packing .f32)
  hrank4 : 0 < grid4.rank
  k4_t1_ok : k4_t1_loop.OK
  k4_mult1_dvd : ∀ k4_t1 : Fin k4_t1_loop.trips, 256 ∣ (k4_mult1 k4_t1).toNat
  k4_off1_inb : ∀ k4_t1 : Fin k4_t1_loop.trips, ∀ a, (k4_off1 k4_t1) a + S256x256.size a ≤ S4096x256.size a
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x256.size a ≤ S4096x256.size a
  hwx4_0 : ∀ i : grid4.Coords, EltTy.bits .f32 = 32 ∨ (Rect.block (s := S4096x256) S512x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S512x256.size a ≤ S4096x256.size a
  hwx4_1 : ∀ i : grid4.Coords, EltTy.bits .f32 = 32 ∨ (Rect.block (s := S4096x256) S512x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S4096x256.size a ≤ S4096x256.size a
  hwx4_2 : ∀ i : grid4.Coords, EltTy.bits .f32 = 32 ∨ (Rect.block (s := S4096x256) S4096x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S4096x256.size a ≤ S4096x256.size a
  hwx4_3 : ∀ i : grid4.Coords, EltTy.bits .f32 = 32 ∨ (Rect.block (s := S4096x256) S4096x256.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S512x256.size a ≤ S4096x256.size a
  hwx4_4 : ∀ i : grid4.Coords, EltTy.bits .f32 = 32 ∨ (Rect.block (s := S4096x256) S512x256.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S512x256.size a ≤ S4096x256.size a
  hwx5_0 : ∀ i : grid5.Coords, EltTy.bits .f32 = 32 ∨ (Rect.block (s := S4096x256) S512x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S256x256.size a ≤ S256x256.size a
  hwx5_1 : ∀ i : grid5.Coords, EltTy.bits .bf16 = 32 ∨ (Rect.block (s := S256x256) S256x256.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S512x256.size a ≤ S4096x256.size a
  hwx5_3 : ∀ i : grid5.Coords, EltTy.bits .f32 = 32 ∨ (Rect.block (s := S4096x256) S512x256.size (cc5_transform_3 i) (hinb5_3 i)).WholeWords (EltTy.packing .f32)
  hrank6 : 0 < grid6.rank
  k6_t1_ok : k6_t1_loop.OK
  k6_mult1_dvd : ∀ k6_t1 : Fin k6_t1_loop.trips, 256 ∣ (k6_mult1 k6_t1).toNat
  k6_off1_inb : ∀ k6_t1 : Fin k6_t1_loop.trips, ∀ a, (k6_off1 k6_t1) a + S256x256.size a ≤ S4096x256.size a
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S512x256.size a ≤ S4096x256.size a
  hwx6_0 : ∀ i : grid6.Coords, EltTy.bits .f32 = 32 ∨ (Rect.block (s := S4096x256) S512x256.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S512x256.size a ≤ S4096x256.size a
  hwx6_1 : ∀ i : grid6.Coords, EltTy.bits .f32 = 32 ∨ (Rect.block (s := S4096x256) S512x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S4096x256.size a ≤ S4096x256.size a
  hwx6_2 : ∀ i : grid6.Coords, EltTy.bits .f32 = 32 ∨ (Rect.block (s := S4096x256) S4096x256.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S4096x256.size a ≤ S4096x256.size a
  hwx6_3 : ∀ i : grid6.Coords, EltTy.bits .f32 = 32 ∨ (Rect.block (s := S4096x256) S4096x256.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S4096x256.size a ≤ S4096x256.size a
  hwx6_4 : ∀ i : grid6.Coords, EltTy.bits .f32 = 32 ∨ (Rect.block (s := S4096x256) S4096x256.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S512x256.size a ≤ S4096x256.size a
  hwx6_5 : ∀ i : grid6.Coords, EltTy.bits .f32 = 32 ∨ (Rect.block (s := S4096x256) S512x256.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S512x256.size a ≤ S4096x256.size a
  hwx6_6 : ∀ i : grid6.Coords, EltTy.bits .f32 = 32 ∨ (Rect.block (s := S4096x256) S512x256.size (cc6_transform_6 i) (hinb6_6 i)).WholeWords (EltTy.packing .f32)

variable [Facts₀]

def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x768_S768x1536_S512x1536_1_0_0_1_n_n : DotDims S512x768 S768x1536 S512x1536 where
  lhsContracting := [1]
  rhsContracting := [0]
  lhsNonContracting := [0]
  rhsNonContracting := [1]
  lhsBatch := []
  rhsBatch := []
  wf := dot_S512x768_S768x1536_S512x1536_1_0_0_1_n_n_wf
def dot_S512x768_S768x200_S512x200_1_0_0_1_n_n : DotDims S512x768 S768x200 S512x200 where
  lhsContracting := [1]
  rhsContracting := [0]
  lhsNonContracting := [0]
  rhsNonContracting := [1]
  lhsBatch := []
  rhsBatch := []
  wf := dot_S512x768_S768x200_S512x200_1_0_0_1_n_n_wf
def dot_S512x768_S768x512_S512x512_1_0_0_1_n_n : DotDims S512x768 S768x512 S512x512 where
  lhsContracting := [1]
  rhsContracting := [0]
  lhsNonContracting := [0]
  rhsNonContracting := [1]
  lhsBatch := []
  rhsBatch := []
  wf := dot_S512x768_S768x512_S512x512_1_0_0_1_n_n_wf
def dot_S512x200_S200x512_S512x512_1_0_0_1_n_n : DotDims S512x200 S200x512 S512x512 where
  lhsContracting := [1]
  rhsContracting := [0]
  lhsNonContracting := [0]
  rhsNonContracting := [1]
  lhsBatch := []
  rhsBatch := []
  wf := dot_S512x200_S200x512_S512x512_1_0_0_1_n_n_wf
def dot_S512x512_S512x768_S512x768_1_0_0_1_n_n : DotDims S512x512 S512x768 S512x768 where
  lhsContracting := [1]
  rhsContracting := [0]
  lhsNonContracting := [0]
  rhsNonContracting := [1]
  lhsBatch := []
  rhsBatch := []
  wf := dot_S512x512_S512x768_S512x768_1_0_0_1_n_n_wf
def dot_S512x768_S768x768_S512x768_1_0_0_1_n_n : DotDims S512x768 S768x768 S512x768 where
  lhsContracting := [1]
  rhsContracting := [0]
  lhsNonContracting := [0]
  rhsNonContracting := [1]
  lhsBatch := []
  rhsBatch := []
  wf := dot_S512x768_S768x768_S512x768_1_0_0_1_n_n_wf
def dot_S512x768_S768x256_S512x256_1_0_0_1_n_n : DotDims S512x768 S768x256 S512x256 where
  lhsContracting := [1]
  rhsContracting := [0]
  lhsNonContracting := [0]
  rhsNonContracting := [1]
  lhsBatch := []
  rhsBatch := []
  wf := dot_S512x768_S768x256_S512x256_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S512x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S512x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1536x768.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x1536.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S200x768.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x200.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg14) S2x200.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg15) S2x200.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v15_0) S512x768.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v15_1) S512x768.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v15_2) S512x200.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v15_3) S512x200.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_arg1) S512x768.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S512x768.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v15_2) S512x200.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v15_3) S512x200.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v15_0) S512x768.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v15_1) S512x768.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v13) S768x768.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v6) S1x768.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v8) S256x768.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v1) S1x256.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v9) S256x768.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v2) S1x256.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v16_0) S512x256.size cc2_transform_12 reads2_12 true false 2 stage2_12 sem2_12
    hrank2 hreads2_12 hinb2_12 nbuf2_12 (Memref.isWhole_whole _) hwx2_12 hstage2_12

abbrev win2_13 : Pipeline.Window sig grid2 :=
  Pipeline.Window.ofSpec (Memref.whole main_v16_1) S512x256.size cc2_transform_13 reads2_13 true false 2 stage2_13 sem2_13
    hrank2 hreads2_13 hinb2_13 nbuf2_13 (Memref.isWhole_whole _) hwx2_13 hstage2_13

abbrev win2 : Fin 14 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | ⟨_ + 14, h⟩ => absurd h (Nat.not_lt.2 (Nat.le_add_left _ _))
abbrev spec2 : Fin 14 → Pipeline.WinSpec sig grid2.rank := fun w => (win2 w).toWinSpec

abbrev idle2 : Fin 14 → grid2.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun i => !(k2_cond2 i == 1#1) | 13 => fun i => !(k2_cond2 i == 1#1) | ⟨_ + 14, h⟩ => absurd h (Nat.not_lt.2 (Nat.le_add_left _ _))

abbrev win3_0 : Pipeline.Window sig grid3 :=
  Pipeline.Window.ofSpec (Memref.whole main_v16_0) S512x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S512x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v16_0) S4096x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v14) S4096x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v17) S512x256.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v16_1) S512x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v14) S512x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v16_1) S4096x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v14) S4096x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v18) S512x256.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v17) S512x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v10) S256x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v3) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v19) S512x256.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v19) S512x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v16_0) S512x256.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v19) S4096x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v14) S4096x256.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v18) S4096x256.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v17) S512x256.size cc6_transform_5 reads6_5 false false 2 stage6_5 sem6_5
    hrank6 hreads6_5 hinb6_5 nbuf6_5 (Memref.isWhole_whole _) hwx6_5 hstage6_5

abbrev win6_6 : Pipeline.Window sig grid6 :=
  Pipeline.Window.ofSpec (Memref.whole main_v20) S512x256.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

class Facts : Prop extends Facts₀ where

variable [Facts]
-- ==== ReferenceIdeal.lean ====
abbrev S4096x256 : Shape := ⟨2, ![4096, 256]⟩
abbrev S4096x768 : Shape := ⟨2, ![4096, 768]⟩
abbrev S256x256 : Shape := ⟨2, ![256, 256]⟩
abbrev S256 : Shape := ⟨1, ![256]⟩
abbrev S256x768 : Shape := ⟨2, ![256, 768]⟩
abbrev S1536x768 : Shape := ⟨2, ![1536, 768]⟩
abbrev S1536 : Shape := ⟨1, ![1536]⟩
abbrev S200x768 : Shape := ⟨2, ![200, 768]⟩
abbrev S200 : Shape := ⟨1, ![200]⟩
abbrev S2x200 : Shape := ⟨2, ![2, 200]⟩
abbrev S768x768 : Shape := ⟨2, ![768, 768]⟩
abbrev S768 : Shape := ⟨1, ![768]⟩
abbrev S1x256 : Shape := ⟨2, ![1, 256]⟩
abbrev S768x4096 : Shape := ⟨2, ![768, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S768x1536 : Shape := ⟨2, ![768, 1536]⟩
abbrev S4096x1536 : Shape := ⟨2, ![4096, 1536]⟩
abbrev S1x1536 : Shape := ⟨2, ![1, 1536]⟩
abbrev S768x200 : Shape := ⟨2, ![768, 200]⟩
abbrev S4096x200 : Shape := ⟨2, ![4096, 200]⟩
abbrev S1x200 : Shape := ⟨2, ![1, 200]⟩
abbrev S200x4096 : Shape := ⟨2, ![200, 4096]⟩
abbrev S1x768 : Shape := ⟨2, ![1, 768]⟩
abbrev S768x256 : Shape := ⟨2, ![768, 256]⟩
abbrev S256x4096 : Shape := ⟨2, ![256, 4096]⟩

abbrev nBuf : Space → Nat
  | .hbm => 221
  | .vmem => 0
  | .smem => 0
  | _ => 0

abbrev hbmTy0_0 (i : Nat) : BufTy := match i % 128 with
  | 0 => ⟨S4096x256, .f32⟩
  | 1 => ⟨S4096x768, .f32⟩
  | 2 => ⟨S256x256, .f32⟩
  | 3 => ⟨S256, .f32⟩
  | 4 => ⟨S256x768, .f32⟩
  | 5 => ⟨S256, .f32⟩
  | 6 => ⟨S256x768, .f32⟩
  | 7 => ⟨S256, .f32⟩
  | 8 => ⟨S256x256, .f32⟩
  | 9 => ⟨S256, .f32⟩
  | 10 => ⟨S1536x768, .f32⟩
  | 11 => ⟨S1536, .f32⟩
  | 12 => ⟨S200x768, .f32⟩
  | 13 => ⟨S200, .f32⟩
  | 14 => ⟨S2x200, .f32⟩
  | 15 => ⟨S2x200, .f32⟩
  | 16 => ⟨S768x768, .f32⟩
  | 17 => ⟨S768, .f32⟩
  | 18 => ⟨S256x256, .f32⟩
  | 19 => ⟨S4096x256, .f32⟩
  | 20 => ⟨S1x256, .f32⟩
  | 21 => ⟨S4096x256, .f32⟩
  | 22 => ⟨S4096x256, .f32⟩
  | 23 => ⟨S768x4096, .f32⟩
  | 24 => ⟨S4096x4096, .f32⟩
  | 25 => ⟨S_, .f32⟩
  | 26 => ⟨S4096, .f32⟩
  | 27 => ⟨S_, .f32⟩
  | 28 => ⟨S4096, .f32⟩
  | 29 => ⟨S4096, .f32⟩
  | 30 => ⟨S4096x1, .f32⟩
  | 31 => ⟨S4096x4096, .f32⟩
  | 32 => ⟨S4096x4096, .f32⟩
  | 33 => ⟨S4096x4096, .f32⟩
  | 34 => ⟨S_, .f32⟩
  | 35 => ⟨S4096, .f32⟩
  | 36 => ⟨S4096x1, .f32⟩
  | 37 => ⟨S4096x4096, .f32⟩
  | 38 => ⟨S4096x4096, .f32⟩
  | 39 => ⟨S768x1536, .f32⟩
  | 40 => ⟨S4096x1536, .f32⟩
  | 41 => ⟨S1x1536, .f32⟩
  | 42 => ⟨S4096x1536, .f32⟩
  | 43 => ⟨S4096x1536, .f32⟩
  | 44 => ⟨S4096x1536, .f32⟩
  | 45 => ⟨S4096x1536, .f32⟩
  | 46 => ⟨S_, .f32⟩
  | 47 => ⟨S4096x1536, .f32⟩
  | 48 => ⟨S4096x1536, .f32⟩
  | 49 => ⟨S_, .f32⟩
  | 50 => ⟨S4096x1536, .f32⟩
  | 51 => ⟨S4096x1536, .f32⟩
  | 52 => ⟨S4096x1536, .f32⟩
  | 53 => ⟨S4096x768, .f32⟩
  | 54 => ⟨S4096x768, .f32⟩
  | 55 => ⟨S768x200, .f32⟩
  | 56 => ⟨S4096x200, .f32⟩
  | 57 => ⟨S1x200, .f32⟩
  | 58 => ⟨S4096x200, .f32⟩
  | 59 => ⟨S4096x200, .f32⟩
  | 60 => ⟨S4096x200, .f32⟩
  | 61 => ⟨S4096x200, .f32⟩
  | 62 => ⟨S_, .f32⟩
  | 63 => ⟨S4096x200, .f32⟩
  | 64 => ⟨S4096x200, .f32⟩
  | 65 => ⟨S_, .f32⟩
  | 66 => ⟨S4096x200, .f32⟩
  | 67 => ⟨S4096x200, .f32⟩
  | 68 => ⟨S4096x200, .f32⟩
  | 69 => ⟨S1x200, .f32⟩
  | 70 => ⟨S200, .f32⟩
  | 71 => ⟨S1x200, .f32⟩
  | 72 => ⟨S4096x200, .f32⟩
  | 73 => ⟨S4096x200, .f32⟩
  | 74 => ⟨S1x200, .f32⟩
  | 75 => ⟨S200, .f32⟩
  | 76 => ⟨S1x200, .f32⟩
  | 77 => ⟨S4096x200, .f32⟩
  | 78 => ⟨S4096x200, .f32⟩
  | 79 => ⟨S1x200, .f32⟩
  | 80 => ⟨S200, .f32⟩
  | 81 => ⟨S1x200, .f32⟩
  | 82 => ⟨S4096x200, .f32⟩
  | 83 => ⟨S4096x200, .f32⟩
  | 84 => ⟨S1x200, .f32⟩
  | 85 => ⟨S200, .f32⟩
  | 86 => ⟨S1x200, .f32⟩
  | 87 => ⟨S4096x200, .f32⟩
  | 88 => ⟨S4096x200, .f32⟩
  | 89 => ⟨S200x4096, .f32⟩
  | 90 => ⟨S4096x4096, .f32⟩
  | 91 => ⟨S_, .f32⟩
  | 92 => ⟨S4096x4096, .f32⟩
  | 93 => ⟨S4096x4096, .f32⟩
  | 94 => ⟨S_, .f32⟩
  | 95 => ⟨S4096x4096, .f32⟩
  | 96 => ⟨S4096x4096, .f32⟩
  | 97 => ⟨S4096x4096, .f32⟩
  | 98 => ⟨S4096x4096, .f32⟩
  | 99 => ⟨S4096x768, .f32⟩
  | 100 => ⟨S4096x768, .f32⟩
  | 101 => ⟨S768x768, .f32⟩
  | 102 => ⟨S4096x768, .f32⟩
  | 103 => ⟨S1x768, .f32⟩
  | 104 => ⟨S4096x768, .f32⟩
  | 105 => ⟨S4096x768, .f32⟩
  | 106 => ⟨S4096x768, .f32⟩
  | 107 => ⟨S768x256, .f32⟩
  | 108 => ⟨S4096x256, .f32⟩
  | 109 => ⟨S1x256, .f32⟩
  | 110 => ⟨S4096x256, .f32⟩
  | 111 => ⟨S4096x256, .f32⟩
  | 112 => ⟨S768x256, .f32⟩
  | 113 => ⟨S4096x256, .f32⟩
  | 114 => ⟨S1x256, .f32⟩
  | 115 => ⟨S4096x256, .f32⟩
  | 116 => ⟨S4096x256, .f32⟩
  | 117 => ⟨S256x4096, .f32⟩
  | 118 => ⟨S4096x4096, .f32⟩
  | 119 => ⟨S_, .f32⟩
  | 120 => ⟨S4096, .f32⟩
  | 121 => ⟨S_, .f32⟩
  | 122 => ⟨S4096, .f32⟩
  | 123 => ⟨S4096, .f32⟩
  | 124 => ⟨S4096x1, .f32⟩
  | 125 => ⟨S4096x4096, .f32⟩
  | 126 => ⟨S4096x4096, .f32⟩
  | 127 => ⟨S4096x4096, .f32⟩
  | _ => ⟨S4096x256, .f32⟩

abbrev hbmTy0_1 (i : Nat) : BufTy := match i % 128 with
  | 0 => ⟨S_, .f32⟩
  | 1 => ⟨S4096, .f32⟩
  | 2 => ⟨S4096x1, .f32⟩
  | 3 => ⟨S4096x4096, .f32⟩
  | 4 => ⟨S4096x4096, .f32⟩
  | 5 => ⟨S4096x256, .f32⟩
  | 6 => ⟨S_, .f32⟩
  | 7 => ⟨S4096x256, .f32⟩
  | 8 => ⟨S4096x256, .f32⟩
  | 9 => ⟨S4096x256, .f32⟩
  | 10 => ⟨S4096x256, .f32⟩
  | 11 => ⟨S4096x256, .f32⟩
  | 12 => ⟨S256x4096, .f32⟩
  | 13 => ⟨S4096x4096, .f32⟩
  | 14 => ⟨S_, .f32⟩
  | 15 => ⟨S4096, .f32⟩
  | 16 => ⟨S_, .f32⟩
  | 17 => ⟨S4096, .f32⟩
  | 18 => ⟨S4096, .f32⟩
  | 19 => ⟨S4096x1, .f32⟩
  | 20 => ⟨S4096x4096, .f32⟩
  | 21 => ⟨S4096x4096, .f32⟩
  | 22 => ⟨S4096x4096, .f32⟩
  | 23 => ⟨S_, .f32⟩
  | 24 => ⟨S4096, .f32⟩
  | 25 => ⟨S4096x1, .f32⟩
  | 26 => ⟨S4096x4096, .f32⟩
  | 27 => ⟨S4096x4096, .f32⟩
  | 28 => ⟨S4096x256, .f32⟩
  | 29 => ⟨S_, .f32⟩
  | 30 => ⟨S4096x256, .f32⟩
  | 31 => ⟨S4096x256, .f32⟩
  | 32 => ⟨S4096x256, .f32⟩
  | 33 => ⟨S4096x256, .f32⟩
  | 34 => ⟨S4096x256, .f32⟩
  | 35 => ⟨S256x256, .f32⟩
  | 36 => ⟨S4096x256, .f32⟩
  | 37 => ⟨S1x256, .f32⟩
  | 38 => ⟨S4096x256, .f32⟩
  | 39 => ⟨S4096x256, .f32⟩
  | 40 => ⟨S4096x256, .f32⟩
  | 41 => ⟨S4096x256, .f32⟩
  | 42 => ⟨S_, .f32⟩
  | 43 => ⟨S4096x256, .f32⟩
  | 44 => ⟨S4096x256, .f32⟩
  | 45 => ⟨S_, .f32⟩
  | 46 => ⟨S4096x256, .f32⟩
  | 47 => ⟨S4096x256, .f32⟩
  | 48 => ⟨S4096x256, .f32⟩
  | 49 => ⟨S_, .f32⟩
  | 50 => ⟨S4096x256, .f32⟩
  | 51 => ⟨S4096x256, .f32⟩
  | 52 => ⟨S4096x256, .f32⟩
  | 53 => ⟨S256x4096, .f32⟩
  | 54 => ⟨S4096x4096, .f32⟩
  | 55 => ⟨S_, .f32⟩
  | 56 => ⟨S4096x4096, .f32⟩
  | 57 => ⟨S4096x4096, .f32⟩
  | 58 => ⟨S_, .f32⟩
  | 59 => ⟨S4096, .f32⟩
  | 60 => ⟨S_, .f32⟩
  | 61 => ⟨S4096, .f32⟩
  | 62 => ⟨S4096, .f32⟩
  | 63 => ⟨S4096x1, .f32⟩
  | 64 => ⟨S4096x4096, .f32⟩
  | 65 => ⟨S4096x4096, .f32⟩
  | 66 => ⟨S4096x4096, .f32⟩
  | 67 => ⟨S_, .f32⟩
  | 68 => ⟨S4096, .f32⟩
  | 69 => ⟨S4096x1, .f32⟩
  | 70 => ⟨S4096x4096, .f32⟩
  | 71 => ⟨S4096x4096, .f32⟩
  | 72 => ⟨S4096x256, .f32⟩
  | 73 => ⟨S4096x256, .f32⟩
  | 74 => ⟨S4096x256, .f32⟩
  | 75 => ⟨S4096x256, .f32⟩
  | 76 => ⟨S4096x256, .f32⟩
  | 77 => ⟨S_, .f32⟩
  | 78 => ⟨S4096x256, .f32⟩
  | 79 => ⟨S4096x256, .f32⟩
  | 80 => ⟨S_, .f32⟩
  | 81 => ⟨S4096x256, .f32⟩
  | 82 => ⟨S4096x256, .f32⟩
  | 83 => ⟨S4096x256, .f32⟩
  | 84 => ⟨S_, .f32⟩
  | 85 => ⟨S4096, .f32⟩
  | 86 => ⟨S4096x1, .f32⟩
  | 87 => ⟨S4096x1, .f32⟩
  | 88 => ⟨S_, .f32⟩
  | 89 => ⟨S4096x1, .f32⟩
  | 90 => ⟨S4096x1, .f32⟩
  | 91 => ⟨S4096x256, .f32⟩
  | 92 => ⟨S4096x256, .f32⟩
  | _ => ⟨S4096x256, .f32⟩

abbrev hbmTy (i : Nat) : BufTy := match i / 128 with
  | 0 => hbmTy0_0 i
  | 1 => hbmTy0_1 i
  | _ => ⟨S4096x256, .f32⟩

abbrev bufTy : (tb : Table) → Fin (tcTables nBuf tb) → BufTy
  | .hbm, ⟨i, _⟩ => hbmTy i
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_cst_0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_1 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_call1_v0 : Ref sig .tc := ⟨.hbm, 60, rfl⟩
abbrev main_call1_v1 : Ref sig .tc := ⟨.hbm, 61, rfl⟩
abbrev main_call1_cst : Ref sig .tc := ⟨.hbm, 62, rfl⟩
abbrev main_call1_v2 : Ref sig .tc := ⟨.hbm, 63, rfl⟩
abbrev main_call1_v3 : Ref sig .tc := ⟨.hbm, 64, rfl⟩
abbrev main_call1_cst_0 : Ref sig .tc := ⟨.hbm, 65, rfl⟩
abbrev main_call1_v4 : Ref sig .tc := ⟨.hbm, 66, rfl⟩
abbrev main_call1_v5 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_cst_2 : Ref sig .tc := ⟨.hbm, 91, rfl⟩
abbrev main_v54 : Ref sig .tc := ⟨.hbm, 92, rfl⟩
abbrev main_v55 : Ref sig .tc := ⟨.hbm, 93, rfl⟩
abbrev main_call2_cst : Ref sig .tc := ⟨.hbm, 94, rfl⟩
abbrev main_call2_v0 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_cst_3 : Ref sig .tc := ⟨.hbm, 119, rfl⟩
abbrev main_v79 : Ref sig .tc := ⟨.hbm, 120, rfl⟩
abbrev main_cst_4 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_cst_5 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_call3_cst : Ref sig .tc := ⟨.hbm, 134, rfl⟩
abbrev main_call3_v0 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_cst_6 : Ref sig .tc := ⟨.hbm, 142, rfl⟩
abbrev main_v97 : Ref sig .tc := ⟨.hbm, 143, rfl⟩
abbrev main_cst_7 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_cst_8 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_call4_cst : Ref sig .tc := ⟨.hbm, 157, rfl⟩
abbrev main_call4_v0 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_cst_9 : Ref sig .tc := ⟨.hbm, 170, rfl⟩
abbrev main_v120 : Ref sig .tc := ⟨.hbm, 171, rfl⟩
abbrev main_v121 : Ref sig .tc := ⟨.hbm, 172, rfl⟩
abbrev main_cst_10 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_cst_11 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_cst_12 : Ref sig .tc := ⟨.hbm, 183, rfl⟩
abbrev main_v130 : Ref sig .tc := ⟨.hbm, 184, rfl⟩
abbrev main_v131 : Ref sig .tc := ⟨.hbm, 185, rfl⟩
abbrev main_cst_13 : Ref sig .tc := ⟨.hbm, 186, rfl⟩
abbrev main_v132 : Ref sig .tc := ⟨.hbm, 187, rfl⟩
abbrev main_cst_14 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_cst_15 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_cst_16 : Ref sig .tc := ⟨.hbm, 205, rfl⟩
abbrev main_v148 : Ref sig .tc := ⟨.hbm, 206, rfl⟩
abbrev main_v149 : Ref sig .tc := ⟨.hbm, 207, rfl⟩
abbrev main_cst_17 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_cst_18 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_cst_19 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩

abbrev nD : Nat := 1
abbrev τ : Topo := Topo.v7x

variable {F : FTy → Type} [FloatOps F]

class Facts₀ : Prop where
  transposes_S256x256_S256x256_1_0 : S256x256.Transposes [1, 0] S256x256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  transposes_S4096x768_S768x4096_1_0 : S4096x768.Transposes [1, 0] S768x4096
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  transposes_S1536x768_S768x1536_1_0 : S1536x768.Transposes [1, 0] S768x1536
  bcast_S1536_S1x1536_1 : S1536.BroadcastsInDim S1x1536 (![1] : Fin 1 → Fin S1x1536.rank)
  bcast_S1x1536_S4096x1536_0_1 : S1x1536.BroadcastsInDim S4096x1536 (![0, 1] : Fin 2 → Fin S4096x1536.rank)
  bcast_S_S4096x1536 : S_.BroadcastsInDim S4096x1536 (![] : Fin 0 → Fin S4096x1536.rank)
  slices_S4096x1536_S4096x768_0_0 : S4096x1536.Slices ![0, 0] S4096x768
  slices_S4096x1536_S4096x768_0_768 : S4096x1536.Slices ![0, 768] S4096x768
  transposes_S200x768_S768x200_1_0 : S200x768.Transposes [1, 0] S768x200
  bcast_S200_S1x200_1 : S200.BroadcastsInDim S1x200 (![1] : Fin 1 → Fin S1x200.rank)
  bcast_S1x200_S4096x200_0_1 : S1x200.BroadcastsInDim S4096x200 (![0, 1] : Fin 2 → Fin S4096x200.rank)
  bcast_S_S4096x200 : S_.BroadcastsInDim S4096x200 (![] : Fin 0 → Fin S4096x200.rank)
  slices_S2x200_S1x200_0_0 : S2x200.Slices ![0, 0] S1x200
  shapeCasts_S1x200_S200 : S1x200.ShapeCasts S200
  slices_S2x200_S1x200_1_0 : S2x200.Slices ![1, 0] S1x200
  transposes_S4096x200_S200x4096_1_0 : S4096x200.Transposes [1, 0] S200x4096
  bcast_S_S4096x4096 : S_.BroadcastsInDim S4096x4096 (![] : Fin 0 → Fin S4096x4096.rank)
  transposes_S768x768_S768x768_1_0 : S768x768.Transposes [1, 0] S768x768
  bcast_S768_S1x768_1 : S768.BroadcastsInDim S1x768 (![1] : Fin 1 → Fin S1x768.rank)
  bcast_S1x768_S4096x768_0_1 : S1x768.BroadcastsInDim S4096x768 (![0, 1] : Fin 2 → Fin S4096x768.rank)
  transposes_S256x768_S768x256_1_0 : S256x768.Transposes [1, 0] S768x256
  transposes_S4096x256_S256x4096_1_0 : S4096x256.Transposes [1, 0] S256x4096
  bcast_S_S4096x256 : S_.BroadcastsInDim S4096x256 (![] : Fin 0 → Fin S4096x256.rank)
  reducesTo_S4096x256_S4096_d1 : S4096x256.ReducesTo [1] S4096
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  dot_S4096x256_S256x256_S4096x256_1_0_0_1_n_n_wf : DotDims.WF S4096x256 S256x256 S4096x256 [1] [0] [0] [1] [] []
  dot_S4096x768_S768x4096_S4096x4096_1_0_0_1_n_n_wf : DotDims.WF S4096x768 S768x4096 S4096x4096 [1] [0] [0] [1] [] []
  dot_S4096x768_S768x1536_S4096x1536_1_0_0_1_n_n_wf : DotDims.WF S4096x768 S768x1536 S4096x1536 [1] [0] [0] [1] [] []
  dot_S4096x768_S768x200_S4096x200_1_0_0_1_n_n_wf : DotDims.WF S4096x768 S768x200 S4096x200 [1] [0] [0] [1] [] []
  dot_S4096x200_S200x4096_S4096x4096_1_0_0_1_n_n_wf : DotDims.WF S4096x200 S200x4096 S4096x4096 [1] [0] [0] [1] [] []
  dot_S4096x4096_S4096x768_S4096x768_1_0_0_1_n_n_wf : DotDims.WF S4096x4096 S4096x768 S4096x768 [1] [0] [0] [1] [] []
  dot_S4096x768_S768x768_S4096x768_1_0_0_1_n_n_wf : DotDims.WF S4096x768 S768x768 S4096x768 [1] [0] [0] [1] [] []
  dot_S4096x768_S768x256_S4096x256_1_0_0_1_n_n_wf : DotDims.WF S4096x768 S768x256 S4096x256 [1] [0] [0] [1] [] []
  dot_S4096x256_S256x4096_S4096x4096_1_0_0_1_n_n_wf : DotDims.WF S4096x256 S256x4096 S4096x4096 [1] [0] [0] [1] [] []
  dot_S4096x4096_S4096x256_S4096x256_1_0_0_1_n_n_wf : DotDims.WF S4096x4096 S4096x256 S4096x256 [1] [0] [0] [1] [] []

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x768_S768x4096_S4096x4096_1_0_0_1_n_n : DotDims S4096x768 S768x4096 S4096x4096 where
  lhsContracting := [1]
  rhsContracting := [0]
  lhsNonContracting := [0]
  rhsNonContracting := [1]
  lhsBatch := []
  rhsBatch := []
  wf := dot_S4096x768_S768x4096_S4096x4096_1_0_0_1_n_n_wf
def dot_S4096x768_S768x1536_S4096x1536_1_0_0_1_n_n : DotDims S4096x768 S768x1536 S4096x1536 where
  lhsContracting := [1]
  rhsContracting := [0]
  lhsNonContracting := [0]
  rhsNonContracting := [1]
  lhsBatch := []
  rhsBatch := []
  wf := dot_S4096x768_S768x1536_S4096x1536_1_0_0_1_n_n_wf
def dot_S4096x768_S768x200_S4096x200_1_0_0_1_n_n : DotDims S4096x768 S768x200 S4096x200 where
  lhsContracting := [1]
  rhsContracting := [0]
  lhsNonContracting := [0]
  rhsNonContracting := [1]
  lhsBatch := []
  rhsBatch := []
  wf := dot_S4096x768_S768x200_S4096x200_1_0_0_1_n_n_wf
def dot_S4096x200_S200x4096_S4096x4096_1_0_0_1_n_n : DotDims S4096x200 S200x4096 S4096x4096 where
  lhsContracting := [1]
  rhsContracting := [0]
  lhsNonContracting := [0]
  rhsNonContracting := [1]
  lhsBatch := []
  rhsBatch := []
  wf := dot_S4096x200_S200x4096_S4096x4096_1_0_0_1_n_n_wf
def dot_S4096x4096_S4096x768_S4096x768_1_0_0_1_n_n : DotDims S4096x4096 S4096x768 S4096x768 where
  lhsContracting := [1]
  rhsContracting := [0]
  lhsNonContracting := [0]
  rhsNonContracting := [1]
  lhsBatch := []
  rhsBatch := []
  wf := dot_S4096x4096_S4096x768_S4096x768_1_0_0_1_n_n_wf
def dot_S4096x768_S768x768_S4096x768_1_0_0_1_n_n : DotDims S4096x768 S768x768 S4096x768 where
  lhsContracting := [1]
  rhsContracting := [0]
  lhsNonContracting := [0]
  rhsNonContracting := [1]
  lhsBatch := []
  rhsBatch := []
  wf := dot_S4096x768_S768x768_S4096x768_1_0_0_1_n_n_wf
def dot_S4096x768_S768x256_S4096x256_1_0_0_1_n_n : DotDims S4096x768 S768x256 S4096x256 where
  lhsContracting := [1]
  rhsContracting := [0]
  lhsNonContracting := [0]
  rhsNonContracting := [1]
  lhsBatch := []
  rhsBatch := []
  wf := dot_S4096x768_S768x256_S4096x256_1_0_0_1_n_n_wf
def dot_S4096x256_S256x4096_S4096x4096_1_0_0_1_n_n : DotDims S4096x256 S256x4096 S4096x4096 where
  lhsContracting := [1]
  rhsContracting := [0]
  lhsNonContracting := [0]
  rhsNonContracting := [1]
  lhsBatch := []
  rhsBatch := []
  wf := dot_S4096x256_S256x4096_S4096x4096_1_0_0_1_n_n_wf
def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf

class Facts : Prop extends Facts₀ where

variable [Facts]
-- ==== Proof.KB.Region0.lean ====
import proofs.«170994_j15857019257044_2_alg».proof.Proof.Gen.Kernel.Launch
import proofs.«170994_j15857019257044_2_alg».proof.Proof.Gen.Kernel.Skeleton
import proofs.«170994_j15857019257044_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 0 of @main: the row-tiled linear layer `cc0_kernel` (x block i, the whole weight, the whole bias → out block i) -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (an unfetched
    window's block index has not moved), for any proof data whose array is `V`'s and whose body leaves the block
    in place. Window 0 (the rows of x): -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Window 1 (the whole weight, one block for every point): -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Window 2 (the whole bias row, one block for every point): -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole staging buffer -/

abbrev r0_x : Rect S512x256 := Rect.unit (s := S512x256) ![0, 0] S512x256.size inb_S512x256_S512x256_0_0
abbrev r0_w : Rect S256x256 := Rect.unit (s := S256x256) ![0, 0] S256x256.size inb_S256x256_S256x256_0_0
abbrev r0_b : Rect S1x256 := Rect.unit (s := S1x256) ![0, 0] S1x256.size inb_S1x256_S1x256_0_0

/-! ## What the body leaves in the output window's buffer -/

/-- Window 3's staging buffer after the body, from the input windows' blocks: its one store, of x·Wᵀ + b
    (the payload `k0_pay1` of the three loads). -/
def out0_3 (x0 : Vec F S512x256 .f32) (x1 : Vec F S256x256 .bf16) (x2 : Vec F S1x256 .f32) : Vec F S512x256 .f32 :=
  View.canon [⟨r0_x, k0_pay1 (View.ld x0 r0_x) (View.ld x1 r0_w) (View.ld x2 r0_b)⟩]

/-- The store is the whole buffer, so it covers it. -/
theorem cover0_3 (p0 : Vec F S512x256 .f32) (y : S512x256.Idx) :
    ∃ pc ∈ ([⟨r0_x, p0⟩] : List (View.Piece (Elt F) S512x256 .f32)), y ∈ pc.1.set :=
  View.cover_of_tiled [⟨r0_x, p0⟩] S512x256.size (by rfl) y

/-! ## The body's triple -/

set_option maxHeartbeats 1000000 in
/-- The kernel body on whole staging memrefs, the inputs' at read contents `xW` and the output's at anything, runs to
    the continuation holding the inputs' as they were and the output's at `out0_3` of the inputs'. -/
theorem sound_kernel0 (c : Dev nD) (E : Set ℕ) (i : grid0.Coords)
    (arg1 : Memref sig .tc .vmem S512x256 .f32) (harg1 : arg1.IsWhole) (arg2 : Memref sig .tc .vmem S256x256 .bf16) (harg2 : arg2.IsWhole)
    (arg3 : Memref sig .tc .vmem S1x256 .f32) (harg3 : arg3.IsWhole) (arg4 : Memref sig .tc .vmem S512x256 .f32) (harg4 : arg4.IsWhole)
    (x0 : Vec F S512x256 .f32) (x1 : Vec F S256x256 .bf16) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0_kernel i arg1 harg1 arg2 harg2 arg3 harg3 arg4 harg4) K := by
  simp only [cc0_kernel_eq_skeleton]; unfold cc0_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at
    point `t` each input's buffer at its block and the output's at `out0_3` of the input blocks; the invariant the
    scoped rest and the generator register, untouched; nothing owed; every array read through one window, at the full share. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q w := match w with
    | ⟨0, _⟩ => fullShare
    | ⟨1, _⟩ => fullShare
    | ⟨2, _⟩ => fullShare
    | ⟨3, _⟩ => fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Region1.lean ====
import proofs.«170994_j15857019257044_2_alg».proof.Proof.Gen.Kernel.Launch
import proofs.«170994_j15857019257044_2_alg».proof.Proof.Gen.Kernel.Skeleton
import proofs.«170994_j15857019257044_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 1 of @main: the preprocessing `cc1_kernel` of the gated attention unit
(x block i and five whole parameter arrays → the blocks i of v, gate, q, k) -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, fetched there or not (an unfetched
window's block index has not moved), for any proof data whose array is `V`'s and whose body leaves the block in place. -/

/-- Window 0 (the rows of x): -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Window 1 (the whole weight of the (v, gate) projection): -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Window 2 (its whole bias row): -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Window 3 (the whole weight of the shared (q, k) projection): -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Window 4 (its whole bias row): -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Window 5 (the two scale rows): -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Window 6 (the two offset rows): -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

-- whole staging buffers
abbrev r1_x : Rect S512x768 := Rect.unit (s := S512x768) ![0, 0] S512x768.size inb_S512x768_S512x768_0_0
abbrev r1_wu : Rect S1536x768 := Rect.unit (s := S1536x768) ![0, 0] S1536x768.size inb_S1536x768_S1536x768_0_0
abbrev r1_bu : Rect S1x1536 := Rect.unit (s := S1x1536) ![0, 0] S1x1536.size inb_S1x1536_S1x1536_0_0
abbrev r1_wz : Rect S200x768 := Rect.unit (s := S200x768) ![0, 0] S200x768.size inb_S200x768_S200x768_0_0
abbrev r1_bz : Rect S1x200 := Rect.unit (s := S1x200) ![0, 0] S1x200.size inb_S1x200_S1x200_0_0
abbrev r1_z : Rect S512x200 := Rect.unit (s := S512x200) ![0, 0] S512x200.size inb_S512x200_S512x200_0_0
-- row 0 and row 1 of a two-row parameter
abbrev r1_row0 : Rect S2x200 := Rect.unit (s := S2x200) ![0, 0] S1x200.size inb_S2x200_S1x200_0_0
abbrev r1_row1 : Rect S2x200 := Rect.unit (s := S2x200) ![1, 0] S1x200.size inb_S2x200_S1x200_1_0

/-! ## What the body leaves in each output window's buffer -/

/-- Window 7 (v): the left column half of u = (x·Wuᵀ + bu)·logistic(x·Wuᵀ + bu). -/
def out1_7 (x0 : Vec F S512x768 .f32) (x1 : Vec F S1536x768 .bf16) (x2 : Vec F S1x1536 .f32) : Vec F S512x768 .f32 :=
  View.canon [⟨r1_x, k1_pay3 (View.ld x0 r1_x) (View.ld x1 r1_wu) (View.ld x2 r1_bu)⟩]

/-- Window 8 (gate): the right column half of the same u. -/
def out1_8 (x0 : Vec F S512x768 .f32) (x1 : Vec F S1536x768 .bf16) (x2 : Vec F S1x1536 .f32) : Vec F S512x768 .f32 :=
  View.canon [⟨r1_x, k1_pay4 (View.ld x0 r1_x) (View.ld x1 r1_wu) (View.ld x2 r1_bu)⟩]

/-- Window 9 (q): z·(scale row 0) + (offset row 0), z = (x·Wzᵀ + bz)·logistic(x·Wzᵀ + bz). -/
def out1_9 (x0 : Vec F S512x768 .f32) (x3 : Vec F S200x768 .bf16) (x4 : Vec F S1x200 .f32) (x5 : Vec F S2x200 .f32) (x6 : Vec F S2x200 .f32) :
    Vec F S512x200 .f32 :=
  View.canon [⟨r1_z, k1_pay8 (View.ld x0 r1_x) (View.ld x3 r1_wz) (View.ld x4 r1_bz) (View.ld x5 r1_row0) (View.ld x6 r1_row0)⟩]

/-- Window 10 (k): z·(scale row 1) + (offset row 1). -/
def out1_10 (x0 : Vec F S512x768 .f32) (x3 : Vec F S200x768 .bf16) (x4 : Vec F S1x200 .f32) (x5 : Vec F S2x200 .f32) (x6 : Vec F S2x200 .f32) :
    Vec F S512x200 .f32 :=
  View.canon [⟨r1_z, k1_pay1 (k1_pay5 (View.ld x0 r1_x) (View.ld x3 r1_wz) (View.ld x4 r1_bz)) (k1_pay6 (View.ld x5 r1_row1)) (k1_pay7 (View.ld x6 r1_row1))⟩]

/-- Each store is its whole buffer, so it covers it. -/
theorem cover1_768 (p0 : Vec F S512x768 .f32) (y : S512x768.Idx) :
    ∃ pc ∈ ([⟨r1_x, p0⟩] : List (View.Piece (Elt F) S512x768 .f32)), y ∈ pc.1.set :=
  View.cover_of_tiled [⟨r1_x, p0⟩] S512x768.size (by rfl) y
theorem cover1_200 (p0 : Vec F S512x200 .f32) (y : S512x200.Idx) :
    ∃ pc ∈ ([⟨r1_z, p0⟩] : List (View.Piece (Elt F) S512x200 .f32)), y ∈ pc.1.set :=
  View.cover_of_tiled [⟨r1_z, p0⟩] S512x200.size (by rfl) y

/-! ## The body's triple -/

set_option maxHeartbeats 4000000 in
/-- The kernel body on whole staging memrefs, the inputs' at read contents `xW` and the outputs' at anything, runs to
    the continuation holding the inputs' as they were and each output's at `out1_W` of the inputs'. -/
theorem sound_kernel1 (c : Dev nD) (E : Set ℕ) (i : grid1.Coords)
    (arg1 : Memref sig .tc .vmem S512x768 .f32) (harg1 : arg1.IsWhole)
    (arg2 : Memref sig .tc .vmem S1536x768 .bf16) (harg2 : arg2.IsWhole)
    (arg3 : Memref sig .tc .vmem S1x1536 .f32) (harg3 : arg3.IsWhole)
    (arg4 : Memref sig .tc .vmem S200x768 .bf16) (harg4 : arg4.IsWhole)
    (arg5 : Memref sig .tc .vmem S1x200 .f32) (harg5 : arg5.IsWhole)
    (arg6 : Memref sig .tc .vmem S2x200 .f32) (harg6 : arg6.IsWhole)
    (arg7 : Memref sig .tc .vmem S2x200 .f32) (harg7 : arg7.IsWhole)
    (arg8 : Memref sig .tc .vmem S512x768 .f32) (harg8 : arg8.IsWhole)
    (arg9 : Memref sig .tc .vmem S512x768 .f32) (harg9 : arg9.IsWhole)
    (arg10 : Memref sig .tc .vmem S512x200 .f32) (harg10 : arg10.IsWhole)
    (arg11 : Memref sig .tc .vmem S512x200 .f32) (harg11 : arg11.IsWhole)
    (x0 : Vec F S512x768 .f32) (x1 : Vec F S1536x768 .bf16) (x2 : Vec F S1x1536 .f32) (x3 : Vec F S200x768 .bf16) (x4 : Vec F S1x200 .f32) (x5 : Vec F S2x200 .f32) (x6 : Vec F S2x200 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out1_7 x0 x1 x2) ∗ owns (c : Thread nD τ) arg9 fullShare (out1_8 x0 x1 x2)
            ∗ owns (c : Thread nD τ) arg10 fullShare (out1_9 x0 x3 x4 x5 x6) ∗ owns (c : Thread nD τ) arg11 fullShare (out1_10 x0 x3 x4 x5 x6)) -∗ K ⟨⟩))
      ⊢ wp frame (wpE (defs₀ (F := F)) Variants.none c none) E (cc1_kernel i arg1 harg1 arg2 harg2 arg3 harg3 arg4 harg4 arg5 harg5 arg6 harg6 arg7 harg7 arg8 harg8 arg9 harg9 arg10 harg10 arg11 harg11) K := by
  simp only [cc1_kernel_eq_skeleton]; unfold cc1_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover1_768 _)
  isplitl [H8]
  · iexists _; isplitr
    swap; · iexact H8
    ipureintro
    exact View.read_writes_eq_canon _ _ _ (cover1_768 _)
  isplitl [H9]
  · iexists _; isplitr
    swap; · iexact H9
    ipureintro
    exact View.read_writes_eq_canon _ _ _ (cover1_200 _)
  iexists _; isplitr
  swap; · iexact H10
  ipureintro
  exact View.read_writes_eq_canon _ _ _ (cover1_200 _)

/-! ## The pipeline's proof data -/

/-- The proof data of pipeline 1 on core `c`: the arrays as the region finds them (`V`); after the body at
    point `t` each input's buffer at its block and each output's at `out1_W` of the input blocks; the invariant the
    scoped rest and the generator register, untouched; nothing owed; every array read through one window, at the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t)
    | ⟨8, _⟩ => out1_8 (iblk1 V c 0 t) (iblk1 V c 1 t) (iblk1 V c 2 t)
    | ⟨9, _⟩ => out1_9 (iblk1 V c 0 t) (iblk1 V c 3 t) (iblk1 V c 4 t) (iblk1 V c 5 t) (iblk1 V c 6 t)
    | ⟨10, _⟩ => out1_10 (iblk1 V c 0 t) (iblk1 V c 3 t) (iblk1 V c 4 t) (iblk1 V c 5 t) (iblk1 V c 6 t)
  Φ _ := Pipeline.ΦA spec1 c
  q w := match w with
    | ⟨0, _⟩ => fullShare
    | ⟨1, _⟩ => fullShare
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) :
    (dat1 V c).after 7 t = out1_7 (iblk1 V c 0 t) (iblk1 V c 1 t) (iblk1 V c 2 t) := by dsimp only [dat1]
theorem after1_8 (c : Dev nD) (t : Fin cfg1.N) :
    (dat1 V c).after 8 t = out1_8 (iblk1 V c 0 t) (iblk1 V c 1 t) (iblk1 V c 2 t) := by dsimp only [dat1]
theorem after1_9 (c : Dev nD) (t : Fin cfg1.N) :
    (dat1 V c).after 9 t = out1_9 (iblk1 V c 0 t) (iblk1 V c 3 t) (iblk1 V c 4 t) (iblk1 V c 5 t) (iblk1 V c 6 t) := by dsimp only [dat1]
theorem after1_10 (c : Dev nD) (t : Fin cfg1.N) :
    (dat1 V c).after 10 t = out1_10 (iblk1 V c 0 t) (iblk1 V c 3 t) (iblk1 V c 4 t) (iblk1 V c 5 t) (iblk1 V c 6 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel1 c Set.univ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Region2Runs.lean ====
import proofs.«170994_j15857019257044_2_alg».proof.Proof.Gen.Kernel.Launch
import proofs.«170994_j15857019257044_2_alg».proof.Proof.Gen.Kernel.Skeleton
import proofs.«170994_j15857019257044_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The flash-attention call (pipeline 2): what its three control cases share -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## An input's current staging buffer holds its block at every point, fetched there or not:
    an unfetched window's block index has not moved, so the block of the point before is this point's. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)
theorem before2_10_of {c : Dev nD} (dat : Dat τ (Elt F) Unit ℕ (UR sig nD τ) ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)
theorem before2_11_of {c : Dev nD} (dat : Dat τ (Elt F) Unit ℕ (UR sig nD τ) ℕ cfg2 c) (hA : dat.A 11 = V c (Pipeline.arrRef spec2 11))
    (hafter : ∀ t, dat.after 11 t = iblk2 V c 11 t) (t : Fin cfg2.N) (d) : dat.before 11 t d = iblk2 V c 11 t :=
  (dat.before_in_eq_fetched 11 rfl (fun _ => rfl) (fun _ _ _ => rfl) (fun t => by rw [hafter]; unfold Dat.blockOf iblk2; rw [hA]; try rfl) t d).trans
    (by unfold Dat.fetched Dat.blockOf iblk2; rw [hA]; try rfl)

/-! ## The body's two branch conditions, decided over the grid

The second grid coordinate `j` is the key tile; the point number is `8 i + j`. -/

/-- The first conditional (initialise the running maximum, the normaliser and the accumulator) is taken when `j = 0`. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)

/-- The second conditional (normalise, project and store the two outputs) is taken when `j = 7`. -/
abbrev cond2_1 (i : grid2.Coords) : Prop := k2_cond2 i = 1#1
theorem hcond2_1 : ∀ t : Fin cfg2.N, cond2_1 (grid2.coords t) ↔ t.val % 8 = 7 :=
  (by decide +kernel : ∀ t : Fin grid2.N, cond2_1 (grid2.coords t) ↔ t.val % 8 = 7)

/-! ## Where the windows are idle -/
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun _ => rfl
theorem liveAt2_5 : ∀ t : Fin cfg2.N, cfg2.idle 5 (grid2.coords t) = false := fun _ => rfl
theorem liveAt2_6 : ∀ t : Fin cfg2.N, cfg2.idle 6 (grid2.coords t) = false := fun _ => rfl
theorem liveAt2_7 : ∀ t : Fin cfg2.N, cfg2.idle 7 (grid2.coords t) = false := fun _ => rfl
theorem liveAt2_8 : ∀ t : Fin cfg2.N, cfg2.idle 8 (grid2.coords t) = false := fun _ => rfl
theorem liveAt2_9 : ∀ t : Fin cfg2.N, cfg2.idle 9 (grid2.coords t) = false := fun _ => rfl
theorem liveAt2_10 : ∀ t : Fin cfg2.N, cfg2.idle 10 (grid2.coords t) = false := fun _ => rfl
theorem liveAt2_11 : ∀ t : Fin cfg2.N, cfg2.idle 11 (grid2.coords t) = false := fun _ => rfl
/-- Where `j ≠ 7` nothing is stored into output 12: the window is idle there and its block is not written back. -/
theorem idleAt2_12 : ∀ t : Fin cfg2.N, ¬cond2_1 (grid2.coords t) → cfg2.idle 12 (grid2.coords t) = true := by decide +kernel
theorem noFlush2_12 : ∀ t : Fin cfg2.N, ¬cond2_1 (grid2.coords t) → (cfg2.win 12).flush t = false := by decide +kernel
/-- Where `j = 7` output 12 is stored whole. -/
theorem liveAt2_12 : ∀ t : Fin cfg2.N, cond2_1 (grid2.coords t) → cfg2.idle 12 (grid2.coords t) = false := by decide +kernel
/-- Where `j ≠ 7` nothing is stored into output 13: the window is idle there and its block is not written back. -/
theorem idleAt2_13 : ∀ t : Fin cfg2.N, ¬cond2_1 (grid2.coords t) → cfg2.idle 13 (grid2.coords t) = true := by decide +kernel
theorem noFlush2_13 : ∀ t : Fin cfg2.N, ¬cond2_1 (grid2.coords t) → (cfg2.win 13).flush t = false := by decide +kernel
/-- Where `j = 7` output 13 is stored whole. -/
theorem liveAt2_13 : ∀ t : Fin cfg2.N, cond2_1 (grid2.coords t) → cfg2.idle 13 (grid2.coords t) = false := by decide +kernel

/-! ## The memrefs the body is called with -/

/-- One staging buffer of each output window, through which its contents are stated (the choice does not matter). -/
abbrev VO2_12 : View sig .tc .vmem S512x256 .f32 := (Memref.whole cc2_stg12_0 : Memref sig .tc .vmem S512x256 .f32).view
abbrev VO2_13 : View sig .tc .vmem S512x256 .f32 := (Memref.whole cc2_stg13_0 : Memref sig .tc .vmem S512x256 .f32).view
abbrev ms2_0 (t : Fin cfg2.N) : Memref sig .tc .vmem S512x768 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x768 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x200 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S512x200 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S512x768 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S512x768 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S768x768 .bf16 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x768 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S256x768 .bf16 := win2_8.stage (cfg2.slots t 8)
abbrev hs2_8 (t : Fin cfg2.N) : (ms2_8 t).IsWhole := hstage2_8 ((cfg2.slots t 8).cast nbuf2_8)
abbrev ms2_9 (t : Fin cfg2.N) : Memref sig .tc .vmem S1x256 .f32 := win2_9.stage (cfg2.slots t 9)
abbrev hs2_9 (t : Fin cfg2.N) : (ms2_9 t).IsWhole := hstage2_9 ((cfg2.slots t 9).cast nbuf2_9)
abbrev ms2_10 (t : Fin cfg2.N) : Memref sig .tc .vmem S256x768 .bf16 := win2_10.stage (cfg2.slots t 10)
abbrev hs2_10 (t : Fin cfg2.N) : (ms2_10 t).IsWhole := hstage2_10 ((cfg2.slots t 10).cast nbuf2_10)
abbrev ms2_11 (t : Fin cfg2.N) : Memref sig .tc .vmem S1x256 .f32 := win2_11.stage (cfg2.slots t 11)
abbrev hs2_11 (t : Fin cfg2.N) : (ms2_11 t).IsWhole := hstage2_11 ((cfg2.slots t 11).cast nbuf2_11)
abbrev ms2_12 (t : Fin cfg2.N) : Memref sig .tc .vmem S512x256 .f32 := win2_12.stage (cfg2.slots t 12)
abbrev hs2_12 (t : Fin cfg2.N) : (ms2_12 t).IsWhole := hstage2_12 ((cfg2.slots t 12).cast nbuf2_12)
abbrev ms2_13 (t : Fin cfg2.N) : Memref sig .tc .vmem S512x256 .f32 := win2_13.stage (cfg2.slots t 13)
abbrev hs2_13 (t : Fin cfg2.N) : (ms2_13 t).IsWhole := hstage2_13 ((cfg2.slots t 13).cast nbuf2_13)
/-- Scratch operand 0: a whole scoped buffer of the call's own, carried from point to point. -/
abbrev scM2_0 : Memref sig .tc .vmem S512x1 .f32 := Memref.whole cc2_scratch0
abbrev VS2_0 : View sig .tc .vmem S512x1 .f32 := scM2_0.view
/-- Scratch operand 1: a whole scoped buffer of the call's own, carried from point to point. -/
abbrev scM2_1 : Memref sig .tc .vmem S512x1 .f32 := Memref.whole cc2_scratch1
abbrev VS2_1 : View sig .tc .vmem S512x1 .f32 := scM2_1.view
/-- Scratch operand 2: a whole scoped buffer of the call's own, carried from point to point. -/
abbrev scM2_2 : Memref sig .tc .vmem S512x768 .f32 := Memref.whole cc2_scratch2
abbrev VS2_2 : View sig .tc .vmem S512x768 .f32 := scM2_2.view

/-- What the region is handed beside its windows: the three scratch operands at some contents, the rest of the scoped
    buffers unopened, and the generator register. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d) ∗ (∃ d, owns (c : Thread nD τ) scM2_2 fullShare d))
          ∗ Pipeline.scopedRestBut (Ix := Unit) (Name := ℕ) (U := UR sig nD τ) (Lvl := ℕ) (Val := Elt F) spec2 c [cc2_scratch0, cc2_scratch1, cc2_scratch2]) ∗ (∃ r, prngReg c r)) := by
  unfold Pipeline.ΦA; rw [scopedRest2_split]; simp only [scM2_0, scM2_1, scM2_2, owns_whole]; try rfl

end Cert.Kernel.Hand

end
-- ==== Proof.KB.Region2RunA.lean ====
import proofs.«170994_j15857019257044_2_alg».proof.Proof.KB.Region2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body's triple at the first key tile (`j = 0`): the three scratch operands are initialised, then updated; the outputs are left untouched. On whole memrefs, the inputs' at their
    contents, the body runs to the continuation holding the inputs' as they were and every buffer it stores into with
    its stores written, as pieces (last first): the pieces are the witness the symbolic run finds. -/
noncomputable def kernelRun2_A (c : Dev nD) (i : grid2.Coords) (arg2 : Memref sig .tc .vmem S512x768 .f32) (harg2 : arg2.IsWhole) (arg3 : Memref sig .tc .vmem S512x768 .f32) (harg3 : arg3.IsWhole) (arg4 : Memref sig .tc .vmem S512x200 .f32) (harg4 : arg4.IsWhole) (arg5 : Memref sig .tc .vmem S512x200 .f32) (harg5 : arg5.IsWhole) (arg6 : Memref sig .tc .vmem S512x768 .f32) (harg6 : arg6.IsWhole) (arg7 : Memref sig .tc .vmem S512x768 .f32) (harg7 : arg7.IsWhole) (arg8 : Memref sig .tc .vmem S768x768 .bf16) (harg8 : arg8.IsWhole) (arg9 : Memref sig .tc .vmem S1x768 .f32) (harg9 : arg9.IsWhole) (arg10 : Memref sig .tc .vmem S256x768 .bf16) (harg10 : arg10.IsWhole) (arg11 : Memref sig .tc .vmem S1x256 .f32) (harg11 : arg11.IsWhole) (arg12 : Memref sig .tc .vmem S256x768 .bf16) (harg12 : arg12.IsWhole) (arg13 : Memref sig .tc .vmem S1x256 .f32) (harg13 : arg13.IsWhole) (arg14 : Memref sig .tc .vmem S512x256 .f32) (harg14 : arg14.IsWhole) (arg15 : Memref sig .tc .vmem S512x256 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x768 .f32) (harg18 : arg18.IsWhole) (hc0 : cond2_0 i) (hc1 : ¬cond2_1 i)
    (x0 : Vec F S512x768 .f32) (x1 : Vec F S512x768 .f32) (x2 : Vec F S512x200 .f32) (x3 : Vec F S512x200 .f32) (x4 : Vec F S512x768 .f32) (x5 : Vec F S512x768 .f32) (x6 : Vec F S768x768 .bf16) (x7 : Vec F S1x768 .f32) (x8 : Vec F S256x768 .bf16) (x9 : Vec F S1x256 .f32) (x10 : Vec F S256x768 .bf16) (x11 : Vec F S1x256 .f32) :
    Σ' (LS0 : List (View.Piece (Elt F) S512x1 .f32)) (LS1 : List (View.Piece (Elt F) S512x1 .f32)), { LS2 : List (View.Piece (Elt F) S512x768 .f32) //
      ∀ (xi12 : Vec F S512x256 .f32) (xi13 : Vec F S512x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xi12 ∗ owns (c : Thread nD τ) arg15 fullShare xi13 ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xi12 ∗ owns (c : Thread nD τ) arg15 fullShare xi13 ∗ (∃ f, arg16.view.loc (c : Thread nD τ) ↦[arg16.view.set]{fullShare} arg16.view.writes (Elt F) f LS0) ∗ (∃ f, arg17.view.loc (c : Thread nD τ) ↦[arg17.view.set]{fullShare} arg17.view.writes (Elt F) f LS1) ∗ (∃ f, arg18.view.loc (c : Thread nD τ) ↦[arg18.view.set]{fullShare} arg18.view.writes (Elt F) f LS2)) -∗ K ⟨⟩))
          ⊢ wp frame (wpE (defs₀ (F := F)) Variants.none c none) E (cc2_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, fun xi12 xi13 E K => ?run⟩
  case run =>
    simp only [cc2_kernel_eq_skeleton]; unfold cc2_kernel_skel
    simp only [k2_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [HS0]; · iexists _; iexact HS0
    isplitl [HS1]; · iexists _; iexact HS1
    iexists _; iexact HS2

end Cert.Kernel.Hand

end
-- ==== Proof.KB.Region2RunB.lean ====
import proofs.«170994_j15857019257044_2_alg».proof.Proof.KB.Region2RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body's triple at an inner key tile (`0 < j < 7`): the three scratch operands, at what the tile before left, are updated; the outputs are left untouched. On whole memrefs, the inputs' at their
    contents, the body runs to the continuation holding the inputs' as they were and every buffer it stores into with
    its stores written, as pieces (last first): the pieces are the witness the symbolic run finds. -/
noncomputable def kernelRun2_B (c : Dev nD) (i : grid2.Coords) (arg2 : Memref sig .tc .vmem S512x768 .f32) (harg2 : arg2.IsWhole) (arg3 : Memref sig .tc .vmem S512x768 .f32) (harg3 : arg3.IsWhole) (arg4 : Memref sig .tc .vmem S512x200 .f32) (harg4 : arg4.IsWhole) (arg5 : Memref sig .tc .vmem S512x200 .f32) (harg5 : arg5.IsWhole) (arg6 : Memref sig .tc .vmem S512x768 .f32) (harg6 : arg6.IsWhole) (arg7 : Memref sig .tc .vmem S512x768 .f32) (harg7 : arg7.IsWhole) (arg8 : Memref sig .tc .vmem S768x768 .bf16) (harg8 : arg8.IsWhole) (arg9 : Memref sig .tc .vmem S1x768 .f32) (harg9 : arg9.IsWhole) (arg10 : Memref sig .tc .vmem S256x768 .bf16) (harg10 : arg10.IsWhole) (arg11 : Memref sig .tc .vmem S1x256 .f32) (harg11 : arg11.IsWhole) (arg12 : Memref sig .tc .vmem S256x768 .bf16) (harg12 : arg12.IsWhole) (arg13 : Memref sig .tc .vmem S1x256 .f32) (harg13 : arg13.IsWhole) (arg14 : Memref sig .tc .vmem S512x256 .f32) (harg14 : arg14.IsWhole) (arg15 : Memref sig .tc .vmem S512x256 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x768 .f32) (harg18 : arg18.IsWhole) (hc0 : ¬cond2_0 i) (hc1 : ¬cond2_1 i)
    (x0 : Vec F S512x768 .f32) (x1 : Vec F S512x768 .f32) (x2 : Vec F S512x200 .f32) (x3 : Vec F S512x200 .f32) (x4 : Vec F S512x768 .f32) (x5 : Vec F S512x768 .f32) (x6 : Vec F S768x768 .bf16) (x7 : Vec F S1x768 .f32) (x8 : Vec F S256x768 .bf16) (x9 : Vec F S1x256 .f32) (x10 : Vec F S256x768 .bf16) (x11 : Vec F S1x256 .f32) (xs0 : Vec F S512x1 .f32) (xs1 : Vec F S512x1 .f32) (xs2 : Vec F S512x768 .f32) :
    Σ' (LS0 : List (View.Piece (Elt F) S512x1 .f32)) (LS1 : List (View.Piece (Elt F) S512x1 .f32)), { LS2 : List (View.Piece (Elt F) S512x768 .f32) //
      ∀ (xi12 : Vec F S512x256 .f32) (xi13 : Vec F S512x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xi12 ∗ owns (c : Thread nD τ) arg15 fullShare xi13 ∗ owns (c : Thread nD τ) arg16 fullShare xs0 ∗ owns (c : Thread nD τ) arg17 fullShare xs1 ∗ owns (c : Thread nD τ) arg18 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xi12 ∗ owns (c : Thread nD τ) arg15 fullShare xi13 ∗ (∃ f, arg16.view.loc (c : Thread nD τ) ↦[arg16.view.set]{fullShare} arg16.view.writes (Elt F) f LS0) ∗ (∃ f, arg17.view.loc (c : Thread nD τ) ↦[arg17.view.set]{fullShare} arg17.view.writes (Elt F) f LS1) ∗ (∃ f, arg18.view.loc (c : Thread nD τ) ↦[arg18.view.set]{fullShare} arg18.view.writes (Elt F) f LS2)) -∗ K ⟨⟩))
          ⊢ wp frame (wpE (defs₀ (F := F)) Variants.none c none) E (cc2_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, fun xi12 xi13 E K => ?run⟩
  case run =>
    simp only [cc2_kernel_eq_skeleton]; unfold cc2_kernel_skel
    simp only [k2_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hfs0; obtain rfl := harg17.eq_unread hfs1; obtain rfl := harg18.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [HS0]; · iexists _; iexact HS0
    isplitl [HS1]; · iexists _; iexact HS1
    iexists _; iexact HS2

end Cert.Kernel.Hand

end
-- ==== Proof.KB.Region2RunC.lean ====
import proofs.«170994_j15857019257044_2_alg».proof.Proof.KB.Region2RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body's triple at the last key tile (`j = 7`): the three scratch operands are updated, then the two outputs are computed from them and stored whole. On whole memrefs, the inputs' at their
    contents, the body runs to the continuation holding the inputs' as they were and every buffer it stores into with
    its stores written, as pieces (last first): the pieces are the witness the symbolic run finds. -/
noncomputable def kernelRun2_C (c : Dev nD) (i : grid2.Coords) (arg2 : Memref sig .tc .vmem S512x768 .f32) (harg2 : arg2.IsWhole) (arg3 : Memref sig .tc .vmem S512x768 .f32) (harg3 : arg3.IsWhole) (arg4 : Memref sig .tc .vmem S512x200 .f32) (harg4 : arg4.IsWhole) (arg5 : Memref sig .tc .vmem S512x200 .f32) (harg5 : arg5.IsWhole) (arg6 : Memref sig .tc .vmem S512x768 .f32) (harg6 : arg6.IsWhole) (arg7 : Memref sig .tc .vmem S512x768 .f32) (harg7 : arg7.IsWhole) (arg8 : Memref sig .tc .vmem S768x768 .bf16) (harg8 : arg8.IsWhole) (arg9 : Memref sig .tc .vmem S1x768 .f32) (harg9 : arg9.IsWhole) (arg10 : Memref sig .tc .vmem S256x768 .bf16) (harg10 : arg10.IsWhole) (arg11 : Memref sig .tc .vmem S1x256 .f32) (harg11 : arg11.IsWhole) (arg12 : Memref sig .tc .vmem S256x768 .bf16) (harg12 : arg12.IsWhole) (arg13 : Memref sig .tc .vmem S1x256 .f32) (harg13 : arg13.IsWhole) (arg14 : Memref sig .tc .vmem S512x256 .f32) (harg14 : arg14.IsWhole) (arg15 : Memref sig .tc .vmem S512x256 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x768 .f32) (harg18 : arg18.IsWhole) (hc0 : ¬cond2_0 i) (hc1 : cond2_1 i)
    (x0 : Vec F S512x768 .f32) (x1 : Vec F S512x768 .f32) (x2 : Vec F S512x200 .f32) (x3 : Vec F S512x200 .f32) (x4 : Vec F S512x768 .f32) (x5 : Vec F S512x768 .f32) (x6 : Vec F S768x768 .bf16) (x7 : Vec F S1x768 .f32) (x8 : Vec F S256x768 .bf16) (x9 : Vec F S1x256 .f32) (x10 : Vec F S256x768 .bf16) (x11 : Vec F S1x256 .f32) (xs0 : Vec F S512x1 .f32) (xs1 : Vec F S512x1 .f32) (xs2 : Vec F S512x768 .f32) :
    Σ' (L12 : List (View.Piece (Elt F) S512x256 .f32)) (L13 : List (View.Piece (Elt F) S512x256 .f32)) (LS0 : List (View.Piece (Elt F) S512x1 .f32)) (LS1 : List (View.Piece (Elt F) S512x1 .f32)), { LS2 : List (View.Piece (Elt F) S512x768 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ owns (c : Thread nD τ) arg16 fullShare xs0 ∗ owns (c : Thread nD τ) arg17 fullShare xs1 ∗ owns (c : Thread nD τ) arg18 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f LS0) ∗ (∃ f, arg17.view.loc (c : Thread nD τ) ↦[arg17.view.set]{fullShare} arg17.view.writes (Elt F) f LS1) ∗ (∃ f, arg18.view.loc (c : Thread nD τ) ↦[arg18.view.set]{fullShare} arg18.view.writes (Elt F) f LS2)) -∗ K ⟨⟩))
          ⊢ wp frame (wpE (defs₀ (F := F)) Variants.none c none) E (cc2_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, fun E K => ?run⟩
  case run =>
    simp only [cc2_kernel_eq_skeleton]; unfold cc2_kernel_skel
    simp only [k2_part2_eq_skeleton, k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg16.eq_unread hfs0; obtain rfl := harg17.eq_unread hfs1; obtain rfl := harg18.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    isplitl [H13]; · iexists _; iexact H13
    isplitl [HS0]; · iexists _; iexact HS0
    isplitl [HS1]; · iexists _; iexact HS1
    iexists _; iexact HS2

end Cert.Kernel.Hand

end
-- ==== Proof.KB.Region2Outs.lean ====
import proofs.«170994_j15857019257044_2_alg».proof.Proof.KB.Region2RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Each case's stores cover the buffers they are made into

Every store of the body writes a whole buffer, so the pieces a case leaves in a buffer tile it. -/

theorem cover2_A_S0 (c : Dev nD) (i : grid2.Coords) (arg2 : Memref sig .tc .vmem S512x768 .f32) (harg2 : arg2.IsWhole) (arg3 : Memref sig .tc .vmem S512x768 .f32) (harg3 : arg3.IsWhole) (arg4 : Memref sig .tc .vmem S512x200 .f32) (harg4 : arg4.IsWhole) (arg5 : Memref sig .tc .vmem S512x200 .f32) (harg5 : arg5.IsWhole) (arg6 : Memref sig .tc .vmem S512x768 .f32) (harg6 : arg6.IsWhole) (arg7 : Memref sig .tc .vmem S512x768 .f32) (harg7 : arg7.IsWhole) (arg8 : Memref sig .tc .vmem S768x768 .bf16) (harg8 : arg8.IsWhole) (arg9 : Memref sig .tc .vmem S1x768 .f32) (harg9 : arg9.IsWhole) (arg10 : Memref sig .tc .vmem S256x768 .bf16) (harg10 : arg10.IsWhole) (arg11 : Memref sig .tc .vmem S1x256 .f32) (harg11 : arg11.IsWhole) (arg12 : Memref sig .tc .vmem S256x768 .bf16) (harg12 : arg12.IsWhole) (arg13 : Memref sig .tc .vmem S1x256 .f32) (harg13 : arg13.IsWhole) (arg14 : Memref sig .tc .vmem S512x256 .f32) (harg14 : arg14.IsWhole) (arg15 : Memref sig .tc .vmem S512x256 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x768 .f32) (harg18 : arg18.IsWhole) (hc0 : cond2_0 i) (hc1 : ¬cond2_1 i)
    (x0 : Vec F S512x768 .f32) (x1 : Vec F S512x768 .f32) (x2 : Vec F S512x200 .f32) (x3 : Vec F S512x200 .f32) (x4 : Vec F S512x768 .f32) (x5 : Vec F S512x768 .f32) (x6 : Vec F S768x768 .bf16) (x7 : Vec F S1x768 .f32) (x8 : Vec F S256x768 .bf16) (x9 : Vec F S1x256 .f32) (x10 : Vec F S256x768 .bf16) (x11 : Vec F S1x256 .f32) (y : S512x1.Idx) :
    ∃ pc ∈ (kernelRun2_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11).1, y ∈ pc.1.set :=
  View.cover_of_tiledL (kernelRun2_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11).1 S512x1.size (by sl_kernel_rfl) y

theorem cover2_A_S1 (c : Dev nD) (i : grid2.Coords) (arg2 : Memref sig .tc .vmem S512x768 .f32) (harg2 : arg2.IsWhole) (arg3 : Memref sig .tc .vmem S512x768 .f32) (harg3 : arg3.IsWhole) (arg4 : Memref sig .tc .vmem S512x200 .f32) (harg4 : arg4.IsWhole) (arg5 : Memref sig .tc .vmem S512x200 .f32) (harg5 : arg5.IsWhole) (arg6 : Memref sig .tc .vmem S512x768 .f32) (harg6 : arg6.IsWhole) (arg7 : Memref sig .tc .vmem S512x768 .f32) (harg7 : arg7.IsWhole) (arg8 : Memref sig .tc .vmem S768x768 .bf16) (harg8 : arg8.IsWhole) (arg9 : Memref sig .tc .vmem S1x768 .f32) (harg9 : arg9.IsWhole) (arg10 : Memref sig .tc .vmem S256x768 .bf16) (harg10 : arg10.IsWhole) (arg11 : Memref sig .tc .vmem S1x256 .f32) (harg11 : arg11.IsWhole) (arg12 : Memref sig .tc .vmem S256x768 .bf16) (harg12 : arg12.IsWhole) (arg13 : Memref sig .tc .vmem S1x256 .f32) (harg13 : arg13.IsWhole) (arg14 : Memref sig .tc .vmem S512x256 .f32) (harg14 : arg14.IsWhole) (arg15 : Memref sig .tc .vmem S512x256 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x768 .f32) (harg18 : arg18.IsWhole) (hc0 : cond2_0 i) (hc1 : ¬cond2_1 i)
    (x0 : Vec F S512x768 .f32) (x1 : Vec F S512x768 .f32) (x2 : Vec F S512x200 .f32) (x3 : Vec F S512x200 .f32) (x4 : Vec F S512x768 .f32) (x5 : Vec F S512x768 .f32) (x6 : Vec F S768x768 .bf16) (x7 : Vec F S1x768 .f32) (x8 : Vec F S256x768 .bf16) (x9 : Vec F S1x256 .f32) (x10 : Vec F S256x768 .bf16) (x11 : Vec F S1x256 .f32) (y : S512x1.Idx) :
    ∃ pc ∈ (kernelRun2_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11).2.1, y ∈ pc.1.set :=
  View.cover_of_tiledL (kernelRun2_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11).2.1 S512x1.size (by sl_kernel_rfl) y

theorem cover2_A_S2 (c : Dev nD) (i : grid2.Coords) (arg2 : Memref sig .tc .vmem S512x768 .f32) (harg2 : arg2.IsWhole) (arg3 : Memref sig .tc .vmem S512x768 .f32) (harg3 : arg3.IsWhole) (arg4 : Memref sig .tc .vmem S512x200 .f32) (harg4 : arg4.IsWhole) (arg5 : Memref sig .tc .vmem S512x200 .f32) (harg5 : arg5.IsWhole) (arg6 : Memref sig .tc .vmem S512x768 .f32) (harg6 : arg6.IsWhole) (arg7 : Memref sig .tc .vmem S512x768 .f32) (harg7 : arg7.IsWhole) (arg8 : Memref sig .tc .vmem S768x768 .bf16) (harg8 : arg8.IsWhole) (arg9 : Memref sig .tc .vmem S1x768 .f32) (harg9 : arg9.IsWhole) (arg10 : Memref sig .tc .vmem S256x768 .bf16) (harg10 : arg10.IsWhole) (arg11 : Memref sig .tc .vmem S1x256 .f32) (harg11 : arg11.IsWhole) (arg12 : Memref sig .tc .vmem S256x768 .bf16) (harg12 : arg12.IsWhole) (arg13 : Memref sig .tc .vmem S1x256 .f32) (harg13 : arg13.IsWhole) (arg14 : Memref sig .tc .vmem S512x256 .f32) (harg14 : arg14.IsWhole) (arg15 : Memref sig .tc .vmem S512x256 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x768 .f32) (harg18 : arg18.IsWhole) (hc0 : cond2_0 i) (hc1 : ¬cond2_1 i)
    (x0 : Vec F S512x768 .f32) (x1 : Vec F S512x768 .f32) (x2 : Vec F S512x200 .f32) (x3 : Vec F S512x200 .f32) (x4 : Vec F S512x768 .f32) (x5 : Vec F S512x768 .f32) (x6 : Vec F S768x768 .bf16) (x7 : Vec F S1x768 .f32) (x8 : Vec F S256x768 .bf16) (x9 : Vec F S1x256 .f32) (x10 : Vec F S256x768 .bf16) (x11 : Vec F S1x256 .f32) (y : S512x768.Idx) :
    ∃ pc ∈ (kernelRun2_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11).2.2.1, y ∈ pc.1.set :=
  View.cover_of_tiledL (kernelRun2_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11).2.2.1 S512x768.size (by sl_kernel_rfl) y

theorem cover2_B_S0 (c : Dev nD) (i : grid2.Coords) (arg2 : Memref sig .tc .vmem S512x768 .f32) (harg2 : arg2.IsWhole) (arg3 : Memref sig .tc .vmem S512x768 .f32) (harg3 : arg3.IsWhole) (arg4 : Memref sig .tc .vmem S512x200 .f32) (harg4 : arg4.IsWhole) (arg5 : Memref sig .tc .vmem S512x200 .f32) (harg5 : arg5.IsWhole) (arg6 : Memref sig .tc .vmem S512x768 .f32) (harg6 : arg6.IsWhole) (arg7 : Memref sig .tc .vmem S512x768 .f32) (harg7 : arg7.IsWhole) (arg8 : Memref sig .tc .vmem S768x768 .bf16) (harg8 : arg8.IsWhole) (arg9 : Memref sig .tc .vmem S1x768 .f32) (harg9 : arg9.IsWhole) (arg10 : Memref sig .tc .vmem S256x768 .bf16) (harg10 : arg10.IsWhole) (arg11 : Memref sig .tc .vmem S1x256 .f32) (harg11 : arg11.IsWhole) (arg12 : Memref sig .tc .vmem S256x768 .bf16) (harg12 : arg12.IsWhole) (arg13 : Memref sig .tc .vmem S1x256 .f32) (harg13 : arg13.IsWhole) (arg14 : Memref sig .tc .vmem S512x256 .f32) (harg14 : arg14.IsWhole) (arg15 : Memref sig .tc .vmem S512x256 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x768 .f32) (harg18 : arg18.IsWhole) (hc0 : ¬cond2_0 i) (hc1 : ¬cond2_1 i)
    (x0 : Vec F S512x768 .f32) (x1 : Vec F S512x768 .f32) (x2 : Vec F S512x200 .f32) (x3 : Vec F S512x200 .f32) (x4 : Vec F S512x768 .f32) (x5 : Vec F S512x768 .f32) (x6 : Vec F S768x768 .bf16) (x7 : Vec F S1x768 .f32) (x8 : Vec F S256x768 .bf16) (x9 : Vec F S1x256 .f32) (x10 : Vec F S256x768 .bf16) (x11 : Vec F S1x256 .f32) (xs0 : Vec F S512x1 .f32) (xs1 : Vec F S512x1 .f32) (xs2 : Vec F S512x768 .f32) (y : S512x1.Idx) :
    ∃ pc ∈ (kernelRun2_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs0 xs1 xs2).1, y ∈ pc.1.set :=
  View.cover_of_tiledL (kernelRun2_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs0 xs1 xs2).1 S512x1.size (by sl_kernel_rfl) y

theorem cover2_B_S1 (c : Dev nD) (i : grid2.Coords) (arg2 : Memref sig .tc .vmem S512x768 .f32) (harg2 : arg2.IsWhole) (arg3 : Memref sig .tc .vmem S512x768 .f32) (harg3 : arg3.IsWhole) (arg4 : Memref sig .tc .vmem S512x200 .f32) (harg4 : arg4.IsWhole) (arg5 : Memref sig .tc .vmem S512x200 .f32) (harg5 : arg5.IsWhole) (arg6 : Memref sig .tc .vmem S512x768 .f32) (harg6 : arg6.IsWhole) (arg7 : Memref sig .tc .vmem S512x768 .f32) (harg7 : arg7.IsWhole) (arg8 : Memref sig .tc .vmem S768x768 .bf16) (harg8 : arg8.IsWhole) (arg9 : Memref sig .tc .vmem S1x768 .f32) (harg9 : arg9.IsWhole) (arg10 : Memref sig .tc .vmem S256x768 .bf16) (harg10 : arg10.IsWhole) (arg11 : Memref sig .tc .vmem S1x256 .f32) (harg11 : arg11.IsWhole) (arg12 : Memref sig .tc .vmem S256x768 .bf16) (harg12 : arg12.IsWhole) (arg13 : Memref sig .tc .vmem S1x256 .f32) (harg13 : arg13.IsWhole) (arg14 : Memref sig .tc .vmem S512x256 .f32) (harg14 : arg14.IsWhole) (arg15 : Memref sig .tc .vmem S512x256 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x768 .f32) (harg18 : arg18.IsWhole) (hc0 : ¬cond2_0 i) (hc1 : ¬cond2_1 i)
    (x0 : Vec F S512x768 .f32) (x1 : Vec F S512x768 .f32) (x2 : Vec F S512x200 .f32) (x3 : Vec F S512x200 .f32) (x4 : Vec F S512x768 .f32) (x5 : Vec F S512x768 .f32) (x6 : Vec F S768x768 .bf16) (x7 : Vec F S1x768 .f32) (x8 : Vec F S256x768 .bf16) (x9 : Vec F S1x256 .f32) (x10 : Vec F S256x768 .bf16) (x11 : Vec F S1x256 .f32) (xs0 : Vec F S512x1 .f32) (xs1 : Vec F S512x1 .f32) (xs2 : Vec F S512x768 .f32) (y : S512x1.Idx) :
    ∃ pc ∈ (kernelRun2_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs0 xs1 xs2).2.1, y ∈ pc.1.set :=
  View.cover_of_tiledL (kernelRun2_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs0 xs1 xs2).2.1 S512x1.size (by sl_kernel_rfl) y

theorem cover2_B_S2 (c : Dev nD) (i : grid2.Coords) (arg2 : Memref sig .tc .vmem S512x768 .f32) (harg2 : arg2.IsWhole) (arg3 : Memref sig .tc .vmem S512x768 .f32) (harg3 : arg3.IsWhole) (arg4 : Memref sig .tc .vmem S512x200 .f32) (harg4 : arg4.IsWhole) (arg5 : Memref sig .tc .vmem S512x200 .f32) (harg5 : arg5.IsWhole) (arg6 : Memref sig .tc .vmem S512x768 .f32) (harg6 : arg6.IsWhole) (arg7 : Memref sig .tc .vmem S512x768 .f32) (harg7 : arg7.IsWhole) (arg8 : Memref sig .tc .vmem S768x768 .bf16) (harg8 : arg8.IsWhole) (arg9 : Memref sig .tc .vmem S1x768 .f32) (harg9 : arg9.IsWhole) (arg10 : Memref sig .tc .vmem S256x768 .bf16) (harg10 : arg10.IsWhole) (arg11 : Memref sig .tc .vmem S1x256 .f32) (harg11 : arg11.IsWhole) (arg12 : Memref sig .tc .vmem S256x768 .bf16) (harg12 : arg12.IsWhole) (arg13 : Memref sig .tc .vmem S1x256 .f32) (harg13 : arg13.IsWhole) (arg14 : Memref sig .tc .vmem S512x256 .f32) (harg14 : arg14.IsWhole) (arg15 : Memref sig .tc .vmem S512x256 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x768 .f32) (harg18 : arg18.IsWhole) (hc0 : ¬cond2_0 i) (hc1 : ¬cond2_1 i)
    (x0 : Vec F S512x768 .f32) (x1 : Vec F S512x768 .f32) (x2 : Vec F S512x200 .f32) (x3 : Vec F S512x200 .f32) (x4 : Vec F S512x768 .f32) (x5 : Vec F S512x768 .f32) (x6 : Vec F S768x768 .bf16) (x7 : Vec F S1x768 .f32) (x8 : Vec F S256x768 .bf16) (x9 : Vec F S1x256 .f32) (x10 : Vec F S256x768 .bf16) (x11 : Vec F S1x256 .f32) (xs0 : Vec F S512x1 .f32) (xs1 : Vec F S512x1 .f32) (xs2 : Vec F S512x768 .f32) (y : S512x768.Idx) :
    ∃ pc ∈ (kernelRun2_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs0 xs1 xs2).2.2.1, y ∈ pc.1.set :=
  View.cover_of_tiledL (kernelRun2_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs0 xs1 xs2).2.2.1 S512x768.size (by sl_kernel_rfl) y

theorem cover2_C_O12 (c : Dev nD) (i : grid2.Coords) (arg2 : Memref sig .tc .vmem S512x768 .f32) (harg2 : arg2.IsWhole) (arg3 : Memref sig .tc .vmem S512x768 .f32) (harg3 : arg3.IsWhole) (arg4 : Memref sig .tc .vmem S512x200 .f32) (harg4 : arg4.IsWhole) (arg5 : Memref sig .tc .vmem S512x200 .f32) (harg5 : arg5.IsWhole) (arg6 : Memref sig .tc .vmem S512x768 .f32) (harg6 : arg6.IsWhole) (arg7 : Memref sig .tc .vmem S512x768 .f32) (harg7 : arg7.IsWhole) (arg8 : Memref sig .tc .vmem S768x768 .bf16) (harg8 : arg8.IsWhole) (arg9 : Memref sig .tc .vmem S1x768 .f32) (harg9 : arg9.IsWhole) (arg10 : Memref sig .tc .vmem S256x768 .bf16) (harg10 : arg10.IsWhole) (arg11 : Memref sig .tc .vmem S1x256 .f32) (harg11 : arg11.IsWhole) (arg12 : Memref sig .tc .vmem S256x768 .bf16) (harg12 : arg12.IsWhole) (arg13 : Memref sig .tc .vmem S1x256 .f32) (harg13 : arg13.IsWhole) (arg14 : Memref sig .tc .vmem S512x256 .f32) (harg14 : arg14.IsWhole) (arg15 : Memref sig .tc .vmem S512x256 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x768 .f32) (harg18 : arg18.IsWhole) (hc0 : ¬cond2_0 i) (hc1 : cond2_1 i)
    (x0 : Vec F S512x768 .f32) (x1 : Vec F S512x768 .f32) (x2 : Vec F S512x200 .f32) (x3 : Vec F S512x200 .f32) (x4 : Vec F S512x768 .f32) (x5 : Vec F S512x768 .f32) (x6 : Vec F S768x768 .bf16) (x7 : Vec F S1x768 .f32) (x8 : Vec F S256x768 .bf16) (x9 : Vec F S1x256 .f32) (x10 : Vec F S256x768 .bf16) (x11 : Vec F S1x256 .f32) (xs0 : Vec F S512x1 .f32) (xs1 : Vec F S512x1 .f32) (xs2 : Vec F S512x768 .f32) (y : S512x256.Idx) :
    ∃ pc ∈ (kernelRun2_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs0 xs1 xs2).1, y ∈ pc.1.set :=
  View.cover_of_tiledL (kernelRun2_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs0 xs1 xs2).1 S512x256.size (by sl_kernel_rfl) y

theorem cover2_C_O13 (c : Dev nD) (i : grid2.Coords) (arg2 : Memref sig .tc .vmem S512x768 .f32) (harg2 : arg2.IsWhole) (arg3 : Memref sig .tc .vmem S512x768 .f32) (harg3 : arg3.IsWhole) (arg4 : Memref sig .tc .vmem S512x200 .f32) (harg4 : arg4.IsWhole) (arg5 : Memref sig .tc .vmem S512x200 .f32) (harg5 : arg5.IsWhole) (arg6 : Memref sig .tc .vmem S512x768 .f32) (harg6 : arg6.IsWhole) (arg7 : Memref sig .tc .vmem S512x768 .f32) (harg7 : arg7.IsWhole) (arg8 : Memref sig .tc .vmem S768x768 .bf16) (harg8 : arg8.IsWhole) (arg9 : Memref sig .tc .vmem S1x768 .f32) (harg9 : arg9.IsWhole) (arg10 : Memref sig .tc .vmem S256x768 .bf16) (harg10 : arg10.IsWhole) (arg11 : Memref sig .tc .vmem S1x256 .f32) (harg11 : arg11.IsWhole) (arg12 : Memref sig .tc .vmem S256x768 .bf16) (harg12 : arg12.IsWhole) (arg13 : Memref sig .tc .vmem S1x256 .f32) (harg13 : arg13.IsWhole) (arg14 : Memref sig .tc .vmem S512x256 .f32) (harg14 : arg14.IsWhole) (arg15 : Memref sig .tc .vmem S512x256 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x768 .f32) (harg18 : arg18.IsWhole) (hc0 : ¬cond2_0 i) (hc1 : cond2_1 i)
    (x0 : Vec F S512x768 .f32) (x1 : Vec F S512x768 .f32) (x2 : Vec F S512x200 .f32) (x3 : Vec F S512x200 .f32) (x4 : Vec F S512x768 .f32) (x5 : Vec F S512x768 .f32) (x6 : Vec F S768x768 .bf16) (x7 : Vec F S1x768 .f32) (x8 : Vec F S256x768 .bf16) (x9 : Vec F S1x256 .f32) (x10 : Vec F S256x768 .bf16) (x11 : Vec F S1x256 .f32) (xs0 : Vec F S512x1 .f32) (xs1 : Vec F S512x1 .f32) (xs2 : Vec F S512x768 .f32) (y : S512x256.Idx) :
    ∃ pc ∈ (kernelRun2_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs0 xs1 xs2).2.1, y ∈ pc.1.set :=
  View.cover_of_tiledL (kernelRun2_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs0 xs1 xs2).2.1 S512x256.size (by sl_kernel_rfl) y

theorem cover2_C_S0 (c : Dev nD) (i : grid2.Coords) (arg2 : Memref sig .tc .vmem S512x768 .f32) (harg2 : arg2.IsWhole) (arg3 : Memref sig .tc .vmem S512x768 .f32) (harg3 : arg3.IsWhole) (arg4 : Memref sig .tc .vmem S512x200 .f32) (harg4 : arg4.IsWhole) (arg5 : Memref sig .tc .vmem S512x200 .f32) (harg5 : arg5.IsWhole) (arg6 : Memref sig .tc .vmem S512x768 .f32) (harg6 : arg6.IsWhole) (arg7 : Memref sig .tc .vmem S512x768 .f32) (harg7 : arg7.IsWhole) (arg8 : Memref sig .tc .vmem S768x768 .bf16) (harg8 : arg8.IsWhole) (arg9 : Memref sig .tc .vmem S1x768 .f32) (harg9 : arg9.IsWhole) (arg10 : Memref sig .tc .vmem S256x768 .bf16) (harg10 : arg10.IsWhole) (arg11 : Memref sig .tc .vmem S1x256 .f32) (harg11 : arg11.IsWhole) (arg12 : Memref sig .tc .vmem S256x768 .bf16) (harg12 : arg12.IsWhole) (arg13 : Memref sig .tc .vmem S1x256 .f32) (harg13 : arg13.IsWhole) (arg14 : Memref sig .tc .vmem S512x256 .f32) (harg14 : arg14.IsWhole) (arg15 : Memref sig .tc .vmem S512x256 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x768 .f32) (harg18 : arg18.IsWhole) (hc0 : ¬cond2_0 i) (hc1 : cond2_1 i)
    (x0 : Vec F S512x768 .f32) (x1 : Vec F S512x768 .f32) (x2 : Vec F S512x200 .f32) (x3 : Vec F S512x200 .f32) (x4 : Vec F S512x768 .f32) (x5 : Vec F S512x768 .f32) (x6 : Vec F S768x768 .bf16) (x7 : Vec F S1x768 .f32) (x8 : Vec F S256x768 .bf16) (x9 : Vec F S1x256 .f32) (x10 : Vec F S256x768 .bf16) (x11 : Vec F S1x256 .f32) (xs0 : Vec F S512x1 .f32) (xs1 : Vec F S512x1 .f32) (xs2 : Vec F S512x768 .f32) (y : S512x1.Idx) :
    ∃ pc ∈ (kernelRun2_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs0 xs1 xs2).2.2.1, y ∈ pc.1.set :=
  View.cover_of_tiledL (kernelRun2_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs0 xs1 xs2).2.2.1 S512x1.size (by sl_kernel_rfl) y

theorem cover2_C_S1 (c : Dev nD) (i : grid2.Coords) (arg2 : Memref sig .tc .vmem S512x768 .f32) (harg2 : arg2.IsWhole) (arg3 : Memref sig .tc .vmem S512x768 .f32) (harg3 : arg3.IsWhole) (arg4 : Memref sig .tc .vmem S512x200 .f32) (harg4 : arg4.IsWhole) (arg5 : Memref sig .tc .vmem S512x200 .f32) (harg5 : arg5.IsWhole) (arg6 : Memref sig .tc .vmem S512x768 .f32) (harg6 : arg6.IsWhole) (arg7 : Memref sig .tc .vmem S512x768 .f32) (harg7 : arg7.IsWhole) (arg8 : Memref sig .tc .vmem S768x768 .bf16) (harg8 : arg8.IsWhole) (arg9 : Memref sig .tc .vmem S1x768 .f32) (harg9 : arg9.IsWhole) (arg10 : Memref sig .tc .vmem S256x768 .bf16) (harg10 : arg10.IsWhole) (arg11 : Memref sig .tc .vmem S1x256 .f32) (harg11 : arg11.IsWhole) (arg12 : Memref sig .tc .vmem S256x768 .bf16) (harg12 : arg12.IsWhole) (arg13 : Memref sig .tc .vmem S1x256 .f32) (harg13 : arg13.IsWhole) (arg14 : Memref sig .tc .vmem S512x256 .f32) (harg14 : arg14.IsWhole) (arg15 : Memref sig .tc .vmem S512x256 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x768 .f32) (harg18 : arg18.IsWhole) (hc0 : ¬cond2_0 i) (hc1 : cond2_1 i)
    (x0 : Vec F S512x768 .f32) (x1 : Vec F S512x768 .f32) (x2 : Vec F S512x200 .f32) (x3 : Vec F S512x200 .f32) (x4 : Vec F S512x768 .f32) (x5 : Vec F S512x768 .f32) (x6 : Vec F S768x768 .bf16) (x7 : Vec F S1x768 .f32) (x8 : Vec F S256x768 .bf16) (x9 : Vec F S1x256 .f32) (x10 : Vec F S256x768 .bf16) (x11 : Vec F S1x256 .f32) (xs0 : Vec F S512x1 .f32) (xs1 : Vec F S512x1 .f32) (xs2 : Vec F S512x768 .f32) (y : S512x1.Idx) :
    ∃ pc ∈ (kernelRun2_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs0 xs1 xs2).2.2.2.1, y ∈ pc.1.set :=
  View.cover_of_tiledL (kernelRun2_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs0 xs1 xs2).2.2.2.1 S512x1.size (by sl_kernel_rfl) y

theorem cover2_C_S2 (c : Dev nD) (i : grid2.Coords) (arg2 : Memref sig .tc .vmem S512x768 .f32) (harg2 : arg2.IsWhole) (arg3 : Memref sig .tc .vmem S512x768 .f32) (harg3 : arg3.IsWhole) (arg4 : Memref sig .tc .vmem S512x200 .f32) (harg4 : arg4.IsWhole) (arg5 : Memref sig .tc .vmem S512x200 .f32) (harg5 : arg5.IsWhole) (arg6 : Memref sig .tc .vmem S512x768 .f32) (harg6 : arg6.IsWhole) (arg7 : Memref sig .tc .vmem S512x768 .f32) (harg7 : arg7.IsWhole) (arg8 : Memref sig .tc .vmem S768x768 .bf16) (harg8 : arg8.IsWhole) (arg9 : Memref sig .tc .vmem S1x768 .f32) (harg9 : arg9.IsWhole) (arg10 : Memref sig .tc .vmem S256x768 .bf16) (harg10 : arg10.IsWhole) (arg11 : Memref sig .tc .vmem S1x256 .f32) (harg11 : arg11.IsWhole) (arg12 : Memref sig .tc .vmem S256x768 .bf16) (harg12 : arg12.IsWhole) (arg13 : Memref sig .tc .vmem S1x256 .f32) (harg13 : arg13.IsWhole) (arg14 : Memref sig .tc .vmem S512x256 .f32) (harg14 : arg14.IsWhole) (arg15 : Memref sig .tc .vmem S512x256 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x768 .f32) (harg18 : arg18.IsWhole) (hc0 : ¬cond2_0 i) (hc1 : cond2_1 i)
    (x0 : Vec F S512x768 .f32) (x1 : Vec F S512x768 .f32) (x2 : Vec F S512x200 .f32) (x3 : Vec F S512x200 .f32) (x4 : Vec F S512x768 .f32) (x5 : Vec F S512x768 .f32) (x6 : Vec F S768x768 .bf16) (x7 : Vec F S1x768 .f32) (x8 : Vec F S256x768 .bf16) (x9 : Vec F S1x256 .f32) (x10 : Vec F S256x768 .bf16) (x11 : Vec F S1x256 .f32) (xs0 : Vec F S512x1 .f32) (xs1 : Vec F S512x1 .f32) (xs2 : Vec F S512x768 .f32) (y : S512x768.Idx) :
    ∃ pc ∈ (kernelRun2_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs0 xs1 xs2).2.2.2.2.1, y ∈ pc.1.set :=
  View.cover_of_tiledL (kernelRun2_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs0 xs1 xs2).2.2.2.2.1 S512x768.size (by sl_kernel_rfl) y

end Cert.Kernel.Hand

end
-- ==== Proof.KB.Region2.lean ====
import proofs.«170994_j15857019257044_2_alg».proof.Proof.KB.Region2Outs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The flash-attention call (pipeline 2): the proof data and the body obligation

The grid is 8 row tiles by 8 key tiles; the key tile `j` is the reduction axis. The running maximum, the normaliser and
the accumulator live in three scratch buffers carried from point to point: initialised at `j = 0`, updated at every
point, and at `j = 7` read to compute the two outputs. The invariant names what the scratch holds after each point. -/

/-! ## Each case's run at a point of the grid -/
/-- Case A's run at point `t`: on the point's staging memrefs and the call's scratch, at the windows' blocks. -/
def runA (c : Dev nD) (t : Fin cfg2.N) (hc0 : cond2_0 (grid2.coords t)) (hc1 : ¬cond2_1 (grid2.coords t)) :=
  kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) scM2_0 (Memref.isWhole_whole _) scM2_1 (Memref.isWhole_whole _) scM2_2 (Memref.isWhole_whole _) hc0 hc1 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t)

/-- Case B's run at point `t`: on the point's staging memrefs and the call's scratch, at the windows' blocks. -/
def runB (c : Dev nD) (t : Fin cfg2.N) (hc0 : ¬cond2_0 (grid2.coords t)) (hc1 : ¬cond2_1 (grid2.coords t)) (xs0 : Vec F S512x1 .f32) (xs1 : Vec F S512x1 .f32) (xs2 : Vec F S512x768 .f32) :=
  kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) scM2_0 (Memref.isWhole_whole _) scM2_1 (Memref.isWhole_whole _) scM2_2 (Memref.isWhole_whole _) hc0 hc1 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) xs0 xs1 xs2

/-- Case C's run at point `t`: on the point's staging memrefs and the call's scratch, at the windows' blocks. -/
def runC (c : Dev nD) (t : Fin cfg2.N) (hc0 : ¬cond2_0 (grid2.coords t)) (hc1 : cond2_1 (grid2.coords t)) (xs0 : Vec F S512x1 .f32) (xs1 : Vec F S512x1 .f32) (xs2 : Vec F S512x768 .f32) :=
  kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) scM2_0 (Memref.isWhole_whole _) scM2_1 (Memref.isWhole_whole _) scM2_2 (Memref.isWhole_whole _) hc0 hc1 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) xs0 xs1 xs2

/-! ## What a case leaves: the two outputs' staging buffers, then the three scratch buffers

Where a case stores nothing into an output (`j ≠ 7`) the component is a placeholder nothing consults: the window is idle
there, neither written back nor read at the next point. -/

def leftA (c : Dev nD) (t : Fin cfg2.N) (hc0 : cond2_0 (grid2.coords t)) (hc1 : ¬cond2_1 (grid2.coords t)) : Vec F S512x256 .f32 × Vec F S512x256 .f32 × Vec F S512x1 .f32 × Vec F S512x1 .f32 × Vec F S512x768 .f32 :=
  (VO2_12.read (Elt F) (VO2_12.writes (Elt F) VO2_12.junk []), VO2_13.read (Elt F) (VO2_13.writes (Elt F) VO2_13.junk []),
   VS2_0.read (Elt F) (VS2_0.writes (Elt F) VS2_0.junk (runA V c t hc0 hc1).1),
   VS2_1.read (Elt F) (VS2_1.writes (Elt F) VS2_1.junk (runA V c t hc0 hc1).2.1),
   VS2_2.read (Elt F) (VS2_2.writes (Elt F) VS2_2.junk (runA V c t hc0 hc1).2.2.1))

def leftB (c : Dev nD) (t : Fin cfg2.N) (hc0 : ¬cond2_0 (grid2.coords t)) (hc1 : ¬cond2_1 (grid2.coords t)) (p : Vec F S512x256 .f32 × Vec F S512x256 .f32 × Vec F S512x1 .f32 × Vec F S512x1 .f32 × Vec F S512x768 .f32) : Vec F S512x256 .f32 × Vec F S512x256 .f32 × Vec F S512x1 .f32 × Vec F S512x1 .f32 × Vec F S512x768 .f32 :=
  (VO2_12.read (Elt F) (VO2_12.writes (Elt F) VO2_12.junk []), VO2_13.read (Elt F) (VO2_13.writes (Elt F) VO2_13.junk []),
   VS2_0.read (Elt F) (VS2_0.writes (Elt F) VS2_0.junk (runB V c t hc0 hc1 p.2.2.1 p.2.2.2.1 p.2.2.2.2).1),
   VS2_1.read (Elt F) (VS2_1.writes (Elt F) VS2_1.junk (runB V c t hc0 hc1 p.2.2.1 p.2.2.2.1 p.2.2.2.2).2.1),
   VS2_2.read (Elt F) (VS2_2.writes (Elt F) VS2_2.junk (runB V c t hc0 hc1 p.2.2.1 p.2.2.2.1 p.2.2.2.2).2.2.1))

def leftC (c : Dev nD) (t : Fin cfg2.N) (hc0 : ¬cond2_0 (grid2.coords t)) (hc1 : cond2_1 (grid2.coords t)) (p : Vec F S512x256 .f32 × Vec F S512x256 .f32 × Vec F S512x1 .f32 × Vec F S512x1 .f32 × Vec F S512x768 .f32) : Vec F S512x256 .f32 × Vec F S512x256 .f32 × Vec F S512x1 .f32 × Vec F S512x1 .f32 × Vec F S512x768 .f32 :=
  (VO2_12.read (Elt F) (VO2_12.writes (Elt F) VO2_12.junk (runC V c t hc0 hc1 p.2.2.1 p.2.2.2.1 p.2.2.2.2).1), VO2_13.read (Elt F) (VO2_13.writes (Elt F) VO2_13.junk (runC V c t hc0 hc1 p.2.2.1 p.2.2.2.1 p.2.2.2.2).2.1),
   VS2_0.read (Elt F) (VS2_0.writes (Elt F) VS2_0.junk (runC V c t hc0 hc1 p.2.2.1 p.2.2.2.1 p.2.2.2.2).2.2.1),
   VS2_1.read (Elt F) (VS2_1.writes (Elt F) VS2_1.junk (runC V c t hc0 hc1 p.2.2.1 p.2.2.2.1 p.2.2.2.2).2.2.2.1),
   VS2_2.read (Elt F) (VS2_2.writes (Elt F) VS2_2.junk (runC V c t hc0 hc1 p.2.2.1 p.2.2.2.1 p.2.2.2.2).2.2.2.2.1))

/-! ## What the outputs and the scratch hold after each point -/

/-- By recursion on the point: the case its key tile selects, run over what the point before left in the scratch. -/
def outsAt2 (c : Dev nD) : (n : ℕ) → n < cfg2.N → Vec F S512x256 .f32 × Vec F S512x256 .f32 × Vec F S512x1 .f32 × Vec F S512x1 .f32 × Vec F S512x768 .f32
  | 0, hn => leftA V c ⟨0, hn⟩ ((hcond2_0 ⟨0, hn⟩).mpr (Nat.zero_mod _)) (fun h => (fun h => by (try dsimp only at h); omega) ((hcond2_1 ⟨0, hn⟩).mp h))
  | n + 1, hn =>
    if h0 : (n + 1) % 8 = 0 then
      if h1 : (n + 1) % 8 = 7 then
        False.elim (by omega)
      else
        leftA V c ⟨n + 1, hn⟩ ((hcond2_0 ⟨n + 1, hn⟩).mpr h0) (fun h => h1 ((hcond2_1 ⟨n + 1, hn⟩).mp h))
    else
      if h1 : (n + 1) % 8 = 7 then
        leftC V c ⟨n + 1, hn⟩ (fun h => h0 ((hcond2_0 ⟨n + 1, hn⟩).mp h)) ((hcond2_1 ⟨n + 1, hn⟩).mpr h1) (outsAt2 c n (Nat.lt_of_succ_lt hn))
      else
        leftB V c ⟨n + 1, hn⟩ (fun h => h0 ((hcond2_0 ⟨n + 1, hn⟩).mp h)) (fun h => h1 ((hcond2_1 ⟨n + 1, hn⟩).mp h)) (outsAt2 c n (Nat.lt_of_succ_lt hn))

theorem outsAt2_A (c : Dev nD) (t : Fin cfg2.N) (h0 : t.val % 8 = 0) (h1 : ¬t.val % 8 = 7) :
    outsAt2 V c t.val t.isLt = leftA V c t ((hcond2_0 t).mpr h0) (fun h => h1 ((hcond2_1 t).mp h)) := by
  obtain ⟨n, hn⟩ := t
  cases n with
  | zero => exact rfl
  | succ n => exact (dif_pos h0).trans ((dif_neg h1).trans rfl)

theorem outsAt2_B (c : Dev nD) (t : Fin cfg2.N) (h0 : ¬t.val % 8 = 0) (h1 : ¬t.val % 8 = 7) :
    outsAt2 V c t.val t.isLt = leftB V c t (fun h => h0 ((hcond2_0 t).mp h)) (fun h => h1 ((hcond2_1 t).mp h))
      (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 8 = 0) (h1 : t.val % 8 = 7) :
    outsAt2 V c t.val t.isLt = leftC V c t (fun h => h0 ((hcond2_0 t).mp h)) ((hcond2_1 t).mpr h1)
      (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The invariant: the scratch at what the point before left -/

/-- Before the first point what the launch hands over (every scratch at anything); before any other point the three
    scratch buffers at what the point before left in them, the other scoped buffers unopened, the generator register. -/
def PhiS2 (c : Dev nD) : (n : ℕ) → n ≤ cfg2.N → sProp 𝕄
  | 0, _ => Pipeline.ΦA spec2 c
  | n + 1, hn => iprop(iprop(iprop(owns (c : Thread nD τ) scM2_0 fullShare (outsAt2 V c n hn).2.2.1 ∗ owns (c : Thread nD τ) scM2_1 fullShare (outsAt2 V c n hn).2.2.2.1 ∗ owns (c : Thread nD τ) scM2_2 fullShare (outsAt2 V c n hn).2.2.2.2)
      ∗ Pipeline.scopedRestBut (Ix := Unit) (Name := ℕ) (U := UR sig nD τ) (Lvl := ℕ) (Val := Elt F) spec2 c [cc2_scratch0, cc2_scratch1, cc2_scratch2]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare (outsAt2 V c n hn).2.2.1 ∗ owns (c : Thread nD τ) scM2_1 fullShare (outsAt2 V c n hn).2.2.2.1 ∗ owns (c : Thread nD τ) scM2_2 fullShare (outsAt2 V c n hn).2.2.2.2)
      ∗ Pipeline.scopedRestBut (Ix := Unit) (Name := ℕ) (U := UR sig nD τ) (Lvl := ℕ) (Val := Elt F) spec2 c [cc2_scratch0, cc2_scratch1, cc2_scratch2]) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare (outsAt2 V c (n - 1) (by omega)).2.2.1 ∗ owns (c : Thread nD τ) scM2_1 fullShare (outsAt2 V c (n - 1) (by omega)).2.2.2.1 ∗ owns (c : Thread nD τ) scM2_2 fullShare (outsAt2 V c (n - 1) (by omega)).2.2.2.2)
      ∗ Pipeline.scopedRestBut (Ix := Unit) (Name := ℕ) (U := UR sig nD τ) (Lvl := ℕ) (Val := Elt F) spec2 c [cc2_scratch0, cc2_scratch1, cc2_scratch2]) ∗ (∃ r, prngReg c r)) := by
  cases n with
  | zero => exact absurd rfl hz
  | succ n => rfl

/-! ## The proof data -/

/-- The arrays as the region finds them; after the body at point `t` each input's buffer at its block and the two
    outputs' at `outsAt2`'s components; the invariant `PhiS2`; the support array, staged by windows 0 and 1, held
    half by each; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => (outsAt2 V c t.val t.isLt).1
    | ⟨13, _⟩ => (outsAt2 V c t.val t.isLt).2.1
  Φ t := PhiS2 V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
    | ⟨13, _⟩ => fullShare
  owed _ := 0

theorem A_eq2 (c : Dev nD) (w : Fin cfg2.W) : (dat2 V c).A w = V c (Pipeline.arrRef spec2 w) := by
  dsimp only [dat2]

/-- The share each input window holds its array at: the support array, staged twice, half and half. -/
theorem q2_0 (c : Dev nD) : (dat2 V c).q 0 = fullShare.left := by dsimp only [dat2]
theorem q2_1 (c : Dev nD) : (dat2 V c).q 1 = fullShare.right := by dsimp only [dat2]
theorem q2_2 (c : Dev nD) : (dat2 V c).q 2 = fullShare := by dsimp only [dat2]
theorem q2_3 (c : Dev nD) : (dat2 V c).q 3 = fullShare := by dsimp only [dat2]
theorem q2_4 (c : Dev nD) : (dat2 V c).q 4 = fullShare := by dsimp only [dat2]
theorem q2_5 (c : Dev nD) : (dat2 V c).q 5 = fullShare := by dsimp only [dat2]
theorem q2_6 (c : Dev nD) : (dat2 V c).q 6 = fullShare := by dsimp only [dat2]
theorem q2_7 (c : Dev nD) : (dat2 V c).q 7 = fullShare := by dsimp only [dat2]
theorem q2_8 (c : Dev nD) : (dat2 V c).q 8 = fullShare := by dsimp only [dat2]
theorem q2_9 (c : Dev nD) : (dat2 V c).q 9 = fullShare := by dsimp only [dat2]
theorem q2_10 (c : Dev nD) : (dat2 V c).q 10 = fullShare := by dsimp only [dat2]
theorem q2_11 (c : Dev nD) : (dat2 V c).q 11 = fullShare := by dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = iblk2 V c 10 t := by dsimp only [dat2]
theorem after2_11 (c : Dev nD) (t : Fin cfg2.N) : (dat2 V c).after 11 t = iblk2 V c 11 t := by dsimp only [dat2]
theorem after2_12 (c : Dev nD) (t : Fin cfg2.N) : (dat2 V c).after 12 t = (outsAt2 V c t.val t.isLt).1 := by dsimp only [dat2]
theorem after2_13 (c : Dev nD) (t : Fin cfg2.N) : (dat2 V c).after 13 t = (outsAt2 V c t.val t.isLt).2.1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d
theorem before2_10 (c : Dev nD) (t : Fin cfg2.N) (d) : (dat2 V c).before 10 t d = iblk2 V c 10 t :=
  before2_10_of V (dat2 V c) (A_eq2 V c 10) (after2_10 V c) t d
theorem before2_11 (c : Dev nD) (t : Fin cfg2.N) (d) : (dat2 V c).before 11 t d = iblk2 V c 11 t :=
  before2_11_of V (dat2 V c) (A_eq2 V c 11) (after2_11 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d))
    ∗ (∃ d, owns (c : Thread nD τ) (ms2_9 t) fullShare ((dat2 V c).before 9 t d))
    ∗ (∃ d, owns (c : Thread nD τ) (ms2_10 t) fullShare ((dat2 V c).before 10 t d))
    ∗ (∃ d, owns (c : Thread nD τ) (ms2_11 t) fullShare ((dat2 V c).before 11 t d))
    ∗ (∃ d, owns (c : Thread nD τ) (ms2_12 t) fullShare ((dat2 V c).before 12 t d))
    ∗ (∃ d, owns (c : Thread nD τ) (ms2_13 t) fullShare ((dat2 V c).before 13 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t
    ∗ (dat2 V c).leavesExact 9 t
    ∗ (dat2 V c).leavesExact 10 t
    ∗ (dat2 V c).leavesExact 11 t
    ∗ (dat2 V c).leavesExact 12 t
    ∗ (dat2 V c).leavesExact 13 t)

set_option maxHeartbeats 4800000 in
/-- At the first key tile: the scratch arrives at anything (at the very first point from the launch, later from the row
    tile before, whose contents are forgotten), is initialised and updated; the outputs' buffers pass through untouched. -/
theorem sound_body2_A (c : Dev nD) (t : Fin cfg2.N) (h0 : t.val % 8 = 0) (h1 : ¬t.val % 8 = 7) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9, before2_10, before2_11]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  rw [show (dat2 V c).leavesExact 6 t = owns (c : Thread nD τ) (ms2_6 t) fullShare ((dat2 V c).after 6 t) from by
    unfold Dat.leavesExact; rw [liveAt2_6 t], after2_6]
  rw [show (dat2 V c).leavesExact 7 t = owns (c : Thread nD τ) (ms2_7 t) fullShare ((dat2 V c).after 7 t) from by
    unfold Dat.leavesExact; rw [liveAt2_7 t], after2_7]
  rw [show (dat2 V c).leavesExact 8 t = owns (c : Thread nD τ) (ms2_8 t) fullShare ((dat2 V c).after 8 t) from by
    unfold Dat.leavesExact; rw [liveAt2_8 t], after2_8]
  rw [show (dat2 V c).leavesExact 9 t = owns (c : Thread nD τ) (ms2_9 t) fullShare ((dat2 V c).after 9 t) from by
    unfold Dat.leavesExact; rw [liveAt2_9 t], after2_9]
  rw [show (dat2 V c).leavesExact 10 t = owns (c : Thread nD τ) (ms2_10 t) fullShare ((dat2 V c).after 10 t) from by
    unfold Dat.leavesExact; rw [liveAt2_10 t], after2_10]
  rw [show (dat2 V c).leavesExact 11 t = owns (c : Thread nD τ) (ms2_11 t) fullShare ((dat2 V c).after 11 t) from by
    unfold Dat.leavesExact; rw [liveAt2_11 t], after2_11]
  rw [Dat.leavesExact_idle (dat2 V c) 12 t (idleAt2_12 t (fun h => h1 ((hcond2_1 t).mp h))) (noFlush2_12 t (fun h => h1 ((hcond2_1 t).mp h)))]
  rw [Dat.leavesExact_idle (dat2 V c) 13 t (idleAt2_13 t (fun h => h1 ((hcond2_1 t).mp h))) (noFlush2_13 t (fun h => h1 ((hcond2_1 t).mp h)))]
  rw [outsAt2_A V c t h0 h1]
  unfold leftA; (try dsimp only)
  by_cases hz : t.val = 0
  · rw [PhiS2_castSucc V c t, PhiS2_zero V c _ _ hz, PhiA2_eq]
    iintro ⟨⟨⟨⟨HS0, HS1, HS2⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((runA V c t ((hcond2_0 t).mpr h0) (fun h => h1 ((hcond2_1 t).mp h))).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [HS0]; · iexact HS0
    isplitl [HS1]; · iexact HS1
    isplitl [HS2]; · iexact HS2
    iintro ⟨H0, H1, H2, H3, H4, H5, H6, H7, H8, H9, H10, H11, H12, H13, ⟨%es0, HS0⟩, ⟨%es1, HS1⟩, ⟨%es2, HS2⟩⟩
    isplitl [HS0 HS1 HS2 Hrest Hg]
    · isplitl [HS0 HS1 HS2 Hrest]
      · isplitl [HS0 HS1 HS2]
        · isplitl [HS0]
          · unfold owns; iexists _; isplitr
            swap; · iexact HS0
            ipureintro; exact View.read_writes_of_cover _ _ _ _ _ (cover2_A_S0 c _ _ _ _ _ _ _ _ _ _ _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (cover2_A_S1 c _ _ _ _ _ _ _ _ _ _ _ _ _ _ _ _ _ _ _ _ _ _ _ _ _ _ _ _ _ _ _ _ _ _ _ _ _ _ _ _ _ _ _ _ _ _ _ _ _)
          unfold owns; iexists _; isplitr
          swap; · iexact HS2
          ipureintro; exact View.read_writes_of_cover _ _ _ _ _ (cover2_A_S2 c _ _ _ _ _ _ _ _ _ _ _ _ _ _ _ _ _ _ _ _ _ _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    iexists _; iexact H13

  · rw [PhiS2_castSucc V c t, PhiS2_pos V c _ _ hz]
    iintro ⟨⟨⟨⟨HS0, HS1, HS2⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((runA V c t ((hcond2_0 t).mpr h0) (fun h => h1 ((hcond2_1 t).mp h))).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [HS0]; · iexists _; iexact HS0
    isplitl [HS1]; · iexists _; iexact HS1
    isplitl [HS2]; · iexists _; iexact HS2
    iintro ⟨H0, H1, H2, H3, H4, H5, H6, H7, H8, H9, H10, H11, H12, H13, ⟨%es0, HS0⟩, ⟨%es1, HS1⟩, ⟨%es2, HS2⟩⟩
    isplitl [HS0 HS1 HS2 Hrest Hg]
    · isplitl [HS0 HS1 HS2 Hrest]
      · isplitl [HS0 HS1 HS2]
        · isplitl [HS0]
          · unfold owns; iexists _; isplitr
            swap; · iexact HS0
            ipureintro; exact View.read_writes_of_cover _ _ _ _ _ (cover2_A_S0 c _ _ _ _ _ _ _ _ _ _ _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (cover2_A_S1 c _ _ _ _ _ _ _ _ _ _ _ _ _ _ _ _ _ _ _ _ _ _ _ _ _ _ _ _ _ _ _ _ _ _ _ _ _ _ _ _ _ _ _ _ _ _ _ _ _)
          unfold owns; iexists _; isplitr
          swap; · iexact HS2
          ipureintro; exact View.read_writes_of_cover _ _ _ _ _ (cover2_A_S2 c _ _ _ _ _ _ _ _ _ _ _ _ _ _ _ _ _ _ _ _ _ _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    iexists _; iexact H13

set_option maxHeartbeats 4800000 in
/-- At an inner key tile: the scratch arrives at what the tile before left and is updated; the outputs' buffers pass
    through untouched. -/
theorem sound_body2_B (c : Dev nD) (t : Fin cfg2.N) (h0 : ¬t.val % 8 = 0) (h1 : ¬t.val % 8 = 7) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9, before2_10, before2_11]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  rw [show (dat2 V c).leavesExact 6 t = owns (c : Thread nD τ) (ms2_6 t) fullShare ((dat2 V c).after 6 t) from by
    unfold Dat.leavesExact; rw [liveAt2_6 t], after2_6]
  rw [show (dat2 V c).leavesExact 7 t = owns (c : Thread nD τ) (ms2_7 t) fullShare ((dat2 V c).after 7 t) from by
    unfold Dat.leavesExact; rw [liveAt2_7 t], after2_7]
  rw [show (dat2 V c).leavesExact 8 t = owns (c : Thread nD τ) (ms2_8 t) fullShare ((dat2 V c).after 8 t) from by
    unfold Dat.leavesExact; rw [liveAt2_8 t], after2_8]
  rw [show (dat2 V c).leavesExact 9 t = owns (c : Thread nD τ) (ms2_9 t) fullShare ((dat2 V c).after 9 t) from by
    unfold Dat.leavesExact; rw [liveAt2_9 t], after2_9]
  rw [show (dat2 V c).leavesExact 10 t = owns (c : Thread nD τ) (ms2_10 t) fullShare ((dat2 V c).after 10 t) from by
    unfold Dat.leavesExact; rw [liveAt2_10 t], after2_10]
  rw [show (dat2 V c).leavesExact 11 t = owns (c : Thread nD τ) (ms2_11 t) fullShare ((dat2 V c).after 11 t) from by
    unfold Dat.leavesExact; rw [liveAt2_11 t], after2_11]
  rw [Dat.leavesExact_idle (dat2 V c) 12 t (idleAt2_12 t (fun h => h1 ((hcond2_1 t).mp h))) (noFlush2_12 t (fun h => h1 ((hcond2_1 t).mp h)))]
  rw [Dat.leavesExact_idle (dat2 V c) 13 t (idleAt2_13 t (fun h => h1 ((hcond2_1 t).mp h))) (noFlush2_13 t (fun h => h1 ((hcond2_1 t).mp h)))]
  rw [outsAt2_B V c t h0 h1]
  unfold leftB; (try dsimp only)
  have hz : t.val ≠ 0 := fun e => h0 (by rw [e])
  rw [PhiS2_castSucc V c t, PhiS2_pos V c _ _ hz]
  iintro ⟨⟨⟨⟨HS0, HS1, HS2⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((runB V c t (fun h => h0 ((hcond2_0 t).mp h)) (fun h => h1 ((hcond2_1 t).mp h)) _ _ _).2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HS0]; · iexact HS0
  isplitl [HS1]; · iexact HS1
  isplitl [HS2]; · iexact HS2
  iintro ⟨H0, H1, H2, H3, H4, H5, H6, H7, H8, H9, H10, H11, H12, H13, ⟨%es0, HS0⟩, ⟨%es1, HS1⟩, ⟨%es2, HS2⟩⟩
  isplitl [HS0 HS1 HS2 Hrest Hg]
  · isplitl [HS0 HS1 HS2 Hrest]
    · isplitl [HS0 HS1 HS2]
      · isplitl [HS0]
        · unfold owns; iexists _; isplitr
          swap; · iexact HS0
          ipureintro; exact View.read_writes_of_cover _ _ _ _ _ (cover2_B_S0 c _ _ _ _ _ _ _ _ _ _ _ _ _ _ _ _ _ _ _ _ _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (cover2_B_S1 c _ _ _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact HS2
        ipureintro; exact View.read_writes_of_cover _ _ _ _ _ (cover2_B_S2 c _ _ _ _ _ _ _ _ _ _ _ _ _ _ _ _ _ _ _ _ _ _ _ _ _ _ _ _ _ _ _ _ _ _ _ _ _ _ _ _ _ _ _ _ _ _ _ _ _ _ _ _)
      iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iexists _; iexact H13

set_option maxHeartbeats 4800000 in
/-- At the last key tile: the scratch arrives at what the tile before left and is updated, and both outputs are stored
    whole. -/
theorem sound_body2_C (c : Dev nD) (t : Fin cfg2.N) (h0 : ¬t.val % 8 = 0) (h1 : t.val % 8 = 7) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9, before2_10, before2_11]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  rw [show (dat2 V c).leavesExact 6 t = owns (c : Thread nD τ) (ms2_6 t) fullShare ((dat2 V c).after 6 t) from by
    unfold Dat.leavesExact; rw [liveAt2_6 t], after2_6]
  rw [show (dat2 V c).leavesExact 7 t = owns (c : Thread nD τ) (ms2_7 t) fullShare ((dat2 V c).after 7 t) from by
    unfold Dat.leavesExact; rw [liveAt2_7 t], after2_7]
  rw [show (dat2 V c).leavesExact 8 t = owns (c : Thread nD τ) (ms2_8 t) fullShare ((dat2 V c).after 8 t) from by
    unfold Dat.leavesExact; rw [liveAt2_8 t], after2_8]
  rw [show (dat2 V c).leavesExact 9 t = owns (c : Thread nD τ) (ms2_9 t) fullShare ((dat2 V c).after 9 t) from by
    unfold Dat.leavesExact; rw [liveAt2_9 t], after2_9]
  rw [show (dat2 V c).leavesExact 10 t = owns (c : Thread nD τ) (ms2_10 t) fullShare ((dat2 V c).after 10 t) from by
    unfold Dat.leavesExact; rw [liveAt2_10 t], after2_10]
  rw [show (dat2 V c).leavesExact 11 t = owns (c : Thread nD τ) (ms2_11 t) fullShare ((dat2 V c).after 11 t) from by
    unfold Dat.leavesExact; rw [liveAt2_11 t], after2_11]
  rw [show (dat2 V c).leavesExact 12 t = owns (c : Thread nD τ) (ms2_12 t) fullShare ((dat2 V c).after 12 t) from by
    unfold Dat.leavesExact; rw [liveAt2_12 t ((hcond2_1 t).mpr h1)], after2_12]
  rw [show (dat2 V c).leavesExact 13 t = owns (c : Thread nD τ) (ms2_13 t) fullShare ((dat2 V c).after 13 t) from by
    unfold Dat.leavesExact; rw [liveAt2_13 t ((hcond2_1 t).mpr h1)], after2_13]
  rw [outsAt2_C V c t h0 h1]
  unfold leftC; (try dsimp only)
  have hz : t.val ≠ 0 := fun e => h0 (by rw [e])
  rw [PhiS2_castSucc V c t, PhiS2_pos V c _ _ hz]
  iintro ⟨⟨⟨⟨HS0, HS1, HS2⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((runC V c t (fun h => h0 ((hcond2_0 t).mp h)) ((hcond2_1 t).mpr h1) _ _ _).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [HS0]; · iexact HS0
  isplitl [HS1]; · iexact HS1
  isplitl [HS2]; · iexact HS2
  iintro ⟨H0, H1, H2, H3, H4, H5, H6, H7, H8, H9, H10, H11, ⟨%e12, H12⟩, ⟨%e13, H13⟩, ⟨%es0, HS0⟩, ⟨%es1, HS1⟩, ⟨%es2, HS2⟩⟩
  isplitl [HS0 HS1 HS2 Hrest Hg]
  · isplitl [HS0 HS1 HS2 Hrest]
    · isplitl [HS0 HS1 HS2]
      · isplitl [HS0]
        · unfold owns; iexists _; isplitr
          swap; · iexact HS0
          ipureintro; exact View.read_writes_of_cover _ _ _ _ _ (cover2_C_S0 c _ _ _ _ _ _ _ _ _ _ _ _ _ _ _ _ _ _ _ _ _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (cover2_C_S1 c _ _ _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact HS2
        ipureintro; exact View.read_writes_of_cover _ _ _ _ _ (cover2_C_S2 c _ _ _ _ _ _ _ _ _ _ _ _ _ _ _ _ _ _ _ _ _ _ _ _ _ _ _ _ _ _ _ _ _ _ _ _ _ _ _ _ _ _ _ _ _ _ _ _ _ _ _ _)
      iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · unfold owns; iexists _; isplitr
    swap; · iexact H12
    ipureintro; exact View.read_writes_of_cover _ _ _ _ _ (cover2_C_O12 c _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H13
  ipureintro; exact View.read_writes_of_cover _ _ _ _ _ (cover2_C_O13 c _ _ _ _ _ _ _ _ _ _ _ _ _ _ _ _ _ _ _ _ _ _ _ _ _ _ _ _ _ _ _ _ _ _ _ _ _ _ _ _ _ _ _ _ _ _ _ _ _ _ _ _)

/-- The body at any point, by the key tile it is at. -/
theorem sound_body2 (c : Dev nD) (t : Fin cfg2.N) : bodyPre2 V c t ⊢ wp frame (wpE (defs₀ (F := F)) Variants.none c none) Set.univ (bodyAt2 t) (fun _ => bodyPost2 V c t) := by
  by_cases h0 : t.val % 8 = 0
  · by_cases h1 : t.val % 8 = 7
    · exfalso; omega
    · exact sound_body2_A V c t h0 h1
  · by_cases h1 : t.val % 8 = 7
    · exact sound_body2_C V c t h0 h1
    · exact sound_body2_B V c t h0 h1

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point the invariant gives back what the launch handed over: the scratch's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1, HS2⟩, Hrest⟩, Hg⟩
  isplitl [HS0 HS1 HS2 Hrest]
  · isplitl [HS0 HS1 HS2]
    · isplitl [HS0]; · iexists _; iexact HS0
      isplitl [HS1]; · iexists _; iexact HS1
      iexists _; iexact HS2
    iexact Hrest
  iexact Hg

theorem hout2 (c : Dev nD) : (dat2 V c).Φ (Fin.last cfg2.N) ⊢ Pipeline.ΦA spec2 c :=
  Phi_out2 V c _ (by rw [Fin.val_last]; have : cfg2.N = 64 := N_2; omega)

end Cert.Kernel.Hand

end
-- ==== Proof.KB.Region3.lean ====
import proofs.«170994_j15857019257044_2_alg».proof.Proof.Gen.Kernel.Launch
import proofs.«170994_j15857019257044_2_alg».proof.Proof.Gen.Kernel.Skeleton
import proofs.«170994_j15857019257044_2_alg».proof.Proof.Gen.Kernel.Points
import proofs.«170994_j15857019257044_2_alg».proof.Proof.Gen.Kernel.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Graph attention over one array pair: the region's half of the frame

The body at grid point `i` holds a block of 512 rows of `X` (window 0) and of `Q` (window 1), the whole of `X`
(window 2) and of `Q` (window 3), and writes a block of 512 rows of the result (window 4). A counted loop of 16
trips walks the 4096 rows of the whole arrays 256 at a time, carrying in VALUES the running row maximum, the
normaliser and the accumulator of a streaming softmax; after it ONE store writes the whole output block from the
carried normaliser and accumulator and the two input blocks. Nothing is carried in memory between points. -/

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not: the body only
    reads it, so where the block index has not moved since the last fetch (the whole-array windows 2 and 3 after
    the first point) what the body left is the block again. For any proof data whose array is the entry
    contents and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The whole 512×256 block: the rectangle of every whole-block load and of the one store. -/
abbrev r3_4 : Rect S512x256 := Rect.unit (s := S512x256) ![0, 0] S512x256.size inb_S512x256_S512x256_0_0

/-! ## What the body leaves in the output window's buffer -/

/-- The value the loop carries out of its 16 trips — (running maximum, normaliser, accumulator) — from the initial
    (−∞, 0, 0): the recursion over the trips' yields, at the staging memrefs holding the blocks `x0` (window 0),
    `x2` and `x3` (windows 2 and 3, the whole arrays), which are all the loop reads. -/
def loop3 (c : Dev nD) (i : grid3.Coords) (arg1 : Memref sig .tc .vmem S512x256 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S512x256 .f32) (harg5 : arg5.IsWhole)
    (x0 : Vec F S512x256 .f32) (x2 x3 : Vec F S4096x256 .f32) : FVec F S512x1 .f32 × FVec F S512x1 .f32 × FVec F S512x256 .f32 :=
  st_k3_t1 (F := F) Variants.none c none i arg1 harg1 arg2 harg2 arg3 harg3 arg4 harg4 arg5 harg5 (harg1.unread x0) (harg3.unread x2) (harg4.unread x3)
    (k3_pay1, k3_pay2, k3_pay3) (Scf.trips k3_t1_loop.lb k3_t1_loop.ub k3_t1_loop.st)

/-- Window 4's staging buffer after the body, from the input windows' blocks: its one whole-block store, whose
    payload takes the normaliser and the accumulator the loop ends with and the blocks of windows 1 and 0. -/
def out3_4 (c : Dev nD) (i : grid3.Coords) (arg1 : Memref sig .tc .vmem S512x256 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S512x256 .f32) (harg5 : arg5.IsWhole)
    (x0 x1 : Vec F S512x256 .f32) (x2 x3 : Vec F S4096x256 .f32) : Vec F S512x256 .f32 :=
  View.canon [⟨r3_4, k3_pay10 (loop3 c i arg1 harg1 arg2 harg2 arg3 harg3 arg4 harg4 arg5 harg5 x0 x2 x3).2.1 (loop3 c i arg1 harg1 arg2 harg2 arg3 harg3 arg4 harg4 arg5 harg5 x0 x2 x3).2.2
    (View.ld x1 r3_4) (View.ld x0 r3_4)⟩]

/-- The one store is of the whole block, so it covers the buffer. -/
theorem cover3_4 (p0 : Vec F S512x256 .f32) (y : S512x256.Idx) :
    ∃ pc ∈ ([⟨r3_4, p0⟩] : List (View.Piece (Elt F) S512x256 .f32)), y ∈ pc.1.set :=
  View.cover_of_tiled [⟨r3_4, p0⟩] S512x256.size (by rfl) y

/-! ## The body's triple -/

set_option maxHeartbeats 1000000 in
/-- The kernel body on whole staging memrefs, the inputs' at contents `xW` and the output's at anything, runs to
    the continuation holding the inputs' as they were and the output's at `out3_4` of the inputs'. The raw
    contents of each memref the loop reads are named from what it reads (a whole memref's reading is a
    bijection), so that the loop's invariant is met at the blocks themselves; the run goes through the loop once,
    by its invariant, and ends with the one store written over whatever the output's buffer held. -/
theorem sound_kernel3 (c : Dev nD) (E : Set ℕ) (i : grid3.Coords) (arg1 : Memref sig .tc .vmem S512x256 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S512x256 .f32) (harg5 : arg5.IsWhole)
    (x0 x1 : Vec F S512x256 .f32) (x2 x3 : Vec F S4096x256 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out3_4 c i arg1 harg1 arg2 harg2 arg3 harg3 arg4 harg4 arg5 harg5 x0 x1 x2 x3)) -∗ K ⟨⟩))
      ⊢ wp frame (wpE (defs₀ (F := F)) Variants.none c none) E (cc3_kernel i arg1 harg1 arg2 harg2 arg3 harg3 arg4 harg4 arg5 harg5) K := by
  simp only [cc3_kernel_eq_skeleton]; unfold cc3_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg1.eq_unread hf0
  obtain rfl := harg3.eq_unread hf2
  obtain rfl := harg4.eq_unread hf3
  subst hf1
  sl_exec
  sl_step
  iapply Hk
  isplitl [H0]
  · iexists _; isplitr; · ipureintro; exact hf0
    iexact H0
  isplitl [H1]
  · iexists f1; isplitr; · ipureintro; rfl
    iexact H1
  isplitl [H2]
  · iexists _; isplitr; · ipureintro; exact hf2
    iexact H2
  isplitl [H3]
  · iexists _; isplitr; · ipureintro; exact hf3
    iexact H3
  iexists _; isplitr
  swap; · iexact H4
  ipureintro
  rw [View.read_writes_eq_canon _ _ _ (cover3_4 _)]
  unfold out3_4 loop3
  rw [View.readAt_eq_ld, View.readAt_eq_ld, hf0]

/-! ## The pipeline's proof data -/

/-- The proof data of this pipeline on core `c`: the arrays as the region finds them; after the body at point `t`
    each input's buffer at its block and the output's at `out3_4` of the input blocks, at the point's staging
    memrefs; the invariant the scoped rest and the generator register, untouched; nothing owed. Windows 0 and 2
    stage one array, and so do windows 1 and 3: each pair splits its array's full share in two halves, the
    lower-numbered window holding the left; the output's array is held whole. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 c (grid3.coords t) (st3_0 t) (hstage3_0 ((cfg3.slots t 0).cast nbuf3_0)) (st3_1 t) (hstage3_1 ((cfg3.slots t 1).cast nbuf3_1)) (st3_2 t) (hstage3_2 ((cfg3.slots t 2).cast nbuf3_2)) (st3_3 t) (hstage3_3 ((cfg3.slots t 3).cast nbuf3_3)) (st3_4 t) (hstage3_4 ((cfg3.slots t 4).cast nbuf3_4))
        (iblk3 V c 0 t) (iblk3 V c 1 t) (iblk3 V c 2 t) (iblk3 V c 3 t)
  Φ _ := Pipeline.ΦA spec3 c
  q w := match w with
    | ⟨0, _⟩ => fullShare.left
    | ⟨1, _⟩ => fullShare.left
    | ⟨2, _⟩ => fullShare.right
    | ⟨3, _⟩ => fullShare.right
    | ⟨4, _⟩ => fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t =
    out3_4 c (grid3.coords t) (st3_0 t) (hstage3_0 ((cfg3.slots t 0).cast nbuf3_0)) (st3_1 t) (hstage3_1 ((cfg3.slots t 1).cast nbuf3_1)) (st3_2 t) (hstage3_2 ((cfg3.slots t 2).cast nbuf3_2)) (st3_3 t) (hstage3_3 ((cfg3.slots t 3).cast nbuf3_3)) (st3_4 t) (hstage3_4 ((cfg3.slots t 4).cast nbuf3_4))
      (iblk3 V c 0 t) (iblk3 V c 1 t) (iblk3 V c 2 t) (iblk3 V c 3 t) := by dsimp only [dat3]

/-- The shares, window by window. -/
theorem q3_0 (c : Dev nD) : (dat3 V c).q 0 = fullShare.left := by dsimp only [dat3]
theorem q3_1 (c : Dev nD) : (dat3 V c).q 1 = fullShare.left := by dsimp only [dat3]
theorem q3_2 (c : Dev nD) : (dat3 V c).q 2 = fullShare.right := by dsimp only [dat3]
theorem q3_3 (c : Dev nD) : (dat3 V c).q 3 = fullShare.right := by dsimp only [dat3]
theorem q3_4 (c : Dev nD) : (dat3 V c).q 4 = fullShare := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' memrefs hold their blocks, so the body's triple applies; the invariant and
    the core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KB.Region4.lean ====
import proofs.«170994_j15857019257044_2_alg».proof.Proof.Gen.Kernel.Launch
import proofs.«170994_j15857019257044_2_alg».proof.Proof.Gen.Kernel.Skeleton
import proofs.«170994_j15857019257044_2_alg».proof.Proof.Gen.Kernel.Points
import proofs.«170994_j15857019257044_2_alg».proof.Proof.Gen.Kernel.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Graph attention over one array pair: the region's half of the frame

The body at grid point `i` holds a block of 512 rows of `X` (window 0) and of `Q` (window 1), the whole of `X`
(window 2) and of `Q` (window 3), and writes a block of 512 rows of the result (window 4). A counted loop of 16
trips walks the 4096 rows of the whole arrays 256 at a time, carrying in VALUES the running row maximum, the
normaliser and the accumulator of a streaming softmax; after it ONE store writes the whole output block from the
carried normaliser and accumulator and the two input blocks. Nothing is carried in memory between points. -/

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not: the body only
    reads it, so where the block index has not moved since the last fetch (the whole-array windows 2 and 3 after
    the first point) what the body left is the block again. For any proof data whose array is the entry
    contents and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

/-- The whole 512×256 block: the rectangle of every whole-block load and of the one store. -/
abbrev r4_4 : Rect S512x256 := Rect.unit (s := S512x256) ![0, 0] S512x256.size inb_S512x256_S512x256_0_0

/-! ## What the body leaves in the output window's buffer -/

/-- The value the loop carries out of its 16 trips — (running maximum, normaliser, accumulator) — from the initial
    (−∞, 0, 0): the recursion over the trips' yields, at the staging memrefs holding the blocks `x0` (window 0),
    `x2` and `x3` (windows 2 and 3, the whole arrays), which are all the loop reads. -/
def loop4 (c : Dev nD) (i : grid4.Coords) (arg1 : Memref sig .tc .vmem S512x256 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S512x256 .f32) (harg5 : arg5.IsWhole)
    (x0 : Vec F S512x256 .f32) (x2 x3 : Vec F S4096x256 .f32) : FVec F S512x1 .f32 × FVec F S512x1 .f32 × FVec F S512x256 .f32 :=
  st_k4_t1 (F := F) Variants.none c none i arg1 harg1 arg2 harg2 arg3 harg3 arg4 harg4 arg5 harg5 (harg1.unread x0) (harg3.unread x2) (harg4.unread x3)
    (k4_pay1, k4_pay2, k4_pay3) (Scf.trips k4_t1_loop.lb k4_t1_loop.ub k4_t1_loop.st)

/-- Window 4's staging buffer after the body, from the input windows' blocks: its one whole-block store, whose
    payload takes the normaliser and the accumulator the loop ends with and the blocks of windows 1 and 0. -/
def out4_4 (c : Dev nD) (i : grid4.Coords) (arg1 : Memref sig .tc .vmem S512x256 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S512x256 .f32) (harg5 : arg5.IsWhole)
    (x0 x1 : Vec F S512x256 .f32) (x2 x3 : Vec F S4096x256 .f32) : Vec F S512x256 .f32 :=
  View.canon [⟨r4_4, k4_pay10 (loop4 c i arg1 harg1 arg2 harg2 arg3 harg3 arg4 harg4 arg5 harg5 x0 x2 x3).2.1 (loop4 c i arg1 harg1 arg2 harg2 arg3 harg3 arg4 harg4 arg5 harg5 x0 x2 x3).2.2
    (View.ld x1 r4_4) (View.ld x0 r4_4)⟩]

/-- The one store is of the whole block, so it covers the buffer. -/
theorem cover4_4 (p0 : Vec F S512x256 .f32) (y : S512x256.Idx) :
    ∃ pc ∈ ([⟨r4_4, p0⟩] : List (View.Piece (Elt F) S512x256 .f32)), y ∈ pc.1.set :=
  View.cover_of_tiled [⟨r4_4, p0⟩] S512x256.size (by rfl) y

/-! ## The body's triple -/

set_option maxHeartbeats 1000000 in
/-- The kernel body on whole staging memrefs, the inputs' at contents `xW` and the output's at anything, runs to
    the continuation holding the inputs' as they were and the output's at `out4_4` of the inputs'. The raw
    contents of each memref the loop reads are named from what it reads (a whole memref's reading is a
    bijection), so that the loop's invariant is met at the blocks themselves; the run goes through the loop once,
    by its invariant, and ends with the one store written over whatever the output's buffer held. -/
theorem sound_kernel4 (c : Dev nD) (E : Set ℕ) (i : grid4.Coords) (arg1 : Memref sig .tc .vmem S512x256 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S512x256 .f32) (harg5 : arg5.IsWhole)
    (x0 x1 : Vec F S512x256 .f32) (x2 x3 : Vec F S4096x256 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out4_4 c i arg1 harg1 arg2 harg2 arg3 harg3 arg4 harg4 arg5 harg5 x0 x1 x2 x3)) -∗ K ⟨⟩))
      ⊢ wp frame (wpE (defs₀ (F := F)) Variants.none c none) E (cc4_kernel i arg1 harg1 arg2 harg2 arg3 harg3 arg4 harg4 arg5 harg5) K := by
  simp only [cc4_kernel_eq_skeleton]; unfold cc4_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg1.eq_unread hf0
  obtain rfl := harg3.eq_unread hf2
  obtain rfl := harg4.eq_unread hf3
  subst hf1
  sl_exec
  sl_step
  iapply Hk
  isplitl [H0]
  · iexists _; isplitr; · ipureintro; exact hf0
    iexact H0
  isplitl [H1]
  · iexists f1; isplitr; · ipureintro; rfl
    iexact H1
  isplitl [H2]
  · iexists _; isplitr; · ipureintro; exact hf2
    iexact H2
  isplitl [H3]
  · iexists _; isplitr; · ipureintro; exact hf3
    iexact H3
  iexists _; isplitr
  swap; · iexact H4
  ipureintro
  rw [View.read_writes_eq_canon _ _ _ (cover4_4 _)]
  unfold out4_4 loop4
  rw [View.readAt_eq_ld, View.readAt_eq_ld, hf0]

/-! ## The pipeline's proof data -/

/-- The proof data of this pipeline on core `c`: the arrays as the region finds them; after the body at point `t`
    each input's buffer at its block and the output's at `out4_4` of the input blocks, at the point's staging
    memrefs; the invariant the scoped rest and the generator register, untouched; nothing owed. Windows 0 and 2
    stage one array, and so do windows 1 and 3: each pair splits its array's full share in two halves, the
    lower-numbered window holding the left; the output's array is held whole. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 c (grid4.coords t) (st4_0 t) (hstage4_0 ((cfg4.slots t 0).cast nbuf4_0)) (st4_1 t) (hstage4_1 ((cfg4.slots t 1).cast nbuf4_1)) (st4_2 t) (hstage4_2 ((cfg4.slots t 2).cast nbuf4_2)) (st4_3 t) (hstage4_3 ((cfg4.slots t 3).cast nbuf4_3)) (st4_4 t) (hstage4_4 ((cfg4.slots t 4).cast nbuf4_4))
        (iblk4 V c 0 t) (iblk4 V c 1 t) (iblk4 V c 2 t) (iblk4 V c 3 t)
  Φ _ := Pipeline.ΦA spec4 c
  q w := match w with
    | ⟨0, _⟩ => fullShare.left
    | ⟨1, _⟩ => fullShare.left
    | ⟨2, _⟩ => fullShare.right
    | ⟨3, _⟩ => fullShare.right
    | ⟨4, _⟩ => fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t =
    out4_4 c (grid4.coords t) (st4_0 t) (hstage4_0 ((cfg4.slots t 0).cast nbuf4_0)) (st4_1 t) (hstage4_1 ((cfg4.slots t 1).cast nbuf4_1)) (st4_2 t) (hstage4_2 ((cfg4.slots t 2).cast nbuf4_2)) (st4_3 t) (hstage4_3 ((cfg4.slots t 3).cast nbuf4_3)) (st4_4 t) (hstage4_4 ((cfg4.slots t 4).cast nbuf4_4))
      (iblk4 V c 0 t) (iblk4 V c 1 t) (iblk4 V c 2 t) (iblk4 V c 3 t) := by dsimp only [dat4]

/-- The shares, window by window. -/
theorem q4_0 (c : Dev nD) : (dat4 V c).q 0 = fullShare.left := by dsimp only [dat4]
theorem q4_1 (c : Dev nD) : (dat4 V c).q 1 = fullShare.left := by dsimp only [dat4]
theorem q4_2 (c : Dev nD) : (dat4 V c).q 2 = fullShare.right := by dsimp only [dat4]
theorem q4_3 (c : Dev nD) : (dat4 V c).q 3 = fullShare.right := by dsimp only [dat4]
theorem q4_4 (c : Dev nD) : (dat4 V c).q 4 = fullShare := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

/-- The body at any point: the inputs' memrefs hold their blocks, so the body's triple applies; the invariant and
    the core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.KB.Region5.lean ====
import proofs.«170994_j15857019257044_2_alg».proof.Proof.Gen.Kernel.Launch
import proofs.«170994_j15857019257044_2_alg».proof.Proof.Gen.Kernel.Skeleton
import proofs.«170994_j15857019257044_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 5 of @main: the row-tiled sigmoid linear layer `cc5_kernel` (x block i, the whole weight, the whole bias → out block i) -/

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, fetched there or not (an unfetched
    window's block index has not moved), for any proof data whose array is `V`'s and whose body leaves the block
    in place. Window 0 (the rows of x): -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Window 1 (the whole weight, one block for every point): -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Window 2 (the whole bias row, one block for every point): -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each a whole staging buffer -/

abbrev r5_x : Rect S512x256 := Rect.unit (s := S512x256) ![0, 0] S512x256.size inb_S512x256_S512x256_0_0
abbrev r5_w : Rect S256x256 := Rect.unit (s := S256x256) ![0, 0] S256x256.size inb_S256x256_S256x256_0_0
abbrev r5_b : Rect S1x256 := Rect.unit (s := S1x256) ![0, 0] S1x256.size inb_S1x256_S1x256_0_0

/-! ## What the body leaves in the output window's buffer -/

/-- Window 3's staging buffer after the body, from the input windows' blocks: its one store, of logistic (x·Wᵀ + b)
    (the payload `k5_pay1` of the three loads). -/
def out5_3 (x0 : Vec F S512x256 .f32) (x1 : Vec F S256x256 .bf16) (x2 : Vec F S1x256 .f32) : Vec F S512x256 .f32 :=
  View.canon [⟨r5_x, k5_pay1 (View.ld x0 r5_x) (View.ld x1 r5_w) (View.ld x2 r5_b)⟩]

/-- The store is the whole buffer, so it covers it. -/
theorem cover5_3 (p0 : Vec F S512x256 .f32) (y : S512x256.Idx) :
    ∃ pc ∈ ([⟨r5_x, p0⟩] : List (View.Piece (Elt F) S512x256 .f32)), y ∈ pc.1.set :=
  View.cover_of_tiled [⟨r5_x, p0⟩] S512x256.size (by rfl) y

/-! ## The body's triple -/

set_option maxHeartbeats 1000000 in
/-- The kernel body on whole staging memrefs, the inputs' at read contents `xW` and the output's at anything, runs to
    the continuation holding the inputs' as they were and the output's at `out5_3` of the inputs'. -/
theorem sound_kernel5 (c : Dev nD) (E : Set ℕ) (i : grid5.Coords)
    (arg1 : Memref sig .tc .vmem S512x256 .f32) (harg1 : arg1.IsWhole) (arg2 : Memref sig .tc .vmem S256x256 .bf16) (harg2 : arg2.IsWhole)
    (arg3 : Memref sig .tc .vmem S1x256 .f32) (harg3 : arg3.IsWhole) (arg4 : Memref sig .tc .vmem S512x256 .f32) (harg4 : arg4.IsWhole)
    (x0 : Vec F S512x256 .f32) (x1 : Vec F S256x256 .bf16) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out5_3 x0 x1 x2)) -∗ K ⟨⟩))
      ⊢ wp frame (wpE (defs₀ (F := F)) Variants.none c none) E (cc5_kernel i arg1 harg1 arg2 harg2 arg3 harg3 arg4 harg4) K := by
  simp only [cc5_kernel_eq_skeleton]; unfold cc5_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-! ## The pipeline's proof data -/

/-- The proof data of pipeline 5 on core `c`: the arrays as the region finds them (`V`); after the body at
    point `t` each input's buffer at its block and the output's at `out5_3` of the input blocks; the invariant the
    scoped rest and the generator register, untouched; nothing owed; every array read through one window, at the full share. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q w := match w with
    | ⟨0, _⟩ => fullShare
    | ⟨1, _⟩ => fullShare
    | ⟨2, _⟩ => fullShare
    | ⟨3, _⟩ => fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = out5_3 (iblk5 V c 0 t) (iblk5 V c 1 t) (iblk5 V c 2 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point `t` (the windows one by one), -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' memrefs hold their blocks (`before5_W`), so `sound_kernel5` applies; the
    invariant and the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.KB.Region6.lean ====
import proofs.«170994_j15857019257044_2_alg».proof.Proof.Gen.Kernel.Launch
import proofs.«170994_j15857019257044_2_alg».proof.Proof.Gen.Kernel.Skeleton
import proofs.«170994_j15857019257044_2_alg».proof.Proof.Gen.Kernel.Points
import proofs.«170994_j15857019257044_2_alg».proof.Proof.Gen.Kernel.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The final softmax attention: the region's half of the frame

The body at grid point `i` holds a block of 512 rows of the gate `gt` (window 0), of `K` (window 1) and of `B1`
(window 5), the whole of `gt` (window 2), of `Q` (window 3) and of `B2` (window 4), and writes a block of 512 rows
of the result (window 6). It loads the blocks of windows 0 and 1; a counted loop of 16 trips then walks the 4096 rows
of the three whole arrays 256 at a time, carrying in VALUES the running row maximum, the normaliser and the
accumulator of a streaming softmax over the two loaded blocks; after it ONE store writes the whole output block from
the carried normaliser and accumulator and the block of window 5. Nothing is carried in memory between points. -/

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current staging buffer holds its block at every point, fetched there or not: the body only
    reads it, so where the block index has not moved since the last fetch (the whole-array windows 2, 3 and 4
    after the first point) what the body left is the block again. For any proof data whose array is the entry
    contents and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses -/

/-- The whole 512×256 block: the rectangle of every whole-block load and of the one store. -/
abbrev r6_6 : Rect S512x256 := Rect.unit (s := S512x256) ![0, 0] S512x256.size inb_S512x256_S512x256_0_0

/-! ## What the body leaves in the output window's buffer -/

/-- The value the loop carries out of its 16 trips — (running maximum, normaliser, accumulator) — from the initial
    (−∞, 0, 0): the recursion over the trips' yields, at the blocks `x0`, `x1` loaded before the loop (windows 0
    and 1) and the staging memrefs holding `x2`, `x3`, `x4` (windows 2, 3, 4, the whole arrays), which are all the
    loop reads. -/
def loop6 (c : Dev nD) (i : grid6.Coords) (arg1 : Memref sig .tc .vmem S512x256 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S4096x256 .f32) (harg5 : arg5.IsWhole) (arg6 : Memref sig .tc .vmem S512x256 .f32) (harg6 : arg6.IsWhole) (arg7 : Memref sig .tc .vmem S512x256 .f32) (harg7 : arg7.IsWhole)
    (x0 x1 : Vec F S512x256 .f32) (x2 x3 x4 : Vec F S4096x256 .f32) : FVec F S512x1 .f32 × FVec F S512x1 .f32 × FVec F S512x256 .f32 :=
  st_k6_t1 (F := F) Variants.none c none i arg1 harg1 arg2 harg2 arg3 harg3 arg4 harg4 arg5 harg5 arg6 harg6 arg7 harg7 (View.ld x0 r6_6) (View.ld x1 r6_6)
    (harg3.unread x2) (harg4.unread x3) (harg5.unread x4)
    (k6_pay1, k6_pay2, k6_pay3) (Scf.trips k6_t1_loop.lb k6_t1_loop.ub k6_t1_loop.st)

/-- Window 6's staging buffer after the body, from the input windows' blocks: its one whole-block store, whose
    payload takes the normaliser and the accumulator the loop ends with and the block of window 5. -/
def out6_6 (c : Dev nD) (i : grid6.Coords) (arg1 : Memref sig .tc .vmem S512x256 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S4096x256 .f32) (harg5 : arg5.IsWhole) (arg6 : Memref sig .tc .vmem S512x256 .f32) (harg6 : arg6.IsWhole) (arg7 : Memref sig .tc .vmem S512x256 .f32) (harg7 : arg7.IsWhole)
    (x0 x1 : Vec F S512x256 .f32) (x2 x3 x4 : Vec F S4096x256 .f32) (x5 : Vec F S512x256 .f32) : Vec F S512x256 .f32 :=
  View.canon [⟨r6_6, k6_pay10 (loop6 c i arg1 harg1 arg2 harg2 arg3 harg3 arg4 harg4 arg5 harg5 arg6 harg6 arg7 harg7 x0 x1 x2 x3 x4).2.1 (loop6 c i arg1 harg1 arg2 harg2 arg3 harg3 arg4 harg4 arg5 harg5 arg6 harg6 arg7 harg7 x0 x1 x2 x3 x4).2.2
    (View.ld x5 r6_6)⟩]

/-- The one store is of the whole block, so it covers the buffer. -/
theorem cover6_6 (p0 : Vec F S512x256 .f32) (y : S512x256.Idx) :
    ∃ pc ∈ ([⟨r6_6, p0⟩] : List (View.Piece (Elt F) S512x256 .f32)), y ∈ pc.1.set :=
  View.cover_of_tiled [⟨r6_6, p0⟩] S512x256.size (by rfl) y

/-! ## The body's triple -/

set_option maxHeartbeats 1000000 in
/-- The kernel body on whole staging memrefs, the inputs' at contents `xW` and the output's at anything, runs to
    the continuation holding the inputs' as they were and the output's at `out6_6` of the inputs'. The raw
    contents of each memref the loop reads are named from what it reads (a whole memref's reading is a
    bijection), so that the loop's invariant is met at the blocks themselves; the run goes through the loop once,
    by its invariant, and ends with the one store written over whatever the output's buffer held. -/
theorem sound_kernel6 (c : Dev nD) (E : Set ℕ) (i : grid6.Coords) (arg1 : Memref sig .tc .vmem S512x256 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S4096x256 .f32) (harg5 : arg5.IsWhole) (arg6 : Memref sig .tc .vmem S512x256 .f32) (harg6 : arg6.IsWhole) (arg7 : Memref sig .tc .vmem S512x256 .f32) (harg7 : arg7.IsWhole)
    (x0 x1 : Vec F S512x256 .f32) (x2 x3 x4 : Vec F S4096x256 .f32) (x5 : Vec F S512x256 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ (∃ d, owns (c : Thread nD τ) arg7 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare (out6_6 c i arg1 harg1 arg2 harg2 arg3 harg3 arg4 harg4 arg5 harg5 arg6 harg6 arg7 harg7 x0 x1 x2 x3 x4 x5)) -∗ K ⟨⟩))
      ⊢ wp frame (wpE (defs₀ (F := F)) Variants.none c none) E (cc6_kernel i arg1 harg1 arg2 harg2 arg3 harg3 arg4 harg4 arg5 harg5 arg6 harg6 arg7 harg7) K := by
  simp only [cc6_kernel_eq_skeleton]; unfold cc6_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  obtain rfl := harg3.eq_unread hf2
  obtain rfl := harg4.eq_unread hf3
  obtain rfl := harg5.eq_unread hf4
  subst hf0
  subst hf1
  subst hf5
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists f5; isplitr; · ipureintro; rfl
    iexact H5
  iexists _; isplitr
  swap; · iexact H6
  ipureintro
  rw [View.read_writes_eq_canon _ _ _ (cover6_6 _)]
  rfl

/-! ## The pipeline's proof data -/

/-- The proof data of this pipeline on core `c`: the arrays as the region finds them; after the body at point `t`
    each input's buffer at its block and the output's at `out6_6` of the input blocks, at the point's staging
    memrefs; the invariant the scoped rest and the generator register, untouched; nothing owed. Windows 0 and 2
    stage one array and split its full share in two halves, window 0 holding the left; every other window's array
    is held whole. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => out6_6 c (grid6.coords t) (st6_0 t) (hstage6_0 ((cfg6.slots t 0).cast nbuf6_0)) (st6_1 t) (hstage6_1 ((cfg6.slots t 1).cast nbuf6_1)) (st6_2 t) (hstage6_2 ((cfg6.slots t 2).cast nbuf6_2)) (st6_3 t) (hstage6_3 ((cfg6.slots t 3).cast nbuf6_3)) (st6_4 t) (hstage6_4 ((cfg6.slots t 4).cast nbuf6_4)) (st6_5 t) (hstage6_5 ((cfg6.slots t 5).cast nbuf6_5)) (st6_6 t) (hstage6_6 ((cfg6.slots t 6).cast nbuf6_6))
        (iblk6 V c 0 t) (iblk6 V c 1 t) (iblk6 V c 2 t) (iblk6 V c 3 t) (iblk6 V c 4 t) (iblk6 V c 5 t)
  Φ _ := Pipeline.ΦA spec6 c
  q w := match w with
    | ⟨0, _⟩ => fullShare.left
    | ⟨1, _⟩ => fullShare
    | ⟨2, _⟩ => fullShare.right
    | ⟨3, _⟩ => fullShare
    | ⟨4, _⟩ => fullShare
    | ⟨5, _⟩ => fullShare
    | ⟨6, _⟩ => fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t =
    out6_6 c (grid6.coords t) (st6_0 t) (hstage6_0 ((cfg6.slots t 0).cast nbuf6_0)) (st6_1 t) (hstage6_1 ((cfg6.slots t 1).cast nbuf6_1)) (st6_2 t) (hstage6_2 ((cfg6.slots t 2).cast nbuf6_2)) (st6_3 t) (hstage6_3 ((cfg6.slots t 3).cast nbuf6_3)) (st6_4 t) (hstage6_4 ((cfg6.slots t 4).cast nbuf6_4)) (st6_5 t) (hstage6_5 ((cfg6.slots t 5).cast nbuf6_5)) (st6_6 t) (hstage6_6 ((cfg6.slots t 6).cast nbuf6_6))
      (iblk6 V c 0 t) (iblk6 V c 1 t) (iblk6 V c 2 t) (iblk6 V c 3 t) (iblk6 V c 4 t) (iblk6 V c 5 t) := by dsimp only [dat6]

/-- The shares, window by window. -/
theorem q6_0 (c : Dev nD) : (dat6 V c).q 0 = fullShare.left := by dsimp only [dat6]
theorem q6_1 (c : Dev nD) : (dat6 V c).q 1 = fullShare := by dsimp only [dat6]
theorem q6_2 (c : Dev nD) : (dat6 V c).q 2 = fullShare.right := by dsimp only [dat6]
theorem q6_3 (c : Dev nD) : (dat6 V c).q 3 = fullShare := by dsimp only [dat6]
theorem q6_4 (c : Dev nD) : (dat6 V c).q 4 = fullShare := by dsimp only [dat6]
theorem q6_5 (c : Dev nD) : (dat6 V c).q 5 = fullShare := by dsimp only [dat6]
theorem q6_6 (c : Dev nD) : (dat6 V c).q 6 = fullShare := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t))

/-- The body at any point: the inputs' memrefs hold their blocks, so the body's triple applies; the invariant and
    the core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel6 c Set.univ _ _ _ _ _ _ _ _ _ _ _ _ _ _ _ (iblk6 V c 0 t) (iblk6 V c 1 t) (iblk6 V c 2 t) (iblk6 V c 3 t) (iblk6 V c 4 t) (iblk6 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.KB.Bounds.lean ====
import proofs.«170994_j15857019257044_2_alg».proof.Proof.KB.Region0
import proofs.«170994_j15857019257044_2_alg».proof.Proof.KB.Region1
import proofs.«170994_j15857019257044_2_alg».proof.Proof.KB.Region2
import proofs.«170994_j15857019257044_2_alg».proof.Proof.KB.Region3
import proofs.«170994_j15857019257044_2_alg».proof.Proof.KB.Region4
import proofs.«170994_j15857019257044_2_alg».proof.Proof.KB.Region5
import proofs.«170994_j15857019257044_2_alg».proof.Proof.KB.Region6
import proofs.«170994_j15857019257044_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The buffers' contents between the items of @main

Item 0 is the stretch of host operations, items 1–7 the seven kernel regions. A region changes only its output
arrays: the contents after it are the contents before it updated at those arrays with what its write-backs leave. -/

/-- A valuation read at the TensorCore's references (what a region's proof data take). -/
abbrev Vt (X : Dev nD → Valuation τ sig (Elt F)) : (c : Dev nD) → (b : Ref sig .tc) → Buf (Elt F) ((c : Thread nD τ).loc b) :=
  fun c b => X c b

/-- After the host operations (region 0's entry). -/
abbrev X1 : Dev nD → Valuation τ sig (Elt F) := fun c => Gen.V1 m c

/-! ## Region 0 -/

/-- After region 0: its output array at what the write-backs leave, every other buffer as before. -/
def X2 (c : Dev nD) : Valuation τ sig (Elt F) :=
  Function.update (X1 m c) main_v14 (((dat0 (Vt (X1 m)) c).arrAt 3 cfg0.N : Buf (Elt F) ((c : Thread nD τ).loc main_v14)))

/-- A buffer that is not an output of region 0 is as before. -/
theorem X2_of_ne (c : Dev nD) (b : Ref sig .tc) (hb : b ∉ ([main_v14] : List (Ref sig .tc))) : X2 m c b = X1 m c b := by
  unfold X2
  rw [Function.update_of_ne (StableHlo.devRef_ne_of_ne (List.ne_of_not_mem_cons hb) : (Proc.devRef .tc b : DevRef τ sig) ≠ Proc.devRef .tc main_v14)]
/-- Output window 3's array after region 0. -/
theorem X2_out3 (c : Dev nD) : X2 m c main_v14 = (dat0 (Vt (X1 m)) c).arrAt 3 cfg0.N := by
  unfold X2
  exact Function.update_self ..
/-- At region 0's exit each of its arrays holds what the pipeline leaves: an input array what it held at entry, an
    output array what the write-backs leave. Window by window: -/
theorem hF0_0 (c : Dev nD) : (dat0 (Vt (X1 m)) c).arrAt 0 cfg0.N = X2 m c main_arg0 :=
  (((dat0 (Vt (X1 m)) c).arrAt_in 0 rfl _).trans (A_eq0 (Vt (X1 m)) c 0)).trans (X2_of_ne m c main_arg0 (by decide)).symm
theorem hF0_1 (c : Dev nD) : (dat0 (Vt (X1 m)) c).arrAt 1 cfg0.N = X2 m c main_v7 :=
  (((dat0 (Vt (X1 m)) c).arrAt_in 1 rfl _).trans (A_eq0 (Vt (X1 m)) c 1)).trans (X2_of_ne m c main_v7 (by decide)).symm
theorem hF0_2 (c : Dev nD) : (dat0 (Vt (X1 m)) c).arrAt 2 cfg0.N = X2 m c main_v0 :=
  (((dat0 (Vt (X1 m)) c).arrAt_in 2 rfl _).trans (A_eq0 (Vt (X1 m)) c 2)).trans (X2_of_ne m c main_v0 (by decide)).symm
theorem hF0_3 (c : Dev nD) : (dat0 (Vt (X1 m)) c).arrAt 3 cfg0.N = X2 m c main_v14 := (X2_out3 m c).symm
theorem hF0 (c : Dev nD) (w : Fin cfg0.W) : (dat0 (Vt (X1 m)) c).arrAt w cfg0.N = Vt (X2 m) c (Pipeline.arrRef spec0 w) := by
  match w with
  | ⟨0, _⟩ => exact hF0_0 m c
  | ⟨1, _⟩ => exact hF0_1 m c
  | ⟨2, _⟩ => exact hF0_2 m c
  | ⟨3, _⟩ => exact hF0_3 m c
/-- and every buffer that is none of its arrays what it held at entry. -/
theorem hrest0 (c : Dev nD) : ∀ b, b ∉ Finset.univ.image (Pipeline.arrRef spec0) → Vt (X2 m) c b = Vt (X1 m) c b :=
  fun b hb => X2_of_ne m c b fun hmem => by
    simp only [List.mem_cons, List.not_mem_nil, or_false] at hmem
    subst hmem
    exact hb (Finset.mem_image.mpr ⟨3, Finset.mem_univ _, rfl⟩)

/-! ## Region 1 -/

/-- After region 1: its output arrays at what the write-backs leave, every other buffer as before. -/
def X3 (c : Dev nD) : Valuation τ sig (Elt F) :=
  Function.update (Function.update (Function.update (Function.update (X2 m c) main_v15_0 (((dat1 (Vt (X2 m)) c).arrAt 7 cfg1.N : Buf (Elt F) ((c : Thread nD τ).loc main_v15_0)))) main_v15_1 (((dat1 (Vt (X2 m)) c).arrAt 8 cfg1.N : Buf (Elt F) ((c : Thread nD τ).loc main_v15_1)))) main_v15_2 (((dat1 (Vt (X2 m)) c).arrAt 9 cfg1.N : Buf (Elt F) ((c : Thread nD τ).loc main_v15_2)))) main_v15_3 (((dat1 (Vt (X2 m)) c).arrAt 10 cfg1.N : Buf (Elt F) ((c : Thread nD τ).loc main_v15_3)))

/-- A buffer that is not an output of region 1 is as before. -/
theorem X3_of_ne (c : Dev nD) (b : Ref sig .tc) (hb : b ∉ ([main_v15_0, main_v15_1, main_v15_2, main_v15_3] : List (Ref sig .tc))) : X3 m c b = X2 m c b := by
  unfold X3
  rw [Function.update_of_ne (StableHlo.devRef_ne_of_ne (List.ne_of_not_mem_cons (List.not_mem_of_not_mem_cons (List.not_mem_of_not_mem_cons (List.not_mem_of_not_mem_cons hb)))) : (Proc.devRef .tc b : DevRef τ sig) ≠ Proc.devRef .tc main_v15_3),
    Function.update_of_ne (StableHlo.devRef_ne_of_ne (List.ne_of_not_mem_cons (List.not_mem_of_not_mem_cons (List.not_mem_of_not_mem_cons hb))) : (Proc.devRef .tc b : DevRef τ sig) ≠ Proc.devRef .tc main_v15_2),
    Function.update_of_ne (StableHlo.devRef_ne_of_ne (List.ne_of_not_mem_cons (List.not_mem_of_not_mem_cons hb)) : (Proc.devRef .tc b : DevRef τ sig) ≠ Proc.devRef .tc main_v15_1),
    Function.update_of_ne (StableHlo.devRef_ne_of_ne (List.ne_of_not_mem_cons hb) : (Proc.devRef .tc b : DevRef τ sig) ≠ Proc.devRef .tc main_v15_0)]
/-- Output window 7's array after region 1. -/
theorem X3_out7 (c : Dev nD) : X3 m c main_v15_0 = (dat1 (Vt (X2 m)) c).arrAt 7 cfg1.N := by
  unfold X3
  rw [Function.update_of_ne (StableHlo.devRef_ne_of_ne (by decide) : (Proc.devRef .tc main_v15_0 : DevRef τ sig) ≠ Proc.devRef .tc main_v15_3),
    Function.update_of_ne (StableHlo.devRef_ne_of_ne (by decide) : (Proc.devRef .tc main_v15_0 : DevRef τ sig) ≠ Proc.devRef .tc main_v15_2),
    Function.update_of_ne (StableHlo.devRef_ne_of_ne (by decide) : (Proc.devRef .tc main_v15_0 : DevRef τ sig) ≠ Proc.devRef .tc main_v15_1)]
  exact Function.update_self ..
/-- Output window 8's array after region 1. -/
theorem X3_out8 (c : Dev nD) : X3 m c main_v15_1 = (dat1 (Vt (X2 m)) c).arrAt 8 cfg1.N := by
  unfold X3
  rw [Function.update_of_ne (StableHlo.devRef_ne_of_ne (by decide) : (Proc.devRef .tc main_v15_1 : DevRef τ sig) ≠ Proc.devRef .tc main_v15_3),
    Function.update_of_ne (StableHlo.devRef_ne_of_ne (by decide) : (Proc.devRef .tc main_v15_1 : DevRef τ sig) ≠ Proc.devRef .tc main_v15_2)]
  exact Function.update_self ..
/-- Output window 9's array after region 1. -/
theorem X3_out9 (c : Dev nD) : X3 m c main_v15_2 = (dat1 (Vt (X2 m)) c).arrAt 9 cfg1.N := by
  unfold X3
  rw [Function.update_of_ne (StableHlo.devRef_ne_of_ne (by decide) : (Proc.devRef .tc main_v15_2 : DevRef τ sig) ≠ Proc.devRef .tc main_v15_3)]
  exact Function.update_self ..
/-- Output window 10's array after region 1. -/
theorem X3_out10 (c : Dev nD) : X3 m c main_v15_3 = (dat1 (Vt (X2 m)) c).arrAt 10 cfg1.N := by
  unfold X3
  exact Function.update_self ..
/-- At region 1's exit each of its arrays holds what the pipeline leaves: an input array what it held at entry, an
    output array what the write-backs leave. Window by window: -/
theorem hF1_0 (c : Dev nD) : (dat1 (Vt (X2 m)) c).arrAt 0 cfg1.N = X3 m c main_arg1 :=
  (((dat1 (Vt (X2 m)) c).arrAt_in 0 rfl _).trans (A_eq1 (Vt (X2 m)) c 0)).trans (X3_of_ne m c main_arg1 (by decide)).symm
theorem hF1_1 (c : Dev nD) : (dat1 (Vt (X2 m)) c).arrAt 1 cfg1.N = X3 m c main_v11 :=
  (((dat1 (Vt (X2 m)) c).arrAt_in 1 rfl _).trans (A_eq1 (Vt (X2 m)) c 1)).trans (X3_of_ne m c main_v11 (by decide)).symm
theorem hF1_2 (c : Dev nD) : (dat1 (Vt (X2 m)) c).arrAt 2 cfg1.N = X3 m c main_v4 :=
  (((dat1 (Vt (X2 m)) c).arrAt_in 2 rfl _).trans (A_eq1 (Vt (X2 m)) c 2)).trans (X3_of_ne m c main_v4 (by decide)).symm
theorem hF1_3 (c : Dev nD) : (dat1 (Vt (X2 m)) c).arrAt 3 cfg1.N = X3 m c main_v12 :=
  (((dat1 (Vt (X2 m)) c).arrAt_in 3 rfl _).trans (A_eq1 (Vt (X2 m)) c 3)).trans (X3_of_ne m c main_v12 (by decide)).symm
theorem hF1_4 (c : Dev nD) : (dat1 (Vt (X2 m)) c).arrAt 4 cfg1.N = X3 m c main_v5 :=
  (((dat1 (Vt (X2 m)) c).arrAt_in 4 rfl _).trans (A_eq1 (Vt (X2 m)) c 4)).trans (X3_of_ne m c main_v5 (by decide)).symm
theorem hF1_5 (c : Dev nD) : (dat1 (Vt (X2 m)) c).arrAt 5 cfg1.N = X3 m c main_arg14 :=
  (((dat1 (Vt (X2 m)) c).arrAt_in 5 rfl _).trans (A_eq1 (Vt (X2 m)) c 5)).trans (X3_of_ne m c main_arg14 (by decide)).symm
theorem hF1_6 (c : Dev nD) : (dat1 (Vt (X2 m)) c).arrAt 6 cfg1.N = X3 m c main_arg15 :=
  (((dat1 (Vt (X2 m)) c).arrAt_in 6 rfl _).trans (A_eq1 (Vt (X2 m)) c 6)).trans (X3_of_ne m c main_arg15 (by decide)).symm
theorem hF1_7 (c : Dev nD) : (dat1 (Vt (X2 m)) c).arrAt 7 cfg1.N = X3 m c main_v15_0 := (X3_out7 m c).symm
theorem hF1_8 (c : Dev nD) : (dat1 (Vt (X2 m)) c).arrAt 8 cfg1.N = X3 m c main_v15_1 := (X3_out8 m c).symm
theorem hF1_9 (c : Dev nD) : (dat1 (Vt (X2 m)) c).arrAt 9 cfg1.N = X3 m c main_v15_2 := (X3_out9 m c).symm
theorem hF1_10 (c : Dev nD) : (dat1 (Vt (X2 m)) c).arrAt 10 cfg1.N = X3 m c main_v15_3 := (X3_out10 m c).symm
theorem hF1 (c : Dev nD) (w : Fin cfg1.W) : (dat1 (Vt (X2 m)) c).arrAt w cfg1.N = Vt (X3 m) c (Pipeline.arrRef spec1 w) := by
  match w with
  | ⟨0, _⟩ => exact hF1_0 m c
  | ⟨1, _⟩ => exact hF1_1 m c
  | ⟨2, _⟩ => exact hF1_2 m c
  | ⟨3, _⟩ => exact hF1_3 m c
  | ⟨4, _⟩ => exact hF1_4 m c
  | ⟨5, _⟩ => exact hF1_5 m c
  | ⟨6, _⟩ => exact hF1_6 m c
  | ⟨7, _⟩ => exact hF1_7 m c
  | ⟨8, _⟩ => exact hF1_8 m c
  | ⟨9, _⟩ => exact hF1_9 m c
  | ⟨10, _⟩ => exact hF1_10 m c
/-- and every buffer that is none of its arrays what it held at entry. -/
theorem hrest1 (c : Dev nD) : ∀ b, b ∉ Finset.univ.image (Pipeline.arrRef spec1) → Vt (X3 m) c b = Vt (X2 m) c b :=
  fun b hb => X3_of_ne m c b fun hmem => by
    simp only [List.mem_cons, List.not_mem_nil, or_false] at hmem
    rcases hmem with rfl | rfl | rfl | rfl
    · exact hb (Finset.mem_image.mpr ⟨7, Finset.mem_univ _, rfl⟩)
    · exact hb (Finset.mem_image.mpr ⟨8, Finset.mem_univ _, rfl⟩)
    · exact hb (Finset.mem_image.mpr ⟨9, Finset.mem_univ _, rfl⟩)
    · exact hb (Finset.mem_image.mpr ⟨10, Finset.mem_univ _, rfl⟩)

/-! ## Region 2 -/

/-- After region 2: its output arrays at what the write-backs leave, every other buffer as before. -/
def X4 (c : Dev nD) : Valuation τ sig (Elt F) :=
  Function.update (Function.update (X3 m c) main_v16_0 (((dat2 (Vt (X3 m)) c).arrAt 12 cfg2.N : Buf (Elt F) ((c : Thread nD τ).loc main_v16_0)))) main_v16_1 (((dat2 (Vt (X3 m)) c).arrAt 13 cfg2.N : Buf (Elt F) ((c : Thread nD τ).loc main_v16_1)))

/-- A buffer that is not an output of region 2 is as before. -/
theorem X4_of_ne (c : Dev nD) (b : Ref sig .tc) (hb : b ∉ ([main_v16_0, main_v16_1] : List (Ref sig .tc))) : X4 m c b = X3 m c b := by
  unfold X4
  rw [Function.update_of_ne (StableHlo.devRef_ne_of_ne (List.ne_of_not_mem_cons (List.not_mem_of_not_mem_cons hb)) : (Proc.devRef .tc b : DevRef τ sig) ≠ Proc.devRef .tc main_v16_1),
    Function.update_of_ne (StableHlo.devRef_ne_of_ne (List.ne_of_not_mem_cons hb) : (Proc.devRef .tc b : DevRef τ sig) ≠ Proc.devRef .tc main_v16_0)]
/-- Output window 12's array after region 2. -/
theorem X4_out12 (c : Dev nD) : X4 m c main_v16_0 = (dat2 (Vt (X3 m)) c).arrAt 12 cfg2.N := by
  unfold X4
  rw [Function.update_of_ne (StableHlo.devRef_ne_of_ne (by decide) : (Proc.devRef .tc main_v16_0 : DevRef τ sig) ≠ Proc.devRef .tc main_v16_1)]
  exact Function.update_self ..
/-- Output window 13's array after region 2. -/
theorem X4_out13 (c : Dev nD) : X4 m c main_v16_1 = (dat2 (Vt (X3 m)) c).arrAt 13 cfg2.N := by
  unfold X4
  exact Function.update_self ..
/-- At region 2's exit each of its arrays holds what the pipeline leaves: an input array what it held at entry, an
    output array what the write-backs leave. Window by window: -/
theorem hF2_0 (c : Dev nD) : (dat2 (Vt (X3 m)) c).arrAt 0 cfg2.N = X4 m c main_arg1 :=
  (((dat2 (Vt (X3 m)) c).arrAt_in 0 rfl _).trans (A_eq2 (Vt (X3 m)) c 0)).trans (X4_of_ne m c main_arg1 (by decide)).symm
theorem hF2_1 (c : Dev nD) : (dat2 (Vt (X3 m)) c).arrAt 1 cfg2.N = X4 m c main_arg1 :=
  (((dat2 (Vt (X3 m)) c).arrAt_in 1 rfl _).trans (A_eq2 (Vt (X3 m)) c 1)).trans (X4_of_ne m c main_arg1 (by decide)).symm
theorem hF2_2 (c : Dev nD) : (dat2 (Vt (X3 m)) c).arrAt 2 cfg2.N = X4 m c main_v15_2 :=
  (((dat2 (Vt (X3 m)) c).arrAt_in 2 rfl _).trans (A_eq2 (Vt (X3 m)) c 2)).trans (X4_of_ne m c main_v15_2 (by decide)).symm
theorem hF2_3 (c : Dev nD) : (dat2 (Vt (X3 m)) c).arrAt 3 cfg2.N = X4 m c main_v15_3 :=
  (((dat2 (Vt (X3 m)) c).arrAt_in 3 rfl _).trans (A_eq2 (Vt (X3 m)) c 3)).trans (X4_of_ne m c main_v15_3 (by decide)).symm
theorem hF2_4 (c : Dev nD) : (dat2 (Vt (X3 m)) c).arrAt 4 cfg2.N = X4 m c main_v15_0 :=
  (((dat2 (Vt (X3 m)) c).arrAt_in 4 rfl _).trans (A_eq2 (Vt (X3 m)) c 4)).trans (X4_of_ne m c main_v15_0 (by decide)).symm
theorem hF2_5 (c : Dev nD) : (dat2 (Vt (X3 m)) c).arrAt 5 cfg2.N = X4 m c main_v15_1 :=
  (((dat2 (Vt (X3 m)) c).arrAt_in 5 rfl _).trans (A_eq2 (Vt (X3 m)) c 5)).trans (X4_of_ne m c main_v15_1 (by decide)).symm
theorem hF2_6 (c : Dev nD) : (dat2 (Vt (X3 m)) c).arrAt 6 cfg2.N = X4 m c main_v13 :=
  (((dat2 (Vt (X3 m)) c).arrAt_in 6 rfl _).trans (A_eq2 (Vt (X3 m)) c 6)).trans (X4_of_ne m c main_v13 (by decide)).symm
theorem hF2_7 (c : Dev nD) : (dat2 (Vt (X3 m)) c).arrAt 7 cfg2.N = X4 m c main_v6 :=
  (((dat2 (Vt (X3 m)) c).arrAt_in 7 rfl _).trans (A_eq2 (Vt (X3 m)) c 7)).trans (X4_of_ne m c main_v6 (by decide)).symm
theorem hF2_8 (c : Dev nD) : (dat2 (Vt (X3 m)) c).arrAt 8 cfg2.N = X4 m c main_v8 :=
  (((dat2 (Vt (X3 m)) c).arrAt_in 8 rfl _).trans (A_eq2 (Vt (X3 m)) c 8)).trans (X4_of_ne m c main_v8 (by decide)).symm
theorem hF2_9 (c : Dev nD) : (dat2 (Vt (X3 m)) c).arrAt 9 cfg2.N = X4 m c main_v1 :=
  (((dat2 (Vt (X3 m)) c).arrAt_in 9 rfl _).trans (A_eq2 (Vt (X3 m)) c 9)).trans (X4_of_ne m c main_v1 (by decide)).symm
theorem hF2_10 (c : Dev nD) : (dat2 (Vt (X3 m)) c).arrAt 10 cfg2.N = X4 m c main_v9 :=
  (((dat2 (Vt (X3 m)) c).arrAt_in 10 rfl _).trans (A_eq2 (Vt (X3 m)) c 10)).trans (X4_of_ne m c main_v9 (by decide)).symm
theorem hF2_11 (c : Dev nD) : (dat2 (Vt (X3 m)) c).arrAt 11 cfg2.N = X4 m c main_v2 :=
  (((dat2 (Vt (X3 m)) c).arrAt_in 11 rfl _).trans (A_eq2 (Vt (X3 m)) c 11)).trans (X4_of_ne m c main_v2 (by decide)).symm
theorem hF2_12 (c : Dev nD) : (dat2 (Vt (X3 m)) c).arrAt 12 cfg2.N = X4 m c main_v16_0 := (X4_out12 m c).symm
theorem hF2_13 (c : Dev nD) : (dat2 (Vt (X3 m)) c).arrAt 13 cfg2.N = X4 m c main_v16_1 := (X4_out13 m c).symm
theorem hF2 (c : Dev nD) (w : Fin cfg2.W) : (dat2 (Vt (X3 m)) c).arrAt w cfg2.N = Vt (X4 m) c (Pipeline.arrRef spec2 w) := by
  match w with
  | ⟨0, _⟩ => exact hF2_0 m c
  | ⟨1, _⟩ => exact hF2_1 m c
  | ⟨2, _⟩ => exact hF2_2 m c
  | ⟨3, _⟩ => exact hF2_3 m c
  | ⟨4, _⟩ => exact hF2_4 m c
  | ⟨5, _⟩ => exact hF2_5 m c
  | ⟨6, _⟩ => exact hF2_6 m c
  | ⟨7, _⟩ => exact hF2_7 m c
  | ⟨8, _⟩ => exact hF2_8 m c
  | ⟨9, _⟩ => exact hF2_9 m c
  | ⟨10, _⟩ => exact hF2_10 m c
  | ⟨11, _⟩ => exact hF2_11 m c
  | ⟨12, _⟩ => exact hF2_12 m c
  | ⟨13, _⟩ => exact hF2_13 m c
/-- and every buffer that is none of its arrays what it held at entry. -/
theorem hrest2 (c : Dev nD) : ∀ b, b ∉ Finset.univ.image (Pipeline.arrRef spec2) → Vt (X4 m) c b = Vt (X3 m) c b :=
  fun b hb => X4_of_ne m c b fun hmem => by
    simp only [List.mem_cons, List.not_mem_nil, or_false] at hmem
    rcases hmem with rfl | rfl
    · exact hb (Finset.mem_image.mpr ⟨12, Finset.mem_univ _, rfl⟩)
    · exact hb (Finset.mem_image.mpr ⟨13, Finset.mem_univ _, rfl⟩)

/-! ## Region 3 -/

/-- After region 3: its output array at what the write-backs leave, every other buffer as before. -/
def X5 (c : Dev nD) : Valuation τ sig (Elt F) :=
  Function.update (X4 m c) main_v17 (((dat3 (Vt (X4 m)) c).arrAt 4 cfg3.N : Buf (Elt F) ((c : Thread nD τ).loc main_v17)))

/-- A buffer that is not an output of region 3 is as before. -/
theorem X5_of_ne (c : Dev nD) (b : Ref sig .tc) (hb : b ∉ ([main_v17] : List (Ref sig .tc))) : X5 m c b = X4 m c b := by
  unfold X5
  rw [Function.update_of_ne (StableHlo.devRef_ne_of_ne (List.ne_of_not_mem_cons hb) : (Proc.devRef .tc b : DevRef τ sig) ≠ Proc.devRef .tc main_v17)]
/-- Output window 4's array after region 3. -/
theorem X5_out4 (c : Dev nD) : X5 m c main_v17 = (dat3 (Vt (X4 m)) c).arrAt 4 cfg3.N := by
  unfold X5
  exact Function.update_self ..
/-- At region 3's exit each of its arrays holds what the pipeline leaves: an input array what it held at entry, an
    output array what the write-backs leave. Window by window: -/
theorem hF3_0 (c : Dev nD) : (dat3 (Vt (X4 m)) c).arrAt 0 cfg3.N = X5 m c main_v16_0 :=
  (((dat3 (Vt (X4 m)) c).arrAt_in 0 rfl _).trans (A_eq3 (Vt (X4 m)) c 0)).trans (X5_of_ne m c main_v16_0 (by decide)).symm
theorem hF3_1 (c : Dev nD) : (dat3 (Vt (X4 m)) c).arrAt 1 cfg3.N = X5 m c main_v14 :=
  (((dat3 (Vt (X4 m)) c).arrAt_in 1 rfl _).trans (A_eq3 (Vt (X4 m)) c 1)).trans (X5_of_ne m c main_v14 (by decide)).symm
theorem hF3_2 (c : Dev nD) : (dat3 (Vt (X4 m)) c).arrAt 2 cfg3.N = X5 m c main_v16_0 :=
  (((dat3 (Vt (X4 m)) c).arrAt_in 2 rfl _).trans (A_eq3 (Vt (X4 m)) c 2)).trans (X5_of_ne m c main_v16_0 (by decide)).symm
theorem hF3_3 (c : Dev nD) : (dat3 (Vt (X4 m)) c).arrAt 3 cfg3.N = X5 m c main_v14 :=
  (((dat3 (Vt (X4 m)) c).arrAt_in 3 rfl _).trans (A_eq3 (Vt (X4 m)) c 3)).trans (X5_of_ne m c main_v14 (by decide)).symm
theorem hF3_4 (c : Dev nD) : (dat3 (Vt (X4 m)) c).arrAt 4 cfg3.N = X5 m c main_v17 := (X5_out4 m c).symm
theorem hF3 (c : Dev nD) (w : Fin cfg3.W) : (dat3 (Vt (X4 m)) c).arrAt w cfg3.N = Vt (X5 m) c (Pipeline.arrRef spec3 w) := by
  match w with
  | ⟨0, _⟩ => exact hF3_0 m c
  | ⟨1, _⟩ => exact hF3_1 m c
  | ⟨2, _⟩ => exact hF3_2 m c
  | ⟨3, _⟩ => exact hF3_3 m c
  | ⟨4, _⟩ => exact hF3_4 m c
/-- and every buffer that is none of its arrays what it held at entry. -/
theorem hrest3 (c : Dev nD) : ∀ b, b ∉ Finset.univ.image (Pipeline.arrRef spec3) → Vt (X5 m) c b = Vt (X4 m) c b :=
  fun b hb => X5_of_ne m c b fun hmem => by
    simp only [List.mem_cons, List.not_mem_nil, or_false] at hmem
    subst hmem
    exact hb (Finset.mem_image.mpr ⟨4, Finset.mem_univ _, rfl⟩)

/-! ## Region 4 -/

/-- After region 4: its output array at what the write-backs leave, every other buffer as before. -/
def X6 (c : Dev nD) : Valuation τ sig (Elt F) :=
  Function.update (X5 m c) main_v18 (((dat4 (Vt (X5 m)) c).arrAt 4 cfg4.N : Buf (Elt F) ((c : Thread nD τ).loc main_v18)))

/-- A buffer that is not an output of region 4 is as before. -/
theorem X6_of_ne (c : Dev nD) (b : Ref sig .tc) (hb : b ∉ ([main_v18] : List (Ref sig .tc))) : X6 m c b = X5 m c b := by
  unfold X6
  rw [Function.update_of_ne (StableHlo.devRef_ne_of_ne (List.ne_of_not_mem_cons hb) : (Proc.devRef .tc b : DevRef τ sig) ≠ Proc.devRef .tc main_v18)]
/-- Output window 4's array after region 4. -/
theorem X6_out4 (c : Dev nD) : X6 m c main_v18 = (dat4 (Vt (X5 m)) c).arrAt 4 cfg4.N := by
  unfold X6
  exact Function.update_self ..
/-- At region 4's exit each of its arrays holds what the pipeline leaves: an input array what it held at entry, an
    output array what the write-backs leave. Window by window: -/
theorem hF4_0 (c : Dev nD) : (dat4 (Vt (X5 m)) c).arrAt 0 cfg4.N = X6 m c main_v16_1 :=
  (((dat4 (Vt (X5 m)) c).arrAt_in 0 rfl _).trans (A_eq4 (Vt (X5 m)) c 0)).trans (X6_of_ne m c main_v16_1 (by decide)).symm
theorem hF4_1 (c : Dev nD) : (dat4 (Vt (X5 m)) c).arrAt 1 cfg4.N = X6 m c main_v14 :=
  (((dat4 (Vt (X5 m)) c).arrAt_in 1 rfl _).trans (A_eq4 (Vt (X5 m)) c 1)).trans (X6_of_ne m c main_v14 (by decide)).symm
theorem hF4_2 (c : Dev nD) : (dat4 (Vt (X5 m)) c).arrAt 2 cfg4.N = X6 m c main_v16_1 :=
  (((dat4 (Vt (X5 m)) c).arrAt_in 2 rfl _).trans (A_eq4 (Vt (X5 m)) c 2)).trans (X6_of_ne m c main_v16_1 (by decide)).symm
theorem hF4_3 (c : Dev nD) : (dat4 (Vt (X5 m)) c).arrAt 3 cfg4.N = X6 m c main_v14 :=
  (((dat4 (Vt (X5 m)) c).arrAt_in 3 rfl _).trans (A_eq4 (Vt (X5 m)) c 3)).trans (X6_of_ne m c main_v14 (by decide)).symm
theorem hF4_4 (c : Dev nD) : (dat4 (Vt (X5 m)) c).arrAt 4 cfg4.N = X6 m c main_v18 := (X6_out4 m c).symm
theorem hF4 (c : Dev nD) (w : Fin cfg4.W) : (dat4 (Vt (X5 m)) c).arrAt w cfg4.N = Vt (X6 m) c (Pipeline.arrRef spec4 w) := by
  match w with
  | ⟨0, _⟩ => exact hF4_0 m c
  | ⟨1, _⟩ => exact hF4_1 m c
  | ⟨2, _⟩ => exact hF4_2 m c
  | ⟨3, _⟩ => exact hF4_3 m c
  | ⟨4, _⟩ => exact hF4_4 m c
/-- and every buffer that is none of its arrays what it held at entry. -/
theorem hrest4 (c : Dev nD) : ∀ b, b ∉ Finset.univ.image (Pipeline.arrRef spec4) → Vt (X6 m) c b = Vt (X5 m) c b :=
  fun b hb => X6_of_ne m c b fun hmem => by
    simp only [List.mem_cons, List.not_mem_nil, or_false] at hmem
    subst hmem
    exact hb (Finset.mem_image.mpr ⟨4, Finset.mem_univ _, rfl⟩)

/-! ## Region 5 -/

/-- After region 5: its output array at what the write-backs leave, every other buffer as before. -/
def X7 (c : Dev nD) : Valuation τ sig (Elt F) :=
  Function.update (X6 m c) main_v19 (((dat5 (Vt (X6 m)) c).arrAt 3 cfg5.N : Buf (Elt F) ((c : Thread nD τ).loc main_v19)))

/-- A buffer that is not an output of region 5 is as before. -/
theorem X7_of_ne (c : Dev nD) (b : Ref sig .tc) (hb : b ∉ ([main_v19] : List (Ref sig .tc))) : X7 m c b = X6 m c b := by
  unfold X7
  rw [Function.update_of_ne (StableHlo.devRef_ne_of_ne (List.ne_of_not_mem_cons hb) : (Proc.devRef .tc b : DevRef τ sig) ≠ Proc.devRef .tc main_v19)]
/-- Output window 3's array after region 5. -/
theorem X7_out3 (c : Dev nD) : X7 m c main_v19 = (dat5 (Vt (X6 m)) c).arrAt 3 cfg5.N := by
  unfold X7
  exact Function.update_self ..
/-- At region 5's exit each of its arrays holds what the pipeline leaves: an input array what it held at entry, an
    output array what the write-backs leave. Window by window: -/
theorem hF5_0 (c : Dev nD) : (dat5 (Vt (X6 m)) c).arrAt 0 cfg5.N = X7 m c main_v17 :=
  (((dat5 (Vt (X6 m)) c).arrAt_in 0 rfl _).trans (A_eq5 (Vt (X6 m)) c 0)).trans (X7_of_ne m c main_v17 (by decide)).symm
theorem hF5_1 (c : Dev nD) : (dat5 (Vt (X6 m)) c).arrAt 1 cfg5.N = X7 m c main_v10 :=
  (((dat5 (Vt (X6 m)) c).arrAt_in 1 rfl _).trans (A_eq5 (Vt (X6 m)) c 1)).trans (X7_of_ne m c main_v10 (by decide)).symm
theorem hF5_2 (c : Dev nD) : (dat5 (Vt (X6 m)) c).arrAt 2 cfg5.N = X7 m c main_v3 :=
  (((dat5 (Vt (X6 m)) c).arrAt_in 2 rfl _).trans (A_eq5 (Vt (X6 m)) c 2)).trans (X7_of_ne m c main_v3 (by decide)).symm
theorem hF5_3 (c : Dev nD) : (dat5 (Vt (X6 m)) c).arrAt 3 cfg5.N = X7 m c main_v19 := (X7_out3 m c).symm
theorem hF5 (c : Dev nD) (w : Fin cfg5.W) : (dat5 (Vt (X6 m)) c).arrAt w cfg5.N = Vt (X7 m) c (Pipeline.arrRef spec5 w) := by
  match w with
  | ⟨0, _⟩ => exact hF5_0 m c
  | ⟨1, _⟩ => exact hF5_1 m c
  | ⟨2, _⟩ => exact hF5_2 m c
  | ⟨3, _⟩ => exact hF5_3 m c
/-- and every buffer that is none of its arrays what it held at entry. -/
theorem hrest5 (c : Dev nD) : ∀ b, b ∉ Finset.univ.image (Pipeline.arrRef spec5) → Vt (X7 m) c b = Vt (X6 m) c b :=
  fun b hb => X7_of_ne m c b fun hmem => by
    simp only [List.mem_cons, List.not_mem_nil, or_false] at hmem
    subst hmem
    exact hb (Finset.mem_image.mpr ⟨3, Finset.mem_univ _, rfl⟩)

/-! ## Region 6 -/

/-- After region 6: its output array at what the write-backs leave, every other buffer as before. -/
def X8 (c : Dev nD) : Valuation τ sig (Elt F) :=
  Function.update (X7 m c) main_v20 (((dat6 (Vt (X7 m)) c).arrAt 6 cfg6.N : Buf (Elt F) ((c : Thread nD τ).loc main_v20)))

/-- A buffer that is not an output of region 6 is as before. -/
theorem X8_of_ne (c : Dev nD) (b : Ref sig .tc) (hb : b ∉ ([main_v20] : List (Ref sig .tc))) : X8 m c b = X7 m c b := by
  unfold X8
  rw [Function.update_of_ne (StableHlo.devRef_ne_of_ne (List.ne_of_not_mem_cons hb) : (Proc.devRef .tc b : DevRef τ sig) ≠ Proc.devRef .tc main_v20)]
/-- Output window 6's array after region 6. -/
theorem X8_out6 (c : Dev nD) : X8 m c main_v20 = (dat6 (Vt (X7 m)) c).arrAt 6 cfg6.N := by
  unfold X8
  exact Function.update_self ..
/-- At region 6's exit each of its arrays holds what the pipeline leaves: an input array what it held at entry, an
    output array what the write-backs leave. Window by window: -/
theorem hF6_0 (c : Dev nD) : (dat6 (Vt (X7 m)) c).arrAt 0 cfg6.N = X8 m c main_v19 :=
  (((dat6 (Vt (X7 m)) c).arrAt_in 0 rfl _).trans (A_eq6 (Vt (X7 m)) c 0)).trans (X8_of_ne m c main_v19 (by decide)).symm
theorem hF6_1 (c : Dev nD) : (dat6 (Vt (X7 m)) c).arrAt 1 cfg6.N = X8 m c main_v16_0 :=
  (((dat6 (Vt (X7 m)) c).arrAt_in 1 rfl _).trans (A_eq6 (Vt (X7 m)) c 1)).trans (X8_of_ne m c main_v16_0 (by decide)).symm
theorem hF6_2 (c : Dev nD) : (dat6 (Vt (X7 m)) c).arrAt 2 cfg6.N = X8 m c main_v19 :=
  (((dat6 (Vt (X7 m)) c).arrAt_in 2 rfl _).trans (A_eq6 (Vt (X7 m)) c 2)).trans (X8_of_ne m c main_v19 (by decide)).symm
theorem hF6_3 (c : Dev nD) : (dat6 (Vt (X7 m)) c).arrAt 3 cfg6.N = X8 m c main_v14 :=
  (((dat6 (Vt (X7 m)) c).arrAt_in 3 rfl _).trans (A_eq6 (Vt (X7 m)) c 3)).trans (X8_of_ne m c main_v14 (by decide)).symm
theorem hF6_4 (c : Dev nD) : (dat6 (Vt (X7 m)) c).arrAt 4 cfg6.N = X8 m c main_v18 :=
  (((dat6 (Vt (X7 m)) c).arrAt_in 4 rfl _).trans (A_eq6 (Vt (X7 m)) c 4)).trans (X8_of_ne m c main_v18 (by decide)).symm
theorem hF6_5 (c : Dev nD) : (dat6 (Vt (X7 m)) c).arrAt 5 cfg6.N = X8 m c main_v17 :=
  (((dat6 (Vt (X7 m)) c).arrAt_in 5 rfl _).trans (A_eq6 (Vt (X7 m)) c 5)).trans (X8_of_ne m c main_v17 (by decide)).symm
theorem hF6_6 (c : Dev nD) : (dat6 (Vt (X7 m)) c).arrAt 6 cfg6.N = X8 m c main_v20 := (X8_out6 m c).symm
theorem hF6 (c : Dev nD) (w : Fin cfg6.W) : (dat6 (Vt (X7 m)) c).arrAt w cfg6.N = Vt (X8 m) c (Pipeline.arrRef spec6 w) := by
  match w with
  | ⟨0, _⟩ => exact hF6_0 m c
  | ⟨1, _⟩ => exact hF6_1 m c
  | ⟨2, _⟩ => exact hF6_2 m c
  | ⟨3, _⟩ => exact hF6_3 m c
  | ⟨4, _⟩ => exact hF6_4 m c
  | ⟨5, _⟩ => exact hF6_5 m c
  | ⟨6, _⟩ => exact hF6_6 m c
/-- and every buffer that is none of its arrays what it held at entry. -/
theorem hrest6 (c : Dev nD) : ∀ b, b ∉ Finset.univ.image (Pipeline.arrRef spec6) → Vt (X8 m) c b = Vt (X7 m) c b :=
  fun b hb => X8_of_ne m c b fun hmem => by
    simp only [List.mem_cons, List.not_mem_nil, or_false] at hmem
    subst hmem
    exact hb (Finset.mem_image.mpr ⟨6, Finset.mem_univ _, rfl⟩)

/-! ## The arguments end as launched -/

/-- A buffer that no region writes and no host operation writes holds its launch contents at the end. -/
theorem X8_launch (c : Dev nD) (b : Ref sig .tc)
    (h0 : b ∉ Gen.hostOps0_W)
    (h2 : b ∉ ([main_v14] : List (Ref sig .tc)))
    (h3 : b ∉ ([main_v15_0, main_v15_1, main_v15_2, main_v15_3] : List (Ref sig .tc)))
    (h4 : b ∉ ([main_v16_0, main_v16_1] : List (Ref sig .tc)))
    (h5 : b ∉ ([main_v17] : List (Ref sig .tc)))
    (h6 : b ∉ ([main_v18] : List (Ref sig .tc)))
    (h7 : b ∉ ([main_v19] : List (Ref sig .tc)))
    (h8 : b ∉ ([main_v20] : List (Ref sig .tc))) :
    X8 m c b = m ((c : Thread nD τ).loc b) :=
  (X8_of_ne m c b h8).trans <| (X7_of_ne m c b h7).trans <| (X6_of_ne m c b h6).trans <| (X5_of_ne m c b h5).trans <|
    (X4_of_ne m c b h4).trans <| (X3_of_ne m c b h3).trans <| (X2_of_ne m c b h2).trans <| (Gen.V1_of m c b h0).trans rfl

end Cert.Kernel.Hand

end
-- ==== Proof.KB.Deal.lean ====
import proofs.«170994_j15857019257044_2_alg».proof.Proof.Gen.Kernel.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Arrays staged through two windows

In regions 2, 3, 4 and 6 two input windows stage the same array (the same rows read once as a tile's block and once
as the whole key side). The pipeline holds each window's array at a share of its own, so the buffer's full share is
dealt: the lower-numbered window holds the left half, the higher the right half; both only read. These lemmas take a
core's unscoped buffers apart into the windows' arrays at those shares and put them back. -/

/-! ## Region 3 -/

/-- The distinct buffers behind region 3's windows, each whole at the full share, are the windows' arrays at the dealt
    shares: a buffer staged through two input windows is held half by each, every other at the full share. -/
theorem deal3 (c : Dev nD) (dat : Dat τ (Elt F) Unit ℕ (UR sig nD τ) ℕ cfg3 c)
    (hq0 : dat.q 0 = fullShare.left) (hq1 : dat.q 1 = fullShare.left) (hq2 : dat.q 2 = fullShare.right) (hq3 : dat.q 3 = fullShare.right)
    (V : (b : Ref sig .tc) → Buf (Elt F) ((c : Thread nD τ).loc b))
    (Fn : (w : Fin cfg3.W) → Buf (Elt F) ((cfg3.win w).arr.view.loc (c : Thread nD τ)))
    (hF : ∀ w, Fn w = V (Pipeline.arrRef spec3 w)) :
    (Pipeline.arrBufs spec3 c V : sProp 𝕄) = dat.arrays Fn := by
  have hA : dat.arrays Fn = bigSep Finset.univ fun w : Fin cfg3.W =>
      (((c : Thread nD τ).loc (Pipeline.arrRef spec3 w)) ↦{dat.share w} V (Pipeline.arrRef spec3 w) : sProp 𝕄) := by
    unfold Dat.arrays
    exact bigSep_congr fun w _ => by rw [(arr_whole3 w).set_eq_univ, hF w]
  rw [hA]
  unfold Pipeline.arrBufs
  rw [show Finset.univ.image (Pipeline.arrRef spec3) = {main_v16_0, main_v14, main_v17} from by decide, bigSep_W3,
    bigSep_insert (by decide), bigSep_insert (by decide), bigSep_singleton]
  have e0 : dat.share 0 = fullShare.left := by unfold Dat.share; rw [if_neg (by decide), hq0]
  have e1 : dat.share 1 = fullShare.left := by unfold Dat.share; rw [if_neg (by decide), hq1]
  have e2 : dat.share 2 = fullShare.right := by unfold Dat.share; rw [if_neg (by decide), hq2]
  have e3 : dat.share 3 = fullShare.right := by unfold Dat.share; rw [if_neg (by decide), hq3]
  have e4 : dat.share 4 = fullShare := by unfold Dat.share; rw [if_pos (by decide)]
  rw [e0, e1, e2, e3, e4]
  show iprop(((c : Thread nD τ).loc main_v16_0 ↦{fullShare} V main_v16_0) ∗ ((c : Thread nD τ).loc main_v14 ↦{fullShare} V main_v14) ∗ ((c : Thread nD τ).loc main_v17 ↦{fullShare} V main_v17))
    = iprop(((c : Thread nD τ).loc main_v16_0 ↦{fullShare.left} V main_v16_0) ∗ ((c : Thread nD τ).loc main_v14 ↦{fullShare.left} V main_v14) ∗ ((c : Thread nD τ).loc main_v16_0 ↦{fullShare.right} V main_v16_0) ∗ ((c : Thread nD τ).loc main_v14 ↦{fullShare.right} V main_v14) ∗ ((c : Thread nD τ).loc main_v17 ↦{fullShare} V main_v17))
  have s_v16_0 : (((c : Thread nD τ).loc main_v16_0 ↦{fullShare} V main_v16_0) : sProp 𝕄) ⊣⊢ iprop(((c : Thread nD τ).loc main_v16_0 ↦{fullShare.left} V main_v16_0) ∗ ((c : Thread nD τ).loc main_v16_0 ↦{fullShare.right} V main_v16_0)) :=
    pointsTo_share (PosShare.mem_left_op_right fullShare)
  have s_v14 : (((c : Thread nD τ).loc main_v14 ↦{fullShare} V main_v14) : sProp 𝕄) ⊣⊢ iprop(((c : Thread nD τ).loc main_v14 ↦{fullShare.left} V main_v14) ∗ ((c : Thread nD τ).loc main_v14 ↦{fullShare.right} V main_v14)) :=
    pointsTo_share (PosShare.mem_left_op_right fullShare)
  refine equiv_iff.mp ⟨show (_ : sProp 𝕄) ⊢ _ from ?_, show (_ : sProp 𝕄) ⊢ _ from ?_⟩
  · iintro ⟨H_v16_0, H_v14, H_v17⟩
    have s1_v16_0 := s_v16_0.1
    ihave H_v16_0' := s1_v16_0 $$ H_v16_0
    icases H_v16_0' with ⟨H_v16_0_L, H_v16_0_R⟩
    have s1_v14 := s_v14.1
    ihave H_v14' := s1_v14 $$ H_v14
    icases H_v14' with ⟨H_v14_L, H_v14_R⟩
    isplitl [H_v16_0_L]; · iexact H_v16_0_L
    isplitl [H_v14_L]; · iexact H_v14_L
    isplitl [H_v16_0_R]; · iexact H_v16_0_R
    isplitl [H_v14_R]; · iexact H_v14_R
    iexact H_v17
  · iintro ⟨H_v16_0_L, H_v14_L, H_v16_0_R, H_v14_R, H_v17⟩
    isplitl [H_v16_0_L H_v16_0_R]
    · have s2_v16_0 := s_v16_0.2
      iapply s2_v16_0; isplitl [H_v16_0_L] <;> iassumption
    isplitl [H_v14_L H_v14_R]
    · have s2_v14 := s_v14.2
      iapply s2_v14; isplitl [H_v14_L] <;> iassumption
    iexact H_v17

/-- At entry the core's unscoped buffers are region 3's arrays at the proof data's entry contents and the rest. -/
theorem entry3 (c : Dev nD) (dat : Dat τ (Elt F) Unit ℕ (UR sig nD τ) ℕ cfg3 c)
    (hq0 : dat.q 0 = fullShare.left) (hq1 : dat.q 1 = fullShare.left) (hq2 : dat.q 2 = fullShare.right) (hq3 : dat.q 3 = fullShare.right)
    (V : (b : Ref sig .tc) → Buf (Elt F) ((c : Thread nD τ).loc b))
    (hA : ∀ w, dat.A w = V (Pipeline.arrRef spec3 w)) :
    (unscopedBufs c V : sProp 𝕄) ⊢ iprop(dat.arrays (dat.arrAt · 0) ∗ Pipeline.unscopedRest spec3 c V) := by
  have hs : (unscopedBufs c V : sProp 𝕄) = iprop(Pipeline.arrBufs spec3 c V ∗ Pipeline.unscopedRest spec3 c V) :=
    Pipeline.unscopedBufs_split₀ cfgs 3 winFacts₀3.arr_unscoped c V
  rw [hs, deal3 c dat hq0 hq1 hq2 hq3 V (dat.arrAt · 0) (fun w => by rw [show dat.arrAt w 0 = dat.A w from rfl, hA])]

/-- At exit the arrays at contents `Fn` and the rest are the core's unscoped buffers at any valuation that has the
    arrays at `Fn` and agrees with the entry valuation off them. -/
theorem exit3 (c : Dev nD) (dat : Dat τ (Elt F) Unit ℕ (UR sig nD τ) ℕ cfg3 c)
    (hq0 : dat.q 0 = fullShare.left) (hq1 : dat.q 1 = fullShare.left) (hq2 : dat.q 2 = fullShare.right) (hq3 : dat.q 3 = fullShare.right)
    (V V' : (b : Ref sig .tc) → Buf (Elt F) ((c : Thread nD τ).loc b))
    (Fn : (w : Fin cfg3.W) → Buf (Elt F) ((cfg3.win w).arr.view.loc (c : Thread nD τ)))
    (hF : ∀ w, Fn w = V' (Pipeline.arrRef spec3 w))
    (hrest : ∀ b, b ∉ Finset.univ.image (Pipeline.arrRef spec3) → V' b = V b) :
    iprop(dat.arrays Fn ∗ Pipeline.unscopedRest spec3 c V) ⊢ (unscopedBufs c V' : sProp 𝕄) := by
  have hs : (unscopedBufs c V' : sProp 𝕄) = iprop(Pipeline.arrBufs spec3 c V' ∗ Pipeline.unscopedRest spec3 c V') :=
    Pipeline.unscopedBufs_split₀ cfgs 3 winFacts₀3.arr_unscoped c V'
  rw [hs, ← deal3 c dat hq0 hq1 hq2 hq3 V' Fn hF]
  refine sep_mono .rfl (Entails.of_eq ?_)
  unfold Pipeline.unscopedRest
  exact bigSep_congr fun b hb => by rw [hrest b (Finset.mem_sdiff.mp hb).2]

/-! ## Region 4 -/

/-- The distinct buffers behind region 4's windows, each whole at the full share, are the windows' arrays at the dealt
    shares: a buffer staged through two input windows is held half by each, every other at the full share. -/
theorem deal4 (c : Dev nD) (dat : Dat τ (Elt F) Unit ℕ (UR sig nD τ) ℕ cfg4 c)
    (hq0 : dat.q 0 = fullShare.left) (hq1 : dat.q 1 = fullShare.left) (hq2 : dat.q 2 = fullShare.right) (hq3 : dat.q 3 = fullShare.right)
    (V : (b : Ref sig .tc) → Buf (Elt F) ((c : Thread nD τ).loc b))
    (Fn : (w : Fin cfg4.W) → Buf (Elt F) ((cfg4.win w).arr.view.loc (c : Thread nD τ)))
    (hF : ∀ w, Fn w = V (Pipeline.arrRef spec4 w)) :
    (Pipeline.arrBufs spec4 c V : sProp 𝕄) = dat.arrays Fn := by
  have hA : dat.arrays Fn = bigSep Finset.univ fun w : Fin cfg4.W =>
      (((c : Thread nD τ).loc (Pipeline.arrRef spec4 w)) ↦{dat.share w} V (Pipeline.arrRef spec4 w) : sProp 𝕄) := by
    unfold Dat.arrays
    exact bigSep_congr fun w _ => by rw [(arr_whole4 w).set_eq_univ, hF w]
  rw [hA]
  unfold Pipeline.arrBufs
  rw [show Finset.univ.image (Pipeline.arrRef spec4) = {main_v16_1, main_v14, main_v18} from by decide, bigSep_W4,
    bigSep_insert (by decide), bigSep_insert (by decide), bigSep_singleton]
  have e0 : dat.share 0 = fullShare.left := by unfold Dat.share; rw [if_neg (by decide), hq0]
  have e1 : dat.share 1 = fullShare.left := by unfold Dat.share; rw [if_neg (by decide), hq1]
  have e2 : dat.share 2 = fullShare.right := by unfold Dat.share; rw [if_neg (by decide), hq2]
  have e3 : dat.share 3 = fullShare.right := by unfold Dat.share; rw [if_neg (by decide), hq3]
  have e4 : dat.share 4 = fullShare := by unfold Dat.share; rw [if_pos (by decide)]
  rw [e0, e1, e2, e3, e4]
  show iprop(((c : Thread nD τ).loc main_v16_1 ↦{fullShare} V main_v16_1) ∗ ((c : Thread nD τ).loc main_v14 ↦{fullShare} V main_v14) ∗ ((c : Thread nD τ).loc main_v18 ↦{fullShare} V main_v18))
    = iprop(((c : Thread nD τ).loc main_v16_1 ↦{fullShare.left} V main_v16_1) ∗ ((c : Thread nD τ).loc main_v14 ↦{fullShare.left} V main_v14) ∗ ((c : Thread nD τ).loc main_v16_1 ↦{fullShare.right} V main_v16_1) ∗ ((c : Thread nD τ).loc main_v14 ↦{fullShare.right} V main_v14) ∗ ((c : Thread nD τ).loc main_v18 ↦{fullShare} V main_v18))
  have s_v16_1 : (((c : Thread nD τ).loc main_v16_1 ↦{fullShare} V main_v16_1) : sProp 𝕄) ⊣⊢ iprop(((c : Thread nD τ).loc main_v16_1 ↦{fullShare.left} V main_v16_1) ∗ ((c : Thread nD τ).loc main_v16_1 ↦{fullShare.right} V main_v16_1)) :=
    pointsTo_share (PosShare.mem_left_op_right fullShare)
  have s_v14 : (((c : Thread nD τ).loc main_v14 ↦{fullShare} V main_v14) : sProp 𝕄) ⊣⊢ iprop(((c : Thread nD τ).loc main_v14 ↦{fullShare.left} V main_v14) ∗ ((c : Thread nD τ).loc main_v14 ↦{fullShare.right} V main_v14)) :=
    pointsTo_share (PosShare.mem_left_op_right fullShare)
  refine equiv_iff.mp ⟨show (_ : sProp 𝕄) ⊢ _ from ?_, show (_ : sProp 𝕄) ⊢ _ from ?_⟩
  · iintro ⟨H_v16_1, H_v14, H_v18⟩
    have s1_v16_1 := s_v16_1.1
    ihave H_v16_1' := s1_v16_1 $$ H_v16_1
    icases H_v16_1' with ⟨H_v16_1_L, H_v16_1_R⟩
    have s1_v14 := s_v14.1
    ihave H_v14' := s1_v14 $$ H_v14
    icases H_v14' with ⟨H_v14_L, H_v14_R⟩
    isplitl [H_v16_1_L]; · iexact H_v16_1_L
    isplitl [H_v14_L]; · iexact H_v14_L
    isplitl [H_v16_1_R]; · iexact H_v16_1_R
    isplitl [H_v14_R]; · iexact H_v14_R
    iexact H_v18
  · iintro ⟨H_v16_1_L, H_v14_L, H_v16_1_R, H_v14_R, H_v18⟩
    isplitl [H_v16_1_L H_v16_1_R]
    · have s2_v16_1 := s_v16_1.2
      iapply s2_v16_1; isplitl [H_v16_1_L] <;> iassumption
    isplitl [H_v14_L H_v14_R]
    · have s2_v14 := s_v14.2
      iapply s2_v14; isplitl [H_v14_L] <;> iassumption
    iexact H_v18

/-- At entry the core's unscoped buffers are region 4's arrays at the proof data's entry contents and the rest. -/
theorem entry4 (c : Dev nD) (dat : Dat τ (Elt F) Unit ℕ (UR sig nD τ) ℕ cfg4 c)
    (hq0 : dat.q 0 = fullShare.left) (hq1 : dat.q 1 = fullShare.left) (hq2 : dat.q 2 = fullShare.right) (hq3 : dat.q 3 = fullShare.right)
    (V : (b : Ref sig .tc) → Buf (Elt F) ((c : Thread nD τ).loc b))
    (hA : ∀ w, dat.A w = V (Pipeline.arrRef spec4 w)) :
    (unscopedBufs c V : sProp 𝕄) ⊢ iprop(dat.arrays (dat.arrAt · 0) ∗ Pipeline.unscopedRest spec4 c V) := by
  have hs : (unscopedBufs c V : sProp 𝕄) = iprop(Pipeline.arrBufs spec4 c V ∗ Pipeline.unscopedRest spec4 c V) :=
    Pipeline.unscopedBufs_split₀ cfgs 4 winFacts₀4.arr_unscoped c V
  rw [hs, deal4 c dat hq0 hq1 hq2 hq3 V (dat.arrAt · 0) (fun w => by rw [show dat.arrAt w 0 = dat.A w from rfl, hA])]

/-- At exit the arrays at contents `Fn` and the rest are the core's unscoped buffers at any valuation that has the
    arrays at `Fn` and agrees with the entry valuation off them. -/
theorem exit4 (c : Dev nD) (dat : Dat τ (Elt F) Unit ℕ (UR sig nD τ) ℕ cfg4 c)
    (hq0 : dat.q 0 = fullShare.left) (hq1 : dat.q 1 = fullShare.left) (hq2 : dat.q 2 = fullShare.right) (hq3 : dat.q 3 = fullShare.right)
    (V V' : (b : Ref sig .tc) → Buf (Elt F) ((c : Thread nD τ).loc b))
    (Fn : (w : Fin cfg4.W) → Buf (Elt F) ((cfg4.win w).arr.view.loc (c : Thread nD τ)))
    (hF : ∀ w, Fn w = V' (Pipeline.arrRef spec4 w))
    (hrest : ∀ b, b ∉ Finset.univ.image (Pipeline.arrRef spec4) → V' b = V b) :
    iprop(dat.arrays Fn ∗ Pipeline.unscopedRest spec4 c V) ⊢ (unscopedBufs c V' : sProp 𝕄) := by
  have hs : (unscopedBufs c V' : sProp 𝕄) = iprop(Pipeline.arrBufs spec4 c V' ∗ Pipeline.unscopedRest spec4 c V') :=
    Pipeline.unscopedBufs_split₀ cfgs 4 winFacts₀4.arr_unscoped c V'
  rw [hs, ← deal4 c dat hq0 hq1 hq2 hq3 V' Fn hF]
  refine sep_mono .rfl (Entails.of_eq ?_)
  unfold Pipeline.unscopedRest
  exact bigSep_congr fun b hb => by rw [hrest b (Finset.mem_sdiff.mp hb).2]

/-! ## Region 6 -/

/-- The distinct buffers behind region 6's windows, each whole at the full share, are the windows' arrays at the dealt
    shares: a buffer staged through two input windows is held half by each, every other at the full share. -/
theorem deal6 (c : Dev nD) (dat : Dat τ (Elt F) Unit ℕ (UR sig nD τ) ℕ cfg6 c)
    (hq0 : dat.q 0 = fullShare.left) (hq1 : dat.q 1 = fullShare) (hq2 : dat.q 2 = fullShare.right) (hq3 : dat.q 3 = fullShare) (hq4 : dat.q 4 = fullShare) (hq5 : dat.q 5 = fullShare)
    (V : (b : Ref sig .tc) → Buf (Elt F) ((c : Thread nD τ).loc b))
    (Fn : (w : Fin cfg6.W) → Buf (Elt F) ((cfg6.win w).arr.view.loc (c : Thread nD τ)))
    (hF : ∀ w, Fn w = V (Pipeline.arrRef spec6 w)) :
    (Pipeline.arrBufs spec6 c V : sProp 𝕄) = dat.arrays Fn := by
  have hA : dat.arrays Fn = bigSep Finset.univ fun w : Fin cfg6.W =>
      (((c : Thread nD τ).loc (Pipeline.arrRef spec6 w)) ↦{dat.share w} V (Pipeline.arrRef spec6 w) : sProp 𝕄) := by
    unfold Dat.arrays
    exact bigSep_congr fun w _ => by rw [(arr_whole6 w).set_eq_univ, hF w]
  rw [hA]
  unfold Pipeline.arrBufs
  rw [show Finset.univ.image (Pipeline.arrRef spec6) = {main_v19, main_v16_0, main_v14, main_v18, main_v17, main_v20} from by decide, bigSep_W6,
    bigSep_insert (by decide), bigSep_insert (by decide), bigSep_insert (by decide), bigSep_insert (by decide), bigSep_insert (by decide), bigSep_singleton]
  have e0 : dat.share 0 = fullShare.left := by unfold Dat.share; rw [if_neg (by decide), hq0]
  have e1 : dat.share 1 = fullShare := by unfold Dat.share; rw [if_neg (by decide), hq1]
  have e2 : dat.share 2 = fullShare.right := by unfold Dat.share; rw [if_neg (by decide), hq2]
  have e3 : dat.share 3 = fullShare := by unfold Dat.share; rw [if_neg (by decide), hq3]
  have e4 : dat.share 4 = fullShare := by unfold Dat.share; rw [if_neg (by decide), hq4]
  have e5 : dat.share 5 = fullShare := by unfold Dat.share; rw [if_neg (by decide), hq5]
  have e6 : dat.share 6 = fullShare := by unfold Dat.share; rw [if_pos (by decide)]
  rw [e0, e1, e2, e3, e4, e5, e6]
  show iprop(((c : Thread nD τ).loc main_v19 ↦{fullShare} V main_v19) ∗ ((c : Thread nD τ).loc main_v16_0 ↦{fullShare} V main_v16_0) ∗ ((c : Thread nD τ).loc main_v14 ↦{fullShare} V main_v14) ∗ ((c : Thread nD τ).loc main_v18 ↦{fullShare} V main_v18) ∗ ((c : Thread nD τ).loc main_v17 ↦{fullShare} V main_v17) ∗ ((c : Thread nD τ).loc main_v20 ↦{fullShare} V main_v20))
    = iprop(((c : Thread nD τ).loc main_v19 ↦{fullShare.left} V main_v19) ∗ ((c : Thread nD τ).loc main_v16_0 ↦{fullShare} V main_v16_0) ∗ ((c : Thread nD τ).loc main_v19 ↦{fullShare.right} V main_v19) ∗ ((c : Thread nD τ).loc main_v14 ↦{fullShare} V main_v14) ∗ ((c : Thread nD τ).loc main_v18 ↦{fullShare} V main_v18) ∗ ((c : Thread nD τ).loc main_v17 ↦{fullShare} V main_v17) ∗ ((c : Thread nD τ).loc main_v20 ↦{fullShare} V main_v20))
  have s_v19 : (((c : Thread nD τ).loc main_v19 ↦{fullShare} V main_v19) : sProp 𝕄) ⊣⊢ iprop(((c : Thread nD τ).loc main_v19 ↦{fullShare.left} V main_v19) ∗ ((c : Thread nD τ).loc main_v19 ↦{fullShare.right} V main_v19)) :=
    pointsTo_share (PosShare.mem_left_op_right fullShare)
  refine equiv_iff.mp ⟨show (_ : sProp 𝕄) ⊢ _ from ?_, show (_ : sProp 𝕄) ⊢ _ from ?_⟩
  · iintro ⟨H_v19, H_v16_0, H_v14, H_v18, H_v17, H_v20⟩
    have s1_v19 := s_v19.1
    ihave H_v19' := s1_v19 $$ H_v19
    icases H_v19' with ⟨H_v19_L, H_v19_R⟩
    isplitl [H_v19_L]; · iexact H_v19_L
    isplitl [H_v16_0]; · iexact H_v16_0
    isplitl [H_v19_R]; · iexact H_v19_R
    isplitl [H_v14]; · iexact H_v14
    isplitl [H_v18]; · iexact H_v18
    isplitl [H_v17]; · iexact H_v17
    iexact H_v20
  · iintro ⟨H_v19_L, H_v16_0, H_v19_R, H_v14, H_v18, H_v17, H_v20⟩
    isplitl [H_v19_L H_v19_R]
    · have s2_v19 := s_v19.2
      iapply s2_v19; isplitl [H_v19_L] <;> iassumption
    isplitl [H_v16_0]; · iexact H_v16_0
    isplitl [H_v14]; · iexact H_v14
    isplitl [H_v18]; · iexact H_v18
    isplitl [H_v17]; · iexact H_v17
    iexact H_v20

/-- At entry the core's unscoped buffers are region 6's arrays at the proof data's entry contents and the rest. -/
theorem entry6 (c : Dev nD) (dat : Dat τ (Elt F) Unit ℕ (UR sig nD τ) ℕ cfg6 c)
    (hq0 : dat.q 0 = fullShare.left) (hq1 : dat.q 1 = fullShare) (hq2 : dat.q 2 = fullShare.right) (hq3 : dat.q 3 = fullShare) (hq4 : dat.q 4 = fullShare) (hq5 : dat.q 5 = fullShare)
    (V : (b : Ref sig .tc) → Buf (Elt F) ((c : Thread nD τ).loc b))
    (hA : ∀ w, dat.A w = V (Pipeline.arrRef spec6 w)) :
    (unscopedBufs c V : sProp 𝕄) ⊢ iprop(dat.arrays (dat.arrAt · 0) ∗ Pipeline.unscopedRest spec6 c V) := by
  have hs : (unscopedBufs c V : sProp 𝕄) = iprop(Pipeline.arrBufs spec6 c V ∗ Pipeline.unscopedRest spec6 c V) :=
    Pipeline.unscopedBufs_split₀ cfgs 6 winFacts₀6.arr_unscoped c V
  rw [hs, deal6 c dat hq0 hq1 hq2 hq3 hq4 hq5 V (dat.arrAt · 0) (fun w => by rw [show dat.arrAt w 0 = dat.A w from rfl, hA])]

/-- At exit the arrays at contents `Fn` and the rest are the core's unscoped buffers at any valuation that has the
    arrays at `Fn` and agrees with the entry valuation off them. -/
theorem exit6 (c : Dev nD) (dat : Dat τ (Elt F) Unit ℕ (UR sig nD τ) ℕ cfg6 c)
    (hq0 : dat.q 0 = fullShare.left) (hq1 : dat.q 1 = fullShare) (hq2 : dat.q 2 = fullShare.right) (hq3 : dat.q 3 = fullShare) (hq4 : dat.q 4 = fullShare) (hq5 : dat.q 5 = fullShare)
    (V V' : (b : Ref sig .tc) → Buf (Elt F) ((c : Thread nD τ).loc b))
    (Fn : (w : Fin cfg6.W) → Buf (Elt F) ((cfg6.win w).arr.view.loc (c : Thread nD τ)))
    (hF : ∀ w, Fn w = V' (Pipeline.arrRef spec6 w))
    (hrest : ∀ b, b ∉ Finset.univ.image (Pipeline.arrRef spec6) → V' b = V b) :
    iprop(dat.arrays Fn ∗ Pipeline.unscopedRest spec6 c V) ⊢ (unscopedBufs c V' : sProp 𝕄) := by
  have hs : (unscopedBufs c V' : sProp 𝕄) = iprop(Pipeline.arrBufs spec6 c V' ∗ Pipeline.unscopedRest spec6 c V') :=
    Pipeline.unscopedBufs_split₀ cfgs 6 winFacts₀6.arr_unscoped c V'
  rw [hs, ← deal6 c dat hq0 hq1 hq2 hq3 hq4 hq5 V' Fn hF]
  refine sep_mono .rfl (Entails.of_eq ?_)
  unfold Pipeline.unscopedRest
  exact bigSep_congr fun b hb => by rw [hrest b (Finset.mem_sdiff.mp hb).2]

/-! ## Region 2 -/

/-- The distinct buffers behind region 2's windows, each whole at the full share, are the windows' arrays at the dealt
    shares: a buffer staged through two input windows is held half by each, every other at the full share. -/
theorem deal2 (c : Dev nD) (dat : Dat τ (Elt F) Unit ℕ (UR sig nD τ) ℕ cfg2 c)
    (hq0 : dat.q 0 = fullShare.left) (hq1 : dat.q 1 = fullShare.right) (hq2 : dat.q 2 = fullShare) (hq3 : dat.q 3 = fullShare) (hq4 : dat.q 4 = fullShare) (hq5 : dat.q 5 = fullShare) (hq6 : dat.q 6 = fullShare) (hq7 : dat.q 7 = fullShare) (hq8 : dat.q 8 = fullShare) (hq9 : dat.q 9 = fullShare) (hq10 : dat.q 10 = fullShare) (hq11 : dat.q 11 = fullShare)
    (V : (b : Ref sig .tc) → Buf (Elt F) ((c : Thread nD τ).loc b))
    (Fn : (w : Fin cfg2.W) → Buf (Elt F) ((cfg2.win w).arr.view.loc (c : Thread nD τ)))
    (hF : ∀ w, Fn w = V (Pipeline.arrRef spec2 w)) :
    (Pipeline.arrBufs spec2 c V : sProp 𝕄) = dat.arrays Fn := by
  have hA : dat.arrays Fn = bigSep Finset.univ fun w : Fin cfg2.W =>
      (((c : Thread nD τ).loc (Pipeline.arrRef spec2 w)) ↦{dat.share w} V (Pipeline.arrRef spec2 w) : sProp 𝕄) := by
    unfold Dat.arrays
    exact bigSep_congr fun w _ => by rw [(arr_whole2 w).set_eq_univ, hF w]
  rw [hA]
  unfold Pipeline.arrBufs
  rw [show Finset.univ.image (Pipeline.arrRef spec2) = {main_arg1, main_v15_2, main_v15_3, main_v15_0, main_v15_1, main_v13, main_v6, main_v8, main_v1, main_v9, main_v2, main_v16_0, main_v16_1} from by decide, bigSep_W2,
    bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_singleton]
  have e0 : dat.share 0 = fullShare.left := by unfold Dat.share; rw [if_neg (by decide), hq0]
  have e1 : dat.share 1 = fullShare.right := by unfold Dat.share; rw [if_neg (by decide), hq1]
  have e2 : dat.share 2 = fullShare := by unfold Dat.share; rw [if_neg (by decide), hq2]
  have e3 : dat.share 3 = fullShare := by unfold Dat.share; rw [if_neg (by decide), hq3]
  have e4 : dat.share 4 = fullShare := by unfold Dat.share; rw [if_neg (by decide), hq4]
  have e5 : dat.share 5 = fullShare := by unfold Dat.share; rw [if_neg (by decide), hq5]
  have e6 : dat.share 6 = fullShare := by unfold Dat.share; rw [if_neg (by decide), hq6]
  have e7 : dat.share 7 = fullShare := by unfold Dat.share; rw [if_neg (by decide), hq7]
  have e8 : dat.share 8 = fullShare := by unfold Dat.share; rw [if_neg (by decide), hq8]
  have e9 : dat.share 9 = fullShare := by unfold Dat.share; rw [if_neg (by decide), hq9]
  have e10 : dat.share 10 = fullShare := by unfold Dat.share; rw [if_neg (by decide), hq10]
  have e11 : dat.share 11 = fullShare := by unfold Dat.share; rw [if_neg (by decide), hq11]
  have e12 : dat.share 12 = fullShare := by unfold Dat.share; rw [if_pos (by decide)]
  have e13 : dat.share 13 = fullShare := by unfold Dat.share; rw [if_pos (by decide)]
  rw [e0, e1, e2, e3, e4, e5, e6, e7, e8, e9, e10, e11, e12, e13]
  show iprop(((c : Thread nD τ).loc main_arg1 ↦{fullShare} V main_arg1) ∗ ((c : Thread nD τ).loc main_v15_2 ↦{fullShare} V main_v15_2) ∗ ((c : Thread nD τ).loc main_v15_3 ↦{fullShare} V main_v15_3) ∗ ((c : Thread nD τ).loc main_v15_0 ↦{fullShare} V main_v15_0) ∗ ((c : Thread nD τ).loc main_v15_1 ↦{fullShare} V main_v15_1) ∗ ((c : Thread nD τ).loc main_v13 ↦{fullShare} V main_v13) ∗ ((c : Thread nD τ).loc main_v6 ↦{fullShare} V main_v6) ∗ ((c : Thread nD τ).loc main_v8 ↦{fullShare} V main_v8) ∗ ((c : Thread nD τ).loc main_v1 ↦{fullShare} V main_v1) ∗ ((c : Thread nD τ).loc main_v9 ↦{fullShare} V main_v9) ∗ ((c : Thread nD τ).loc main_v2 ↦{fullShare} V main_v2) ∗ ((c : Thread nD τ).loc main_v16_0 ↦{fullShare} V main_v16_0) ∗ ((c : Thread nD τ).loc main_v16_1 ↦{fullShare} V main_v16_1))
    = iprop(((c : Thread nD τ).loc main_arg1 ↦{fullShare.left} V main_arg1) ∗ ((c : Thread nD τ).loc main_arg1 ↦{fullShare.right} V main_arg1) ∗ ((c : Thread nD τ).loc main_v15_2 ↦{fullShare} V main_v15_2) ∗ ((c : Thread nD τ).loc main_v15_3 ↦{fullShare} V main_v15_3) ∗ ((c : Thread nD τ).loc main_v15_0 ↦{fullShare} V main_v15_0) ∗ ((c : Thread nD τ).loc main_v15_1 ↦{fullShare} V main_v15_1) ∗ ((c : Thread nD τ).loc main_v13 ↦{fullShare} V main_v13) ∗ ((c : Thread nD τ).loc main_v6 ↦{fullShare} V main_v6) ∗ ((c : Thread nD τ).loc main_v8 ↦{fullShare} V main_v8) ∗ ((c : Thread nD τ).loc main_v1 ↦{fullShare} V main_v1) ∗ ((c : Thread nD τ).loc main_v9 ↦{fullShare} V main_v9) ∗ ((c : Thread nD τ).loc main_v2 ↦{fullShare} V main_v2) ∗ ((c : Thread nD τ).loc main_v16_0 ↦{fullShare} V main_v16_0) ∗ ((c : Thread nD τ).loc main_v16_1 ↦{fullShare} V main_v16_1))
  have s_arg1 : (((c : Thread nD τ).loc main_arg1 ↦{fullShare} V main_arg1) : sProp 𝕄) ⊣⊢ iprop(((c : Thread nD τ).loc main_arg1 ↦{fullShare.left} V main_arg1) ∗ ((c : Thread nD τ).loc main_arg1 ↦{fullShare.right} V main_arg1)) :=
    pointsTo_share (PosShare.mem_left_op_right fullShare)
  refine equiv_iff.mp ⟨show (_ : sProp 𝕄) ⊢ _ from ?_, show (_ : sProp 𝕄) ⊢ _ from ?_⟩
  · iintro ⟨H_arg1, H_v15_2, H_v15_3, H_v15_0, H_v15_1, H_v13, H_v6, H_v8, H_v1, H_v9, H_v2, H_v16_0, H_v16_1⟩
    have s1_arg1 := s_arg1.1
    ihave H_arg1' := s1_arg1 $$ H_arg1
    icases H_arg1' with ⟨H_arg1_L, H_arg1_R⟩
    isplitl [H_arg1_L]; · iexact H_arg1_L
    isplitl [H_arg1_R]; · iexact H_arg1_R
    isplitl [H_v15_2]; · iexact H_v15_2
    isplitl [H_v15_3]; · iexact H_v15_3
    isplitl [H_v15_0]; · iexact H_v15_0
    isplitl [H_v15_1]; · iexact H_v15_1
    isplitl [H_v13]; · iexact H_v13
    isplitl [H_v6]; · iexact H_v6
    isplitl [H_v8]; · iexact H_v8
    isplitl [H_v1]; · iexact H_v1
    isplitl [H_v9]; · iexact H_v9
    isplitl [H_v2]; · iexact H_v2
    isplitl [H_v16_0]; · iexact H_v16_0
    iexact H_v16_1
  · iintro ⟨H_arg1_L, H_arg1_R, H_v15_2, H_v15_3, H_v15_0, H_v15_1, H_v13, H_v6, H_v8, H_v1, H_v9, H_v2, H_v16_0, H_v16_1⟩
    isplitl [H_arg1_L H_arg1_R]
    · have s2_arg1 := s_arg1.2
      iapply s2_arg1; isplitl [H_arg1_L] <;> iassumption
    isplitl [H_v15_2]; · iexact H_v15_2
    isplitl [H_v15_3]; · iexact H_v15_3
    isplitl [H_v15_0]; · iexact H_v15_0
    isplitl [H_v15_1]; · iexact H_v15_1
    isplitl [H_v13]; · iexact H_v13
    isplitl [H_v6]; · iexact H_v6
    isplitl [H_v8]; · iexact H_v8
    isplitl [H_v1]; · iexact H_v1
    isplitl [H_v9]; · iexact H_v9
    isplitl [H_v2]; · iexact H_v2
    isplitl [H_v16_0]; · iexact H_v16_0
    iexact H_v16_1

/-- At entry the core's unscoped buffers are region 2's arrays at the proof data's entry contents and the rest. -/
theorem entry2 (c : Dev nD) (dat : Dat τ (Elt F) Unit ℕ (UR sig nD τ) ℕ cfg2 c)
    (hq0 : dat.q 0 = fullShare.left) (hq1 : dat.q 1 = fullShare.right) (hq2 : dat.q 2 = fullShare) (hq3 : dat.q 3 = fullShare) (hq4 : dat.q 4 = fullShare) (hq5 : dat.q 5 = fullShare) (hq6 : dat.q 6 = fullShare) (hq7 : dat.q 7 = fullShare) (hq8 : dat.q 8 = fullShare) (hq9 : dat.q 9 = fullShare) (hq10 : dat.q 10 = fullShare) (hq11 : dat.q 11 = fullShare)
    (V : (b : Ref sig .tc) → Buf (Elt F) ((c : Thread nD τ).loc b))
    (hA : ∀ w, dat.A w = V (Pipeline.arrRef spec2 w)) :
    (unscopedBufs c V : sProp 𝕄) ⊢ iprop(dat.arrays (dat.arrAt · 0) ∗ Pipeline.unscopedRest spec2 c V) := by
  have hs : (unscopedBufs c V : sProp 𝕄) = iprop(Pipeline.arrBufs spec2 c V ∗ Pipeline.unscopedRest spec2 c V) :=
    Pipeline.unscopedBufs_split₀ cfgs 2 winFacts₀2.arr_unscoped c V
  rw [hs, deal2 c dat hq0 hq1 hq2 hq3 hq4 hq5 hq6 hq7 hq8 hq9 hq10 hq11 V (dat.arrAt · 0) (fun w => by rw [show dat.arrAt w 0 = dat.A w from rfl, hA])]

/-- At exit the arrays at contents `Fn` and the rest are the core's unscoped buffers at any valuation that has the
    arrays at `Fn` and agrees with the entry valuation off them. -/
theorem exit2 (c : Dev nD) (dat : Dat τ (Elt F) Unit ℕ (UR sig nD τ) ℕ cfg2 c)
    (hq0 : dat.q 0 = fullShare.left) (hq1 : dat.q 1 = fullShare.right) (hq2 : dat.q 2 = fullShare) (hq3 : dat.q 3 = fullShare) (hq4 : dat.q 4 = fullShare) (hq5 : dat.q 5 = fullShare) (hq6 : dat.q 6 = fullShare) (hq7 : dat.q 7 = fullShare) (hq8 : dat.q 8 = fullShare) (hq9 : dat.q 9 = fullShare) (hq10 : dat.q 10 = fullShare) (hq11 : dat.q 11 = fullShare)
    (V V' : (b : Ref sig .tc) → Buf (Elt F) ((c : Thread nD τ).loc b))
    (Fn : (w : Fin cfg2.W) → Buf (Elt F) ((cfg2.win w).arr.view.loc (c : Thread nD τ)))
    (hF : ∀ w, Fn w = V' (Pipeline.arrRef spec2 w))
    (hrest : ∀ b, b ∉ Finset.univ.image (Pipeline.arrRef spec2) → V' b = V b) :
    iprop(dat.arrays Fn ∗ Pipeline.unscopedRest spec2 c V) ⊢ (unscopedBufs c V' : sProp 𝕄) := by
  have hs : (unscopedBufs c V' : sProp 𝕄) = iprop(Pipeline.arrBufs spec2 c V' ∗ Pipeline.unscopedRest spec2 c V') :=
    Pipeline.unscopedBufs_split₀ cfgs 2 winFacts₀2.arr_unscoped c V'
  rw [hs, ← deal2 c dat hq0 hq1 hq2 hq3 hq4 hq5 hq6 hq7 hq8 hq9 hq10 hq11 V' Fn hF]
  refine sep_mono .rfl (Entails.of_eq ?_)
  unfold Pipeline.unscopedRest
  exact bigSep_congr fun b hb => by rw [hrest b (Finset.mem_sdiff.mp hb).2]

end Cert.Kernel.Hand

end
-- ==== Proof.KB.Run.lean ====
import proofs.«170994_j15857019257044_2_alg».proof.Proof.KB.Bounds
import proofs.«170994_j15857019257044_2_alg».proof.Proof.KB.Deal
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: one stretch of host operations, then the seven regions -/

/-- No pipeline has a prefetched table. -/
abbrev adm : (p : Fin 7) → (pcfgs (F := F) p).Adm := fun p => (cfgs p).toPCfg_adm
/-- Every pipeline's proof data, each at its region's entry contents. -/
def pdats : (p : Fin 7) → (c : Dev nD) → Dat τ (Elt F) Unit ℕ (UR sig nD τ) ℕ (Pipeline.pin (pcfgs (F := F)) adm p) c
  | ⟨0, _⟩ => fun c => dat0 (Vt (X1 m)) c
  | ⟨1, _⟩ => fun c => dat1 (Vt (X2 m)) c
  | ⟨2, _⟩ => fun c => dat2 (Vt (X3 m)) c
  | ⟨3, _⟩ => fun c => dat3 (Vt (X4 m)) c
  | ⟨4, _⟩ => fun c => dat4 (Vt (X5 m)) c
  | ⟨5, _⟩ => fun c => dat5 (Vt (X6 m)) c
  | ⟨6, _⟩ => fun c => dat6 (Vt (X7 m)) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its debts, none. -/
abbrev R (c : Dev nD) : sProp 𝕄 := iprop((∃ r, prngReg c r) ∗ ∃ W, owes (c : Thread nD τ) (0 : CellTallies nD τ sig Unit) W)
/-- The stretch of host operations as a segment over the unscoped buffers from the launch contents. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp Gen.hostOps0_fresh) op h) (Gen.V0 m) R
/-- The last thread state without the debts: every unscoped buffer at the last contents, the generator register at some state. -/
abbrev Tₙ (c : Dev nD) : sProp 𝕄 := iprop(StableHlo.held (c : Thread nD τ) (Pipeline.ucRefs τ sig) (X8 m c) ∗ ∃ r, prngReg c r)

/-! ## The regions as segments -/

set_option backward.isDefEq.respectTransparency.types false in
/-- Region 0 over the thread state: entered from every unscoped buffer at the contents before it, left at the contents
    after it. Its arrays are taken out of the unscoped buffers at entry and put back, at what the write-backs leave, at
    exit; the generator register goes into the body's invariant and comes back; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vt (X1 m)) c).loose
  hwaits := Pipeline.hwaits_of_owed_zero _ _ _ _ L lv 0 fun _ _ => rfl
  pre c := iprop(StableHlo.held (c : Thread nD τ) (Pipeline.ucRefs τ sig) (X1 m c) ∗ R c)
  post c := iprop(StableHlo.held (c : Thread nD τ) (Pipeline.ucRefs τ sig) (X2 m c) ∗ R c)
  X c := iprop(∃ r, prngReg c r)
  Y c := iprop(∃ r, prngReg c r)
  Z c := Pipeline.unscopedRest (Ix := Unit) (Name := ℕ) (U := UR sig nD τ) (Lvl := ℕ) spec0 c (Vt (X1 m) c)
  hentry c := by
    rw [Pipeline.ownSems0_none]
    have hsplit := Pipeline.arrays_of_unscopedBufs (p := 0) (pcfgs (F := F)) adm (pdats m) launch0.win launch0.arr_whole c
      ((pdats m 0 c).share_full (fun w => match w with | ⟨0, _⟩ => rfl | ⟨1, _⟩ => rfl | ⟨2, _⟩ => rfl | ⟨3, _⟩ => rfl)) (Vt (X1 m) c) (A_eq0 (Vt (X1 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full (fun w => match w with | ⟨0, _⟩ => rfl | ⟨1, _⟩ => rfl | ⟨2, _⟩ => rfl | ⟨3, _⟩ => rfl))
      (Vt (X1 m) c) (Vt (X2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it. Its arrays are taken out of the unscoped buffers at entry and put back, at what the write-backs leave, at
    exit; the generator register goes into the body's invariant and comes back; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vt (X2 m)) c).loose
  hwaits := Pipeline.hwaits_of_owed_zero _ _ _ _ L lv 1 fun _ _ => rfl
  pre c := iprop(StableHlo.held (c : Thread nD τ) (Pipeline.ucRefs τ sig) (X2 m c) ∗ R c)
  post c := iprop(StableHlo.held (c : Thread nD τ) (Pipeline.ucRefs τ sig) (X3 m c) ∗ R c)
  X c := iprop(∃ r, prngReg c r)
  Y c := iprop(∃ r, prngReg c r)
  Z c := Pipeline.unscopedRest (Ix := Unit) (Name := ℕ) (U := UR sig nD τ) (Lvl := ℕ) spec1 c (Vt (X2 m) c)
  hentry c := by
    rw [Pipeline.ownSems0_none]
    have hsplit := Pipeline.arrays_of_unscopedBufs (p := 1) (pcfgs (F := F)) adm (pdats m) launch1.win launch1.arr_whole c
      ((pdats m 1 c).share_full (fun w => match w with | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl | ⟨8, _⟩ => rfl | ⟨9, _⟩ => rfl | ⟨10, _⟩ => rfl)) (Vt (X2 m) c) (A_eq1 (Vt (X2 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full (fun w => match w with | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl | ⟨8, _⟩ => rfl | ⟨9, _⟩ => rfl | ⟨10, _⟩ => rfl))
      (Vt (X2 m) c) (Vt (X3 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at the contents
    after it. Its arrays are taken out of the unscoped buffers at entry and put back, at what the write-backs leave, at
    exit; the generator register goes into the body's invariant and comes back; nothing is owed. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (Vt (X3 m)) c).loose
  hwaits := Pipeline.hwaits_of_owed_zero _ _ _ _ L lv 2 fun _ _ => rfl
  pre c := iprop(StableHlo.held (c : Thread nD τ) (Pipeline.ucRefs τ sig) (X3 m c) ∗ R c)
  post c := iprop(StableHlo.held (c : Thread nD τ) (Pipeline.ucRefs τ sig) (X4 m c) ∗ R c)
  X c := iprop(∃ r, prngReg c r)
  Y c := iprop(∃ r, prngReg c r)
  Z c := Pipeline.unscopedRest (Ix := Unit) (Name := ℕ) (U := UR sig nD τ) (Lvl := ℕ) spec2 c (Vt (X3 m) c)
  hentry c := by
    rw [Pipeline.ownSems0_none]
    have hsplit := entry2 c (pdats m 2 c) (q2_0 (Vt (X3 m)) c) (q2_1 (Vt (X3 m)) c) (q2_2 (Vt (X3 m)) c) (q2_3 (Vt (X3 m)) c) (q2_4 (Vt (X3 m)) c) (q2_5 (Vt (X3 m)) c) (q2_6 (Vt (X3 m)) c) (q2_7 (Vt (X3 m)) c) (q2_8 (Vt (X3 m)) c) (q2_9 (Vt (X3 m)) c) (q2_10 (Vt (X3 m)) c) (q2_11 (Vt (X3 m)) c) (Vt (X3 m) c) (A_eq2 (Vt (X3 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec2 c : sProp 𝕄) ⊢ (pdats m 2 c).Φ 0 := hin2 (Vt (X3 m)) c
    unfold Pipeline.ΦA at h
    iintro ⟨Hp, -, Hr⟩
    iapply h
    isplitl [Hr]; · iexact Hr
    iexact Hp
  hout c := by
    rw [Pipeline.ownSems0_none]
    have h : (pdats m 2 c).Φ (Fin.last (Pipeline.pin (pcfgs (F := F)) adm 2).N) ⊢ (Pipeline.ΦA spec2 c : sProp 𝕄) := hout2 (Vt (X3 m)) c
    unfold Pipeline.ΦA at h
    iintro HΦ
    ihave H := h $$ HΦ
    icases H with ⟨Hr, Hp⟩
    isplitl [Hp]; · iexact Hp
    isplitr; · iempintro
    iexact Hr
  hexit c := by
    have hjoin := exit2 c (pdats m 2 c) (q2_0 (Vt (X3 m)) c) (q2_1 (Vt (X3 m)) c) (q2_2 (Vt (X3 m)) c) (q2_3 (Vt (X3 m)) c) (q2_4 (Vt (X3 m)) c) (q2_5 (Vt (X3 m)) c) (q2_6 (Vt (X3 m)) c) (q2_7 (Vt (X3 m)) c) (q2_8 (Vt (X3 m)) c) (q2_9 (Vt (X3 m)) c) (q2_10 (Vt (X3 m)) c) (q2_11 (Vt (X3 m)) c) (Vt (X3 m) c) (Vt (X4 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at the contents before it, left at the contents
    after it. Its arrays are taken out of the unscoped buffers at entry and put back, at what the write-backs leave, at
    exit; the generator register goes into the body's invariant and comes back; nothing is owed. -/
def reg3 : Pipeline.RegionSeg (pcfgs (F := F)) adm (pdats m) () defs₀ 𝒱₀ L lv 3 where
  win := winFacts₀3
  block_pos := block_pos3
  stage_whole := stage_whole3
  K := PEmpty
  osem k := k.elim
  ho := Pipeline.OwnSemFacts.none _
  hbody c := (body_obligation3 (Vt (X4 m)) c).loose
  hwaits := Pipeline.hwaits_of_owed_zero _ _ _ _ L lv 3 fun _ _ => rfl
  pre c := iprop(StableHlo.held (c : Thread nD τ) (Pipeline.ucRefs τ sig) (X4 m c) ∗ R c)
  post c := iprop(StableHlo.held (c : Thread nD τ) (Pipeline.ucRefs τ sig) (X5 m c) ∗ R c)
  X c := iprop(∃ r, prngReg c r)
  Y c := iprop(∃ r, prngReg c r)
  Z c := Pipeline.unscopedRest (Ix := Unit) (Name := ℕ) (U := UR sig nD τ) (Lvl := ℕ) spec3 c (Vt (X4 m) c)
  hentry c := by
    rw [Pipeline.ownSems0_none]
    have hsplit := entry3 c (pdats m 3 c) (q3_0 (Vt (X4 m)) c) (q3_1 (Vt (X4 m)) c) (q3_2 (Vt (X4 m)) c) (q3_3 (Vt (X4 m)) c) (Vt (X4 m) c) (A_eq3 (Vt (X4 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := exit3 c (pdats m 3 c) (q3_0 (Vt (X4 m)) c) (q3_1 (Vt (X4 m)) c) (q3_2 (Vt (X4 m)) c) (q3_3 (Vt (X4 m)) c) (Vt (X4 m) c) (Vt (X5 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at the contents before it, left at the contents
    after it. Its arrays are taken out of the unscoped buffers at entry and put back, at what the write-backs leave, at
    exit; the generator register goes into the body's invariant and comes back; nothing is owed. -/
def reg4 : Pipeline.RegionSeg (pcfgs (F := F)) adm (pdats m) () defs₀ 𝒱₀ L lv 4 where
  win := winFacts₀4
  block_pos := block_pos4
  stage_whole := stage_whole4
  K := PEmpty
  osem k := k.elim
  ho := Pipeline.OwnSemFacts.none _
  hbody c := (body_obligation4 (Vt (X5 m)) c).loose
  hwaits := Pipeline.hwaits_of_owed_zero _ _ _ _ L lv 4 fun _ _ => rfl
  pre c := iprop(StableHlo.held (c : Thread nD τ) (Pipeline.ucRefs τ sig) (X5 m c) ∗ R c)
  post c := iprop(StableHlo.held (c : Thread nD τ) (Pipeline.ucRefs τ sig) (X6 m c) ∗ R c)
  X c := iprop(∃ r, prngReg c r)
  Y c := iprop(∃ r, prngReg c r)
  Z c := Pipeline.unscopedRest (Ix := Unit) (Name := ℕ) (U := UR sig nD τ) (Lvl := ℕ) spec4 c (Vt (X5 m) c)
  hentry c := by
    rw [Pipeline.ownSems0_none]
    have hsplit := entry4 c (pdats m 4 c) (q4_0 (Vt (X5 m)) c) (q4_1 (Vt (X5 m)) c) (q4_2 (Vt (X5 m)) c) (q4_3 (Vt (X5 m)) c) (Vt (X5 m) c) (A_eq4 (Vt (X5 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := exit4 c (pdats m 4 c) (q4_0 (Vt (X5 m)) c) (q4_1 (Vt (X5 m)) c) (q4_2 (Vt (X5 m)) c) (q4_3 (Vt (X5 m)) c) (Vt (X5 m) c) (Vt (X6 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at the contents before it, left at the contents
    after it. Its arrays are taken out of the unscoped buffers at entry and put back, at what the write-backs leave, at
    exit; the generator register goes into the body's invariant and comes back; nothing is owed. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (Vt (X6 m)) c).loose
  hwaits := Pipeline.hwaits_of_owed_zero _ _ _ _ L lv 5 fun _ _ => rfl
  pre c := iprop(StableHlo.held (c : Thread nD τ) (Pipeline.ucRefs τ sig) (X6 m c) ∗ R c)
  post c := iprop(StableHlo.held (c : Thread nD τ) (Pipeline.ucRefs τ sig) (X7 m c) ∗ R c)
  X c := iprop(∃ r, prngReg c r)
  Y c := iprop(∃ r, prngReg c r)
  Z c := Pipeline.unscopedRest (Ix := Unit) (Name := ℕ) (U := UR sig nD τ) (Lvl := ℕ) spec5 c (Vt (X6 m) c)
  hentry c := by
    rw [Pipeline.ownSems0_none]
    have hsplit := Pipeline.arrays_of_unscopedBufs (p := 5) (pcfgs (F := F)) adm (pdats m) launch5.win launch5.arr_whole c
      ((pdats m 5 c).share_full (fun w => match w with | ⟨0, _⟩ => rfl | ⟨1, _⟩ => rfl | ⟨2, _⟩ => rfl | ⟨3, _⟩ => rfl)) (Vt (X6 m) c) (A_eq5 (Vt (X6 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full (fun w => match w with | ⟨0, _⟩ => rfl | ⟨1, _⟩ => rfl | ⟨2, _⟩ => rfl | ⟨3, _⟩ => rfl))
      (Vt (X6 m) c) (Vt (X7 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at the contents before it, left at the contents
    after it. Its arrays are taken out of the unscoped buffers at entry and put back, at what the write-backs leave, at
    exit; the generator register goes into the body's invariant and comes back; nothing is owed. -/
def reg6 : Pipeline.RegionSeg (pcfgs (F := F)) adm (pdats m) () defs₀ 𝒱₀ L lv 6 where
  win := winFacts₀6
  block_pos := block_pos6
  stage_whole := stage_whole6
  K := PEmpty
  osem k := k.elim
  ho := Pipeline.OwnSemFacts.none _
  hbody c := (body_obligation6 (Vt (X7 m)) c).loose
  hwaits := Pipeline.hwaits_of_owed_zero _ _ _ _ L lv 6 fun _ _ => rfl
  pre c := iprop(StableHlo.held (c : Thread nD τ) (Pipeline.ucRefs τ sig) (X7 m c) ∗ R c)
  post c := iprop(StableHlo.held (c : Thread nD τ) (Pipeline.ucRefs τ sig) (X8 m c) ∗ R c)
  X c := iprop(∃ r, prngReg c r)
  Y c := iprop(∃ r, prngReg c r)
  Z c := Pipeline.unscopedRest (Ix := Unit) (Name := ℕ) (U := UR sig nD τ) (Lvl := ℕ) spec6 c (Vt (X7 m) c)
  hentry c := by
    rw [Pipeline.ownSems0_none]
    have hsplit := entry6 c (pdats m 6 c) (q6_0 (Vt (X7 m)) c) (q6_1 (Vt (X7 m)) c) (q6_2 (Vt (X7 m)) c) (q6_3 (Vt (X7 m)) c) (q6_4 (Vt (X7 m)) c) (q6_5 (Vt (X7 m)) c) (Vt (X7 m) c) (A_eq6 (Vt (X7 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := exit6 c (pdats m 6 c) (q6_0 (Vt (X7 m)) c) (q6_1 (Vt (X7 m)) c) (q6_2 (Vt (X7 m)) c) (q6_3 (Vt (X7 m)) c) (q6_4 (Vt (X7 m)) c) (q6_5 (Vt (X7 m)) c) (Vt (X7 m) c) (Vt (X8 m) c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's eight items in order. -/
abbrev segs : List (Pipeline.Seg (pcfgs (F := F)) adm (pdats m) () defs₀ 𝒱₀ L lv) :=
  [ .host (hseg0 m), .region (reg0 m), .region (reg1 m), .region (reg2 m), .region (reg3 m), .region (reg4 m), .region (reg5 m), .region (reg6 m) ]
/-- @main is the run of the items. -/
theorem main_run (c : Dev nD) : main (F := F) c = Pipeline.Seg.run (segs m) := (main_chain c).trans (by chain_rfl)

set_option backward.isDefEq.respectTransparency.types false in
/-- From any memory with zero counters every weakly fair execution of @main on the TensorCores terminates, nothing
    faulting, and in every final state each unscoped buffer holds the last contents `X8`: the launch contents at
    whatever no item writes, a host operation's result, or what a region's write-backs leave. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = X8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (X8 m c) ∗ (∃ r, prngReg c r) ∗ ∃ W, owes (c : Thread nD τ) (0 : CellTallies nD τ sig Unit) W)
        ⊢ iprop((StableHlo.held (c : Thread nD τ) (Pipeline.ucRefs τ sig) (X8 m c) ∗ ∃ r, prngReg c r) ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X8 m c b)
    (hfin := fun c s' => by
      iintro ⟨⟨Hh, -⟩, HSI⟩
      unfold StableHlo.held
      imodintro
      iapply (pointsTo_read_all (Pipeline.ucRefs τ sig) (fun b => (((c : Thread nD τ)).1, b)) (X8 m c) s')
      isplitl [Hh] <;> iassumption)
    (hQ := fun s h => h)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: every argument array ends holding its launch contents (no host operation and no region writes one). -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => ⟨(h c _ (mem_uc main_arg0 (by decide))).trans (X8_launch m c main_arg0 (by decide) (by decide) (by decide) (by decide) (by decide) (by decide) (by decide) (by decide)),
    (h c _ (mem_uc main_arg1 (by decide))).trans (X8_launch m c main_arg1 (by decide) (by decide) (by decide) (by decide) (by decide) (by decide) (by decide) (by decide)),
    (h c _ (mem_uc main_arg2 (by decide))).trans (X8_launch m c main_arg2 (by decide) (by decide) (by decide) (by decide) (by decide) (by decide) (by decide) (by decide)),
    (h c _ (mem_uc main_arg3 (by decide))).trans (X8_launch m c main_arg3 (by decide) (by decide) (by decide) (by decide) (by decide) (by decide) (by decide) (by decide)),
    (h c _ (mem_uc main_arg4 (by decide))).trans (X8_launch m c main_arg4 (by decide) (by decide) (by decide) (by decide) (by decide) (by decide) (by decide) (by decide)),
    (h c _ (mem_uc main_arg5 (by decide))).trans (X8_launch m c main_arg5 (by decide) (by decide) (by decide) (by decide) (by decide) (by decide) (by decide) (by decide)),
    (h c _ (mem_uc main_arg6 (by decide))).trans (X8_launch m c main_arg6 (by decide) (by decide) (by decide) (by decide) (by decide) (by decide) (by decide) (by decide)),
    (h c _ (mem_uc main_arg7 (by decide))).trans (X8_launch m c main_arg7 (by decide) (by decide) (by decide) (by decide) (by decide) (by decide) (by decide) (by decide)),
    (h c _ (mem_uc main_arg8 (by decide))).trans (X8_launch m c main_arg8 (by decide) (by decide) (by decide) (by decide) (by decide) (by decide) (by decide) (by decide)),
    (h c _ (mem_uc main_arg9 (by decide))).trans (X8_launch m c main_arg9 (by decide) (by decide) (by decide) (by decide) (by decide) (by decide) (by decide) (by decide)),
    (h c _ (mem_uc main_arg10 (by decide))).trans (X8_launch m c main_arg10 (by decide) (by decide) (by decide) (by decide) (by decide) (by decide) (by decide) (by decide)),
    (h c _ (mem_uc main_arg11 (by decide))).trans (X8_launch m c main_arg11 (by decide) (by decide) (by decide) (by decide) (by decide) (by decide) (by decide) (by decide)),
    (h c _ (mem_uc main_arg12 (by decide))).trans (X8_launch m c main_arg12 (by decide) (by decide) (by decide) (by decide) (by decide) (by decide) (by decide) (by decide)),
    (h c _ (mem_uc main_arg13 (by decide))).trans (X8_launch m c main_arg13 (by decide) (by decide) (by decide) (by decide) (by decide) (by decide) (by decide) (by decide)),
    (h c _ (mem_uc main_arg14 (by decide))).trans (X8_launch m c main_arg14 (by decide) (by decide) (by decide) (by decide) (by decide) (by decide) (by decide) (by decide)),
    (h c _ (mem_uc main_arg15 (by decide))).trans (X8_launch m c main_arg15 (by decide) (by decide) (by decide) (by decide) (by decide) (by decide) (by decide) (by decide)),
    (h c _ (mem_uc main_arg16 (by decide))).trans (X8_launch m c main_arg16 (by decide) (by decide) (by decide) (by decide) (by decide) (by decide) (by decide) (by decide)),
    (h c _ (mem_uc main_arg17 (by decide))).trans (X8_launch m c main_arg17 (by decide) (by decide) (by decide) (by decide) (by decide) (by decide) (by decide) (by decide))⟩) (run_all m ρ)

/-- The same run with the result named: `main_v20` ends at what region 6's write-backs leave. -/
theorem value_all : θ_run defs (onTc (τ := τ) (main (F := F))) ⟨m, fun _ => 0, ρ⟩ (fun r => ∀ c : Dev nD,
      r.2.mem ((c.tc : Thread nD τ).loc main_v20) = X8 m c main_v20
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => ⟨h c _ (mem_uc main_v20 (by decide)),
    (h c _ (mem_uc main_arg0 (by decide))).trans (X8_launch m c main_arg0 (by decide) (by decide) (by decide) (by decide) (by decide) (by decide) (by decide) (by decide)),
    (h c _ (mem_uc main_arg1 (by decide))).trans (X8_launch m c main_arg1 (by decide) (by decide) (by decide) (by decide) (by decide) (by decide) (by decide) (by decide)),
    (h c _ (mem_uc main_arg2 (by decide))).trans (X8_launch m c main_arg2 (by decide) (by decide) (by decide) (by decide) (by decide) (by decide) (by decide) (by decide)),
    (h c _ (mem_uc main_arg3 (by decide))).trans (X8_launch m c main_arg3 (by decide) (by decide) (by decide) (by decide) (by decide) (by decide) (by decide) (by decide)),
    (h c _ (mem_uc main_arg4 (by decide))).trans (X8_launch m c main_arg4 (by decide) (by decide) (by decide) (by decide) (by decide) (by decide) (by decide) (by decide)),
    (h c _ (mem_uc main_arg5 (by decide))).trans (X8_launch m c main_arg5 (by decide) (by decide) (by decide) (by decide) (by decide) (by decide) (by decide) (by decide)),
    (h c _ (mem_uc main_arg6 (by decide))).trans (X8_launch m c main_arg6 (by decide) (by decide) (by decide) (by decide) (by decide) (by decide) (by decide) (by decide)),
    (h c _ (mem_uc main_arg7 (by decide))).trans (X8_launch m c main_arg7 (by decide) (by decide) (by decide) (by decide) (by decide) (by decide) (by decide) (by decide)),
    (h c _ (mem_uc main_arg8 (by decide))).trans (X8_launch m c main_arg8 (by decide) (by decide) (by decide) (by decide) (by decide) (by decide) (by decide) (by decide)),
    (h c _ (mem_uc main_arg9 (by decide))).trans (X8_launch m c main_arg9 (by decide) (by decide) (by decide) (by decide) (by decide) (by decide) (by decide) (by decide)),
    (h c _ (mem_uc main_arg10 (by decide))).trans (X8_launch m c main_arg10 (by decide) (by decide) (by decide) (by decide) (by decide) (by decide) (by decide) (by decide)),
    (h c _ (mem_uc main_arg11 (by decide))).trans (X8_launch m c main_arg11 (by decide) (by decide) (by decide) (by decide) (by decide) (by decide) (by decide) (by decide)),
    (h c _ (mem_uc main_arg12 (by decide))).trans (X8_launch m c main_arg12 (by decide) (by decide) (by decide) (by decide) (by decide) (by decide) (by decide) (by decide)),
    (h c _ (mem_uc main_arg13 (by decide))).trans (X8_launch m c main_arg13 (by decide) (by decide) (by decide) (by decide) (by decide) (by decide) (by decide) (by decide)),
    (h c _ (mem_uc main_arg14 (by decide))).trans (X8_launch m c main_arg14 (by decide) (by decide) (by decide) (by decide) (by decide) (by decide) (by decide) (by decide)),
    (h c _ (mem_uc main_arg15 (by decide))).trans (X8_launch m c main_arg15 (by decide) (by decide) (by decide) (by decide) (by decide) (by decide) (by decide) (by decide)),
    (h c _ (mem_uc main_arg16 (by decide))).trans (X8_launch m c main_arg16 (by decide) (by decide) (by decide) (by decide) (by decide) (by decide) (by decide) (by decide)),
    (h c _ (mem_uc main_arg17 (by decide))).trans (X8_launch m c main_arg17 (by decide) (by decide) (by decide) (by decide) (by decide) (by decide) (by decide) (by decide))⟩) (run_all m ρ)

end Cert.Kernel.Hand

end
-- ==== Proof.KI.Region0.lean ====
import proofs.«170994_j15857019257044_2_alg».proof.Proof.Gen.KernelIdeal.Launch
import proofs.«170994_j15857019257044_2_alg».proof.Proof.Gen.KernelIdeal.Skeleton
import proofs.«170994_j15857019257044_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 0 of @main: the row-tiled linear layer `cc0_kernel` (x block i, the whole weight, the whole bias → out block i) -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (an unfetched
    window's block index has not moved), for any proof data whose array is `V`'s and whose body leaves the block
    in place. Window 0 (the rows of x): -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Window 1 (the whole weight, one block for every point): -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Window 2 (the whole bias row, one block for every point): -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole staging buffer -/

abbrev r0_x : Rect S512x256 := Rect.unit (s := S512x256) ![0, 0] S512x256.size inb_S512x256_S512x256_0_0
abbrev r0_w : Rect S256x256 := Rect.unit (s := S256x256) ![0, 0] S256x256.size inb_S256x256_S256x256_0_0
abbrev r0_b : Rect S1x256 := Rect.unit (s := S1x256) ![0, 0] S1x256.size inb_S1x256_S1x256_0_0

/-! ## What the body leaves in the output window's buffer -/

/-- Window 3's staging buffer after the body, from the input windows' blocks: its one store, of x·Wᵀ + b
    (the payload `k0_pay1` of the three loads). -/
def out0_3 (x0 : Vec F S512x256 .f32) (x1 : Vec F S256x256 .bf16) (x2 : Vec F S1x256 .f32) : Vec F S512x256 .f32 :=
  View.canon [⟨r0_x, k0_pay1 (View.ld x0 r0_x) (View.ld x1 r0_w) (View.ld x2 r0_b)⟩]

/-- The store is the whole buffer, so it covers it. -/
theorem cover0_3 (p0 : Vec F S512x256 .f32) (y : S512x256.Idx) :
    ∃ pc ∈ ([⟨r0_x, p0⟩] : List (View.Piece (Elt F) S512x256 .f32)), y ∈ pc.1.set :=
  View.cover_of_tiled [⟨r0_x, p0⟩] S512x256.size (by rfl) y

/-! ## The body's triple -/

set_option maxHeartbeats 1000000 in
/-- The kernel body on whole staging memrefs, the inputs' at read contents `xW` and the output's at anything, runs to
    the continuation holding the inputs' as they were and the output's at `out0_3` of the inputs'. -/
theorem sound_kernel0 (c : Dev nD) (E : Set ℕ) (i : grid0.Coords)
    (arg1 : Memref sig .tc .vmem S512x256 .f32) (harg1 : arg1.IsWhole) (arg2 : Memref sig .tc .vmem S256x256 .bf16) (harg2 : arg2.IsWhole)
    (arg3 : Memref sig .tc .vmem S1x256 .f32) (harg3 : arg3.IsWhole) (arg4 : Memref sig .tc .vmem S512x256 .f32) (harg4 : arg4.IsWhole)
    (x0 : Vec F S512x256 .f32) (x1 : Vec F S256x256 .bf16) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0_kernel i arg1 harg1 arg2 harg2 arg3 harg3 arg4 harg4) K := by
  simp only [cc0_kernel_eq_skeleton]; unfold cc0_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at
    point `t` each input's buffer at its block and the output's at `out0_3` of the input blocks; the invariant the
    scoped rest and the generator register, untouched; nothing owed; every array read through one window, at the full share. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q w := match w with
    | ⟨0, _⟩ => fullShare
    | ⟨1, _⟩ => fullShare
    | ⟨2, _⟩ => fullShare
    | ⟨3, _⟩ => fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
import proofs.«170994_j15857019257044_2_alg».proof.Proof.Gen.KernelIdeal.Launch
import proofs.«170994_j15857019257044_2_alg».proof.Proof.Gen.KernelIdeal.Skeleton
import proofs.«170994_j15857019257044_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 1 of @main: the preprocessing `cc1_kernel` of the gated attention unit
(x block i and five whole parameter arrays → the blocks i of v, gate, q, k) -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, fetched there or not (an unfetched
window's block index has not moved), for any proof data whose array is `V`'s and whose body leaves the block in place. -/

/-- Window 0 (the rows of x): -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Window 1 (the whole weight of the (v, gate) projection): -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Window 2 (its whole bias row): -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Window 3 (the whole weight of the shared (q, k) projection): -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Window 4 (its whole bias row): -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Window 5 (the two scale rows): -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Window 6 (the two offset rows): -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

-- whole staging buffers
abbrev r1_x : Rect S512x768 := Rect.unit (s := S512x768) ![0, 0] S512x768.size inb_S512x768_S512x768_0_0
abbrev r1_wu : Rect S1536x768 := Rect.unit (s := S1536x768) ![0, 0] S1536x768.size inb_S1536x768_S1536x768_0_0
abbrev r1_bu : Rect S1x1536 := Rect.unit (s := S1x1536) ![0, 0] S1x1536.size inb_S1x1536_S1x1536_0_0
abbrev r1_wz : Rect S200x768 := Rect.unit (s := S200x768) ![0, 0] S200x768.size inb_S200x768_S200x768_0_0
abbrev r1_bz : Rect S1x200 := Rect.unit (s := S1x200) ![0, 0] S1x200.size inb_S1x200_S1x200_0_0
abbrev r1_z : Rect S512x200 := Rect.unit (s := S512x200) ![0, 0] S512x200.size inb_S512x200_S512x200_0_0
-- row 0 and row 1 of a two-row parameter
abbrev r1_row0 : Rect S2x200 := Rect.unit (s := S2x200) ![0, 0] S1x200.size inb_S2x200_S1x200_0_0
abbrev r1_row1 : Rect S2x200 := Rect.unit (s := S2x200) ![1, 0] S1x200.size inb_S2x200_S1x200_1_0

/-! ## What the body leaves in each output window's buffer -/

/-- Window 7 (v): the left column half of u = (x·Wuᵀ + bu)·logistic(x·Wuᵀ + bu). -/
def out1_7 (x0 : Vec F S512x768 .f32) (x1 : Vec F S1536x768 .bf16) (x2 : Vec F S1x1536 .f32) : Vec F S512x768 .f32 :=
  View.canon [⟨r1_x, k1_pay3 (View.ld x0 r1_x) (View.ld x1 r1_wu) (View.ld x2 r1_bu)⟩]

/-- Window 8 (gate): the right column half of the same u. -/
def out1_8 (x0 : Vec F S512x768 .f32) (x1 : Vec F S1536x768 .bf16) (x2 : Vec F S1x1536 .f32) : Vec F S512x768 .f32 :=
  View.canon [⟨r1_x, k1_pay4 (View.ld x0 r1_x) (View.ld x1 r1_wu) (View.ld x2 r1_bu)⟩]

/-- Window 9 (q): z·(scale row 0) + (offset row 0), z = (x·Wzᵀ + bz)·logistic(x·Wzᵀ + bz). -/
def out1_9 (x0 : Vec F S512x768 .f32) (x3 : Vec F S200x768 .bf16) (x4 : Vec F S1x200 .f32) (x5 : Vec F S2x200 .f32) (x6 : Vec F S2x200 .f32) :
    Vec F S512x200 .f32 :=
  View.canon [⟨r1_z, k1_pay8 (View.ld x0 r1_x) (View.ld x3 r1_wz) (View.ld x4 r1_bz) (View.ld x5 r1_row0) (View.ld x6 r1_row0)⟩]

/-- Window 10 (k): z·(scale row 1) + (offset row 1). -/
def out1_10 (x0 : Vec F S512x768 .f32) (x3 : Vec F S200x768 .bf16) (x4 : Vec F S1x200 .f32) (x5 : Vec F S2x200 .f32) (x6 : Vec F S2x200 .f32) :
    Vec F S512x200 .f32 :=
  View.canon [⟨r1_z, k1_pay1 (k1_pay5 (View.ld x0 r1_x) (View.ld x3 r1_wz) (View.ld x4 r1_bz)) (k1_pay6 (View.ld x5 r1_row1)) (k1_pay7 (View.ld x6 r1_row1))⟩]

/-- Each store is its whole buffer, so it covers it. -/
theorem cover1_768 (p0 : Vec F S512x768 .f32) (y : S512x768.Idx) :
    ∃ pc ∈ ([⟨r1_x, p0⟩] : List (View.Piece (Elt F) S512x768 .f32)), y ∈ pc.1.set :=
  View.cover_of_tiled [⟨r1_x, p0⟩] S512x768.size (by rfl) y
theorem cover1_200 (p0 : Vec F S512x200 .f32) (y : S512x200.Idx) :
    ∃ pc ∈ ([⟨r1_z, p0⟩] : List (View.Piece (Elt F) S512x200 .f32)), y ∈ pc.1.set :=
  View.cover_of_tiled [⟨r1_z, p0⟩] S512x200.size (by rfl) y

/-! ## The body's triple -/

set_option maxHeartbeats 4000000 in
/-- The kernel body on whole staging memrefs, the inputs' at read contents `xW` and the outputs' at anything, runs to
    the continuation holding the inputs' as they were and each output's at `out1_W` of the inputs'. -/
theorem sound_kernel1 (c : Dev nD) (E : Set ℕ) (i : grid1.Coords)
    (arg1 : Memref sig .tc .vmem S512x768 .f32) (harg1 : arg1.IsWhole)
    (arg2 : Memref sig .tc .vmem S1536x768 .bf16) (harg2 : arg2.IsWhole)
    (arg3 : Memref sig .tc .vmem S1x1536 .f32) (harg3 : arg3.IsWhole)
    (arg4 : Memref sig .tc .vmem S200x768 .bf16) (harg4 : arg4.IsWhole)
    (arg5 : Memref sig .tc .vmem S1x200 .f32) (harg5 : arg5.IsWhole)
    (arg6 : Memref sig .tc .vmem S2x200 .f32) (harg6 : arg6.IsWhole)
    (arg7 : Memref sig .tc .vmem S2x200 .f32) (harg7 : arg7.IsWhole)
    (arg8 : Memref sig .tc .vmem S512x768 .f32) (harg8 : arg8.IsWhole)
    (arg9 : Memref sig .tc .vmem S512x768 .f32) (harg9 : arg9.IsWhole)
    (arg10 : Memref sig .tc .vmem S512x200 .f32) (harg10 : arg10.IsWhole)
    (arg11 : Memref sig .tc .vmem S512x200 .f32) (harg11 : arg11.IsWhole)
    (x0 : Vec F S512x768 .f32) (x1 : Vec F S1536x768 .bf16) (x2 : Vec F S1x1536 .f32) (x3 : Vec F S200x768 .bf16) (x4 : Vec F S1x200 .f32) (x5 : Vec F S2x200 .f32) (x6 : Vec F S2x200 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out1_7 x0 x1 x2) ∗ owns (c : Thread nD τ) arg9 fullShare (out1_8 x0 x1 x2)
            ∗ owns (c : Thread nD τ) arg10 fullShare (out1_9 x0 x3 x4 x5 x6) ∗ owns (c : Thread nD τ) arg11 fullShare (out1_10 x0 x3 x4 x5 x6)) -∗ K ⟨⟩))
      ⊢ wp frame (wpE (defs₀ (F := F)) Variants.none c none) E (cc1_kernel i arg1 harg1 arg2 harg2 arg3 harg3 arg4 harg4 arg5 harg5 arg6 harg6 arg7 harg7 arg8 harg8 arg9 harg9 arg10 harg10 arg11 harg11) K := by
  simp only [cc1_kernel_eq_skeleton]; unfold cc1_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover1_768 _)
  isplitl [H8]
  · iexists _; isplitr
    swap; · iexact H8
    ipureintro
    exact View.read_writes_eq_canon _ _ _ (cover1_768 _)
  isplitl [H9]
  · iexists _; isplitr
    swap; · iexact H9
    ipureintro
    exact View.read_writes_eq_canon _ _ _ (cover1_200 _)
  iexists _; isplitr
  swap; · iexact H10
  ipureintro
  exact View.read_writes_eq_canon _ _ _ (cover1_200 _)

/-! ## The pipeline's proof data -/

/-- The proof data of pipeline 1 on core `c`: the arrays as the region finds them (`V`); after the body at
    point `t` each input's buffer at its block and each output's at `out1_W` of the input blocks; the invariant the
    scoped rest and the generator register, untouched; nothing owed; every array read through one window, at the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t)
    | ⟨8, _⟩ => out1_8 (iblk1 V c 0 t) (iblk1 V c 1 t) (iblk1 V c 2 t)
    | ⟨9, _⟩ => out1_9 (iblk1 V c 0 t) (iblk1 V c 3 t) (iblk1 V c 4 t) (iblk1 V c 5 t) (iblk1 V c 6 t)
    | ⟨10, _⟩ => out1_10 (iblk1 V c 0 t) (iblk1 V c 3 t) (iblk1 V c 4 t) (iblk1 V c 5 t) (iblk1 V c 6 t)
  Φ _ := Pipeline.ΦA spec1 c
  q w := match w with
    | ⟨0, _⟩ => fullShare
    | ⟨1, _⟩ => fullShare
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) :
    (dat1 V c).after 7 t = out1_7 (iblk1 V c 0 t) (iblk1 V c 1 t) (iblk1 V c 2 t) := by dsimp only [dat1]
theorem after1_8 (c : Dev nD) (t : Fin cfg1.N) :
    (dat1 V c).after 8 t = out1_8 (iblk1 V c 0 t) (iblk1 V c 1 t) (iblk1 V c 2 t) := by dsimp only [dat1]
theorem after1_9 (c : Dev nD) (t : Fin cfg1.N) :
    (dat1 V c).after 9 t = out1_9 (iblk1 V c 0 t) (iblk1 V c 3 t) (iblk1 V c 4 t) (iblk1 V c 5 t) (iblk1 V c 6 t) := by dsimp only [dat1]
theorem after1_10 (c : Dev nD) (t : Fin cfg1.N) :
    (dat1 V c).after 10 t = out1_10 (iblk1 V c 0 t) (iblk1 V c 3 t) (iblk1 V c 4 t) (iblk1 V c 5 t) (iblk1 V c 6 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel1 c Set.univ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Region2Runs.lean ====
import proofs.«170994_j15857019257044_2_alg».proof.Proof.Gen.KernelIdeal.Launch
import proofs.«170994_j15857019257044_2_alg».proof.Proof.Gen.KernelIdeal.Skeleton
import proofs.«170994_j15857019257044_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! # The flash-attention call (pipeline 2): what its three control cases share -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## An input's current staging buffer holds its block at every point, fetched there or not:
    an unfetched window's block index has not moved, so the block of the point before is this point's. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)
theorem before2_10_of {c : Dev nD} (dat : Dat τ (Elt F) Unit ℕ (UR sig nD τ) ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)
theorem before2_11_of {c : Dev nD} (dat : Dat τ (Elt F) Unit ℕ (UR sig nD τ) ℕ cfg2 c) (hA : dat.A 11 = V c (Pipeline.arrRef spec2 11))
    (hafter : ∀ t, dat.after 11 t = iblk2 V c 11 t) (t : Fin cfg2.N) (d) : dat.before 11 t d = iblk2 V c 11 t :=
  (dat.before_in_eq_fetched 11 rfl (fun _ => rfl) (fun _ _ _ => rfl) (fun t => by rw [hafter]; unfold Dat.blockOf iblk2; rw [hA]; try rfl) t d).trans
    (by unfold Dat.fetched Dat.blockOf iblk2; rw [hA]; try rfl)

/-! ## The body's two branch conditions, decided over the grid

The second grid coordinate `j` is the key tile; the point number is `8 i + j`. -/

/-- The first conditional (initialise the running maximum, the normaliser and the accumulator) is taken when `j = 0`. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)

/-- The second conditional (normalise, project and store the two outputs) is taken when `j = 7`. -/
abbrev cond2_1 (i : grid2.Coords) : Prop := k2_cond2 i = 1#1
theorem hcond2_1 : ∀ t : Fin cfg2.N, cond2_1 (grid2.coords t) ↔ t.val % 8 = 7 :=
  (by decide +kernel : ∀ t : Fin grid2.N, cond2_1 (grid2.coords t) ↔ t.val % 8 = 7)

/-! ## Where the windows are idle -/
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun _ => rfl
theorem liveAt2_5 : ∀ t : Fin cfg2.N, cfg2.idle 5 (grid2.coords t) = false := fun _ => rfl
theorem liveAt2_6 : ∀ t : Fin cfg2.N, cfg2.idle 6 (grid2.coords t) = false := fun _ => rfl
theorem liveAt2_7 : ∀ t : Fin cfg2.N, cfg2.idle 7 (grid2.coords t) = false := fun _ => rfl
theorem liveAt2_8 : ∀ t : Fin cfg2.N, cfg2.idle 8 (grid2.coords t) = false := fun _ => rfl
theorem liveAt2_9 : ∀ t : Fin cfg2.N, cfg2.idle 9 (grid2.coords t) = false := fun _ => rfl
theorem liveAt2_10 : ∀ t : Fin cfg2.N, cfg2.idle 10 (grid2.coords t) = false := fun _ => rfl
theorem liveAt2_11 : ∀ t : Fin cfg2.N, cfg2.idle 11 (grid2.coords t) = false := fun _ => rfl
/-- Where `j ≠ 7` nothing is stored into output 12: the window is idle there and its block is not written back. -/
theorem idleAt2_12 : ∀ t : Fin cfg2.N, ¬cond2_1 (grid2.coords t) → cfg2.idle 12 (grid2.coords t) = true := by decide +kernel
theorem noFlush2_12 : ∀ t : Fin cfg2.N, ¬cond2_1 (grid2.coords t) → (cfg2.win 12).flush t = false := by decide +kernel
/-- Where `j = 7` output 12 is stored whole. -/
theorem liveAt2_12 : ∀ t : Fin cfg2.N, cond2_1 (grid2.coords t) → cfg2.idle 12 (grid2.coords t) = false := by decide +kernel
/-- Where `j ≠ 7` nothing is stored into output 13: the window is idle there and its block is not written back. -/
theorem idleAt2_13 : ∀ t : Fin cfg2.N, ¬cond2_1 (grid2.coords t) → cfg2.idle 13 (grid2.coords t) = true := by decide +kernel
theorem noFlush2_13 : ∀ t : Fin cfg2.N, ¬cond2_1 (grid2.coords t) → (cfg2.win 13).flush t = false := by decide +kernel
/-- Where `j = 7` output 13 is stored whole. -/
theorem liveAt2_13 : ∀ t : Fin cfg2.N, cond2_1 (grid2.coords t) → cfg2.idle 13 (grid2.coords t) = false := by decide +kernel

/-! ## The memrefs the body is called with -/

/-- One staging buffer of each output window, through which its contents are stated (the choice does not matter). -/
abbrev VO2_12 : View sig .tc .vmem S512x256 .f32 := (Memref.whole cc2_stg12_0 : Memref sig .tc .vmem S512x256 .f32).view
abbrev VO2_13 : View sig .tc .vmem S512x256 .f32 := (Memref.whole cc2_stg13_0 : Memref sig .tc .vmem S512x256 .f32).view
abbrev ms2_0 (t : Fin cfg2.N) : Memref sig .tc .vmem S512x768 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x768 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x200 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S512x200 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S512x768 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S512x768 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S768x768 .bf16 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x768 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S256x768 .bf16 := win2_8.stage (cfg2.slots t 8)
abbrev hs2_8 (t : Fin cfg2.N) : (ms2_8 t).IsWhole := hstage2_8 ((cfg2.slots t 8).cast nbuf2_8)
abbrev ms2_9 (t : Fin cfg2.N) : Memref sig .tc .vmem S1x256 .f32 := win2_9.stage (cfg2.slots t 9)
abbrev hs2_9 (t : Fin cfg2.N) : (ms2_9 t).IsWhole := hstage2_9 ((cfg2.slots t 9).cast nbuf2_9)
abbrev ms2_10 (t : Fin cfg2.N) : Memref sig .tc .vmem S256x768 .bf16 := win2_10.stage (cfg2.slots t 10)
abbrev hs2_10 (t : Fin cfg2.N) : (ms2_10 t).IsWhole := hstage2_10 ((cfg2.slots t 10).cast nbuf2_10)
abbrev ms2_11 (t : Fin cfg2.N) : Memref sig .tc .vmem S1x256 .f32 := win2_11.stage (cfg2.slots t 11)
abbrev hs2_11 (t : Fin cfg2.N) : (ms2_11 t).IsWhole := hstage2_11 ((cfg2.slots t 11).cast nbuf2_11)
abbrev ms2_12 (t : Fin cfg2.N) : Memref sig .tc .vmem S512x256 .f32 := win2_12.stage (cfg2.slots t 12)
abbrev hs2_12 (t : Fin cfg2.N) : (ms2_12 t).IsWhole := hstage2_12 ((cfg2.slots t 12).cast nbuf2_12)
abbrev ms2_13 (t : Fin cfg2.N) : Memref sig .tc .vmem S512x256 .f32 := win2_13.stage (cfg2.slots t 13)
abbrev hs2_13 (t : Fin cfg2.N) : (ms2_13 t).IsWhole := hstage2_13 ((cfg2.slots t 13).cast nbuf2_13)
/-- Scratch operand 0: a whole scoped buffer of the call's own, carried from point to point. -/
abbrev scM2_0 : Memref sig .tc .vmem S512x1 .f32 := Memref.whole cc2_scratch0
abbrev VS2_0 : View sig .tc .vmem S512x1 .f32 := scM2_0.view
/-- Scratch operand 1: a whole scoped buffer of the call's own, carried from point to point. -/
abbrev scM2_1 : Memref sig .tc .vmem S512x1 .f32 := Memref.whole cc2_scratch1
abbrev VS2_1 : View sig .tc .vmem S512x1 .f32 := scM2_1.view
/-- Scratch operand 2: a whole scoped buffer of the call's own, carried from point to point. -/
abbrev scM2_2 : Memref sig .tc .vmem S512x768 .f32 := Memref.whole cc2_scratch2
abbrev VS2_2 : View sig .tc .vmem S512x768 .f32 := scM2_2.view

/-- What the region is handed beside its windows: the three scratch operands at some contents, the rest of the scoped
    buffers unopened, and the generator register. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d) ∗ (∃ d, owns (c : Thread nD τ) scM2_2 fullShare d))
          ∗ Pipeline.scopedRestBut (Ix := Unit) (Name := ℕ) (U := UR sig nD τ) (Lvl := ℕ) (Val := Elt F) spec2 c [cc2_scratch0, cc2_scratch1, cc2_scratch2]) ∗ (∃ r, prngReg c r)) := by
  unfold Pipeline.ΦA; rw [scopedRest2_split]; simp only [scM2_0, scM2_1, scM2_2, owns_whole]; try rfl

end Cert.KernelIdeal.Hand

end
-- ==== Proof.KI.Region2RunA.lean ====
import proofs.«170994_j15857019257044_2_alg».proof.Proof.KI.Region2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body's triple at the first key tile (`j = 0`): the three scratch operands are initialised, then updated; the outputs are left untouched. On whole memrefs, the inputs' at their
    contents, the body runs to the continuation holding the inputs' as they were and every buffer it stores into with
    its stores written, as pieces (last first): the pieces are the witness the symbolic run finds. -/
noncomputable def kernelRun2_A (c : Dev nD) (i : grid2.Coords) (arg2 : Memref sig .tc .vmem S512x768 .f32) (harg2 : arg2.IsWhole) (arg3 : Memref sig .tc .vmem S512x768 .f32) (harg3 : arg3.IsWhole) (arg4 : Memref sig .tc .vmem S512x200 .f32) (harg4 : arg4.IsWhole) (arg5 : Memref sig .tc .vmem S512x200 .f32) (harg5 : arg5.IsWhole) (arg6 : Memref sig .tc .vmem S512x768 .f32) (harg6 : arg6.IsWhole) (arg7 : Memref sig .tc .vmem S512x768 .f32) (harg7 : arg7.IsWhole) (arg8 : Memref sig .tc .vmem S768x768 .bf16) (harg8 : arg8.IsWhole) (arg9 : Memref sig .tc .vmem S1x768 .f32) (harg9 : arg9.IsWhole) (arg10 : Memref sig .tc .vmem S256x768 .bf16) (harg10 : arg10.IsWhole) (arg11 : Memref sig .tc .vmem S1x256 .f32) (harg11 : arg11.IsWhole) (arg12 : Memref sig .tc .vmem S256x768 .bf16) (harg12 : arg12.IsWhole) (arg13 : Memref sig .tc .vmem S1x256 .f32) (harg13 : arg13.IsWhole) (arg14 : Memref sig .tc .vmem S512x256 .f32) (harg14 : arg14.IsWhole) (arg15 : Memref sig .tc .vmem S512x256 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x768 .f32) (harg18 : arg18.IsWhole) (hc0 : cond2_0 i) (hc1 : ¬cond2_1 i)
    (x0 : Vec F S512x768 .f32) (x1 : Vec F S512x768 .f32) (x2 : Vec F S512x200 .f32) (x3 : Vec F S512x200 .f32) (x4 : Vec F S512x768 .f32) (x5 : Vec F S512x768 .f32) (x6 : Vec F S768x768 .bf16) (x7 : Vec F S1x768 .f32) (x8 : Vec F S256x768 .bf16) (x9 : Vec F S1x256 .f32) (x10 : Vec F S256x768 .bf16) (x11 : Vec F S1x256 .f32) :
    Σ' (LS0 : List (View.Piece (Elt F) S512x1 .f32)) (LS1 : List (View.Piece (Elt F) S512x1 .f32)), { LS2 : List (View.Piece (Elt F) S512x768 .f32) //
      ∀ (xi12 : Vec F S512x256 .f32) (xi13 : Vec F S512x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xi12 ∗ owns (c : Thread nD τ) arg15 fullShare xi13 ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xi12 ∗ owns (c : Thread nD τ) arg15 fullShare xi13 ∗ (∃ f, arg16.view.loc (c : Thread nD τ) ↦[arg16.view.set]{fullShare} arg16.view.writes (Elt F) f LS0) ∗ (∃ f, arg17.view.loc (c : Thread nD τ) ↦[arg17.view.set]{fullShare} arg17.view.writes (Elt F) f LS1) ∗ (∃ f, arg18.view.loc (c : Thread nD τ) ↦[arg18.view.set]{fullShare} arg18.view.writes (Elt F) f LS2)) -∗ K ⟨⟩))
          ⊢ wp frame (wpE (defs₀ (F := F)) Variants.none c none) E (cc2_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, fun xi12 xi13 E K => ?run⟩
  case run =>
    simp only [cc2_kernel_eq_skeleton]; unfold cc2_kernel_skel
    simp only [k2_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [HS0]; · iexists _; iexact HS0
    isplitl [HS1]; · iexists _; iexact HS1
    iexists _; iexact HS2

end Cert.KernelIdeal.Hand

end
-- ==== Proof.KI.Region2RunB.lean ====
import proofs.«170994_j15857019257044_2_alg».proof.Proof.KI.Region2RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body's triple at an inner key tile (`0 < j < 7`): the three scratch operands, at what the tile before left, are updated; the outputs are left untouched. On whole memrefs, the inputs' at their
    contents, the body runs to the continuation holding the inputs' as they were and every buffer it stores into with
    its stores written, as pieces (last first): the pieces are the witness the symbolic run finds. -/
noncomputable def kernelRun2_B (c : Dev nD) (i : grid2.Coords) (arg2 : Memref sig .tc .vmem S512x768 .f32) (harg2 : arg2.IsWhole) (arg3 : Memref sig .tc .vmem S512x768 .f32) (harg3 : arg3.IsWhole) (arg4 : Memref sig .tc .vmem S512x200 .f32) (harg4 : arg4.IsWhole) (arg5 : Memref sig .tc .vmem S512x200 .f32) (harg5 : arg5.IsWhole) (arg6 : Memref sig .tc .vmem S512x768 .f32) (harg6 : arg6.IsWhole) (arg7 : Memref sig .tc .vmem S512x768 .f32) (harg7 : arg7.IsWhole) (arg8 : Memref sig .tc .vmem S768x768 .bf16) (harg8 : arg8.IsWhole) (arg9 : Memref sig .tc .vmem S1x768 .f32) (harg9 : arg9.IsWhole) (arg10 : Memref sig .tc .vmem S256x768 .bf16) (harg10 : arg10.IsWhole) (arg11 : Memref sig .tc .vmem S1x256 .f32) (harg11 : arg11.IsWhole) (arg12 : Memref sig .tc .vmem S256x768 .bf16) (harg12 : arg12.IsWhole) (arg13 : Memref sig .tc .vmem S1x256 .f32) (harg13 : arg13.IsWhole) (arg14 : Memref sig .tc .vmem S512x256 .f32) (harg14 : arg14.IsWhole) (arg15 : Memref sig .tc .vmem S512x256 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x768 .f32) (harg18 : arg18.IsWhole) (hc0 : ¬cond2_0 i) (hc1 : ¬cond2_1 i)
    (x0 : Vec F S512x768 .f32) (x1 : Vec F S512x768 .f32) (x2 : Vec F S512x200 .f32) (x3 : Vec F S512x200 .f32) (x4 : Vec F S512x768 .f32) (x5 : Vec F S512x768 .f32) (x6 : Vec F S768x768 .bf16) (x7 : Vec F S1x768 .f32) (x8 : Vec F S256x768 .bf16) (x9 : Vec F S1x256 .f32) (x10 : Vec F S256x768 .bf16) (x11 : Vec F S1x256 .f32) (xs0 : Vec F S512x1 .f32) (xs1 : Vec F S512x1 .f32) (xs2 : Vec F S512x768 .f32) :
    Σ' (LS0 : List (View.Piece (Elt F) S512x1 .f32)) (LS1 : List (View.Piece (Elt F) S512x1 .f32)), { LS2 : List (View.Piece (Elt F) S512x768 .f32) //
      ∀ (xi12 : Vec F S512x256 .f32) (xi13 : Vec F S512x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xi12 ∗ owns (c : Thread nD τ) arg15 fullShare xi13 ∗ owns (c : Thread nD τ) arg16 fullShare xs0 ∗ owns (c : Thread nD τ) arg17 fullShare xs1 ∗ owns (c : Thread nD τ) arg18 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xi12 ∗ owns (c : Thread nD τ) arg15 fullShare xi13 ∗ (∃ f, arg16.view.loc (c : Thread nD τ) ↦[arg16.view.set]{fullShare} arg16.view.writes (Elt F) f LS0) ∗ (∃ f, arg17.view.loc (c : Thread nD τ) ↦[arg17.view.set]{fullShare} arg17.view.writes (Elt F) f LS1) ∗ (∃ f, arg18.view.loc (c : Thread nD τ) ↦[arg18.view.set]{fullShare} arg18.view.writes (Elt F) f LS2)) -∗ K ⟨⟩))
          ⊢ wp frame (wpE (defs₀ (F := F)) Variants.none c none) E (cc2_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, fun xi12 xi13 E K => ?run⟩
  case run =>
    simp only [cc2_kernel_eq_skeleton]; unfold cc2_kernel_skel
    simp only [k2_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hfs0; obtain rfl := harg17.eq_unread hfs1; obtain rfl := harg18.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [HS0]; · iexists _; iexact HS0
    isplitl [HS1]; · iexists _; iexact HS1
    iexists _; iexact HS2

end Cert.KernelIdeal.Hand

end
-- ==== Proof.KI.Region2RunC.lean ====
import proofs.«170994_j15857019257044_2_alg».proof.Proof.KI.Region2RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body's triple at the last key tile (`j = 7`): the three scratch operands are updated, then the two outputs are computed from them and stored whole. On whole memrefs, the inputs' at their
    contents, the body runs to the continuation holding the inputs' as they were and every buffer it stores into with
    its stores written, as pieces (last first): the pieces are the witness the symbolic run finds. -/
noncomputable def kernelRun2_C (c : Dev nD) (i : grid2.Coords) (arg2 : Memref sig .tc .vmem S512x768 .f32) (harg2 : arg2.IsWhole) (arg3 : Memref sig .tc .vmem S512x768 .f32) (harg3 : arg3.IsWhole) (arg4 : Memref sig .tc .vmem S512x200 .f32) (harg4 : arg4.IsWhole) (arg5 : Memref sig .tc .vmem S512x200 .f32) (harg5 : arg5.IsWhole) (arg6 : Memref sig .tc .vmem S512x768 .f32) (harg6 : arg6.IsWhole) (arg7 : Memref sig .tc .vmem S512x768 .f32) (harg7 : arg7.IsWhole) (arg8 : Memref sig .tc .vmem S768x768 .bf16) (harg8 : arg8.IsWhole) (arg9 : Memref sig .tc .vmem S1x768 .f32) (harg9 : arg9.IsWhole) (arg10 : Memref sig .tc .vmem S256x768 .bf16) (harg10 : arg10.IsWhole) (arg11 : Memref sig .tc .vmem S1x256 .f32) (harg11 : arg11.IsWhole) (arg12 : Memref sig .tc .vmem S256x768 .bf16) (harg12 : arg12.IsWhole) (arg13 : Memref sig .tc .vmem S1x256 .f32) (harg13 : arg13.IsWhole) (arg14 : Memref sig .tc .vmem S512x256 .f32) (harg14 : arg14.IsWhole) (arg15 : Memref sig .tc .vmem S512x256 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x768 .f32) (harg18 : arg18.IsWhole) (hc0 : ¬cond2_0 i) (hc1 : cond2_1 i)
    (x0 : Vec F S512x768 .f32) (x1 : Vec F S512x768 .f32) (x2 : Vec F S512x200 .f32) (x3 : Vec F S512x200 .f32) (x4 : Vec F S512x768 .f32) (x5 : Vec F S512x768 .f32) (x6 : Vec F S768x768 .bf16) (x7 : Vec F S1x768 .f32) (x8 : Vec F S256x768 .bf16) (x9 : Vec F S1x256 .f32) (x10 : Vec F S256x768 .bf16) (x11 : Vec F S1x256 .f32) (xs0 : Vec F S512x1 .f32) (xs1 : Vec F S512x1 .f32) (xs2 : Vec F S512x768 .f32) :
    Σ' (L12 : List (View.Piece (Elt F) S512x256 .f32)) (L13 : List (View.Piece (Elt F) S512x256 .f32)) (LS0 : List (View.Piece (Elt F) S512x1 .f32)) (LS1 : List (View.Piece (Elt F) S512x1 .f32)), { LS2 : List (View.Piece (Elt F) S512x768 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ owns (c : Thread nD τ) arg16 fullShare xs0 ∗ owns (c : Thread nD τ) arg17 fullShare xs1 ∗ owns (c : Thread nD τ) arg18 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f LS0) ∗ (∃ f, arg17.view.loc (c : Thread nD τ) ↦[arg17.view.set]{fullShare} arg17.view.writes (Elt F) f LS1) ∗ (∃ f, arg18.view.loc (c : Thread nD τ) ↦[arg18.view.set]{fullShare} arg18.view.writes (Elt F) f LS2)) -∗ K ⟨⟩))
          ⊢ wp frame (wpE (defs₀ (F := F)) Variants.none c none) E (cc2_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, fun E K => ?run⟩
  case run =>
    simp only [cc2_kernel_eq_skeleton]; unfold cc2_kernel_skel
    simp only [k2_part2_eq_skeleton, k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg16.eq_unread hfs0; obtain rfl := harg17.eq_unread hfs1; obtain rfl := harg18.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    isplitl [H13]; · iexists _; iexact H13
    isplitl [HS0]; · iexists _; iexact HS0
    isplitl [HS1]; · iexists _; iexact HS1
    iexists _; iexact HS2

end Cert.KernelIdeal.Hand

end
-- ==== Proof.KI.Region2Outs.lean ====
import proofs.«170994_j15857019257044_2_alg».proof.Proof.KI.Region2RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! # Each case's stores cover the buffers they are made into

Every store of the body writes a whole buffer, so the pieces a case leaves in a buffer tile it. -/

theorem cover2_A_S0 (c : Dev nD) (i : grid2.Coords) (arg2 : Memref sig .tc .vmem S512x768 .f32) (harg2 : arg2.IsWhole) (arg3 : Memref sig .tc .vmem S512x768 .f32) (harg3 : arg3.IsWhole) (arg4 : Memref sig .tc .vmem S512x200 .f32) (harg4 : arg4.IsWhole) (arg5 : Memref sig .tc .vmem S512x200 .f32) (harg5 : arg5.IsWhole) (arg6 : Memref sig .tc .vmem S512x768 .f32) (harg6 : arg6.IsWhole) (arg7 : Memref sig .tc .vmem S512x768 .f32) (harg7 : arg7.IsWhole) (arg8 : Memref sig .tc .vmem S768x768 .bf16) (harg8 : arg8.IsWhole) (arg9 : Memref sig .tc .vmem S1x768 .f32) (harg9 : arg9.IsWhole) (arg10 : Memref sig .tc .vmem S256x768 .bf16) (harg10 : arg10.IsWhole) (arg11 : Memref sig .tc .vmem S1x256 .f32) (harg11 : arg11.IsWhole) (arg12 : Memref sig .tc .vmem S256x768 .bf16) (harg12 : arg12.IsWhole) (arg13 : Memref sig .tc .vmem S1x256 .f32) (harg13 : arg13.IsWhole) (arg14 : Memref sig .tc .vmem S512x256 .f32) (harg14 : arg14.IsWhole) (arg15 : Memref sig .tc .vmem S512x256 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x768 .f32) (harg18 : arg18.IsWhole) (hc0 : cond2_0 i) (hc1 : ¬cond2_1 i)
    (x0 : Vec F S512x768 .f32) (x1 : Vec F S512x768 .f32) (x2 : Vec F S512x200 .f32) (x3 : Vec F S512x200 .f32) (x4 : Vec F S512x768 .f32) (x5 : Vec F S512x768 .f32) (x6 : Vec F S768x768 .bf16) (x7 : Vec F S1x768 .f32) (x8 : Vec F S256x768 .bf16) (x9 : Vec F S1x256 .f32) (x10 : Vec F S256x768 .bf16) (x11 : Vec F S1x256 .f32) (y : S512x1.Idx) :
    ∃ pc ∈ (kernelRun2_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11).1, y ∈ pc.1.set :=
  View.cover_of_tiledL (kernelRun2_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11).1 S512x1.size (by sl_kernel_rfl) y

theorem cover2_A_S1 (c : Dev nD) (i : grid2.Coords) (arg2 : Memref sig .tc .vmem S512x768 .f32) (harg2 : arg2.IsWhole) (arg3 : Memref sig .tc .vmem S512x768 .f32) (harg3 : arg3.IsWhole) (arg4 : Memref sig .tc .vmem S512x200 .f32) (harg4 : arg4.IsWhole) (arg5 : Memref sig .tc .vmem S512x200 .f32) (harg5 : arg5.IsWhole) (arg6 : Memref sig .tc .vmem S512x768 .f32) (harg6 : arg6.IsWhole) (arg7 : Memref sig .tc .vmem S512x768 .f32) (harg7 : arg7.IsWhole) (arg8 : Memref sig .tc .vmem S768x768 .bf16) (harg8 : arg8.IsWhole) (arg9 : Memref sig .tc .vmem S1x768 .f32) (harg9 : arg9.IsWhole) (arg10 : Memref sig .tc .vmem S256x768 .bf16) (harg10 : arg10.IsWhole) (arg11 : Memref sig .tc .vmem S1x256 .f32) (harg11 : arg11.IsWhole) (arg12 : Memref sig .tc .vmem S256x768 .bf16) (harg12 : arg12.IsWhole) (arg13 : Memref sig .tc .vmem S1x256 .f32) (harg13 : arg13.IsWhole) (arg14 : Memref sig .tc .vmem S512x256 .f32) (harg14 : arg14.IsWhole) (arg15 : Memref sig .tc .vmem S512x256 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x768 .f32) (harg18 : arg18.IsWhole) (hc0 : cond2_0 i) (hc1 : ¬cond2_1 i)
    (x0 : Vec F S512x768 .f32) (x1 : Vec F S512x768 .f32) (x2 : Vec F S512x200 .f32) (x3 : Vec F S512x200 .f32) (x4 : Vec F S512x768 .f32) (x5 : Vec F S512x768 .f32) (x6 : Vec F S768x768 .bf16) (x7 : Vec F S1x768 .f32) (x8 : Vec F S256x768 .bf16) (x9 : Vec F S1x256 .f32) (x10 : Vec F S256x768 .bf16) (x11 : Vec F S1x256 .f32) (y : S512x1.Idx) :
    ∃ pc ∈ (kernelRun2_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11).2.1, y ∈ pc.1.set :=
  View.cover_of_tiledL (kernelRun2_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11).2.1 S512x1.size (by sl_kernel_rfl) y

theorem cover2_A_S2 (c : Dev nD) (i : grid2.Coords) (arg2 : Memref sig .tc .vmem S512x768 .f32) (harg2 : arg2.IsWhole) (arg3 : Memref sig .tc .vmem S512x768 .f32) (harg3 : arg3.IsWhole) (arg4 : Memref sig .tc .vmem S512x200 .f32) (harg4 : arg4.IsWhole) (arg5 : Memref sig .tc .vmem S512x200 .f32) (harg5 : arg5.IsWhole) (arg6 : Memref sig .tc .vmem S512x768 .f32) (harg6 : arg6.IsWhole) (arg7 : Memref sig .tc .vmem S512x768 .f32) (harg7 : arg7.IsWhole) (arg8 : Memref sig .tc .vmem S768x768 .bf16) (harg8 : arg8.IsWhole) (arg9 : Memref sig .tc .vmem S1x768 .f32) (harg9 : arg9.IsWhole) (arg10 : Memref sig .tc .vmem S256x768 .bf16) (harg10 : arg10.IsWhole) (arg11 : Memref sig .tc .vmem S1x256 .f32) (harg11 : arg11.IsWhole) (arg12 : Memref sig .tc .vmem S256x768 .bf16) (harg12 : arg12.IsWhole) (arg13 : Memref sig .tc .vmem S1x256 .f32) (harg13 : arg13.IsWhole) (arg14 : Memref sig .tc .vmem S512x256 .f32) (harg14 : arg14.IsWhole) (arg15 : Memref sig .tc .vmem S512x256 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x768 .f32) (harg18 : arg18.IsWhole) (hc0 : cond2_0 i) (hc1 : ¬cond2_1 i)
    (x0 : Vec F S512x768 .f32) (x1 : Vec F S512x768 .f32) (x2 : Vec F S512x200 .f32) (x3 : Vec F S512x200 .f32) (x4 : Vec F S512x768 .f32) (x5 : Vec F S512x768 .f32) (x6 : Vec F S768x768 .bf16) (x7 : Vec F S1x768 .f32) (x8 : Vec F S256x768 .bf16) (x9 : Vec F S1x256 .f32) (x10 : Vec F S256x768 .bf16) (x11 : Vec F S1x256 .f32) (y : S512x768.Idx) :
    ∃ pc ∈ (kernelRun2_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11).2.2.1, y ∈ pc.1.set :=
  View.cover_of_tiledL (kernelRun2_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11).2.2.1 S512x768.size (by sl_kernel_rfl) y

theorem cover2_B_S0 (c : Dev nD) (i : grid2.Coords) (arg2 : Memref sig .tc .vmem S512x768 .f32) (harg2 : arg2.IsWhole) (arg3 : Memref sig .tc .vmem S512x768 .f32) (harg3 : arg3.IsWhole) (arg4 : Memref sig .tc .vmem S512x200 .f32) (harg4 : arg4.IsWhole) (arg5 : Memref sig .tc .vmem S512x200 .f32) (harg5 : arg5.IsWhole) (arg6 : Memref sig .tc .vmem S512x768 .f32) (harg6 : arg6.IsWhole) (arg7 : Memref sig .tc .vmem S512x768 .f32) (harg7 : arg7.IsWhole) (arg8 : Memref sig .tc .vmem S768x768 .bf16) (harg8 : arg8.IsWhole) (arg9 : Memref sig .tc .vmem S1x768 .f32) (harg9 : arg9.IsWhole) (arg10 : Memref sig .tc .vmem S256x768 .bf16) (harg10 : arg10.IsWhole) (arg11 : Memref sig .tc .vmem S1x256 .f32) (harg11 : arg11.IsWhole) (arg12 : Memref sig .tc .vmem S256x768 .bf16) (harg12 : arg12.IsWhole) (arg13 : Memref sig .tc .vmem S1x256 .f32) (harg13 : arg13.IsWhole) (arg14 : Memref sig .tc .vmem S512x256 .f32) (harg14 : arg14.IsWhole) (arg15 : Memref sig .tc .vmem S512x256 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x768 .f32) (harg18 : arg18.IsWhole) (hc0 : ¬cond2_0 i) (hc1 : ¬cond2_1 i)
    (x0 : Vec F S512x768 .f32) (x1 : Vec F S512x768 .f32) (x2 : Vec F S512x200 .f32) (x3 : Vec F S512x200 .f32) (x4 : Vec F S512x768 .f32) (x5 : Vec F S512x768 .f32) (x6 : Vec F S768x768 .bf16) (x7 : Vec F S1x768 .f32) (x8 : Vec F S256x768 .bf16) (x9 : Vec F S1x256 .f32) (x10 : Vec F S256x768 .bf16) (x11 : Vec F S1x256 .f32) (xs0 : Vec F S512x1 .f32) (xs1 : Vec F S512x1 .f32) (xs2 : Vec F S512x768 .f32) (y : S512x1.Idx) :
    ∃ pc ∈ (kernelRun2_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs0 xs1 xs2).1, y ∈ pc.1.set :=
  View.cover_of_tiledL (kernelRun2_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs0 xs1 xs2).1 S512x1.size (by sl_kernel_rfl) y

theorem cover2_B_S1 (c : Dev nD) (i : grid2.Coords) (arg2 : Memref sig .tc .vmem S512x768 .f32) (harg2 : arg2.IsWhole) (arg3 : Memref sig .tc .vmem S512x768 .f32) (harg3 : arg3.IsWhole) (arg4 : Memref sig .tc .vmem S512x200 .f32) (harg4 : arg4.IsWhole) (arg5 : Memref sig .tc .vmem S512x200 .f32) (harg5 : arg5.IsWhole) (arg6 : Memref sig .tc .vmem S512x768 .f32) (harg6 : arg6.IsWhole) (arg7 : Memref sig .tc .vmem S512x768 .f32) (harg7 : arg7.IsWhole) (arg8 : Memref sig .tc .vmem S768x768 .bf16) (harg8 : arg8.IsWhole) (arg9 : Memref sig .tc .vmem S1x768 .f32) (harg9 : arg9.IsWhole) (arg10 : Memref sig .tc .vmem S256x768 .bf16) (harg10 : arg10.IsWhole) (arg11 : Memref sig .tc .vmem S1x256 .f32) (harg11 : arg11.IsWhole) (arg12 : Memref sig .tc .vmem S256x768 .bf16) (harg12 : arg12.IsWhole) (arg13 : Memref sig .tc .vmem S1x256 .f32) (harg13 : arg13.IsWhole) (arg14 : Memref sig .tc .vmem S512x256 .f32) (harg14 : arg14.IsWhole) (arg15 : Memref sig .tc .vmem S512x256 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x768 .f32) (harg18 : arg18.IsWhole) (hc0 : ¬cond2_0 i) (hc1 : ¬cond2_1 i)
    (x0 : Vec F S512x768 .f32) (x1 : Vec F S512x768 .f32) (x2 : Vec F S512x200 .f32) (x3 : Vec F S512x200 .f32) (x4 : Vec F S512x768 .f32) (x5 : Vec F S512x768 .f32) (x6 : Vec F S768x768 .bf16) (x7 : Vec F S1x768 .f32) (x8 : Vec F S256x768 .bf16) (x9 : Vec F S1x256 .f32) (x10 : Vec F S256x768 .bf16) (x11 : Vec F S1x256 .f32) (xs0 : Vec F S512x1 .f32) (xs1 : Vec F S512x1 .f32) (xs2 : Vec F S512x768 .f32) (y : S512x1.Idx) :
    ∃ pc ∈ (kernelRun2_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs0 xs1 xs2).2.1, y ∈ pc.1.set :=
  View.cover_of_tiledL (kernelRun2_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs0 xs1 xs2).2.1 S512x1.size (by sl_kernel_rfl) y

theorem cover2_B_S2 (c : Dev nD) (i : grid2.Coords) (arg2 : Memref sig .tc .vmem S512x768 .f32) (harg2 : arg2.IsWhole) (arg3 : Memref sig .tc .vmem S512x768 .f32) (harg3 : arg3.IsWhole) (arg4 : Memref sig .tc .vmem S512x200 .f32) (harg4 : arg4.IsWhole) (arg5 : Memref sig .tc .vmem S512x200 .f32) (harg5 : arg5.IsWhole) (arg6 : Memref sig .tc .vmem S512x768 .f32) (harg6 : arg6.IsWhole) (arg7 : Memref sig .tc .vmem S512x768 .f32) (harg7 : arg7.IsWhole) (arg8 : Memref sig .tc .vmem S768x768 .bf16) (harg8 : arg8.IsWhole) (arg9 : Memref sig .tc .vmem S1x768 .f32) (harg9 : arg9.IsWhole) (arg10 : Memref sig .tc .vmem S256x768 .bf16) (harg10 : arg10.IsWhole) (arg11 : Memref sig .tc .vmem S1x256 .f32) (harg11 : arg11.IsWhole) (arg12 : Memref sig .tc .vmem S256x768 .bf16) (harg12 : arg12.IsWhole) (arg13 : Memref sig .tc .vmem S1x256 .f32) (harg13 : arg13.IsWhole) (arg14 : Memref sig .tc .vmem S512x256 .f32) (harg14 : arg14.IsWhole) (arg15 : Memref sig .tc .vmem S512x256 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x768 .f32) (harg18 : arg18.IsWhole) (hc0 : ¬cond2_0 i) (hc1 : ¬cond2_1 i)
    (x0 : Vec F S512x768 .f32) (x1 : Vec F S512x768 .f32) (x2 : Vec F S512x200 .f32) (x3 : Vec F S512x200 .f32) (x4 : Vec F S512x768 .f32) (x5 : Vec F S512x768 .f32) (x6 : Vec F S768x768 .bf16) (x7 : Vec F S1x768 .f32) (x8 : Vec F S256x768 .bf16) (x9 : Vec F S1x256 .f32) (x10 : Vec F S256x768 .bf16) (x11 : Vec F S1x256 .f32) (xs0 : Vec F S512x1 .f32) (xs1 : Vec F S512x1 .f32) (xs2 : Vec F S512x768 .f32) (y : S512x768.Idx) :
    ∃ pc ∈ (kernelRun2_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs0 xs1 xs2).2.2.1, y ∈ pc.1.set :=
  View.cover_of_tiledL (kernelRun2_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs0 xs1 xs2).2.2.1 S512x768.size (by sl_kernel_rfl) y

theorem cover2_C_O12 (c : Dev nD) (i : grid2.Coords) (arg2 : Memref sig .tc .vmem S512x768 .f32) (harg2 : arg2.IsWhole) (arg3 : Memref sig .tc .vmem S512x768 .f32) (harg3 : arg3.IsWhole) (arg4 : Memref sig .tc .vmem S512x200 .f32) (harg4 : arg4.IsWhole) (arg5 : Memref sig .tc .vmem S512x200 .f32) (harg5 : arg5.IsWhole) (arg6 : Memref sig .tc .vmem S512x768 .f32) (harg6 : arg6.IsWhole) (arg7 : Memref sig .tc .vmem S512x768 .f32) (harg7 : arg7.IsWhole) (arg8 : Memref sig .tc .vmem S768x768 .bf16) (harg8 : arg8.IsWhole) (arg9 : Memref sig .tc .vmem S1x768 .f32) (harg9 : arg9.IsWhole) (arg10 : Memref sig .tc .vmem S256x768 .bf16) (harg10 : arg10.IsWhole) (arg11 : Memref sig .tc .vmem S1x256 .f32) (harg11 : arg11.IsWhole) (arg12 : Memref sig .tc .vmem S256x768 .bf16) (harg12 : arg12.IsWhole) (arg13 : Memref sig .tc .vmem S1x256 .f32) (harg13 : arg13.IsWhole) (arg14 : Memref sig .tc .vmem S512x256 .f32) (harg14 : arg14.IsWhole) (arg15 : Memref sig .tc .vmem S512x256 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x768 .f32) (harg18 : arg18.IsWhole) (hc0 : ¬cond2_0 i) (hc1 : cond2_1 i)
    (x0 : Vec F S512x768 .f32) (x1 : Vec F S512x768 .f32) (x2 : Vec F S512x200 .f32) (x3 : Vec F S512x200 .f32) (x4 : Vec F S512x768 .f32) (x5 : Vec F S512x768 .f32) (x6 : Vec F S768x768 .bf16) (x7 : Vec F S1x768 .f32) (x8 : Vec F S256x768 .bf16) (x9 : Vec F S1x256 .f32) (x10 : Vec F S256x768 .bf16) (x11 : Vec F S1x256 .f32) (xs0 : Vec F S512x1 .f32) (xs1 : Vec F S512x1 .f32) (xs2 : Vec F S512x768 .f32) (y : S512x256.Idx) :
    ∃ pc ∈ (kernelRun2_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs0 xs1 xs2).1, y ∈ pc.1.set :=
  View.cover_of_tiledL (kernelRun2_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs0 xs1 xs2).1 S512x256.size (by sl_kernel_rfl) y

theorem cover2_C_O13 (c : Dev nD) (i : grid2.Coords) (arg2 : Memref sig .tc .vmem S512x768 .f32) (harg2 : arg2.IsWhole) (arg3 : Memref sig .tc .vmem S512x768 .f32) (harg3 : arg3.IsWhole) (arg4 : Memref sig .tc .vmem S512x200 .f32) (harg4 : arg4.IsWhole) (arg5 : Memref sig .tc .vmem S512x200 .f32) (harg5 : arg5.IsWhole) (arg6 : Memref sig .tc .vmem S512x768 .f32) (harg6 : arg6.IsWhole) (arg7 : Memref sig .tc .vmem S512x768 .f32) (harg7 : arg7.IsWhole) (arg8 : Memref sig .tc .vmem S768x768 .bf16) (harg8 : arg8.IsWhole) (arg9 : Memref sig .tc .vmem S1x768 .f32) (harg9 : arg9.IsWhole) (arg10 : Memref sig .tc .vmem S256x768 .bf16) (harg10 : arg10.IsWhole) (arg11 : Memref sig .tc .vmem S1x256 .f32) (harg11 : arg11.IsWhole) (arg12 : Memref sig .tc .vmem S256x768 .bf16) (harg12 : arg12.IsWhole) (arg13 : Memref sig .tc .vmem S1x256 .f32) (harg13 : arg13.IsWhole) (arg14 : Memref sig .tc .vmem S512x256 .f32) (harg14 : arg14.IsWhole) (arg15 : Memref sig .tc .vmem S512x256 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x768 .f32) (harg18 : arg18.IsWhole) (hc0 : ¬cond2_0 i) (hc1 : cond2_1 i)
    (x0 : Vec F S512x768 .f32) (x1 : Vec F S512x768 .f32) (x2 : Vec F S512x200 .f32) (x3 : Vec F S512x200 .f32) (x4 : Vec F S512x768 .f32) (x5 : Vec F S512x768 .f32) (x6 : Vec F S768x768 .bf16) (x7 : Vec F S1x768 .f32) (x8 : Vec F S256x768 .bf16) (x9 : Vec F S1x256 .f32) (x10 : Vec F S256x768 .bf16) (x11 : Vec F S1x256 .f32) (xs0 : Vec F S512x1 .f32) (xs1 : Vec F S512x1 .f32) (xs2 : Vec F S512x768 .f32) (y : S512x256.Idx) :
    ∃ pc ∈ (kernelRun2_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs0 xs1 xs2).2.1, y ∈ pc.1.set :=
  View.cover_of_tiledL (kernelRun2_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs0 xs1 xs2).2.1 S512x256.size (by sl_kernel_rfl) y

theorem cover2_C_S0 (c : Dev nD) (i : grid2.Coords) (arg2 : Memref sig .tc .vmem S512x768 .f32) (harg2 : arg2.IsWhole) (arg3 : Memref sig .tc .vmem S512x768 .f32) (harg3 : arg3.IsWhole) (arg4 : Memref sig .tc .vmem S512x200 .f32) (harg4 : arg4.IsWhole) (arg5 : Memref sig .tc .vmem S512x200 .f32) (harg5 : arg5.IsWhole) (arg6 : Memref sig .tc .vmem S512x768 .f32) (harg6 : arg6.IsWhole) (arg7 : Memref sig .tc .vmem S512x768 .f32) (harg7 : arg7.IsWhole) (arg8 : Memref sig .tc .vmem S768x768 .bf16) (harg8 : arg8.IsWhole) (arg9 : Memref sig .tc .vmem S1x768 .f32) (harg9 : arg9.IsWhole) (arg10 : Memref sig .tc .vmem S256x768 .bf16) (harg10 : arg10.IsWhole) (arg11 : Memref sig .tc .vmem S1x256 .f32) (harg11 : arg11.IsWhole) (arg12 : Memref sig .tc .vmem S256x768 .bf16) (harg12 : arg12.IsWhole) (arg13 : Memref sig .tc .vmem S1x256 .f32) (harg13 : arg13.IsWhole) (arg14 : Memref sig .tc .vmem S512x256 .f32) (harg14 : arg14.IsWhole) (arg15 : Memref sig .tc .vmem S512x256 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x768 .f32) (harg18 : arg18.IsWhole) (hc0 : ¬cond2_0 i) (hc1 : cond2_1 i)
    (x0 : Vec F S512x768 .f32) (x1 : Vec F S512x768 .f32) (x2 : Vec F S512x200 .f32) (x3 : Vec F S512x200 .f32) (x4 : Vec F S512x768 .f32) (x5 : Vec F S512x768 .f32) (x6 : Vec F S768x768 .bf16) (x7 : Vec F S1x768 .f32) (x8 : Vec F S256x768 .bf16) (x9 : Vec F S1x256 .f32) (x10 : Vec F S256x768 .bf16) (x11 : Vec F S1x256 .f32) (xs0 : Vec F S512x1 .f32) (xs1 : Vec F S512x1 .f32) (xs2 : Vec F S512x768 .f32) (y : S512x1.Idx) :
    ∃ pc ∈ (kernelRun2_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs0 xs1 xs2).2.2.1, y ∈ pc.1.set :=
  View.cover_of_tiledL (kernelRun2_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs0 xs1 xs2).2.2.1 S512x1.size (by sl_kernel_rfl) y

theorem cover2_C_S1 (c : Dev nD) (i : grid2.Coords) (arg2 : Memref sig .tc .vmem S512x768 .f32) (harg2 : arg2.IsWhole) (arg3 : Memref sig .tc .vmem S512x768 .f32) (harg3 : arg3.IsWhole) (arg4 : Memref sig .tc .vmem S512x200 .f32) (harg4 : arg4.IsWhole) (arg5 : Memref sig .tc .vmem S512x200 .f32) (harg5 : arg5.IsWhole) (arg6 : Memref sig .tc .vmem S512x768 .f32) (harg6 : arg6.IsWhole) (arg7 : Memref sig .tc .vmem S512x768 .f32) (harg7 : arg7.IsWhole) (arg8 : Memref sig .tc .vmem S768x768 .bf16) (harg8 : arg8.IsWhole) (arg9 : Memref sig .tc .vmem S1x768 .f32) (harg9 : arg9.IsWhole) (arg10 : Memref sig .tc .vmem S256x768 .bf16) (harg10 : arg10.IsWhole) (arg11 : Memref sig .tc .vmem S1x256 .f32) (harg11 : arg11.IsWhole) (arg12 : Memref sig .tc .vmem S256x768 .bf16) (harg12 : arg12.IsWhole) (arg13 : Memref sig .tc .vmem S1x256 .f32) (harg13 : arg13.IsWhole) (arg14 : Memref sig .tc .vmem S512x256 .f32) (harg14 : arg14.IsWhole) (arg15 : Memref sig .tc .vmem S512x256 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x768 .f32) (harg18 : arg18.IsWhole) (hc0 : ¬cond2_0 i) (hc1 : cond2_1 i)
    (x0 : Vec F S512x768 .f32) (x1 : Vec F S512x768 .f32) (x2 : Vec F S512x200 .f32) (x3 : Vec F S512x200 .f32) (x4 : Vec F S512x768 .f32) (x5 : Vec F S512x768 .f32) (x6 : Vec F S768x768 .bf16) (x7 : Vec F S1x768 .f32) (x8 : Vec F S256x768 .bf16) (x9 : Vec F S1x256 .f32) (x10 : Vec F S256x768 .bf16) (x11 : Vec F S1x256 .f32) (xs0 : Vec F S512x1 .f32) (xs1 : Vec F S512x1 .f32) (xs2 : Vec F S512x768 .f32) (y : S512x1.Idx) :
    ∃ pc ∈ (kernelRun2_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs0 xs1 xs2).2.2.2.1, y ∈ pc.1.set :=
  View.cover_of_tiledL (kernelRun2_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs0 xs1 xs2).2.2.2.1 S512x1.size (by sl_kernel_rfl) y

theorem cover2_C_S2 (c : Dev nD) (i : grid2.Coords) (arg2 : Memref sig .tc .vmem S512x768 .f32) (harg2 : arg2.IsWhole) (arg3 : Memref sig .tc .vmem S512x768 .f32) (harg3 : arg3.IsWhole) (arg4 : Memref sig .tc .vmem S512x200 .f32) (harg4 : arg4.IsWhole) (arg5 : Memref sig .tc .vmem S512x200 .f32) (harg5 : arg5.IsWhole) (arg6 : Memref sig .tc .vmem S512x768 .f32) (harg6 : arg6.IsWhole) (arg7 : Memref sig .tc .vmem S512x768 .f32) (harg7 : arg7.IsWhole) (arg8 : Memref sig .tc .vmem S768x768 .bf16) (harg8 : arg8.IsWhole) (arg9 : Memref sig .tc .vmem S1x768 .f32) (harg9 : arg9.IsWhole) (arg10 : Memref sig .tc .vmem S256x768 .bf16) (harg10 : arg10.IsWhole) (arg11 : Memref sig .tc .vmem S1x256 .f32) (harg11 : arg11.IsWhole) (arg12 : Memref sig .tc .vmem S256x768 .bf16) (harg12 : arg12.IsWhole) (arg13 : Memref sig .tc .vmem S1x256 .f32) (harg13 : arg13.IsWhole) (arg14 : Memref sig .tc .vmem S512x256 .f32) (harg14 : arg14.IsWhole) (arg15 : Memref sig .tc .vmem S512x256 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x768 .f32) (harg18 : arg18.IsWhole) (hc0 : ¬cond2_0 i) (hc1 : cond2_1 i)
    (x0 : Vec F S512x768 .f32) (x1 : Vec F S512x768 .f32) (x2 : Vec F S512x200 .f32) (x3 : Vec F S512x200 .f32) (x4 : Vec F S512x768 .f32) (x5 : Vec F S512x768 .f32) (x6 : Vec F S768x768 .bf16) (x7 : Vec F S1x768 .f32) (x8 : Vec F S256x768 .bf16) (x9 : Vec F S1x256 .f32) (x10 : Vec F S256x768 .bf16) (x11 : Vec F S1x256 .f32) (xs0 : Vec F S512x1 .f32) (xs1 : Vec F S512x1 .f32) (xs2 : Vec F S512x768 .f32) (y : S512x768.Idx) :
    ∃ pc ∈ (kernelRun2_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs0 xs1 xs2).2.2.2.2.1, y ∈ pc.1.set :=
  View.cover_of_tiledL (kernelRun2_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs0 xs1 xs2).2.2.2.2.1 S512x768.size (by sl_kernel_rfl) y

end Cert.KernelIdeal.Hand

end
-- ==== Proof.KI.Region2.lean ====
import proofs.«170994_j15857019257044_2_alg».proof.Proof.KI.Region2Outs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! # The flash-attention call (pipeline 2): the proof data and the body obligation

The grid is 8 row tiles by 8 key tiles; the key tile `j` is the reduction axis. The running maximum, the normaliser and
the accumulator live in three scratch buffers carried from point to point: initialised at `j = 0`, updated at every
point, and at `j = 7` read to compute the two outputs. The invariant names what the scratch holds after each point. -/

/-! ## Each case's run at a point of the grid -/
/-- Case A's run at point `t`: on the point's staging memrefs and the call's scratch, at the windows' blocks. -/
def runA (c : Dev nD) (t : Fin cfg2.N) (hc0 : cond2_0 (grid2.coords t)) (hc1 : ¬cond2_1 (grid2.coords t)) :=
  kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) scM2_0 (Memref.isWhole_whole _) scM2_1 (Memref.isWhole_whole _) scM2_2 (Memref.isWhole_whole _) hc0 hc1 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t)

/-- Case B's run at point `t`: on the point's staging memrefs and the call's scratch, at the windows' blocks. -/
def runB (c : Dev nD) (t : Fin cfg2.N) (hc0 : ¬cond2_0 (grid2.coords t)) (hc1 : ¬cond2_1 (grid2.coords t)) (xs0 : Vec F S512x1 .f32) (xs1 : Vec F S512x1 .f32) (xs2 : Vec F S512x768 .f32) :=
  kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) scM2_0 (Memref.isWhole_whole _) scM2_1 (Memref.isWhole_whole _) scM2_2 (Memref.isWhole_whole _) hc0 hc1 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) xs0 xs1 xs2

/-- Case C's run at point `t`: on the point's staging memrefs and the call's scratch, at the windows' blocks. -/
def runC (c : Dev nD) (t : Fin cfg2.N) (hc0 : ¬cond2_0 (grid2.coords t)) (hc1 : cond2_1 (grid2.coords t)) (xs0 : Vec F S512x1 .f32) (xs1 : Vec F S512x1 .f32) (xs2 : Vec F S512x768 .f32) :=
  kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) scM2_0 (Memref.isWhole_whole _) scM2_1 (Memref.isWhole_whole _) scM2_2 (Memref.isWhole_whole _) hc0 hc1 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) xs0 xs1 xs2

/-! ## What a case leaves: the two outputs' staging buffers, then the three scratch buffers

Where a case stores nothing into an output (`j ≠ 7`) the component is a placeholder nothing consults: the window is idle
there, neither written back nor read at the next point. -/

def leftA (c : Dev nD) (t : Fin cfg2.N) (hc0 : cond2_0 (grid2.coords t)) (hc1 : ¬cond2_1 (grid2.coords t)) : Vec F S512x256 .f32 × Vec F S512x256 .f32 × Vec F S512x1 .f32 × Vec F S512x1 .f32 × Vec F S512x768 .f32 :=
  (VO2_12.read (Elt F) (VO2_12.writes (Elt F) VO2_12.junk []), VO2_13.read (Elt F) (VO2_13.writes (Elt F) VO2_13.junk []),
   VS2_0.read (Elt F) (VS2_0.writes (Elt F) VS2_0.junk (runA V c t hc0 hc1).1),
   VS2_1.read (Elt F) (VS2_1.writes (Elt F) VS2_1.junk (runA V c t hc0 hc1).2.1),
   VS2_2.read (Elt F) (VS2_2.writes (Elt F) VS2_2.junk (runA V c t hc0 hc1).2.2.1))

def leftB (c : Dev nD) (t : Fin cfg2.N) (hc0 : ¬cond2_0 (grid2.coords t)) (hc1 : ¬cond2_1 (grid2.coords t)) (p : Vec F S512x256 .f32 × Vec F S512x256 .f32 × Vec F S512x1 .f32 × Vec F S512x1 .f32 × Vec F S512x768 .f32) : Vec F S512x256 .f32 × Vec F S512x256 .f32 × Vec F S512x1 .f32 × Vec F S512x1 .f32 × Vec F S512x768 .f32 :=
  (VO2_12.read (Elt F) (VO2_12.writes (Elt F) VO2_12.junk []), VO2_13.read (Elt F) (VO2_13.writes (Elt F) VO2_13.junk []),
   VS2_0.read (Elt F) (VS2_0.writes (Elt F) VS2_0.junk (runB V c t hc0 hc1 p.2.2.1 p.2.2.2.1 p.2.2.2.2).1),
   VS2_1.read (Elt F) (VS2_1.writes (Elt F) VS2_1.junk (runB V c t hc0 hc1 p.2.2.1 p.2.2.2.1 p.2.2.2.2).2.1),
   VS2_2.read (Elt F) (VS2_2.writes (Elt F) VS2_2.junk (runB V c t hc0 hc1 p.2.2.1 p.2.2.2.1 p.2.2.2.2).2.2.1))

def leftC (c : Dev nD) (t : Fin cfg2.N) (hc0 : ¬cond2_0 (grid2.coords t)) (hc1 : cond2_1 (grid2.coords t)) (p : Vec F S512x256 .f32 × Vec F S512x256 .f32 × Vec F S512x1 .f32 × Vec F S512x1 .f32 × Vec F S512x768 .f32) : Vec F S512x256 .f32 × Vec F S512x256 .f32 × Vec F S512x1 .f32 × Vec F S512x1 .f32 × Vec F S512x768 .f32 :=
  (VO2_12.read (Elt F) (VO2_12.writes (Elt F) VO2_12.junk (runC V c t hc0 hc1 p.2.2.1 p.2.2.2.1 p.2.2.2.2).1), VO2_13.read (Elt F) (VO2_13.writes (Elt F) VO2_13.junk (runC V c t hc0 hc1 p.2.2.1 p.2.2.2.1 p.2.2.2.2).2.1),
   VS2_0.read (Elt F) (VS2_0.writes (Elt F) VS2_0.junk (runC V c t hc0 hc1 p.2.2.1 p.2.2.2.1 p.2.2.2.2).2.2.1),
   VS2_1.read (Elt F) (VS2_1.writes (Elt F) VS2_1.junk (runC V c t hc0 hc1 p.2.2.1 p.2.2.2.1 p.2.2.2.2).2.2.2.1),
   VS2_2.read (Elt F) (VS2_2.writes (Elt F) VS2_2.junk (runC V c t hc0 hc1 p.2.2.1 p.2.2.2.1 p.2.2.2.2).2.2.2.2.1))

/-! ## What the outputs and the scratch hold after each point -/

/-- By recursion on the point: the case its key tile selects, run over what the point before left in the scratch. -/
def outsAt2 (c : Dev nD) : (n : ℕ) → n < cfg2.N → Vec F S512x256 .f32 × Vec F S512x256 .f32 × Vec F S512x1 .f32 × Vec F S512x1 .f32 × Vec F S512x768 .f32
  | 0, hn => leftA V c ⟨0, hn⟩ ((hcond2_0 ⟨0, hn⟩).mpr (Nat.zero_mod _)) (fun h => (fun h => by (try dsimp only at h); omega) ((hcond2_1 ⟨0, hn⟩).mp h))
  | n + 1, hn =>
    if h0 : (n + 1) % 8 = 0 then
      if h1 : (n + 1) % 8 = 7 then
        False.elim (by omega)
      else
        leftA V c ⟨n + 1, hn⟩ ((hcond2_0 ⟨n + 1, hn⟩).mpr h0) (fun h => h1 ((hcond2_1 ⟨n + 1, hn⟩).mp h))
    else
      if h1 : (n + 1) % 8 = 7 then
        leftC V c ⟨n + 1, hn⟩ (fun h => h0 ((hcond2_0 ⟨n + 1, hn⟩).mp h)) ((hcond2_1 ⟨n + 1, hn⟩).mpr h1) (outsAt2 c n (Nat.lt_of_succ_lt hn))
      else
        leftB V c ⟨n + 1, hn⟩ (fun h => h0 ((hcond2_0 ⟨n + 1, hn⟩).mp h)) (fun h => h1 ((hcond2_1 ⟨n + 1, hn⟩).mp h)) (outsAt2 c n (Nat.lt_of_succ_lt hn))

theorem outsAt2_A (c : Dev nD) (t : Fin cfg2.N) (h0 : t.val % 8 = 0) (h1 : ¬t.val % 8 = 7) :
    outsAt2 V c t.val t.isLt = leftA V c t ((hcond2_0 t).mpr h0) (fun h => h1 ((hcond2_1 t).mp h)) := by
  obtain ⟨n, hn⟩ := t
  cases n with
  | zero => exact rfl
  | succ n => exact (dif_pos h0).trans ((dif_neg h1).trans rfl)

theorem outsAt2_B (c : Dev nD) (t : Fin cfg2.N) (h0 : ¬t.val % 8 = 0) (h1 : ¬t.val % 8 = 7) :
    outsAt2 V c t.val t.isLt = leftB V c t (fun h => h0 ((hcond2_0 t).mp h)) (fun h => h1 ((hcond2_1 t).mp h))
      (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 8 = 0) (h1 : t.val % 8 = 7) :
    outsAt2 V c t.val t.isLt = leftC V c t (fun h => h0 ((hcond2_0 t).mp h)) ((hcond2_1 t).mpr h1)
      (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The invariant: the scratch at what the point before left -/

/-- Before the first point what the launch hands over (every scratch at anything); before any other point the three
    scratch buffers at what the point before left in them, the other scoped buffers unopened, the generator register. -/
def PhiS2 (c : Dev nD) : (n : ℕ) → n ≤ cfg2.N → sProp 𝕄
  | 0, _ => Pipeline.ΦA spec2 c
  | n + 1, hn => iprop(iprop(iprop(owns (c : Thread nD τ) scM2_0 fullShare (outsAt2 V c n hn).2.2.1 ∗ owns (c : Thread nD τ) scM2_1 fullShare (outsAt2 V c n hn).2.2.2.1 ∗ owns (c : Thread nD τ) scM2_2 fullShare (outsAt2 V c n hn).2.2.2.2)
      ∗ Pipeline.scopedRestBut (Ix := Unit) (Name := ℕ) (U := UR sig nD τ) (Lvl := ℕ) (Val := Elt F) spec2 c [cc2_scratch0, cc2_scratch1, cc2_scratch2]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare (outsAt2 V c n hn).2.2.1 ∗ owns (c : Thread nD τ) scM2_1 fullShare (outsAt2 V c n hn).2.2.2.1 ∗ owns (c : Thread nD τ) scM2_2 fullShare (outsAt2 V c n hn).2.2.2.2)
      ∗ Pipeline.scopedRestBut (Ix := Unit) (Name := ℕ) (U := UR sig nD τ) (Lvl := ℕ) (Val := Elt F) spec2 c [cc2_scratch0, cc2_scratch1, cc2_scratch2]) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare (outsAt2 V c (n - 1) (by omega)).2.2.1 ∗ owns (c : Thread nD τ) scM2_1 fullShare (outsAt2 V c (n - 1) (by omega)).2.2.2.1 ∗ owns (c : Thread nD τ) scM2_2 fullShare (outsAt2 V c (n - 1) (by omega)).2.2.2.2)
      ∗ Pipeline.scopedRestBut (Ix := Unit) (Name := ℕ) (U := UR sig nD τ) (Lvl := ℕ) (Val := Elt F) spec2 c [cc2_scratch0, cc2_scratch1, cc2_scratch2]) ∗ (∃ r, prngReg c r)) := by
  cases n with
  | zero => exact absurd rfl hz
  | succ n => rfl

/-! ## The proof data -/

/-- The arrays as the region finds them; after the body at point `t` each input's buffer at its block and the two
    outputs' at `outsAt2`'s components; the invariant `PhiS2`; the support array, staged by windows 0 and 1, held
    half by each; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => (outsAt2 V c t.val t.isLt).1
    | ⟨13, _⟩ => (outsAt2 V c t.val t.isLt).2.1
  Φ t := PhiS2 V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
    | ⟨13, _⟩ => fullShare
  owed _ := 0

theorem A_eq2 (c : Dev nD) (w : Fin cfg2.W) : (dat2 V c).A w = V c (Pipeline.arrRef spec2 w) := by
  dsimp only [dat2]

/-- The share each input window holds its array at: the support array, staged twice, half and half. -/
theorem q2_0 (c : Dev nD) : (dat2 V c).q 0 = fullShare.left := by dsimp only [dat2]
theorem q2_1 (c : Dev nD) : (dat2 V c).q 1 = fullShare.right := by dsimp only [dat2]
theorem q2_2 (c : Dev nD) : (dat2 V c).q 2 = fullShare := by dsimp only [dat2]
theorem q2_3 (c : Dev nD) : (dat2 V c).q 3 = fullShare := by dsimp only [dat2]
theorem q2_4 (c : Dev nD) : (dat2 V c).q 4 = fullShare := by dsimp only [dat2]
theorem q2_5 (c : Dev nD) : (dat2 V c).q 5 = fullShare := by dsimp only [dat2]
theorem q2_6 (c : Dev nD) : (dat2 V c).q 6 = fullShare := by dsimp only [dat2]
theorem q2_7 (c : Dev nD) : (dat2 V c).q 7 = fullShare := by dsimp only [dat2]
theorem q2_8 (c : Dev nD) : (dat2 V c).q 8 = fullShare := by dsimp only [dat2]
theorem q2_9 (c : Dev nD) : (dat2 V c).q 9 = fullShare := by dsimp only [dat2]
theorem q2_10 (c : Dev nD) : (dat2 V c).q 10 = fullShare := by dsimp only [dat2]
theorem q2_11 (c : Dev nD) : (dat2 V c).q 11 = fullShare := by dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = iblk2 V c 10 t := by dsimp only [dat2]
theorem after2_11 (c : Dev nD) (t : Fin cfg2.N) : (dat2 V c).after 11 t = iblk2 V c 11 t := by dsimp only [dat2]
theorem after2_12 (c : Dev nD) (t : Fin cfg2.N) : (dat2 V c).after 12 t = (outsAt2 V c t.val t.isLt).1 := by dsimp only [dat2]
theorem after2_13 (c : Dev nD) (t : Fin cfg2.N) : (dat2 V c).after 13 t = (outsAt2 V c t.val t.isLt).2.1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d
theorem before2_10 (c : Dev nD) (t : Fin cfg2.N) (d) : (dat2 V c).before 10 t d = iblk2 V c 10 t :=
  before2_10_of V (dat2 V c) (A_eq2 V c 10) (after2_10 V c) t d
theorem before2_11 (c : Dev nD) (t : Fin cfg2.N) (d) : (dat2 V c).before 11 t d = iblk2 V c 11 t :=
  before2_11_of V (dat2 V c) (A_eq2 V c 11) (after2_11 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d))
    ∗ (∃ d, owns (c : Thread nD τ) (ms2_9 t) fullShare ((dat2 V c).before 9 t d))
    ∗ (∃ d, owns (c : Thread nD τ) (ms2_10 t) fullShare ((dat2 V c).before 10 t d))
    ∗ (∃ d, owns (c : Thread nD τ) (ms2_11 t) fullShare ((dat2 V c).before 11 t d))
    ∗ (∃ d, owns (c : Thread nD τ) (ms2_12 t) fullShare ((dat2 V c).before 12 t d))
    ∗ (∃ d, owns (c : Thread nD τ) (ms2_13 t) fullShare ((dat2 V c).before 13 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t
    ∗ (dat2 V c).leavesExact 9 t
    ∗ (dat2 V c).leavesExact 10 t
    ∗ (dat2 V c).leavesExact 11 t
    ∗ (dat2 V c).leavesExact 12 t
    ∗ (dat2 V c).leavesExact 13 t)

set_option maxHeartbeats 4800000 in
/-- At the first key tile: the scratch arrives at anything (at the very first point from the launch, later from the row
    tile before, whose contents are forgotten), is initialised and updated; the outputs' buffers pass through untouched. -/
theorem sound_body2_A (c : Dev nD) (t : Fin cfg2.N) (h0 : t.val % 8 = 0) (h1 : ¬t.val % 8 = 7) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9, before2_10, before2_11]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  rw [show (dat2 V c).leavesExact 6 t = owns (c : Thread nD τ) (ms2_6 t) fullShare ((dat2 V c).after 6 t) from by
    unfold Dat.leavesExact; rw [liveAt2_6 t], after2_6]
  rw [show (dat2 V c).leavesExact 7 t = owns (c : Thread nD τ) (ms2_7 t) fullShare ((dat2 V c).after 7 t) from by
    unfold Dat.leavesExact; rw [liveAt2_7 t], after2_7]
  rw [show (dat2 V c).leavesExact 8 t = owns (c : Thread nD τ) (ms2_8 t) fullShare ((dat2 V c).after 8 t) from by
    unfold Dat.leavesExact; rw [liveAt2_8 t], after2_8]
  rw [show (dat2 V c).leavesExact 9 t = owns (c : Thread nD τ) (ms2_9 t) fullShare ((dat2 V c).after 9 t) from by
    unfold Dat.leavesExact; rw [liveAt2_9 t], after2_9]
  rw [show (dat2 V c).leavesExact 10 t = owns (c : Thread nD τ) (ms2_10 t) fullShare ((dat2 V c).after 10 t) from by
    unfold Dat.leavesExact; rw [liveAt2_10 t], after2_10]
  rw [show (dat2 V c).leavesExact 11 t = owns (c : Thread nD τ) (ms2_11 t) fullShare ((dat2 V c).after 11 t) from by
    unfold Dat.leavesExact; rw [liveAt2_11 t], after2_11]
  rw [Dat.leavesExact_idle (dat2 V c) 12 t (idleAt2_12 t (fun h => h1 ((hcond2_1 t).mp h))) (noFlush2_12 t (fun h => h1 ((hcond2_1 t).mp h)))]
  rw [Dat.leavesExact_idle (dat2 V c) 13 t (idleAt2_13 t (fun h => h1 ((hcond2_1 t).mp h))) (noFlush2_13 t (fun h => h1 ((hcond2_1 t).mp h)))]
  rw [outsAt2_A V c t h0 h1]
  unfold leftA; (try dsimp only)
  by_cases hz : t.val = 0
  · rw [PhiS2_castSucc V c t, PhiS2_zero V c _ _ hz, PhiA2_eq]
    iintro ⟨⟨⟨⟨HS0, HS1, HS2⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((runA V c t ((hcond2_0 t).mpr h0) (fun h => h1 ((hcond2_1 t).mp h))).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [HS0]; · iexact HS0
    isplitl [HS1]; · iexact HS1
    isplitl [HS2]; · iexact HS2
    iintro ⟨H0, H1, H2, H3, H4, H5, H6, H7, H8, H9, H10, H11, H12, H13, ⟨%es0, HS0⟩, ⟨%es1, HS1⟩, ⟨%es2, HS2⟩⟩
    isplitl [HS0 HS1 HS2 Hrest Hg]
    · isplitl [HS0 HS1 HS2 Hrest]
      · isplitl [HS0 HS1 HS2]
        · isplitl [HS0]
          · unfold owns; iexists _; isplitr
            swap; · iexact HS0
            ipureintro; exact View.read_writes_of_cover _ _ _ _ _ (cover2_A_S0 c _ _ _ _ _ _ _ _ _ _ _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (cover2_A_S1 c _ _ _ _ _ _ _ _ _ _ _ _ _ _ _ _ _ _ _ _ _ _ _ _ _ _ _ _ _ _ _ _ _ _ _ _ _ _ _ _ _ _ _ _ _ _ _ _ _)
          unfold owns; iexists _; isplitr
          swap; · iexact HS2
          ipureintro; exact View.read_writes_of_cover _ _ _ _ _ (cover2_A_S2 c _ _ _ _ _ _ _ _ _ _ _ _ _ _ _ _ _ _ _ _ _ _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    iexists _; iexact H13

  · rw [PhiS2_castSucc V c t, PhiS2_pos V c _ _ hz]
    iintro ⟨⟨⟨⟨HS0, HS1, HS2⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((runA V c t ((hcond2_0 t).mpr h0) (fun h => h1 ((hcond2_1 t).mp h))).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [HS0]; · iexists _; iexact HS0
    isplitl [HS1]; · iexists _; iexact HS1
    isplitl [HS2]; · iexists _; iexact HS2
    iintro ⟨H0, H1, H2, H3, H4, H5, H6, H7, H8, H9, H10, H11, H12, H13, ⟨%es0, HS0⟩, ⟨%es1, HS1⟩, ⟨%es2, HS2⟩⟩
    isplitl [HS0 HS1 HS2 Hrest Hg]
    · isplitl [HS0 HS1 HS2 Hrest]
      · isplitl [HS0 HS1 HS2]
        · isplitl [HS0]
          · unfold owns; iexists _; isplitr
            swap; · iexact HS0
            ipureintro; exact View.read_writes_of_cover _ _ _ _ _ (cover2_A_S0 c _ _ _ _ _ _ _ _ _ _ _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (cover2_A_S1 c _ _ _ _ _ _ _ _ _ _ _ _ _ _ _ _ _ _ _ _ _ _ _ _ _ _ _ _ _ _ _ _ _ _ _ _ _ _ _ _ _ _ _ _ _ _ _ _ _)
          unfold owns; iexists _; isplitr
          swap; · iexact HS2
          ipureintro; exact View.read_writes_of_cover _ _ _ _ _ (cover2_A_S2 c _ _ _ _ _ _ _ _ _ _ _ _ _ _ _ _ _ _ _ _ _ _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    iexists _; iexact H13

set_option maxHeartbeats 4800000 in
/-- At an inner key tile: the scratch arrives at what the tile before left and is updated; the outputs' buffers pass
    through untouched. -/
theorem sound_body2_B (c : Dev nD) (t : Fin cfg2.N) (h0 : ¬t.val % 8 = 0) (h1 : ¬t.val % 8 = 7) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9, before2_10, before2_11]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  rw [show (dat2 V c).leavesExact 6 t = owns (c : Thread nD τ) (ms2_6 t) fullShare ((dat2 V c).after 6 t) from by
    unfold Dat.leavesExact; rw [liveAt2_6 t], after2_6]
  rw [show (dat2 V c).leavesExact 7 t = owns (c : Thread nD τ) (ms2_7 t) fullShare ((dat2 V c).after 7 t) from by
    unfold Dat.leavesExact; rw [liveAt2_7 t], after2_7]
  rw [show (dat2 V c).leavesExact 8 t = owns (c : Thread nD τ) (ms2_8 t) fullShare ((dat2 V c).after 8 t) from by
    unfold Dat.leavesExact; rw [liveAt2_8 t], after2_8]
  rw [show (dat2 V c).leavesExact 9 t = owns (c : Thread nD τ) (ms2_9 t) fullShare ((dat2 V c).after 9 t) from by
    unfold Dat.leavesExact; rw [liveAt2_9 t], after2_9]
  rw [show (dat2 V c).leavesExact 10 t = owns (c : Thread nD τ) (ms2_10 t) fullShare ((dat2 V c).after 10 t) from by
    unfold Dat.leavesExact; rw [liveAt2_10 t], after2_10]
  rw [show (dat2 V c).leavesExact 11 t = owns (c : Thread nD τ) (ms2_11 t) fullShare ((dat2 V c).after 11 t) from by
    unfold Dat.leavesExact; rw [liveAt2_11 t], after2_11]
  rw [Dat.leavesExact_idle (dat2 V c) 12 t (idleAt2_12 t (fun h => h1 ((hcond2_1 t).mp h))) (noFlush2_12 t (fun h => h1 ((hcond2_1 t).mp h)))]
  rw [Dat.leavesExact_idle (dat2 V c) 13 t (idleAt2_13 t (fun h => h1 ((hcond2_1 t).mp h))) (noFlush2_13 t (fun h => h1 ((hcond2_1 t).mp h)))]
  rw [outsAt2_B V c t h0 h1]
  unfold leftB; (try dsimp only)
  have hz : t.val ≠ 0 := fun e => h0 (by rw [e])
  rw [PhiS2_castSucc V c t, PhiS2_pos V c _ _ hz]
  iintro ⟨⟨⟨⟨HS0, HS1, HS2⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((runB V c t (fun h => h0 ((hcond2_0 t).mp h)) (fun h => h1 ((hcond2_1 t).mp h)) _ _ _).2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HS0]; · iexact HS0
  isplitl [HS1]; · iexact HS1
  isplitl [HS2]; · iexact HS2
  iintro ⟨H0, H1, H2, H3, H4, H5, H6, H7, H8, H9, H10, H11, H12, H13, ⟨%es0, HS0⟩, ⟨%es1, HS1⟩, ⟨%es2, HS2⟩⟩
  isplitl [HS0 HS1 HS2 Hrest Hg]
  · isplitl [HS0 HS1 HS2 Hrest]
    · isplitl [HS0 HS1 HS2]
      · isplitl [HS0]
        · unfold owns; iexists _; isplitr
          swap; · iexact HS0
          ipureintro; exact View.read_writes_of_cover _ _ _ _ _ (cover2_B_S0 c _ _ _ _ _ _ _ _ _ _ _ _ _ _ _ _ _ _ _ _ _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (cover2_B_S1 c _ _ _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact HS2
        ipureintro; exact View.read_writes_of_cover _ _ _ _ _ (cover2_B_S2 c _ _ _ _ _ _ _ _ _ _ _ _ _ _ _ _ _ _ _ _ _ _ _ _ _ _ _ _ _ _ _ _ _ _ _ _ _ _ _ _ _ _ _ _ _ _ _ _ _ _ _ _)
      iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iexists _; iexact H13

set_option maxHeartbeats 4800000 in
/-- At the last key tile: the scratch arrives at what the tile before left and is updated, and both outputs are stored
    whole. -/
theorem sound_body2_C (c : Dev nD) (t : Fin cfg2.N) (h0 : ¬t.val % 8 = 0) (h1 : t.val % 8 = 7) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9, before2_10, before2_11]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  rw [show (dat2 V c).leavesExact 6 t = owns (c : Thread nD τ) (ms2_6 t) fullShare ((dat2 V c).after 6 t) from by
    unfold Dat.leavesExact; rw [liveAt2_6 t], after2_6]
  rw [show (dat2 V c).leavesExact 7 t = owns (c : Thread nD τ) (ms2_7 t) fullShare ((dat2 V c).after 7 t) from by
    unfold Dat.leavesExact; rw [liveAt2_7 t], after2_7]
  rw [show (dat2 V c).leavesExact 8 t = owns (c : Thread nD τ) (ms2_8 t) fullShare ((dat2 V c).after 8 t) from by
    unfold Dat.leavesExact; rw [liveAt2_8 t], after2_8]
  rw [show (dat2 V c).leavesExact 9 t = owns (c : Thread nD τ) (ms2_9 t) fullShare ((dat2 V c).after 9 t) from by
    unfold Dat.leavesExact; rw [liveAt2_9 t], after2_9]
  rw [show (dat2 V c).leavesExact 10 t = owns (c : Thread nD τ) (ms2_10 t) fullShare ((dat2 V c).after 10 t) from by
    unfold Dat.leavesExact; rw [liveAt2_10 t], after2_10]
  rw [show (dat2 V c).leavesExact 11 t = owns (c : Thread nD τ) (ms2_11 t) fullShare ((dat2 V c).after 11 t) from by
    unfold Dat.leavesExact; rw [liveAt2_11 t], after2_11]
  rw [show (dat2 V c).leavesExact 12 t = owns (c : Thread nD τ) (ms2_12 t) fullShare ((dat2 V c).after 12 t) from by
    unfold Dat.leavesExact; rw [liveAt2_12 t ((hcond2_1 t).mpr h1)], after2_12]
  rw [show (dat2 V c).leavesExact 13 t = owns (c : Thread nD τ) (ms2_13 t) fullShare ((dat2 V c).after 13 t) from by
    unfold Dat.leavesExact; rw [liveAt2_13 t ((hcond2_1 t).mpr h1)], after2_13]
  rw [outsAt2_C V c t h0 h1]
  unfold leftC; (try dsimp only)
  have hz : t.val ≠ 0 := fun e => h0 (by rw [e])
  rw [PhiS2_castSucc V c t, PhiS2_pos V c _ _ hz]
  iintro ⟨⟨⟨⟨HS0, HS1, HS2⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((runC V c t (fun h => h0 ((hcond2_0 t).mp h)) ((hcond2_1 t).mpr h1) _ _ _).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [HS0]; · iexact HS0
  isplitl [HS1]; · iexact HS1
  isplitl [HS2]; · iexact HS2
  iintro ⟨H0, H1, H2, H3, H4, H5, H6, H7, H8, H9, H10, H11, ⟨%e12, H12⟩, ⟨%e13, H13⟩, ⟨%es0, HS0⟩, ⟨%es1, HS1⟩, ⟨%es2, HS2⟩⟩
  isplitl [HS0 HS1 HS2 Hrest Hg]
  · isplitl [HS0 HS1 HS2 Hrest]
    · isplitl [HS0 HS1 HS2]
      · isplitl [HS0]
        · unfold owns; iexists _; isplitr
          swap; · iexact HS0
          ipureintro; exact View.read_writes_of_cover _ _ _ _ _ (cover2_C_S0 c _ _ _ _ _ _ _ _ _ _ _ _ _ _ _ _ _ _ _ _ _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (cover2_C_S1 c _ _ _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact HS2
        ipureintro; exact View.read_writes_of_cover _ _ _ _ _ (cover2_C_S2 c _ _ _ _ _ _ _ _ _ _ _ _ _ _ _ _ _ _ _ _ _ _ _ _ _ _ _ _ _ _ _ _ _ _ _ _ _ _ _ _ _ _ _ _ _ _ _ _ _ _ _ _)
      iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · unfold owns; iexists _; isplitr
    swap; · iexact H12
    ipureintro; exact View.read_writes_of_cover _ _ _ _ _ (cover2_C_O12 c _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H13
  ipureintro; exact View.read_writes_of_cover _ _ _ _ _ (cover2_C_O13 c _ _ _ _ _ _ _ _ _ _ _ _ _ _ _ _ _ _ _ _ _ _ _ _ _ _ _ _ _ _ _ _ _ _ _ _ _ _ _ _ _ _ _ _ _ _ _ _ _ _ _ _)

/-- The body at any point, by the key tile it is at. -/
theorem sound_body2 (c : Dev nD) (t : Fin cfg2.N) : bodyPre2 V c t ⊢ wp frame (wpE (defs₀ (F := F)) Variants.none c none) Set.univ (bodyAt2 t) (fun _ => bodyPost2 V c t) := by
  by_cases h0 : t.val % 8 = 0
  · by_cases h1 : t.val % 8 = 7
    · exfalso; omega
    · exact sound_body2_A V c t h0 h1
  · by_cases h1 : t.val % 8 = 7
    · exact sound_body2_C V c t h0 h1
    · exact sound_body2_B V c t h0 h1

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point the invariant gives back what the launch handed over: the scratch's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1, HS2⟩, Hrest⟩, Hg⟩
  isplitl [HS0 HS1 HS2 Hrest]
  · isplitl [HS0 HS1 HS2]
    · isplitl [HS0]; · iexists _; iexact HS0
      isplitl [HS1]; · iexists _; iexact HS1
      iexists _; iexact HS2
    iexact Hrest
  iexact Hg

theorem hout2 (c : Dev nD) : (dat2 V c).Φ (Fin.last cfg2.N) ⊢ Pipeline.ΦA spec2 c :=
  Phi_out2 V c _ (by rw [Fin.val_last]; have : cfg2.N = 64 := N_2; omega)

end Cert.KernelIdeal.Hand

end
-- ==== Proof.KI.Region3.lean ====
import proofs.«170994_j15857019257044_2_alg».proof.Proof.Gen.KernelIdeal.Launch
import proofs.«170994_j15857019257044_2_alg».proof.Proof.Gen.KernelIdeal.Skeleton
import proofs.«170994_j15857019257044_2_alg».proof.Proof.Gen.KernelIdeal.Points
import proofs.«170994_j15857019257044_2_alg».proof.Proof.Gen.KernelIdeal.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Graph attention over one array pair: the region's half of the frame

The body at grid point `i` holds a block of 512 rows of `X` (window 0) and of `Q` (window 1), the whole of `X`
(window 2) and of `Q` (window 3), and writes a block of 512 rows of the result (window 4). A counted loop of 16
trips walks the 4096 rows of the whole arrays 256 at a time, carrying in VALUES the running row maximum, the
normaliser and the accumulator of a streaming softmax; after it ONE store writes the whole output block from the
carried normaliser and accumulator and the two input blocks. Nothing is carried in memory between points. -/

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not: the body only
    reads it, so where the block index has not moved since the last fetch (the whole-array windows 2 and 3 after
    the first point) what the body left is the block again. For any proof data whose array is the entry
    contents and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The whole 512×256 block: the rectangle of every whole-block load and of the one store. -/
abbrev r3_4 : Rect S512x256 := Rect.unit (s := S512x256) ![0, 0] S512x256.size inb_S512x256_S512x256_0_0

/-! ## What the body leaves in the output window's buffer -/

/-- The value the loop carries out of its 16 trips — (running maximum, normaliser, accumulator) — from the initial
    (−∞, 0, 0): the recursion over the trips' yields, at the staging memrefs holding the blocks `x0` (window 0),
    `x2` and `x3` (windows 2 and 3, the whole arrays), which are all the loop reads. -/
def loop3 (c : Dev nD) (i : grid3.Coords) (arg1 : Memref sig .tc .vmem S512x256 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S512x256 .f32) (harg5 : arg5.IsWhole)
    (x0 : Vec F S512x256 .f32) (x2 x3 : Vec F S4096x256 .f32) : FVec F S512x1 .f32 × FVec F S512x1 .f32 × FVec F S512x256 .f32 :=
  st_k3_t1 (F := F) Variants.none c none i arg1 harg1 arg2 harg2 arg3 harg3 arg4 harg4 arg5 harg5 (harg1.unread x0) (harg3.unread x2) (harg4.unread x3)
    (k3_pay1, k3_pay2, k3_pay3) (Scf.trips k3_t1_loop.lb k3_t1_loop.ub k3_t1_loop.st)

/-- Window 4's staging buffer after the body, from the input windows' blocks: its one whole-block store, whose
    payload takes the normaliser and the accumulator the loop ends with and the blocks of windows 1 and 0. -/
def out3_4 (c : Dev nD) (i : grid3.Coords) (arg1 : Memref sig .tc .vmem S512x256 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S512x256 .f32) (harg5 : arg5.IsWhole)
    (x0 x1 : Vec F S512x256 .f32) (x2 x3 : Vec F S4096x256 .f32) : Vec F S512x256 .f32 :=
  View.canon [⟨r3_4, k3_pay10 (loop3 c i arg1 harg1 arg2 harg2 arg3 harg3 arg4 harg4 arg5 harg5 x0 x2 x3).2.1 (loop3 c i arg1 harg1 arg2 harg2 arg3 harg3 arg4 harg4 arg5 harg5 x0 x2 x3).2.2
    (View.ld x1 r3_4) (View.ld x0 r3_4)⟩]

/-- The one store is of the whole block, so it covers the buffer. -/
theorem cover3_4 (p0 : Vec F S512x256 .f32) (y : S512x256.Idx) :
    ∃ pc ∈ ([⟨r3_4, p0⟩] : List (View.Piece (Elt F) S512x256 .f32)), y ∈ pc.1.set :=
  View.cover_of_tiled [⟨r3_4, p0⟩] S512x256.size (by rfl) y

/-! ## The body's triple -/

set_option maxHeartbeats 1000000 in
/-- The kernel body on whole staging memrefs, the inputs' at contents `xW` and the output's at anything, runs to
    the continuation holding the inputs' as they were and the output's at `out3_4` of the inputs'. The raw
    contents of each memref the loop reads are named from what it reads (a whole memref's reading is a
    bijection), so that the loop's invariant is met at the blocks themselves; the run goes through the loop once,
    by its invariant, and ends with the one store written over whatever the output's buffer held. -/
theorem sound_kernel3 (c : Dev nD) (E : Set ℕ) (i : grid3.Coords) (arg1 : Memref sig .tc .vmem S512x256 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S512x256 .f32) (harg5 : arg5.IsWhole)
    (x0 x1 : Vec F S512x256 .f32) (x2 x3 : Vec F S4096x256 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out3_4 c i arg1 harg1 arg2 harg2 arg3 harg3 arg4 harg4 arg5 harg5 x0 x1 x2 x3)) -∗ K ⟨⟩))
      ⊢ wp frame (wpE (defs₀ (F := F)) Variants.none c none) E (cc3_kernel i arg1 harg1 arg2 harg2 arg3 harg3 arg4 harg4 arg5 harg5) K := by
  simp only [cc3_kernel_eq_skeleton]; unfold cc3_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg1.eq_unread hf0
  obtain rfl := harg3.eq_unread hf2
  obtain rfl := harg4.eq_unread hf3
  subst hf1
  sl_exec
  sl_step
  iapply Hk
  isplitl [H0]
  · iexists _; isplitr; · ipureintro; exact hf0
    iexact H0
  isplitl [H1]
  · iexists f1; isplitr; · ipureintro; rfl
    iexact H1
  isplitl [H2]
  · iexists _; isplitr; · ipureintro; exact hf2
    iexact H2
  isplitl [H3]
  · iexists _; isplitr; · ipureintro; exact hf3
    iexact H3
  iexists _; isplitr
  swap; · iexact H4
  ipureintro
  rw [View.read_writes_eq_canon _ _ _ (cover3_4 _)]
  unfold out3_4 loop3
  rw [View.readAt_eq_ld, View.readAt_eq_ld, hf0]

/-! ## The pipeline's proof data -/

/-- The proof data of this pipeline on core `c`: the arrays as the region finds them; after the body at point `t`
    each input's buffer at its block and the output's at `out3_4` of the input blocks, at the point's staging
    memrefs; the invariant the scoped rest and the generator register, untouched; nothing owed. Windows 0 and 2
    stage one array, and so do windows 1 and 3: each pair splits its array's full share in two halves, the
    lower-numbered window holding the left; the output's array is held whole. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 c (grid3.coords t) (st3_0 t) (hstage3_0 ((cfg3.slots t 0).cast nbuf3_0)) (st3_1 t) (hstage3_1 ((cfg3.slots t 1).cast nbuf3_1)) (st3_2 t) (hstage3_2 ((cfg3.slots t 2).cast nbuf3_2)) (st3_3 t) (hstage3_3 ((cfg3.slots t 3).cast nbuf3_3)) (st3_4 t) (hstage3_4 ((cfg3.slots t 4).cast nbuf3_4))
        (iblk3 V c 0 t) (iblk3 V c 1 t) (iblk3 V c 2 t) (iblk3 V c 3 t)
  Φ _ := Pipeline.ΦA spec3 c
  q w := match w with
    | ⟨0, _⟩ => fullShare.left
    | ⟨1, _⟩ => fullShare.left
    | ⟨2, _⟩ => fullShare.right
    | ⟨3, _⟩ => fullShare.right
    | ⟨4, _⟩ => fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t =
    out3_4 c (grid3.coords t) (st3_0 t) (hstage3_0 ((cfg3.slots t 0).cast nbuf3_0)) (st3_1 t) (hstage3_1 ((cfg3.slots t 1).cast nbuf3_1)) (st3_2 t) (hstage3_2 ((cfg3.slots t 2).cast nbuf3_2)) (st3_3 t) (hstage3_3 ((cfg3.slots t 3).cast nbuf3_3)) (st3_4 t) (hstage3_4 ((cfg3.slots t 4).cast nbuf3_4))
      (iblk3 V c 0 t) (iblk3 V c 1 t) (iblk3 V c 2 t) (iblk3 V c 3 t) := by dsimp only [dat3]

/-- The shares, window by window. -/
theorem q3_0 (c : Dev nD) : (dat3 V c).q 0 = fullShare.left := by dsimp only [dat3]
theorem q3_1 (c : Dev nD) : (dat3 V c).q 1 = fullShare.left := by dsimp only [dat3]
theorem q3_2 (c : Dev nD) : (dat3 V c).q 2 = fullShare.right := by dsimp only [dat3]
theorem q3_3 (c : Dev nD) : (dat3 V c).q 3 = fullShare.right := by dsimp only [dat3]
theorem q3_4 (c : Dev nD) : (dat3 V c).q 4 = fullShare := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' memrefs hold their blocks, so the body's triple applies; the invariant and
    the core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Region4.lean ====
import proofs.«170994_j15857019257044_2_alg».proof.Proof.Gen.KernelIdeal.Launch
import proofs.«170994_j15857019257044_2_alg».proof.Proof.Gen.KernelIdeal.Skeleton
import proofs.«170994_j15857019257044_2_alg».proof.Proof.Gen.KernelIdeal.Points
import proofs.«170994_j15857019257044_2_alg».proof.Proof.Gen.KernelIdeal.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Graph attention over one array pair: the region's half of the frame

The body at grid point `i` holds a block of 512 rows of `X` (window 0) and of `Q` (window 1), the whole of `X`
(window 2) and of `Q` (window 3), and writes a block of 512 rows of the result (window 4). A counted loop of 16
trips walks the 4096 rows of the whole arrays 256 at a time, carrying in VALUES the running row maximum, the
normaliser and the accumulator of a streaming softmax; after it ONE store writes the whole output block from the
carried normaliser and accumulator and the two input blocks. Nothing is carried in memory between points. -/

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not: the body only
    reads it, so where the block index has not moved since the last fetch (the whole-array windows 2 and 3 after
    the first point) what the body left is the block again. For any proof data whose array is the entry
    contents and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

/-- The whole 512×256 block: the rectangle of every whole-block load and of the one store. -/
abbrev r4_4 : Rect S512x256 := Rect.unit (s := S512x256) ![0, 0] S512x256.size inb_S512x256_S512x256_0_0

/-! ## What the body leaves in the output window's buffer -/

/-- The value the loop carries out of its 16 trips — (running maximum, normaliser, accumulator) — from the initial
    (−∞, 0, 0): the recursion over the trips' yields, at the staging memrefs holding the blocks `x0` (window 0),
    `x2` and `x3` (windows 2 and 3, the whole arrays), which are all the loop reads. -/
def loop4 (c : Dev nD) (i : grid4.Coords) (arg1 : Memref sig .tc .vmem S512x256 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S512x256 .f32) (harg5 : arg5.IsWhole)
    (x0 : Vec F S512x256 .f32) (x2 x3 : Vec F S4096x256 .f32) : FVec F S512x1 .f32 × FVec F S512x1 .f32 × FVec F S512x256 .f32 :=
  st_k4_t1 (F := F) Variants.none c none i arg1 harg1 arg2 harg2 arg3 harg3 arg4 harg4 arg5 harg5 (harg1.unread x0) (harg3.unread x2) (harg4.unread x3)
    (k4_pay1, k4_pay2, k4_pay3) (Scf.trips k4_t1_loop.lb k4_t1_loop.ub k4_t1_loop.st)

/-- Window 4's staging buffer after the body, from the input windows' blocks: its one whole-block store, whose
    payload takes the normaliser and the accumulator the loop ends with and the blocks of windows 1 and 0. -/
def out4_4 (c : Dev nD) (i : grid4.Coords) (arg1 : Memref sig .tc .vmem S512x256 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S512x256 .f32) (harg5 : arg5.IsWhole)
    (x0 x1 : Vec F S512x256 .f32) (x2 x3 : Vec F S4096x256 .f32) : Vec F S512x256 .f32 :=
  View.canon [⟨r4_4, k4_pay10 (loop4 c i arg1 harg1 arg2 harg2 arg3 harg3 arg4 harg4 arg5 harg5 x0 x2 x3).2.1 (loop4 c i arg1 harg1 arg2 harg2 arg3 harg3 arg4 harg4 arg5 harg5 x0 x2 x3).2.2
    (View.ld x1 r4_4) (View.ld x0 r4_4)⟩]

/-- The one store is of the whole block, so it covers the buffer. -/
theorem cover4_4 (p0 : Vec F S512x256 .f32) (y : S512x256.Idx) :
    ∃ pc ∈ ([⟨r4_4, p0⟩] : List (View.Piece (Elt F) S512x256 .f32)), y ∈ pc.1.set :=
  View.cover_of_tiled [⟨r4_4, p0⟩] S512x256.size (by rfl) y

/-! ## The body's triple -/

set_option maxHeartbeats 1000000 in
/-- The kernel body on whole staging memrefs, the inputs' at contents `xW` and the output's at anything, runs to
    the continuation holding the inputs' as they were and the output's at `out4_4` of the inputs'. The raw
    contents of each memref the loop reads are named from what it reads (a whole memref's reading is a
    bijection), so that the loop's invariant is met at the blocks themselves; the run goes through the loop once,
    by its invariant, and ends with the one store written over whatever the output's buffer held. -/
theorem sound_kernel4 (c : Dev nD) (E : Set ℕ) (i : grid4.Coords) (arg1 : Memref sig .tc .vmem S512x256 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S512x256 .f32) (harg5 : arg5.IsWhole)
    (x0 x1 : Vec F S512x256 .f32) (x2 x3 : Vec F S4096x256 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out4_4 c i arg1 harg1 arg2 harg2 arg3 harg3 arg4 harg4 arg5 harg5 x0 x1 x2 x3)) -∗ K ⟨⟩))
      ⊢ wp frame (wpE (defs₀ (F := F)) Variants.none c none) E (cc4_kernel i arg1 harg1 arg2 harg2 arg3 harg3 arg4 harg4 arg5 harg5) K := by
  simp only [cc4_kernel_eq_skeleton]; unfold cc4_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg1.eq_unread hf0
  obtain rfl := harg3.eq_unread hf2
  obtain rfl := harg4.eq_unread hf3
  subst hf1
  sl_exec
  sl_step
  iapply Hk
  isplitl [H0]
  · iexists _; isplitr; · ipureintro; exact hf0
    iexact H0
  isplitl [H1]
  · iexists f1; isplitr; · ipureintro; rfl
    iexact H1
  isplitl [H2]
  · iexists _; isplitr; · ipureintro; exact hf2
    iexact H2
  isplitl [H3]
  · iexists _; isplitr; · ipureintro; exact hf3
    iexact H3
  iexists _; isplitr
  swap; · iexact H4
  ipureintro
  rw [View.read_writes_eq_canon _ _ _ (cover4_4 _)]
  unfold out4_4 loop4
  rw [View.readAt_eq_ld, View.readAt_eq_ld, hf0]

/-! ## The pipeline's proof data -/

/-- The proof data of this pipeline on core `c`: the arrays as the region finds them; after the body at point `t`
    each input's buffer at its block and the output's at `out4_4` of the input blocks, at the point's staging
    memrefs; the invariant the scoped rest and the generator register, untouched; nothing owed. Windows 0 and 2
    stage one array, and so do windows 1 and 3: each pair splits its array's full share in two halves, the
    lower-numbered window holding the left; the output's array is held whole. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 c (grid4.coords t) (st4_0 t) (hstage4_0 ((cfg4.slots t 0).cast nbuf4_0)) (st4_1 t) (hstage4_1 ((cfg4.slots t 1).cast nbuf4_1)) (st4_2 t) (hstage4_2 ((cfg4.slots t 2).cast nbuf4_2)) (st4_3 t) (hstage4_3 ((cfg4.slots t 3).cast nbuf4_3)) (st4_4 t) (hstage4_4 ((cfg4.slots t 4).cast nbuf4_4))
        (iblk4 V c 0 t) (iblk4 V c 1 t) (iblk4 V c 2 t) (iblk4 V c 3 t)
  Φ _ := Pipeline.ΦA spec4 c
  q w := match w with
    | ⟨0, _⟩ => fullShare.left
    | ⟨1, _⟩ => fullShare.left
    | ⟨2, _⟩ => fullShare.right
    | ⟨3, _⟩ => fullShare.right
    | ⟨4, _⟩ => fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t =
    out4_4 c (grid4.coords t) (st4_0 t) (hstage4_0 ((cfg4.slots t 0).cast nbuf4_0)) (st4_1 t) (hstage4_1 ((cfg4.slots t 1).cast nbuf4_1)) (st4_2 t) (hstage4_2 ((cfg4.slots t 2).cast nbuf4_2)) (st4_3 t) (hstage4_3 ((cfg4.slots t 3).cast nbuf4_3)) (st4_4 t) (hstage4_4 ((cfg4.slots t 4).cast nbuf4_4))
      (iblk4 V c 0 t) (iblk4 V c 1 t) (iblk4 V c 2 t) (iblk4 V c 3 t) := by dsimp only [dat4]

/-- The shares, window by window. -/
theorem q4_0 (c : Dev nD) : (dat4 V c).q 0 = fullShare.left := by dsimp only [dat4]
theorem q4_1 (c : Dev nD) : (dat4 V c).q 1 = fullShare.left := by dsimp only [dat4]
theorem q4_2 (c : Dev nD) : (dat4 V c).q 2 = fullShare.right := by dsimp only [dat4]
theorem q4_3 (c : Dev nD) : (dat4 V c).q 3 = fullShare.right := by dsimp only [dat4]
theorem q4_4 (c : Dev nD) : (dat4 V c).q 4 = fullShare := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

/-- The body at any point: the inputs' memrefs hold their blocks, so the body's triple applies; the invariant and
    the core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Region5.lean ====
import proofs.«170994_j15857019257044_2_alg».proof.Proof.Gen.KernelIdeal.Launch
import proofs.«170994_j15857019257044_2_alg».proof.Proof.Gen.KernelIdeal.Skeleton
import proofs.«170994_j15857019257044_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 5 of @main: the row-tiled sigmoid linear layer `cc5_kernel` (x block i, the whole weight, the whole bias → out block i) -/

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, fetched there or not (an unfetched
    window's block index has not moved), for any proof data whose array is `V`'s and whose body leaves the block
    in place. Window 0 (the rows of x): -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Window 1 (the whole weight, one block for every point): -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Window 2 (the whole bias row, one block for every point): -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each a whole staging buffer -/

abbrev r5_x : Rect S512x256 := Rect.unit (s := S512x256) ![0, 0] S512x256.size inb_S512x256_S512x256_0_0
abbrev r5_w : Rect S256x256 := Rect.unit (s := S256x256) ![0, 0] S256x256.size inb_S256x256_S256x256_0_0
abbrev r5_b : Rect S1x256 := Rect.unit (s := S1x256) ![0, 0] S1x256.size inb_S1x256_S1x256_0_0

/-! ## What the body leaves in the output window's buffer -/

/-- Window 3's staging buffer after the body, from the input windows' blocks: its one store, of logistic (x·Wᵀ + b)
    (the payload `k5_pay1` of the three loads). -/
def out5_3 (x0 : Vec F S512x256 .f32) (x1 : Vec F S256x256 .bf16) (x2 : Vec F S1x256 .f32) : Vec F S512x256 .f32 :=
  View.canon [⟨r5_x, k5_pay1 (View.ld x0 r5_x) (View.ld x1 r5_w) (View.ld x2 r5_b)⟩]

/-- The store is the whole buffer, so it covers it. -/
theorem cover5_3 (p0 : Vec F S512x256 .f32) (y : S512x256.Idx) :
    ∃ pc ∈ ([⟨r5_x, p0⟩] : List (View.Piece (Elt F) S512x256 .f32)), y ∈ pc.1.set :=
  View.cover_of_tiled [⟨r5_x, p0⟩] S512x256.size (by rfl) y

/-! ## The body's triple -/

set_option maxHeartbeats 1000000 in
/-- The kernel body on whole staging memrefs, the inputs' at read contents `xW` and the output's at anything, runs to
    the continuation holding the inputs' as they were and the output's at `out5_3` of the inputs'. -/
theorem sound_kernel5 (c : Dev nD) (E : Set ℕ) (i : grid5.Coords)
    (arg1 : Memref sig .tc .vmem S512x256 .f32) (harg1 : arg1.IsWhole) (arg2 : Memref sig .tc .vmem S256x256 .bf16) (harg2 : arg2.IsWhole)
    (arg3 : Memref sig .tc .vmem S1x256 .f32) (harg3 : arg3.IsWhole) (arg4 : Memref sig .tc .vmem S512x256 .f32) (harg4 : arg4.IsWhole)
    (x0 : Vec F S512x256 .f32) (x1 : Vec F S256x256 .bf16) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out5_3 x0 x1 x2)) -∗ K ⟨⟩))
      ⊢ wp frame (wpE (defs₀ (F := F)) Variants.none c none) E (cc5_kernel i arg1 harg1 arg2 harg2 arg3 harg3 arg4 harg4) K := by
  simp only [cc5_kernel_eq_skeleton]; unfold cc5_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-! ## The pipeline's proof data -/

/-- The proof data of pipeline 5 on core `c`: the arrays as the region finds them (`V`); after the body at
    point `t` each input's buffer at its block and the output's at `out5_3` of the input blocks; the invariant the
    scoped rest and the generator register, untouched; nothing owed; every array read through one window, at the full share. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q w := match w with
    | ⟨0, _⟩ => fullShare
    | ⟨1, _⟩ => fullShare
    | ⟨2, _⟩ => fullShare
    | ⟨3, _⟩ => fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = out5_3 (iblk5 V c 0 t) (iblk5 V c 1 t) (iblk5 V c 2 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point `t` (the windows one by one), -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' memrefs hold their blocks (`before5_W`), so `sound_kernel5` applies; the
    invariant and the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Region6.lean ====
import proofs.«170994_j15857019257044_2_alg».proof.Proof.Gen.KernelIdeal.Launch
import proofs.«170994_j15857019257044_2_alg».proof.Proof.Gen.KernelIdeal.Skeleton
import proofs.«170994_j15857019257044_2_alg».proof.Proof.Gen.KernelIdeal.Points
import proofs.«170994_j15857019257044_2_alg».proof.Proof.Gen.KernelIdeal.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The final softmax attention: the region's half of the frame

The body at grid point `i` holds a block of 512 rows of the gate `gt` (window 0), of `K` (window 1) and of `B1`
(window 5), the whole of `gt` (window 2), of `Q` (window 3) and of `B2` (window 4), and writes a block of 512 rows
of the result (window 6). It loads the blocks of windows 0 and 1; a counted loop of 16 trips then walks the 4096 rows
of the three whole arrays 256 at a time, carrying in VALUES the running row maximum, the normaliser and the
accumulator of a streaming softmax over the two loaded blocks; after it ONE store writes the whole output block from
the carried normaliser and accumulator and the block of window 5. Nothing is carried in memory between points. -/

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current staging buffer holds its block at every point, fetched there or not: the body only
    reads it, so where the block index has not moved since the last fetch (the whole-array windows 2, 3 and 4
    after the first point) what the body left is the block again. For any proof data whose array is the entry
    contents and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses -/

/-- The whole 512×256 block: the rectangle of every whole-block load and of the one store. -/
abbrev r6_6 : Rect S512x256 := Rect.unit (s := S512x256) ![0, 0] S512x256.size inb_S512x256_S512x256_0_0

/-! ## What the body leaves in the output window's buffer -/

/-- The value the loop carries out of its 16 trips — (running maximum, normaliser, accumulator) — from the initial
    (−∞, 0, 0): the recursion over the trips' yields, at the blocks `x0`, `x1` loaded before the loop (windows 0
    and 1) and the staging memrefs holding `x2`, `x3`, `x4` (windows 2, 3, 4, the whole arrays), which are all the
    loop reads. -/
def loop6 (c : Dev nD) (i : grid6.Coords) (arg1 : Memref sig .tc .vmem S512x256 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S4096x256 .f32) (harg5 : arg5.IsWhole) (arg6 : Memref sig .tc .vmem S512x256 .f32) (harg6 : arg6.IsWhole) (arg7 : Memref sig .tc .vmem S512x256 .f32) (harg7 : arg7.IsWhole)
    (x0 x1 : Vec F S512x256 .f32) (x2 x3 x4 : Vec F S4096x256 .f32) : FVec F S512x1 .f32 × FVec F S512x1 .f32 × FVec F S512x256 .f32 :=
  st_k6_t1 (F := F) Variants.none c none i arg1 harg1 arg2 harg2 arg3 harg3 arg4 harg4 arg5 harg5 arg6 harg6 arg7 harg7 (View.ld x0 r6_6) (View.ld x1 r6_6)
    (harg3.unread x2) (harg4.unread x3) (harg5.unread x4)
    (k6_pay1, k6_pay2, k6_pay3) (Scf.trips k6_t1_loop.lb k6_t1_loop.ub k6_t1_loop.st)

/-- Window 6's staging buffer after the body, from the input windows' blocks: its one whole-block store, whose
    payload takes the normaliser and the accumulator the loop ends with and the block of window 5. -/
def out6_6 (c : Dev nD) (i : grid6.Coords) (arg1 : Memref sig .tc .vmem S512x256 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S4096x256 .f32) (harg5 : arg5.IsWhole) (arg6 : Memref sig .tc .vmem S512x256 .f32) (harg6 : arg6.IsWhole) (arg7 : Memref sig .tc .vmem S512x256 .f32) (harg7 : arg7.IsWhole)
    (x0 x1 : Vec F S512x256 .f32) (x2 x3 x4 : Vec F S4096x256 .f32) (x5 : Vec F S512x256 .f32) : Vec F S512x256 .f32 :=
  View.canon [⟨r6_6, k6_pay10 (loop6 c i arg1 harg1 arg2 harg2 arg3 harg3 arg4 harg4 arg5 harg5 arg6 harg6 arg7 harg7 x0 x1 x2 x3 x4).2.1 (loop6 c i arg1 harg1 arg2 harg2 arg3 harg3 arg4 harg4 arg5 harg5 arg6 harg6 arg7 harg7 x0 x1 x2 x3 x4).2.2
    (View.ld x5 r6_6)⟩]

/-- The one store is of the whole block, so it covers the buffer. -/
theorem cover6_6 (p0 : Vec F S512x256 .f32) (y : S512x256.Idx) :
    ∃ pc ∈ ([⟨r6_6, p0⟩] : List (View.Piece (Elt F) S512x256 .f32)), y ∈ pc.1.set :=
  View.cover_of_tiled [⟨r6_6, p0⟩] S512x256.size (by rfl) y

/-! ## The body's triple -/

set_option maxHeartbeats 1000000 in
/-- The kernel body on whole staging memrefs, the inputs' at contents `xW` and the output's at anything, runs to
    the continuation holding the inputs' as they were and the output's at `out6_6` of the inputs'. The raw
    contents of each memref the loop reads are named from what it reads (a whole memref's reading is a
    bijection), so that the loop's invariant is met at the blocks themselves; the run goes through the loop once,
    by its invariant, and ends with the one store written over whatever the output's buffer held. -/
theorem sound_kernel6 (c : Dev nD) (E : Set ℕ) (i : grid6.Coords) (arg1 : Memref sig .tc .vmem S512x256 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S4096x256 .f32) (harg5 : arg5.IsWhole) (arg6 : Memref sig .tc .vmem S512x256 .f32) (harg6 : arg6.IsWhole) (arg7 : Memref sig .tc .vmem S512x256 .f32) (harg7 : arg7.IsWhole)
    (x0 x1 : Vec F S512x256 .f32) (x2 x3 x4 : Vec F S4096x256 .f32) (x5 : Vec F S512x256 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ (∃ d, owns (c : Thread nD τ) arg7 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare (out6_6 c i arg1 harg1 arg2 harg2 arg3 harg3 arg4 harg4 arg5 harg5 arg6 harg6 arg7 harg7 x0 x1 x2 x3 x4 x5)) -∗ K ⟨⟩))
      ⊢ wp frame (wpE (defs₀ (F := F)) Variants.none c none) E (cc6_kernel i arg1 harg1 arg2 harg2 arg3 harg3 arg4 harg4 arg5 harg5 arg6 harg6 arg7 harg7) K := by
  simp only [cc6_kernel_eq_skeleton]; unfold cc6_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  obtain rfl := harg3.eq_unread hf2
  obtain rfl := harg4.eq_unread hf3
  obtain rfl := harg5.eq_unread hf4
  subst hf0
  subst hf1
  subst hf5
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists f5; isplitr; · ipureintro; rfl
    iexact H5
  iexists _; isplitr
  swap; · iexact H6
  ipureintro
  rw [View.read_writes_eq_canon _ _ _ (cover6_6 _)]
  rfl

/-! ## The pipeline's proof data -/

/-- The proof data of this pipeline on core `c`: the arrays as the region finds them; after the body at point `t`
    each input's buffer at its block and the output's at `out6_6` of the input blocks, at the point's staging
    memrefs; the invariant the scoped rest and the generator register, untouched; nothing owed. Windows 0 and 2
    stage one array and split its full share in two halves, window 0 holding the left; every other window's array
    is held whole. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => out6_6 c (grid6.coords t) (st6_0 t) (hstage6_0 ((cfg6.slots t 0).cast nbuf6_0)) (st6_1 t) (hstage6_1 ((cfg6.slots t 1).cast nbuf6_1)) (st6_2 t) (hstage6_2 ((cfg6.slots t 2).cast nbuf6_2)) (st6_3 t) (hstage6_3 ((cfg6.slots t 3).cast nbuf6_3)) (st6_4 t) (hstage6_4 ((cfg6.slots t 4).cast nbuf6_4)) (st6_5 t) (hstage6_5 ((cfg6.slots t 5).cast nbuf6_5)) (st6_6 t) (hstage6_6 ((cfg6.slots t 6).cast nbuf6_6))
        (iblk6 V c 0 t) (iblk6 V c 1 t) (iblk6 V c 2 t) (iblk6 V c 3 t) (iblk6 V c 4 t) (iblk6 V c 5 t)
  Φ _ := Pipeline.ΦA spec6 c
  q w := match w with
    | ⟨0, _⟩ => fullShare.left
    | ⟨1, _⟩ => fullShare
    | ⟨2, _⟩ => fullShare.right
    | ⟨3, _⟩ => fullShare
    | ⟨4, _⟩ => fullShare
    | ⟨5, _⟩ => fullShare
    | ⟨6, _⟩ => fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t =
    out6_6 c (grid6.coords t) (st6_0 t) (hstage6_0 ((cfg6.slots t 0).cast nbuf6_0)) (st6_1 t) (hstage6_1 ((cfg6.slots t 1).cast nbuf6_1)) (st6_2 t) (hstage6_2 ((cfg6.slots t 2).cast nbuf6_2)) (st6_3 t) (hstage6_3 ((cfg6.slots t 3).cast nbuf6_3)) (st6_4 t) (hstage6_4 ((cfg6.slots t 4).cast nbuf6_4)) (st6_5 t) (hstage6_5 ((cfg6.slots t 5).cast nbuf6_5)) (st6_6 t) (hstage6_6 ((cfg6.slots t 6).cast nbuf6_6))
      (iblk6 V c 0 t) (iblk6 V c 1 t) (iblk6 V c 2 t) (iblk6 V c 3 t) (iblk6 V c 4 t) (iblk6 V c 5 t) := by dsimp only [dat6]

/-- The shares, window by window. -/
theorem q6_0 (c : Dev nD) : (dat6 V c).q 0 = fullShare.left := by dsimp only [dat6]
theorem q6_1 (c : Dev nD) : (dat6 V c).q 1 = fullShare := by dsimp only [dat6]
theorem q6_2 (c : Dev nD) : (dat6 V c).q 2 = fullShare.right := by dsimp only [dat6]
theorem q6_3 (c : Dev nD) : (dat6 V c).q 3 = fullShare := by dsimp only [dat6]
theorem q6_4 (c : Dev nD) : (dat6 V c).q 4 = fullShare := by dsimp only [dat6]
theorem q6_5 (c : Dev nD) : (dat6 V c).q 5 = fullShare := by dsimp only [dat6]
theorem q6_6 (c : Dev nD) : (dat6 V c).q 6 = fullShare := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t))

/-- The body at any point: the inputs' memrefs hold their blocks, so the body's triple applies; the invariant and
    the core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel6 c Set.univ _ _ _ _ _ _ _ _ _ _ _ _ _ _ _ (iblk6 V c 0 t) (iblk6 V c 1 t) (iblk6 V c 2 t) (iblk6 V c 3 t) (iblk6 V c 4 t) (iblk6 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.Bounds.lean ====
import proofs.«170994_j15857019257044_2_alg».proof.Proof.KI.Region0
import proofs.«170994_j15857019257044_2_alg».proof.Proof.KI.Region1
import proofs.«170994_j15857019257044_2_alg».proof.Proof.KI.Region2
import proofs.«170994_j15857019257044_2_alg».proof.Proof.KI.Region3
import proofs.«170994_j15857019257044_2_alg».proof.Proof.KI.Region4
import proofs.«170994_j15857019257044_2_alg».proof.Proof.KI.Region5
import proofs.«170994_j15857019257044_2_alg».proof.Proof.KI.Region6
import proofs.«170994_j15857019257044_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! # The buffers' contents between the items of @main

Item 0 is the stretch of host operations, items 1–7 the seven kernel regions. A region changes only its output
arrays: the contents after it are the contents before it updated at those arrays with what its write-backs leave. -/

/-- A valuation read at the TensorCore's references (what a region's proof data take). -/
abbrev Vt (X : Dev nD → Valuation τ sig (Elt F)) : (c : Dev nD) → (b : Ref sig .tc) → Buf (Elt F) ((c : Thread nD τ).loc b) :=
  fun c b => X c b

/-- After the host operations (region 0's entry). -/
abbrev X1 : Dev nD → Valuation τ sig (Elt F) := fun c => Gen.V1 m c

/-! ## Region 0 -/

/-- After region 0: its output array at what the write-backs leave, every other buffer as before. -/
def X2 (c : Dev nD) : Valuation τ sig (Elt F) :=
  Function.update (X1 m c) main_v14 (((dat0 (Vt (X1 m)) c).arrAt 3 cfg0.N : Buf (Elt F) ((c : Thread nD τ).loc main_v14)))

/-- A buffer that is not an output of region 0 is as before. -/
theorem X2_of_ne (c : Dev nD) (b : Ref sig .tc) (hb : b ∉ ([main_v14] : List (Ref sig .tc))) : X2 m c b = X1 m c b := by
  unfold X2
  rw [Function.update_of_ne (StableHlo.devRef_ne_of_ne (List.ne_of_not_mem_cons hb) : (Proc.devRef .tc b : DevRef τ sig) ≠ Proc.devRef .tc main_v14)]
/-- Output window 3's array after region 0. -/
theorem X2_out3 (c : Dev nD) : X2 m c main_v14 = (dat0 (Vt (X1 m)) c).arrAt 3 cfg0.N := by
  unfold X2
  exact Function.update_self ..
/-- At region 0's exit each of its arrays holds what the pipeline leaves: an input array what it held at entry, an
    output array what the write-backs leave. Window by window: -/
theorem hF0_0 (c : Dev nD) : (dat0 (Vt (X1 m)) c).arrAt 0 cfg0.N = X2 m c main_arg0 :=
  (((dat0 (Vt (X1 m)) c).arrAt_in 0 rfl _).trans (A_eq0 (Vt (X1 m)) c 0)).trans (X2_of_ne m c main_arg0 (by decide)).symm
theorem hF0_1 (c : Dev nD) : (dat0 (Vt (X1 m)) c).arrAt 1 cfg0.N = X2 m c main_v7 :=
  (((dat0 (Vt (X1 m)) c).arrAt_in 1 rfl _).trans (A_eq0 (Vt (X1 m)) c 1)).trans (X2_of_ne m c main_v7 (by decide)).symm
theorem hF0_2 (c : Dev nD) : (dat0 (Vt (X1 m)) c).arrAt 2 cfg0.N = X2 m c main_v0 :=
  (((dat0 (Vt (X1 m)) c).arrAt_in 2 rfl _).trans (A_eq0 (Vt (X1 m)) c 2)).trans (X2_of_ne m c main_v0 (by decide)).symm
theorem hF0_3 (c : Dev nD) : (dat0 (Vt (X1 m)) c).arrAt 3 cfg0.N = X2 m c main_v14 := (X2_out3 m c).symm
theorem hF0 (c : Dev nD) (w : Fin cfg0.W) : (dat0 (Vt (X1 m)) c).arrAt w cfg0.N = Vt (X2 m) c (Pipeline.arrRef spec0 w) := by
  match w with
  | ⟨0, _⟩ => exact hF0_0 m c
  | ⟨1, _⟩ => exact hF0_1 m c
  | ⟨2, _⟩ => exact hF0_2 m c
  | ⟨3, _⟩ => exact hF0_3 m c
/-- and every buffer that is none of its arrays what it held at entry. -/
theorem hrest0 (c : Dev nD) : ∀ b, b ∉ Finset.univ.image (Pipeline.arrRef spec0) → Vt (X2 m) c b = Vt (X1 m) c b :=
  fun b hb => X2_of_ne m c b fun hmem => by
    simp only [List.mem_cons, List.not_mem_nil, or_false] at hmem
    subst hmem
    exact hb (Finset.mem_image.mpr ⟨3, Finset.mem_univ _, rfl⟩)

/-! ## Region 1 -/

/-- After region 1: its output arrays at what the write-backs leave, every other buffer as before. -/
def X3 (c : Dev nD) : Valuation τ sig (Elt F) :=
  Function.update (Function.update (Function.update (Function.update (X2 m c) main_v15_0 (((dat1 (Vt (X2 m)) c).arrAt 7 cfg1.N : Buf (Elt F) ((c : Thread nD τ).loc main_v15_0)))) main_v15_1 (((dat1 (Vt (X2 m)) c).arrAt 8 cfg1.N : Buf (Elt F) ((c : Thread nD τ).loc main_v15_1)))) main_v15_2 (((dat1 (Vt (X2 m)) c).arrAt 9 cfg1.N : Buf (Elt F) ((c : Thread nD τ).loc main_v15_2)))) main_v15_3 (((dat1 (Vt (X2 m)) c).arrAt 10 cfg1.N : Buf (Elt F) ((c : Thread nD τ).loc main_v15_3)))

/-- A buffer that is not an output of region 1 is as before. -/
theorem X3_of_ne (c : Dev nD) (b : Ref sig .tc) (hb : b ∉ ([main_v15_0, main_v15_1, main_v15_2, main_v15_3] : List (Ref sig .tc))) : X3 m c b = X2 m c b := by
  unfold X3
  rw [Function.update_of_ne (StableHlo.devRef_ne_of_ne (List.ne_of_not_mem_cons (List.not_mem_of_not_mem_cons (List.not_mem_of_not_mem_cons (List.not_mem_of_not_mem_cons hb)))) : (Proc.devRef .tc b : DevRef τ sig) ≠ Proc.devRef .tc main_v15_3),
    Function.update_of_ne (StableHlo.devRef_ne_of_ne (List.ne_of_not_mem_cons (List.not_mem_of_not_mem_cons (List.not_mem_of_not_mem_cons hb))) : (Proc.devRef .tc b : DevRef τ sig) ≠ Proc.devRef .tc main_v15_2),
    Function.update_of_ne (StableHlo.devRef_ne_of_ne (List.ne_of_not_mem_cons (List.not_mem_of_not_mem_cons hb)) : (Proc.devRef .tc b : DevRef τ sig) ≠ Proc.devRef .tc main_v15_1),
    Function.update_of_ne (StableHlo.devRef_ne_of_ne (List.ne_of_not_mem_cons hb) : (Proc.devRef .tc b : DevRef τ sig) ≠ Proc.devRef .tc main_v15_0)]
/-- Output window 7's array after region 1. -/
theorem X3_out7 (c : Dev nD) : X3 m c main_v15_0 = (dat1 (Vt (X2 m)) c).arrAt 7 cfg1.N := by
  unfold X3
  rw [Function.update_of_ne (StableHlo.devRef_ne_of_ne (by decide) : (Proc.devRef .tc main_v15_0 : DevRef τ sig) ≠ Proc.devRef .tc main_v15_3),
    Function.update_of_ne (StableHlo.devRef_ne_of_ne (by decide) : (Proc.devRef .tc main_v15_0 : DevRef τ sig) ≠ Proc.devRef .tc main_v15_2),
    Function.update_of_ne (StableHlo.devRef_ne_of_ne (by decide) : (Proc.devRef .tc main_v15_0 : DevRef τ sig) ≠ Proc.devRef .tc main_v15_1)]
  exact Function.update_self ..
/-- Output window 8's array after region 1. -/
theorem X3_out8 (c : Dev nD) : X3 m c main_v15_1 = (dat1 (Vt (X2 m)) c).arrAt 8 cfg1.N := by
  unfold X3
  rw [Function.update_of_ne (StableHlo.devRef_ne_of_ne (by decide) : (Proc.devRef .tc main_v15_1 : DevRef τ sig) ≠ Proc.devRef .tc main_v15_3),
    Function.update_of_ne (StableHlo.devRef_ne_of_ne (by decide) : (Proc.devRef .tc main_v15_1 : DevRef τ sig) ≠ Proc.devRef .tc main_v15_2)]
  exact Function.update_self ..
/-- Output window 9's array after region 1. -/
theorem X3_out9 (c : Dev nD) : X3 m c main_v15_2 = (dat1 (Vt (X2 m)) c).arrAt 9 cfg1.N := by
  unfold X3
  rw [Function.update_of_ne (StableHlo.devRef_ne_of_ne (by decide) : (Proc.devRef .tc main_v15_2 : DevRef τ sig) ≠ Proc.devRef .tc main_v15_3)]
  exact Function.update_self ..
/-- Output window 10's array after region 1. -/
theorem X3_out10 (c : Dev nD) : X3 m c main_v15_3 = (dat1 (Vt (X2 m)) c).arrAt 10 cfg1.N := by
  unfold X3
  exact Function.update_self ..
/-- At region 1's exit each of its arrays holds what the pipeline leaves: an input array what it held at entry, an
    output array what the write-backs leave. Window by window: -/
theorem hF1_0 (c : Dev nD) : (dat1 (Vt (X2 m)) c).arrAt 0 cfg1.N = X3 m c main_arg1 :=
  (((dat1 (Vt (X2 m)) c).arrAt_in 0 rfl _).trans (A_eq1 (Vt (X2 m)) c 0)).trans (X3_of_ne m c main_arg1 (by decide)).symm
theorem hF1_1 (c : Dev nD) : (dat1 (Vt (X2 m)) c).arrAt 1 cfg1.N = X3 m c main_v11 :=
  (((dat1 (Vt (X2 m)) c).arrAt_in 1 rfl _).trans (A_eq1 (Vt (X2 m)) c 1)).trans (X3_of_ne m c main_v11 (by decide)).symm
theorem hF1_2 (c : Dev nD) : (dat1 (Vt (X2 m)) c).arrAt 2 cfg1.N = X3 m c main_v4 :=
  (((dat1 (Vt (X2 m)) c).arrAt_in 2 rfl _).trans (A_eq1 (Vt (X2 m)) c 2)).trans (X3_of_ne m c main_v4 (by decide)).symm
theorem hF1_3 (c : Dev nD) : (dat1 (Vt (X2 m)) c).arrAt 3 cfg1.N = X3 m c main_v12 :=
  (((dat1 (Vt (X2 m)) c).arrAt_in 3 rfl _).trans (A_eq1 (Vt (X2 m)) c 3)).trans (X3_of_ne m c main_v12 (by decide)).symm
theorem hF1_4 (c : Dev nD) : (dat1 (Vt (X2 m)) c).arrAt 4 cfg1.N = X3 m c main_v5 :=
  (((dat1 (Vt (X2 m)) c).arrAt_in 4 rfl _).trans (A_eq1 (Vt (X2 m)) c 4)).trans (X3_of_ne m c main_v5 (by decide)).symm
theorem hF1_5 (c : Dev nD) : (dat1 (Vt (X2 m)) c).arrAt 5 cfg1.N = X3 m c main_arg14 :=
  (((dat1 (Vt (X2 m)) c).arrAt_in 5 rfl _).trans (A_eq1 (Vt (X2 m)) c 5)).trans (X3_of_ne m c main_arg14 (by decide)).symm
theorem hF1_6 (c : Dev nD) : (dat1 (Vt (X2 m)) c).arrAt 6 cfg1.N = X3 m c main_arg15 :=
  (((dat1 (Vt (X2 m)) c).arrAt_in 6 rfl _).trans (A_eq1 (Vt (X2 m)) c 6)).trans (X3_of_ne m c main_arg15 (by decide)).symm
theorem hF1_7 (c : Dev nD) : (dat1 (Vt (X2 m)) c).arrAt 7 cfg1.N = X3 m c main_v15_0 := (X3_out7 m c).symm
theorem hF1_8 (c : Dev nD) : (dat1 (Vt (X2 m)) c).arrAt 8 cfg1.N = X3 m c main_v15_1 := (X3_out8 m c).symm
theorem hF1_9 (c : Dev nD) : (dat1 (Vt (X2 m)) c).arrAt 9 cfg1.N = X3 m c main_v15_2 := (X3_out9 m c).symm
theorem hF1_10 (c : Dev nD) : (dat1 (Vt (X2 m)) c).arrAt 10 cfg1.N = X3 m c main_v15_3 := (X3_out10 m c).symm
theorem hF1 (c : Dev nD) (w : Fin cfg1.W) : (dat1 (Vt (X2 m)) c).arrAt w cfg1.N = Vt (X3 m) c (Pipeline.arrRef spec1 w) := by
  match w with
  | ⟨0, _⟩ => exact hF1_0 m c
  | ⟨1, _⟩ => exact hF1_1 m c
  | ⟨2, _⟩ => exact hF1_2 m c
  | ⟨3, _⟩ => exact hF1_3 m c
  | ⟨4, _⟩ => exact hF1_4 m c
  | ⟨5, _⟩ => exact hF1_5 m c
  | ⟨6, _⟩ => exact hF1_6 m c
  | ⟨7, _⟩ => exact hF1_7 m c
  | ⟨8, _⟩ => exact hF1_8 m c
  | ⟨9, _⟩ => exact hF1_9 m c
  | ⟨10, _⟩ => exact hF1_10 m c
/-- and every buffer that is none of its arrays what it held at entry. -/
theorem hrest1 (c : Dev nD) : ∀ b, b ∉ Finset.univ.image (Pipeline.arrRef spec1) → Vt (X3 m) c b = Vt (X2 m) c b :=
  fun b hb => X3_of_ne m c b fun hmem => by
    simp only [List.mem_cons, List.not_mem_nil, or_false] at hmem
    rcases hmem with rfl | rfl | rfl | rfl
    · exact hb (Finset.mem_image.mpr ⟨7, Finset.mem_univ _, rfl⟩)
    · exact hb (Finset.mem_image.mpr ⟨8, Finset.mem_univ _, rfl⟩)
    · exact hb (Finset.mem_image.mpr ⟨9, Finset.mem_univ _, rfl⟩)
    · exact hb (Finset.mem_image.mpr ⟨10, Finset.mem_univ _, rfl⟩)

/-! ## Region 2 -/

/-- After region 2: its output arrays at what the write-backs leave, every other buffer as before. -/
def X4 (c : Dev nD) : Valuation τ sig (Elt F) :=
  Function.update (Function.update (X3 m c) main_v16_0 (((dat2 (Vt (X3 m)) c).arrAt 12 cfg2.N : Buf (Elt F) ((c : Thread nD τ).loc main_v16_0)))) main_v16_1 (((dat2 (Vt (X3 m)) c).arrAt 13 cfg2.N : Buf (Elt F) ((c : Thread nD τ).loc main_v16_1)))

/-- A buffer that is not an output of region 2 is as before. -/
theorem X4_of_ne (c : Dev nD) (b : Ref sig .tc) (hb : b ∉ ([main_v16_0, main_v16_1] : List (Ref sig .tc))) : X4 m c b = X3 m c b := by
  unfold X4
  rw [Function.update_of_ne (StableHlo.devRef_ne_of_ne (List.ne_of_not_mem_cons (List.not_mem_of_not_mem_cons hb)) : (Proc.devRef .tc b : DevRef τ sig) ≠ Proc.devRef .tc main_v16_1),
    Function.update_of_ne (StableHlo.devRef_ne_of_ne (List.ne_of_not_mem_cons hb) : (Proc.devRef .tc b : DevRef τ sig) ≠ Proc.devRef .tc main_v16_0)]
/-- Output window 12's array after region 2. -/
theorem X4_out12 (c : Dev nD) : X4 m c main_v16_0 = (dat2 (Vt (X3 m)) c).arrAt 12 cfg2.N := by
  unfold X4
  rw [Function.update_of_ne (StableHlo.devRef_ne_of_ne (by decide) : (Proc.devRef .tc main_v16_0 : DevRef τ sig) ≠ Proc.devRef .tc main_v16_1)]
  exact Function.update_self ..
/-- Output window 13's array after region 2. -/
theorem X4_out13 (c : Dev nD) : X4 m c main_v16_1 = (dat2 (Vt (X3 m)) c).arrAt 13 cfg2.N := by
  unfold X4
  exact Function.update_self ..
/-- At region 2's exit each of its arrays holds what the pipeline leaves: an input array what it held at entry, an
    output array what the write-backs leave. Window by window: -/
theorem hF2_0 (c : Dev nD) : (dat2 (Vt (X3 m)) c).arrAt 0 cfg2.N = X4 m c main_arg1 :=
  (((dat2 (Vt (X3 m)) c).arrAt_in 0 rfl _).trans (A_eq2 (Vt (X3 m)) c 0)).trans (X4_of_ne m c main_arg1 (by decide)).symm
theorem hF2_1 (c : Dev nD) : (dat2 (Vt (X3 m)) c).arrAt 1 cfg2.N = X4 m c main_arg1 :=
  (((dat2 (Vt (X3 m)) c).arrAt_in 1 rfl _).trans (A_eq2 (Vt (X3 m)) c 1)).trans (X4_of_ne m c main_arg1 (by decide)).symm
theorem hF2_2 (c : Dev nD) : (dat2 (Vt (X3 m)) c).arrAt 2 cfg2.N = X4 m c main_v15_2 :=
  (((dat2 (Vt (X3 m)) c).arrAt_in 2 rfl _).trans (A_eq2 (Vt (X3 m)) c 2)).trans (X4_of_ne m c main_v15_2 (by decide)).symm
theorem hF2_3 (c : Dev nD) : (dat2 (Vt (X3 m)) c).arrAt 3 cfg2.N = X4 m c main_v15_3 :=
  (((dat2 (Vt (X3 m)) c).arrAt_in 3 rfl _).trans (A_eq2 (Vt (X3 m)) c 3)).trans (X4_of_ne m c main_v15_3 (by decide)).symm
theorem hF2_4 (c : Dev nD) : (dat2 (Vt (X3 m)) c).arrAt 4 cfg2.N = X4 m c main_v15_0 :=
  (((dat2 (Vt (X3 m)) c).arrAt_in 4 rfl _).trans (A_eq2 (Vt (X3 m)) c 4)).trans (X4_of_ne m c main_v15_0 (by decide)).symm
theorem hF2_5 (c : Dev nD) : (dat2 (Vt (X3 m)) c).arrAt 5 cfg2.N = X4 m c main_v15_1 :=
  (((dat2 (Vt (X3 m)) c).arrAt_in 5 rfl _).trans (A_eq2 (Vt (X3 m)) c 5)).trans (X4_of_ne m c main_v15_1 (by decide)).symm
theorem hF2_6 (c : Dev nD) : (dat2 (Vt (X3 m)) c).arrAt 6 cfg2.N = X4 m c main_v13 :=
  (((dat2 (Vt (X3 m)) c).arrAt_in 6 rfl _).trans (A_eq2 (Vt (X3 m)) c 6)).trans (X4_of_ne m c main_v13 (by decide)).symm
theorem hF2_7 (c : Dev nD) : (dat2 (Vt (X3 m)) c).arrAt 7 cfg2.N = X4 m c main_v6 :=
  (((dat2 (Vt (X3 m)) c).arrAt_in 7 rfl _).trans (A_eq2 (Vt (X3 m)) c 7)).trans (X4_of_ne m c main_v6 (by decide)).symm
theorem hF2_8 (c : Dev nD) : (dat2 (Vt (X3 m)) c).arrAt 8 cfg2.N = X4 m c main_v8 :=
  (((dat2 (Vt (X3 m)) c).arrAt_in 8 rfl _).trans (A_eq2 (Vt (X3 m)) c 8)).trans (X4_of_ne m c main_v8 (by decide)).symm
theorem hF2_9 (c : Dev nD) : (dat2 (Vt (X3 m)) c).arrAt 9 cfg2.N = X4 m c main_v1 :=
  (((dat2 (Vt (X3 m)) c).arrAt_in 9 rfl _).trans (A_eq2 (Vt (X3 m)) c 9)).trans (X4_of_ne m c main_v1 (by decide)).symm
theorem hF2_10 (c : Dev nD) : (dat2 (Vt (X3 m)) c).arrAt 10 cfg2.N = X4 m c main_v9 :=
  (((dat2 (Vt (X3 m)) c).arrAt_in 10 rfl _).trans (A_eq2 (Vt (X3 m)) c 10)).trans (X4_of_ne m c main_v9 (by decide)).symm
theorem hF2_11 (c : Dev nD) : (dat2 (Vt (X3 m)) c).arrAt 11 cfg2.N = X4 m c main_v2 :=
  (((dat2 (Vt (X3 m)) c).arrAt_in 11 rfl _).trans (A_eq2 (Vt (X3 m)) c 11)).trans (X4_of_ne m c main_v2 (by decide)).symm
theorem hF2_12 (c : Dev nD) : (dat2 (Vt (X3 m)) c).arrAt 12 cfg2.N = X4 m c main_v16_0 := (X4_out12 m c).symm
theorem hF2_13 (c : Dev nD) : (dat2 (Vt (X3 m)) c).arrAt 13 cfg2.N = X4 m c main_v16_1 := (X4_out13 m c).symm
theorem hF2 (c : Dev nD) (w : Fin cfg2.W) : (dat2 (Vt (X3 m)) c).arrAt w cfg2.N = Vt (X4 m) c (Pipeline.arrRef spec2 w) := by
  match w with
  | ⟨0, _⟩ => exact hF2_0 m c
  | ⟨1, _⟩ => exact hF2_1 m c
  | ⟨2, _⟩ => exact hF2_2 m c
  | ⟨3, _⟩ => exact hF2_3 m c
  | ⟨4, _⟩ => exact hF2_4 m c
  | ⟨5, _⟩ => exact hF2_5 m c
  | ⟨6, _⟩ => exact hF2_6 m c
  | ⟨7, _⟩ => exact hF2_7 m c
  | ⟨8, _⟩ => exact hF2_8 m c
  | ⟨9, _⟩ => exact hF2_9 m c
  | ⟨10, _⟩ => exact hF2_10 m c
  | ⟨11, _⟩ => exact hF2_11 m c
  | ⟨12, _⟩ => exact hF2_12 m c
  | ⟨13, _⟩ => exact hF2_13 m c
/-- and every buffer that is none of its arrays what it held at entry. -/
theorem hrest2 (c : Dev nD) : ∀ b, b ∉ Finset.univ.image (Pipeline.arrRef spec2) → Vt (X4 m) c b = Vt (X3 m) c b :=
  fun b hb => X4_of_ne m c b fun hmem => by
    simp only [List.mem_cons, List.not_mem_nil, or_false] at hmem
    rcases hmem with rfl | rfl
    · exact hb (Finset.mem_image.mpr ⟨12, Finset.mem_univ _, rfl⟩)
    · exact hb (Finset.mem_image.mpr ⟨13, Finset.mem_univ _, rfl⟩)

/-! ## Region 3 -/

/-- After region 3: its output array at what the write-backs leave, every other buffer as before. -/
def X5 (c : Dev nD) : Valuation τ sig (Elt F) :=
  Function.update (X4 m c) main_v17 (((dat3 (Vt (X4 m)) c).arrAt 4 cfg3.N : Buf (Elt F) ((c : Thread nD τ).loc main_v17)))

/-- A buffer that is not an output of region 3 is as before. -/
theorem X5_of_ne (c : Dev nD) (b : Ref sig .tc) (hb : b ∉ ([main_v17] : List (Ref sig .tc))) : X5 m c b = X4 m c b := by
  unfold X5
  rw [Function.update_of_ne (StableHlo.devRef_ne_of_ne (List.ne_of_not_mem_cons hb) : (Proc.devRef .tc b : DevRef τ sig) ≠ Proc.devRef .tc main_v17)]
/-- Output window 4's array after region 3. -/
theorem X5_out4 (c : Dev nD) : X5 m c main_v17 = (dat3 (Vt (X4 m)) c).arrAt 4 cfg3.N := by
  unfold X5
  exact Function.update_self ..
/-- At region 3's exit each of its arrays holds what the pipeline leaves: an input array what it held at entry, an
    output array what the write-backs leave. Window by window: -/
theorem hF3_0 (c : Dev nD) : (dat3 (Vt (X4 m)) c).arrAt 0 cfg3.N = X5 m c main_v16_0 :=
  (((dat3 (Vt (X4 m)) c).arrAt_in 0 rfl _).trans (A_eq3 (Vt (X4 m)) c 0)).trans (X5_of_ne m c main_v16_0 (by decide)).symm
theorem hF3_1 (c : Dev nD) : (dat3 (Vt (X4 m)) c).arrAt 1 cfg3.N = X5 m c main_v14 :=
  (((dat3 (Vt (X4 m)) c).arrAt_in 1 rfl _).trans (A_eq3 (Vt (X4 m)) c 1)).trans (X5_of_ne m c main_v14 (by decide)).symm
theorem hF3_2 (c : Dev nD) : (dat3 (Vt (X4 m)) c).arrAt 2 cfg3.N = X5 m c main_v16_0 :=
  (((dat3 (Vt (X4 m)) c).arrAt_in 2 rfl _).trans (A_eq3 (Vt (X4 m)) c 2)).trans (X5_of_ne m c main_v16_0 (by decide)).symm
theorem hF3_3 (c : Dev nD) : (dat3 (Vt (X4 m)) c).arrAt 3 cfg3.N = X5 m c main_v14 :=
  (((dat3 (Vt (X4 m)) c).arrAt_in 3 rfl _).trans (A_eq3 (Vt (X4 m)) c 3)).trans (X5_of_ne m c main_v14 (by decide)).symm
theorem hF3_4 (c : Dev nD) : (dat3 (Vt (X4 m)) c).arrAt 4 cfg3.N = X5 m c main_v17 := (X5_out4 m c).symm
theorem hF3 (c : Dev nD) (w : Fin cfg3.W) : (dat3 (Vt (X4 m)) c).arrAt w cfg3.N = Vt (X5 m) c (Pipeline.arrRef spec3 w) := by
  match w with
  | ⟨0, _⟩ => exact hF3_0 m c
  | ⟨1, _⟩ => exact hF3_1 m c
  | ⟨2, _⟩ => exact hF3_2 m c
  | ⟨3, _⟩ => exact hF3_3 m c
  | ⟨4, _⟩ => exact hF3_4 m c
/-- and every buffer that is none of its arrays what it held at entry. -/
theorem hrest3 (c : Dev nD) : ∀ b, b ∉ Finset.univ.image (Pipeline.arrRef spec3) → Vt (X5 m) c b = Vt (X4 m) c b :=
  fun b hb => X5_of_ne m c b fun hmem => by
    simp only [List.mem_cons, List.not_mem_nil, or_false] at hmem
    subst hmem
    exact hb (Finset.mem_image.mpr ⟨4, Finset.mem_univ _, rfl⟩)

/-! ## Region 4 -/

/-- After region 4: its output array at what the write-backs leave, every other buffer as before. -/
def X6 (c : Dev nD) : Valuation τ sig (Elt F) :=
  Function.update (X5 m c) main_v18 (((dat4 (Vt (X5 m)) c).arrAt 4 cfg4.N : Buf (Elt F) ((c : Thread nD τ).loc main_v18)))

/-- A buffer that is not an output of region 4 is as before. -/
theorem X6_of_ne (c : Dev nD) (b : Ref sig .tc) (hb : b ∉ ([main_v18] : List (Ref sig .tc))) : X6 m c b = X5 m c b := by
  unfold X6
  rw [Function.update_of_ne (StableHlo.devRef_ne_of_ne (List.ne_of_not_mem_cons hb) : (Proc.devRef .tc b : DevRef τ sig) ≠ Proc.devRef .tc main_v18)]
/-- Output window 4's array after region 4. -/
theorem X6_out4 (c : Dev nD) : X6 m c main_v18 = (dat4 (Vt (X5 m)) c).arrAt 4 cfg4.N := by
  unfold X6
  exact Function.update_self ..
/-- At region 4's exit each of its arrays holds what the pipeline leaves: an input array what it held at entry, an
    output array what the write-backs leave. Window by window: -/
theorem hF4_0 (c : Dev nD) : (dat4 (Vt (X5 m)) c).arrAt 0 cfg4.N = X6 m c main_v16_1 :=
  (((dat4 (Vt (X5 m)) c).arrAt_in 0 rfl _).trans (A_eq4 (Vt (X5 m)) c 0)).trans (X6_of_ne m c main_v16_1 (by decide)).symm
theorem hF4_1 (c : Dev nD) : (dat4 (Vt (X5 m)) c).arrAt 1 cfg4.N = X6 m c main_v14 :=
  (((dat4 (Vt (X5 m)) c).arrAt_in 1 rfl _).trans (A_eq4 (Vt (X5 m)) c 1)).trans (X6_of_ne m c main_v14 (by decide)).symm
theorem hF4_2 (c : Dev nD) : (dat4 (Vt (X5 m)) c).arrAt 2 cfg4.N = X6 m c main_v16_1 :=
  (((dat4 (Vt (X5 m)) c).arrAt_in 2 rfl _).trans (A_eq4 (Vt (X5 m)) c 2)).trans (X6_of_ne m c main_v16_1 (by decide)).symm
theorem hF4_3 (c : Dev nD) : (dat4 (Vt (X5 m)) c).arrAt 3 cfg4.N = X6 m c main_v14 :=
  (((dat4 (Vt (X5 m)) c).arrAt_in 3 rfl _).trans (A_eq4 (Vt (X5 m)) c 3)).trans (X6_of_ne m c main_v14 (by decide)).symm
theorem hF4_4 (c : Dev nD) : (dat4 (Vt (X5 m)) c).arrAt 4 cfg4.N = X6 m c main_v18 := (X6_out4 m c).symm
theorem hF4 (c : Dev nD) (w : Fin cfg4.W) : (dat4 (Vt (X5 m)) c).arrAt w cfg4.N = Vt (X6 m) c (Pipeline.arrRef spec4 w) := by
  match w with
  | ⟨0, _⟩ => exact hF4_0 m c
  | ⟨1, _⟩ => exact hF4_1 m c
  | ⟨2, _⟩ => exact hF4_2 m c
  | ⟨3, _⟩ => exact hF4_3 m c
  | ⟨4, _⟩ => exact hF4_4 m c
/-- and every buffer that is none of its arrays what it held at entry. -/
theorem hrest4 (c : Dev nD) : ∀ b, b ∉ Finset.univ.image (Pipeline.arrRef spec4) → Vt (X6 m) c b = Vt (X5 m) c b :=
  fun b hb => X6_of_ne m c b fun hmem => by
    simp only [List.mem_cons, List.not_mem_nil, or_false] at hmem
    subst hmem
    exact hb (Finset.mem_image.mpr ⟨4, Finset.mem_univ _, rfl⟩)

/-! ## Region 5 -/

/-- After region 5: its output array at what the write-backs leave, every other buffer as before. -/
def X7 (c : Dev nD) : Valuation τ sig (Elt F) :=
  Function.update (X6 m c) main_v19 (((dat5 (Vt (X6 m)) c).arrAt 3 cfg5.N : Buf (Elt F) ((c : Thread nD τ).loc main_v19)))

/-- A buffer that is not an output of region 5 is as before. -/
theorem X7_of_ne (c : Dev nD) (b : Ref sig .tc) (hb : b ∉ ([main_v19] : List (Ref sig .tc))) : X7 m c b = X6 m c b := by
  unfold X7
  rw [Function.update_of_ne (StableHlo.devRef_ne_of_ne (List.ne_of_not_mem_cons hb) : (Proc.devRef .tc b : DevRef τ sig) ≠ Proc.devRef .tc main_v19)]
/-- Output window 3's array after region 5. -/
theorem X7_out3 (c : Dev nD) : X7 m c main_v19 = (dat5 (Vt (X6 m)) c).arrAt 3 cfg5.N := by
  unfold X7
  exact Function.update_self ..
/-- At region 5's exit each of its arrays holds what the pipeline leaves: an input array what it held at entry, an
    output array what the write-backs leave. Window by window: -/
theorem hF5_0 (c : Dev nD) : (dat5 (Vt (X6 m)) c).arrAt 0 cfg5.N = X7 m c main_v17 :=
  (((dat5 (Vt (X6 m)) c).arrAt_in 0 rfl _).trans (A_eq5 (Vt (X6 m)) c 0)).trans (X7_of_ne m c main_v17 (by decide)).symm
theorem hF5_1 (c : Dev nD) : (dat5 (Vt (X6 m)) c).arrAt 1 cfg5.N = X7 m c main_v10 :=
  (((dat5 (Vt (X6 m)) c).arrAt_in 1 rfl _).trans (A_eq5 (Vt (X6 m)) c 1)).trans (X7_of_ne m c main_v10 (by decide)).symm
theorem hF5_2 (c : Dev nD) : (dat5 (Vt (X6 m)) c).arrAt 2 cfg5.N = X7 m c main_v3 :=
  (((dat5 (Vt (X6 m)) c).arrAt_in 2 rfl _).trans (A_eq5 (Vt (X6 m)) c 2)).trans (X7_of_ne m c main_v3 (by decide)).symm
theorem hF5_3 (c : Dev nD) : (dat5 (Vt (X6 m)) c).arrAt 3 cfg5.N = X7 m c main_v19 := (X7_out3 m c).symm
theorem hF5 (c : Dev nD) (w : Fin cfg5.W) : (dat5 (Vt (X6 m)) c).arrAt w cfg5.N = Vt (X7 m) c (Pipeline.arrRef spec5 w) := by
  match w with
  | ⟨0, _⟩ => exact hF5_0 m c
  | ⟨1, _⟩ => exact hF5_1 m c
  | ⟨2, _⟩ => exact hF5_2 m c
  | ⟨3, _⟩ => exact hF5_3 m c
/-- and every buffer that is none of its arrays what it held at entry. -/
theorem hrest5 (c : Dev nD) : ∀ b, b ∉ Finset.univ.image (Pipeline.arrRef spec5) → Vt (X7 m) c b = Vt (X6 m) c b :=
  fun b hb => X7_of_ne m c b fun hmem => by
    simp only [List.mem_cons, List.not_mem_nil, or_false] at hmem
    subst hmem
    exact hb (Finset.mem_image.mpr ⟨3, Finset.mem_univ _, rfl⟩)

/-! ## Region 6 -/

/-- After region 6: its output array at what the write-backs leave, every other buffer as before. -/
def X8 (c : Dev nD) : Valuation τ sig (Elt F) :=
  Function.update (X7 m c) main_v20 (((dat6 (Vt (X7 m)) c).arrAt 6 cfg6.N : Buf (Elt F) ((c : Thread nD τ).loc main_v20)))

/-- A buffer that is not an output of region 6 is as before. -/
theorem X8_of_ne (c : Dev nD) (b : Ref sig .tc) (hb : b ∉ ([main_v20] : List (Ref sig .tc))) : X8 m c b = X7 m c b := by
  unfold X8
  rw [Function.update_of_ne (StableHlo.devRef_ne_of_ne (List.ne_of_not_mem_cons hb) : (Proc.devRef .tc b : DevRef τ sig) ≠ Proc.devRef .tc main_v20)]
/-- Output window 6's array after region 6. -/
theorem X8_out6 (c : Dev nD) : X8 m c main_v20 = (dat6 (Vt (X7 m)) c).arrAt 6 cfg6.N := by
  unfold X8
  exact Function.update_self ..
/-- At region 6's exit each of its arrays holds what the pipeline leaves: an input array what it held at entry, an
    output array what the write-backs leave. Window by window: -/
theorem hF6_0 (c : Dev nD) : (dat6 (Vt (X7 m)) c).arrAt 0 cfg6.N = X8 m c main_v19 :=
  (((dat6 (Vt (X7 m)) c).arrAt_in 0 rfl _).trans (A_eq6 (Vt (X7 m)) c 0)).trans (X8_of_ne m c main_v19 (by decide)).symm
theorem hF6_1 (c : Dev nD) : (dat6 (Vt (X7 m)) c).arrAt 1 cfg6.N = X8 m c main_v16_0 :=
  (((dat6 (Vt (X7 m)) c).arrAt_in 1 rfl _).trans (A_eq6 (Vt (X7 m)) c 1)).trans (X8_of_ne m c main_v16_0 (by decide)).symm
theorem hF6_2 (c : Dev nD) : (dat6 (Vt (X7 m)) c).arrAt 2 cfg6.N = X8 m c main_v19 :=
  (((dat6 (Vt (X7 m)) c).arrAt_in 2 rfl _).trans (A_eq6 (Vt (X7 m)) c 2)).trans (X8_of_ne m c main_v19 (by decide)).symm
theorem hF6_3 (c : Dev nD) : (dat6 (Vt (X7 m)) c).arrAt 3 cfg6.N = X8 m c main_v14 :=
  (((dat6 (Vt (X7 m)) c).arrAt_in 3 rfl _).trans (A_eq6 (Vt (X7 m)) c 3)).trans (X8_of_ne m c main_v14 (by decide)).symm
theorem hF6_4 (c : Dev nD) : (dat6 (Vt (X7 m)) c).arrAt 4 cfg6.N = X8 m c main_v18 :=
  (((dat6 (Vt (X7 m)) c).arrAt_in 4 rfl _).trans (A_eq6 (Vt (X7 m)) c 4)).trans (X8_of_ne m c main_v18 (by decide)).symm
theorem hF6_5 (c : Dev nD) : (dat6 (Vt (X7 m)) c).arrAt 5 cfg6.N = X8 m c main_v17 :=
  (((dat6 (Vt (X7 m)) c).arrAt_in 5 rfl _).trans (A_eq6 (Vt (X7 m)) c 5)).trans (X8_of_ne m c main_v17 (by decide)).symm
theorem hF6_6 (c : Dev nD) : (dat6 (Vt (X7 m)) c).arrAt 6 cfg6.N = X8 m c main_v20 := (X8_out6 m c).symm
theorem hF6 (c : Dev nD) (w : Fin cfg6.W) : (dat6 (Vt (X7 m)) c).arrAt w cfg6.N = Vt (X8 m) c (Pipeline.arrRef spec6 w) := by
  match w with
  | ⟨0, _⟩ => exact hF6_0 m c
  | ⟨1, _⟩ => exact hF6_1 m c
  | ⟨2, _⟩ => exact hF6_2 m c
  | ⟨3, _⟩ => exact hF6_3 m c
  | ⟨4, _⟩ => exact hF6_4 m c
  | ⟨5, _⟩ => exact hF6_5 m c
  | ⟨6, _⟩ => exact hF6_6 m c
/-- and every buffer that is none of its arrays what it held at entry. -/
theorem hrest6 (c : Dev nD) : ∀ b, b ∉ Finset.univ.image (Pipeline.arrRef spec6) → Vt (X8 m) c b = Vt (X7 m) c b :=
  fun b hb => X8_of_ne m c b fun hmem => by
    simp only [List.mem_cons, List.not_mem_nil, or_false] at hmem
    subst hmem
    exact hb (Finset.mem_image.mpr ⟨6, Finset.mem_univ _, rfl⟩)

/-! ## The arguments end as launched -/

/-- A buffer that no region writes and no host operation writes holds its launch contents at the end. -/
theorem X8_launch (c : Dev nD) (b : Ref sig .tc)
    (h0 : b ∉ Gen.hostOps0_W)
    (h2 : b ∉ ([main_v14] : List (Ref sig .tc)))
    (h3 : b ∉ ([main_v15_0, main_v15_1, main_v15_2, main_v15_3] : List (Ref sig .tc)))
    (h4 : b ∉ ([main_v16_0, main_v16_1] : List (Ref sig .tc)))
    (h5 : b ∉ ([main_v17] : List (Ref sig .tc)))
    (h6 : b ∉ ([main_v18] : List (Ref sig .tc)))
    (h7 : b ∉ ([main_v19] : List (Ref sig .tc)))
    (h8 : b ∉ ([main_v20] : List (Ref sig .tc))) :
    X8 m c b = m ((c : Thread nD τ).loc b) :=
  (X8_of_ne m c b h8).trans <| (X7_of_ne m c b h7).trans <| (X6_of_ne m c b h6).trans <| (X5_of_ne m c b h5).trans <|
    (X4_of_ne m c b h4).trans <| (X3_of_ne m c b h3).trans <| (X2_of_ne m c b h2).trans <| (Gen.V1_of m c b h0).trans rfl

end Cert.KernelIdeal.Hand

end
-- ==== Proof.KI.Deal.lean ====
import proofs.«170994_j15857019257044_2_alg».proof.Proof.Gen.KernelIdeal.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # Arrays staged through two windows

In regions 2, 3, 4 and 6 two input windows stage the same array (the same rows read once as a tile's block and once
as the whole key side). The pipeline holds each window's array at a share of its own, so the buffer's full share is
dealt: the lower-numbered window holds the left half, the higher the right half; both only read. These lemmas take a
core's unscoped buffers apart into the windows' arrays at those shares and put them back. -/

/-! ## Region 3 -/

/-- The distinct buffers behind region 3's windows, each whole at the full share, are the windows' arrays at the dealt
    shares: a buffer staged through two input windows is held half by each, every other at the full share. -/
theorem deal3 (c : Dev nD) (dat : Dat τ (Elt F) Unit ℕ (UR sig nD τ) ℕ cfg3 c)
    (hq0 : dat.q 0 = fullShare.left) (hq1 : dat.q 1 = fullShare.left) (hq2 : dat.q 2 = fullShare.right) (hq3 : dat.q 3 = fullShare.right)
    (V : (b : Ref sig .tc) → Buf (Elt F) ((c : Thread nD τ).loc b))
    (Fn : (w : Fin cfg3.W) → Buf (Elt F) ((cfg3.win w).arr.view.loc (c : Thread nD τ)))
    (hF : ∀ w, Fn w = V (Pipeline.arrRef spec3 w)) :
    (Pipeline.arrBufs spec3 c V : sProp 𝕄) = dat.arrays Fn := by
  have hA : dat.arrays Fn = bigSep Finset.univ fun w : Fin cfg3.W =>
      (((c : Thread nD τ).loc (Pipeline.arrRef spec3 w)) ↦{dat.share w} V (Pipeline.arrRef spec3 w) : sProp 𝕄) := by
    unfold Dat.arrays
    exact bigSep_congr fun w _ => by rw [(arr_whole3 w).set_eq_univ, hF w]
  rw [hA]
  unfold Pipeline.arrBufs
  rw [show Finset.univ.image (Pipeline.arrRef spec3) = {main_v16_0, main_v14, main_v17} from by decide, bigSep_W3,
    bigSep_insert (by decide), bigSep_insert (by decide), bigSep_singleton]
  have e0 : dat.share 0 = fullShare.left := by unfold Dat.share; rw [if_neg (by decide), hq0]
  have e1 : dat.share 1 = fullShare.left := by unfold Dat.share; rw [if_neg (by decide), hq1]
  have e2 : dat.share 2 = fullShare.right := by unfold Dat.share; rw [if_neg (by decide), hq2]
  have e3 : dat.share 3 = fullShare.right := by unfold Dat.share; rw [if_neg (by decide), hq3]
  have e4 : dat.share 4 = fullShare := by unfold Dat.share; rw [if_pos (by decide)]
  rw [e0, e1, e2, e3, e4]
  show iprop(((c : Thread nD τ).loc main_v16_0 ↦{fullShare} V main_v16_0) ∗ ((c : Thread nD τ).loc main_v14 ↦{fullShare} V main_v14) ∗ ((c : Thread nD τ).loc main_v17 ↦{fullShare} V main_v17))
    = iprop(((c : Thread nD τ).loc main_v16_0 ↦{fullShare.left} V main_v16_0) ∗ ((c : Thread nD τ).loc main_v14 ↦{fullShare.left} V main_v14) ∗ ((c : Thread nD τ).loc main_v16_0 ↦{fullShare.right} V main_v16_0) ∗ ((c : Thread nD τ).loc main_v14 ↦{fullShare.right} V main_v14) ∗ ((c : Thread nD τ).loc main_v17 ↦{fullShare} V main_v17))
  have s_v16_0 : (((c : Thread nD τ).loc main_v16_0 ↦{fullShare} V main_v16_0) : sProp 𝕄) ⊣⊢ iprop(((c : Thread nD τ).loc main_v16_0 ↦{fullShare.left} V main_v16_0) ∗ ((c : Thread nD τ).loc main_v16_0 ↦{fullShare.right} V main_v16_0)) :=
    pointsTo_share (PosShare.mem_left_op_right fullShare)
  have s_v14 : (((c : Thread nD τ).loc main_v14 ↦{fullShare} V main_v14) : sProp 𝕄) ⊣⊢ iprop(((c : Thread nD τ).loc main_v14 ↦{fullShare.left} V main_v14) ∗ ((c : Thread nD τ).loc main_v14 ↦{fullShare.right} V main_v14)) :=
    pointsTo_share (PosShare.mem_left_op_right fullShare)
  refine equiv_iff.mp ⟨show (_ : sProp 𝕄) ⊢ _ from ?_, show (_ : sProp 𝕄) ⊢ _ from ?_⟩
  · iintro ⟨H_v16_0, H_v14, H_v17⟩
    have s1_v16_0 := s_v16_0.1
    ihave H_v16_0' := s1_v16_0 $$ H_v16_0
    icases H_v16_0' with ⟨H_v16_0_L, H_v16_0_R⟩
    have s1_v14 := s_v14.1
    ihave H_v14' := s1_v14 $$ H_v14
    icases H_v14' with ⟨H_v14_L, H_v14_R⟩
    isplitl [H_v16_0_L]; · iexact H_v16_0_L
    isplitl [H_v14_L]; · iexact H_v14_L
    isplitl [H_v16_0_R]; · iexact H_v16_0_R
    isplitl [H_v14_R]; · iexact H_v14_R
    iexact H_v17
  · iintro ⟨H_v16_0_L, H_v14_L, H_v16_0_R, H_v14_R, H_v17⟩
    isplitl [H_v16_0_L H_v16_0_R]
    · have s2_v16_0 := s_v16_0.2
      iapply s2_v16_0; isplitl [H_v16_0_L] <;> iassumption
    isplitl [H_v14_L H_v14_R]
    · have s2_v14 := s_v14.2
      iapply s2_v14; isplitl [H_v14_L] <;> iassumption
    iexact H_v17

/-- At entry the core's unscoped buffers are region 3's arrays at the proof data's entry contents and the rest. -/
theorem entry3 (c : Dev nD) (dat : Dat τ (Elt F) Unit ℕ (UR sig nD τ) ℕ cfg3 c)
    (hq0 : dat.q 0 = fullShare.left) (hq1 : dat.q 1 = fullShare.left) (hq2 : dat.q 2 = fullShare.right) (hq3 : dat.q 3 = fullShare.right)
    (V : (b : Ref sig .tc) → Buf (Elt F) ((c : Thread nD τ).loc b))
    (hA : ∀ w, dat.A w = V (Pipeline.arrRef spec3 w)) :
    (unscopedBufs c V : sProp 𝕄) ⊢ iprop(dat.arrays (dat.arrAt · 0) ∗ Pipeline.unscopedRest spec3 c V) := by
  have hs : (unscopedBufs c V : sProp 𝕄) = iprop(Pipeline.arrBufs spec3 c V ∗ Pipeline.unscopedRest spec3 c V) :=
    Pipeline.unscopedBufs_split₀ cfgs 3 winFacts₀3.arr_unscoped c V
  rw [hs, deal3 c dat hq0 hq1 hq2 hq3 V (dat.arrAt · 0) (fun w => by rw [show dat.arrAt w 0 = dat.A w from rfl, hA])]

/-- At exit the arrays at contents `Fn` and the rest are the core's unscoped buffers at any valuation that has the
    arrays at `Fn` and agrees with the entry valuation off them. -/
theorem exit3 (c : Dev nD) (dat : Dat τ (Elt F) Unit ℕ (UR sig nD τ) ℕ cfg3 c)
    (hq0 : dat.q 0 = fullShare.left) (hq1 : dat.q 1 = fullShare.left) (hq2 : dat.q 2 = fullShare.right) (hq3 : dat.q 3 = fullShare.right)
    (V V' : (b : Ref sig .tc) → Buf (Elt F) ((c : Thread nD τ).loc b))
    (Fn : (w : Fin cfg3.W) → Buf (Elt F) ((cfg3.win w).arr.view.loc (c : Thread nD τ)))
    (hF : ∀ w, Fn w = V' (Pipeline.arrRef spec3 w))
    (hrest : ∀ b, b ∉ Finset.univ.image (Pipeline.arrRef spec3) → V' b = V b) :
    iprop(dat.arrays Fn ∗ Pipeline.unscopedRest spec3 c V) ⊢ (unscopedBufs c V' : sProp 𝕄) := by
  have hs : (unscopedBufs c V' : sProp 𝕄) = iprop(Pipeline.arrBufs spec3 c V' ∗ Pipeline.unscopedRest spec3 c V') :=
    Pipeline.unscopedBufs_split₀ cfgs 3 winFacts₀3.arr_unscoped c V'
  rw [hs, ← deal3 c dat hq0 hq1 hq2 hq3 V' Fn hF]
  refine sep_mono .rfl (Entails.of_eq ?_)
  unfold Pipeline.unscopedRest
  exact bigSep_congr fun b hb => by rw [hrest b (Finset.mem_sdiff.mp hb).2]

/-! ## Region 4 -/

/-- The distinct buffers behind region 4's windows, each whole at the full share, are the windows' arrays at the dealt
    shares: a buffer staged through two input windows is held half by each, every other at the full share. -/
theorem deal4 (c : Dev nD) (dat : Dat τ (Elt F) Unit ℕ (UR sig nD τ) ℕ cfg4 c)
    (hq0 : dat.q 0 = fullShare.left) (hq1 : dat.q 1 = fullShare.left) (hq2 : dat.q 2 = fullShare.right) (hq3 : dat.q 3 = fullShare.right)
    (V : (b : Ref sig .tc) → Buf (Elt F) ((c : Thread nD τ).loc b))
    (Fn : (w : Fin cfg4.W) → Buf (Elt F) ((cfg4.win w).arr.view.loc (c : Thread nD τ)))
    (hF : ∀ w, Fn w = V (Pipeline.arrRef spec4 w)) :
    (Pipeline.arrBufs spec4 c V : sProp 𝕄) = dat.arrays Fn := by
  have hA : dat.arrays Fn = bigSep Finset.univ fun w : Fin cfg4.W =>
      (((c : Thread nD τ).loc (Pipeline.arrRef spec4 w)) ↦{dat.share w} V (Pipeline.arrRef spec4 w) : sProp 𝕄) := by
    unfold Dat.arrays
    exact bigSep_congr fun w _ => by rw [(arr_whole4 w).set_eq_univ, hF w]
  rw [hA]
  unfold Pipeline.arrBufs
  rw [show Finset.univ.image (Pipeline.arrRef spec4) = {main_v16_1, main_v14, main_v18} from by decide, bigSep_W4,
    bigSep_insert (by decide), bigSep_insert (by decide), bigSep_singleton]
  have e0 : dat.share 0 = fullShare.left := by unfold Dat.share; rw [if_neg (by decide), hq0]
  have e1 : dat.share 1 = fullShare.left := by unfold Dat.share; rw [if_neg (by decide), hq1]
  have e2 : dat.share 2 = fullShare.right := by unfold Dat.share; rw [if_neg (by decide), hq2]
  have e3 : dat.share 3 = fullShare.right := by unfold Dat.share; rw [if_neg (by decide), hq3]
  have e4 : dat.share 4 = fullShare := by unfold Dat.share; rw [if_pos (by decide)]
  rw [e0, e1, e2, e3, e4]
  show iprop(((c : Thread nD τ).loc main_v16_1 ↦{fullShare} V main_v16_1) ∗ ((c : Thread nD τ).loc main_v14 ↦{fullShare} V main_v14) ∗ ((c : Thread nD τ).loc main_v18 ↦{fullShare} V main_v18))
    = iprop(((c : Thread nD τ).loc main_v16_1 ↦{fullShare.left} V main_v16_1) ∗ ((c : Thread nD τ).loc main_v14 ↦{fullShare.left} V main_v14) ∗ ((c : Thread nD τ).loc main_v16_1 ↦{fullShare.right} V main_v16_1) ∗ ((c : Thread nD τ).loc main_v14 ↦{fullShare.right} V main_v14) ∗ ((c : Thread nD τ).loc main_v18 ↦{fullShare} V main_v18))
  have s_v16_1 : (((c : Thread nD τ).loc main_v16_1 ↦{fullShare} V main_v16_1) : sProp 𝕄) ⊣⊢ iprop(((c : Thread nD τ).loc main_v16_1 ↦{fullShare.left} V main_v16_1) ∗ ((c : Thread nD τ).loc main_v16_1 ↦{fullShare.right} V main_v16_1)) :=
    pointsTo_share (PosShare.mem_left_op_right fullShare)
  have s_v14 : (((c : Thread nD τ).loc main_v14 ↦{fullShare} V main_v14) : sProp 𝕄) ⊣⊢ iprop(((c : Thread nD τ).loc main_v14 ↦{fullShare.left} V main_v14) ∗ ((c : Thread nD τ).loc main_v14 ↦{fullShare.right} V main_v14)) :=
    pointsTo_share (PosShare.mem_left_op_right fullShare)
  refine equiv_iff.mp ⟨show (_ : sProp 𝕄) ⊢ _ from ?_, show (_ : sProp 𝕄) ⊢ _ from ?_⟩
  · iintro ⟨H_v16_1, H_v14, H_v18⟩
    have s1_v16_1 := s_v16_1.1
    ihave H_v16_1' := s1_v16_1 $$ H_v16_1
    icases H_v16_1' with ⟨H_v16_1_L, H_v16_1_R⟩
    have s1_v14 := s_v14.1
    ihave H_v14' := s1_v14 $$ H_v14
    icases H_v14' with ⟨H_v14_L, H_v14_R⟩
    isplitl [H_v16_1_L]; · iexact H_v16_1_L
    isplitl [H_v14_L]; · iexact H_v14_L
    isplitl [H_v16_1_R]; · iexact H_v16_1_R
    isplitl [H_v14_R]; · iexact H_v14_R
    iexact H_v18
  · iintro ⟨H_v16_1_L, H_v14_L, H_v16_1_R, H_v14_R, H_v18⟩
    isplitl [H_v16_1_L H_v16_1_R]
    · have s2_v16_1 := s_v16_1.2
      iapply s2_v16_1; isplitl [H_v16_1_L] <;> iassumption
    isplitl [H_v14_L H_v14_R]
    · have s2_v14 := s_v14.2
      iapply s2_v14; isplitl [H_v14_L] <;> iassumption
    iexact H_v18

/-- At entry the core's unscoped buffers are region 4's arrays at the proof data's entry contents and the rest. -/
theorem entry4 (c : Dev nD) (dat : Dat τ (Elt F) Unit ℕ (UR sig nD τ) ℕ cfg4 c)
    (hq0 : dat.q 0 = fullShare.left) (hq1 : dat.q 1 = fullShare.left) (hq2 : dat.q 2 = fullShare.right) (hq3 : dat.q 3 = fullShare.right)
    (V : (b : Ref sig .tc) → Buf (Elt F) ((c : Thread nD τ).loc b))
    (hA : ∀ w, dat.A w = V (Pipeline.arrRef spec4 w)) :
    (unscopedBufs c V : sProp 𝕄) ⊢ iprop(dat.arrays (dat.arrAt · 0) ∗ Pipeline.unscopedRest spec4 c V) := by
  have hs : (unscopedBufs c V : sProp 𝕄) = iprop(Pipeline.arrBufs spec4 c V ∗ Pipeline.unscopedRest spec4 c V) :=
    Pipeline.unscopedBufs_split₀ cfgs 4 winFacts₀4.arr_unscoped c V
  rw [hs, deal4 c dat hq0 hq1 hq2 hq3 V (dat.arrAt · 0) (fun w => by rw [show dat.arrAt w 0 = dat.A w from rfl, hA])]

/-- At exit the arrays at contents `Fn` and the rest are the core's unscoped buffers at any valuation that has the
    arrays at `Fn` and agrees with the entry valuation off them. -/
theorem exit4 (c : Dev nD) (dat : Dat τ (Elt F) Unit ℕ (UR sig nD τ) ℕ cfg4 c)
    (hq0 : dat.q 0 = fullShare.left) (hq1 : dat.q 1 = fullShare.left) (hq2 : dat.q 2 = fullShare.right) (hq3 : dat.q 3 = fullShare.right)
    (V V' : (b : Ref sig .tc) → Buf (Elt F) ((c : Thread nD τ).loc b))
    (Fn : (w : Fin cfg4.W) → Buf (Elt F) ((cfg4.win w).arr.view.loc (c : Thread nD τ)))
    (hF : ∀ w, Fn w = V' (Pipeline.arrRef spec4 w))
    (hrest : ∀ b, b ∉ Finset.univ.image (Pipeline.arrRef spec4) → V' b = V b) :
    iprop(dat.arrays Fn ∗ Pipeline.unscopedRest spec4 c V) ⊢ (unscopedBufs c V' : sProp 𝕄) := by
  have hs : (unscopedBufs c V' : sProp 𝕄) = iprop(Pipeline.arrBufs spec4 c V' ∗ Pipeline.unscopedRest spec4 c V') :=
    Pipeline.unscopedBufs_split₀ cfgs 4 winFacts₀4.arr_unscoped c V'
  rw [hs, ← deal4 c dat hq0 hq1 hq2 hq3 V' Fn hF]
  refine sep_mono .rfl (Entails.of_eq ?_)
  unfold Pipeline.unscopedRest
  exact bigSep_congr fun b hb => by rw [hrest b (Finset.mem_sdiff.mp hb).2]

/-! ## Region 6 -/

/-- The distinct buffers behind region 6's windows, each whole at the full share, are the windows' arrays at the dealt
    shares: a buffer staged through two input windows is held half by each, every other at the full share. -/
theorem deal6 (c : Dev nD) (dat : Dat τ (Elt F) Unit ℕ (UR sig nD τ) ℕ cfg6 c)
    (hq0 : dat.q 0 = fullShare.left) (hq1 : dat.q 1 = fullShare) (hq2 : dat.q 2 = fullShare.right) (hq3 : dat.q 3 = fullShare) (hq4 : dat.q 4 = fullShare) (hq5 : dat.q 5 = fullShare)
    (V : (b : Ref sig .tc) → Buf (Elt F) ((c : Thread nD τ).loc b))
    (Fn : (w : Fin cfg6.W) → Buf (Elt F) ((cfg6.win w).arr.view.loc (c : Thread nD τ)))
    (hF : ∀ w, Fn w = V (Pipeline.arrRef spec6 w)) :
    (Pipeline.arrBufs spec6 c V : sProp 𝕄) = dat.arrays Fn := by
  have hA : dat.arrays Fn = bigSep Finset.univ fun w : Fin cfg6.W =>
      (((c : Thread nD τ).loc (Pipeline.arrRef spec6 w)) ↦{dat.share w} V (Pipeline.arrRef spec6 w) : sProp 𝕄) := by
    unfold Dat.arrays
    exact bigSep_congr fun w _ => by rw [(arr_whole6 w).set_eq_univ, hF w]
  rw [hA]
  unfold Pipeline.arrBufs
  rw [show Finset.univ.image (Pipeline.arrRef spec6) = {main_v19, main_v16_0, main_v14, main_v18, main_v17, main_v20} from by decide, bigSep_W6,
    bigSep_insert (by decide), bigSep_insert (by decide), bigSep_insert (by decide), bigSep_insert (by decide), bigSep_insert (by decide), bigSep_singleton]
  have e0 : dat.share 0 = fullShare.left := by unfold Dat.share; rw [if_neg (by decide), hq0]
  have e1 : dat.share 1 = fullShare := by unfold Dat.share; rw [if_neg (by decide), hq1]
  have e2 : dat.share 2 = fullShare.right := by unfold Dat.share; rw [if_neg (by decide), hq2]
  have e3 : dat.share 3 = fullShare := by unfold Dat.share; rw [if_neg (by decide), hq3]
  have e4 : dat.share 4 = fullShare := by unfold Dat.share; rw [if_neg (by decide), hq4]
  have e5 : dat.share 5 = fullShare := by unfold Dat.share; rw [if_neg (by decide), hq5]
  have e6 : dat.share 6 = fullShare := by unfold Dat.share; rw [if_pos (by decide)]
  rw [e0, e1, e2, e3, e4, e5, e6]
  show iprop(((c : Thread nD τ).loc main_v19 ↦{fullShare} V main_v19) ∗ ((c : Thread nD τ).loc main_v16_0 ↦{fullShare} V main_v16_0) ∗ ((c : Thread nD τ).loc main_v14 ↦{fullShare} V main_v14) ∗ ((c : Thread nD τ).loc main_v18 ↦{fullShare} V main_v18) ∗ ((c : Thread nD τ).loc main_v17 ↦{fullShare} V main_v17) ∗ ((c : Thread nD τ).loc main_v20 ↦{fullShare} V main_v20))
    = iprop(((c : Thread nD τ).loc main_v19 ↦{fullShare.left} V main_v19) ∗ ((c : Thread nD τ).loc main_v16_0 ↦{fullShare} V main_v16_0) ∗ ((c : Thread nD τ).loc main_v19 ↦{fullShare.right} V main_v19) ∗ ((c : Thread nD τ).loc main_v14 ↦{fullShare} V main_v14) ∗ ((c : Thread nD τ).loc main_v18 ↦{fullShare} V main_v18) ∗ ((c : Thread nD τ).loc main_v17 ↦{fullShare} V main_v17) ∗ ((c : Thread nD τ).loc main_v20 ↦{fullShare} V main_v20))
  have s_v19 : (((c : Thread nD τ).loc main_v19 ↦{fullShare} V main_v19) : sProp 𝕄) ⊣⊢ iprop(((c : Thread nD τ).loc main_v19 ↦{fullShare.left} V main_v19) ∗ ((c : Thread nD τ).loc main_v19 ↦{fullShare.right} V main_v19)) :=
    pointsTo_share (PosShare.mem_left_op_right fullShare)
  refine equiv_iff.mp ⟨show (_ : sProp 𝕄) ⊢ _ from ?_, show (_ : sProp 𝕄) ⊢ _ from ?_⟩
  · iintro ⟨H_v19, H_v16_0, H_v14, H_v18, H_v17, H_v20⟩
    have s1_v19 := s_v19.1
    ihave H_v19' := s1_v19 $$ H_v19
    icases H_v19' with ⟨H_v19_L, H_v19_R⟩
    isplitl [H_v19_L]; · iexact H_v19_L
    isplitl [H_v16_0]; · iexact H_v16_0
    isplitl [H_v19_R]; · iexact H_v19_R
    isplitl [H_v14]; · iexact H_v14
    isplitl [H_v18]; · iexact H_v18
    isplitl [H_v17]; · iexact H_v17
    iexact H_v20
  · iintro ⟨H_v19_L, H_v16_0, H_v19_R, H_v14, H_v18, H_v17, H_v20⟩
    isplitl [H_v19_L H_v19_R]
    · have s2_v19 := s_v19.2
      iapply s2_v19; isplitl [H_v19_L] <;> iassumption
    isplitl [H_v16_0]; · iexact H_v16_0
    isplitl [H_v14]; · iexact H_v14
    isplitl [H_v18]; · iexact H_v18
    isplitl [H_v17]; · iexact H_v17
    iexact H_v20

/-- At entry the core's unscoped buffers are region 6's arrays at the proof data's entry contents and the rest. -/
theorem entry6 (c : Dev nD) (dat : Dat τ (Elt F) Unit ℕ (UR sig nD τ) ℕ cfg6 c)
    (hq0 : dat.q 0 = fullShare.left) (hq1 : dat.q 1 = fullShare) (hq2 : dat.q 2 = fullShare.right) (hq3 : dat.q 3 = fullShare) (hq4 : dat.q 4 = fullShare) (hq5 : dat.q 5 = fullShare)
    (V : (b : Ref sig .tc) → Buf (Elt F) ((c : Thread nD τ).loc b))
    (hA : ∀ w, dat.A w = V (Pipeline.arrRef spec6 w)) :
    (unscopedBufs c V : sProp 𝕄) ⊢ iprop(dat.arrays (dat.arrAt · 0) ∗ Pipeline.unscopedRest spec6 c V) := by
  have hs : (unscopedBufs c V : sProp 𝕄) = iprop(Pipeline.arrBufs spec6 c V ∗ Pipeline.unscopedRest spec6 c V) :=
    Pipeline.unscopedBufs_split₀ cfgs 6 winFacts₀6.arr_unscoped c V
  rw [hs, deal6 c dat hq0 hq1 hq2 hq3 hq4 hq5 V (dat.arrAt · 0) (fun w => by rw [show dat.arrAt w 0 = dat.A w from rfl, hA])]

/-- At exit the arrays at contents `Fn` and the rest are the core's unscoped buffers at any valuation that has the
    arrays at `Fn` and agrees with the entry valuation off them. -/
theorem exit6 (c : Dev nD) (dat : Dat τ (Elt F) Unit ℕ (UR sig nD τ) ℕ cfg6 c)
    (hq0 : dat.q 0 = fullShare.left) (hq1 : dat.q 1 = fullShare) (hq2 : dat.q 2 = fullShare.right) (hq3 : dat.q 3 = fullShare) (hq4 : dat.q 4 = fullShare) (hq5 : dat.q 5 = fullShare)
    (V V' : (b : Ref sig .tc) → Buf (Elt F) ((c : Thread nD τ).loc b))
    (Fn : (w : Fin cfg6.W) → Buf (Elt F) ((cfg6.win w).arr.view.loc (c : Thread nD τ)))
    (hF : ∀ w, Fn w = V' (Pipeline.arrRef spec6 w))
    (hrest : ∀ b, b ∉ Finset.univ.image (Pipeline.arrRef spec6) → V' b = V b) :
    iprop(dat.arrays Fn ∗ Pipeline.unscopedRest spec6 c V) ⊢ (unscopedBufs c V' : sProp 𝕄) := by
  have hs : (unscopedBufs c V' : sProp 𝕄) = iprop(Pipeline.arrBufs spec6 c V' ∗ Pipeline.unscopedRest spec6 c V') :=
    Pipeline.unscopedBufs_split₀ cfgs 6 winFacts₀6.arr_unscoped c V'
  rw [hs, ← deal6 c dat hq0 hq1 hq2 hq3 hq4 hq5 V' Fn hF]
  refine sep_mono .rfl (Entails.of_eq ?_)
  unfold Pipeline.unscopedRest
  exact bigSep_congr fun b hb => by rw [hrest b (Finset.mem_sdiff.mp hb).2]

/-! ## Region 2 -/

/-- The distinct buffers behind region 2's windows, each whole at the full share, are the windows' arrays at the dealt
    shares: a buffer staged through two input windows is held half by each, every other at the full share. -/
theorem deal2 (c : Dev nD) (dat : Dat τ (Elt F) Unit ℕ (UR sig nD τ) ℕ cfg2 c)
    (hq0 : dat.q 0 = fullShare.left) (hq1 : dat.q 1 = fullShare.right) (hq2 : dat.q 2 = fullShare) (hq3 : dat.q 3 = fullShare) (hq4 : dat.q 4 = fullShare) (hq5 : dat.q 5 = fullShare) (hq6 : dat.q 6 = fullShare) (hq7 : dat.q 7 = fullShare) (hq8 : dat.q 8 = fullShare) (hq9 : dat.q 9 = fullShare) (hq10 : dat.q 10 = fullShare) (hq11 : dat.q 11 = fullShare)
    (V : (b : Ref sig .tc) → Buf (Elt F) ((c : Thread nD τ).loc b))
    (Fn : (w : Fin cfg2.W) → Buf (Elt F) ((cfg2.win w).arr.view.loc (c : Thread nD τ)))
    (hF : ∀ w, Fn w = V (Pipeline.arrRef spec2 w)) :
    (Pipeline.arrBufs spec2 c V : sProp 𝕄) = dat.arrays Fn := by
  have hA : dat.arrays Fn = bigSep Finset.univ fun w : Fin cfg2.W =>
      (((c : Thread nD τ).loc (Pipeline.arrRef spec2 w)) ↦{dat.share w} V (Pipeline.arrRef spec2 w) : sProp 𝕄) := by
    unfold Dat.arrays
    exact bigSep_congr fun w _ => by rw [(arr_whole2 w).set_eq_univ, hF w]
  rw [hA]
  unfold Pipeline.arrBufs
  rw [show Finset.univ.image (Pipeline.arrRef spec2) = {main_arg1, main_v15_2, main_v15_3, main_v15_0, main_v15_1, main_v13, main_v6, main_v8, main_v1, main_v9, main_v2, main_v16_0, main_v16_1} from by decide, bigSep_W2,
    bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_singleton]
  have e0 : dat.share 0 = fullShare.left := by unfold Dat.share; rw [if_neg (by decide), hq0]
  have e1 : dat.share 1 = fullShare.right := by unfold Dat.share; rw [if_neg (by decide), hq1]
  have e2 : dat.share 2 = fullShare := by unfold Dat.share; rw [if_neg (by decide), hq2]
  have e3 : dat.share 3 = fullShare := by unfold Dat.share; rw [if_neg (by decide), hq3]
  have e4 : dat.share 4 = fullShare := by unfold Dat.share; rw [if_neg (by decide), hq4]
  have e5 : dat.share 5 = fullShare := by unfold Dat.share; rw [if_neg (by decide), hq5]
  have e6 : dat.share 6 = fullShare := by unfold Dat.share; rw [if_neg (by decide), hq6]
  have e7 : dat.share 7 = fullShare := by unfold Dat.share; rw [if_neg (by decide), hq7]
  have e8 : dat.share 8 = fullShare := by unfold Dat.share; rw [if_neg (by decide), hq8]
  have e9 : dat.share 9 = fullShare := by unfold Dat.share; rw [if_neg (by decide), hq9]
  have e10 : dat.share 10 = fullShare := by unfold Dat.share; rw [if_neg (by decide), hq10]
  have e11 : dat.share 11 = fullShare := by unfold Dat.share; rw [if_neg (by decide), hq11]
  have e12 : dat.share 12 = fullShare := by unfold Dat.share; rw [if_pos (by decide)]
  have e13 : dat.share 13 = fullShare := by unfold Dat.share; rw [if_pos (by decide)]
  rw [e0, e1, e2, e3, e4, e5, e6, e7, e8, e9, e10, e11, e12, e13]
  show iprop(((c : Thread nD τ).loc main_arg1 ↦{fullShare} V main_arg1) ∗ ((c : Thread nD τ).loc main_v15_2 ↦{fullShare} V main_v15_2) ∗ ((c : Thread nD τ).loc main_v15_3 ↦{fullShare} V main_v15_3) ∗ ((c : Thread nD τ).loc main_v15_0 ↦{fullShare} V main_v15_0) ∗ ((c : Thread nD τ).loc main_v15_1 ↦{fullShare} V main_v15_1) ∗ ((c : Thread nD τ).loc main_v13 ↦{fullShare} V main_v13) ∗ ((c : Thread nD τ).loc main_v6 ↦{fullShare} V main_v6) ∗ ((c : Thread nD τ).loc main_v8 ↦{fullShare} V main_v8) ∗ ((c : Thread nD τ).loc main_v1 ↦{fullShare} V main_v1) ∗ ((c : Thread nD τ).loc main_v9 ↦{fullShare} V main_v9) ∗ ((c : Thread nD τ).loc main_v2 ↦{fullShare} V main_v2) ∗ ((c : Thread nD τ).loc main_v16_0 ↦{fullShare} V main_v16_0) ∗ ((c : Thread nD τ).loc main_v16_1 ↦{fullShare} V main_v16_1))
    = iprop(((c : Thread nD τ).loc main_arg1 ↦{fullShare.left} V main_arg1) ∗ ((c : Thread nD τ).loc main_arg1 ↦{fullShare.right} V main_arg1) ∗ ((c : Thread nD τ).loc main_v15_2 ↦{fullShare} V main_v15_2) ∗ ((c : Thread nD τ).loc main_v15_3 ↦{fullShare} V main_v15_3) ∗ ((c : Thread nD τ).loc main_v15_0 ↦{fullShare} V main_v15_0) ∗ ((c : Thread nD τ).loc main_v15_1 ↦{fullShare} V main_v15_1) ∗ ((c : Thread nD τ).loc main_v13 ↦{fullShare} V main_v13) ∗ ((c : Thread nD τ).loc main_v6 ↦{fullShare} V main_v6) ∗ ((c : Thread nD τ).loc main_v8 ↦{fullShare} V main_v8) ∗ ((c : Thread nD τ).loc main_v1 ↦{fullShare} V main_v1) ∗ ((c : Thread nD τ).loc main_v9 ↦{fullShare} V main_v9) ∗ ((c : Thread nD τ).loc main_v2 ↦{fullShare} V main_v2) ∗ ((c : Thread nD τ).loc main_v16_0 ↦{fullShare} V main_v16_0) ∗ ((c : Thread nD τ).loc main_v16_1 ↦{fullShare} V main_v16_1))
  have s_arg1 : (((c : Thread nD τ).loc main_arg1 ↦{fullShare} V main_arg1) : sProp 𝕄) ⊣⊢ iprop(((c : Thread nD τ).loc main_arg1 ↦{fullShare.left} V main_arg1) ∗ ((c : Thread nD τ).loc main_arg1 ↦{fullShare.right} V main_arg1)) :=
    pointsTo_share (PosShare.mem_left_op_right fullShare)
  refine equiv_iff.mp ⟨show (_ : sProp 𝕄) ⊢ _ from ?_, show (_ : sProp 𝕄) ⊢ _ from ?_⟩
  · iintro ⟨H_arg1, H_v15_2, H_v15_3, H_v15_0, H_v15_1, H_v13, H_v6, H_v8, H_v1, H_v9, H_v2, H_v16_0, H_v16_1⟩
    have s1_arg1 := s_arg1.1
    ihave H_arg1' := s1_arg1 $$ H_arg1
    icases H_arg1' with ⟨H_arg1_L, H_arg1_R⟩
    isplitl [H_arg1_L]; · iexact H_arg1_L
    isplitl [H_arg1_R]; · iexact H_arg1_R
    isplitl [H_v15_2]; · iexact H_v15_2
    isplitl [H_v15_3]; · iexact H_v15_3
    isplitl [H_v15_0]; · iexact H_v15_0
    isplitl [H_v15_1]; · iexact H_v15_1
    isplitl [H_v13]; · iexact H_v13
    isplitl [H_v6]; · iexact H_v6
    isplitl [H_v8]; · iexact H_v8
    isplitl [H_v1]; · iexact H_v1
    isplitl [H_v9]; · iexact H_v9
    isplitl [H_v2]; · iexact H_v2
    isplitl [H_v16_0]; · iexact H_v16_0
    iexact H_v16_1
  · iintro ⟨H_arg1_L, H_arg1_R, H_v15_2, H_v15_3, H_v15_0, H_v15_1, H_v13, H_v6, H_v8, H_v1, H_v9, H_v2, H_v16_0, H_v16_1⟩
    isplitl [H_arg1_L H_arg1_R]
    · have s2_arg1 := s_arg1.2
      iapply s2_arg1; isplitl [H_arg1_L] <;> iassumption
    isplitl [H_v15_2]; · iexact H_v15_2
    isplitl [H_v15_3]; · iexact H_v15_3
    isplitl [H_v15_0]; · iexact H_v15_0
    isplitl [H_v15_1]; · iexact H_v15_1
    isplitl [H_v13]; · iexact H_v13
    isplitl [H_v6]; · iexact H_v6
    isplitl [H_v8]; · iexact H_v8
    isplitl [H_v1]; · iexact H_v1
    isplitl [H_v9]; · iexact H_v9
    isplitl [H_v2]; · iexact H_v2
    isplitl [H_v16_0]; · iexact H_v16_0
    iexact H_v16_1

/-- At entry the core's unscoped buffers are region 2's arrays at the proof data's entry contents and the rest. -/
theorem entry2 (c : Dev nD) (dat : Dat τ (Elt F) Unit ℕ (UR sig nD τ) ℕ cfg2 c)
    (hq0 : dat.q 0 = fullShare.left) (hq1 : dat.q 1 = fullShare.right) (hq2 : dat.q 2 = fullShare) (hq3 : dat.q 3 = fullShare) (hq4 : dat.q 4 = fullShare) (hq5 : dat.q 5 = fullShare) (hq6 : dat.q 6 = fullShare) (hq7 : dat.q 7 = fullShare) (hq8 : dat.q 8 = fullShare) (hq9 : dat.q 9 = fullShare) (hq10 : dat.q 10 = fullShare) (hq11 : dat.q 11 = fullShare)
    (V : (b : Ref sig .tc) → Buf (Elt F) ((c : Thread nD τ).loc b))
    (hA : ∀ w, dat.A w = V (Pipeline.arrRef spec2 w)) :
    (unscopedBufs c V : sProp 𝕄) ⊢ iprop(dat.arrays (dat.arrAt · 0) ∗ Pipeline.unscopedRest spec2 c V) := by
  have hs : (unscopedBufs c V : sProp 𝕄) = iprop(Pipeline.arrBufs spec2 c V ∗ Pipeline.unscopedRest spec2 c V) :=
    Pipeline.unscopedBufs_split₀ cfgs 2 winFacts₀2.arr_unscoped c V
  rw [hs, deal2 c dat hq0 hq1 hq2 hq3 hq4 hq5 hq6 hq7 hq8 hq9 hq10 hq11 V (dat.arrAt · 0) (fun w => by rw [show dat.arrAt w 0 = dat.A w from rfl, hA])]

/-- At exit the arrays at contents `Fn` and the rest are the core's unscoped buffers at any valuation that has the
    arrays at `Fn` and agrees with the entry valuation off them. -/
theorem exit2 (c : Dev nD) (dat : Dat τ (Elt F) Unit ℕ (UR sig nD τ) ℕ cfg2 c)
    (hq0 : dat.q 0 = fullShare.left) (hq1 : dat.q 1 = fullShare.right) (hq2 : dat.q 2 = fullShare) (hq3 : dat.q 3 = fullShare) (hq4 : dat.q 4 = fullShare) (hq5 : dat.q 5 = fullShare) (hq6 : dat.q 6 = fullShare) (hq7 : dat.q 7 = fullShare) (hq8 : dat.q 8 = fullShare) (hq9 : dat.q 9 = fullShare) (hq10 : dat.q 10 = fullShare) (hq11 : dat.q 11 = fullShare)
    (V V' : (b : Ref sig .tc) → Buf (Elt F) ((c : Thread nD τ).loc b))
    (Fn : (w : Fin cfg2.W) → Buf (Elt F) ((cfg2.win w).arr.view.loc (c : Thread nD τ)))
    (hF : ∀ w, Fn w = V' (Pipeline.arrRef spec2 w))
    (hrest : ∀ b, b ∉ Finset.univ.image (Pipeline.arrRef spec2) → V' b = V b) :
    iprop(dat.arrays Fn ∗ Pipeline.unscopedRest spec2 c V) ⊢ (unscopedBufs c V' : sProp 𝕄) := by
  have hs : (unscopedBufs c V' : sProp 𝕄) = iprop(Pipeline.arrBufs spec2 c V' ∗ Pipeline.unscopedRest spec2 c V') :=
    Pipeline.unscopedBufs_split₀ cfgs 2 winFacts₀2.arr_unscoped c V'
  rw [hs, ← deal2 c dat hq0 hq1 hq2 hq3 hq4 hq5 hq6 hq7 hq8 hq9 hq10 hq11 V' Fn hF]
  refine sep_mono .rfl (Entails.of_eq ?_)
  unfold Pipeline.unscopedRest
  exact bigSep_congr fun b hb => by rw [hrest b (Finset.mem_sdiff.mp hb).2]

end Cert.KernelIdeal.Hand

end
-- ==== Proof.KI.Run.lean ====
import proofs.«170994_j15857019257044_2_alg».proof.Proof.KI.Bounds
import proofs.«170994_j15857019257044_2_alg».proof.Proof.KI.Deal
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! # The run of @main: one stretch of host operations, then the seven regions -/

/-- No pipeline has a prefetched table. -/
abbrev adm : (p : Fin 7) → (pcfgs (F := F) p).Adm := fun p => (cfgs p).toPCfg_adm
/-- Every pipeline's proof data, each at its region's entry contents. -/
def pdats : (p : Fin 7) → (c : Dev nD) → Dat τ (Elt F) Unit ℕ (UR sig nD τ) ℕ (Pipeline.pin (pcfgs (F := F)) adm p) c
  | ⟨0, _⟩ => fun c => dat0 (Vt (X1 m)) c
  | ⟨1, _⟩ => fun c => dat1 (Vt (X2 m)) c
  | ⟨2, _⟩ => fun c => dat2 (Vt (X3 m)) c
  | ⟨3, _⟩ => fun c => dat3 (Vt (X4 m)) c
  | ⟨4, _⟩ => fun c => dat4 (Vt (X5 m)) c
  | ⟨5, _⟩ => fun c => dat5 (Vt (X6 m)) c
  | ⟨6, _⟩ => fun c => dat6 (Vt (X7 m)) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its debts, none. -/
abbrev R (c : Dev nD) : sProp 𝕄 := iprop((∃ r, prngReg c r) ∗ ∃ W, owes (c : Thread nD τ) (0 : CellTallies nD τ sig Unit) W)
/-- The stretch of host operations as a segment over the unscoped buffers from the launch contents. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp Gen.hostOps0_fresh) op h) (Gen.V0 m) R
/-- The last thread state without the debts: every unscoped buffer at the last contents, the generator register at some state. -/
abbrev Tₙ (c : Dev nD) : sProp 𝕄 := iprop(StableHlo.held (c : Thread nD τ) (Pipeline.ucRefs τ sig) (X8 m c) ∗ ∃ r, prngReg c r)

/-! ## The regions as segments -/

set_option backward.isDefEq.respectTransparency.types false in
/-- Region 0 over the thread state: entered from every unscoped buffer at the contents before it, left at the contents
    after it. Its arrays are taken out of the unscoped buffers at entry and put back, at what the write-backs leave, at
    exit; the generator register goes into the body's invariant and comes back; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vt (X1 m)) c).loose
  hwaits := Pipeline.hwaits_of_owed_zero _ _ _ _ L lv 0 fun _ _ => rfl
  pre c := iprop(StableHlo.held (c : Thread nD τ) (Pipeline.ucRefs τ sig) (X1 m c) ∗ R c)
  post c := iprop(StableHlo.held (c : Thread nD τ) (Pipeline.ucRefs τ sig) (X2 m c) ∗ R c)
  X c := iprop(∃ r, prngReg c r)
  Y c := iprop(∃ r, prngReg c r)
  Z c := Pipeline.unscopedRest (Ix := Unit) (Name := ℕ) (U := UR sig nD τ) (Lvl := ℕ) spec0 c (Vt (X1 m) c)
  hentry c := by
    rw [Pipeline.ownSems0_none]
    have hsplit := Pipeline.arrays_of_unscopedBufs (p := 0) (pcfgs (F := F)) adm (pdats m) launch0.win launch0.arr_whole c
      ((pdats m 0 c).share_full (fun w => match w with | ⟨0, _⟩ => rfl | ⟨1, _⟩ => rfl | ⟨2, _⟩ => rfl | ⟨3, _⟩ => rfl)) (Vt (X1 m) c) (A_eq0 (Vt (X1 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full (fun w => match w with | ⟨0, _⟩ => rfl | ⟨1, _⟩ => rfl | ⟨2, _⟩ => rfl | ⟨3, _⟩ => rfl))
      (Vt (X1 m) c) (Vt (X2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it. Its arrays are taken out of the unscoped buffers at entry and put back, at what the write-backs leave, at
    exit; the generator register goes into the body's invariant and comes back; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vt (X2 m)) c).loose
  hwaits := Pipeline.hwaits_of_owed_zero _ _ _ _ L lv 1 fun _ _ => rfl
  pre c := iprop(StableHlo.held (c : Thread nD τ) (Pipeline.ucRefs τ sig) (X2 m c) ∗ R c)
  post c := iprop(StableHlo.held (c : Thread nD τ) (Pipeline.ucRefs τ sig) (X3 m c) ∗ R c)
  X c := iprop(∃ r, prngReg c r)
  Y c := iprop(∃ r, prngReg c r)
  Z c := Pipeline.unscopedRest (Ix := Unit) (Name := ℕ) (U := UR sig nD τ) (Lvl := ℕ) spec1 c (Vt (X2 m) c)
  hentry c := by
    rw [Pipeline.ownSems0_none]
    have hsplit := Pipeline.arrays_of_unscopedBufs (p := 1) (pcfgs (F := F)) adm (pdats m) launch1.win launch1.arr_whole c
      ((pdats m 1 c).share_full (fun w => match w with | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl | ⟨8, _⟩ => rfl | ⟨9, _⟩ => rfl | ⟨10, _⟩ => rfl)) (Vt (X2 m) c) (A_eq1 (Vt (X2 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full (fun w => match w with | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl | ⟨8, _⟩ => rfl | ⟨9, _⟩ => rfl | ⟨10, _⟩ => rfl))
      (Vt (X2 m) c) (Vt (X3 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at the contents
    after it. Its arrays are taken out of the unscoped buffers at entry and put back, at what the write-backs leave, at
    exit; the generator register goes into the body's invariant and comes back; nothing is owed. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (Vt (X3 m)) c).loose
  hwaits := Pipeline.hwaits_of_owed_zero _ _ _ _ L lv 2 fun _ _ => rfl
  pre c := iprop(StableHlo.held (c : Thread nD τ) (Pipeline.ucRefs τ sig) (X3 m c) ∗ R c)
  post c := iprop(StableHlo.held (c : Thread nD τ) (Pipeline.ucRefs τ sig) (X4 m c) ∗ R c)
  X c := iprop(∃ r, prngReg c r)
  Y c := iprop(∃ r, prngReg c r)
  Z c := Pipeline.unscopedRest (Ix := Unit) (Name := ℕ) (U := UR sig nD τ) (Lvl := ℕ) spec2 c (Vt (X3 m) c)
  hentry c := by
    rw [Pipeline.ownSems0_none]
    have hsplit := entry2 c (pdats m 2 c) (q2_0 (Vt (X3 m)) c) (q2_1 (Vt (X3 m)) c) (q2_2 (Vt (X3 m)) c) (q2_3 (Vt (X3 m)) c) (q2_4 (Vt (X3 m)) c) (q2_5 (Vt (X3 m)) c) (q2_6 (Vt (X3 m)) c) (q2_7 (Vt (X3 m)) c) (q2_8 (Vt (X3 m)) c) (q2_9 (Vt (X3 m)) c) (q2_10 (Vt (X3 m)) c) (q2_11 (Vt (X3 m)) c) (Vt (X3 m) c) (A_eq2 (Vt (X3 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec2 c : sProp 𝕄) ⊢ (pdats m 2 c).Φ 0 := hin2 (Vt (X3 m)) c
    unfold Pipeline.ΦA at h
    iintro ⟨Hp, -, Hr⟩
    iapply h
    isplitl [Hr]; · iexact Hr
    iexact Hp
  hout c := by
    rw [Pipeline.ownSems0_none]
    have h : (pdats m 2 c).Φ (Fin.last (Pipeline.pin (pcfgs (F := F)) adm 2).N) ⊢ (Pipeline.ΦA spec2 c : sProp 𝕄) := hout2 (Vt (X3 m)) c
    unfold Pipeline.ΦA at h
    iintro HΦ
    ihave H := h $$ HΦ
    icases H with ⟨Hr, Hp⟩
    isplitl [Hp]; · iexact Hp
    isplitr; · iempintro
    iexact Hr
  hexit c := by
    have hjoin := exit2 c (pdats m 2 c) (q2_0 (Vt (X3 m)) c) (q2_1 (Vt (X3 m)) c) (q2_2 (Vt (X3 m)) c) (q2_3 (Vt (X3 m)) c) (q2_4 (Vt (X3 m)) c) (q2_5 (Vt (X3 m)) c) (q2_6 (Vt (X3 m)) c) (q2_7 (Vt (X3 m)) c) (q2_8 (Vt (X3 m)) c) (q2_9 (Vt (X3 m)) c) (q2_10 (Vt (X3 m)) c) (q2_11 (Vt (X3 m)) c) (Vt (X3 m) c) (Vt (X4 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at the contents before it, left at the contents
    after it. Its arrays are taken out of the unscoped buffers at entry and put back, at what the write-backs leave, at
    exit; the generator register goes into the body's invariant and comes back; nothing is owed. -/
def reg3 : Pipeline.RegionSeg (pcfgs (F := F)) adm (pdats m) () defs₀ 𝒱₀ L lv 3 where
  win := winFacts₀3
  block_pos := block_pos3
  stage_whole := stage_whole3
  K := PEmpty
  osem k := k.elim
  ho := Pipeline.OwnSemFacts.none _
  hbody c := (body_obligation3 (Vt (X4 m)) c).loose
  hwaits := Pipeline.hwaits_of_owed_zero _ _ _ _ L lv 3 fun _ _ => rfl
  pre c := iprop(StableHlo.held (c : Thread nD τ) (Pipeline.ucRefs τ sig) (X4 m c) ∗ R c)
  post c := iprop(StableHlo.held (c : Thread nD τ) (Pipeline.ucRefs τ sig) (X5 m c) ∗ R c)
  X c := iprop(∃ r, prngReg c r)
  Y c := iprop(∃ r, prngReg c r)
  Z c := Pipeline.unscopedRest (Ix := Unit) (Name := ℕ) (U := UR sig nD τ) (Lvl := ℕ) spec3 c (Vt (X4 m) c)
  hentry c := by
    rw [Pipeline.ownSems0_none]
    have hsplit := entry3 c (pdats m 3 c) (q3_0 (Vt (X4 m)) c) (q3_1 (Vt (X4 m)) c) (q3_2 (Vt (X4 m)) c) (q3_3 (Vt (X4 m)) c) (Vt (X4 m) c) (A_eq3 (Vt (X4 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := exit3 c (pdats m 3 c) (q3_0 (Vt (X4 m)) c) (q3_1 (Vt (X4 m)) c) (q3_2 (Vt (X4 m)) c) (q3_3 (Vt (X4 m)) c) (Vt (X4 m) c) (Vt (X5 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at the contents before it, left at the contents
    after it. Its arrays are taken out of the unscoped buffers at entry and put back, at what the write-backs leave, at
    exit; the generator register goes into the body's invariant and comes back; nothing is owed. -/
def reg4 : Pipeline.RegionSeg (pcfgs (F := F)) adm (pdats m) () defs₀ 𝒱₀ L lv 4 where
  win := winFacts₀4
  block_pos := block_pos4
  stage_whole := stage_whole4
  K := PEmpty
  osem k := k.elim
  ho := Pipeline.OwnSemFacts.none _
  hbody c := (body_obligation4 (Vt (X5 m)) c).loose
  hwaits := Pipeline.hwaits_of_owed_zero _ _ _ _ L lv 4 fun _ _ => rfl
  pre c := iprop(StableHlo.held (c : Thread nD τ) (Pipeline.ucRefs τ sig) (X5 m c) ∗ R c)
  post c := iprop(StableHlo.held (c : Thread nD τ) (Pipeline.ucRefs τ sig) (X6 m c) ∗ R c)
  X c := iprop(∃ r, prngReg c r)
  Y c := iprop(∃ r, prngReg c r)
  Z c := Pipeline.unscopedRest (Ix := Unit) (Name := ℕ) (U := UR sig nD τ) (Lvl := ℕ) spec4 c (Vt (X5 m) c)
  hentry c := by
    rw [Pipeline.ownSems0_none]
    have hsplit := entry4 c (pdats m 4 c) (q4_0 (Vt (X5 m)) c) (q4_1 (Vt (X5 m)) c) (q4_2 (Vt (X5 m)) c) (q4_3 (Vt (X5 m)) c) (Vt (X5 m) c) (A_eq4 (Vt (X5 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := exit4 c (pdats m 4 c) (q4_0 (Vt (X5 m)) c) (q4_1 (Vt (X5 m)) c) (q4_2 (Vt (X5 m)) c) (q4_3 (Vt (X5 m)) c) (Vt (X5 m) c) (Vt (X6 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at the contents before it, left at the contents
    after it. Its arrays are taken out of the unscoped buffers at entry and put back, at what the write-backs leave, at
    exit; the generator register goes into the body's invariant and comes back; nothing is owed. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (Vt (X6 m)) c).loose
  hwaits := Pipeline.hwaits_of_owed_zero _ _ _ _ L lv 5 fun _ _ => rfl
  pre c := iprop(StableHlo.held (c : Thread nD τ) (Pipeline.ucRefs τ sig) (X6 m c) ∗ R c)
  post c := iprop(StableHlo.held (c : Thread nD τ) (Pipeline.ucRefs τ sig) (X7 m c) ∗ R c)
  X c := iprop(∃ r, prngReg c r)
  Y c := iprop(∃ r, prngReg c r)
  Z c := Pipeline.unscopedRest (Ix := Unit) (Name := ℕ) (U := UR sig nD τ) (Lvl := ℕ) spec5 c (Vt (X6 m) c)
  hentry c := by
    rw [Pipeline.ownSems0_none]
    have hsplit := Pipeline.arrays_of_unscopedBufs (p := 5) (pcfgs (F := F)) adm (pdats m) launch5.win launch5.arr_whole c
      ((pdats m 5 c).share_full (fun w => match w with | ⟨0, _⟩ => rfl | ⟨1, _⟩ => rfl | ⟨2, _⟩ => rfl | ⟨3, _⟩ => rfl)) (Vt (X6 m) c) (A_eq5 (Vt (X6 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full (fun w => match w with | ⟨0, _⟩ => rfl | ⟨1, _⟩ => rfl | ⟨2, _⟩ => rfl | ⟨3, _⟩ => rfl))
      (Vt (X6 m) c) (Vt (X7 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at the contents before it, left at the contents
    after it. Its arrays are taken out of the unscoped buffers at entry and put back, at what the write-backs leave, at
    exit; the generator register goes into the body's invariant and comes back; nothing is owed. -/
def reg6 : Pipeline.RegionSeg (pcfgs (F := F)) adm (pdats m) () defs₀ 𝒱₀ L lv 6 where
  win := winFacts₀6
  block_pos := block_pos6
  stage_whole := stage_whole6
  K := PEmpty
  osem k := k.elim
  ho := Pipeline.OwnSemFacts.none _
  hbody c := (body_obligation6 (Vt (X7 m)) c).loose
  hwaits := Pipeline.hwaits_of_owed_zero _ _ _ _ L lv 6 fun _ _ => rfl
  pre c := iprop(StableHlo.held (c : Thread nD τ) (Pipeline.ucRefs τ sig) (X7 m c) ∗ R c)
  post c := iprop(StableHlo.held (c : Thread nD τ) (Pipeline.ucRefs τ sig) (X8 m c) ∗ R c)
  X c := iprop(∃ r, prngReg c r)
  Y c := iprop(∃ r, prngReg c r)
  Z c := Pipeline.unscopedRest (Ix := Unit) (Name := ℕ) (U := UR sig nD τ) (Lvl := ℕ) spec6 c (Vt (X7 m) c)
  hentry c := by
    rw [Pipeline.ownSems0_none]
    have hsplit := entry6 c (pdats m 6 c) (q6_0 (Vt (X7 m)) c) (q6_1 (Vt (X7 m)) c) (q6_2 (Vt (X7 m)) c) (q6_3 (Vt (X7 m)) c) (q6_4 (Vt (X7 m)) c) (q6_5 (Vt (X7 m)) c) (Vt (X7 m) c) (A_eq6 (Vt (X7 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := exit6 c (pdats m 6 c) (q6_0 (Vt (X7 m)) c) (q6_1 (Vt (X7 m)) c) (q6_2 (Vt (X7 m)) c) (q6_3 (Vt (X7 m)) c) (q6_4 (Vt (X7 m)) c) (q6_5 (Vt (X7 m)) c) (Vt (X7 m) c) (Vt (X8 m) c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's eight items in order. -/
abbrev segs : List (Pipeline.Seg (pcfgs (F := F)) adm (pdats m) () defs₀ 𝒱₀ L lv) :=
  [ .host (hseg0 m), .region (reg0 m), .region (reg1 m), .region (reg2 m), .region (reg3 m), .region (reg4 m), .region (reg5 m), .region (reg6 m) ]
/-- @main is the run of the items. -/
theorem main_run (c : Dev nD) : main (F := F) c = Pipeline.Seg.run (segs m) := (main_chain c).trans (by chain_rfl)

set_option backward.isDefEq.respectTransparency.types false in
/-- From any memory with zero counters every weakly fair execution of @main on the TensorCores terminates, nothing
    faulting, and in every final state each unscoped buffer holds the last contents `X8`: the launch contents at
    whatever no item writes, a host operation's result, or what a region's write-backs leave. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = X8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (X8 m c) ∗ (∃ r, prngReg c r) ∗ ∃ W, owes (c : Thread nD τ) (0 : CellTallies nD τ sig Unit) W)
        ⊢ iprop((StableHlo.held (c : Thread nD τ) (Pipeline.ucRefs τ sig) (X8 m c) ∗ ∃ r, prngReg c r) ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X8 m c b)
    (hfin := fun c s' => by
      iintro ⟨⟨Hh, -⟩, HSI⟩
      unfold StableHlo.held
      imodintro
      iapply (pointsTo_read_all (Pipeline.ucRefs τ sig) (fun b => (((c : Thread nD τ)).1, b)) (X8 m c) s')
      isplitl [Hh] <;> iassumption)
    (hQ := fun s h => h)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: every argument array ends holding its launch contents (no host operation and no region writes one). -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => ⟨(h c _ (mem_uc main_arg0 (by decide))).trans (X8_launch m c main_arg0 (by decide) (by decide) (by decide) (by decide) (by decide) (by decide) (by decide) (by decide)),
    (h c _ (mem_uc main_arg1 (by decide))).trans (X8_launch m c main_arg1 (by decide) (by decide) (by decide) (by decide) (by decide) (by decide) (by decide) (by decide)),
    (h c _ (mem_uc main_arg2 (by decide))).trans (X8_launch m c main_arg2 (by decide) (by decide) (by decide) (by decide) (by decide) (by decide) (by decide) (by decide)),
    (h c _ (mem_uc main_arg3 (by decide))).trans (X8_launch m c main_arg3 (by decide) (by decide) (by decide) (by decide) (by decide) (by decide) (by decide) (by decide)),
    (h c _ (mem_uc main_arg4 (by decide))).trans (X8_launch m c main_arg4 (by decide) (by decide) (by decide) (by decide) (by decide) (by decide) (by decide) (by decide)),
    (h c _ (mem_uc main_arg5 (by decide))).trans (X8_launch m c main_arg5 (by decide) (by decide) (by decide) (by decide) (by decide) (by decide) (by decide) (by decide)),
    (h c _ (mem_uc main_arg6 (by decide))).trans (X8_launch m c main_arg6 (by decide) (by decide) (by decide) (by decide) (by decide) (by decide) (by decide) (by decide)),
    (h c _ (mem_uc main_arg7 (by decide))).trans (X8_launch m c main_arg7 (by decide) (by decide) (by decide) (by decide) (by decide) (by decide) (by decide) (by decide)),
    (h c _ (mem_uc main_arg8 (by decide))).trans (X8_launch m c main_arg8 (by decide) (by decide) (by decide) (by decide) (by decide) (by decide) (by decide) (by decide)),
    (h c _ (mem_uc main_arg9 (by decide))).trans (X8_launch m c main_arg9 (by decide) (by decide) (by decide) (by decide) (by decide) (by decide) (by decide) (by decide)),
    (h c _ (mem_uc main_arg10 (by decide))).trans (X8_launch m c main_arg10 (by decide) (by decide) (by decide) (by decide) (by decide) (by decide) (by decide) (by decide)),
    (h c _ (mem_uc main_arg11 (by decide))).trans (X8_launch m c main_arg11 (by decide) (by decide) (by decide) (by decide) (by decide) (by decide) (by decide) (by decide)),
    (h c _ (mem_uc main_arg12 (by decide))).trans (X8_launch m c main_arg12 (by decide) (by decide) (by decide) (by decide) (by decide) (by decide) (by decide) (by decide)),
    (h c _ (mem_uc main_arg13 (by decide))).trans (X8_launch m c main_arg13 (by decide) (by decide) (by decide) (by decide) (by decide) (by decide) (by decide) (by decide)),
    (h c _ (mem_uc main_arg14 (by decide))).trans (X8_launch m c main_arg14 (by decide) (by decide) (by decide) (by decide) (by decide) (by decide) (by decide) (by decide)),
    (h c _ (mem_uc main_arg15 (by decide))).trans (X8_launch m c main_arg15 (by decide) (by decide) (by decide) (by decide) (by decide) (by decide) (by decide) (by decide)),
    (h c _ (mem_uc main_arg16 (by decide))).trans (X8_launch m c main_arg16 (by decide) (by decide) (by decide) (by decide) (by decide) (by decide) (by decide) (by decide)),
    (h c _ (mem_uc main_arg17 (by decide))).trans (X8_launch m c main_arg17 (by decide) (by decide) (by decide) (by decide) (by decide) (by decide) (by decide) (by decide))⟩) (run_all m ρ)

/-- The same run with the result named: `main_v20` ends at what region 6's write-backs leave. -/
theorem value_all : θ_run defs (onTc (τ := τ) (main (F := F))) ⟨m, fun _ => 0, ρ⟩ (fun r => ∀ c : Dev nD,
      r.2.mem ((c.tc : Thread nD τ).loc main_v20) = X8 m c main_v20
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => ⟨h c _ (mem_uc main_v20 (by decide)),
    (h c _ (mem_uc main_arg0 (by decide))).trans (X8_launch m c main_arg0 (by decide) (by decide) (by decide) (by decide) (by decide) (by decide) (by decide) (by decide)),
    (h c _ (mem_uc main_arg1 (by decide))).trans (X8_launch m c main_arg1 (by decide) (by decide) (by decide) (by decide) (by decide) (by decide) (by decide) (by decide)),
    (h c _ (mem_uc main_arg2 (by decide))).trans (X8_launch m c main_arg2 (by decide) (by decide) (by decide) (by decide) (by decide) (by decide) (by decide) (by decide)),
    (h c _ (mem_uc main_arg3 (by decide))).trans (X8_launch m c main_arg3 (by decide) (by decide) (by decide) (by decide) (by decide) (by decide) (by decide) (by decide)),
    (h c _ (mem_uc main_arg4 (by decide))).trans (X8_launch m c main_arg4 (by decide) (by decide) (by decide) (by decide) (by decide) (by decide) (by decide) (by decide)),
    (h c _ (mem_uc main_arg5 (by decide))).trans (X8_launch m c main_arg5 (by decide) (by decide) (by decide) (by decide) (by decide) (by decide) (by decide) (by decide)),
    (h c _ (mem_uc main_arg6 (by decide))).trans (X8_launch m c main_arg6 (by decide) (by decide) (by decide) (by decide) (by decide) (by decide) (by decide) (by decide)),
    (h c _ (mem_uc main_arg7 (by decide))).trans (X8_launch m c main_arg7 (by decide) (by decide) (by decide) (by decide) (by decide) (by decide) (by decide) (by decide)),
    (h c _ (mem_uc main_arg8 (by decide))).trans (X8_launch m c main_arg8 (by decide) (by decide) (by decide) (by decide) (by decide) (by decide) (by decide) (by decide)),
    (h c _ (mem_uc main_arg9 (by decide))).trans (X8_launch m c main_arg9 (by decide) (by decide) (by decide) (by decide) (by decide) (by decide) (by decide) (by decide)),
    (h c _ (mem_uc main_arg10 (by decide))).trans (X8_launch m c main_arg10 (by decide) (by decide) (by decide) (by decide) (by decide) (by decide) (by decide) (by decide)),
    (h c _ (mem_uc main_arg11 (by decide))).trans (X8_launch m c main_arg11 (by decide) (by decide) (by decide) (by decide) (by decide) (by decide) (by decide) (by decide)),
    (h c _ (mem_uc main_arg12 (by decide))).trans (X8_launch m c main_arg12 (by decide) (by decide) (by decide) (by decide) (by decide) (by decide) (by decide) (by decide)),
    (h c _ (mem_uc main_arg13 (by decide))).trans (X8_launch m c main_arg13 (by decide) (by decide) (by decide) (by decide) (by decide) (by decide) (by decide) (by decide)),
    (h c _ (mem_uc main_arg14 (by decide))).trans (X8_launch m c main_arg14 (by decide) (by decide) (by decide) (by decide) (by decide) (by decide) (by decide) (by decide)),
    (h c _ (mem_uc main_arg15 (by decide))).trans (X8_launch m c main_arg15 (by decide) (by decide) (by decide) (by decide) (by decide) (by decide) (by decide) (by decide)),
    (h c _ (mem_uc main_arg16 (by decide))).trans (X8_launch m c main_arg16 (by decide) (by decide) (by decide) (by decide) (by decide) (by decide) (by decide) (by decide)),
    (h c _ (mem_uc main_arg17 (by decide))).trans (X8_launch m c main_arg17 (by decide) (by decide) (by decide) (by decide) (by decide) (by decide) (by decide) (by decide))⟩) (run_all m ρ)

end Cert.KernelIdeal.Hand

end
-- ==== Proof.RefFrame.lean ====
/-
  The reference's frame: under the precondition every weakly fair execution of the reference terminates, faults
  nowhere and leaves its eighteen argument arrays as they were. It is the reference's run — which says, besides, what
  the result array holds — with the result's conjunct dropped.
-/
import proofs.«170994_j15857019257044_2_alg».proof.Defs
import proofs.«170994_j15857019257044_2_alg».proof.Proof.Gen.ReferenceIdeal
import proofs.«170994_j15857019257044_2_alg».proof.Proof.Gen.Pre_finite_inputs
import proofs.«170994_j15857019257044_2_alg».proof.Proof.RefRunPatched

noncomputable section

namespace Cert.RefSide

open Idealize.ShloMosaic Idealize.SL.Sem

theorem frame_ri : Cert.frame_ReferenceIdeal := fun m ρ _ =>
  (θ_run Cert.ReferenceIdeal.defs _ _).mono (fun _ h c => (h c).2) (Cert.ReferenceIdeal.ValueP.run (F := Ideal) m ρ)

end Cert.RefSide

end
-- ==== Proof.KI.HostRead.lean ====
import proofs.«170994_j15857019257044_2_alg».proof.Proof.Gen.KernelIdeal.Regions
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal

noncomputable section

namespace Cert.KernelIdeal.HandValue

open Cert.KernelIdeal Cert.KernelIdeal.Gen
open Idealize.ShloMosaic Idealize.ShloMosaic.TcCoe Idealize.SL.Sem ValueIdx

variable (m : (ℓ : Loc nD τ sig) → Buf (Elt Ideal) ℓ)

/-! # What the host operations before the first region leave, read at an index (over the extended reals)

Each bias vector [n] is kept as a row [1, n]: the row at (0, j) is the vector at j. Each weight matrix is changed to
the narrower float format, which on the extended reals is the identity. -/

/-- The row `main_v0` at (0, j) is argument 3 at j. -/
theorem V1_v0_apply (c : Dev nD) (j : Fin 256) :
    (Gen.V1 (F := Ideal) m c main_v0 : S1x256.Idx → EReal) (ix2 0 j) = (m ((c : Thread nD τ).loc main_arg3) : S256.Idx → EReal) (ix1 j) := by
  dsimp only [Gen.V1, Gen.V0, Gen.hostOps0]; after_results
  exact shapeCast_a_1a_apply (a := 256) _ shapeCasts_S256_S1x256 0 j

/-- The row `main_v1` at (0, j) is argument 5 at j. -/
theorem V1_v1_apply (c : Dev nD) (j : Fin 256) :
    (Gen.V1 (F := Ideal) m c main_v1 : S1x256.Idx → EReal) (ix2 0 j) = (m ((c : Thread nD τ).loc main_arg5) : S256.Idx → EReal) (ix1 j) := by
  dsimp only [Gen.V1, Gen.V0, Gen.hostOps0]; after_results
  exact shapeCast_a_1a_apply (a := 256) _ shapeCasts_S256_S1x256 0 j

/-- The row `main_v2` at (0, j) is argument 7 at j. -/
theorem V1_v2_apply (c : Dev nD) (j : Fin 256) :
    (Gen.V1 (F := Ideal) m c main_v2 : S1x256.Idx → EReal) (ix2 0 j) = (m ((c : Thread nD τ).loc main_arg7) : S256.Idx → EReal) (ix1 j) := by
  dsimp only [Gen.V1, Gen.V0, Gen.hostOps0]; after_results
  exact shapeCast_a_1a_apply (a := 256) _ shapeCasts_S256_S1x256 0 j

/-- The row `main_v3` at (0, j) is argument 9 at j. -/
theorem V1_v3_apply (c : Dev nD) (j : Fin 256) :
    (Gen.V1 (F := Ideal) m c main_v3 : S1x256.Idx → EReal) (ix2 0 j) = (m ((c : Thread nD τ).loc main_arg9) : S256.Idx → EReal) (ix1 j) := by
  dsimp only [Gen.V1, Gen.V0, Gen.hostOps0]; after_results
  exact shapeCast_a_1a_apply (a := 256) _ shapeCasts_S256_S1x256 0 j

/-- The row `main_v4` at (0, j) is argument 11 at j. -/
theorem V1_v4_apply (c : Dev nD) (j : Fin 1536) :
    (Gen.V1 (F := Ideal) m c main_v4 : S1x1536.Idx → EReal) (ix2 0 j) = (m ((c : Thread nD τ).loc main_arg11) : S1536.Idx → EReal) (ix1 j) := by
  dsimp only [Gen.V1, Gen.V0, Gen.hostOps0]; after_results
  exact shapeCast_a_1a_apply (a := 1536) _ shapeCasts_S1536_S1x1536 0 j

/-- The row `main_v5` at (0, j) is argument 13 at j. -/
theorem V1_v5_apply (c : Dev nD) (j : Fin 200) :
    (Gen.V1 (F := Ideal) m c main_v5 : S1x200.Idx → EReal) (ix2 0 j) = (m ((c : Thread nD τ).loc main_arg13) : S200.Idx → EReal) (ix1 j) := by
  dsimp only [Gen.V1, Gen.V0, Gen.hostOps0]; after_results
  exact shapeCast_a_1a_apply (a := 200) _ shapeCasts_S200_S1x200 0 j

/-- The row `main_v6` at (0, j) is argument 17 at j. -/
theorem V1_v6_apply (c : Dev nD) (j : Fin 768) :
    (Gen.V1 (F := Ideal) m c main_v6 : S1x768.Idx → EReal) (ix2 0 j) = (m ((c : Thread nD τ).loc main_arg17) : S768.Idx → EReal) (ix1 j) := by
  dsimp only [Gen.V1, Gen.V0, Gen.hostOps0]; after_results
  exact shapeCast_a_1a_apply (a := 768) _ shapeCasts_S768_S1x768 0 j

/-- The matrix `main_v7` is argument 2, entry by entry. -/
theorem V1_v7 (c : Dev nD) :
    (Gen.V1 (F := Ideal) m c main_v7 : S256x256.Idx → EReal) = (m ((c : Thread nD τ).loc main_arg2) : S256x256.Idx → EReal) := by
  funext i
  dsimp only [Gen.V1, Gen.V0, Gen.hostOps0]; after_results; rfl

/-- The matrix `main_v8` is argument 4, entry by entry. -/
theorem V1_v8 (c : Dev nD) :
    (Gen.V1 (F := Ideal) m c main_v8 : S256x768.Idx → EReal) = (m ((c : Thread nD τ).loc main_arg4) : S256x768.Idx → EReal) := by
  funext i
  dsimp only [Gen.V1, Gen.V0, Gen.hostOps0]; after_results; rfl

/-- The matrix `main_v9` is argument 6, entry by entry. -/
theorem V1_v9 (c : Dev nD) :
    (Gen.V1 (F := Ideal) m c main_v9 : S256x768.Idx → EReal) = (m ((c : Thread nD τ).loc main_arg6) : S256x768.Idx → EReal) := by
  funext i
  dsimp only [Gen.V1, Gen.V0, Gen.hostOps0]; after_results; rfl

/-- The matrix `main_v10` is argument 8, entry by entry. -/
theorem V1_v10 (c : Dev nD) :
    (Gen.V1 (F := Ideal) m c main_v10 : S256x256.Idx → EReal) = (m ((c : Thread nD τ).loc main_arg8) : S256x256.Idx → EReal) := by
  funext i
  dsimp only [Gen.V1, Gen.V0, Gen.hostOps0]; after_results; rfl

/-- The matrix `main_v11` is argument 10, entry by entry. -/
theorem V1_v11 (c : Dev nD) :
    (Gen.V1 (F := Ideal) m c main_v11 : S1536x768.Idx → EReal) = (m ((c : Thread nD τ).loc main_arg10) : S1536x768.Idx → EReal) := by
  funext i
  dsimp only [Gen.V1, Gen.V0, Gen.hostOps0]; after_results; rfl

/-- The matrix `main_v12` is argument 12, entry by entry. -/
theorem V1_v12 (c : Dev nD) :
    (Gen.V1 (F := Ideal) m c main_v12 : S200x768.Idx → EReal) = (m ((c : Thread nD τ).loc main_arg12) : S200x768.Idx → EReal) := by
  funext i
  dsimp only [Gen.V1, Gen.V0, Gen.hostOps0]; after_results; rfl

/-- The matrix `main_v13` is argument 16, entry by entry. -/
theorem V1_v13 (c : Dev nD) :
    (Gen.V1 (F := Ideal) m c main_v13 : S768x768.Idx → EReal) = (m ((c : Thread nD τ).loc main_arg16) : S768x768.Idx → EReal) := by
  funext i
  dsimp only [Gen.V1, Gen.V0, Gen.hostOps0]; after_results; rfl

/-- No host operation writes an argument. -/
theorem V1_arg (c : Dev nD) (r : Ref sig .tc) (h : r ∉ Gen.hostOps0_W) : Gen.V1 (F := Ideal) m c r = m ((c : Thread nD τ).loc r) :=
  (Gen.V1_of m c r h).trans rfl

end Cert.KernelIdeal.HandValue

end
-- ==== Proof.Spec.lean ====
/-
  The mathematics of the reference, over the extended reals, as named stages.

  Every array is a function from the indices of a literal shape to the extended reals; an index of a matrix is built
  from its two coordinates (ix2 a b), of a vector from its one (ix1 a). A stage is written with mat: the
  matrix whose entry (a, b) is the given expression in the coordinates, so that reading a stage at ix2 a b is
  reading the expression (mat_ix2, by definition).

  The stages, in the order the reference computes them (n = 4096 nodes):
    lin x W b         x·Wᵀ + b: entry (a, j) is (∑ c, x(a,c)·W(j,c)) + b j
    silu x            x · logistic x
    Q                 lin node Wq bq
    hid, vv, gate     silu (lin support Wh bh), and its left and right column halves
    qk, qq, kq        silu (lin support Wqk bqk); qk·gamma[0] + beta[0]; qk·gamma[1] + beta[1]
    rowMax, softmaxRow   the row maximum (the supremum of the row, the supremum of nothing being -∞);
                      exp (x - row maximum) / the row's sum of these
    gram x y          x·yᵀ;   mm x y   x·y
    mask              softmaxRow (support·supportᵀ)
    sim               (qq·kqᵀ) / D, D the single-precision word 0x41DDB3D7 (the rounded √768)
    attn              (max(sim, 0))² · mask
    gated             (attn·vv) · gate;   gau   (gated·Woutᵀ + bout) · support
    Kf, Vf            lin gau Wk bk, lin gau Wv bv
    graphAtt X Q      Q + max(softmaxRow(X·Xᵀ)·Q, 0)
    B X Q             X · graphAtt X Q · Q   (B1 at X = Kf, B2 at X = Vf)
    gt                logistic (lin B1 Wg bg)
    Gs                softmaxRow (((gt·Kf)·((1 - gt)·Q)ᵀ) / 16)
    out               logistic (B1·B1·(Gs·B2))
    res               out / max(√(row sum of out²), ε), ε the word 0x2B8CBCCC (the rounded 1e-12)
  Chain.* are the same stages composed from the eighteen argument arrays; res is the whole function.
-/
import Idealize.ShloMosaic.PureOps.Ideal
import Idealize.ShloMosaic.Lib.ValueIdx

noncomputable section

open scoped BigOperators

namespace Cert.Spec

open Idealize.ShloMosaic Idealize.ShloMosaic.ValueIdx

/-! ## Arrays and indices -/

/-- An n × m matrix of extended reals. -/
abbrev Mat (n m : Nat) : Type := (⟨2, ![n, m]⟩ : Shape).Idx → EReal
/-- A vector of n extended reals. -/
abbrev Vct (n : Nat) : Type := (⟨1, ![n]⟩ : Shape).Idx → EReal

/-- The matrix whose entry (a, b) is f a b. -/
def mat {n m : Nat} (f : Fin n → Fin m → EReal) : Mat n m := fun i => f (i 0) (i 1)

theorem mat_ix2 {n m : Nat} (f : Fin n → Fin m → EReal) (a : Fin n) (b : Fin m) : mat f (ix2 a b) = f a b := rfl

/-- Two matrices with the same entries are equal. -/
theorem Mat.ext {n m : Nat} {x y : Mat n m} (h : ∀ (a : Fin n) (b : Fin m), x (ix2 a b) = y (ix2 a b)) : x = y :=
  funext fun i => by rw [eq_ix2 i]; exact h _ _

/-! ## The constants, as the single-precision words the reference prints -/

/-- The divisor of the similarity: the single-precision word nearest √768. -/
def D : EReal := Ideal.ofBits .f32 0x41DDB3D7#32
/-- The divisor of the last attention's logits: the single-precision word of 16 = √256. -/
def c16 : EReal := Ideal.ofBits .f32 0x41800000#32
/-- The floor of the norm: the single-precision word nearest 1e-12. -/
def eps : EReal := Ideal.ofBits .f32 0x2B8CBCCC#32

/-- The word of -∞ is the least extended real. -/
theorem ofBits_neg_inf_f32 : Ideal.ofBits .f32 0xFF800000#32 = ⊥ := by simp [Ideal.ofBits, Ideal.ieee]

/-! ## The generic stages -/

/-- x·Wᵀ + b. -/
def lin {n k m : Nat} (x : Mat n k) (W : Mat m k) (b : Vct m) : Mat n m :=
  mat fun a j => (∑ c : Fin k, x (ix2 a c) * W (ix2 j c)) + b (ix1 j)

/-- x · logistic x. -/
def silu (x : EReal) : EReal := x * Ideal.logistic x

/-- x·yᵀ. -/
def gram {n k m : Nat} (x : Mat n k) (y : Mat m k) : Mat n m :=
  mat fun a b => ∑ c : Fin k, x (ix2 a c) * y (ix2 b c)

/-- x·y. -/
def mm {n k m : Nat} (x : Mat n k) (y : Mat k m) : Mat n m :=
  mat fun a b => ∑ c : Fin k, x (ix2 a c) * y (ix2 c b)

/-- The maximum of row a: the supremum of its entries (of an empty row, -∞). -/
def rowMax {n m : Nat} (s : Mat n m) (a : Fin n) : EReal := Finset.univ.sup fun k : Fin m => s (ix2 a k)

/-- The softmax of each row: exp (x - the row's maximum) over the row's sum of these. -/
def softmaxRow {n m : Nat} (s : Mat n m) : Mat n m :=
  mat fun a j => Ideal.div (Ideal.exp (s (ix2 a j) - rowMax s a)) (∑ k : Fin m, Ideal.exp (s (ix2 a k) - rowMax s a))

/-! ## The stages of this program, each a function of the earlier ones -/

/-- Q = node·Wqᵀ + bq. -/
def Q (node : Mat 4096 256) (Wq : Mat 256 256) (bq : Vct 256) : Mat 4096 256 := lin node Wq bq

/-- The hidden layer of the gated unit: silu (support·Whᵀ + bh). -/
def hid (support : Mat 4096 768) (Wh : Mat 1536 768) (bh : Vct 1536) : Mat 4096 1536 :=
  mat fun a j => silu (lin support Wh bh (ix2 a j))

/-- The value half of the hidden layer: its columns 0 … 767. -/
def vv (h : Mat 4096 1536) : Mat 4096 768 :=
  mat fun a j => h (ix2 a (⟨j.val, by have := j.isLt; omega⟩ : Fin 1536))

/-- The gate half of the hidden layer: its columns 768 … 1535. -/
def gate (h : Mat 4096 1536) : Mat 4096 768 :=
  mat fun a j => h (ix2 a (⟨768 + j.val, by have := j.isLt; omega⟩ : Fin 1536))

/-- silu (support·Wqkᵀ + bqk). -/
def qk (support : Mat 4096 768) (Wqk : Mat 200 768) (bqk : Vct 200) : Mat 4096 200 :=
  mat fun a j => silu (lin support Wqk bqk (ix2 a j))

/-- The queries: qk·gamma[0] + beta[0]. -/
def qq (qk : Mat 4096 200) (gamma beta : Mat 2 200) : Mat 4096 200 :=
  mat fun a j => qk (ix2 a j) * gamma (ix2 (0 : Fin 2) j) + beta (ix2 (0 : Fin 2) j)

/-- The keys: qk·gamma[1] + beta[1]. -/
def kq (qk : Mat 4096 200) (gamma beta : Mat 2 200) : Mat 4096 200 :=
  mat fun a j => qk (ix2 a j) * gamma (ix2 (1 : Fin 2) j) + beta (ix2 (1 : Fin 2) j)

/-- The mask: the row softmax of support·supportᵀ. -/
def mask (support : Mat 4096 768) : Mat 4096 4096 := softmaxRow (gram support support)

/-- The similarity: (qq·kqᵀ) / D. -/
def sim (qq kq : Mat 4096 200) : Mat 4096 4096 :=
  mat fun a b => Ideal.div (gram qq kq (ix2 a b)) D

/-- The attention weights: (max(sim, 0))² · mask. -/
def attn (sim mask : Mat 4096 4096) : Mat 4096 4096 :=
  mat fun a b => (max (sim (ix2 a b)) 0 * max (sim (ix2 a b)) 0) * mask (ix2 a b)

/-- (attn·vv) · gate. -/
def gated (attn : Mat 4096 4096) (vv gate : Mat 4096 768) : Mat 4096 768 :=
  mat fun a j => mm attn vv (ix2 a j) * gate (ix2 a j)

/-- The gated unit's result: (gated·Woutᵀ + bout) · support. -/
def gau (gated : Mat 4096 768) (Wout : Mat 768 768) (bout : Vct 768) (support : Mat 4096 768) : Mat 4096 768 :=
  mat fun a j => lin gated Wout bout (ix2 a j) * support (ix2 a j)

/-- K = gau·Wkᵀ + bk. -/
def Kf (gau : Mat 4096 768) (Wk : Mat 256 768) (bk : Vct 256) : Mat 4096 256 := lin gau Wk bk

/-- V = gau·Wvᵀ + bv. -/
def Vf (gau : Mat 4096 768) (Wv : Mat 256 768) (bv : Vct 256) : Mat 4096 256 := lin gau Wv bv

/-- Graph attention: Q + max(softmaxRow(X·Xᵀ)·Q, 0). -/
def graphAtt (X Q : Mat 4096 256) : Mat 4096 256 :=
  mat fun a j => Q (ix2 a j) + max (mm (softmaxRow (gram X X)) Q (ix2 a j)) 0

/-- X · graphAtt X Q · Q (B1 at X = K, B2 at X = V). -/
def B (X Q : Mat 4096 256) : Mat 4096 256 :=
  mat fun a j => X (ix2 a j) * graphAtt X Q (ix2 a j) * Q (ix2 a j)

/-- The gate: logistic (B1·Wgᵀ + bg). -/
def gt (B1 : Mat 4096 256) (Wg : Mat 256 256) (bg : Vct 256) : Mat 4096 256 :=
  mat fun a j => Ideal.logistic (lin B1 Wg bg (ix2 a j))

/-- The gated queries gt·K. -/
def gq (gt Kf : Mat 4096 256) : Mat 4096 256 := mat fun a c => gt (ix2 a c) * Kf (ix2 a c)

/-- The gated keys (1 - gt)·Q. -/
def gk (gt Q : Mat 4096 256) : Mat 4096 256 := mat fun b c => (1 - gt (ix2 b c)) * Q (ix2 b c)

/-- The last attention's weights: softmaxRow (((gt·K)·((1 - gt)·Q)ᵀ) / 16). -/
def Gs (gt Kf Q : Mat 4096 256) : Mat 4096 4096 :=
  softmaxRow (mat fun a b => Ideal.div (gram (gq gt Kf) (gk gt Q) (ix2 a b)) c16)

/-- logistic (B1·B1·(Gs·B2)). -/
def out (B1 : Mat 4096 256) (Gs : Mat 4096 4096) (B2 : Mat 4096 256) : Mat 4096 256 :=
  mat fun a j => Ideal.logistic (B1 (ix2 a j) * B1 (ix2 a j) * mm Gs B2 (ix2 a j))

/-- The rows of out scaled to unit length: out / max(√(∑ out²), ε). -/
def normalize (out : Mat 4096 256) : Mat 4096 256 :=
  mat fun a j => Ideal.div (out (ix2 a j)) (max (Ideal.sqrt (∑ c : Fin 256, out (ix2 a c) * out (ix2 a c))) eps)

/-! ## The stages composed from the argument arrays -/

namespace Chain

variable (node : Mat 4096 256) (support : Mat 4096 768) (Wq : Mat 256 256) (bq : Vct 256) (Wk : Mat 256 768)
  (bk : Vct 256) (Wv : Mat 256 768) (bv : Vct 256) (Wg : Mat 256 256) (bg : Vct 256) (Wh : Mat 1536 768)
  (bh : Vct 1536) (Wqk : Mat 200 768) (bqk : Vct 200) (gamma beta : Mat 2 200) (Wout : Mat 768 768) (bout : Vct 768)

def attn : Mat 4096 4096 :=
  Spec.attn (Spec.sim (Spec.qq (Spec.qk support Wqk bqk) gamma beta) (Spec.kq (Spec.qk support Wqk bqk) gamma beta))
    (Spec.mask support)

def gau : Mat 4096 768 :=
  Spec.gau (Spec.gated (attn support Wqk bqk gamma beta) (Spec.vv (Spec.hid support Wh bh)) (Spec.gate (Spec.hid support Wh bh)))
    Wout bout support

def Kf : Mat 4096 256 := Spec.Kf (gau support Wh bh Wqk bqk gamma beta Wout bout) Wk bk

def Vf : Mat 4096 256 := Spec.Vf (gau support Wh bh Wqk bqk gamma beta Wout bout) Wv bv

def B1 : Mat 4096 256 := Spec.B (Kf support Wk bk Wh bh Wqk bqk gamma beta Wout bout) (Spec.Q node Wq bq)

def B2 : Mat 4096 256 := Spec.B (Vf support Wv bv Wh bh Wqk bqk gamma beta Wout bout) (Spec.Q node Wq bq)

def gt : Mat 4096 256 := Spec.gt (B1 node support Wq bq Wk bk Wh bh Wqk bqk gamma beta Wout bout) Wg bg

def out : Mat 4096 256 :=
  Spec.out (B1 node support Wq bq Wk bk Wh bh Wqk bqk gamma beta Wout bout)
    (Spec.Gs (gt node support Wq bq Wk bk Wg bg Wh bh Wqk bqk gamma beta Wout bout)
      (Kf support Wk bk Wh bh Wqk bqk gamma beta Wout bout) (Spec.Q node Wq bq))
    (B2 node support Wq bq Wv bv Wh bh Wqk bqk gamma beta Wout bout)

end Chain

/-- The reference's result as one function of its eighteen argument arrays. -/
def res (node : Mat 4096 256) (support : Mat 4096 768) (Wq : Mat 256 256) (bq : Vct 256) (Wk : Mat 256 768)
    (bk : Vct 256) (Wv : Mat 256 768) (bv : Vct 256) (Wg : Mat 256 256) (bg : Vct 256) (Wh : Mat 1536 768)
    (bh : Vct 1536) (Wqk : Mat 200 768) (bqk : Vct 200) (gamma beta : Mat 2 200) (Wout : Mat 768 768)
    (bout : Vct 768) : Mat 4096 256 :=
  normalize (Chain.out node support Wq bq Wk bk Wv bv Wg bg Wh bh Wqk bqk gamma beta Wout bout)

end Cert.Spec

end
-- ==== Proof.KI.Value0.lean ====
import proofs.«170994_j15857019257044_2_alg».proof.Proof.KI.Region0
import proofs.«170994_j15857019257044_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

/-! # The value of region 0: its output array after the run is x·Wᵀ + b of the arrays it finds -/

/-! The operand indices of the product lin0: at output entry i and contraction index q, the left operand is read at
(i 0, q) and the right at (q, i 1). -/
theorem lhs_lin0_0 (i : S512x256.Idx) (q : dot_S512x256_S256x256_S512x256_1_0_0_1_n_n.contr.Idx) : (dot_S512x256_S256x256_S512x256_1_0_0_1_n_n.lhsIdx i q 0).val = (i 0).val := by
  unfold DotDims.lhsIdx
  rw [dif_neg (show ¬(0 : Fin S512x256.rank) ∈ dot_S512x256_S256x256_S512x256_1_0_0_1_n_n.lhsBatch by decide), dif_pos (show (0 : Fin S512x256.rank) ∈ dot_S512x256_S256x256_S512x256_1_0_0_1_n_n.lhsNonContracting by decide)]
  rfl
theorem lhs_lin0_1 (i : S512x256.Idx) (q : dot_S512x256_S256x256_S512x256_1_0_0_1_n_n.contr.Idx) : (dot_S512x256_S256x256_S512x256_1_0_0_1_n_n.lhsIdx i q 1).val = (q ⟨0, by decide⟩).val :=
  dot_S512x256_S256x256_S512x256_1_0_0_1_n_n.lhsIdx_val_of_single rfl i q
theorem rhs_lin0_0 (i : S512x256.Idx) (q : dot_S512x256_S256x256_S512x256_1_0_0_1_n_n.contr.Idx) : (dot_S512x256_S256x256_S512x256_1_0_0_1_n_n.rhsIdx i q 0).val = (q ⟨0, by decide⟩).val :=
  dot_S512x256_S256x256_S512x256_1_0_0_1_n_n.rhsIdx_val_of_single rfl i q
theorem rhs_lin0_1 (i : S512x256.Idx) (q : dot_S512x256_S256x256_S512x256_1_0_0_1_n_n.contr.Idx) : (dot_S512x256_S256x256_S512x256_1_0_0_1_n_n.rhsIdx i q 1).val = (i 1).val := by
  unfold DotDims.rhsIdx
  rw [dif_neg (show ¬(1 : Fin S256x256.rank) ∈ dot_S512x256_S256x256_S512x256_1_0_0_1_n_n.rhsBatch by decide), dif_pos (show (1 : Fin S256x256.rank) ∈ dot_S512x256_S256x256_S512x256_1_0_0_1_n_n.rhsNonContracting by decide)]
  rfl

/-- The block product read at an entry: entry (p, q) of x·Wᵀ + b over one block of 512 rows is the sum over
    the 256 columns k of x(p, k)·W(q, k), plus b(q): the roundings to bf16 are the identity on the extended reals, a
    product into the zero accumulator is the plain sum, and the bias row is broadcast down the rows. -/
theorem pay0_apply (x0 : Vec Ideal S512x256 .f32) (x1 : Vec Ideal S256x256 .bf16) (x2 : Vec Ideal S1x256 .f32)
    (p : Fin 512) (q : Fin 256) :
    k0_pay1 x0 x1 x2 (ix2 p q) = (∑ k : Fin 256, x0 (ix2 p k) * x1 (ix2 q k)) + x2 (ix2 (0 : Fin 1) q) := by
  unfold k0_pay1
  dsimp only
  rw [addf_apply, broadcastTo_1b_ab_apply, shapeCast_self, shapeCast_self]
  refine congrArg (· + x2 (ix2 (0 : Fin 1) q)) ?_
  refine (Ideal.matmul_constant_zero_apply dot_S512x256_S256x256_S512x256_1_0_0_1_n_n none _ _ (ix2 p q)).trans ?_
  rw [← Equiv.sum_comp (contrEquiv1 dot_S512x256_S256x256_S512x256_1_0_0_1_n_n 256 rfl rfl).symm]
  refine Finset.sum_congr rfl fun k _ => ?_
  have hk := contrEquiv1_symm_val dot_S512x256_S256x256_S512x256_1_0_0_1_n_n 256 rfl rfl k
  have el : dot_S512x256_S256x256_S512x256_1_0_0_1_n_n.lhsIdx (ix2 p q) ((contrEquiv1 dot_S512x256_S256x256_S512x256_1_0_0_1_n_n 256 rfl rfl).symm k) = ix2 p k := funext fun a => Fin.ext (by
    match a with
    | ⟨0, _⟩ => exact lhs_lin0_0 _ _
    | ⟨1, _⟩ => exact (lhs_lin0_1 _ _).trans hk)
  have er : dot_S512x256_S256x256_S512x256_1_0_0_1_n_n.rhsIdx (ix2 p q) ((contrEquiv1 dot_S512x256_S256x256_S512x256_1_0_0_1_n_n 256 rfl rfl).symm k) = ix2 k q := funext fun a => Fin.ext (by
    match a with
    | ⟨0, _⟩ => exact (rhs_lin0_0 _ _).trans hk
    | ⟨1, _⟩ => exact rhs_lin0_1 _ _)
  rw [el, er]
  rw [truncf_apply, transpose_ix2_apply]

variable (V : (c : Dev nD) → (b : Ref sig .tc) → Buf (Elt Ideal) ((c : Thread nD τ).loc b))

theorem hz0 : (![0, 0] : Fin 2 → Nat) = fun _ => 0 := funext fun a => by fin_cases a <;> rfl

/-- The printed index maps over the grid: the row-tiled windows (x and the output) sit at block row t, the whole-array
    windows (the weight and the bias row) at block 0. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Block t of x is its rows 512·t … 512·t + 511. -/
theorem blk0_0_apply (c : Dev nD) (t : Fin cfg0.N) (p : Fin 512) (k : Fin 256) (r : Fin 4096) (hr : r.val = t.val * 512 + p.val) :
    (iblk0 V c 0 t : Vec Ideal S512x256 .f32) (ix2 p k) = (V c main_arg0 : S4096x256.Idx → EReal) (ix2 r k) := by
  obtain ⟨e0, e1, -⟩ := idx_facts0 t
  unfold iblk0
  rw [View.read_apply]
  show V c main_arg0 _ = V c main_arg0 _
  refine congrArg _ (funext fun a => Fin.ext ?_)
  match a with
  | ⟨0, _⟩ => show win0_0.index t (0 : Fin 2) * 512 + 1 * p.val = r.val; rw [e0, hr]; omega
  | ⟨1, _⟩ => show win0_0.index t (1 : Fin 2) * 256 + 1 * k.val = k.val; rw [e1]; omega

/-- The weight's one block is the weight. -/
theorem blk0_1_apply (c : Dev nD) (t : Fin cfg0.N) (a b : Fin 256) :
    (iblk0 V c 1 t : Vec Ideal S256x256 .bf16) (ix2 a b) = (V c main_v7 : S256x256.Idx → EReal) (ix2 a b) := by
  obtain ⟨-, -, e2, e3, -⟩ := idx_facts0 t
  unfold iblk0
  rw [View.read_apply]
  show V c main_v7 _ = V c main_v7 _
  refine congrArg _ (funext fun d => Fin.ext ?_)
  match d with
  | ⟨0, _⟩ => show win0_1.index t (0 : Fin 2) * 256 + 1 * a.val = a.val; rw [e2]; omega
  | ⟨1, _⟩ => show win0_1.index t (1 : Fin 2) * 256 + 1 * b.val = b.val; rw [e3]; omega

/-- The bias row's one block is the bias row. -/
theorem blk0_2_apply (c : Dev nD) (t : Fin cfg0.N) (b : Fin 256) :
    (iblk0 V c 2 t : Vec Ideal S1x256 .f32) (ix2 (0 : Fin 1) b) = (V c main_v0 : S1x256.Idx → EReal) (ix2 (0 : Fin 1) b) := by
  obtain ⟨-, -, -, -, e4, e5, -⟩ := idx_facts0 t
  unfold iblk0
  rw [View.read_apply]
  show V c main_v0 _ = V c main_v0 _
  refine congrArg _ (funext fun d => Fin.ext ?_)
  match d with
  | ⟨0, _⟩ => show win0_2.index t (0 : Fin 2) * 1 + 1 * 0 = 0; rw [e4]
  | ⟨1, _⟩ => show win0_2.index t (1 : Fin 2) * 256 + 1 * b.val = b.val; rw [e5]; omega

/-- What point t writes back is block t (rows 512·t …) of x·Wᵀ + b of the arrays as the region finds them. -/
theorem flushed0_eq (c : Dev nD) (x : Spec.Mat 4096 256) (W : Spec.Mat 256 256) (bias : Spec.Vct 256)
    (hx : (V c main_arg0 : S4096x256.Idx → EReal) = x) (hW : (V c main_v7 : S256x256.Idx → EReal) = W)
    (hb : ∀ j : Fin 256, (V c main_v0 : S1x256.Idx → EReal) (ix2 0 j) = bias (ix1 j)) (t : Fin cfg0.N) :
    (dat0 (F := Ideal) V c).flushed 3 t = ((cfg0.win 3).blk t).view.read (Elt Ideal) (Spec.lin x W bias) := by
  have hN : cfg0.N = 8 := N_0
  have ht : t.val < 8 := hN ▸ t.isLt
  show (cfg0.win 3).cut (grid0.coords t) ((dat0 (F := Ideal) V c).after 3 t) = _
  rw [after0_3]
  unfold out0_3
  rw [View.canon_unit_zero hz0]
  simp only [View.ld_unit_zero (S := S512x256) hz0, View.ld_unit_zero (S := S256x256) hz0, View.ld_unit_zero (S := S1x256) hz0]
  funext j
  obtain ⟨p, q, rfl⟩ : ∃ (p : Fin 512) (q : Fin 256), j = ix2 p q := ⟨j 0, j 1, eq_ix2 j⟩
  obtain ⟨-, -, -, -, -, -, e6, e7⟩ := idx_facts0 t
  have hemb : ((cfg0.win 3).blk t).view.emb (ix2 p q) = (ix2 (⟨t.val * 512 + p.val, by omega⟩ : Fin 4096) q : S4096x256.Idx) :=
    funext fun a => Fin.ext (by
      match a with
      | ⟨0, _⟩ => show win0_3.index t (0 : Fin 2) * 512 + 1 * p.val = t.val * 512 + p.val; rw [e6]; omega
      | ⟨1, _⟩ => show win0_3.index t (1 : Fin 2) * 256 + 1 * q.val = q.val; rw [e7]; omega)
  show k0_pay1 (iblk0 V c 0 t) (iblk0 V c 1 t) (iblk0 V c 2 t) (ix2 p q) = Spec.lin x W bias (((cfg0.win 3).blk t).view.emb (ix2 p q))
  rw [hemb]
  refine (pay0_apply (iblk0 V c 0 t) (iblk0 V c 1 t) (iblk0 V c 2 t) p q).trans ?_
  show _ = (∑ k : Fin 256, x (ix2 (⟨t.val * 512 + p.val, by omega⟩ : Fin 4096) k) * W (ix2 q k)) + bias (ix1 q)
  rw [blk0_2_apply V c t q, hb q]
  refine congrArg (· + bias (ix1 q)) (Finset.sum_congr rfl fun k _ => ?_)
  rw [blk0_0_apply V c t p k ⟨t.val * 512 + p.val, by omega⟩ rfl, blk0_1_apply V c t q k, hx, hW]

/-- An index of the output array is in point t's block iff each coordinate is in the block's range on its axis. -/
theorem mem_blk0 (t : Fin cfg0.N) (i : S4096x256.Idx) :
    i ∈ ((cfg0.win 3).blk t).view.set ↔ ∀ a : Fin 2, win0_3.index t a * S512x256.size a ≤ (i a).val ∧ (i a).val < win0_3.index t a * S512x256.size a + S512x256.size a := by
  show i ∈ ((View.whole main_v14).slice (win0_3.rect t)).set ↔ _
  rw [View.set_slice_whole, Rect.mem_set_unit]
  exact Iff.rfl

/-- Row r of the output is covered by point r / 512. -/
theorem cover0 (i : S4096x256.Idx) : ∃ t : Fin cfg0.N, (cfg0.win 3).flush t = true ∧ i ∈ ((cfg0.win 3).blk t).view.set := by
  have hN : cfg0.N = 8 := N_0
  have hi0 : (i 0).val < 4096 := (i 0).isLt
  have hi1 : (i 1).val < 256 := (i 1).isLt
  obtain ⟨t, ht⟩ : ∃ t : Fin cfg0.N, t.val = (i 0).val / 512 := ⟨⟨(i 0).val / 512, by omega⟩, rfl⟩
  obtain ⟨-, -, -, -, -, -, e6, e7⟩ := idx_facts0 t
  refine ⟨t, flush0_3 t, ?_⟩
  rw [mem_blk0]
  intro a
  match a with
  | ⟨0, _⟩ => show win0_3.index t (0 : Fin 2) * 512 ≤ (i 0).val ∧ (i 0).val < win0_3.index t (0 : Fin 2) * 512 + 512; rw [e6, ht]; omega
  | ⟨1, _⟩ => show win0_3.index t (1 : Fin 2) * 256 ≤ (i 1).val ∧ (i 1).val < win0_3.index t (1 : Fin 2) * 256 + 256; rw [e7]; omega

/-- The output array of region 0 after its run is x·Wᵀ + b of the arrays the region finds. -/
theorem value0 (c : Dev nD)
    (x : Spec.Mat 4096 256) (W : Spec.Mat 256 256) (bias : Spec.Vct 256)
    (hx : (V c main_arg0 : S4096x256.Idx → EReal) = x) (hW : (V c main_v7 : S256x256.Idx → EReal) = W)
    (hb : ∀ j : Fin 256, (V c main_v0 : S1x256.Idx → EReal) (ix2 0 j) = bias (ix1 j)) :
    ((dat0 (F := Ideal) V c).arrAt 3 cfg0.N : S4096x256.Idx → EReal) = Spec.lin x W bias :=
  (dat0 (F := Ideal) V c).arrAt_eq_of_cover 3 (Spec.lin x W bias) (fun t _ => flushed0_eq V c x W bias hx hW hb t) cover0

end Cert.KernelIdeal.HandValue

end
-- ==== Proof.KI.Value1.lean ====
import proofs.«170994_j15857019257044_2_alg».proof.Proof.KI.Region1
import proofs.«170994_j15857019257044_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

/-! # The values of region 1: after the run its four output arrays are the value and gate halves of the hidden layer
silu (support·Whᵀ + bh), and the queries and keys qk·gamma[r] + beta[r] of qk = silu (support·Wqkᵀ + bqk) -/

/-- The logistic of a vector, read at an index, is the logistic of its entry there. -/
theorem logistic_apply1 {s : Shape} {φ : FTy} (a : FVec Ideal s φ) (i : s.Idx) : logistic a i = Ideal.logistic (a i) := rfl

/-! The operand indices of the product u1: at output entry i and contraction index q, the left operand is read at
(i 0, q) and the right at (q, i 1). -/
theorem lhs_u1_0 (i : S512x1536.Idx) (q : dot_S512x768_S768x1536_S512x1536_1_0_0_1_n_n.contr.Idx) : (dot_S512x768_S768x1536_S512x1536_1_0_0_1_n_n.lhsIdx i q 0).val = (i 0).val := by
  unfold DotDims.lhsIdx
  rw [dif_neg (show ¬(0 : Fin S512x768.rank) ∈ dot_S512x768_S768x1536_S512x1536_1_0_0_1_n_n.lhsBatch by decide), dif_pos (show (0 : Fin S512x768.rank) ∈ dot_S512x768_S768x1536_S512x1536_1_0_0_1_n_n.lhsNonContracting by decide)]
  rfl
theorem lhs_u1_1 (i : S512x1536.Idx) (q : dot_S512x768_S768x1536_S512x1536_1_0_0_1_n_n.contr.Idx) : (dot_S512x768_S768x1536_S512x1536_1_0_0_1_n_n.lhsIdx i q 1).val = (q ⟨0, by decide⟩).val :=
  dot_S512x768_S768x1536_S512x1536_1_0_0_1_n_n.lhsIdx_val_of_single rfl i q
theorem rhs_u1_0 (i : S512x1536.Idx) (q : dot_S512x768_S768x1536_S512x1536_1_0_0_1_n_n.contr.Idx) : (dot_S512x768_S768x1536_S512x1536_1_0_0_1_n_n.rhsIdx i q 0).val = (q ⟨0, by decide⟩).val :=
  dot_S512x768_S768x1536_S512x1536_1_0_0_1_n_n.rhsIdx_val_of_single rfl i q
theorem rhs_u1_1 (i : S512x1536.Idx) (q : dot_S512x768_S768x1536_S512x1536_1_0_0_1_n_n.contr.Idx) : (dot_S512x768_S768x1536_S512x1536_1_0_0_1_n_n.rhsIdx i q 1).val = (i 1).val := by
  unfold DotDims.rhsIdx
  rw [dif_neg (show ¬(1 : Fin S768x1536.rank) ∈ dot_S512x768_S768x1536_S512x1536_1_0_0_1_n_n.rhsBatch by decide), dif_pos (show (1 : Fin S768x1536.rank) ∈ dot_S512x768_S768x1536_S512x1536_1_0_0_1_n_n.rhsNonContracting by decide)]
  rfl

/-! The operand indices of the product z1: at output entry i and contraction index q, the left operand is read at
(i 0, q) and the right at (q, i 1). -/
theorem lhs_z1_0 (i : S512x200.Idx) (q : dot_S512x768_S768x200_S512x200_1_0_0_1_n_n.contr.Idx) : (dot_S512x768_S768x200_S512x200_1_0_0_1_n_n.lhsIdx i q 0).val = (i 0).val := by
  unfold DotDims.lhsIdx
  rw [dif_neg (show ¬(0 : Fin S512x768.rank) ∈ dot_S512x768_S768x200_S512x200_1_0_0_1_n_n.lhsBatch by decide), dif_pos (show (0 : Fin S512x768.rank) ∈ dot_S512x768_S768x200_S512x200_1_0_0_1_n_n.lhsNonContracting by decide)]
  rfl
theorem lhs_z1_1 (i : S512x200.Idx) (q : dot_S512x768_S768x200_S512x200_1_0_0_1_n_n.contr.Idx) : (dot_S512x768_S768x200_S512x200_1_0_0_1_n_n.lhsIdx i q 1).val = (q ⟨0, by decide⟩).val :=
  dot_S512x768_S768x200_S512x200_1_0_0_1_n_n.lhsIdx_val_of_single rfl i q
theorem rhs_z1_0 (i : S512x200.Idx) (q : dot_S512x768_S768x200_S512x200_1_0_0_1_n_n.contr.Idx) : (dot_S512x768_S768x200_S512x200_1_0_0_1_n_n.rhsIdx i q 0).val = (q ⟨0, by decide⟩).val :=
  dot_S512x768_S768x200_S512x200_1_0_0_1_n_n.rhsIdx_val_of_single rfl i q
theorem rhs_z1_1 (i : S512x200.Idx) (q : dot_S512x768_S768x200_S512x200_1_0_0_1_n_n.contr.Idx) : (dot_S512x768_S768x200_S512x200_1_0_0_1_n_n.rhsIdx i q 1).val = (i 1).val := by
  unfold DotDims.rhsIdx
  rw [dif_neg (show ¬(1 : Fin S768x200.rank) ∈ dot_S512x768_S768x200_S512x200_1_0_0_1_n_n.rhsBatch by decide), dif_pos (show (1 : Fin S768x200.rank) ∈ dot_S512x768_S768x200_S512x200_1_0_0_1_n_n.rhsNonContracting by decide)]
  rfl

/-! ## The payloads at an entry -/

/-- Entry (p, q) of the hidden block u: silu of the sum over the 768 columns k of x(p, k)·Wh(q, k), plus bh(q). -/
theorem k1_pay2_apply (x0 : Vec Ideal S512x768 .f32) (x1 : Vec Ideal S1536x768 .bf16) (x2 : Vec Ideal S1x1536 .f32)
    (p : Fin 512) (q : Fin 1536) :
    k1_pay2 x0 x1 x2 (ix2 p q) = Spec.silu ((∑ k : Fin 768, x0 (ix2 p k) * x1 (ix2 q k)) + x2 (ix2 (0 : Fin 1) q)) := by
  unfold k1_pay2
  dsimp only
  rw [mulf_apply, logistic_apply1, addf_apply, broadcastTo_1b_ab_apply, shapeCast_self, shapeCast_self]
  show Spec.silu (_ + x2 (ix2 (0 : Fin 1) q)) = _
  refine congrArg (fun s => Spec.silu (s + x2 (ix2 (0 : Fin 1) q))) ?_
  refine (Ideal.matmul_constant_zero_apply dot_S512x768_S768x1536_S512x1536_1_0_0_1_n_n none _ _ (ix2 p q)).trans ?_
  rw [← Equiv.sum_comp (contrEquiv1 dot_S512x768_S768x1536_S512x1536_1_0_0_1_n_n 768 rfl rfl).symm]
  refine Finset.sum_congr rfl fun k _ => ?_
  have hk := contrEquiv1_symm_val dot_S512x768_S768x1536_S512x1536_1_0_0_1_n_n 768 rfl rfl k
  have el : dot_S512x768_S768x1536_S512x1536_1_0_0_1_n_n.lhsIdx (ix2 p q) ((contrEquiv1 dot_S512x768_S768x1536_S512x1536_1_0_0_1_n_n 768 rfl rfl).symm k) = ix2 p k := funext fun a => Fin.ext (by
    match a with
    | ⟨0, _⟩ => exact lhs_u1_0 _ _
    | ⟨1, _⟩ => exact (lhs_u1_1 _ _).trans hk)
  have er : dot_S512x768_S768x1536_S512x1536_1_0_0_1_n_n.rhsIdx (ix2 p q) ((contrEquiv1 dot_S512x768_S768x1536_S512x1536_1_0_0_1_n_n 768 rfl rfl).symm k) = ix2 k q := funext fun a => Fin.ext (by
    match a with
    | ⟨0, _⟩ => exact (rhs_u1_0 _ _).trans hk
    | ⟨1, _⟩ => exact rhs_u1_1 _ _)
  rw [el, er]
  rw [truncf_apply, transpose_ix2_apply]

/-- The value half: column q of the left half of u is column q of u. -/
theorem k1_pay3_apply (x0 : Vec Ideal S512x768 .f32) (x1 : Vec Ideal S1536x768 .bf16) (x2 : Vec Ideal S1x1536 .f32)
    (p : Fin 512) (q : Fin 768) :
    k1_pay3 x0 x1 x2 (ix2 p q) = Spec.silu ((∑ k : Fin 768, x0 (ix2 p k) * x1 (ix2 (⟨q.val, by have := q.isLt; omega⟩ : Fin 1536) k))
      + x2 (ix2 (0 : Fin 1) (⟨q.val, by have := q.isLt; omega⟩ : Fin 1536))) := by
  unfold k1_pay3
  refine (slice2_axis1_apply 0 (k1_pay2 x0 x1 x2) slices_S512x1536_o0_0_S512x768 p q ⟨q.val, by have := q.isLt; omega⟩ (by simp)).trans ?_
  exact k1_pay2_apply x0 x1 x2 p _

/-- The gate half: column q of the right half of u is column 768 + q of u. -/
theorem k1_pay4_apply (x0 : Vec Ideal S512x768 .f32) (x1 : Vec Ideal S1536x768 .bf16) (x2 : Vec Ideal S1x1536 .f32)
    (p : Fin 512) (q : Fin 768) :
    k1_pay4 x0 x1 x2 (ix2 p q) = Spec.silu ((∑ k : Fin 768, x0 (ix2 p k) * x1 (ix2 (⟨768 + q.val, by have := q.isLt; omega⟩ : Fin 1536) k))
      + x2 (ix2 (0 : Fin 1) (⟨768 + q.val, by have := q.isLt; omega⟩ : Fin 1536))) := by
  unfold k1_pay4
  refine (slice2_axis1_apply 768 (k1_pay2 x0 x1 x2) slices_S512x1536_o0_768_S512x768 p q ⟨768 + q.val, by have := q.isLt; omega⟩ rfl).trans ?_
  exact k1_pay2_apply x0 x1 x2 p _

/-- Entry (p, q) of the shared block z: silu of the sum over the 768 columns k of x(p, k)·Wqk(q, k), plus bqk(q). -/
theorem k1_pay5_apply (x0 : Vec Ideal S512x768 .f32) (x3 : Vec Ideal S200x768 .bf16) (x4 : Vec Ideal S1x200 .f32)
    (p : Fin 512) (q : Fin 200) :
    k1_pay5 x0 x3 x4 (ix2 p q) = Spec.silu ((∑ k : Fin 768, x0 (ix2 p k) * x3 (ix2 q k)) + x4 (ix2 (0 : Fin 1) q)) := by
  unfold k1_pay5
  dsimp only
  rw [mulf_apply, logistic_apply1, addf_apply, broadcastTo_1b_ab_apply, shapeCast_self, shapeCast_self]
  show Spec.silu (_ + x4 (ix2 (0 : Fin 1) q)) = _
  refine congrArg (fun s => Spec.silu (s + x4 (ix2 (0 : Fin 1) q))) ?_
  refine (Ideal.matmul_constant_zero_apply dot_S512x768_S768x200_S512x200_1_0_0_1_n_n none _ _ (ix2 p q)).trans ?_
  rw [← Equiv.sum_comp (contrEquiv1 dot_S512x768_S768x200_S512x200_1_0_0_1_n_n 768 rfl rfl).symm]
  refine Finset.sum_congr rfl fun k _ => ?_
  have hk := contrEquiv1_symm_val dot_S512x768_S768x200_S512x200_1_0_0_1_n_n 768 rfl rfl k
  have el : dot_S512x768_S768x200_S512x200_1_0_0_1_n_n.lhsIdx (ix2 p q) ((contrEquiv1 dot_S512x768_S768x200_S512x200_1_0_0_1_n_n 768 rfl rfl).symm k) = ix2 p k := funext fun a => Fin.ext (by
    match a with
    | ⟨0, _⟩ => exact lhs_z1_0 _ _
    | ⟨1, _⟩ => exact (lhs_z1_1 _ _).trans hk)
  have er : dot_S512x768_S768x200_S512x200_1_0_0_1_n_n.rhsIdx (ix2 p q) ((contrEquiv1 dot_S512x768_S768x200_S512x200_1_0_0_1_n_n 768 rfl rfl).symm k) = ix2 k q := funext fun a => Fin.ext (by
    match a with
    | ⟨0, _⟩ => exact (rhs_z1_0 _ _).trans hk
    | ⟨1, _⟩ => exact rhs_z1_1 _ _)
  rw [el, er]
  rw [truncf_apply, transpose_ix2_apply]

/-- A row of a two-row parameter, loaded as a one-row block, read at column q. -/
theorem ld_row0 (X : Vec Ideal S2x200 .f32) (q : Fin 200) : View.ld X r1_row0 (ix2 (0 : Fin 1) q) = X (ix2 (0 : Fin 2) q) :=
  congrArg X (funext fun a => Fin.ext (by
    match a with
    | ⟨0, _⟩ => rfl
    | ⟨1, _⟩ => show 0 + 1 * q.val = q.val; omega))
theorem ld_row1 (X : Vec Ideal S2x200 .f32) (q : Fin 200) : View.ld X r1_row1 (ix2 (0 : Fin 1) q) = X (ix2 (1 : Fin 2) q) :=
  congrArg X (funext fun a => Fin.ext (by
    match a with
    | ⟨0, _⟩ => rfl
    | ⟨1, _⟩ => show 0 + 1 * q.val = q.val; omega))

/-- The queries' block: z·(scale row 0) + (offset row 0), the rows broadcast down the block. -/
theorem pay1_9_apply (x0 : Vec Ideal S512x768 .f32) (x3 : Vec Ideal S200x768 .bf16) (x4 : Vec Ideal S1x200 .f32)
    (x5 x6 : Vec Ideal S2x200 .f32) (p : Fin 512) (q : Fin 200) :
    k1_pay8 x0 x3 x4 (View.ld x5 r1_row0) (View.ld x6 r1_row0) (ix2 p q)
      = Spec.silu ((∑ k : Fin 768, x0 (ix2 p k) * x3 (ix2 q k)) + x4 (ix2 (0 : Fin 1) q)) * x5 (ix2 (0 : Fin 2) q) + x6 (ix2 (0 : Fin 2) q) := by
  unfold k1_pay8
  rw [addf_apply, mulf_apply, broadcastTo_1b_ab_apply, broadcastTo_1b_ab_apply, shapeCast_shapeCast, shapeCast_shapeCast,
    k1_pay5_apply, ld_row0, ld_row0]

/-- The keys' block: z·(scale row 1) + (offset row 1). -/
theorem pay1_10_apply (x0 : Vec Ideal S512x768 .f32) (x3 : Vec Ideal S200x768 .bf16) (x4 : Vec Ideal S1x200 .f32)
    (x5 x6 : Vec Ideal S2x200 .f32) (p : Fin 512) (q : Fin 200) :
    k1_pay1 (k1_pay5 x0 x3 x4) (k1_pay6 (View.ld x5 r1_row1)) (k1_pay7 (View.ld x6 r1_row1)) (ix2 p q)
      = Spec.silu ((∑ k : Fin 768, x0 (ix2 p k) * x3 (ix2 q k)) + x4 (ix2 (0 : Fin 1) q)) * x5 (ix2 (1 : Fin 2) q) + x6 (ix2 (1 : Fin 2) q) := by
  unfold k1_pay1 k1_pay6 k1_pay7
  dsimp only
  rw [addf_apply, mulf_apply, broadcastTo_1b_ab_apply, broadcastTo_1b_ab_apply, shapeCast_shapeCast, shapeCast_shapeCast,
    k1_pay5_apply, ld_row1, ld_row1]

variable (V : (c : Dev nD) → (b : Ref sig .tc) → Buf (Elt Ideal) ((c : Thread nD τ).loc b))

theorem hz1 : (![0, 0] : Fin 2 → Nat) = fun _ => 0 := funext fun a => by fin_cases a <;> rfl

/-! ## The printed index maps over the grid: the row-tiled windows (support and the four outputs) sit at block row t,
the whole-array windows (the parameters) at block 0 -/

theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = 0 ∧ win1_1.index t (1 : Fin 2) = 0 :=
  (by decide +kernel : ∀ t : Fin grid1.N, _)
theorem idx1_2 : ∀ t : Fin cfg1.N, win1_2.index t (0 : Fin 2) = 0 ∧ win1_2.index t (1 : Fin 2) = 0 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)
theorem idx1_6 : ∀ t : Fin cfg1.N, win1_6.index t (0 : Fin 2) = 0 ∧ win1_6.index t (1 : Fin 2) = 0 :=
  (by decide +kernel : ∀ t : Fin grid1.N, _)
theorem idx1_7 : ∀ t : Fin cfg1.N, win1_7.index t (0 : Fin 2) = t.val ∧ win1_7.index t (1 : Fin 2) = 0 :=
  (by decide +kernel : ∀ t : Fin grid1.N, _)
theorem idx1_8 : ∀ t : Fin cfg1.N, win1_8.index t (0 : Fin 2) = t.val ∧ win1_8.index t (1 : Fin 2) = 0 :=
  (by decide +kernel : ∀ t : Fin grid1.N, _)
theorem idx1_9 : ∀ t : Fin cfg1.N, win1_9.index t (0 : Fin 2) = t.val ∧ win1_9.index t (1 : Fin 2) = 0 :=
  (by decide +kernel : ∀ t : Fin grid1.N, _)
theorem idx1_10 : ∀ t : Fin cfg1.N, win1_10.index t (0 : Fin 2) = t.val ∧ win1_10.index t (1 : Fin 2) = 0 :=
  (by decide +kernel : ∀ t : Fin grid1.N, _)

/-! ## The input blocks, read -/

/-- Block t of the row-tiled input is its rows 512·t … 512·t + 511. -/
theorem blk1_0_apply (c : Dev nD) (t : Fin cfg1.N) (p : Fin 512) (k : Fin 768) (r : Fin 4096) (hr : r.val = t.val * 512 + p.val) :
    (iblk1 V c 0 t : Vec Ideal S512x768 .f32) (ix2 p k) = (V c main_arg1 : S4096x768.Idx → EReal) (ix2 r k) := by
  obtain ⟨e0, e1⟩ := idx1_0 t
  unfold iblk1
  rw [View.read_apply]
  show V c main_arg1 _ = V c main_arg1 _
  refine congrArg _ (funext fun a => Fin.ext ?_)
  match a with
  | ⟨0, _⟩ => show win1_0.index t (0 : Fin 2) * 512 + 1 * p.val = r.val; rw [e0, hr]; omega
  | ⟨1, _⟩ => show win1_0.index t (1 : Fin 2) * 768 + 1 * k.val = k.val; rw [e1]; omega

/-- The one block of a whole-array window is the array. -/
theorem blk1_1_apply (c : Dev nD) (t : Fin cfg1.N) (a : Fin 1536) (b : Fin 768) :
    (iblk1 V c 1 t : Vec Ideal S1536x768 .bf16) (ix2 a b) = (V c main_v11 : S1536x768.Idx → EReal) (ix2 a b) := by
  obtain ⟨e0, e1⟩ := idx1_1 t
  unfold iblk1
  rw [View.read_apply]
  show V c main_v11 _ = V c main_v11 _
  refine congrArg _ (funext fun d => Fin.ext ?_)
  match d with
  | ⟨0, _⟩ => show win1_1.index t (0 : Fin 2) * 1536 + 1 * a.val = a.val; rw [e0]; omega
  | ⟨1, _⟩ => show win1_1.index t (1 : Fin 2) * 768 + 1 * b.val = b.val; rw [e1]; omega

/-- The one block of a whole-array window is the array. -/
theorem blk1_2_apply (c : Dev nD) (t : Fin cfg1.N) (a : Fin 1) (b : Fin 1536) :
    (iblk1 V c 2 t : Vec Ideal S1x1536 .f32) (ix2 a b) = (V c main_v4 : S1x1536.Idx → EReal) (ix2 a b) := by
  obtain ⟨e0, e1⟩ := idx1_2 t
  unfold iblk1
  rw [View.read_apply]
  show V c main_v4 _ = V c main_v4 _
  refine congrArg _ (funext fun d => Fin.ext ?_)
  match d with
  | ⟨0, _⟩ => show win1_2.index t (0 : Fin 2) * 1 + 1 * a.val = a.val; rw [e0]; omega
  | ⟨1, _⟩ => show win1_2.index t (1 : Fin 2) * 1536 + 1 * b.val = b.val; rw [e1]; omega

/-- The one block of a whole-array window is the array. -/
theorem blk1_3_apply (c : Dev nD) (t : Fin cfg1.N) (a : Fin 200) (b : Fin 768) :
    (iblk1 V c 3 t : Vec Ideal S200x768 .bf16) (ix2 a b) = (V c main_v12 : S200x768.Idx → EReal) (ix2 a b) := by
  obtain ⟨e0, e1⟩ := idx1_3 t
  unfold iblk1
  rw [View.read_apply]
  show V c main_v12 _ = V c main_v12 _
  refine congrArg _ (funext fun d => Fin.ext ?_)
  match d with
  | ⟨0, _⟩ => show win1_3.index t (0 : Fin 2) * 200 + 1 * a.val = a.val; rw [e0]; omega
  | ⟨1, _⟩ => show win1_3.index t (1 : Fin 2) * 768 + 1 * b.val = b.val; rw [e1]; omega

/-- The one block of a whole-array window is the array. -/
theorem blk1_4_apply (c : Dev nD) (t : Fin cfg1.N) (a : Fin 1) (b : Fin 200) :
    (iblk1 V c 4 t : Vec Ideal S1x200 .f32) (ix2 a b) = (V c main_v5 : S1x200.Idx → EReal) (ix2 a b) := by
  obtain ⟨e0, e1⟩ := idx1_4 t
  unfold iblk1
  rw [View.read_apply]
  show V c main_v5 _ = V c main_v5 _
  refine congrArg _ (funext fun d => Fin.ext ?_)
  match d with
  | ⟨0, _⟩ => show win1_4.index t (0 : Fin 2) * 1 + 1 * a.val = a.val; rw [e0]; omega
  | ⟨1, _⟩ => show win1_4.index t (1 : Fin 2) * 200 + 1 * b.val = b.val; rw [e1]; omega

/-- The one block of a whole-array window is the array. -/
theorem blk1_5_apply (c : Dev nD) (t : Fin cfg1.N) (a : Fin 2) (b : Fin 200) :
    (iblk1 V c 5 t : Vec Ideal S2x200 .f32) (ix2 a b) = (V c main_arg14 : S2x200.Idx → EReal) (ix2 a b) := by
  obtain ⟨e0, e1⟩ := idx1_5 t
  unfold iblk1
  rw [View.read_apply]
  show V c main_arg14 _ = V c main_arg14 _
  refine congrArg _ (funext fun d => Fin.ext ?_)
  match d with
  | ⟨0, _⟩ => show win1_5.index t (0 : Fin 2) * 2 + 1 * a.val = a.val; rw [e0]; omega
  | ⟨1, _⟩ => show win1_5.index t (1 : Fin 2) * 200 + 1 * b.val = b.val; rw [e1]; omega

/-- The one block of a whole-array window is the array. -/
theorem blk1_6_apply (c : Dev nD) (t : Fin cfg1.N) (a : Fin 2) (b : Fin 200) :
    (iblk1 V c 6 t : Vec Ideal S2x200 .f32) (ix2 a b) = (V c main_arg15 : S2x200.Idx → EReal) (ix2 a b) := by
  obtain ⟨e0, e1⟩ := idx1_6 t
  unfold iblk1
  rw [View.read_apply]
  show V c main_arg15 _ = V c main_arg15 _
  refine congrArg _ (funext fun d => Fin.ext ?_)
  match d with
  | ⟨0, _⟩ => show win1_6.index t (0 : Fin 2) * 2 + 1 * a.val = a.val; rw [e0]; omega
  | ⟨1, _⟩ => show win1_6.index t (1 : Fin 2) * 200 + 1 * b.val = b.val; rw [e1]; omega

/-! ## What each point writes back -/

/-- What point t writes back to the value array is block t of vv (hid support Wh bh) of the arrays as the region finds them. -/
theorem flushed1_7_eq (c : Dev nD) (support : Spec.Mat 4096 768) (Wh : Spec.Mat 1536 768) (bh : Spec.Vct 1536)
    (hs : (V c main_arg1 : S4096x768.Idx → EReal) = support) (hWh : (V c main_v11 : S1536x768.Idx → EReal) = Wh)
    (hbh : ∀ j : Fin 1536, (V c main_v4 : S1x1536.Idx → EReal) (ix2 0 j) = bh (ix1 j)) (t : Fin cfg1.N) :
    (dat1 (F := Ideal) V c).flushed 7 t = ((cfg1.win 7).blk t).view.read (Elt Ideal) (Spec.vv (Spec.hid support Wh bh)) := by
  have hN : cfg1.N = 8 := N_1
  have ht : t.val < 8 := hN ▸ t.isLt
  show (cfg1.win 7).cut (grid1.coords t) ((dat1 (F := Ideal) V c).after 7 t) = _
  rw [after1_7]
  unfold out1_7
  rw [View.canon_unit_zero hz1]
  simp only [View.ld_unit_zero (S := S512x768) hz1, View.ld_unit_zero (S := S1536x768) hz1, View.ld_unit_zero (S := S1x1536) hz1]
  funext j
  obtain ⟨p, q, rfl⟩ : ∃ (p : Fin 512) (q : Fin 768), j = ix2 p q := ⟨j 0, j 1, eq_ix2 j⟩
  obtain ⟨e0, e1⟩ := idx1_7 t
  have hemb : ((cfg1.win 7).blk t).view.emb (ix2 p q) = (ix2 (⟨t.val * 512 + p.val, by omega⟩ : Fin 4096) q : S4096x768.Idx) :=
    funext fun a => Fin.ext (by
      match a with
      | ⟨0, _⟩ => show win1_7.index t (0 : Fin 2) * 512 + 1 * p.val = t.val * 512 + p.val; rw [e0]; omega
      | ⟨1, _⟩ => show win1_7.index t (1 : Fin 2) * 768 + 1 * q.val = q.val; rw [e1]; omega)
  show k1_pay3 (iblk1 V c 0 t) (iblk1 V c 1 t) (iblk1 V c 2 t) (ix2 p q) = Spec.vv (Spec.hid support Wh bh) (((cfg1.win 7).blk t).view.emb (ix2 p q))
  rw [hemb]
  refine (k1_pay3_apply (iblk1 V c 0 t) (iblk1 V c 1 t) (iblk1 V c 2 t) p q).trans ?_
  have hq : q.val < 768 := q.isLt
  show _ = Spec.silu ((∑ k : Fin 768, support (ix2 (⟨t.val * 512 + p.val, by omega⟩ : Fin 4096) k) * Wh (ix2 (⟨q.val, by omega⟩ : Fin 1536) k))
    + bh (ix1 (⟨q.val, by omega⟩ : Fin 1536)))
  rw [blk1_2_apply V c t 0 ⟨q.val, by omega⟩, hbh]
  refine congrArg (fun s => Spec.silu (s + bh (ix1 (⟨q.val, by omega⟩ : Fin 1536)))) (Finset.sum_congr rfl fun k _ => ?_)
  rw [blk1_0_apply V c t p k ⟨t.val * 512 + p.val, by omega⟩ rfl, blk1_1_apply V c t ⟨q.val, by omega⟩ k, hs, hWh]

/-- What point t writes back to the gate array is block t of gate (hid support Wh bh) of the arrays as the region finds them. -/
theorem flushed1_8_eq (c : Dev nD) (support : Spec.Mat 4096 768) (Wh : Spec.Mat 1536 768) (bh : Spec.Vct 1536)
    (hs : (V c main_arg1 : S4096x768.Idx → EReal) = support) (hWh : (V c main_v11 : S1536x768.Idx → EReal) = Wh)
    (hbh : ∀ j : Fin 1536, (V c main_v4 : S1x1536.Idx → EReal) (ix2 0 j) = bh (ix1 j)) (t : Fin cfg1.N) :
    (dat1 (F := Ideal) V c).flushed 8 t = ((cfg1.win 8).blk t).view.read (Elt Ideal) (Spec.gate (Spec.hid support Wh bh)) := by
  have hN : cfg1.N = 8 := N_1
  have ht : t.val < 8 := hN ▸ t.isLt
  show (cfg1.win 8).cut (grid1.coords t) ((dat1 (F := Ideal) V c).after 8 t) = _
  rw [after1_8]
  unfold out1_8
  rw [View.canon_unit_zero hz1]
  simp only [View.ld_unit_zero (S := S512x768) hz1, View.ld_unit_zero (S := S1536x768) hz1, View.ld_unit_zero (S := S1x1536) hz1]
  funext j
  obtain ⟨p, q, rfl⟩ : ∃ (p : Fin 512) (q : Fin 768), j = ix2 p q := ⟨j 0, j 1, eq_ix2 j⟩
  obtain ⟨e0, e1⟩ := idx1_8 t
  have hemb : ((cfg1.win 8).blk t).view.emb (ix2 p q) = (ix2 (⟨t.val * 512 + p.val, by omega⟩ : Fin 4096) q : S4096x768.Idx) :=
    funext fun a => Fin.ext (by
      match a with
      | ⟨0, _⟩ => show win1_8.index t (0 : Fin 2) * 512 + 1 * p.val = t.val * 512 + p.val; rw [e0]; omega
      | ⟨1, _⟩ => show win1_8.index t (1 : Fin 2) * 768 + 1 * q.val = q.val; rw [e1]; omega)
  show k1_pay4 (iblk1 V c 0 t) (iblk1 V c 1 t) (iblk1 V c 2 t) (ix2 p q) = Spec.gate (Spec.hid support Wh bh) (((cfg1.win 8).blk t).view.emb (ix2 p q))
  rw [hemb]
  refine (k1_pay4_apply (iblk1 V c 0 t) (iblk1 V c 1 t) (iblk1 V c 2 t) p q).trans ?_
  have hq : q.val < 768 := q.isLt
  show _ = Spec.silu ((∑ k : Fin 768, support (ix2 (⟨t.val * 512 + p.val, by omega⟩ : Fin 4096) k) * Wh (ix2 (⟨768 + q.val, by omega⟩ : Fin 1536) k))
    + bh (ix1 (⟨768 + q.val, by omega⟩ : Fin 1536)))
  rw [blk1_2_apply V c t 0 ⟨768 + q.val, by omega⟩, hbh]
  refine congrArg (fun s => Spec.silu (s + bh (ix1 (⟨768 + q.val, by omega⟩ : Fin 1536)))) (Finset.sum_congr rfl fun k _ => ?_)
  rw [blk1_0_apply V c t p k ⟨t.val * 512 + p.val, by omega⟩ rfl, blk1_1_apply V c t ⟨768 + q.val, by omega⟩ k, hs, hWh]

/-- What point t writes back to the queries' array is block t of qq (qk support Wqk bqk) gamma beta of the arrays as the region finds them. -/
theorem flushed1_9_eq (c : Dev nD) (support : Spec.Mat 4096 768) (Wqk : Spec.Mat 200 768) (bqk : Spec.Vct 200) (gamma beta : Spec.Mat 2 200)
    (hs : (V c main_arg1 : S4096x768.Idx → EReal) = support) (hWqk : (V c main_v12 : S200x768.Idx → EReal) = Wqk)
    (hbqk : ∀ j : Fin 200, (V c main_v5 : S1x200.Idx → EReal) (ix2 0 j) = bqk (ix1 j))
    (hg : (V c main_arg14 : S2x200.Idx → EReal) = gamma) (hbt : (V c main_arg15 : S2x200.Idx → EReal) = beta) (t : Fin cfg1.N) :
    (dat1 (F := Ideal) V c).flushed 9 t = ((cfg1.win 9).blk t).view.read (Elt Ideal) (Spec.qq (Spec.qk support Wqk bqk) gamma beta) := by
  have hN : cfg1.N = 8 := N_1
  have ht : t.val < 8 := hN ▸ t.isLt
  show (cfg1.win 9).cut (grid1.coords t) ((dat1 (F := Ideal) V c).after 9 t) = _
  rw [after1_9]
  unfold out1_9
  rw [View.canon_unit_zero hz1]
  simp only [View.ld_unit_zero (S := S512x768) hz1, View.ld_unit_zero (S := S200x768) hz1, View.ld_unit_zero (S := S1x200) hz1]
  funext j
  obtain ⟨p, q, rfl⟩ : ∃ (p : Fin 512) (q : Fin 200), j = ix2 p q := ⟨j 0, j 1, eq_ix2 j⟩
  obtain ⟨e0, e1⟩ := idx1_9 t
  have hemb : ((cfg1.win 9).blk t).view.emb (ix2 p q) = (ix2 (⟨t.val * 512 + p.val, by omega⟩ : Fin 4096) q : S4096x200.Idx) :=
    funext fun a => Fin.ext (by
      match a with
      | ⟨0, _⟩ => show win1_9.index t (0 : Fin 2) * 512 + 1 * p.val = t.val * 512 + p.val; rw [e0]; omega
      | ⟨1, _⟩ => show win1_9.index t (1 : Fin 2) * 200 + 1 * q.val = q.val; rw [e1]; omega)
  show k1_pay8 (iblk1 V c 0 t) (iblk1 V c 3 t) (iblk1 V c 4 t) (View.ld (iblk1 V c 5 t) r1_row0) (View.ld (iblk1 V c 6 t) r1_row0) (ix2 p q)
    = Spec.qq (Spec.qk support Wqk bqk) gamma beta (((cfg1.win 9).blk t).view.emb (ix2 p q))
  rw [hemb]
  refine (pay1_9_apply (iblk1 V c 0 t) (iblk1 V c 3 t) (iblk1 V c 4 t) (iblk1 V c 5 t) (iblk1 V c 6 t) p q).trans ?_
  show _ = Spec.silu ((∑ k : Fin 768, support (ix2 (⟨t.val * 512 + p.val, by omega⟩ : Fin 4096) k) * Wqk (ix2 q k)) + bqk (ix1 q))
    * gamma (ix2 (0 : Fin 2) q) + beta (ix2 (0 : Fin 2) q)
  rw [blk1_4_apply V c t 0 q, hbqk, blk1_5_apply V c t 0 q, blk1_6_apply V c t 0 q, hg, hbt]
  refine congrArg (fun s => Spec.silu (s + bqk (ix1 q)) * gamma (ix2 (0 : Fin 2) q) + beta (ix2 (0 : Fin 2) q)) (Finset.sum_congr rfl fun k _ => ?_)
  rw [blk1_0_apply V c t p k ⟨t.val * 512 + p.val, by omega⟩ rfl, blk1_3_apply V c t q k, hs, hWqk]

/-- What point t writes back to the keys' array is block t of kq (qk support Wqk bqk) gamma beta of the arrays as the region finds them. -/
theorem flushed1_10_eq (c : Dev nD) (support : Spec.Mat 4096 768) (Wqk : Spec.Mat 200 768) (bqk : Spec.Vct 200) (gamma beta : Spec.Mat 2 200)
    (hs : (V c main_arg1 : S4096x768.Idx → EReal) = support) (hWqk : (V c main_v12 : S200x768.Idx → EReal) = Wqk)
    (hbqk : ∀ j : Fin 200, (V c main_v5 : S1x200.Idx → EReal) (ix2 0 j) = bqk (ix1 j))
    (hg : (V c main_arg14 : S2x200.Idx → EReal) = gamma) (hbt : (V c main_arg15 : S2x200.Idx → EReal) = beta) (t : Fin cfg1.N) :
    (dat1 (F := Ideal) V c).flushed 10 t = ((cfg1.win 10).blk t).view.read (Elt Ideal) (Spec.kq (Spec.qk support Wqk bqk) gamma beta) := by
  have hN : cfg1.N = 8 := N_1
  have ht : t.val < 8 := hN ▸ t.isLt
  show (cfg1.win 10).cut (grid1.coords t) ((dat1 (F := Ideal) V c).after 10 t) = _
  rw [after1_10]
  unfold out1_10
  rw [View.canon_unit_zero hz1]
  simp only [View.ld_unit_zero (S := S512x768) hz1, View.ld_unit_zero (S := S200x768) hz1, View.ld_unit_zero (S := S1x200) hz1]
  funext j
  obtain ⟨p, q, rfl⟩ : ∃ (p : Fin 512) (q : Fin 200), j = ix2 p q := ⟨j 0, j 1, eq_ix2 j⟩
  obtain ⟨e0, e1⟩ := idx1_10 t
  have hemb : ((cfg1.win 10).blk t).view.emb (ix2 p q) = (ix2 (⟨t.val * 512 + p.val, by omega⟩ : Fin 4096) q : S4096x200.Idx) :=
    funext fun a => Fin.ext (by
      match a with
      | ⟨0, _⟩ => show win1_10.index t (0 : Fin 2) * 512 + 1 * p.val = t.val * 512 + p.val; rw [e0]; omega
      | ⟨1, _⟩ => show win1_10.index t (1 : Fin 2) * 200 + 1 * q.val = q.val; rw [e1]; omega)
  show k1_pay1 (k1_pay5 (iblk1 V c 0 t) (iblk1 V c 3 t) (iblk1 V c 4 t)) (k1_pay6 (View.ld (iblk1 V c 5 t) r1_row1)) (k1_pay7 (View.ld (iblk1 V c 6 t) r1_row1)) (ix2 p q)
    = Spec.kq (Spec.qk support Wqk bqk) gamma beta (((cfg1.win 10).blk t).view.emb (ix2 p q))
  rw [hemb]
  refine (pay1_10_apply (iblk1 V c 0 t) (iblk1 V c 3 t) (iblk1 V c 4 t) (iblk1 V c 5 t) (iblk1 V c 6 t) p q).trans ?_
  show _ = Spec.silu ((∑ k : Fin 768, support (ix2 (⟨t.val * 512 + p.val, by omega⟩ : Fin 4096) k) * Wqk (ix2 q k)) + bqk (ix1 q))
    * gamma (ix2 (1 : Fin 2) q) + beta (ix2 (1 : Fin 2) q)
  rw [blk1_4_apply V c t 0 q, hbqk, blk1_5_apply V c t 1 q, blk1_6_apply V c t 1 q, hg, hbt]
  refine congrArg (fun s => Spec.silu (s + bqk (ix1 q)) * gamma (ix2 (1 : Fin 2) q) + beta (ix2 (1 : Fin 2) q)) (Finset.sum_congr rfl fun k _ => ?_)
  rw [blk1_0_apply V c t p k ⟨t.val * 512 + p.val, by omega⟩ rfl, blk1_3_apply V c t q k, hs, hWqk]

/-! ## The blocks cover the arrays -/

/-- An index of output array 7 is in point t's block iff each coordinate is in the block's range on its axis. -/
theorem mem_blk1_7 (t : Fin cfg1.N) (i : S4096x768.Idx) :
    i ∈ ((cfg1.win 7).blk t).view.set ↔ ∀ a : Fin 2, win1_7.index t a * S512x768.size a ≤ (i a).val ∧ (i a).val < win1_7.index t a * S512x768.size a + S512x768.size a := by
  show i ∈ ((View.whole main_v15_0).slice (win1_7.rect t)).set ↔ _
  rw [View.set_slice_whole, Rect.mem_set_unit]
  exact Iff.rfl

/-- Row r of output array 7 is covered by point r / 512. -/
theorem cover1_7 (i : S4096x768.Idx) : ∃ t : Fin cfg1.N, (cfg1.win 7).flush t = true ∧ i ∈ ((cfg1.win 7).blk t).view.set := by
  have hN : cfg1.N = 8 := N_1
  have hi0 : (i 0).val < 4096 := (i 0).isLt
  have hi1 : (i 1).val < 768 := (i 1).isLt
  obtain ⟨t, ht⟩ : ∃ t : Fin cfg1.N, t.val = (i 0).val / 512 := ⟨⟨(i 0).val / 512, by omega⟩, rfl⟩
  obtain ⟨e0, e1⟩ := idx1_7 t
  refine ⟨t, flush1_7 t, ?_⟩
  rw [mem_blk1_7]
  intro a
  match a with
  | ⟨0, _⟩ => show win1_7.index t (0 : Fin 2) * 512 ≤ (i 0).val ∧ (i 0).val < win1_7.index t (0 : Fin 2) * 512 + 512; rw [e0, ht]; omega
  | ⟨1, _⟩ => show win1_7.index t (1 : Fin 2) * 768 ≤ (i 1).val ∧ (i 1).val < win1_7.index t (1 : Fin 2) * 768 + 768; rw [e1]; omega

/-- An index of output array 8 is in point t's block iff each coordinate is in the block's range on its axis. -/
theorem mem_blk1_8 (t : Fin cfg1.N) (i : S4096x768.Idx) :
    i ∈ ((cfg1.win 8).blk t).view.set ↔ ∀ a : Fin 2, win1_8.index t a * S512x768.size a ≤ (i a).val ∧ (i a).val < win1_8.index t a * S512x768.size a + S512x768.size a := by
  show i ∈ ((View.whole main_v15_1).slice (win1_8.rect t)).set ↔ _
  rw [View.set_slice_whole, Rect.mem_set_unit]
  exact Iff.rfl

/-- Row r of output array 8 is covered by point r / 512. -/
theorem cover1_8 (i : S4096x768.Idx) : ∃ t : Fin cfg1.N, (cfg1.win 8).flush t = true ∧ i ∈ ((cfg1.win 8).blk t).view.set := by
  have hN : cfg1.N = 8 := N_1
  have hi0 : (i 0).val < 4096 := (i 0).isLt
  have hi1 : (i 1).val < 768 := (i 1).isLt
  obtain ⟨t, ht⟩ : ∃ t : Fin cfg1.N, t.val = (i 0).val / 512 := ⟨⟨(i 0).val / 512, by omega⟩, rfl⟩
  obtain ⟨e0, e1⟩ := idx1_8 t
  refine ⟨t, flush1_8 t, ?_⟩
  rw [mem_blk1_8]
  intro a
  match a with
  | ⟨0, _⟩ => show win1_8.index t (0 : Fin 2) * 512 ≤ (i 0).val ∧ (i 0).val < win1_8.index t (0 : Fin 2) * 512 + 512; rw [e0, ht]; omega
  | ⟨1, _⟩ => show win1_8.index t (1 : Fin 2) * 768 ≤ (i 1).val ∧ (i 1).val < win1_8.index t (1 : Fin 2) * 768 + 768; rw [e1]; omega

/-- An index of output array 9 is in point t's block iff each coordinate is in the block's range on its axis. -/
theorem mem_blk1_9 (t : Fin cfg1.N) (i : S4096x200.Idx) :
    i ∈ ((cfg1.win 9).blk t).view.set ↔ ∀ a : Fin 2, win1_9.index t a * S512x200.size a ≤ (i a).val ∧ (i a).val < win1_9.index t a * S512x200.size a + S512x200.size a := by
  show i ∈ ((View.whole main_v15_2).slice (win1_9.rect t)).set ↔ _
  rw [View.set_slice_whole, Rect.mem_set_unit]
  exact Iff.rfl

/-- Row r of output array 9 is covered by point r / 512. -/
theorem cover1_9 (i : S4096x200.Idx) : ∃ t : Fin cfg1.N, (cfg1.win 9).flush t = true ∧ i ∈ ((cfg1.win 9).blk t).view.set := by
  have hN : cfg1.N = 8 := N_1
  have hi0 : (i 0).val < 4096 := (i 0).isLt
  have hi1 : (i 1).val < 200 := (i 1).isLt
  obtain ⟨t, ht⟩ : ∃ t : Fin cfg1.N, t.val = (i 0).val / 512 := ⟨⟨(i 0).val / 512, by omega⟩, rfl⟩
  obtain ⟨e0, e1⟩ := idx1_9 t
  refine ⟨t, flush1_9 t, ?_⟩
  rw [mem_blk1_9]
  intro a
  match a with
  | ⟨0, _⟩ => show win1_9.index t (0 : Fin 2) * 512 ≤ (i 0).val ∧ (i 0).val < win1_9.index t (0 : Fin 2) * 512 + 512; rw [e0, ht]; omega
  | ⟨1, _⟩ => show win1_9.index t (1 : Fin 2) * 200 ≤ (i 1).val ∧ (i 1).val < win1_9.index t (1 : Fin 2) * 200 + 200; rw [e1]; omega

/-- An index of output array 10 is in point t's block iff each coordinate is in the block's range on its axis. -/
theorem mem_blk1_10 (t : Fin cfg1.N) (i : S4096x200.Idx) :
    i ∈ ((cfg1.win 10).blk t).view.set ↔ ∀ a : Fin 2, win1_10.index t a * S512x200.size a ≤ (i a).val ∧ (i a).val < win1_10.index t a * S512x200.size a + S512x200.size a := by
  show i ∈ ((View.whole main_v15_3).slice (win1_10.rect t)).set ↔ _
  rw [View.set_slice_whole, Rect.mem_set_unit]
  exact Iff.rfl

/-- Row r of output array 10 is covered by point r / 512. -/
theorem cover1_10 (i : S4096x200.Idx) : ∃ t : Fin cfg1.N, (cfg1.win 10).flush t = true ∧ i ∈ ((cfg1.win 10).blk t).view.set := by
  have hN : cfg1.N = 8 := N_1
  have hi0 : (i 0).val < 4096 := (i 0).isLt
  have hi1 : (i 1).val < 200 := (i 1).isLt
  obtain ⟨t, ht⟩ : ∃ t : Fin cfg1.N, t.val = (i 0).val / 512 := ⟨⟨(i 0).val / 512, by omega⟩, rfl⟩
  obtain ⟨e0, e1⟩ := idx1_10 t
  refine ⟨t, flush1_10 t, ?_⟩
  rw [mem_blk1_10]
  intro a
  match a with
  | ⟨0, _⟩ => show win1_10.index t (0 : Fin 2) * 512 ≤ (i 0).val ∧ (i 0).val < win1_10.index t (0 : Fin 2) * 512 + 512; rw [e0, ht]; omega
  | ⟨1, _⟩ => show win1_10.index t (1 : Fin 2) * 200 ≤ (i 1).val ∧ (i 1).val < win1_10.index t (1 : Fin 2) * 200 + 200; rw [e1]; omega

/-! ## The four output arrays after the run -/

theorem value1_7 (c : Dev nD) (support : Spec.Mat 4096 768) (Wh : Spec.Mat 1536 768) (bh : Spec.Vct 1536)
    (hs : (V c main_arg1 : S4096x768.Idx → EReal) = support) (hWh : (V c main_v11 : S1536x768.Idx → EReal) = Wh)
    (hbh : ∀ j : Fin 1536, (V c main_v4 : S1x1536.Idx → EReal) (ix2 0 j) = bh (ix1 j)) :
    ((dat1 (F := Ideal) V c).arrAt 7 cfg1.N : S4096x768.Idx → EReal) = Spec.vv (Spec.hid support Wh bh) :=
  (dat1 (F := Ideal) V c).arrAt_eq_of_cover 7 (Spec.vv (Spec.hid support Wh bh)) (fun t _ => flushed1_7_eq V c support Wh bh hs hWh hbh t) cover1_7

theorem value1_8 (c : Dev nD) (support : Spec.Mat 4096 768) (Wh : Spec.Mat 1536 768) (bh : Spec.Vct 1536)
    (hs : (V c main_arg1 : S4096x768.Idx → EReal) = support) (hWh : (V c main_v11 : S1536x768.Idx → EReal) = Wh)
    (hbh : ∀ j : Fin 1536, (V c main_v4 : S1x1536.Idx → EReal) (ix2 0 j) = bh (ix1 j)) :
    ((dat1 (F := Ideal) V c).arrAt 8 cfg1.N : S4096x768.Idx → EReal) = Spec.gate (Spec.hid support Wh bh) :=
  (dat1 (F := Ideal) V c).arrAt_eq_of_cover 8 (Spec.gate (Spec.hid support Wh bh)) (fun t _ => flushed1_8_eq V c support Wh bh hs hWh hbh t) cover1_8

theorem value1_9 (c : Dev nD) (support : Spec.Mat 4096 768) (Wqk : Spec.Mat 200 768) (bqk : Spec.Vct 200) (gamma beta : Spec.Mat 2 200)
    (hs : (V c main_arg1 : S4096x768.Idx → EReal) = support) (hWqk : (V c main_v12 : S200x768.Idx → EReal) = Wqk)
    (hbqk : ∀ j : Fin 200, (V c main_v5 : S1x200.Idx → EReal) (ix2 0 j) = bqk (ix1 j))
    (hg : (V c main_arg14 : S2x200.Idx → EReal) = gamma) (hbt : (V c main_arg15 : S2x200.Idx → EReal) = beta) :
    ((dat1 (F := Ideal) V c).arrAt 9 cfg1.N : S4096x200.Idx → EReal) = Spec.qq (Spec.qk support Wqk bqk) gamma beta :=
  (dat1 (F := Ideal) V c).arrAt_eq_of_cover 9 (Spec.qq (Spec.qk support Wqk bqk) gamma beta)
    (fun t _ => flushed1_9_eq V c support Wqk bqk gamma beta hs hWqk hbqk hg hbt t) cover1_9

theorem value1_10 (c : Dev nD) (support : Spec.Mat 4096 768) (Wqk : Spec.Mat 200 768) (bqk : Spec.Vct 200) (gamma beta : Spec.Mat 2 200)
    (hs : (V c main_arg1 : S4096x768.Idx → EReal) = support) (hWqk : (V c main_v12 : S200x768.Idx → EReal) = Wqk)
    (hbqk : ∀ j : Fin 200, (V c main_v5 : S1x200.Idx → EReal) (ix2 0 j) = bqk (ix1 j))
    (hg : (V c main_arg14 : S2x200.Idx → EReal) = gamma) (hbt : (V c main_arg15 : S2x200.Idx → EReal) = beta) :
    ((dat1 (F := Ideal) V c).arrAt 10 cfg1.N : S4096x200.Idx → EReal) = Spec.kq (Spec.qk support Wqk bqk) gamma beta :=
  (dat1 (F := Ideal) V c).arrAt_eq_of_cover 10 (Spec.kq (Spec.qk support Wqk bqk) gamma beta)
    (fun t _ => flushed1_10_eq V c support Wqk bqk gamma beta hs hWqk hbqk hg hbt t) cover1_10

end Cert.KernelIdeal.HandValue

end
-- ==== Proof.KI.Value2Pieces.lean ====
import proofs.«170994_j15857019257044_2_alg».proof.Proof.KI.Region2
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! # What each case's stores leave, as the body's arithmetic

Every store writes a whole buffer, so what a buffer holds after the body is the payload of the last store into it,
at the values the loads before it returned. -/

theorem hz2 : (![0, 0] : Fin 2 → Nat) = fun _ => 0 := funext fun a => by fin_cases a <;> rfl

/-- Before the first key tile: the running maximum at -∞, the normaliser and the accumulator at 0. -/
def init2 : Vec F S512x1 .f32 × Vec F S512x1 .f32 × Vec F S512x768 .f32 := (k2_pay8, k2_pay9, k2_pay10)

/-- One key tile's update of (running maximum, normaliser, accumulator), from the row tile's support block `x0`,
    the key tile's support block `x1`, the query block `x2`, the key block `x3` and the value block `x4`. -/
def step2 (x0 x1 : Vec F S512x768 .f32) (x2 x3 : Vec F S512x200 .f32) (x4 : Vec F S512x768 .f32) (s : Vec F S512x1 .f32 × Vec F S512x1 .f32 × Vec F S512x768 .f32) : Vec F S512x1 .f32 × Vec F S512x1 .f32 × Vec F S512x768 .f32 :=
  (k2_pay3 (k2_pay13 x0 x1 s.1), k2_pay1 (k2_pay16 x0 x1 s.1 s.2.1),
   k2_pay2 (k2_pay12 x2 x3) (k2_pay14 x0 x1 s.1) (k2_pay15 x0 x1 s.1) s.2.2 x4)

/-- The first output block, from the scratch after the last key tile: normalise, gate, project, scale by the support
    block, project to K. -/
def fin2_12 (x0 x5 : Vec F S512x768 .f32) (x6 : Vec F S768x768 .bf16) (x7 : Vec F S1x768 .f32) (x8 : Vec F S256x768 .bf16) (x9 : Vec F S1x256 .f32)
    (s : Vec F S512x1 .f32 × Vec F S512x1 .f32 × Vec F S512x768 .f32) : Vec F S512x256 .f32 :=
  k2_pay6 s.2.2 s.2.1 x5 x6 x7 x0 x8 x9

/-- The second output block: the same, projected to V. -/
def fin2_13 (x0 x5 : Vec F S512x768 .f32) (x6 : Vec F S768x768 .bf16) (x7 : Vec F S1x768 .f32) (x10 : Vec F S256x768 .bf16) (x11 : Vec F S1x256 .f32)
    (s : Vec F S512x1 .f32 × Vec F S512x1 .f32 × Vec F S512x768 .f32) : Vec F S512x256 .f32 :=
  k2_pay4 (k2_pay7 s.2.2 s.2.1 x5 x6 x7 x0 x10) x11

theorem piece2_A_S0 (c : Dev nD) (i : grid2.Coords) (arg2 : Memref sig .tc .vmem S512x768 .f32) (harg2 : arg2.IsWhole) (arg3 : Memref sig .tc .vmem S512x768 .f32) (harg3 : arg3.IsWhole) (arg4 : Memref sig .tc .vmem S512x200 .f32) (harg4 : arg4.IsWhole) (arg5 : Memref sig .tc .vmem S512x200 .f32) (harg5 : arg5.IsWhole) (arg6 : Memref sig .tc .vmem S512x768 .f32) (harg6 : arg6.IsWhole) (arg7 : Memref sig .tc .vmem S512x768 .f32) (harg7 : arg7.IsWhole) (arg8 : Memref sig .tc .vmem S768x768 .bf16) (harg8 : arg8.IsWhole) (arg9 : Memref sig .tc .vmem S1x768 .f32) (harg9 : arg9.IsWhole) (arg10 : Memref sig .tc .vmem S256x768 .bf16) (harg10 : arg10.IsWhole) (arg11 : Memref sig .tc .vmem S1x256 .f32) (harg11 : arg11.IsWhole) (arg12 : Memref sig .tc .vmem S256x768 .bf16) (harg12 : arg12.IsWhole) (arg13 : Memref sig .tc .vmem S1x256 .f32) (harg13 : arg13.IsWhole) (arg14 : Memref sig .tc .vmem S512x256 .f32) (harg14 : arg14.IsWhole) (arg15 : Memref sig .tc .vmem S512x256 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x768 .f32) (harg18 : arg18.IsWhole) (hc0 : cond2_0 i) (hc1 : ¬cond2_1 i)
    (x0 : Vec F S512x768 .f32) (x1 : Vec F S512x768 .f32) (x2 : Vec F S512x200 .f32) (x3 : Vec F S512x200 .f32) (x4 : Vec F S512x768 .f32) (x5 : Vec F S512x768 .f32) (x6 : Vec F S768x768 .bf16) (x7 : Vec F S1x768 .f32) (x8 : Vec F S256x768 .bf16) (x9 : Vec F S1x256 .f32) (x10 : Vec F S256x768 .bf16) (x11 : Vec F S1x256 .f32) :
    VS2_0.read (Elt F) (VS2_0.writes (Elt F) VS2_0.junk (kernelRun2_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11).1)
      = k2_pay3 (k2_pay13 x0 x1 k2_pay8) := by
  rw [View.read_writes_eq_canon _ _ _ (cover2_A_S0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11)]
  unfold kernelRun2_A
  dsimp only
  try sl_unfold_words
  rw [View.canon_cons_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S512x768) hz2, View.ld_unit_zero (S := S512x200) hz2, View.ld_unit_zero (S := S768x768) hz2, View.ld_unit_zero (S := S1x768) hz2, View.ld_unit_zero (S := S256x768) hz2, View.ld_unit_zero (S := S1x256) hz2, View.ld_unit_zero (S := S512x256) hz2, View.ld_unit_zero (S := S512x1) hz2, View.readCov_unit_zero (S := S512x768) _ hz2, View.readCov_unit_zero (S := S512x1) _ hz2]

theorem piece2_A_S1 (c : Dev nD) (i : grid2.Coords) (arg2 : Memref sig .tc .vmem S512x768 .f32) (harg2 : arg2.IsWhole) (arg3 : Memref sig .tc .vmem S512x768 .f32) (harg3 : arg3.IsWhole) (arg4 : Memref sig .tc .vmem S512x200 .f32) (harg4 : arg4.IsWhole) (arg5 : Memref sig .tc .vmem S512x200 .f32) (harg5 : arg5.IsWhole) (arg6 : Memref sig .tc .vmem S512x768 .f32) (harg6 : arg6.IsWhole) (arg7 : Memref sig .tc .vmem S512x768 .f32) (harg7 : arg7.IsWhole) (arg8 : Memref sig .tc .vmem S768x768 .bf16) (harg8 : arg8.IsWhole) (arg9 : Memref sig .tc .vmem S1x768 .f32) (harg9 : arg9.IsWhole) (arg10 : Memref sig .tc .vmem S256x768 .bf16) (harg10 : arg10.IsWhole) (arg11 : Memref sig .tc .vmem S1x256 .f32) (harg11 : arg11.IsWhole) (arg12 : Memref sig .tc .vmem S256x768 .bf16) (harg12 : arg12.IsWhole) (arg13 : Memref sig .tc .vmem S1x256 .f32) (harg13 : arg13.IsWhole) (arg14 : Memref sig .tc .vmem S512x256 .f32) (harg14 : arg14.IsWhole) (arg15 : Memref sig .tc .vmem S512x256 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x768 .f32) (harg18 : arg18.IsWhole) (hc0 : cond2_0 i) (hc1 : ¬cond2_1 i)
    (x0 : Vec F S512x768 .f32) (x1 : Vec F S512x768 .f32) (x2 : Vec F S512x200 .f32) (x3 : Vec F S512x200 .f32) (x4 : Vec F S512x768 .f32) (x5 : Vec F S512x768 .f32) (x6 : Vec F S768x768 .bf16) (x7 : Vec F S1x768 .f32) (x8 : Vec F S256x768 .bf16) (x9 : Vec F S1x256 .f32) (x10 : Vec F S256x768 .bf16) (x11 : Vec F S1x256 .f32) :
    VS2_1.read (Elt F) (VS2_1.writes (Elt F) VS2_1.junk (kernelRun2_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11).2.1)
      = k2_pay1 (k2_pay16 x0 x1 k2_pay8 k2_pay9) := by
  rw [View.read_writes_eq_canon _ _ _ (cover2_A_S1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11)]
  unfold kernelRun2_A
  dsimp only
  try sl_unfold_words
  rw [View.canon_cons_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S512x768) hz2, View.ld_unit_zero (S := S512x200) hz2, View.ld_unit_zero (S := S768x768) hz2, View.ld_unit_zero (S := S1x768) hz2, View.ld_unit_zero (S := S256x768) hz2, View.ld_unit_zero (S := S1x256) hz2, View.ld_unit_zero (S := S512x256) hz2, View.ld_unit_zero (S := S512x1) hz2, View.readCov_unit_zero (S := S512x768) _ hz2, View.readCov_unit_zero (S := S512x1) _ hz2]

theorem piece2_A_S2 (c : Dev nD) (i : grid2.Coords) (arg2 : Memref sig .tc .vmem S512x768 .f32) (harg2 : arg2.IsWhole) (arg3 : Memref sig .tc .vmem S512x768 .f32) (harg3 : arg3.IsWhole) (arg4 : Memref sig .tc .vmem S512x200 .f32) (harg4 : arg4.IsWhole) (arg5 : Memref sig .tc .vmem S512x200 .f32) (harg5 : arg5.IsWhole) (arg6 : Memref sig .tc .vmem S512x768 .f32) (harg6 : arg6.IsWhole) (arg7 : Memref sig .tc .vmem S512x768 .f32) (harg7 : arg7.IsWhole) (arg8 : Memref sig .tc .vmem S768x768 .bf16) (harg8 : arg8.IsWhole) (arg9 : Memref sig .tc .vmem S1x768 .f32) (harg9 : arg9.IsWhole) (arg10 : Memref sig .tc .vmem S256x768 .bf16) (harg10 : arg10.IsWhole) (arg11 : Memref sig .tc .vmem S1x256 .f32) (harg11 : arg11.IsWhole) (arg12 : Memref sig .tc .vmem S256x768 .bf16) (harg12 : arg12.IsWhole) (arg13 : Memref sig .tc .vmem S1x256 .f32) (harg13 : arg13.IsWhole) (arg14 : Memref sig .tc .vmem S512x256 .f32) (harg14 : arg14.IsWhole) (arg15 : Memref sig .tc .vmem S512x256 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x768 .f32) (harg18 : arg18.IsWhole) (hc0 : cond2_0 i) (hc1 : ¬cond2_1 i)
    (x0 : Vec F S512x768 .f32) (x1 : Vec F S512x768 .f32) (x2 : Vec F S512x200 .f32) (x3 : Vec F S512x200 .f32) (x4 : Vec F S512x768 .f32) (x5 : Vec F S512x768 .f32) (x6 : Vec F S768x768 .bf16) (x7 : Vec F S1x768 .f32) (x8 : Vec F S256x768 .bf16) (x9 : Vec F S1x256 .f32) (x10 : Vec F S256x768 .bf16) (x11 : Vec F S1x256 .f32) :
    VS2_2.read (Elt F) (VS2_2.writes (Elt F) VS2_2.junk (kernelRun2_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11).2.2.1)
      = k2_pay2 (k2_pay12 x2 x3) (k2_pay14 x0 x1 k2_pay8) (k2_pay15 x0 x1 k2_pay8) k2_pay10 x4 := by
  rw [View.read_writes_eq_canon _ _ _ (cover2_A_S2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11)]
  unfold kernelRun2_A
  dsimp only
  try sl_unfold_words
  rw [View.canon_cons_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S512x768) hz2, View.ld_unit_zero (S := S512x200) hz2, View.ld_unit_zero (S := S768x768) hz2, View.ld_unit_zero (S := S1x768) hz2, View.ld_unit_zero (S := S256x768) hz2, View.ld_unit_zero (S := S1x256) hz2, View.ld_unit_zero (S := S512x256) hz2, View.ld_unit_zero (S := S512x1) hz2, View.readCov_unit_zero (S := S512x768) _ hz2, View.readCov_unit_zero (S := S512x1) _ hz2]

theorem piece2_B_S0 (c : Dev nD) (i : grid2.Coords) (arg2 : Memref sig .tc .vmem S512x768 .f32) (harg2 : arg2.IsWhole) (arg3 : Memref sig .tc .vmem S512x768 .f32) (harg3 : arg3.IsWhole) (arg4 : Memref sig .tc .vmem S512x200 .f32) (harg4 : arg4.IsWhole) (arg5 : Memref sig .tc .vmem S512x200 .f32) (harg5 : arg5.IsWhole) (arg6 : Memref sig .tc .vmem S512x768 .f32) (harg6 : arg6.IsWhole) (arg7 : Memref sig .tc .vmem S512x768 .f32) (harg7 : arg7.IsWhole) (arg8 : Memref sig .tc .vmem S768x768 .bf16) (harg8 : arg8.IsWhole) (arg9 : Memref sig .tc .vmem S1x768 .f32) (harg9 : arg9.IsWhole) (arg10 : Memref sig .tc .vmem S256x768 .bf16) (harg10 : arg10.IsWhole) (arg11 : Memref sig .tc .vmem S1x256 .f32) (harg11 : arg11.IsWhole) (arg12 : Memref sig .tc .vmem S256x768 .bf16) (harg12 : arg12.IsWhole) (arg13 : Memref sig .tc .vmem S1x256 .f32) (harg13 : arg13.IsWhole) (arg14 : Memref sig .tc .vmem S512x256 .f32) (harg14 : arg14.IsWhole) (arg15 : Memref sig .tc .vmem S512x256 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x768 .f32) (harg18 : arg18.IsWhole) (hc0 : ¬cond2_0 i) (hc1 : ¬cond2_1 i)
    (x0 : Vec F S512x768 .f32) (x1 : Vec F S512x768 .f32) (x2 : Vec F S512x200 .f32) (x3 : Vec F S512x200 .f32) (x4 : Vec F S512x768 .f32) (x5 : Vec F S512x768 .f32) (x6 : Vec F S768x768 .bf16) (x7 : Vec F S1x768 .f32) (x8 : Vec F S256x768 .bf16) (x9 : Vec F S1x256 .f32) (x10 : Vec F S256x768 .bf16) (x11 : Vec F S1x256 .f32) (xs0 : Vec F S512x1 .f32) (xs1 : Vec F S512x1 .f32) (xs2 : Vec F S512x768 .f32) :
    VS2_0.read (Elt F) (VS2_0.writes (Elt F) VS2_0.junk (kernelRun2_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs0 xs1 xs2).1)
      = k2_pay3 (k2_pay13 x0 x1 xs0) := by
  rw [View.read_writes_eq_canon _ _ _ (cover2_B_S0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs0 xs1 xs2)]
  unfold kernelRun2_B
  dsimp only
  try sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S512x768) hz2, View.ld_unit_zero (S := S512x200) hz2, View.ld_unit_zero (S := S768x768) hz2, View.ld_unit_zero (S := S1x768) hz2, View.ld_unit_zero (S := S256x768) hz2, View.ld_unit_zero (S := S1x256) hz2, View.ld_unit_zero (S := S512x256) hz2, View.ld_unit_zero (S := S512x1) hz2, View.readCov_unit_zero (S := S512x768) _ hz2, View.readCov_unit_zero (S := S512x1) _ hz2]

theorem piece2_B_S1 (c : Dev nD) (i : grid2.Coords) (arg2 : Memref sig .tc .vmem S512x768 .f32) (harg2 : arg2.IsWhole) (arg3 : Memref sig .tc .vmem S512x768 .f32) (harg3 : arg3.IsWhole) (arg4 : Memref sig .tc .vmem S512x200 .f32) (harg4 : arg4.IsWhole) (arg5 : Memref sig .tc .vmem S512x200 .f32) (harg5 : arg5.IsWhole) (arg6 : Memref sig .tc .vmem S512x768 .f32) (harg6 : arg6.IsWhole) (arg7 : Memref sig .tc .vmem S512x768 .f32) (harg7 : arg7.IsWhole) (arg8 : Memref sig .tc .vmem S768x768 .bf16) (harg8 : arg8.IsWhole) (arg9 : Memref sig .tc .vmem S1x768 .f32) (harg9 : arg9.IsWhole) (arg10 : Memref sig .tc .vmem S256x768 .bf16) (harg10 : arg10.IsWhole) (arg11 : Memref sig .tc .vmem S1x256 .f32) (harg11 : arg11.IsWhole) (arg12 : Memref sig .tc .vmem S256x768 .bf16) (harg12 : arg12.IsWhole) (arg13 : Memref sig .tc .vmem S1x256 .f32) (harg13 : arg13.IsWhole) (arg14 : Memref sig .tc .vmem S512x256 .f32) (harg14 : arg14.IsWhole) (arg15 : Memref sig .tc .vmem S512x256 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x768 .f32) (harg18 : arg18.IsWhole) (hc0 : ¬cond2_0 i) (hc1 : ¬cond2_1 i)
    (x0 : Vec F S512x768 .f32) (x1 : Vec F S512x768 .f32) (x2 : Vec F S512x200 .f32) (x3 : Vec F S512x200 .f32) (x4 : Vec F S512x768 .f32) (x5 : Vec F S512x768 .f32) (x6 : Vec F S768x768 .bf16) (x7 : Vec F S1x768 .f32) (x8 : Vec F S256x768 .bf16) (x9 : Vec F S1x256 .f32) (x10 : Vec F S256x768 .bf16) (x11 : Vec F S1x256 .f32) (xs0 : Vec F S512x1 .f32) (xs1 : Vec F S512x1 .f32) (xs2 : Vec F S512x768 .f32) :
    VS2_1.read (Elt F) (VS2_1.writes (Elt F) VS2_1.junk (kernelRun2_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs0 xs1 xs2).2.1)
      = k2_pay1 (k2_pay16 x0 x1 xs0 xs1) := by
  rw [View.read_writes_eq_canon _ _ _ (cover2_B_S1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs0 xs1 xs2)]
  unfold kernelRun2_B
  dsimp only
  try sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S512x768) hz2, View.ld_unit_zero (S := S512x200) hz2, View.ld_unit_zero (S := S768x768) hz2, View.ld_unit_zero (S := S1x768) hz2, View.ld_unit_zero (S := S256x768) hz2, View.ld_unit_zero (S := S1x256) hz2, View.ld_unit_zero (S := S512x256) hz2, View.ld_unit_zero (S := S512x1) hz2, View.readCov_unit_zero (S := S512x768) _ hz2, View.readCov_unit_zero (S := S512x1) _ hz2]

theorem piece2_B_S2 (c : Dev nD) (i : grid2.Coords) (arg2 : Memref sig .tc .vmem S512x768 .f32) (harg2 : arg2.IsWhole) (arg3 : Memref sig .tc .vmem S512x768 .f32) (harg3 : arg3.IsWhole) (arg4 : Memref sig .tc .vmem S512x200 .f32) (harg4 : arg4.IsWhole) (arg5 : Memref sig .tc .vmem S512x200 .f32) (harg5 : arg5.IsWhole) (arg6 : Memref sig .tc .vmem S512x768 .f32) (harg6 : arg6.IsWhole) (arg7 : Memref sig .tc .vmem S512x768 .f32) (harg7 : arg7.IsWhole) (arg8 : Memref sig .tc .vmem S768x768 .bf16) (harg8 : arg8.IsWhole) (arg9 : Memref sig .tc .vmem S1x768 .f32) (harg9 : arg9.IsWhole) (arg10 : Memref sig .tc .vmem S256x768 .bf16) (harg10 : arg10.IsWhole) (arg11 : Memref sig .tc .vmem S1x256 .f32) (harg11 : arg11.IsWhole) (arg12 : Memref sig .tc .vmem S256x768 .bf16) (harg12 : arg12.IsWhole) (arg13 : Memref sig .tc .vmem S1x256 .f32) (harg13 : arg13.IsWhole) (arg14 : Memref sig .tc .vmem S512x256 .f32) (harg14 : arg14.IsWhole) (arg15 : Memref sig .tc .vmem S512x256 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x768 .f32) (harg18 : arg18.IsWhole) (hc0 : ¬cond2_0 i) (hc1 : ¬cond2_1 i)
    (x0 : Vec F S512x768 .f32) (x1 : Vec F S512x768 .f32) (x2 : Vec F S512x200 .f32) (x3 : Vec F S512x200 .f32) (x4 : Vec F S512x768 .f32) (x5 : Vec F S512x768 .f32) (x6 : Vec F S768x768 .bf16) (x7 : Vec F S1x768 .f32) (x8 : Vec F S256x768 .bf16) (x9 : Vec F S1x256 .f32) (x10 : Vec F S256x768 .bf16) (x11 : Vec F S1x256 .f32) (xs0 : Vec F S512x1 .f32) (xs1 : Vec F S512x1 .f32) (xs2 : Vec F S512x768 .f32) :
    VS2_2.read (Elt F) (VS2_2.writes (Elt F) VS2_2.junk (kernelRun2_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs0 xs1 xs2).2.2.1)
      = k2_pay2 (k2_pay12 x2 x3) (k2_pay14 x0 x1 xs0) (k2_pay15 x0 x1 xs0) xs2 x4 := by
  rw [View.read_writes_eq_canon _ _ _ (cover2_B_S2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs0 xs1 xs2)]
  unfold kernelRun2_B
  dsimp only
  try sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S512x768) hz2, View.ld_unit_zero (S := S512x200) hz2, View.ld_unit_zero (S := S768x768) hz2, View.ld_unit_zero (S := S1x768) hz2, View.ld_unit_zero (S := S256x768) hz2, View.ld_unit_zero (S := S1x256) hz2, View.ld_unit_zero (S := S512x256) hz2, View.ld_unit_zero (S := S512x1) hz2, View.readCov_unit_zero (S := S512x768) _ hz2, View.readCov_unit_zero (S := S512x1) _ hz2]

theorem piece2_C_S0 (c : Dev nD) (i : grid2.Coords) (arg2 : Memref sig .tc .vmem S512x768 .f32) (harg2 : arg2.IsWhole) (arg3 : Memref sig .tc .vmem S512x768 .f32) (harg3 : arg3.IsWhole) (arg4 : Memref sig .tc .vmem S512x200 .f32) (harg4 : arg4.IsWhole) (arg5 : Memref sig .tc .vmem S512x200 .f32) (harg5 : arg5.IsWhole) (arg6 : Memref sig .tc .vmem S512x768 .f32) (harg6 : arg6.IsWhole) (arg7 : Memref sig .tc .vmem S512x768 .f32) (harg7 : arg7.IsWhole) (arg8 : Memref sig .tc .vmem S768x768 .bf16) (harg8 : arg8.IsWhole) (arg9 : Memref sig .tc .vmem S1x768 .f32) (harg9 : arg9.IsWhole) (arg10 : Memref sig .tc .vmem S256x768 .bf16) (harg10 : arg10.IsWhole) (arg11 : Memref sig .tc .vmem S1x256 .f32) (harg11 : arg11.IsWhole) (arg12 : Memref sig .tc .vmem S256x768 .bf16) (harg12 : arg12.IsWhole) (arg13 : Memref sig .tc .vmem S1x256 .f32) (harg13 : arg13.IsWhole) (arg14 : Memref sig .tc .vmem S512x256 .f32) (harg14 : arg14.IsWhole) (arg15 : Memref sig .tc .vmem S512x256 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x768 .f32) (harg18 : arg18.IsWhole) (hc0 : ¬cond2_0 i) (hc1 : cond2_1 i)
    (x0 : Vec F S512x768 .f32) (x1 : Vec F S512x768 .f32) (x2 : Vec F S512x200 .f32) (x3 : Vec F S512x200 .f32) (x4 : Vec F S512x768 .f32) (x5 : Vec F S512x768 .f32) (x6 : Vec F S768x768 .bf16) (x7 : Vec F S1x768 .f32) (x8 : Vec F S256x768 .bf16) (x9 : Vec F S1x256 .f32) (x10 : Vec F S256x768 .bf16) (x11 : Vec F S1x256 .f32) (xs0 : Vec F S512x1 .f32) (xs1 : Vec F S512x1 .f32) (xs2 : Vec F S512x768 .f32) :
    VS2_0.read (Elt F) (VS2_0.writes (Elt F) VS2_0.junk (kernelRun2_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs0 xs1 xs2).2.2.1)
      = k2_pay3 (k2_pay13 x0 x1 xs0) := by
  rw [View.read_writes_eq_canon _ _ _ (cover2_C_S0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs0 xs1 xs2)]
  unfold kernelRun2_C
  dsimp only
  try sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S512x768) hz2, View.ld_unit_zero (S := S512x200) hz2, View.ld_unit_zero (S := S768x768) hz2, View.ld_unit_zero (S := S1x768) hz2, View.ld_unit_zero (S := S256x768) hz2, View.ld_unit_zero (S := S1x256) hz2, View.ld_unit_zero (S := S512x256) hz2, View.ld_unit_zero (S := S512x1) hz2, View.readCov_unit_zero (S := S512x768) _ hz2, View.readCov_unit_zero (S := S512x1) _ hz2]

theorem piece2_C_S1 (c : Dev nD) (i : grid2.Coords) (arg2 : Memref sig .tc .vmem S512x768 .f32) (harg2 : arg2.IsWhole) (arg3 : Memref sig .tc .vmem S512x768 .f32) (harg3 : arg3.IsWhole) (arg4 : Memref sig .tc .vmem S512x200 .f32) (harg4 : arg4.IsWhole) (arg5 : Memref sig .tc .vmem S512x200 .f32) (harg5 : arg5.IsWhole) (arg6 : Memref sig .tc .vmem S512x768 .f32) (harg6 : arg6.IsWhole) (arg7 : Memref sig .tc .vmem S512x768 .f32) (harg7 : arg7.IsWhole) (arg8 : Memref sig .tc .vmem S768x768 .bf16) (harg8 : arg8.IsWhole) (arg9 : Memref sig .tc .vmem S1x768 .f32) (harg9 : arg9.IsWhole) (arg10 : Memref sig .tc .vmem S256x768 .bf16) (harg10 : arg10.IsWhole) (arg11 : Memref sig .tc .vmem S1x256 .f32) (harg11 : arg11.IsWhole) (arg12 : Memref sig .tc .vmem S256x768 .bf16) (harg12 : arg12.IsWhole) (arg13 : Memref sig .tc .vmem S1x256 .f32) (harg13 : arg13.IsWhole) (arg14 : Memref sig .tc .vmem S512x256 .f32) (harg14 : arg14.IsWhole) (arg15 : Memref sig .tc .vmem S512x256 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x768 .f32) (harg18 : arg18.IsWhole) (hc0 : ¬cond2_0 i) (hc1 : cond2_1 i)
    (x0 : Vec F S512x768 .f32) (x1 : Vec F S512x768 .f32) (x2 : Vec F S512x200 .f32) (x3 : Vec F S512x200 .f32) (x4 : Vec F S512x768 .f32) (x5 : Vec F S512x768 .f32) (x6 : Vec F S768x768 .bf16) (x7 : Vec F S1x768 .f32) (x8 : Vec F S256x768 .bf16) (x9 : Vec F S1x256 .f32) (x10 : Vec F S256x768 .bf16) (x11 : Vec F S1x256 .f32) (xs0 : Vec F S512x1 .f32) (xs1 : Vec F S512x1 .f32) (xs2 : Vec F S512x768 .f32) :
    VS2_1.read (Elt F) (VS2_1.writes (Elt F) VS2_1.junk (kernelRun2_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs0 xs1 xs2).2.2.2.1)
      = k2_pay1 (k2_pay16 x0 x1 xs0 xs1) := by
  rw [View.read_writes_eq_canon _ _ _ (cover2_C_S1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs0 xs1 xs2)]
  unfold kernelRun2_C
  dsimp only
  try sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S512x768) hz2, View.ld_unit_zero (S := S512x200) hz2, View.ld_unit_zero (S := S768x768) hz2, View.ld_unit_zero (S := S1x768) hz2, View.ld_unit_zero (S := S256x768) hz2, View.ld_unit_zero (S := S1x256) hz2, View.ld_unit_zero (S := S512x256) hz2, View.ld_unit_zero (S := S512x1) hz2, View.readCov_unit_zero (S := S512x768) _ hz2, View.readCov_unit_zero (S := S512x1) _ hz2]

theorem piece2_C_S2 (c : Dev nD) (i : grid2.Coords) (arg2 : Memref sig .tc .vmem S512x768 .f32) (harg2 : arg2.IsWhole) (arg3 : Memref sig .tc .vmem S512x768 .f32) (harg3 : arg3.IsWhole) (arg4 : Memref sig .tc .vmem S512x200 .f32) (harg4 : arg4.IsWhole) (arg5 : Memref sig .tc .vmem S512x200 .f32) (harg5 : arg5.IsWhole) (arg6 : Memref sig .tc .vmem S512x768 .f32) (harg6 : arg6.IsWhole) (arg7 : Memref sig .tc .vmem S512x768 .f32) (harg7 : arg7.IsWhole) (arg8 : Memref sig .tc .vmem S768x768 .bf16) (harg8 : arg8.IsWhole) (arg9 : Memref sig .tc .vmem S1x768 .f32) (harg9 : arg9.IsWhole) (arg10 : Memref sig .tc .vmem S256x768 .bf16) (harg10 : arg10.IsWhole) (arg11 : Memref sig .tc .vmem S1x256 .f32) (harg11 : arg11.IsWhole) (arg12 : Memref sig .tc .vmem S256x768 .bf16) (harg12 : arg12.IsWhole) (arg13 : Memref sig .tc .vmem S1x256 .f32) (harg13 : arg13.IsWhole) (arg14 : Memref sig .tc .vmem S512x256 .f32) (harg14 : arg14.IsWhole) (arg15 : Memref sig .tc .vmem S512x256 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x768 .f32) (harg18 : arg18.IsWhole) (hc0 : ¬cond2_0 i) (hc1 : cond2_1 i)
    (x0 : Vec F S512x768 .f32) (x1 : Vec F S512x768 .f32) (x2 : Vec F S512x200 .f32) (x3 : Vec F S512x200 .f32) (x4 : Vec F S512x768 .f32) (x5 : Vec F S512x768 .f32) (x6 : Vec F S768x768 .bf16) (x7 : Vec F S1x768 .f32) (x8 : Vec F S256x768 .bf16) (x9 : Vec F S1x256 .f32) (x10 : Vec F S256x768 .bf16) (x11 : Vec F S1x256 .f32) (xs0 : Vec F S512x1 .f32) (xs1 : Vec F S512x1 .f32) (xs2 : Vec F S512x768 .f32) :
    VS2_2.read (Elt F) (VS2_2.writes (Elt F) VS2_2.junk (kernelRun2_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs0 xs1 xs2).2.2.2.2.1)
      = k2_pay2 (k2_pay12 x2 x3) (k2_pay14 x0 x1 xs0) (k2_pay15 x0 x1 xs0) xs2 x4 := by
  rw [View.read_writes_eq_canon _ _ _ (cover2_C_S2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs0 xs1 xs2)]
  unfold kernelRun2_C
  dsimp only
  try sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S512x768) hz2, View.ld_unit_zero (S := S512x200) hz2, View.ld_unit_zero (S := S768x768) hz2, View.ld_unit_zero (S := S1x768) hz2, View.ld_unit_zero (S := S256x768) hz2, View.ld_unit_zero (S := S1x256) hz2, View.ld_unit_zero (S := S512x256) hz2, View.ld_unit_zero (S := S512x1) hz2, View.readCov_unit_zero (S := S512x768) _ hz2, View.readCov_unit_zero (S := S512x1) _ hz2]

theorem piece2_C_O12 (c : Dev nD) (i : grid2.Coords) (arg2 : Memref sig .tc .vmem S512x768 .f32) (harg2 : arg2.IsWhole) (arg3 : Memref sig .tc .vmem S512x768 .f32) (harg3 : arg3.IsWhole) (arg4 : Memref sig .tc .vmem S512x200 .f32) (harg4 : arg4.IsWhole) (arg5 : Memref sig .tc .vmem S512x200 .f32) (harg5 : arg5.IsWhole) (arg6 : Memref sig .tc .vmem S512x768 .f32) (harg6 : arg6.IsWhole) (arg7 : Memref sig .tc .vmem S512x768 .f32) (harg7 : arg7.IsWhole) (arg8 : Memref sig .tc .vmem S768x768 .bf16) (harg8 : arg8.IsWhole) (arg9 : Memref sig .tc .vmem S1x768 .f32) (harg9 : arg9.IsWhole) (arg10 : Memref sig .tc .vmem S256x768 .bf16) (harg10 : arg10.IsWhole) (arg11 : Memref sig .tc .vmem S1x256 .f32) (harg11 : arg11.IsWhole) (arg12 : Memref sig .tc .vmem S256x768 .bf16) (harg12 : arg12.IsWhole) (arg13 : Memref sig .tc .vmem S1x256 .f32) (harg13 : arg13.IsWhole) (arg14 : Memref sig .tc .vmem S512x256 .f32) (harg14 : arg14.IsWhole) (arg15 : Memref sig .tc .vmem S512x256 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x768 .f32) (harg18 : arg18.IsWhole) (hc0 : ¬cond2_0 i) (hc1 : cond2_1 i)
    (x0 : Vec F S512x768 .f32) (x1 : Vec F S512x768 .f32) (x2 : Vec F S512x200 .f32) (x3 : Vec F S512x200 .f32) (x4 : Vec F S512x768 .f32) (x5 : Vec F S512x768 .f32) (x6 : Vec F S768x768 .bf16) (x7 : Vec F S1x768 .f32) (x8 : Vec F S256x768 .bf16) (x9 : Vec F S1x256 .f32) (x10 : Vec F S256x768 .bf16) (x11 : Vec F S1x256 .f32) (xs0 : Vec F S512x1 .f32) (xs1 : Vec F S512x1 .f32) (xs2 : Vec F S512x768 .f32) :
    VO2_12.read (Elt F) (VO2_12.writes (Elt F) VO2_12.junk (kernelRun2_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs0 xs1 xs2).1)
      = k2_pay6 (k2_pay2 (k2_pay12 x2 x3) (k2_pay14 x0 x1 xs0) (k2_pay15 x0 x1 xs0) xs2 x4) (k2_pay1 (k2_pay16 x0 x1 xs0 xs1)) x5 x6 x7 x0 x8 x9 := by
  rw [View.read_writes_eq_canon _ _ _ (cover2_C_O12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs0 xs1 xs2)]
  unfold kernelRun2_C
  dsimp only
  try sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S512x768) hz2, View.ld_unit_zero (S := S512x200) hz2, View.ld_unit_zero (S := S768x768) hz2, View.ld_unit_zero (S := S1x768) hz2, View.ld_unit_zero (S := S256x768) hz2, View.ld_unit_zero (S := S1x256) hz2, View.ld_unit_zero (S := S512x256) hz2, View.ld_unit_zero (S := S512x1) hz2, View.readCov_unit_zero (S := S512x768) _ hz2, View.readCov_unit_zero (S := S512x1) _ hz2]

theorem piece2_C_O13 (c : Dev nD) (i : grid2.Coords) (arg2 : Memref sig .tc .vmem S512x768 .f32) (harg2 : arg2.IsWhole) (arg3 : Memref sig .tc .vmem S512x768 .f32) (harg3 : arg3.IsWhole) (arg4 : Memref sig .tc .vmem S512x200 .f32) (harg4 : arg4.IsWhole) (arg5 : Memref sig .tc .vmem S512x200 .f32) (harg5 : arg5.IsWhole) (arg6 : Memref sig .tc .vmem S512x768 .f32) (harg6 : arg6.IsWhole) (arg7 : Memref sig .tc .vmem S512x768 .f32) (harg7 : arg7.IsWhole) (arg8 : Memref sig .tc .vmem S768x768 .bf16) (harg8 : arg8.IsWhole) (arg9 : Memref sig .tc .vmem S1x768 .f32) (harg9 : arg9.IsWhole) (arg10 : Memref sig .tc .vmem S256x768 .bf16) (harg10 : arg10.IsWhole) (arg11 : Memref sig .tc .vmem S1x256 .f32) (harg11 : arg11.IsWhole) (arg12 : Memref sig .tc .vmem S256x768 .bf16) (harg12 : arg12.IsWhole) (arg13 : Memref sig .tc .vmem S1x256 .f32) (harg13 : arg13.IsWhole) (arg14 : Memref sig .tc .vmem S512x256 .f32) (harg14 : arg14.IsWhole) (arg15 : Memref sig .tc .vmem S512x256 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x768 .f32) (harg18 : arg18.IsWhole) (hc0 : ¬cond2_0 i) (hc1 : cond2_1 i)
    (x0 : Vec F S512x768 .f32) (x1 : Vec F S512x768 .f32) (x2 : Vec F S512x200 .f32) (x3 : Vec F S512x200 .f32) (x4 : Vec F S512x768 .f32) (x5 : Vec F S512x768 .f32) (x6 : Vec F S768x768 .bf16) (x7 : Vec F S1x768 .f32) (x8 : Vec F S256x768 .bf16) (x9 : Vec F S1x256 .f32) (x10 : Vec F S256x768 .bf16) (x11 : Vec F S1x256 .f32) (xs0 : Vec F S512x1 .f32) (xs1 : Vec F S512x1 .f32) (xs2 : Vec F S512x768 .f32) :
    VO2_13.read (Elt F) (VO2_13.writes (Elt F) VO2_13.junk (kernelRun2_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs0 xs1 xs2).2.1)
      = k2_pay4 (k2_pay7 (k2_pay2 (k2_pay12 x2 x3) (k2_pay14 x0 x1 xs0) (k2_pay15 x0 x1 xs0) xs2 x4) (k2_pay1 (k2_pay16 x0 x1 xs0 xs1)) x5 x6 x7 x0 x10) x11 := by
  rw [View.read_writes_eq_canon _ _ _ (cover2_C_O13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs0 xs1 xs2)]
  unfold kernelRun2_C
  dsimp only
  try sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S512x768) hz2, View.ld_unit_zero (S := S512x200) hz2, View.ld_unit_zero (S := S768x768) hz2, View.ld_unit_zero (S := S1x768) hz2, View.ld_unit_zero (S := S256x768) hz2, View.ld_unit_zero (S := S1x256) hz2, View.ld_unit_zero (S := S512x256) hz2, View.ld_unit_zero (S := S512x1) hz2, View.readCov_unit_zero (S := S512x768) _ hz2, View.readCov_unit_zero (S := S512x1) _ hz2]

/-! ## The last key tile's stores together, over variables -/

set_option maxHeartbeats 4000000 in
theorem pieces2_C_scr (c : Dev nD) (i : grid2.Coords) (arg2 : Memref sig .tc .vmem S512x768 .f32) (harg2 : arg2.IsWhole) (arg3 : Memref sig .tc .vmem S512x768 .f32) (harg3 : arg3.IsWhole) (arg4 : Memref sig .tc .vmem S512x200 .f32) (harg4 : arg4.IsWhole) (arg5 : Memref sig .tc .vmem S512x200 .f32) (harg5 : arg5.IsWhole) (arg6 : Memref sig .tc .vmem S512x768 .f32) (harg6 : arg6.IsWhole) (arg7 : Memref sig .tc .vmem S512x768 .f32) (harg7 : arg7.IsWhole) (arg8 : Memref sig .tc .vmem S768x768 .bf16) (harg8 : arg8.IsWhole) (arg9 : Memref sig .tc .vmem S1x768 .f32) (harg9 : arg9.IsWhole) (arg10 : Memref sig .tc .vmem S256x768 .bf16) (harg10 : arg10.IsWhole) (arg11 : Memref sig .tc .vmem S1x256 .f32) (harg11 : arg11.IsWhole) (arg12 : Memref sig .tc .vmem S256x768 .bf16) (harg12 : arg12.IsWhole) (arg13 : Memref sig .tc .vmem S1x256 .f32) (harg13 : arg13.IsWhole) (arg14 : Memref sig .tc .vmem S512x256 .f32) (harg14 : arg14.IsWhole) (arg15 : Memref sig .tc .vmem S512x256 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x768 .f32) (harg18 : arg18.IsWhole) (hc0 : ¬cond2_0 i) (hc1 : cond2_1 i)
    (x0 : Vec F S512x768 .f32) (x1 : Vec F S512x768 .f32) (x2 : Vec F S512x200 .f32) (x3 : Vec F S512x200 .f32) (x4 : Vec F S512x768 .f32) (x5 : Vec F S512x768 .f32) (x6 : Vec F S768x768 .bf16) (x7 : Vec F S1x768 .f32) (x8 : Vec F S256x768 .bf16) (x9 : Vec F S1x256 .f32) (x10 : Vec F S256x768 .bf16) (x11 : Vec F S1x256 .f32) (s : Vec F S512x1 .f32 × Vec F S512x1 .f32 × Vec F S512x768 .f32) :
    (VS2_0.read (Elt F) (VS2_0.writes (Elt F) VS2_0.junk (kernelRun2_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 s.1 s.2.1 s.2.2).2.2.1),
     VS2_1.read (Elt F) (VS2_1.writes (Elt F) VS2_1.junk (kernelRun2_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 s.1 s.2.1 s.2.2).2.2.2.1),
     VS2_2.read (Elt F) (VS2_2.writes (Elt F) VS2_2.junk (kernelRun2_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 s.1 s.2.1 s.2.2).2.2.2.2.1)) = step2 x0 x1 x2 x3 x4 s :=
  Prod.ext (piece2_C_S0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 s.1 s.2.1 s.2.2) (Prod.ext (piece2_C_S1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 s.1 s.2.1 s.2.2) (piece2_C_S2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 s.1 s.2.1 s.2.2))

set_option maxHeartbeats 4000000 in
theorem pieces2_C_out12 (c : Dev nD) (i : grid2.Coords) (arg2 : Memref sig .tc .vmem S512x768 .f32) (harg2 : arg2.IsWhole) (arg3 : Memref sig .tc .vmem S512x768 .f32) (harg3 : arg3.IsWhole) (arg4 : Memref sig .tc .vmem S512x200 .f32) (harg4 : arg4.IsWhole) (arg5 : Memref sig .tc .vmem S512x200 .f32) (harg5 : arg5.IsWhole) (arg6 : Memref sig .tc .vmem S512x768 .f32) (harg6 : arg6.IsWhole) (arg7 : Memref sig .tc .vmem S512x768 .f32) (harg7 : arg7.IsWhole) (arg8 : Memref sig .tc .vmem S768x768 .bf16) (harg8 : arg8.IsWhole) (arg9 : Memref sig .tc .vmem S1x768 .f32) (harg9 : arg9.IsWhole) (arg10 : Memref sig .tc .vmem S256x768 .bf16) (harg10 : arg10.IsWhole) (arg11 : Memref sig .tc .vmem S1x256 .f32) (harg11 : arg11.IsWhole) (arg12 : Memref sig .tc .vmem S256x768 .bf16) (harg12 : arg12.IsWhole) (arg13 : Memref sig .tc .vmem S1x256 .f32) (harg13 : arg13.IsWhole) (arg14 : Memref sig .tc .vmem S512x256 .f32) (harg14 : arg14.IsWhole) (arg15 : Memref sig .tc .vmem S512x256 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x768 .f32) (harg18 : arg18.IsWhole) (hc0 : ¬cond2_0 i) (hc1 : cond2_1 i)
    (x0 : Vec F S512x768 .f32) (x1 : Vec F S512x768 .f32) (x2 : Vec F S512x200 .f32) (x3 : Vec F S512x200 .f32) (x4 : Vec F S512x768 .f32) (x5 : Vec F S512x768 .f32) (x6 : Vec F S768x768 .bf16) (x7 : Vec F S1x768 .f32) (x8 : Vec F S256x768 .bf16) (x9 : Vec F S1x256 .f32) (x10 : Vec F S256x768 .bf16) (x11 : Vec F S1x256 .f32) (s : Vec F S512x1 .f32 × Vec F S512x1 .f32 × Vec F S512x768 .f32) :
    VO2_12.read (Elt F) (VO2_12.writes (Elt F) VO2_12.junk (kernelRun2_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 s.1 s.2.1 s.2.2).1)
      = fin2_12 x0 x5 x6 x7 x8 x9
          (VS2_0.read (Elt F) (VS2_0.writes (Elt F) VS2_0.junk (kernelRun2_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 s.1 s.2.1 s.2.2).2.2.1),
           VS2_1.read (Elt F) (VS2_1.writes (Elt F) VS2_1.junk (kernelRun2_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 s.1 s.2.1 s.2.2).2.2.2.1),
           VS2_2.read (Elt F) (VS2_2.writes (Elt F) VS2_2.junk (kernelRun2_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 s.1 s.2.1 s.2.2).2.2.2.2.1)) :=
  (piece2_C_O12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 s.1 s.2.1 s.2.2).trans
    (congrArg₂ (fun a b => k2_pay6 a b x5 x6 x7 x0 x8 x9) (piece2_C_S2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 s.1 s.2.1 s.2.2).symm (piece2_C_S1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 s.1 s.2.1 s.2.2).symm)

set_option maxHeartbeats 4000000 in
theorem pieces2_C_out13 (c : Dev nD) (i : grid2.Coords) (arg2 : Memref sig .tc .vmem S512x768 .f32) (harg2 : arg2.IsWhole) (arg3 : Memref sig .tc .vmem S512x768 .f32) (harg3 : arg3.IsWhole) (arg4 : Memref sig .tc .vmem S512x200 .f32) (harg4 : arg4.IsWhole) (arg5 : Memref sig .tc .vmem S512x200 .f32) (harg5 : arg5.IsWhole) (arg6 : Memref sig .tc .vmem S512x768 .f32) (harg6 : arg6.IsWhole) (arg7 : Memref sig .tc .vmem S512x768 .f32) (harg7 : arg7.IsWhole) (arg8 : Memref sig .tc .vmem S768x768 .bf16) (harg8 : arg8.IsWhole) (arg9 : Memref sig .tc .vmem S1x768 .f32) (harg9 : arg9.IsWhole) (arg10 : Memref sig .tc .vmem S256x768 .bf16) (harg10 : arg10.IsWhole) (arg11 : Memref sig .tc .vmem S1x256 .f32) (harg11 : arg11.IsWhole) (arg12 : Memref sig .tc .vmem S256x768 .bf16) (harg12 : arg12.IsWhole) (arg13 : Memref sig .tc .vmem S1x256 .f32) (harg13 : arg13.IsWhole) (arg14 : Memref sig .tc .vmem S512x256 .f32) (harg14 : arg14.IsWhole) (arg15 : Memref sig .tc .vmem S512x256 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x768 .f32) (harg18 : arg18.IsWhole) (hc0 : ¬cond2_0 i) (hc1 : cond2_1 i)
    (x0 : Vec F S512x768 .f32) (x1 : Vec F S512x768 .f32) (x2 : Vec F S512x200 .f32) (x3 : Vec F S512x200 .f32) (x4 : Vec F S512x768 .f32) (x5 : Vec F S512x768 .f32) (x6 : Vec F S768x768 .bf16) (x7 : Vec F S1x768 .f32) (x8 : Vec F S256x768 .bf16) (x9 : Vec F S1x256 .f32) (x10 : Vec F S256x768 .bf16) (x11 : Vec F S1x256 .f32) (s : Vec F S512x1 .f32 × Vec F S512x1 .f32 × Vec F S512x768 .f32) :
    VO2_13.read (Elt F) (VO2_13.writes (Elt F) VO2_13.junk (kernelRun2_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 s.1 s.2.1 s.2.2).2.1)
      = fin2_13 x0 x5 x6 x7 x10 x11
          (VS2_0.read (Elt F) (VS2_0.writes (Elt F) VS2_0.junk (kernelRun2_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 s.1 s.2.1 s.2.2).2.2.1),
           VS2_1.read (Elt F) (VS2_1.writes (Elt F) VS2_1.junk (kernelRun2_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 s.1 s.2.1 s.2.2).2.2.2.1),
           VS2_2.read (Elt F) (VS2_2.writes (Elt F) VS2_2.junk (kernelRun2_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 s.1 s.2.1 s.2.2).2.2.2.2.1)) :=
  (piece2_C_O13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 s.1 s.2.1 s.2.2).trans
    (congrArg₂ (fun a b => k2_pay4 (k2_pay7 a b x5 x6 x7 x0 x10) x11) (piece2_C_S2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 s.1 s.2.1 s.2.2).symm (piece2_C_S1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 s.1 s.2.1 s.2.2).symm)

/-! ## The scratch after each point, as a recursion over the points -/

/-- The update at point `t`: `step2` at the point's blocks. -/
def stepAt (c : Dev nD) (t : Fin cfg2.N) (s : Vec F S512x1 .f32 × Vec F S512x1 .f32 × Vec F S512x768 .f32) : Vec F S512x1 .f32 × Vec F S512x1 .f32 × Vec F S512x768 .f32 :=
  step2 (iblk2 V c 0 t) (iblk2 V c 1 t) (iblk2 V c 2 t) (iblk2 V c 3 t) (iblk2 V c 4 t) s

/-- At the first key tile of a row tile the scratch is initialised, then updated. -/
theorem scr2_A (c : Dev nD) (t : Fin cfg2.N) (h0 : t.val % 8 = 0) (h1 : ¬t.val % 8 = 7) :
    (outsAt2 V c t.val t.isLt).2.2 = stepAt V c t init2 := by
  rw [outsAt2_A V c t h0 h1]
  unfold leftA runA stepAt step2 init2
  dsimp only
  rw [piece2_A_S0, piece2_A_S1, piece2_A_S2]

/-- At an inner key tile the scratch the tile before left is updated. -/
theorem scr2_B (c : Dev nD) (t : Fin cfg2.N) (h0 : ¬t.val % 8 = 0) (h1 : ¬t.val % 8 = 7) :
    (outsAt2 V c t.val t.isLt).2.2
      = stepAt V c t (outsAt2 V c (t.val - 1) (Nat.lt_of_le_of_lt (Nat.sub_le _ _) t.isLt)).2.2 := by
  rw [outsAt2_B V c t h0 h1]
  unfold leftB runB stepAt step2
  dsimp only
  rw [piece2_B_S0, piece2_B_S1, piece2_B_S2]

set_option maxHeartbeats 4000000 in
/-- At the last key tile likewise, -/
theorem scr2_C (c : Dev nD) (t : Fin cfg2.N) (h0 : ¬t.val % 8 = 0) (h1 : t.val % 8 = 7) :
    (outsAt2 V c t.val t.isLt).2.2
      = stepAt V c t (outsAt2 V c (t.val - 1) (Nat.lt_of_le_of_lt (Nat.sub_le _ _) t.isLt)).2.2 := by
  rw [outsAt2_C V c t h0 h1]
  unfold leftC runC stepAt
  dsimp only
  exact pieces2_C_scr c _ _ _ _ _ _ _ _ _ _ _ _ _ _ _ _ _ _ _ _ _ _ _ _ _ _ _ _ _ _ _ _ _ _ _ _ _ _ _ _ _ _ _ _ _ _ _ _ _ _

set_option maxHeartbeats 4000000 in
/-- and the two outputs are computed from the updated scratch. -/
theorem out2_12_C (c : Dev nD) (t : Fin cfg2.N) (h0 : ¬t.val % 8 = 0) (h1 : t.val % 8 = 7) :
    (outsAt2 V c t.val t.isLt).1
      = fin2_12 (iblk2 V c 0 t) (iblk2 V c 5 t) (iblk2 V c 6 t) (iblk2 V c 7 t) (iblk2 V c 8 t) (iblk2 V c 9 t)
          (outsAt2 V c t.val t.isLt).2.2 := by
  rw [outsAt2_C V c t h0 h1]
  unfold leftC runC
  dsimp only
  exact pieces2_C_out12 c _ _ _ _ _ _ _ _ _ _ _ _ _ _ _ _ _ _ _ _ _ _ _ _ _ _ _ _ _ _ _ _ _ _ _ _ _ _ _ _ _ _ _ _ _ _ _ _ _ _

set_option maxHeartbeats 4000000 in
theorem out2_13_C (c : Dev nD) (t : Fin cfg2.N) (h0 : ¬t.val % 8 = 0) (h1 : t.val % 8 = 7) :
    (outsAt2 V c t.val t.isLt).2.1
      = fin2_13 (iblk2 V c 0 t) (iblk2 V c 5 t) (iblk2 V c 6 t) (iblk2 V c 7 t) (iblk2 V c 10 t) (iblk2 V c 11 t)
          (outsAt2 V c t.val t.isLt).2.2 := by
  rw [outsAt2_C V c t h0 h1]
  unfold leftC runC
  dsimp only
  exact pieces2_C_out13 c _ _ _ _ _ _ _ _ _ _ _ _ _ _ _ _ _ _ _ _ _ _ _ _ _ _ _ _ _ _ _ _ _ _ _ _ _ _ _ _ _ _ _ _ _ _ _ _ _ _

/-- The scratch after the `j`-th key tile of row tile `i` is `j + 1` updates from the initial scratch: the recursion
    unrolled within a row tile. -/
def scrAt (c : Dev nD) (i : Fin 8) : (j : ℕ) → j < 8 → Vec F S512x1 .f32 × Vec F S512x1 .f32 × Vec F S512x768 .f32
  | 0, _ => stepAt V c ⟨8 * i.val, by rw [show cfg2.N = 64 from N_2]; omega⟩ init2
  | j + 1, hj => stepAt V c ⟨8 * i.val + (j + 1), by rw [show cfg2.N = 64 from N_2]; omega⟩ (scrAt c i j (by omega))

theorem scr2_eq_scrAt (c : Dev nD) (i : Fin 8) : ∀ (j : ℕ) (hj : j < 8),
    (outsAt2 V c (8 * i.val + j) (by rw [show cfg2.N = 64 from N_2]; omega)).2.2 = scrAt V c i j hj
  | 0, hj => by
    have hN : cfg2.N = 64 := N_2
    exact scr2_A V c ⟨8 * i.val + 0, by omega⟩ (by show (8 * i.val + 0) % 8 = 0; omega) (by show ¬(8 * i.val + 0) % 8 = 7; omega)
  | j + 1, hj => by
    have hN : cfg2.N = 64 := N_2
    have ih := scr2_eq_scrAt c i j (by omega)
    have hprev : (outsAt2 V c (8 * i.val + (j + 1) - 1) (by omega)).2.2 = scrAt V c i j (by omega) := ih
    by_cases h7 : (8 * i.val + (j + 1)) % 8 = 7
    · rw [show scrAt V c i (j + 1) hj = stepAt V c ⟨8 * i.val + (j + 1), by omega⟩ (scrAt V c i j (by omega)) from rfl, ← hprev]
      exact scr2_C V c ⟨8 * i.val + (j + 1), by omega⟩ (by show ¬(8 * i.val + (j + 1)) % 8 = 0; omega) h7
    · rw [show scrAt V c i (j + 1) hj = stepAt V c ⟨8 * i.val + (j + 1), by omega⟩ (scrAt V c i j (by omega)) from rfl, ← hprev]
      exact scr2_B V c ⟨8 * i.val + (j + 1), by omega⟩ (by show ¬(8 * i.val + (j + 1)) % 8 = 0; omega) h7

end Cert.KernelIdeal.Hand

end
-- ==== Proof.LibOnlineSoftmax.lean ====
/-
  Online softmax pooling over the extended reals.

  A softmax-weighted average  (∑ₛ e^{σₛ} φₛ) / (∑ₛ e^{σₛ})  can be accumulated chunk by chunk while a running
  shift `m` is kept: with `l = (∑ e^{σₛ}) · e^{-m}` and `a = (∑ e^{σₛ} φₛ) · e^{-m}` over the positions seen so far, a new
  chunk and ANY new real shift `m'` give  `l' = e^{m - m'} · l + ∑ᵣ e^{σᵣ - m'}`  and the same for `a`; the quotient `a / l`
  does not depend on the shifts. The first chunk starts from the shift `-∞`, where `e^{-∞ - m'} = 0` and both sums are `0`.
  Nothing here needs the shift to be the running maximum: only that it is a real number after the first chunk, which a
  maximum over a nonempty chunk of reals is.
-/
import Idealize.ShloMosaic.PureOps.Ideal

noncomputable section

namespace OnlineSoftmax

open Idealize.ShloMosaic

/-- The coercion of a finite sum of reals into the extended reals is the sum of the coercions. -/
theorem coe_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- `Tracks m x X`: under the running shift `m`, the accumulator `x` holds the unshifted real sum `X` scaled by
    `e^{-m}`; before the first chunk the shift is `-∞` and both are zero. -/
def Tracks (m x : EReal) (X : ℝ) : Prop :=
  (m = ⊥ ∧ x = 0 ∧ X = 0) ∨ ∃ μ : ℝ, m = (μ : EReal) ∧ x = ((X * Real.exp (-μ) : ℝ) : EReal)

theorem tracks_init : Tracks ⊥ 0 0 := Or.inl ⟨rfl, rfl, rfl⟩

/-- A shift is `-∞` or a real number. -/
def Shift (m : EReal) : Prop := m = ⊥ ∨ ∃ μ : ℝ, m = (μ : EReal)

theorem Tracks.shift {m x : EReal} {X : ℝ} (h : Tracks m x X) : Shift m :=
  h.elim (fun h => Or.inl h.1) (fun ⟨μ, h, _⟩ => Or.inr ⟨μ, h⟩)

/-- The maximum of finitely many reals, folded from `-∞`, is one of them when there is at least one. -/
theorem fold_max_real {ι : Type*} [Fintype ι] [Nonempty ι] (σ : ι → ℝ) :
    ∃ ν : ℝ, (Finset.univ : Finset ι).fold max (⊥ : EReal) (fun r => (σ r : EReal)) = (ν : EReal) := by
  obtain ⟨i, -, hi⟩ := Finset.exists_mem_eq_sup (Finset.univ : Finset ι) Finset.univ_nonempty (fun r => (σ r : EReal))
  exact ⟨σ i, hi⟩

/-- So the running maximum after a nonempty chunk of reals is a real number. -/
theorem max_fold_real {ι : Type*} [Fintype ι] [Nonempty ι] {m : EReal} (hm : Shift m) (σ : ι → ℝ) :
    ∃ μ' : ℝ, max m ((Finset.univ : Finset ι).fold max (⊥ : EReal) (fun r => (σ r : EReal))) = (μ' : EReal) := by
  obtain ⟨ν, hν⟩ := fold_max_real σ
  rw [hν]
  rcases hm with rfl | ⟨μ, rfl⟩
  · exact ⟨ν, max_eq_right bot_le⟩
  · exact ⟨max μ ν, (EReal.coe_strictMono.monotone.map_max).symm⟩

/-- THE CHUNK STEP. Rescaling the accumulator by `e^{m - m'}` and adding the chunk's terms `e^{σᵣ - m'} · wᵣ` tracks the
    sum extended by `∑ᵣ e^{σᵣ} wᵣ` under the new shift `m'`, whatever real `m'` is. -/
theorem Tracks.step {ι : Type*} [Fintype ι] {m x : EReal} {X : ℝ} (h : Tracks m x X) (μ' : ℝ) (σ w : ι → ℝ) :
    Tracks (μ' : EReal)
      (Ideal.exp (m - (μ' : EReal)) * x + ∑ r, Ideal.exp ((σ r : EReal) - (μ' : EReal)) * (w r : EReal))
      (X + ∑ r, Real.exp (σ r) * w r) := by
  refine Or.inr ⟨μ', rfl, ?_⟩
  have hs : ∑ r, Ideal.exp ((σ r : EReal) - (μ' : EReal)) * (w r : EReal)
      = ((∑ r, Real.exp (σ r - μ') * w r : ℝ) : EReal) := by
    rw [coe_sum]
    refine Finset.sum_congr rfl fun r _ => ?_
    rw [← EReal.coe_sub, Ideal.exp_coe, ← EReal.coe_mul]
  have hr : ∑ r, Real.exp (σ r - μ') * w r = (∑ r, Real.exp (σ r) * w r) * Real.exp (-μ') := by
    rw [Finset.sum_mul]
    refine Finset.sum_congr rfl fun r _ => ?_
    rw [sub_eq_add_neg, Real.exp_add]; ring
  rw [hs, hr]
  rcases h with ⟨rfl, rfl, rfl⟩ | ⟨μ, rfl, rfl⟩
  · rw [EReal.bot_sub, Ideal.exp_bot, zero_mul, zero_add, zero_add]
  · rw [← EReal.coe_sub, Ideal.exp_coe, ← EReal.coe_mul, ← EReal.coe_add]
    congr 1
    have : Real.exp (μ - μ') * (X * Real.exp (-μ)) = X * Real.exp (-μ') := by
      rw [sub_eq_add_neg, Real.exp_add, Real.exp_neg μ]
      field_simp
    rw [this]; ring

/-- The same step for the normalizer, whose terms carry no weight. -/
theorem Tracks.step_one {ι : Type*} [Fintype ι] {m x : EReal} {X : ℝ} (h : Tracks m x X) (μ' : ℝ) (σ : ι → ℝ) :
    Tracks (μ' : EReal)
      (Ideal.exp (m - (μ' : EReal)) * x + ∑ r, Ideal.exp ((σ r : EReal) - (μ' : EReal)))
      (X + ∑ r, Real.exp (σ r)) := by
  have := h.step μ' σ (fun _ => 1)
  simpa using this

/-- THE QUOTIENT. Under a real shift, the weighted accumulator over the normalizer is the softmax average, whatever
    the shift: `(N e^{-μ}) / (W e^{-μ}) = N / W` for `W > 0`. -/
theorem Tracks.div {m l a : EReal} {W N : ℝ} (hm : ∃ μ : ℝ, m = (μ : EReal)) (hl : Tracks m l W) (ha : Tracks m a N)
    (hW : 0 < W) : Ideal.div a l = ((N / W : ℝ) : EReal) := by
  obtain ⟨μ, rfl⟩ := hm
  rcases hl with ⟨h, -, -⟩ | ⟨μ₁, h₁, rfl⟩
  · exact absurd h (EReal.coe_ne_bot μ)
  rcases ha with ⟨h, -, -⟩ | ⟨μ₂, h₂, rfl⟩
  · exact absurd h (EReal.coe_ne_bot μ)
  have e1 : μ₁ = μ := (EReal.coe_eq_coe_iff.mp h₁).symm
  have e2 : μ₂ = μ := (EReal.coe_eq_coe_iff.mp h₂).symm
  rw [e1, e2]
  have hne : W * Real.exp (-μ) ≠ 0 := mul_ne_zero hW.ne' (Real.exp_ne_zero _)
  rw [Ideal.div_coe hne, ← EReal.coe_mul]
  congr 1
  field_simp

/-- The plain two-pass form: every term `e^{σₛ - μ}` divided by their sum, weighted and summed, is the same average. -/
theorem two_pass {ι : Type*} [Fintype ι] [Nonempty ι] (μ : ℝ) (σ φ : ι → ℝ) :
    (0 : EReal) + ∑ s, (φ s : EReal) * Ideal.div (Ideal.exp ((σ s : EReal) - (μ : EReal)))
        ((0 : EReal) + ∑ s', Ideal.exp ((σ s' : EReal) - (μ : EReal)))
      = (((∑ s, Real.exp (σ s) * φ s) / (∑ s, Real.exp (σ s)) : ℝ) : EReal) := by
  have hW : 0 < ∑ s, Real.exp (σ s) := Finset.sum_pos (fun s _ => Real.exp_pos _) Finset.univ_nonempty
  have hL : (0 : EReal) + ∑ s', Ideal.exp ((σ s' : EReal) - (μ : EReal))
      = (((∑ s, Real.exp (σ s)) * Real.exp (-μ) : ℝ) : EReal) := by
    rw [zero_add, Finset.sum_mul, coe_sum]
    refine Finset.sum_congr rfl fun s _ => ?_
    rw [← EReal.coe_sub, Ideal.exp_coe, sub_eq_add_neg, Real.exp_add]
  have hne : (∑ s, Real.exp (σ s)) * Real.exp (-μ) ≠ 0 := mul_ne_zero hW.ne' (Real.exp_ne_zero _)
  rw [hL, zero_add, Finset.sum_div, coe_sum]
  refine Finset.sum_congr rfl fun s _ => ?_
  rw [Ideal.div_coe hne, ← EReal.coe_sub, Ideal.exp_coe, ← EReal.coe_mul, ← EReal.coe_mul]
  congr 1
  rw [sub_eq_add_neg, Real.exp_add]
  field_simp

end OnlineSoftmax

end
-- ==== Proof.KI.Value2Pay.lean ====
import proofs.«170994_j15857019257044_2_alg».proof.Proof.Gen.KernelIdeal.Skeleton
import proofs.«170994_j15857019257044_2_alg».proof.Proof.Spec
import proofs.«170994_j15857019257044_2_alg».proof.Proof.LibOnlineSoftmax
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

set_option maxRecDepth 16384

noncomputable section

open scoped BigOperators

namespace Cert.KernelIdeal.HandValue

open Cert.KernelIdeal Cert.KernelIdeal.Gen
open Idealize.ShloMosaic Idealize.ShloMosaic.ValueIdx

/-! # Region 2's payloads, read at an entry over the extended reals

The body of the flash-attention region, tile by tile of 512 keys: the raw scores raw = support_i·support_jᵀ, the squared
rectified similarities g = (max((q_i·k_jᵀ)·κ, 0))², the running maximum, the rescaling factor, the tile's weights, the
normaliser and the accumulator; and at the last tile the finalisation out = (acc / l)·gate, its projection, the product
with support, and the two linear layers K and V. -/

/-! ## Two layout readings -/

/-- An [a] array cast to [a, 1] reads, at (i, u), the operand at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (p, c), the column at p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The exponential of a vector, read at an index. -/
theorem exp_apply2 {s : Shape} {φ : FTy} (a : FVec Ideal s φ) (i : s.Idx) : exp a i = Ideal.exp (a i) := rfl

/-- The similarity's scale: the named constant is the rational 524288/14529495 on the extended reals. -/
theorem kappa_sim : Named.named (F := Ideal) κ "fold_c_524288_14529495" (φ := .f32) 0x3D13CD3A#32 = ((524288 / 14529495 : ℝ) : EReal) :=
  IdealRules.named_const.ideal_named_scalar _ _ _ _ rfl

/-! ## The operand indices of the five block products -/

/-! The operand indices of the product raw2: at output entry i and contraction index q, the left operand is read at
(i 0, q) and the right at (q, i 1). -/
theorem lhs_raw2_0 (i : S512x512.Idx) (q : dot_S512x768_S768x512_S512x512_1_0_0_1_n_n.contr.Idx) : (dot_S512x768_S768x512_S512x512_1_0_0_1_n_n.lhsIdx i q 0).val = (i 0).val := by
  unfold DotDims.lhsIdx
  rw [dif_neg (show ¬(0 : Fin S512x768.rank) ∈ dot_S512x768_S768x512_S512x512_1_0_0_1_n_n.lhsBatch by decide), dif_pos (show (0 : Fin S512x768.rank) ∈ dot_S512x768_S768x512_S512x512_1_0_0_1_n_n.lhsNonContracting by decide)]
  rfl
theorem lhs_raw2_1 (i : S512x512.Idx) (q : dot_S512x768_S768x512_S512x512_1_0_0_1_n_n.contr.Idx) : (dot_S512x768_S768x512_S512x512_1_0_0_1_n_n.lhsIdx i q 1).val = (q ⟨0, by decide⟩).val :=
  dot_S512x768_S768x512_S512x512_1_0_0_1_n_n.lhsIdx_val_of_single rfl i q
theorem rhs_raw2_0 (i : S512x512.Idx) (q : dot_S512x768_S768x512_S512x512_1_0_0_1_n_n.contr.Idx) : (dot_S512x768_S768x512_S512x512_1_0_0_1_n_n.rhsIdx i q 0).val = (q ⟨0, by decide⟩).val :=
  dot_S512x768_S768x512_S512x512_1_0_0_1_n_n.rhsIdx_val_of_single rfl i q
theorem rhs_raw2_1 (i : S512x512.Idx) (q : dot_S512x768_S768x512_S512x512_1_0_0_1_n_n.contr.Idx) : (dot_S512x768_S768x512_S512x512_1_0_0_1_n_n.rhsIdx i q 1).val = (i 1).val := by
  unfold DotDims.rhsIdx
  rw [dif_neg (show ¬(1 : Fin S768x512.rank) ∈ dot_S512x768_S768x512_S512x512_1_0_0_1_n_n.rhsBatch by decide), dif_pos (show (1 : Fin S768x512.rank) ∈ dot_S512x768_S768x512_S512x512_1_0_0_1_n_n.rhsNonContracting by decide)]
  rfl

/-! The operand indices of the product sim2: at output entry i and contraction index q, the left operand is read at
(i 0, q) and the right at (q, i 1). -/
theorem lhs_sim2_0 (i : S512x512.Idx) (q : dot_S512x200_S200x512_S512x512_1_0_0_1_n_n.contr.Idx) : (dot_S512x200_S200x512_S512x512_1_0_0_1_n_n.lhsIdx i q 0).val = (i 0).val := by
  unfold DotDims.lhsIdx
  rw [dif_neg (show ¬(0 : Fin S512x200.rank) ∈ dot_S512x200_S200x512_S512x512_1_0_0_1_n_n.lhsBatch by decide), dif_pos (show (0 : Fin S512x200.rank) ∈ dot_S512x200_S200x512_S512x512_1_0_0_1_n_n.lhsNonContracting by decide)]
  rfl
theorem lhs_sim2_1 (i : S512x512.Idx) (q : dot_S512x200_S200x512_S512x512_1_0_0_1_n_n.contr.Idx) : (dot_S512x200_S200x512_S512x512_1_0_0_1_n_n.lhsIdx i q 1).val = (q ⟨0, by decide⟩).val :=
  dot_S512x200_S200x512_S512x512_1_0_0_1_n_n.lhsIdx_val_of_single rfl i q
theorem rhs_sim2_0 (i : S512x512.Idx) (q : dot_S512x200_S200x512_S512x512_1_0_0_1_n_n.contr.Idx) : (dot_S512x200_S200x512_S512x512_1_0_0_1_n_n.rhsIdx i q 0).val = (q ⟨0, by decide⟩).val :=
  dot_S512x200_S200x512_S512x512_1_0_0_1_n_n.rhsIdx_val_of_single rfl i q
theorem rhs_sim2_1 (i : S512x512.Idx) (q : dot_S512x200_S200x512_S512x512_1_0_0_1_n_n.contr.Idx) : (dot_S512x200_S200x512_S512x512_1_0_0_1_n_n.rhsIdx i q 1).val = (i 1).val := by
  unfold DotDims.rhsIdx
  rw [dif_neg (show ¬(1 : Fin S200x512.rank) ∈ dot_S512x200_S200x512_S512x512_1_0_0_1_n_n.rhsBatch by decide), dif_pos (show (1 : Fin S200x512.rank) ∈ dot_S512x200_S200x512_S512x512_1_0_0_1_n_n.rhsNonContracting by decide)]
  rfl

/-! The operand indices of the product acc2: at output entry i and contraction index q, the left operand is read at
(i 0, q) and the right at (q, i 1). -/
theorem lhs_acc2_0 (i : S512x768.Idx) (q : dot_S512x512_S512x768_S512x768_1_0_0_1_n_n.contr.Idx) : (dot_S512x512_S512x768_S512x768_1_0_0_1_n_n.lhsIdx i q 0).val = (i 0).val := by
  unfold DotDims.lhsIdx
  rw [dif_neg (show ¬(0 : Fin S512x512.rank) ∈ dot_S512x512_S512x768_S512x768_1_0_0_1_n_n.lhsBatch by decide), dif_pos (show (0 : Fin S512x512.rank) ∈ dot_S512x512_S512x768_S512x768_1_0_0_1_n_n.lhsNonContracting by decide)]
  rfl
theorem lhs_acc2_1 (i : S512x768.Idx) (q : dot_S512x512_S512x768_S512x768_1_0_0_1_n_n.contr.Idx) : (dot_S512x512_S512x768_S512x768_1_0_0_1_n_n.lhsIdx i q 1).val = (q ⟨0, by decide⟩).val :=
  dot_S512x512_S512x768_S512x768_1_0_0_1_n_n.lhsIdx_val_of_single rfl i q
theorem rhs_acc2_0 (i : S512x768.Idx) (q : dot_S512x512_S512x768_S512x768_1_0_0_1_n_n.contr.Idx) : (dot_S512x512_S512x768_S512x768_1_0_0_1_n_n.rhsIdx i q 0).val = (q ⟨0, by decide⟩).val :=
  dot_S512x512_S512x768_S512x768_1_0_0_1_n_n.rhsIdx_val_of_single rfl i q
theorem rhs_acc2_1 (i : S512x768.Idx) (q : dot_S512x512_S512x768_S512x768_1_0_0_1_n_n.contr.Idx) : (dot_S512x512_S512x768_S512x768_1_0_0_1_n_n.rhsIdx i q 1).val = (i 1).val := by
  unfold DotDims.rhsIdx
  rw [dif_neg (show ¬(1 : Fin S512x768.rank) ∈ dot_S512x512_S512x768_S512x768_1_0_0_1_n_n.rhsBatch by decide), dif_pos (show (1 : Fin S512x768.rank) ∈ dot_S512x512_S512x768_S512x768_1_0_0_1_n_n.rhsNonContracting by decide)]
  rfl

/-! The operand indices of the product proj2: at output entry i and contraction index q, the left operand is read at
(i 0, q) and the right at (q, i 1). -/
theorem lhs_proj2_0 (i : S512x768.Idx) (q : dot_S512x768_S768x768_S512x768_1_0_0_1_n_n.contr.Idx) : (dot_S512x768_S768x768_S512x768_1_0_0_1_n_n.lhsIdx i q 0).val = (i 0).val := by
  unfold DotDims.lhsIdx
  rw [dif_neg (show ¬(0 : Fin S512x768.rank) ∈ dot_S512x768_S768x768_S512x768_1_0_0_1_n_n.lhsBatch by decide), dif_pos (show (0 : Fin S512x768.rank) ∈ dot_S512x768_S768x768_S512x768_1_0_0_1_n_n.lhsNonContracting by decide)]
  rfl
theorem lhs_proj2_1 (i : S512x768.Idx) (q : dot_S512x768_S768x768_S512x768_1_0_0_1_n_n.contr.Idx) : (dot_S512x768_S768x768_S512x768_1_0_0_1_n_n.lhsIdx i q 1).val = (q ⟨0, by decide⟩).val :=
  dot_S512x768_S768x768_S512x768_1_0_0_1_n_n.lhsIdx_val_of_single rfl i q
theorem rhs_proj2_0 (i : S512x768.Idx) (q : dot_S512x768_S768x768_S512x768_1_0_0_1_n_n.contr.Idx) : (dot_S512x768_S768x768_S512x768_1_0_0_1_n_n.rhsIdx i q 0).val = (q ⟨0, by decide⟩).val :=
  dot_S512x768_S768x768_S512x768_1_0_0_1_n_n.rhsIdx_val_of_single rfl i q
theorem rhs_proj2_1 (i : S512x768.Idx) (q : dot_S512x768_S768x768_S512x768_1_0_0_1_n_n.contr.Idx) : (dot_S512x768_S768x768_S512x768_1_0_0_1_n_n.rhsIdx i q 1).val = (i 1).val := by
  unfold DotDims.rhsIdx
  rw [dif_neg (show ¬(1 : Fin S768x768.rank) ∈ dot_S512x768_S768x768_S512x768_1_0_0_1_n_n.rhsBatch by decide), dif_pos (show (1 : Fin S768x768.rank) ∈ dot_S512x768_S768x768_S512x768_1_0_0_1_n_n.rhsNonContracting by decide)]
  rfl

/-! The operand indices of the product kv2: at output entry i and contraction index q, the left operand is read at
(i 0, q) and the right at (q, i 1). -/
theorem lhs_kv2_0 (i : S512x256.Idx) (q : dot_S512x768_S768x256_S512x256_1_0_0_1_n_n.contr.Idx) : (dot_S512x768_S768x256_S512x256_1_0_0_1_n_n.lhsIdx i q 0).val = (i 0).val := by
  unfold DotDims.lhsIdx
  rw [dif_neg (show ¬(0 : Fin S512x768.rank) ∈ dot_S512x768_S768x256_S512x256_1_0_0_1_n_n.lhsBatch by decide), dif_pos (show (0 : Fin S512x768.rank) ∈ dot_S512x768_S768x256_S512x256_1_0_0_1_n_n.lhsNonContracting by decide)]
  rfl
theorem lhs_kv2_1 (i : S512x256.Idx) (q : dot_S512x768_S768x256_S512x256_1_0_0_1_n_n.contr.Idx) : (dot_S512x768_S768x256_S512x256_1_0_0_1_n_n.lhsIdx i q 1).val = (q ⟨0, by decide⟩).val :=
  dot_S512x768_S768x256_S512x256_1_0_0_1_n_n.lhsIdx_val_of_single rfl i q
theorem rhs_kv2_0 (i : S512x256.Idx) (q : dot_S512x768_S768x256_S512x256_1_0_0_1_n_n.contr.Idx) : (dot_S512x768_S768x256_S512x256_1_0_0_1_n_n.rhsIdx i q 0).val = (q ⟨0, by decide⟩).val :=
  dot_S512x768_S768x256_S512x256_1_0_0_1_n_n.rhsIdx_val_of_single rfl i q
theorem rhs_kv2_1 (i : S512x256.Idx) (q : dot_S512x768_S768x256_S512x256_1_0_0_1_n_n.contr.Idx) : (dot_S512x768_S768x256_S512x256_1_0_0_1_n_n.rhsIdx i q 1).val = (i 1).val := by
  unfold DotDims.rhsIdx
  rw [dif_neg (show ¬(1 : Fin S768x256.rank) ∈ dot_S512x768_S768x256_S512x256_1_0_0_1_n_n.rhsBatch by decide), dif_pos (show (1 : Fin S768x256.rank) ∈ dot_S512x768_S768x256_S512x256_1_0_0_1_n_n.rhsNonContracting by decide)]
  rfl

/-! ## The stores that copy, and the initial scratch contents -/

theorem k2_pay1_eq (v33 : FVec Ideal S512x1 .f32) : k2_pay1 v33 = v33 := by
  unfold k2_pay1; exact shapeCast_self _ _

theorem k2_pay3_eq (v23 : FVec Ideal S512x1 .f32) : k2_pay3 v23 = v23 := by
  unfold k2_pay3; exact shapeCast_self _ _

/-- The running maximum starts at -∞. -/
theorem k2_pay8_apply (i : S512x1.Idx) : k2_pay8 (F := Ideal) i = ⊥ := by
  unfold k2_pay8
  rw [shapeCast_self]
  show Ideal.ofBits .f32 0xFF800000#32 = ⊥
  exact Spec.ofBits_neg_inf_f32

/-- The normaliser starts at 0. -/
theorem k2_pay9_apply (i : S512x1.Idx) : k2_pay9 (F := Ideal) i = 0 := by
  unfold k2_pay9
  rw [shapeCast_self]
  show Ideal.ofBits .f32 0x00000000#32 = 0
  exact Ideal.ofBits_zero_f32

/-- The accumulator starts at 0. -/
theorem k2_pay10_apply (i : S512x768.Idx) : k2_pay10 (F := Ideal) i = 0 := by
  unfold k2_pay10
  rw [shapeCast_self]
  show Ideal.ofBits .f32 0x00000000#32 = 0
  exact Ideal.ofBits_zero_f32

/-! ## The scores of one tile -/

/-- raw(p, j) = ∑ c, support_i(p, c)·support_j(j, c). -/
theorem k2_pay11_apply (v3 v4 : Vec Ideal S512x768 .f32) (p j : Fin 512) :
    k2_pay11 v3 v4 (ix2 p j) = ∑ c : Fin 768, v3 (ix2 p c) * v4 (ix2 j c) := by
  unfold k2_pay11
  try dsimp only
  refine (Ideal.matmul_constant_zero_apply dot_S512x768_S768x512_S512x512_1_0_0_1_n_n (some .fp32) _ _ (ix2 p j)).trans ?_
  rw [← Equiv.sum_comp (contrEquiv1 dot_S512x768_S768x512_S512x512_1_0_0_1_n_n 768 rfl rfl).symm]
  refine Finset.sum_congr rfl fun k _ => ?_
  have hk := contrEquiv1_symm_val dot_S512x768_S768x512_S512x512_1_0_0_1_n_n 768 rfl rfl k
  have el : dot_S512x768_S768x512_S512x512_1_0_0_1_n_n.lhsIdx (ix2 p j) ((contrEquiv1 dot_S512x768_S768x512_S512x512_1_0_0_1_n_n 768 rfl rfl).symm k) = ix2 p k := funext fun a => Fin.ext (by
    match a with
    | ⟨0, _⟩ => exact lhs_raw2_0 _ _
    | ⟨1, _⟩ => exact (lhs_raw2_1 _ _).trans hk)
  have er : dot_S512x768_S768x512_S512x512_1_0_0_1_n_n.rhsIdx (ix2 p j) ((contrEquiv1 dot_S512x768_S768x512_S512x512_1_0_0_1_n_n 768 rfl rfl).symm k) = ix2 k j := funext fun a => Fin.ext (by
    match a with
    | ⟨0, _⟩ => exact (rhs_raw2_0 _ _).trans hk
    | ⟨1, _⟩ => exact rhs_raw2_1 _ _)
  rw [el, er]
  rw [transpose_ix2_apply]

/-- g(p, j) = (max((∑ c, q_i(p, c)·k_j(j, c))·κ, 0))², κ the named scale. -/
theorem k2_pay12_apply (v7 v10 : Vec Ideal S512x200 .f32) (p j : Fin 512) :
    k2_pay12 v7 v10 (ix2 p j)
      = max ((∑ c : Fin 200, v7 (ix2 p c) * v10 (ix2 j c)) * ((524288 / 14529495 : ℝ) : EReal)) 0
        * max ((∑ c : Fin 200, v7 (ix2 p c) * v10 (ix2 j c)) * ((524288 / 14529495 : ℝ) : EReal)) 0 := by
  have hmm : matmul dot_S512x200_S200x512_S512x512_1_0_0_1_n_n none (truncf .bf16 v7 bitsLt_bf16_f32)
      (transpose S200x512 [1, 0] (truncf .bf16 v10 bitsLt_bf16_f32) transposes_S512x200_p1_0_S200x512)
      (constant (F := Ideal) S512x512 .f32 0x00000000#32) (ix2 p j) = ∑ c : Fin 200, v7 (ix2 p c) * v10 (ix2 j c) := by
    refine (Ideal.matmul_constant_zero_apply dot_S512x200_S200x512_S512x512_1_0_0_1_n_n none _ _ (ix2 p j)).trans ?_
    rw [← Equiv.sum_comp (contrEquiv1 dot_S512x200_S200x512_S512x512_1_0_0_1_n_n 200 rfl rfl).symm]
    refine Finset.sum_congr rfl fun k _ => ?_
    have hk := contrEquiv1_symm_val dot_S512x200_S200x512_S512x512_1_0_0_1_n_n 200 rfl rfl k
    have el : dot_S512x200_S200x512_S512x512_1_0_0_1_n_n.lhsIdx (ix2 p j) ((contrEquiv1 dot_S512x200_S200x512_S512x512_1_0_0_1_n_n 200 rfl rfl).symm k) = ix2 p k := funext fun a => Fin.ext (by
      match a with
      | ⟨0, _⟩ => exact lhs_sim2_0 _ _
      | ⟨1, _⟩ => exact (lhs_sim2_1 _ _).trans hk)
    have er : dot_S512x200_S200x512_S512x512_1_0_0_1_n_n.rhsIdx (ix2 p j) ((contrEquiv1 dot_S512x200_S200x512_S512x512_1_0_0_1_n_n 200 rfl rfl).symm k) = ix2 k j := funext fun a => Fin.ext (by
      match a with
      | ⟨0, _⟩ => exact (rhs_sim2_0 _ _).trans hk
      | ⟨1, _⟩ => exact rhs_sim2_1 _ _)
    rw [el, er]
    rw [truncf_apply, transpose_ix2_apply, truncf_apply]
  unfold k2_pay12
  try dsimp only
  rw [mulf_apply, maximumf_apply, mulf_apply, broadcast_apply, broadcast_apply, shapeCast_self, shapeCast_self, hmm, kappa_sim]
  show max _ (Ideal.ofBits .f32 0x00000000#32) * max _ (Ideal.ofBits .f32 0x00000000#32) = _
  rw [Ideal.ofBits_zero_f32]

/-! ## The running maximum, the rescaling factor, the weights and the normaliser -/

/-- m_new(p) = max(m_prev(p), max over the tile's 512 keys j of raw(p, j)), the maximum folded from -∞. -/
theorem k2_pay13_apply (v3 v4 : Vec Ideal S512x768 .f32) (v20 : Vec Ideal S512x1 .f32) (p : Fin 512) :
    k2_pay13 v3 v4 v20 (ix2 p (0 : Fin 1))
      = max (v20 (ix2 p (0 : Fin 1))) ((Finset.univ : Finset (Fin 512)).fold max (⊥ : EReal) (fun j => k2_pay11 v3 v4 (ix2 p j))) := by
  unfold k2_pay13
  try dsimp only
  rw [maximumf_apply, shapeCast_a_a1_apply]
  refine congrArg (max (v20 (ix2 p (0 : Fin 1)))) ?_
  refine (Ideal.multiReduction_maximumf_single (k2_pay11 v3 v4) 0xFF800000#32 reduces_S512x512_S512 (.inl rfl) rfl (ix1 p)).trans ?_
  show (Finset.univ : Finset (Fin 512)).fold max (Ideal.ofBits .f32 0xFF800000#32) (fun j => k2_pay11 v3 v4 (reduces_S512x512_S512.lift (ix1 p) j)) = _
  rw [Spec.ofBits_neg_inf_f32]
  refine congrArg (fun f => (Finset.univ : Finset (Fin 512)).fold max (⊥ : EReal) f) (funext fun j => congrArg (k2_pay11 v3 v4) (funext fun a => Fin.ext ?_))
  match a with
  | ⟨0, _⟩ => rfl
  | ⟨1, _⟩ => rfl

/-- α(p) = exp(m_prev(p) - m_new(p)). -/
theorem k2_pay14_apply (v3 v4 : Vec Ideal S512x768 .f32) (v20 : Vec Ideal S512x1 .f32) (p : Fin 512) :
    k2_pay14 v3 v4 v20 (ix2 p (0 : Fin 1)) = Ideal.exp (v20 (ix2 p (0 : Fin 1)) - k2_pay13 v3 v4 v20 (ix2 p (0 : Fin 1))) := by
  unfold k2_pay14
  try dsimp only
  rw [exp_apply2, subf_apply]

/-- w(p, j) = exp(raw(p, j) - m_new(p)). -/
theorem k2_pay15_apply (v3 v4 : Vec Ideal S512x768 .f32) (v20 : Vec Ideal S512x1 .f32) (p j : Fin 512) :
    k2_pay15 v3 v4 v20 (ix2 p j) = Ideal.exp (k2_pay11 v3 v4 (ix2 p j) - k2_pay13 v3 v4 v20 (ix2 p (0 : Fin 1))) := by
  unfold k2_pay15
  try dsimp only
  rw [exp_apply2, subf_apply, broadcastTo_a1_ab_apply]

/-- l_new(p) = α(p)·l_prev(p) + ∑ j, w(p, j). -/
theorem k2_pay16_apply (v3 v4 : Vec Ideal S512x768 .f32) (v20 v29 : Vec Ideal S512x1 .f32) (p : Fin 512) :
    k2_pay16 v3 v4 v20 v29 (ix2 p (0 : Fin 1))
      = k2_pay14 v3 v4 v20 (ix2 p (0 : Fin 1)) * v29 (ix2 p (0 : Fin 1)) + ∑ j : Fin 512, k2_pay15 v3 v4 v20 (ix2 p j) := by
  unfold k2_pay16
  try dsimp only
  rw [addf_apply, mulf_apply, shapeCast_a_a1_apply]
  refine congrArg (k2_pay14 v3 v4 v20 (ix2 p (0 : Fin 1)) * v29 (ix2 p (0 : Fin 1)) + ·) ?_
  refine (Ideal.multiReduction_add_single (k2_pay15 v3 v4 v20) 0x00000000#32 reduces_S512x512_S512 (.inl rfl) rfl (ix1 p)).trans ?_
  show ∑ j : Fin 512, k2_pay15 v3 v4 v20 (reduces_S512x512_S512.lift (ix1 p) j) = _
  refine Finset.sum_congr rfl fun j _ => congrArg (k2_pay15 v3 v4 v20) (funext fun a => Fin.ext ?_)
  match a with
  | ⟨0, _⟩ => rfl
  | ⟨1, _⟩ => rfl

/-! ## The accumulator, and the finalisation at the last tile -/

/-- o_new(p, d) = α(p)·o_prev(p, d) + ∑ j, (w(p, j)·g(p, j))·v_j(j, d). -/
theorem k2_pay2_apply (v19 : FVec Ideal S512x512 .f32) (v25 : FVec Ideal S512x1 .f32) (v28 : FVec Ideal S512x512 .f32)
    (v39 v42 : Vec Ideal S512x768 .f32) (p : Fin 512) (d : Fin 768) :
    k2_pay2 v19 v25 v28 v39 v42 (ix2 p d)
      = v25 (ix2 p (0 : Fin 1)) * v39 (ix2 p d) + ∑ j : Fin 512, (v28 (ix2 p j) * v19 (ix2 p j)) * v42 (ix2 j d) := by
  have hmm : matmul dot_S512x512_S512x768_S512x768_1_0_0_1_n_n none (truncf .bf16 (mulf v28 v19) bitsLt_bf16_f32) (truncf .bf16 v42 bitsLt_bf16_f32)
      (constant (F := Ideal) S512x768 .f32 0x00000000#32) (ix2 p d) = ∑ j : Fin 512, (v28 (ix2 p j) * v19 (ix2 p j)) * v42 (ix2 j d) := by
    refine (Ideal.matmul_constant_zero_apply dot_S512x512_S512x768_S512x768_1_0_0_1_n_n none _ _ (ix2 p d)).trans ?_
    rw [← Equiv.sum_comp (contrEquiv1 dot_S512x512_S512x768_S512x768_1_0_0_1_n_n 512 rfl rfl).symm]
    refine Finset.sum_congr rfl fun k _ => ?_
    have hk := contrEquiv1_symm_val dot_S512x512_S512x768_S512x768_1_0_0_1_n_n 512 rfl rfl k
    have el : dot_S512x512_S512x768_S512x768_1_0_0_1_n_n.lhsIdx (ix2 p d) ((contrEquiv1 dot_S512x512_S512x768_S512x768_1_0_0_1_n_n 512 rfl rfl).symm k) = ix2 p k := funext fun a => Fin.ext (by
      match a with
      | ⟨0, _⟩ => exact lhs_acc2_0 _ _
      | ⟨1, _⟩ => exact (lhs_acc2_1 _ _).trans hk)
    have er : dot_S512x512_S512x768_S512x768_1_0_0_1_n_n.rhsIdx (ix2 p d) ((contrEquiv1 dot_S512x512_S512x768_S512x768_1_0_0_1_n_n 512 rfl rfl).symm k) = ix2 k d := funext fun a => Fin.ext (by
      match a with
      | ⟨0, _⟩ => exact (rhs_acc2_0 _ _).trans hk
      | ⟨1, _⟩ => exact rhs_acc2_1 _ _)
    rw [el, er]
    rw [truncf_apply, truncf_apply, mulf_apply]
  unfold k2_pay2
  try dsimp only
  rw [shapeCast_self, shapeCast_self, addf_apply, mulf_apply, broadcastTo_a1_ab_apply, hmm]

/-- A bias row added down the rows. -/
theorem k2_pay4_apply (v88 : FVec Ideal S512x256 .f32) (v89 : Vec Ideal S1x256 .f32) (p : Fin 512) (q : Fin 256) :
    k2_pay4 v88 v89 (ix2 p q) = v88 (ix2 p q) + v89 (ix2 (0 : Fin 1) q) := by
  unfold k2_pay4
  try dsimp only
  rw [addf_apply, broadcastTo_1b_ab_apply, shapeCast_self]

/-- s(p, d) = ((∑ e, (acc(p, e) / l(p))·gate_i(p, e)·Wout(d, e)) + bout(d))·support_i(p, d). -/
theorem k2_pay5_apply (v56 : Vec Ideal S512x768 .f32) (v57 : Vec Ideal S512x1 .f32) (v60 : Vec Ideal S512x768 .f32)
    (v64 : Vec Ideal S768x768 .bf16) (v68 : Vec Ideal S1x768 .f32) (v72 : Vec Ideal S512x768 .f32) (p : Fin 512) (d : Fin 768) :
    k2_pay5 v56 v57 v60 v64 v68 v72 (ix2 p d)
      = ((∑ e : Fin 768, (Ideal.div (v56 (ix2 p e)) (v57 (ix2 p (0 : Fin 1))) * v60 (ix2 p e)) * v64 (ix2 d e)) + v68 (ix2 (0 : Fin 1) d))
        * v72 (ix2 p d) := by
  unfold k2_pay5
  try dsimp only
  rw [shapeCast_self, shapeCast_self, shapeCast_self, mulf_apply, addf_apply, broadcastTo_1b_ab_apply]
  refine congrArg (fun s => (s + v68 (ix2 (0 : Fin 1) d)) * v72 (ix2 p d)) ?_
  refine (Ideal.matmul_constant_zero_apply dot_S512x768_S768x768_S512x768_1_0_0_1_n_n none _ _ (ix2 p d)).trans ?_
  rw [← Equiv.sum_comp (contrEquiv1 dot_S512x768_S768x768_S512x768_1_0_0_1_n_n 768 rfl rfl).symm]
  refine Finset.sum_congr rfl fun k _ => ?_
  have hk := contrEquiv1_symm_val dot_S512x768_S768x768_S512x768_1_0_0_1_n_n 768 rfl rfl k
  have el : dot_S512x768_S768x768_S512x768_1_0_0_1_n_n.lhsIdx (ix2 p d) ((contrEquiv1 dot_S512x768_S768x768_S512x768_1_0_0_1_n_n 768 rfl rfl).symm k) = ix2 p k := funext fun a => Fin.ext (by
    match a with
    | ⟨0, _⟩ => exact lhs_proj2_0 _ _
    | ⟨1, _⟩ => exact (lhs_proj2_1 _ _).trans hk)
  have er : dot_S512x768_S768x768_S512x768_1_0_0_1_n_n.rhsIdx (ix2 p d) ((contrEquiv1 dot_S512x768_S768x768_S512x768_1_0_0_1_n_n 768 rfl rfl).symm k) = ix2 k d := funext fun a => Fin.ext (by
    match a with
    | ⟨0, _⟩ => exact (rhs_proj2_0 _ _).trans hk
    | ⟨1, _⟩ => exact rhs_proj2_1 _ _)
  rw [el, er]
  rw [truncf_apply, mulf_apply, divf_apply, broadcastTo_a1_ab_apply, transpose_ix2_apply]

/-- K(p, q) = (∑ d, s(p, d)·Wk(q, d)) + bk(q). -/
theorem k2_pay6_apply (v56 : Vec Ideal S512x768 .f32) (v57 : Vec Ideal S512x1 .f32) (v60 : Vec Ideal S512x768 .f32)
    (v64 : Vec Ideal S768x768 .bf16) (v68 : Vec Ideal S1x768 .f32) (v72 : Vec Ideal S512x768 .f32)
    (v75 : Vec Ideal S256x768 .bf16) (v79 : Vec Ideal S1x256 .f32) (p : Fin 512) (q : Fin 256) :
    k2_pay6 v56 v57 v60 v64 v68 v72 v75 v79 (ix2 p q)
      = (∑ d : Fin 768, k2_pay5 v56 v57 v60 v64 v68 v72 (ix2 p d) * v75 (ix2 q d)) + v79 (ix2 (0 : Fin 1) q) := by
  unfold k2_pay6
  try dsimp only
  rw [shapeCast_self, shapeCast_self, addf_apply, broadcastTo_1b_ab_apply]
  refine congrArg (· + v79 (ix2 (0 : Fin 1) q)) ?_
  refine (Ideal.matmul_constant_zero_apply dot_S512x768_S768x256_S512x256_1_0_0_1_n_n none _ _ (ix2 p q)).trans ?_
  rw [← Equiv.sum_comp (contrEquiv1 dot_S512x768_S768x256_S512x256_1_0_0_1_n_n 768 rfl rfl).symm]
  refine Finset.sum_congr rfl fun k _ => ?_
  have hk := contrEquiv1_symm_val dot_S512x768_S768x256_S512x256_1_0_0_1_n_n 768 rfl rfl k
  have el : dot_S512x768_S768x256_S512x256_1_0_0_1_n_n.lhsIdx (ix2 p q) ((contrEquiv1 dot_S512x768_S768x256_S512x256_1_0_0_1_n_n 768 rfl rfl).symm k) = ix2 p k := funext fun a => Fin.ext (by
    match a with
    | ⟨0, _⟩ => exact lhs_kv2_0 _ _
    | ⟨1, _⟩ => exact (lhs_kv2_1 _ _).trans hk)
  have er : dot_S512x768_S768x256_S512x256_1_0_0_1_n_n.rhsIdx (ix2 p q) ((contrEquiv1 dot_S512x768_S768x256_S512x256_1_0_0_1_n_n 768 rfl rfl).symm k) = ix2 k q := funext fun a => Fin.ext (by
    match a with
    | ⟨0, _⟩ => exact (rhs_kv2_0 _ _).trans hk
    | ⟨1, _⟩ => exact rhs_kv2_1 _ _)
  rw [el, er]
  rw [truncf_apply, transpose_ix2_apply]

/-- V before its bias: (p, q) ↦ ∑ d, s(p, d)·Wv(q, d). -/
theorem k2_pay7_apply (v56 : Vec Ideal S512x768 .f32) (v57 : Vec Ideal S512x1 .f32) (v60 : Vec Ideal S512x768 .f32)
    (v64 : Vec Ideal S768x768 .bf16) (v68 : Vec Ideal S1x768 .f32) (v72 : Vec Ideal S512x768 .f32)
    (v85 : Vec Ideal S256x768 .bf16) (p : Fin 512) (q : Fin 256) :
    k2_pay7 v56 v57 v60 v64 v68 v72 v85 (ix2 p q) = ∑ d : Fin 768, k2_pay5 v56 v57 v60 v64 v68 v72 (ix2 p d) * v85 (ix2 q d) := by
  unfold k2_pay7
  try dsimp only
  rw [shapeCast_self]
  refine (Ideal.matmul_constant_zero_apply dot_S512x768_S768x256_S512x256_1_0_0_1_n_n none _ _ (ix2 p q)).trans ?_
  rw [← Equiv.sum_comp (contrEquiv1 dot_S512x768_S768x256_S512x256_1_0_0_1_n_n 768 rfl rfl).symm]
  refine Finset.sum_congr rfl fun k _ => ?_
  have hk := contrEquiv1_symm_val dot_S512x768_S768x256_S512x256_1_0_0_1_n_n 768 rfl rfl k
  have el : dot_S512x768_S768x256_S512x256_1_0_0_1_n_n.lhsIdx (ix2 p q) ((contrEquiv1 dot_S512x768_S768x256_S512x256_1_0_0_1_n_n 768 rfl rfl).symm k) = ix2 p k := funext fun a => Fin.ext (by
    match a with
    | ⟨0, _⟩ => exact lhs_kv2_0 _ _
    | ⟨1, _⟩ => exact (lhs_kv2_1 _ _).trans hk)
  have er : dot_S512x768_S768x256_S512x256_1_0_0_1_n_n.rhsIdx (ix2 p q) ((contrEquiv1 dot_S512x768_S768x256_S512x256_1_0_0_1_n_n 768 rfl rfl).symm k) = ix2 k q := funext fun a => Fin.ext (by
    match a with
    | ⟨0, _⟩ => exact (rhs_kv2_0 _ _).trans hk
    | ⟨1, _⟩ => exact rhs_kv2_1 _ _)
  rw [el, er]
  rw [truncf_apply, transpose_ix2_apply]

/-! ## One tile of keys, in the terms of online softmax pooling

Row p of the scratch before a tile holds, under the running shift m_prev(p), the normaliser (weights 1) and column d of
the accumulator (weights g·v) over the keys seen so far; the tile's 512 raw scores σ and weights ω being real, the
payloads leave the same sums extended by the tile's keys, under the new shift m_new(p), which is real. -/

open OnlineSoftmax in
theorem tile_step (v3 v4 : Vec Ideal S512x768 .f32) (v7 v10 : Vec Ideal S512x200 .f32) (v42 v39 : Vec Ideal S512x768 .f32)
    (v20 v29 : Vec Ideal S512x1 .f32) (p : Fin 512) (d : Fin 768) (σ ω : Fin 512 → ℝ) (L A : ℝ)
    (hσ : ∀ j : Fin 512, k2_pay11 v3 v4 (ix2 p j) = (σ j : EReal))
    (hω : ∀ j : Fin 512, k2_pay12 v7 v10 (ix2 p j) * v42 (ix2 j d) = (ω j : EReal))
    (hl : Tracks (v20 (ix2 p (0 : Fin 1))) (v29 (ix2 p (0 : Fin 1))) L)
    (ha : Tracks (v20 (ix2 p (0 : Fin 1))) (v39 (ix2 p d)) A) :
    ∃ μ' : ℝ, k2_pay13 v3 v4 v20 (ix2 p (0 : Fin 1)) = (μ' : EReal)
      ∧ Tracks (μ' : EReal) (k2_pay16 v3 v4 v20 v29 (ix2 p (0 : Fin 1))) (L + ∑ j : Fin 512, Real.exp (σ j))
      ∧ Tracks (μ' : EReal) (k2_pay2 (k2_pay12 v7 v10) (k2_pay14 v3 v4 v20) (k2_pay15 v3 v4 v20) v39 v42 (ix2 p d))
          (A + ∑ j : Fin 512, Real.exp (σ j) * ω j) := by
  obtain ⟨μ', hμ'⟩ := max_fold_real hl.shift σ
  have hraw : (fun j : Fin 512 => k2_pay11 v3 v4 (ix2 p j)) = fun j => (σ j : EReal) := funext hσ
  have h13 : k2_pay13 v3 v4 v20 (ix2 p (0 : Fin 1)) = (μ' : EReal) := by
    rw [k2_pay13_apply, hraw]; exact hμ'
  refine ⟨μ', h13, ?_, ?_⟩
  · have e : k2_pay16 v3 v4 v20 v29 (ix2 p (0 : Fin 1))
        = Ideal.exp (v20 (ix2 p (0 : Fin 1)) - (μ' : EReal)) * v29 (ix2 p (0 : Fin 1))
          + ∑ r : Fin 512, Ideal.exp ((σ r : EReal) - (μ' : EReal)) := by
      rw [k2_pay16_apply, k2_pay14_apply, h13]
      refine congrArg (Ideal.exp (v20 (ix2 p (0 : Fin 1)) - (μ' : EReal)) * v29 (ix2 p (0 : Fin 1)) + ·) (Finset.sum_congr rfl fun r _ => ?_)
      rw [k2_pay15_apply, h13, hσ]
    rw [e]
    exact hl.step_one μ' σ
  · have e : k2_pay2 (k2_pay12 v7 v10) (k2_pay14 v3 v4 v20) (k2_pay15 v3 v4 v20) v39 v42 (ix2 p d)
        = Ideal.exp (v20 (ix2 p (0 : Fin 1)) - (μ' : EReal)) * v39 (ix2 p d)
          + ∑ r : Fin 512, Ideal.exp ((σ r : EReal) - (μ' : EReal)) * (ω r : EReal) := by
      rw [k2_pay2_apply, k2_pay14_apply, h13]
      refine congrArg (Ideal.exp (v20 (ix2 p (0 : Fin 1)) - (μ' : EReal)) * v39 (ix2 p d) + ·) (Finset.sum_congr rfl fun r _ => ?_)
      rw [k2_pay15_apply, h13, hσ, mul_assoc, hω]
    rw [e]
    exact ha.step μ' σ ω

end Cert.KernelIdeal.HandValue

end
-- ==== Proof.SpecReal.lean ====
/-
  Realness of the specification's stages.

  An extended real is a real number when it is neither infinity. Sums, differences, products and maxima of real
  numbers are real; so are the exponential and the logistic function of a real number, and the quotient of a real
  number by a nonzero real number. Every stage of the specification is built from these, its only divisors being the
  two literal constants (14529495/524288 and 16, both nonzero) and the sum of a softmax row's exponentials (positive,
  the row being nonempty). So: if the arrays a stage reads hold real numbers only, the stage holds real numbers only.
-/
import proofs.«170994_j15857019257044_2_alg».proof.Proof.Spec

noncomputable section

open scoped BigOperators

namespace Cert.Spec

open Idealize.ShloMosaic Idealize.ShloMosaic.ValueIdx

/-! ## Real numbers among the extended reals -/

/-- The extended real x is a real number. -/
def RealVal (x : EReal) : Prop := ∃ r : ℝ, x = (r : EReal)

/-- Every entry is a real number. -/
def IsReal {ι : Type} (x : ι → EReal) : Prop := ∀ i, ∃ r : ℝ, x i = (r : EReal)

theorem IsReal.at {ι : Type} {x : ι → EReal} (h : IsReal x) (i : ι) : RealVal (x i) := h i

/-- A matrix given entry by entry is real when each entry is. -/
theorem isReal_mat {n m : Nat} {f : Fin n → Fin m → EReal} (h : ∀ a b, RealVal (f a b)) : IsReal (mat f) :=
  fun i => h (i 0) (i 1)

namespace RealVal

theorem coe (r : ℝ) : RealVal (r : EReal) := ⟨r, rfl⟩

theorem zero : RealVal 0 := ⟨0, rfl⟩

theorem one : RealVal 1 := ⟨1, rfl⟩

theorem add {x y : EReal} (hx : RealVal x) (hy : RealVal y) : RealVal (x + y) := by
  obtain ⟨a, rfl⟩ := hx; obtain ⟨b, rfl⟩ := hy; exact ⟨a + b, (EReal.coe_add a b).symm⟩

theorem sub {x y : EReal} (hx : RealVal x) (hy : RealVal y) : RealVal (x - y) := by
  obtain ⟨a, rfl⟩ := hx; obtain ⟨b, rfl⟩ := hy; exact ⟨a - b, (EReal.coe_sub a b).symm⟩

theorem mul {x y : EReal} (hx : RealVal x) (hy : RealVal y) : RealVal (x * y) := by
  obtain ⟨a, rfl⟩ := hx; obtain ⟨b, rfl⟩ := hy; exact ⟨a * b, (EReal.coe_mul a b).symm⟩

theorem max {x y : EReal} (hx : RealVal x) (hy : RealVal y) : RealVal (max x y) := by
  obtain ⟨a, rfl⟩ := hx; obtain ⟨b, rfl⟩ := hy
  exact ⟨Max.max a b, (EReal.coe_strictMono.monotone.map_max).symm⟩

/-- A finite sum of real numbers is a real number. -/
theorem sum {ι : Type*} (s : Finset ι) {f : ι → EReal} (h : ∀ i ∈ s, RealVal (f i)) : RealVal (∑ i ∈ s, f i) := by
  classical
  induction s using Finset.induction_on with
  | empty => simpa using zero
  | insert a s ha ih =>
    rw [Finset.sum_insert ha]
    exact add (h a (Finset.mem_insert_self a s)) (ih fun i hi => h i (Finset.mem_insert_of_mem hi))

/-- The supremum of a nonempty finite family of real numbers is one of them. -/
theorem sup {ι : Type*} {s : Finset ι} (hs : s.Nonempty) {f : ι → EReal} (h : ∀ i ∈ s, RealVal (f i)) :
    RealVal (s.sup f) := by
  obtain ⟨i, hi, e⟩ := Finset.exists_mem_eq_sup s hs f
  rw [e]; exact h i hi

theorem exp {x : EReal} (hx : RealVal x) : RealVal (Ideal.exp x) := by
  obtain ⟨a, rfl⟩ := hx; exact ⟨Real.exp a, Ideal.exp_coe a⟩

theorem logistic {x : EReal} (hx : RealVal x) : RealVal (Ideal.logistic x) := by
  obtain ⟨a, rfl⟩ := hx; exact ⟨_, Ideal.logistic_coe a⟩

theorem silu {x : EReal} (hx : RealVal x) : RealVal (silu x) := mul hx (logistic hx)

/-- The quotient of a real number by a nonzero real number is a real number. -/
theorem div {x y : EReal} (hx : RealVal x) {b : ℝ} (hy : y = (b : EReal)) (hb : b ≠ 0) : RealVal (Ideal.div x y) := by
  obtain ⟨a, rfl⟩ := hx
  subst hy
  rw [Ideal.div_coe hb, ← EReal.coe_mul]
  exact ⟨_, rfl⟩

end RealVal

/-! ## The two divisor constants -/

/-- The divisor of the similarity is the real number 14529495/524288 = 14529495 · 2⁻¹⁹. -/
theorem D_eq : D = ((14529495 / 524288 : ℝ) : EReal) := by
  simp [D, Ideal.ofBits, Ideal.ieee, -EReal.coe_mul]; norm_num

/-- The divisor of the last attention's logits is the real number 16. -/
theorem c16_eq : c16 = ((16 : ℝ) : EReal) := by
  simp [c16, Ideal.ofBits, Ideal.ieee, -EReal.coe_mul]; norm_num

/-! ## The generic stages -/

theorem lin_real {n k m : Nat} {x : Mat n k} {W : Mat m k} {b : Vct m} (hx : IsReal x) (hW : IsReal W)
    (hb : IsReal b) : IsReal (lin x W b) :=
  isReal_mat fun a j => (RealVal.sum _ fun c _ => (hx.at _).mul (hW.at _)).add (hb.at _)

theorem gram_real {n k m : Nat} {x : Mat n k} {y : Mat m k} (hx : IsReal x) (hy : IsReal y) : IsReal (gram x y) :=
  isReal_mat fun a b => RealVal.sum _ fun c _ => (hx.at _).mul (hy.at _)

theorem mm_real {n k m : Nat} {x : Mat n k} {y : Mat k m} (hx : IsReal x) (hy : IsReal y) : IsReal (mm x y) :=
  isReal_mat fun a b => RealVal.sum _ fun c _ => (hx.at _).mul (hy.at _)

/-- The maximum of a nonempty row of real numbers is a real number. -/
theorem rowMax_real {n m : Nat} [NeZero m] {s : Mat n m} (hs : IsReal s) (a : Fin n) : RealVal (rowMax s a) :=
  RealVal.sup Finset.univ_nonempty fun k _ => hs.at _

/-- The softmax of a nonempty row of real numbers: each exponential is a positive real number, so their sum is a
    positive real number, and each quotient is a real number. -/
theorem softmaxRow_real {n m : Nat} [NeZero m] {s : Mat n m} (hs : IsReal s) : IsReal (softmaxRow s) := by
  refine isReal_mat fun a j => ?_
  obtain ⟨μ, hμ⟩ := rowMax_real hs a
  choose σ hσ using fun k : Fin m => hs (ix2 a k)
  have hexp : ∀ k : Fin m, Ideal.exp (s (ix2 a k) - rowMax s a) = ((Real.exp (σ k - μ) : ℝ) : EReal) := fun k => by
    rw [hσ k, hμ, ← EReal.coe_sub, Ideal.exp_coe]
  have hsum : (∑ k : Fin m, Ideal.exp (s (ix2 a k) - rowMax s a)) = ((∑ k : Fin m, Real.exp (σ k - μ) : ℝ) : EReal) := by
    rw [Finset.sum_congr rfl fun k _ => hexp k]
    classical
    refine Finset.induction_on (Finset.univ : Finset (Fin m)) (by simp) fun k t hk ih => ?_
    rw [Finset.sum_insert hk, Finset.sum_insert hk, EReal.coe_add, ih]
  have hpos : (0 : ℝ) < ∑ k : Fin m, Real.exp (σ k - μ) :=
    Finset.sum_pos (fun k _ => Real.exp_pos _) Finset.univ_nonempty
  exact RealVal.div ⟨_, hexp j⟩ hsum hpos.ne'

/-! ## The stages of this program -/

theorem Q_real {node : Mat 4096 256} {Wq : Mat 256 256} {bq : Vct 256} (hnode : IsReal node) (hWq : IsReal Wq)
    (hbq : IsReal bq) : IsReal (Q node Wq bq) :=
  lin_real hnode hWq hbq

theorem hid_real {support : Mat 4096 768} {Wh : Mat 1536 768} {bh : Vct 1536} (hsupport : IsReal support)
    (hWh : IsReal Wh) (hbh : IsReal bh) : IsReal (hid support Wh bh) :=
  isReal_mat fun _ _ => ((lin_real hsupport hWh hbh).at _).silu

theorem vv_real {h : Mat 4096 1536} (hh : IsReal h) : IsReal (vv h) :=
  isReal_mat fun _ _ => hh.at _

theorem gate_real {h : Mat 4096 1536} (hh : IsReal h) : IsReal (gate h) :=
  isReal_mat fun _ _ => hh.at _

theorem qk_real {support : Mat 4096 768} {Wqk : Mat 200 768} {bqk : Vct 200} (hsupport : IsReal support)
    (hWqk : IsReal Wqk) (hbqk : IsReal bqk) : IsReal (qk support Wqk bqk) :=
  isReal_mat fun _ _ => ((lin_real hsupport hWqk hbqk).at _).silu

theorem qq_real {qk : Mat 4096 200} {gamma beta : Mat 2 200} (hqk : IsReal qk) (hgamma : IsReal gamma)
    (hbeta : IsReal beta) : IsReal (qq qk gamma beta) :=
  isReal_mat fun _ _ => ((hqk.at _).mul (hgamma.at _)).add (hbeta.at _)

theorem kq_real {qk : Mat 4096 200} {gamma beta : Mat 2 200} (hqk : IsReal qk) (hgamma : IsReal gamma)
    (hbeta : IsReal beta) : IsReal (kq qk gamma beta) :=
  isReal_mat fun _ _ => ((hqk.at _).mul (hgamma.at _)).add (hbeta.at _)

theorem mask_real {support : Mat 4096 768} (hsupport : IsReal support) : IsReal (mask support) :=
  softmaxRow_real (gram_real hsupport hsupport)

theorem sim_real {qq kq : Mat 4096 200} (hqq : IsReal qq) (hkq : IsReal kq) : IsReal (sim qq kq) :=
  isReal_mat fun _ _ => ((gram_real hqq hkq).at _).div D_eq (by norm_num)

theorem attn_real {sim mask : Mat 4096 4096} (hsim : IsReal sim) (hmask : IsReal mask) : IsReal (attn sim mask) :=
  isReal_mat fun _ _ => ((((hsim.at _).max RealVal.zero).mul ((hsim.at _).max RealVal.zero))).mul (hmask.at _)

theorem gated_real {attn : Mat 4096 4096} {vv gate : Mat 4096 768} (hattn : IsReal attn) (hvv : IsReal vv)
    (hgate : IsReal gate) : IsReal (gated attn vv gate) :=
  isReal_mat fun _ _ => ((mm_real hattn hvv).at _).mul (hgate.at _)

theorem gau_real {gated : Mat 4096 768} {Wout : Mat 768 768} {bout : Vct 768} {support : Mat 4096 768}
    (hgated : IsReal gated) (hWout : IsReal Wout) (hbout : IsReal bout) (hsupport : IsReal support) :
    IsReal (gau gated Wout bout support) :=
  isReal_mat fun _ _ => ((lin_real hgated hWout hbout).at _).mul (hsupport.at _)

theorem Kf_real {gau : Mat 4096 768} {Wk : Mat 256 768} {bk : Vct 256} (hgau : IsReal gau) (hWk : IsReal Wk)
    (hbk : IsReal bk) : IsReal (Kf gau Wk bk) :=
  lin_real hgau hWk hbk

theorem Vf_real {gau : Mat 4096 768} {Wv : Mat 256 768} {bv : Vct 256} (hgau : IsReal gau) (hWv : IsReal Wv)
    (hbv : IsReal bv) : IsReal (Vf gau Wv bv) :=
  lin_real hgau hWv hbv

theorem graphAtt_real {X Q : Mat 4096 256} (hX : IsReal X) (hQ : IsReal Q) : IsReal (graphAtt X Q) :=
  isReal_mat fun _ _ =>
    (hQ.at _).add (((mm_real (softmaxRow_real (gram_real hX hX)) hQ).at _).max RealVal.zero)

theorem B_real {X Q : Mat 4096 256} (hX : IsReal X) (hQ : IsReal Q) : IsReal (B X Q) :=
  isReal_mat fun _ _ => ((hX.at _).mul ((graphAtt_real hX hQ).at _)).mul (hQ.at _)

theorem gt_real {B1 : Mat 4096 256} {Wg : Mat 256 256} {bg : Vct 256} (hB1 : IsReal B1) (hWg : IsReal Wg)
    (hbg : IsReal bg) : IsReal (gt B1 Wg bg) :=
  isReal_mat fun _ _ => ((lin_real hB1 hWg hbg).at _).logistic

theorem gq_real {gt Kf : Mat 4096 256} (hgt : IsReal gt) (hKf : IsReal Kf) : IsReal (gq gt Kf) :=
  isReal_mat fun _ _ => (hgt.at _).mul (hKf.at _)

theorem gk_real {gt Q : Mat 4096 256} (hgt : IsReal gt) (hQ : IsReal Q) : IsReal (gk gt Q) :=
  isReal_mat fun _ _ => (RealVal.one.sub (hgt.at _)).mul (hQ.at _)

theorem Gs_real {gt Kf Q : Mat 4096 256} (hgt : IsReal gt) (hKf : IsReal Kf) (hQ : IsReal Q) : IsReal (Gs gt Kf Q) :=
  softmaxRow_real (isReal_mat fun _ _ =>
    ((gram_real (gq_real hgt hKf) (gk_real hgt hQ)).at _).div c16_eq (by norm_num))

theorem out_real {B1 : Mat 4096 256} {Gs : Mat 4096 4096} {B2 : Mat 4096 256} (hB1 : IsReal B1) (hGs : IsReal Gs)
    (hB2 : IsReal B2) : IsReal (out B1 Gs B2) :=
  isReal_mat fun _ _ => (((hB1.at _).mul (hB1.at _)).mul ((mm_real hGs hB2).at _)).logistic

/-! ## The stages composed from the argument arrays -/

namespace Chain

variable {node : Mat 4096 256} {support : Mat 4096 768} {Wq : Mat 256 256} {bq : Vct 256} {Wk : Mat 256 768}
  {bk : Vct 256} {Wv : Mat 256 768} {bv : Vct 256} {Wg : Mat 256 256} {bg : Vct 256} {Wh : Mat 1536 768}
  {bh : Vct 1536} {Wqk : Mat 200 768} {bqk : Vct 200} {gamma beta : Mat 2 200} {Wout : Mat 768 768} {bout : Vct 768}

theorem attn_real (hsupport : IsReal support) (hWqk : IsReal Wqk) (hbqk : IsReal bqk) (hgamma : IsReal gamma)
    (hbeta : IsReal beta) : IsReal (Chain.attn support Wqk bqk gamma beta) :=
  Spec.attn_real
    (Spec.sim_real (Spec.qq_real (Spec.qk_real hsupport hWqk hbqk) hgamma hbeta)
      (Spec.kq_real (Spec.qk_real hsupport hWqk hbqk) hgamma hbeta))
    (Spec.mask_real hsupport)

theorem gau_real (hsupport : IsReal support) (hWh : IsReal Wh) (hbh : IsReal bh) (hWqk : IsReal Wqk)
    (hbqk : IsReal bqk) (hgamma : IsReal gamma) (hbeta : IsReal beta) (hWout : IsReal Wout) (hbout : IsReal bout) :
    IsReal (Chain.gau support Wh bh Wqk bqk gamma beta Wout bout) :=
  Spec.gau_real
    (Spec.gated_real (attn_real hsupport hWqk hbqk hgamma hbeta) (Spec.vv_real (Spec.hid_real hsupport hWh hbh))
      (Spec.gate_real (Spec.hid_real hsupport hWh hbh)))
    hWout hbout hsupport

theorem Kf_real (hsupport : IsReal support) (hWk : IsReal Wk) (hbk : IsReal bk) (hWh : IsReal Wh) (hbh : IsReal bh)
    (hWqk : IsReal Wqk) (hbqk : IsReal bqk) (hgamma : IsReal gamma) (hbeta : IsReal beta) (hWout : IsReal Wout)
    (hbout : IsReal bout) : IsReal (Chain.Kf support Wk bk Wh bh Wqk bqk gamma beta Wout bout) :=
  Spec.Kf_real (gau_real hsupport hWh hbh hWqk hbqk hgamma hbeta hWout hbout) hWk hbk

theorem Vf_real (hsupport : IsReal support) (hWv : IsReal Wv) (hbv : IsReal bv) (hWh : IsReal Wh) (hbh : IsReal bh)
    (hWqk : IsReal Wqk) (hbqk : IsReal bqk) (hgamma : IsReal gamma) (hbeta : IsReal beta) (hWout : IsReal Wout)
    (hbout : IsReal bout) : IsReal (Chain.Vf support Wv bv Wh bh Wqk bqk gamma beta Wout bout) :=
  Spec.Vf_real (gau_real hsupport hWh hbh hWqk hbqk hgamma hbeta hWout hbout) hWv hbv

theorem B1_real (hnode : IsReal node) (hsupport : IsReal support) (hWq : IsReal Wq) (hbq : IsReal bq)
    (hWk : IsReal Wk) (hbk : IsReal bk) (hWh : IsReal Wh) (hbh : IsReal bh) (hWqk : IsReal Wqk) (hbqk : IsReal bqk)
    (hgamma : IsReal gamma) (hbeta : IsReal beta) (hWout : IsReal Wout) (hbout : IsReal bout) :
    IsReal (Chain.B1 node support Wq bq Wk bk Wh bh Wqk bqk gamma beta Wout bout) :=
  Spec.B_real (Kf_real hsupport hWk hbk hWh hbh hWqk hbqk hgamma hbeta hWout hbout) (Spec.Q_real hnode hWq hbq)

theorem B2_real (hnode : IsReal node) (hsupport : IsReal support) (hWq : IsReal Wq) (hbq : IsReal bq)
    (hWv : IsReal Wv) (hbv : IsReal bv) (hWh : IsReal Wh) (hbh : IsReal bh) (hWqk : IsReal Wqk) (hbqk : IsReal bqk)
    (hgamma : IsReal gamma) (hbeta : IsReal beta) (hWout : IsReal Wout) (hbout : IsReal bout) :
    IsReal (Chain.B2 node support Wq bq Wv bv Wh bh Wqk bqk gamma beta Wout bout) :=
  Spec.B_real (Vf_real hsupport hWv hbv hWh hbh hWqk hbqk hgamma hbeta hWout hbout) (Spec.Q_real hnode hWq hbq)

theorem gt_real (hnode : IsReal node) (hsupport : IsReal support) (hWq : IsReal Wq) (hbq : IsReal bq)
    (hWk : IsReal Wk) (hbk : IsReal bk) (hWg : IsReal Wg) (hbg : IsReal bg) (hWh : IsReal Wh) (hbh : IsReal bh)
    (hWqk : IsReal Wqk) (hbqk : IsReal bqk) (hgamma : IsReal gamma) (hbeta : IsReal beta) (hWout : IsReal Wout)
    (hbout : IsReal bout) : IsReal (Chain.gt node support Wq bq Wk bk Wg bg Wh bh Wqk bqk gamma beta Wout bout) :=
  Spec.gt_real (B1_real hnode hsupport hWq hbq hWk hbk hWh hbh hWqk hbqk hgamma hbeta hWout hbout) hWg hbg

theorem out_real (hnode : IsReal node) (hsupport : IsReal support) (hWq : IsReal Wq) (hbq : IsReal bq)
    (hWk : IsReal Wk) (hbk : IsReal bk) (hWv : IsReal Wv) (hbv : IsReal bv) (hWg : IsReal Wg) (hbg : IsReal bg)
    (hWh : IsReal Wh) (hbh : IsReal bh) (hWqk : IsReal Wqk) (hbqk : IsReal bqk) (hgamma : IsReal gamma)
    (hbeta : IsReal beta) (hWout : IsReal Wout) (hbout : IsReal bout) :
    IsReal (Chain.out node support Wq bq Wk bk Wv bv Wg bg Wh bh Wqk bqk gamma beta Wout bout) :=
  Spec.out_real (B1_real hnode hsupport hWq hbq hWk hbk hWh hbh hWqk hbqk hgamma hbeta hWout hbout)
    (Spec.Gs_real (gt_real hnode hsupport hWq hbq hWk hbk hWg hbg hWh hbh hWqk hbqk hgamma hbeta hWout hbout)
      (Kf_real hsupport hWk hbk hWh hbh hWqk hbqk hgamma hbeta hWout hbout) (Spec.Q_real hnode hWq hbq))
    (B2_real hnode hsupport hWq hbq hWv hbv hWh hbh hWqk hbqk hgamma hbeta hWout hbout)

end Chain

end Cert.Spec

end
-- ==== Proof.KI.Value2Close.lean ====
import proofs.«170994_j15857019257044_2_alg».proof.Proof.KI.Value2Pay
import proofs.«170994_j15857019257044_2_alg».proof.Proof.SpecReal

set_option maxRecDepth 16384

noncomputable section

open scoped BigOperators

namespace Cert.KernelIdeal.HandValue

open Cert.KernelIdeal Cert.KernelIdeal.Gen
open Idealize.ShloMosaic Idealize.ShloMosaic.ValueIdx

/-! ## Real inputs give real scores and real weights -/

/-- A sum of products of real numbers, in the extended reals, is the real sum of products. -/
theorem sum_mul_coe {n : ℕ} (a b : Fin n → ℝ) : ∑ c : Fin n, (a c : EReal) * (b c : EReal) = ((∑ c : Fin n, a c * b c : ℝ) : EReal) := by
  rw [OnlineSoftmax.coe_sum]
  exact Finset.sum_congr rfl fun c _ => (EReal.coe_mul _ _).symm

/-- The raw score of real rows is real. -/
theorem k2_pay11_real (v3 v4 : Vec Ideal S512x768 .f32) (p j : Fin 512) (a b : Fin 768 → ℝ)
    (ha : ∀ c, v3 (ix2 p c) = (a c : EReal)) (hb : ∀ c, v4 (ix2 j c) = (b c : EReal)) :
    k2_pay11 v3 v4 (ix2 p j) = ((∑ c : Fin 768, a c * b c : ℝ) : EReal) := by
  rw [k2_pay11_apply, ← sum_mul_coe]
  exact Finset.sum_congr rfl fun c _ => by rw [ha, hb]

/-- The squared rectified similarity of real rows is real. -/
theorem k2_pay12_real (v7 v10 : Vec Ideal S512x200 .f32) (p j : Fin 512) (a b : Fin 200 → ℝ)
    (ha : ∀ c, v7 (ix2 p c) = (a c : EReal)) (hb : ∀ c, v10 (ix2 j c) = (b c : EReal)) :
    k2_pay12 v7 v10 (ix2 p j)
      = ((max ((∑ c : Fin 200, a c * b c) * (524288 / 14529495)) 0 * max ((∑ c : Fin 200, a c * b c) * (524288 / 14529495)) 0 : ℝ) : EReal) := by
  have hs : ∑ c : Fin 200, v7 (ix2 p c) * v10 (ix2 j c) = ((∑ c : Fin 200, a c * b c : ℝ) : EReal) := by
    rw [← sum_mul_coe]
    exact Finset.sum_congr rfl fun c _ => by rw [ha, hb]
  rw [k2_pay12_apply, hs, ← EReal.coe_mul, ← EReal.coe_zero, ← (EReal.coe_strictMono.monotone.map_max), ← EReal.coe_mul]

/-- The same in the reference's spelling: the product with the named scale is the quotient by the divisor D (the
    reciprocal of 14529495/524288 is 524288/14529495), on every extended real. -/
theorem k2_pay12_spec (v7 v10 : Vec Ideal S512x200 .f32) (p j : Fin 512) :
    k2_pay12 v7 v10 (ix2 p j)
      = max (Ideal.div (∑ c : Fin 200, v7 (ix2 p c) * v10 (ix2 j c)) Spec.D) 0
        * max (Ideal.div (∑ c : Fin 200, v7 (ix2 p c) * v10 (ix2 j c)) Spec.D) 0 := by
  have hinv : (1 / (14529495 / 524288) : ℝ) = 524288 / 14529495 := by norm_num
  rw [k2_pay12_apply, Spec.D_eq, Ideal.div_coe (by norm_num : (14529495 / 524288 : ℝ) ≠ 0), hinv]

/-! # Region 2, the closing algebra: from the totals the scratch tracks to the entries of K and V

For a row R of the 4096 nodes: after the eight key tiles the normaliser holds, under the last (real) shift, the sum over
all keys j of e^{σ_j}, σ_j the raw score of (R, j), and column e of the accumulator the sum of e^{σ_j}·γ_j·ν_j(e), γ_j
the squared rectified similarity and ν_j(e) the value entry. Their quotient is the softmax-weighted sum
∑_j (γ_j·softmax(σ)_j)·ν_j(e), which is the attention entry; the finalisation multiplies by the gate, projects, multiplies
by support and applies the two linear layers. -/

namespace V2

open OnlineSoftmax Cert.Spec

/-- Key r of tile t among the 4096 keys. -/
def key (t : Fin 8) (r : Fin 512) : Fin 4096 := ⟨512 * t.val + r.val, by have := t.isLt; have := r.isLt; omega⟩

/-- A sum over the 4096 keys is the sum over the 8 tiles of the sums over their 512 keys. -/
theorem sum_tiles {M : Type*} [AddCommMonoid M] (f : Fin 4096 → M) :
    ∑ j : Fin 4096, f j = ∑ t : Fin 8, ∑ r : Fin 512, f (key t r) := by
  have h : ∑ j : Fin (8 * 512), (f : Fin (8 * 512) → M) j = ∑ x : Fin 8 × Fin 512, (f : Fin (8 * 512) → M) (finProdFinEquiv x) :=
    (Equiv.sum_comp (finProdFinEquiv (m := 8) (n := 512)) (f : Fin (8 * 512) → M)).symm
  rw [Fintype.sum_prod_type] at h
  refine h.trans (Finset.sum_congr rfl fun t _ => Finset.sum_congr rfl fun r _ => congrArg f (Fin.ext ?_))
  show r.val + 512 * t.val = 512 * t.val + r.val
  omega

/-- The attention entry: row R of (relu(sim)²·softmax of the raw scores) against column e of the values, times the
    gate, is the quotient of the two real totals times the gate. -/
theorem gated_entry (support : Mat 4096 768) (qq kq : Mat 4096 200) (vv gate : Mat 4096 768) (R : Fin 4096) (e : Fin 768)
    (σ γ ν : Fin 4096 → ℝ)
    (hσ : ∀ j, gram support support (ix2 R j) = (σ j : EReal))
    (hγ : ∀ j, max (sim qq kq (ix2 R j)) 0 * max (sim qq kq (ix2 R j)) 0 = (γ j : EReal))
    (hν : ∀ j, vv (ix2 j e) = (ν j : EReal)) :
    gated (attn (sim qq kq) (mask support)) vv gate (ix2 R e)
      = (((∑ j, Real.exp (σ j) * (γ j * ν j)) / (∑ j, Real.exp (σ j)) : ℝ) : EReal) * gate (ix2 R e) := by
  obtain ⟨μ, hμ⟩ : RealVal (rowMax (gram support support) R) :=
    RealVal.sup Finset.univ_nonempty (fun k _ => ⟨σ k, hσ k⟩)
  show (∑ j : Fin 4096, ((max (sim qq kq (ix2 R j)) 0 * max (sim qq kq (ix2 R j)) 0)
      * Ideal.div (Ideal.exp (gram support support (ix2 R j) - rowMax (gram support support) R))
          (∑ k : Fin 4096, Ideal.exp (gram support support (ix2 R k) - rowMax (gram support support) R))) * vv (ix2 j e))
    * gate (ix2 R e) = _
  refine congrArg (· * gate (ix2 R e)) ?_
  have h2 := two_pass μ σ (fun j => γ j * ν j)
  rw [zero_add, zero_add] at h2
  rw [← h2, hμ]
  have hk : ∀ k : Fin 4096, Ideal.exp (gram support support (ix2 R k) - (μ : EReal)) = Ideal.exp ((σ k : EReal) - (μ : EReal)) :=
    fun k => by rw [hσ k]
  simp only [hk]
  refine Finset.sum_congr rfl fun j _ => ?_
  rw [hγ j, hν j, EReal.coe_mul, mul_right_comm]

/-- The scratch's quotient: under a real last shift, accumulator over normaliser is the quotient of the totals. -/
theorem quotient_entry (m a l : EReal) (hm : ∃ μ : ℝ, m = (μ : EReal)) (σ ω : Fin 4096 → ℝ)
    (hl : Tracks m l (∑ t : Fin 8, ∑ r : Fin 512, Real.exp (σ (key t r))))
    (ha : Tracks m a (∑ t : Fin 8, ∑ r : Fin 512, Real.exp (σ (key t r)) * ω (key t r))) :
    Ideal.div a l = (((∑ j, Real.exp (σ j) * ω j) / (∑ j, Real.exp (σ j)) : ℝ) : EReal) := by
  have hL : (∑ t : Fin 8, ∑ r : Fin 512, Real.exp (σ (key t r))) = ∑ j, Real.exp (σ j) := (sum_tiles (fun j => Real.exp (σ j))).symm
  have hA : (∑ t : Fin 8, ∑ r : Fin 512, Real.exp (σ (key t r)) * ω (key t r)) = ∑ j, Real.exp (σ j) * ω j :=
    (sum_tiles (fun j => Real.exp (σ j) * ω j)).symm
  rw [hL] at hl
  rw [hA] at ha
  exact Tracks.div hm hl ha (Finset.sum_pos (fun j _ => Real.exp_pos _) Finset.univ_nonempty)

section Final

variable (support : Mat 4096 768) (qq kq : Mat 4096 200) (vv gate : Mat 4096 768) (Wout : Mat 768 768) (bout : Vct 768)
  (R : Fin 4096) (p : Fin 512)
  (v56 : Vec Ideal S512x768 .f32) (v57 : Vec Ideal S512x1 .f32) (v60 : Vec Ideal S512x768 .f32) (v64 : Vec Ideal S768x768 .bf16)
  (v68 : Vec Ideal S1x768 .f32) (v72 : Vec Ideal S512x768 .f32)
  (σ γ : Fin 4096 → ℝ) (ν : Fin 4096 → Fin 768 → ℝ)
  (hσ : ∀ j, gram support support (ix2 R j) = (σ j : EReal))
  (hγ : ∀ j, max (sim qq kq (ix2 R j)) 0 * max (sim qq kq (ix2 R j)) 0 = (γ j : EReal))
  (hν : ∀ j e, vv (ix2 j e) = (ν j e : EReal))
  (m : EReal) (hm : ∃ μ : ℝ, m = (μ : EReal))
  (hl : Tracks m (v57 (ix2 p (0 : Fin 1))) (∑ t : Fin 8, ∑ r : Fin 512, Real.exp (σ (key t r))))
  (ha : ∀ e : Fin 768, Tracks m (v56 (ix2 p e)) (∑ t : Fin 8, ∑ r : Fin 512, Real.exp (σ (key t r)) * (γ (key t r) * ν (key t r) e)))
  (h60 : ∀ e : Fin 768, v60 (ix2 p e) = gate (ix2 R e))
  (h64 : ∀ d e : Fin 768, v64 (ix2 d e) = Wout (ix2 d e))
  (h68 : ∀ d : Fin 768, v68 (ix2 (0 : Fin 1) d) = bout (ix1 d))
  (h72 : ∀ d : Fin 768, v72 (ix2 p d) = support (ix2 R d))

include hσ hγ hν hm hl ha h60 h64 h68 h72 in
/-- The finalised row: s(p, d) is the gated unit's entry (R, d). -/
theorem gau_entry (d : Fin 768) :
    k2_pay5 v56 v57 v60 v64 v68 v72 (ix2 p d)
      = gau (gated (attn (sim qq kq) (mask support)) vv gate) Wout bout support (ix2 R d) := by
  rw [k2_pay5_apply]
  show _ = ((∑ e : Fin 768, gated (attn (sim qq kq) (mask support)) vv gate (ix2 R e) * Wout (ix2 d e)) + bout (ix1 d)) * support (ix2 R d)
  rw [h68, h72]
  refine congrArg (fun s => (s + bout (ix1 d)) * support (ix2 R d)) (Finset.sum_congr rfl fun e _ => ?_)
  rw [quotient_entry m (v56 (ix2 p e)) (v57 (ix2 p (0 : Fin 1))) hm σ (fun j => γ j * ν j e) hl (ha e), h60, h64,
    gated_entry support qq kq vv gate R e σ γ (fun j => ν j e) hσ hγ (fun j => hν j e)]

include hσ hγ hν hm hl ha h60 h64 h68 h72 in
/-- K's entry: the last tile's store into the first output is Kf of the gated unit at (R, q). -/
theorem close_K (Wk : Mat 256 768) (bk : Vct 256) (v75 : Vec Ideal S256x768 .bf16) (v79 : Vec Ideal S1x256 .f32)
    (h75 : ∀ (q : Fin 256) (d : Fin 768), v75 (ix2 q d) = Wk (ix2 q d)) (h79 : ∀ q : Fin 256, v79 (ix2 (0 : Fin 1) q) = bk (ix1 q))
    (q : Fin 256) :
    k2_pay6 v56 v57 v60 v64 v68 v72 v75 v79 (ix2 p q)
      = Kf (gau (gated (attn (sim qq kq) (mask support)) vv gate) Wout bout support) Wk bk (ix2 R q) := by
  rw [k2_pay6_apply]
  show _ = (∑ d : Fin 768, gau (gated (attn (sim qq kq) (mask support)) vv gate) Wout bout support (ix2 R d) * Wk (ix2 q d)) + bk (ix1 q)
  rw [h79]
  refine congrArg (· + bk (ix1 q)) (Finset.sum_congr rfl fun d _ => ?_)
  rw [gau_entry support qq kq vv gate Wout bout R p v56 v57 v60 v64 v68 v72 σ γ ν hσ hγ hν m hm hl ha h60 h64 h68 h72 d, h75]

include hσ hγ hν hm hl ha h60 h64 h68 h72 in
/-- V's entry: the last tile's store into the second output is Vf of the gated unit at (R, q). -/
theorem close_V (Wv : Mat 256 768) (bv : Vct 256) (v85 : Vec Ideal S256x768 .bf16) (v89 : Vec Ideal S1x256 .f32)
    (h85 : ∀ (q : Fin 256) (d : Fin 768), v85 (ix2 q d) = Wv (ix2 q d)) (h89 : ∀ q : Fin 256, v89 (ix2 (0 : Fin 1) q) = bv (ix1 q))
    (q : Fin 256) :
    k2_pay4 (k2_pay7 v56 v57 v60 v64 v68 v72 v85) v89 (ix2 p q)
      = Vf (gau (gated (attn (sim qq kq) (mask support)) vv gate) Wout bout support) Wv bv (ix2 R q) := by
  rw [k2_pay4_apply, k2_pay7_apply]
  show _ = (∑ d : Fin 768, gau (gated (attn (sim qq kq) (mask support)) vv gate) Wout bout support (ix2 R d) * Wv (ix2 q d)) + bv (ix1 q)
  rw [h89]
  refine congrArg (· + bv (ix1 q)) (Finset.sum_congr rfl fun d _ => ?_)
  rw [gau_entry support qq kq vv gate Wout bout R p v56 v57 v60 v64 v68 v72 σ γ ν hσ hγ hν m hm hl ha h60 h64 h68 h72 d, h85]

end Final

end V2

end Cert.KernelIdeal.HandValue

end
-- ==== Proof.KI.Value2Ind.lean ====
import proofs.«170994_j15857019257044_2_alg».proof.Proof.KI.Value2Pieces
import proofs.«170994_j15857019257044_2_alg».proof.Proof.KI.Value2Close

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem
open OnlineSoftmax

variable (V : (c : Dev nD) → (b : Ref sig .tc) → Buf (Elt Ideal) ((c : Thread nD τ).loc b))

/-! # The scratch over the key tiles of a row tile, over the extended reals

For one row of a row tile: after each key tile the running maximum is a real shift, and under it the normaliser and every
entry of the accumulator track the totals over the keys seen so far (the sum of `e^σ`, and of `e^σ · w`). By induction
over the key tiles, each step the one-tile update. -/

/-- The point of row tile `i` and key tile `j`. -/
abbrev pt2 (i : Fin 8) (j : ℕ) (hj : j < 8) : Fin cfg2.N := ⟨8 * i.val + j, by rw [show cfg2.N = 64 from N_2]; omega⟩

/-- Before the first key tile the scratch tracks the empty totals. -/
theorem init2_tracks (p : Fin 512) (e : Fin 768) :
    Tracks ((init2 (F := Ideal)).1 (ix2 p (0 : Fin 1))) ((init2 (F := Ideal)).2.1 (ix2 p (0 : Fin 1))) 0
      ∧ Tracks ((init2 (F := Ideal)).1 (ix2 p (0 : Fin 1))) ((init2 (F := Ideal)).2.2 (ix2 p e)) 0 := by
  unfold init2
  dsimp only
  rw [k2_pay8_apply, k2_pay9_apply, k2_pay10_apply]
  exact ⟨tracks_init, tracks_init⟩

/-- One key tile's update extends the totals by the tile's terms. -/
theorem step2_tracks (x0 x1 : Vec Ideal S512x768 .f32) (x2 x3 : Vec Ideal S512x200 .f32) (x4 : Vec Ideal S512x768 .f32)
    (s : Vec Ideal S512x1 .f32 × Vec Ideal S512x1 .f32 × Vec Ideal S512x768 .f32) (p : Fin 512) (e : Fin 768) (σ ω : Fin 512 → ℝ) (L A : ℝ)
    (hσ : ∀ r : Fin 512, k2_pay11 x0 x1 (ix2 p r) = (σ r : EReal))
    (hω : ∀ r : Fin 512, k2_pay12 x2 x3 (ix2 p r) * x4 (ix2 r e) = (ω r : EReal))
    (hl : Tracks (s.1 (ix2 p (0 : Fin 1))) (s.2.1 (ix2 p (0 : Fin 1))) L)
    (ha : Tracks (s.1 (ix2 p (0 : Fin 1))) (s.2.2 (ix2 p e)) A) :
    ∃ μ' : ℝ, (step2 x0 x1 x2 x3 x4 s).1 (ix2 p (0 : Fin 1)) = (μ' : EReal)
      ∧ Tracks (μ' : EReal) ((step2 x0 x1 x2 x3 x4 s).2.1 (ix2 p (0 : Fin 1))) (L + ∑ r : Fin 512, Real.exp (σ r))
      ∧ Tracks (μ' : EReal) ((step2 x0 x1 x2 x3 x4 s).2.2 (ix2 p e)) (A + ∑ r : Fin 512, Real.exp (σ r) * ω r) := by
  unfold step2
  dsimp only
  rw [k2_pay3_eq, k2_pay1_eq]
  exact tile_step x0 x1 x2 x3 x4 s.2.2 s.1 s.2.1 p e σ ω L A hσ hω hl ha

/-- After key tile `j` of row tile `i`: the totals over the tiles `0 … j`. -/
theorem scrAt_tracks (c : Dev nD) (i : Fin 8) (p : Fin 512) (e : Fin 768) (σ ω : ℕ → Fin 512 → ℝ)
    (hσ : ∀ (j : ℕ) (hj : j < 8) (r : Fin 512),
      k2_pay11 (iblk2 V c 0 (pt2 i j hj)) (iblk2 V c 1 (pt2 i j hj)) (ix2 p r) = (σ j r : EReal))
    (hω : ∀ (j : ℕ) (hj : j < 8) (r : Fin 512),
      k2_pay12 (iblk2 V c 2 (pt2 i j hj)) (iblk2 V c 3 (pt2 i j hj)) (ix2 p r)
        * (iblk2 V c 4 (pt2 i j hj) : Vec Ideal S512x768 .f32) (ix2 r e) = (ω j r : EReal)) :
    ∀ (j : ℕ) (hj : j < 8), ∃ μ : ℝ, (scrAt V c i j hj).1 (ix2 p (0 : Fin 1)) = (μ : EReal)
      ∧ Tracks (μ : EReal) ((scrAt V c i j hj).2.1 (ix2 p (0 : Fin 1)))
          (∑ j' ∈ Finset.range (j + 1), ∑ r : Fin 512, Real.exp (σ j' r))
      ∧ Tracks (μ : EReal) ((scrAt V c i j hj).2.2 (ix2 p e))
          (∑ j' ∈ Finset.range (j + 1), ∑ r : Fin 512, Real.exp (σ j' r) * ω j' r)
  | 0, hj => by
    obtain ⟨hl0, ha0⟩ := init2_tracks p e
    obtain ⟨μ, h1, h2, h3⟩ := step2_tracks _ _ _ _ _ init2 p e (σ 0) (ω 0) 0 0 (hσ 0 hj) (hω 0 hj) hl0 ha0
    rw [zero_add] at h2 h3
    refine ⟨μ, h1, ?_, ?_⟩
    · rw [Finset.sum_range_one]; exact h2
    · rw [Finset.sum_range_one]; exact h3
  | j + 1, hj => by
    obtain ⟨μ, h1, h2, h3⟩ := scrAt_tracks c i p e σ ω hσ hω j (by omega)
    rw [← h1] at h2 h3
    obtain ⟨μ', g1, g2, g3⟩ := step2_tracks _ _ _ _ _ (scrAt V c i j (by omega)) p e (σ (j + 1)) (ω (j + 1)) _ _
      (hσ (j + 1) hj) (hω (j + 1) hj) h2 h3
    refine ⟨μ', g1, ?_, ?_⟩
    · rw [Finset.sum_range_succ]; exact g2
    · rw [Finset.sum_range_succ]; exact g3

/-- After the last key tile of row tile `i`: the totals over all 4096 keys, tile by tile, under one real shift for the
    normaliser and every entry of the accumulator's row. -/
theorem scr_last_tracks (c : Dev nD) (i : Fin 8) (p : Fin 512) (σ : Fin 4096 → ℝ) (w : Fin 4096 → Fin 768 → ℝ)
    (hσ : ∀ (t : Fin 8) (r : Fin 512),
      k2_pay11 (iblk2 V c 0 (pt2 i t.val t.isLt)) (iblk2 V c 1 (pt2 i t.val t.isLt)) (ix2 p r) = (σ (V2.key t r) : EReal))
    (hω : ∀ (t : Fin 8) (r : Fin 512) (e : Fin 768),
      k2_pay12 (iblk2 V c 2 (pt2 i t.val t.isLt)) (iblk2 V c 3 (pt2 i t.val t.isLt)) (ix2 p r)
        * (iblk2 V c 4 (pt2 i t.val t.isLt) : Vec Ideal S512x768 .f32) (ix2 r e) = (w (V2.key t r) e : EReal)) :
    ∃ μ : ℝ, (scrAt V c i 7 (by omega)).1 (ix2 p (0 : Fin 1)) = (μ : EReal)
      ∧ Tracks (μ : EReal) ((scrAt V c i 7 (by omega)).2.1 (ix2 p (0 : Fin 1)))
          (∑ t : Fin 8, ∑ r : Fin 512, Real.exp (σ (V2.key t r)))
      ∧ ∀ e : Fin 768, Tracks (μ : EReal) ((scrAt V c i 7 (by omega)).2.2 (ix2 p e))
          (∑ t : Fin 8, ∑ r : Fin 512, Real.exp (σ (V2.key t r)) * w (V2.key t r) e) := by
  -- the witnesses indexed by the tile number, a natural number
  let σt : ℕ → Fin 512 → ℝ := fun j r => if h : j < 8 then σ (V2.key ⟨j, h⟩ r) else 0
  let ωt : Fin 768 → ℕ → Fin 512 → ℝ := fun e j r => if h : j < 8 then w (V2.key ⟨j, h⟩ r) e else 0
  have hσt : ∀ (j : ℕ) (hj : j < 8) (r : Fin 512),
      k2_pay11 (iblk2 V c 0 (pt2 i j hj)) (iblk2 V c 1 (pt2 i j hj)) (ix2 p r) = (σt j r : EReal) := fun j hj r => by
    rw [show σt j r = σ (V2.key ⟨j, hj⟩ r) from dif_pos hj]; exact hσ ⟨j, hj⟩ r
  have hωt : ∀ (e : Fin 768) (j : ℕ) (hj : j < 8) (r : Fin 512),
      k2_pay12 (iblk2 V c 2 (pt2 i j hj)) (iblk2 V c 3 (pt2 i j hj)) (ix2 p r)
        * (iblk2 V c 4 (pt2 i j hj) : Vec Ideal S512x768 .f32) (ix2 r e) = (ωt e j r : EReal) := fun e j hj r => by
    rw [show ωt e j r = w (V2.key ⟨j, hj⟩ r) e from dif_pos hj]; exact hω ⟨j, hj⟩ r e
  have hsumσ : (∑ j' ∈ Finset.range (7 + 1), ∑ r : Fin 512, Real.exp (σt j' r))
      = ∑ t : Fin 8, ∑ r : Fin 512, Real.exp (σ (V2.key t r)) := by
    rw [Finset.sum_range]
    refine Finset.sum_congr rfl fun t _ => Finset.sum_congr rfl fun r _ => ?_
    rw [show σt t.val r = σ (V2.key ⟨t.val, t.isLt⟩ r) from dif_pos t.isLt]
  have hsumω : ∀ e : Fin 768, (∑ j' ∈ Finset.range (7 + 1), ∑ r : Fin 512, Real.exp (σt j' r) * ωt e j' r)
      = ∑ t : Fin 8, ∑ r : Fin 512, Real.exp (σ (V2.key t r)) * w (V2.key t r) e := fun e => by
    rw [Finset.sum_range]
    refine Finset.sum_congr rfl fun t _ => Finset.sum_congr rfl fun r _ => ?_
    rw [show σt t.val r = σ (V2.key ⟨t.val, t.isLt⟩ r) from dif_pos t.isLt,
      show ωt e t.val r = w (V2.key ⟨t.val, t.isLt⟩ r) e from dif_pos t.isLt]
  obtain ⟨μ, h1, h2, -⟩ := scrAt_tracks V c i p ⟨0, by omega⟩ σt (ωt ⟨0, by omega⟩) hσt (hωt ⟨0, by omega⟩) 7 (by omega)
  refine ⟨μ, h1, by rw [← hsumσ]; exact h2, fun e => ?_⟩
  obtain ⟨μe, g1, -, g3⟩ := scrAt_tracks V c i p e σt (ωt e) hσt (hωt e) 7 (by omega)
  have hμ : μe = μ := EReal.coe_eq_coe_iff.mp (g1.symm.trans h1)
  rw [hμ] at g3
  rw [← hsumω e]; exact g3

end Cert.KernelIdeal.HandValue

end
-- ==== Proof.KI.Value2Cover.lean ====
import proofs.«170994_j15857019257044_2_alg».proof.Proof.KI.Region2
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! # From the output blocks to the output arrays

Output window 12 (and 13 alike) is written back at the last key tile of each row tile, `t = 8 i + 7`, as rows
`512 i … 512 i + 511` of its array: the eight blocks tile the array. -/

/-- The block index of output window 12 at point `t`: the row tile, column block 0. -/
theorem idx2_12 : ∀ t : Fin cfg2.N, win2_12.index t (0 : Fin 2) = t.val / 8 ∧ win2_12.index t (1 : Fin 2) = 0 :=
  (by decide +kernel : ∀ t : Fin grid2.N, win2_12.index t (0 : Fin 2) = t.val / 8 ∧ win2_12.index t (1 : Fin 2) = 0)

/-- An index of the array is in point `t`'s block iff each coordinate is in the block's range on its axis. -/
theorem mem_blk2_12 (t : Fin cfg2.N) (i : S4096x256.Idx) :
    i ∈ ((cfg2.win 12).blk t).view.set ↔ ∀ a : Fin 2, win2_12.index t a * S512x256.size a ≤ (i a).val ∧ (i a).val < win2_12.index t a * S512x256.size a + S512x256.size a := by
  show i ∈ ((View.whole main_v16_0).slice (win2_12.rect t)).set ↔ _
  rw [View.set_slice_whole, Rect.mem_set_unit]
  exact Iff.rfl

/-- Where block `t`'s local index `x` sits in the array: row `512 (t / 8) + x 0`, column `x 1`. -/
theorem emb_blk2_12 (t : Fin cfg2.N) (x : S512x256.Idx) (k : S4096x256.Idx)
    (hk0 : (k 0).val = 512 * (t.val / 8) + (x 0).val) (hk1 : (k 1).val = (x 1).val) :
    ((cfg2.win 12).blk t).view.emb x = k := by
  obtain ⟨e0, e1⟩ := idx2_12 t
  funext a; apply Fin.ext
  match a with
  | ⟨0, _⟩ => show win2_12.index t (0 : Fin 2) * 512 + 1 * (x 0).val = (k 0).val; rw [e0, hk0]; omega
  | ⟨1, _⟩ => show win2_12.index t (1 : Fin 2) * 256 + 1 * (x 1).val = (k 1).val; rw [e1, hk1]; omega

/-- THE ARRAY after the run is `G` as soon as every written-back block is `G`'s: the blocks of the eight row tiles
    cover the array. -/
theorem arrAt2_12_of_blocks (c : Dev nD) (G : S4096x256.Idx → Elt F .f32)
    (h : ∀ t : Fin cfg2.N, t.val % 8 = 7 → ∀ x : S512x256.Idx,
      ((outsAt2 V c t.val t.isLt).1 : S512x256.Idx → Elt F .f32) x = G (((cfg2.win 12).blk t).view.emb x)) :
    ((dat2 V c).arrAt 12 cfg2.N : S4096x256.Idx → Elt F .f32) = G := by
  refine (dat2 V c).arrAt_eq_of_cover 12 G (fun t hf => ?_) (fun i => ?_)
  · have h7 := (flush2_12 t).mp hf
    show (cfg2.win 12).cut (grid2.coords t) ((dat2 V c).after 12 t) = _
    rw [after2_12]
    funext x
    show ((outsAt2 V c t.val t.isLt).1 : S512x256.Idx → Elt F .f32) x = G (((cfg2.win 12).blk t).view.emb x)
    exact h t h7 x
  · have hN : cfg2.N = 64 := N_2
    have hi0 : (i 0).val < 4096 := (i 0).isLt
    have hi1 : (i 1).val < 256 := (i 1).isLt
    have ht : 8 * ((i 0).val / 512) + 7 < cfg2.N := by omega
    refine ⟨⟨8 * ((i 0).val / 512) + 7, ht⟩, (flush2_12 _).mpr (by show (8 * ((i 0).val / 512) + 7) % 8 = 7; omega), ?_⟩
    rw [mem_blk2_12]
    obtain ⟨e0, e1⟩ := idx2_12 ⟨8 * ((i 0).val / 512) + 7, ht⟩
    have e0' : win2_12.index ⟨8 * ((i 0).val / 512) + 7, ht⟩ (0 : Fin 2) = (i 0).val / 512 := by rw [e0]; show (8 * ((i 0).val / 512) + 7) / 8 = (i 0).val / 512; omega
    intro a
    match a with
    | ⟨0, _⟩ =>
      show win2_12.index ⟨8 * ((i 0).val / 512) + 7, ht⟩ (0 : Fin 2) * 512 ≤ (i 0).val ∧ (i 0).val < win2_12.index ⟨8 * ((i 0).val / 512) + 7, ht⟩ (0 : Fin 2) * 512 + 512
      rw [e0']; omega
    | ⟨1, _⟩ =>
      show win2_12.index ⟨8 * ((i 0).val / 512) + 7, ht⟩ (1 : Fin 2) * 256 ≤ (i 1).val ∧ (i 1).val < win2_12.index ⟨8 * ((i 0).val / 512) + 7, ht⟩ (1 : Fin 2) * 256 + 256
      rw [e1]; omega

/-- The block index of output window 13 at point `t`: the row tile, column block 0. -/
theorem idx2_13 : ∀ t : Fin cfg2.N, win2_13.index t (0 : Fin 2) = t.val / 8 ∧ win2_13.index t (1 : Fin 2) = 0 :=
  (by decide +kernel : ∀ t : Fin grid2.N, win2_13.index t (0 : Fin 2) = t.val / 8 ∧ win2_13.index t (1 : Fin 2) = 0)

/-- An index of the array is in point `t`'s block iff each coordinate is in the block's range on its axis. -/
theorem mem_blk2_13 (t : Fin cfg2.N) (i : S4096x256.Idx) :
    i ∈ ((cfg2.win 13).blk t).view.set ↔ ∀ a : Fin 2, win2_13.index t a * S512x256.size a ≤ (i a).val ∧ (i a).val < win2_13.index t a * S512x256.size a + S512x256.size a := by
  show i ∈ ((View.whole main_v16_1).slice (win2_13.rect t)).set ↔ _
  rw [View.set_slice_whole, Rect.mem_set_unit]
  exact Iff.rfl

/-- Where block `t`'s local index `x` sits in the array: row `512 (t / 8) + x 0`, column `x 1`. -/
theorem emb_blk2_13 (t : Fin cfg2.N) (x : S512x256.Idx) (k : S4096x256.Idx)
    (hk0 : (k 0).val = 512 * (t.val / 8) + (x 0).val) (hk1 : (k 1).val = (x 1).val) :
    ((cfg2.win 13).blk t).view.emb x = k := by
  obtain ⟨e0, e1⟩ := idx2_13 t
  funext a; apply Fin.ext
  match a with
  | ⟨0, _⟩ => show win2_13.index t (0 : Fin 2) * 512 + 1 * (x 0).val = (k 0).val; rw [e0, hk0]; omega
  | ⟨1, _⟩ => show win2_13.index t (1 : Fin 2) * 256 + 1 * (x 1).val = (k 1).val; rw [e1, hk1]; omega

/-- THE ARRAY after the run is `G` as soon as every written-back block is `G`'s: the blocks of the eight row tiles
    cover the array. -/
theorem arrAt2_13_of_blocks (c : Dev nD) (G : S4096x256.Idx → Elt F .f32)
    (h : ∀ t : Fin cfg2.N, t.val % 8 = 7 → ∀ x : S512x256.Idx,
      ((outsAt2 V c t.val t.isLt).2.1 : S512x256.Idx → Elt F .f32) x = G (((cfg2.win 13).blk t).view.emb x)) :
    ((dat2 V c).arrAt 13 cfg2.N : S4096x256.Idx → Elt F .f32) = G := by
  refine (dat2 V c).arrAt_eq_of_cover 13 G (fun t hf => ?_) (fun i => ?_)
  · have h7 := (flush2_13 t).mp hf
    show (cfg2.win 13).cut (grid2.coords t) ((dat2 V c).after 13 t) = _
    rw [after2_13]
    funext x
    show ((outsAt2 V c t.val t.isLt).2.1 : S512x256.Idx → Elt F .f32) x = G (((cfg2.win 13).blk t).view.emb x)
    exact h t h7 x
  · have hN : cfg2.N = 64 := N_2
    have hi0 : (i 0).val < 4096 := (i 0).isLt
    have hi1 : (i 1).val < 256 := (i 1).isLt
    have ht : 8 * ((i 0).val / 512) + 7 < cfg2.N := by omega
    refine ⟨⟨8 * ((i 0).val / 512) + 7, ht⟩, (flush2_13 _).mpr (by show (8 * ((i 0).val / 512) + 7) % 8 = 7; omega), ?_⟩
    rw [mem_blk2_13]
    obtain ⟨e0, e1⟩ := idx2_13 ⟨8 * ((i 0).val / 512) + 7, ht⟩
    have e0' : win2_13.index ⟨8 * ((i 0).val / 512) + 7, ht⟩ (0 : Fin 2) = (i 0).val / 512 := by rw [e0]; show (8 * ((i 0).val / 512) + 7) / 8 = (i 0).val / 512; omega
    intro a
    match a with
    | ⟨0, _⟩ =>
      show win2_13.index ⟨8 * ((i 0).val / 512) + 7, ht⟩ (0 : Fin 2) * 512 ≤ (i 0).val ∧ (i 0).val < win2_13.index ⟨8 * ((i 0).val / 512) + 7, ht⟩ (0 : Fin 2) * 512 + 512
      rw [e0']; omega
    | ⟨1, _⟩ =>
      show win2_13.index ⟨8 * ((i 0).val / 512) + 7, ht⟩ (1 : Fin 2) * 256 ≤ (i 1).val ∧ (i 1).val < win2_13.index ⟨8 * ((i 0).val / 512) + 7, ht⟩ (1 : Fin 2) * 256 + 256
      rw [e1]; omega

/-! ## The input blocks as rows of their arrays

The windows of the row tile (the support block `i`, the queries, the gate) sit at rows `512 (t / 8) …`; those of the key
tile (the support block `j`, the keys, the values) at rows `512 (t % 8) …`; the weights and biases are staged whole. -/

theorem idx2_0 : ∀ t : Fin cfg2.N, win2_0.index t (0 : Fin 2) = t.val / 8 ∧ win2_0.index t (1 : Fin 2) = 0 :=
  (by decide +kernel : ∀ t : Fin grid2.N, win2_0.index t (0 : Fin 2) = t.val / 8 ∧ win2_0.index t (1 : Fin 2) = 0)

theorem iblk2_0_apply (c : Dev nD) (t : Fin cfg2.N) (x : S512x768.Idx) (k : S4096x768.Idx)
    (hk0 : (k 0).val = 512 * (t.val / 8) + (x 0).val) (hk1 : (k 1).val = (x 1).val) :
    (iblk2 V c 0 t : Vec F S512x768 .f32) x = (V c main_arg1 : S4096x768.Idx → Elt F .f32) k := by
  obtain ⟨e0, e1⟩ := idx2_0 t
  unfold iblk2
  rw [View.read_apply]
  show V c main_arg1 _ = V c main_arg1 _
  congr 1
  funext a
  apply Fin.ext
  match a with
  | ⟨0, _⟩ => show win2_0.index t (0 : Fin 2) * 512 + 1 * (x 0).val = (k 0).val; rw [e0, hk0]; omega
  | ⟨1, _⟩ => show win2_0.index t (1 : Fin 2) * 768 + 1 * (x 1).val = (k 1).val; rw [e1, hk1]; omega

theorem idx2_1 : ∀ t : Fin cfg2.N, win2_1.index t (0 : Fin 2) = t.val % 8 ∧ win2_1.index t (1 : Fin 2) = 0 :=
  (by decide +kernel : ∀ t : Fin grid2.N, win2_1.index t (0 : Fin 2) = t.val % 8 ∧ win2_1.index t (1 : Fin 2) = 0)

theorem iblk2_1_apply (c : Dev nD) (t : Fin cfg2.N) (x : S512x768.Idx) (k : S4096x768.Idx)
    (hk0 : (k 0).val = 512 * (t.val % 8) + (x 0).val) (hk1 : (k 1).val = (x 1).val) :
    (iblk2 V c 1 t : Vec F S512x768 .f32) x = (V c main_arg1 : S4096x768.Idx → Elt F .f32) k := by
  obtain ⟨e0, e1⟩ := idx2_1 t
  unfold iblk2
  rw [View.read_apply]
  show V c main_arg1 _ = V c main_arg1 _
  congr 1
  funext a
  apply Fin.ext
  match a with
  | ⟨0, _⟩ => show win2_1.index t (0 : Fin 2) * 512 + 1 * (x 0).val = (k 0).val; rw [e0, hk0]; omega
  | ⟨1, _⟩ => show win2_1.index t (1 : Fin 2) * 768 + 1 * (x 1).val = (k 1).val; rw [e1, hk1]; omega

theorem idx2_2 : ∀ t : Fin cfg2.N, win2_2.index t (0 : Fin 2) = t.val / 8 ∧ win2_2.index t (1 : Fin 2) = 0 :=
  (by decide +kernel : ∀ t : Fin grid2.N, win2_2.index t (0 : Fin 2) = t.val / 8 ∧ win2_2.index t (1 : Fin 2) = 0)

theorem iblk2_2_apply (c : Dev nD) (t : Fin cfg2.N) (x : S512x200.Idx) (k : S4096x200.Idx)
    (hk0 : (k 0).val = 512 * (t.val / 8) + (x 0).val) (hk1 : (k 1).val = (x 1).val) :
    (iblk2 V c 2 t : Vec F S512x200 .f32) x = (V c main_v15_2 : S4096x200.Idx → Elt F .f32) k := by
  obtain ⟨e0, e1⟩ := idx2_2 t
  unfold iblk2
  rw [View.read_apply]
  show V c main_v15_2 _ = V c main_v15_2 _
  congr 1
  funext a
  apply Fin.ext
  match a with
  | ⟨0, _⟩ => show win2_2.index t (0 : Fin 2) * 512 + 1 * (x 0).val = (k 0).val; rw [e0, hk0]; omega
  | ⟨1, _⟩ => show win2_2.index t (1 : Fin 2) * 200 + 1 * (x 1).val = (k 1).val; rw [e1, hk1]; omega

theorem idx2_3 : ∀ t : Fin cfg2.N, win2_3.index t (0 : Fin 2) = t.val % 8 ∧ win2_3.index t (1 : Fin 2) = 0 :=
  (by decide +kernel : ∀ t : Fin grid2.N, win2_3.index t (0 : Fin 2) = t.val % 8 ∧ win2_3.index t (1 : Fin 2) = 0)

theorem iblk2_3_apply (c : Dev nD) (t : Fin cfg2.N) (x : S512x200.Idx) (k : S4096x200.Idx)
    (hk0 : (k 0).val = 512 * (t.val % 8) + (x 0).val) (hk1 : (k 1).val = (x 1).val) :
    (iblk2 V c 3 t : Vec F S512x200 .f32) x = (V c main_v15_3 : S4096x200.Idx → Elt F .f32) k := by
  obtain ⟨e0, e1⟩ := idx2_3 t
  unfold iblk2
  rw [View.read_apply]
  show V c main_v15_3 _ = V c main_v15_3 _
  congr 1
  funext a
  apply Fin.ext
  match a with
  | ⟨0, _⟩ => show win2_3.index t (0 : Fin 2) * 512 + 1 * (x 0).val = (k 0).val; rw [e0, hk0]; omega
  | ⟨1, _⟩ => show win2_3.index t (1 : Fin 2) * 200 + 1 * (x 1).val = (k 1).val; rw [e1, hk1]; omega

theorem idx2_4 : ∀ t : Fin cfg2.N, win2_4.index t (0 : Fin 2) = t.val % 8 ∧ win2_4.index t (1 : Fin 2) = 0 :=
  (by decide +kernel : ∀ t : Fin grid2.N, win2_4.index t (0 : Fin 2) = t.val % 8 ∧ win2_4.index t (1 : Fin 2) = 0)

theorem iblk2_4_apply (c : Dev nD) (t : Fin cfg2.N) (x : S512x768.Idx) (k : S4096x768.Idx)
    (hk0 : (k 0).val = 512 * (t.val % 8) + (x 0).val) (hk1 : (k 1).val = (x 1).val) :
    (iblk2 V c 4 t : Vec F S512x768 .f32) x = (V c main_v15_0 : S4096x768.Idx → Elt F .f32) k := by
  obtain ⟨e0, e1⟩ := idx2_4 t
  unfold iblk2
  rw [View.read_apply]
  show V c main_v15_0 _ = V c main_v15_0 _
  congr 1
  funext a
  apply Fin.ext
  match a with
  | ⟨0, _⟩ => show win2_4.index t (0 : Fin 2) * 512 + 1 * (x 0).val = (k 0).val; rw [e0, hk0]; omega
  | ⟨1, _⟩ => show win2_4.index t (1 : Fin 2) * 768 + 1 * (x 1).val = (k 1).val; rw [e1, hk1]; omega

theorem idx2_5 : ∀ t : Fin cfg2.N, win2_5.index t (0 : Fin 2) = t.val / 8 ∧ win2_5.index t (1 : Fin 2) = 0 :=
  (by decide +kernel : ∀ t : Fin grid2.N, win2_5.index t (0 : Fin 2) = t.val / 8 ∧ win2_5.index t (1 : Fin 2) = 0)

theorem iblk2_5_apply (c : Dev nD) (t : Fin cfg2.N) (x : S512x768.Idx) (k : S4096x768.Idx)
    (hk0 : (k 0).val = 512 * (t.val / 8) + (x 0).val) (hk1 : (k 1).val = (x 1).val) :
    (iblk2 V c 5 t : Vec F S512x768 .f32) x = (V c main_v15_1 : S4096x768.Idx → Elt F .f32) k := by
  obtain ⟨e0, e1⟩ := idx2_5 t
  unfold iblk2
  rw [View.read_apply]
  show V c main_v15_1 _ = V c main_v15_1 _
  congr 1
  funext a
  apply Fin.ext
  match a with
  | ⟨0, _⟩ => show win2_5.index t (0 : Fin 2) * 512 + 1 * (x 0).val = (k 0).val; rw [e0, hk0]; omega
  | ⟨1, _⟩ => show win2_5.index t (1 : Fin 2) * 768 + 1 * (x 1).val = (k 1).val; rw [e1, hk1]; omega

theorem idx2_6 : ∀ t : Fin cfg2.N, win2_6.index t (0 : Fin 2) = 0 ∧ win2_6.index t (1 : Fin 2) = 0 :=
  (by decide +kernel : ∀ t : Fin grid2.N, win2_6.index t (0 : Fin 2) = 0 ∧ win2_6.index t (1 : Fin 2) = 0)

theorem iblk2_6_apply (c : Dev nD) (t : Fin cfg2.N) (x : S768x768.Idx) (k : S768x768.Idx)
    (hk0 : (k 0).val = 768 * (0) + (x 0).val) (hk1 : (k 1).val = (x 1).val) :
    (iblk2 V c 6 t : Vec F S768x768 .bf16) x = (V c main_v13 : S768x768.Idx → Elt F .bf16) k := by
  obtain ⟨e0, e1⟩ := idx2_6 t
  unfold iblk2
  rw [View.read_apply]
  show V c main_v13 _ = V c main_v13 _
  congr 1
  funext a
  apply Fin.ext
  match a with
  | ⟨0, _⟩ => show win2_6.index t (0 : Fin 2) * 768 + 1 * (x 0).val = (k 0).val; rw [e0, hk0]; omega
  | ⟨1, _⟩ => show win2_6.index t (1 : Fin 2) * 768 + 1 * (x 1).val = (k 1).val; rw [e1, hk1]; omega

theorem idx2_7 : ∀ t : Fin cfg2.N, win2_7.index t (0 : Fin 2) = 0 ∧ win2_7.index t (1 : Fin 2) = 0 :=
  (by decide +kernel : ∀ t : Fin grid2.N, win2_7.index t (0 : Fin 2) = 0 ∧ win2_7.index t (1 : Fin 2) = 0)

theorem iblk2_7_apply (c : Dev nD) (t : Fin cfg2.N) (x : S1x768.Idx) (k : S1x768.Idx)
    (hk0 : (k 0).val = 1 * (0) + (x 0).val) (hk1 : (k 1).val = (x 1).val) :
    (iblk2 V c 7 t : Vec F S1x768 .f32) x = (V c main_v6 : S1x768.Idx → Elt F .f32) k := by
  obtain ⟨e0, e1⟩ := idx2_7 t
  unfold iblk2
  rw [View.read_apply]
  show V c main_v6 _ = V c main_v6 _
  congr 1
  funext a
  apply Fin.ext
  match a with
  | ⟨0, _⟩ => show win2_7.index t (0 : Fin 2) * 1 + 1 * (x 0).val = (k 0).val; rw [e0, hk0]; omega
  | ⟨1, _⟩ => show win2_7.index t (1 : Fin 2) * 768 + 1 * (x 1).val = (k 1).val; rw [e1, hk1]; omega

theorem idx2_8 : ∀ t : Fin cfg2.N, win2_8.index t (0 : Fin 2) = 0 ∧ win2_8.index t (1 : Fin 2) = 0 :=
  (by decide +kernel : ∀ t : Fin grid2.N, win2_8.index t (0 : Fin 2) = 0 ∧ win2_8.index t (1 : Fin 2) = 0)

theorem iblk2_8_apply (c : Dev nD) (t : Fin cfg2.N) (x : S256x768.Idx) (k : S256x768.Idx)
    (hk0 : (k 0).val = 256 * (0) + (x 0).val) (hk1 : (k 1).val = (x 1).val) :
    (iblk2 V c 8 t : Vec F S256x768 .bf16) x = (V c main_v8 : S256x768.Idx → Elt F .bf16) k := by
  obtain ⟨e0, e1⟩ := idx2_8 t
  unfold iblk2
  rw [View.read_apply]
  show V c main_v8 _ = V c main_v8 _
  congr 1
  funext a
  apply Fin.ext
  match a with
  | ⟨0, _⟩ => show win2_8.index t (0 : Fin 2) * 256 + 1 * (x 0).val = (k 0).val; rw [e0, hk0]; omega
  | ⟨1, _⟩ => show win2_8.index t (1 : Fin 2) * 768 + 1 * (x 1).val = (k 1).val; rw [e1, hk1]; omega

theorem idx2_9 : ∀ t : Fin cfg2.N, win2_9.index t (0 : Fin 2) = 0 ∧ win2_9.index t (1 : Fin 2) = 0 :=
  (by decide +kernel : ∀ t : Fin grid2.N, win2_9.index t (0 : Fin 2) = 0 ∧ win2_9.index t (1 : Fin 2) = 0)

theorem iblk2_9_apply (c : Dev nD) (t : Fin cfg2.N) (x : S1x256.Idx) (k : S1x256.Idx)
    (hk0 : (k 0).val = 1 * (0) + (x 0).val) (hk1 : (k 1).val = (x 1).val) :
    (iblk2 V c 9 t : Vec F S1x256 .f32) x = (V c main_v1 : S1x256.Idx → Elt F .f32) k := by
  obtain ⟨e0, e1⟩ := idx2_9 t
  unfold iblk2
  rw [View.read_apply]
  show V c main_v1 _ = V c main_v1 _
  congr 1
  funext a
  apply Fin.ext
  match a with
  | ⟨0, _⟩ => show win2_9.index t (0 : Fin 2) * 1 + 1 * (x 0).val = (k 0).val; rw [e0, hk0]; omega
  | ⟨1, _⟩ => show win2_9.index t (1 : Fin 2) * 256 + 1 * (x 1).val = (k 1).val; rw [e1, hk1]; omega

theorem idx2_10 : ∀ t : Fin cfg2.N, win2_10.index t (0 : Fin 2) = 0 ∧ win2_10.index t (1 : Fin 2) = 0 :=
  (by decide +kernel : ∀ t : Fin grid2.N, win2_10.index t (0 : Fin 2) = 0 ∧ win2_10.index t (1 : Fin 2) = 0)

theorem iblk2_10_apply (c : Dev nD) (t : Fin cfg2.N) (x : S256x768.Idx) (k : S256x768.Idx)
    (hk0 : (k 0).val = 256 * (0) + (x 0).val) (hk1 : (k 1).val = (x 1).val) :
    (iblk2 V c 10 t : Vec F S256x768 .bf16) x = (V c main_v9 : S256x768.Idx → Elt F .bf16) k := by
  obtain ⟨e0, e1⟩ := idx2_10 t
  unfold iblk2
  rw [View.read_apply]
  show V c main_v9 _ = V c main_v9 _
  congr 1
  funext a
  apply Fin.ext
  match a with
  | ⟨0, _⟩ => show win2_10.index t (0 : Fin 2) * 256 + 1 * (x 0).val = (k 0).val; rw [e0, hk0]; omega
  | ⟨1, _⟩ => show win2_10.index t (1 : Fin 2) * 768 + 1 * (x 1).val = (k 1).val; rw [e1, hk1]; omega

theorem idx2_11 : ∀ t : Fin cfg2.N, win2_11.index t (0 : Fin 2) = 0 ∧ win2_11.index t (1 : Fin 2) = 0 :=
  (by decide +kernel : ∀ t : Fin grid2.N, win2_11.index t (0 : Fin 2) = 0 ∧ win2_11.index t (1 : Fin 2) = 0)

theorem iblk2_11_apply (c : Dev nD) (t : Fin cfg2.N) (x : S1x256.Idx) (k : S1x256.Idx)
    (hk0 : (k 0).val = 1 * (0) + (x 0).val) (hk1 : (k 1).val = (x 1).val) :
    (iblk2 V c 11 t : Vec F S1x256 .f32) x = (V c main_v2 : S1x256.Idx → Elt F .f32) k := by
  obtain ⟨e0, e1⟩ := idx2_11 t
  unfold iblk2
  rw [View.read_apply]
  show V c main_v2 _ = V c main_v2 _
  congr 1
  funext a
  apply Fin.ext
  match a with
  | ⟨0, _⟩ => show win2_11.index t (0 : Fin 2) * 1 + 1 * (x 0).val = (k 0).val; rw [e0, hk0]; omega
  | ⟨1, _⟩ => show win2_11.index t (1 : Fin 2) * 256 + 1 * (x 1).val = (k 1).val; rw [e1, hk1]; omega

end Cert.KernelIdeal.Hand

end
-- ==== Proof.KI.Value2.lean ====
import proofs.«170994_j15857019257044_2_alg».proof.Proof.KI.Value2Ind
import proofs.«170994_j15857019257044_2_alg».proof.Proof.KI.Value2Cover

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem
open OnlineSoftmax

variable (V : (c : Dev nD) → (b : Ref sig .tc) → Buf (Elt Ideal) ((c : Thread nD τ).loc b))

/-! # The two outputs of the flash-attention call are the specification's K and V

Block by block: the block written back after the last key tile of row tile `i` is rows `512 i …` of the stage; the
scratch it is computed from tracks the totals over all the keys (the induction over the key tiles); the eight blocks
cover the array. -/

theorem h78 : 7 < 8 := by decide

/-- Row `a` of row tile `i`, among the 4096 rows. -/
abbrev row2 (i : Fin 8) (a : Fin 512) : Fin 4096 := ⟨512 * i.val + a.val, by have := i.isLt; have := a.isLt; omega⟩
/-- Row `a` of key tile `j`. -/
abbrev krow2 (j : ℕ) (hj : j < 8) (a : Fin 512) : Fin 4096 := ⟨512 * j + a.val, by have := a.isLt; omega⟩

section Reads

variable (c : Dev nD) (i : Fin 8) (j : ℕ) (hj : j < 8)

theorem rd2_0 (a : Fin 512) (b : Fin 768) :
    (iblk2 V c 0 (pt2 i j hj) : Vec Ideal S512x768 .f32) (ix2 a b) = (V c main_arg1 : S4096x768.Idx → EReal) (ix2 (row2 i a) b) :=
  iblk2_0_apply V c (pt2 i j hj) (ix2 a b) (ix2 (row2 i a) b) (by show 512 * i.val + a.val = 512 * ((8 * i.val + j) / 8) + a.val; have := i.isLt; omega) rfl

theorem rd2_1 (a : Fin 512) (b : Fin 768) :
    (iblk2 V c 1 (pt2 i j hj) : Vec Ideal S512x768 .f32) (ix2 a b) = (V c main_arg1 : S4096x768.Idx → EReal) (ix2 (krow2 j hj a) b) :=
  iblk2_1_apply V c (pt2 i j hj) (ix2 a b) (ix2 (krow2 j hj a) b) (by show 512 * j + a.val = 512 * ((8 * i.val + j) % 8) + a.val; have := i.isLt; omega) rfl

theorem rd2_2 (a : Fin 512) (b : Fin 200) :
    (iblk2 V c 2 (pt2 i j hj) : Vec Ideal S512x200 .f32) (ix2 a b) = (V c main_v15_2 : S4096x200.Idx → EReal) (ix2 (row2 i a) b) :=
  iblk2_2_apply V c (pt2 i j hj) (ix2 a b) (ix2 (row2 i a) b) (by show 512 * i.val + a.val = 512 * ((8 * i.val + j) / 8) + a.val; have := i.isLt; omega) rfl

theorem rd2_3 (a : Fin 512) (b : Fin 200) :
    (iblk2 V c 3 (pt2 i j hj) : Vec Ideal S512x200 .f32) (ix2 a b) = (V c main_v15_3 : S4096x200.Idx → EReal) (ix2 (krow2 j hj a) b) :=
  iblk2_3_apply V c (pt2 i j hj) (ix2 a b) (ix2 (krow2 j hj a) b) (by show 512 * j + a.val = 512 * ((8 * i.val + j) % 8) + a.val; have := i.isLt; omega) rfl

theorem rd2_4 (a : Fin 512) (b : Fin 768) :
    (iblk2 V c 4 (pt2 i j hj) : Vec Ideal S512x768 .f32) (ix2 a b) = (V c main_v15_0 : S4096x768.Idx → EReal) (ix2 (krow2 j hj a) b) :=
  iblk2_4_apply V c (pt2 i j hj) (ix2 a b) (ix2 (krow2 j hj a) b) (by show 512 * j + a.val = 512 * ((8 * i.val + j) % 8) + a.val; have := i.isLt; omega) rfl

theorem rd2_5 (a : Fin 512) (b : Fin 768) :
    (iblk2 V c 5 (pt2 i j hj) : Vec Ideal S512x768 .f32) (ix2 a b) = (V c main_v15_1 : S4096x768.Idx → EReal) (ix2 (row2 i a) b) :=
  iblk2_5_apply V c (pt2 i j hj) (ix2 a b) (ix2 (row2 i a) b) (by show 512 * i.val + a.val = 512 * ((8 * i.val + j) / 8) + a.val; have := i.isLt; omega) rfl

theorem rd2_6 (a : Fin 768) (b : Fin 768) :
    (iblk2 V c 6 (pt2 i j hj) : Vec Ideal S768x768 .bf16) (ix2 a b) = (V c main_v13 : S768x768.Idx → EReal) (ix2 a b) :=
  iblk2_6_apply V c (pt2 i j hj) (ix2 a b) (ix2 a b) (by show a.val = 768 * 0 + a.val; omega) rfl

theorem rd2_7 (a : Fin 1) (b : Fin 768) :
    (iblk2 V c 7 (pt2 i j hj) : Vec Ideal S1x768 .f32) (ix2 a b) = (V c main_v6 : S1x768.Idx → EReal) (ix2 a b) :=
  iblk2_7_apply V c (pt2 i j hj) (ix2 a b) (ix2 a b) (by show a.val = 1 * 0 + a.val; omega) rfl

theorem rd2_8 (a : Fin 256) (b : Fin 768) :
    (iblk2 V c 8 (pt2 i j hj) : Vec Ideal S256x768 .bf16) (ix2 a b) = (V c main_v8 : S256x768.Idx → EReal) (ix2 a b) :=
  iblk2_8_apply V c (pt2 i j hj) (ix2 a b) (ix2 a b) (by show a.val = 256 * 0 + a.val; omega) rfl

theorem rd2_9 (a : Fin 1) (b : Fin 256) :
    (iblk2 V c 9 (pt2 i j hj) : Vec Ideal S1x256 .f32) (ix2 a b) = (V c main_v1 : S1x256.Idx → EReal) (ix2 a b) :=
  iblk2_9_apply V c (pt2 i j hj) (ix2 a b) (ix2 a b) (by show a.val = 1 * 0 + a.val; omega) rfl

theorem rd2_10 (a : Fin 256) (b : Fin 768) :
    (iblk2 V c 10 (pt2 i j hj) : Vec Ideal S256x768 .bf16) (ix2 a b) = (V c main_v9 : S256x768.Idx → EReal) (ix2 a b) :=
  iblk2_10_apply V c (pt2 i j hj) (ix2 a b) (ix2 a b) (by show a.val = 256 * 0 + a.val; omega) rfl

theorem rd2_11 (a : Fin 1) (b : Fin 256) :
    (iblk2 V c 11 (pt2 i j hj) : Vec Ideal S1x256 .f32) (ix2 a b) = (V c main_v2 : S1x256.Idx → EReal) (ix2 a b) :=
  iblk2_11_apply V c (pt2 i j hj) (ix2 a b) (ix2 a b) (by show a.val = 1 * 0 + a.val; omega) rfl

end Reads

set_option maxHeartbeats 2000000 in
/-- The block written back after the last key tile of row tile `i`, at (p, q), is the stage's entry (512 i + p, q). -/
theorem block2_12 (c : Dev nD) (support : Spec.Mat 4096 768) (qq kq : Spec.Mat 4096 200) (vv gate : Spec.Mat 4096 768) (Wout : Spec.Mat 768 768) (bout : Spec.Vct 768)
    (Wk : Spec.Mat 256 768) (bk : Spec.Vct 256)
    (hs : (V c main_arg1 : S4096x768.Idx → EReal) = support) (hq : (V c main_v15_2 : S4096x200.Idx → EReal) = qq)
    (hk : (V c main_v15_3 : S4096x200.Idx → EReal) = kq) (hv : (V c main_v15_0 : S4096x768.Idx → EReal) = vv)
    (hg : (V c main_v15_1 : S4096x768.Idx → EReal) = gate) (hWo : (V c main_v13 : S768x768.Idx → EReal) = Wout)
    (hbo : ∀ j : Fin 768, (V c main_v6 : S1x768.Idx → EReal) (ix2 (0 : Fin 1) j) = bout (ix1 j))
    (hWk : (V c main_v8 : S256x768.Idx → EReal) = Wk)
    (hbk : ∀ j : Fin 256, (V c main_v1 : S1x256.Idx → EReal) (ix2 (0 : Fin 1) j) = bk (ix1 j))
    (hsr : Spec.IsReal support) (hqr : Spec.IsReal qq) (hkr : Spec.IsReal kq) (hvr : Spec.IsReal vv) (hgr : Spec.IsReal gate)
    (i : Fin 8) (p : Fin 512) (q : Fin 256) :
    ((outsAt2 V c (pt2 i 7 h78).val (pt2 i 7 h78).isLt).1 : Vec Ideal S512x256 .f32) (ix2 p q)
      = Spec.Kf (Spec.gau (Spec.gated (Spec.attn (Spec.sim qq kq) (Spec.mask support)) vv gate) Wout bout support) Wk bk (ix2 (row2 i p) q) := by
  have h0 : ¬(pt2 i 7 h78).val % 8 = 0 := by show ¬(8 * i.val + 7) % 8 = 0; omega
  have h7 : (pt2 i 7 h78).val % 8 = 7 := by show (8 * i.val + 7) % 8 = 7; omega
  rw [out2_12_C V c (pt2 i 7 h78) h0 h7]
  have hscr : (outsAt2 V c (pt2 i 7 h78).val (pt2 i 7 h78).isLt).2.2 = scrAt V c i 7 h78 :=
    scr2_eq_scrAt V c i 7 h78
  rw [hscr]
  unfold fin2_12
  -- real witnesses of the row's raw scores, squared rectified similarities and values
  choose σ hσ using fun j : Fin 4096 => Spec.gram_real hsr hsr (ix2 (row2 i p) j)
  choose γ hγ using fun j : Fin 4096 =>
    Spec.RealVal.mul (Spec.RealVal.max (Spec.sim_real hqr hkr (ix2 (row2 i p) j)) Spec.RealVal.zero)
      (Spec.RealVal.max (Spec.sim_real hqr hkr (ix2 (row2 i p) j)) Spec.RealVal.zero)
  choose ν hν using fun (j : Fin 4096) (e : Fin 768) => hvr (ix2 j e)
  -- each key tile's raw scores and weights, read off the arrays
  have hσt : ∀ (t : Fin 8) (r : Fin 512),
      k2_pay11 (iblk2 V c 0 (pt2 i t.val t.isLt)) (iblk2 V c 1 (pt2 i t.val t.isLt)) (ix2 p r) = (σ (V2.key t r) : EReal) := fun t r => by
    refine (k2_pay11_apply (iblk2 V c 0 (pt2 i t.val t.isLt)) (iblk2 V c 1 (pt2 i t.val t.isLt)) p r).trans ?_
    rw [← hσ]
    show _ = ∑ c' : Fin 768, support (ix2 (row2 i p) c') * support (ix2 (V2.key t r) c')
    refine Finset.sum_congr rfl fun c' _ => ?_
    rw [rd2_0 V c i t.val t.isLt p c', rd2_1 V c i t.val t.isLt r c', hs]
    rfl
  have hωt : ∀ (t : Fin 8) (r : Fin 512) (e : Fin 768),
      k2_pay12 (iblk2 V c 2 (pt2 i t.val t.isLt)) (iblk2 V c 3 (pt2 i t.val t.isLt)) (ix2 p r)
        * (iblk2 V c 4 (pt2 i t.val t.isLt) : Vec Ideal S512x768 .f32) (ix2 r e)
        = (((γ (V2.key t r) * ν (V2.key t r) e : ℝ)) : EReal) := fun t r e => by
    have e12 := k2_pay12_spec (iblk2 V c 2 (pt2 i t.val t.isLt)) (iblk2 V c 3 (pt2 i t.val t.isLt)) p r
    have hsum : ∀ (x2 x3 : Vec Ideal S512x200 .f32), (∀ c' : Fin 200, x2 (ix2 p c') = qq (ix2 (row2 i p) c')) →
        (∀ c' : Fin 200, x3 (ix2 r c') = kq (ix2 (V2.key t r) c')) →
        (∑ c' : Fin 200, x2 (ix2 p c') * x3 (ix2 r c')) = Spec.gram qq kq (ix2 (row2 i p) (V2.key t r)) := fun x2 x3 h2 h3 => by
      show _ = ∑ c' : Fin 200, qq (ix2 (row2 i p) c') * kq (ix2 (V2.key t r) c')
      exact Finset.sum_congr rfl fun c' _ => by rw [h2, h3]
    rw [e12, hsum (iblk2 V c 2 (pt2 i t.val t.isLt)) (iblk2 V c 3 (pt2 i t.val t.isLt))
      (fun c' => by rw [rd2_2 V c i t.val t.isLt p c', hq])
      (fun c' => by rw [rd2_3 V c i t.val t.isLt r c', hk]; rfl),
      rd2_4 V c i t.val t.isLt r e, hv, EReal.coe_mul, ← hγ, ← hν]
    rfl
  obtain ⟨μ, h1, h2, h3⟩ := scr_last_tracks V c i p σ (fun j e => γ j * ν j e) hσt hωt
  exact V2.close_K support qq kq vv gate Wout bout (row2 i p) p _ _ _ _ _ _ σ γ ν hσ hγ hν
    (μ : EReal) ⟨μ, rfl⟩ h2 h3
    (fun e => by rw [rd2_5 V c i 7 h78 p e, hg])
    (fun d e => by rw [rd2_6 V c i 7 h78 d e, hWo])
    (fun d => by rw [rd2_7 V c i 7 h78 (0 : Fin 1) d]; exact hbo d)
    (fun d => by rw [rd2_0 V c i 7 h78 p d, hs])
    Wk bk _ _
    (fun q' d => by rw [rd2_8 V c i 7 h78 q' d, hWk])
    (fun q' => by rw [rd2_9 V c i 7 h78 (0 : Fin 1) q']; exact hbk q')
    q

/-- THE ARRAY: output 12 after the run is the stage. -/
theorem value2_12 (c : Dev nD) (support : Spec.Mat 4096 768) (qq kq : Spec.Mat 4096 200) (vv gate : Spec.Mat 4096 768) (Wout : Spec.Mat 768 768) (bout : Spec.Vct 768)
    (Wk : Spec.Mat 256 768) (bk : Spec.Vct 256)
    (hs : (V c main_arg1 : S4096x768.Idx → EReal) = support) (hq : (V c main_v15_2 : S4096x200.Idx → EReal) = qq)
    (hk : (V c main_v15_3 : S4096x200.Idx → EReal) = kq) (hv : (V c main_v15_0 : S4096x768.Idx → EReal) = vv)
    (hg : (V c main_v15_1 : S4096x768.Idx → EReal) = gate) (hWo : (V c main_v13 : S768x768.Idx → EReal) = Wout)
    (hbo : ∀ j : Fin 768, (V c main_v6 : S1x768.Idx → EReal) (ix2 (0 : Fin 1) j) = bout (ix1 j))
    (hWk : (V c main_v8 : S256x768.Idx → EReal) = Wk)
    (hbk : ∀ j : Fin 256, (V c main_v1 : S1x256.Idx → EReal) (ix2 (0 : Fin 1) j) = bk (ix1 j))
    (hsr : Spec.IsReal support) (hqr : Spec.IsReal qq) (hkr : Spec.IsReal kq) (hvr : Spec.IsReal vv) (hgr : Spec.IsReal gate) :
    ((dat2 (F := Ideal) V c).arrAt 12 cfg2.N : S4096x256.Idx → EReal)
      = Spec.Kf (Spec.gau (Spec.gated (Spec.attn (Spec.sim qq kq) (Spec.mask support)) vv gate) Wout bout support) Wk bk := by
  refine arrAt2_12_of_blocks V c _ fun t h7 x => ?_
  have hN : cfg2.N = 64 := N_2
  have htl : t.val < 64 := hN ▸ t.isLt
  obtain ⟨i, rfl⟩ : ∃ i : Fin 8, t = pt2 i 7 h78 :=
    ⟨⟨t.val / 8, by omega⟩, Fin.ext (by show t.val = 8 * (t.val / 8) + 7; omega)⟩
  obtain ⟨p, q, rfl⟩ : ∃ (p : Fin 512) (q : Fin 256), x = ix2 p q := ⟨x 0, x 1, eq_ix2 x⟩
  rw [emb_blk2_12 (pt2 i 7 h78) (ix2 p q) (ix2 (row2 i p) q)
    (by show 512 * i.val + p.val = 512 * ((8 * i.val + 7) / 8) + p.val; have := i.isLt; omega) rfl]
  exact block2_12 V c support qq kq vv gate Wout bout Wk bk hs hq hk hv hg hWo hbo hWk hbk hsr hqr hkr hvr hgr i p q

set_option maxHeartbeats 2000000 in
/-- The block written back after the last key tile of row tile `i`, at (p, q), is the stage's entry (512 i + p, q). -/
theorem block2_13 (c : Dev nD) (support : Spec.Mat 4096 768) (qq kq : Spec.Mat 4096 200) (vv gate : Spec.Mat 4096 768) (Wout : Spec.Mat 768 768) (bout : Spec.Vct 768)
    (Wv : Spec.Mat 256 768) (bv : Spec.Vct 256)
    (hs : (V c main_arg1 : S4096x768.Idx → EReal) = support) (hq : (V c main_v15_2 : S4096x200.Idx → EReal) = qq)
    (hk : (V c main_v15_3 : S4096x200.Idx → EReal) = kq) (hv : (V c main_v15_0 : S4096x768.Idx → EReal) = vv)
    (hg : (V c main_v15_1 : S4096x768.Idx → EReal) = gate) (hWo : (V c main_v13 : S768x768.Idx → EReal) = Wout)
    (hbo : ∀ j : Fin 768, (V c main_v6 : S1x768.Idx → EReal) (ix2 (0 : Fin 1) j) = bout (ix1 j))
    (hWv : (V c main_v9 : S256x768.Idx → EReal) = Wv)
    (hbv : ∀ j : Fin 256, (V c main_v2 : S1x256.Idx → EReal) (ix2 (0 : Fin 1) j) = bv (ix1 j))
    (hsr : Spec.IsReal support) (hqr : Spec.IsReal qq) (hkr : Spec.IsReal kq) (hvr : Spec.IsReal vv) (hgr : Spec.IsReal gate)
    (i : Fin 8) (p : Fin 512) (q : Fin 256) :
    ((outsAt2 V c (pt2 i 7 h78).val (pt2 i 7 h78).isLt).2.1 : Vec Ideal S512x256 .f32) (ix2 p q)
      = Spec.Vf (Spec.gau (Spec.gated (Spec.attn (Spec.sim qq kq) (Spec.mask support)) vv gate) Wout bout support) Wv bv (ix2 (row2 i p) q) := by
  have h0 : ¬(pt2 i 7 h78).val % 8 = 0 := by show ¬(8 * i.val + 7) % 8 = 0; omega
  have h7 : (pt2 i 7 h78).val % 8 = 7 := by show (8 * i.val + 7) % 8 = 7; omega
  rw [out2_13_C V c (pt2 i 7 h78) h0 h7]
  have hscr : (outsAt2 V c (pt2 i 7 h78).val (pt2 i 7 h78).isLt).2.2 = scrAt V c i 7 h78 :=
    scr2_eq_scrAt V c i 7 h78
  rw [hscr]
  unfold fin2_13
  -- real witnesses of the row's raw scores, squared rectified similarities and values
  choose σ hσ using fun j : Fin 4096 => Spec.gram_real hsr hsr (ix2 (row2 i p) j)
  choose γ hγ using fun j : Fin 4096 =>
    Spec.RealVal.mul (Spec.RealVal.max (Spec.sim_real hqr hkr (ix2 (row2 i p) j)) Spec.RealVal.zero)
      (Spec.RealVal.max (Spec.sim_real hqr hkr (ix2 (row2 i p) j)) Spec.RealVal.zero)
  choose ν hν using fun (j : Fin 4096) (e : Fin 768) => hvr (ix2 j e)
  -- each key tile's raw scores and weights, read off the arrays
  have hσt : ∀ (t : Fin 8) (r : Fin 512),
      k2_pay11 (iblk2 V c 0 (pt2 i t.val t.isLt)) (iblk2 V c 1 (pt2 i t.val t.isLt)) (ix2 p r) = (σ (V2.key t r) : EReal) := fun t r => by
    refine (k2_pay11_apply (iblk2 V c 0 (pt2 i t.val t.isLt)) (iblk2 V c 1 (pt2 i t.val t.isLt)) p r).trans ?_
    rw [← hσ]
    show _ = ∑ c' : Fin 768, support (ix2 (row2 i p) c') * support (ix2 (V2.key t r) c')
    refine Finset.sum_congr rfl fun c' _ => ?_
    rw [rd2_0 V c i t.val t.isLt p c', rd2_1 V c i t.val t.isLt r c', hs]
    rfl
  have hωt : ∀ (t : Fin 8) (r : Fin 512) (e : Fin 768),
      k2_pay12 (iblk2 V c 2 (pt2 i t.val t.isLt)) (iblk2 V c 3 (pt2 i t.val t.isLt)) (ix2 p r)
        * (iblk2 V c 4 (pt2 i t.val t.isLt) : Vec Ideal S512x768 .f32) (ix2 r e)
        = (((γ (V2.key t r) * ν (V2.key t r) e : ℝ)) : EReal) := fun t r e => by
    have e12 := k2_pay12_spec (iblk2 V c 2 (pt2 i t.val t.isLt)) (iblk2 V c 3 (pt2 i t.val t.isLt)) p r
    have hsum : ∀ (x2 x3 : Vec Ideal S512x200 .f32), (∀ c' : Fin 200, x2 (ix2 p c') = qq (ix2 (row2 i p) c')) →
        (∀ c' : Fin 200, x3 (ix2 r c') = kq (ix2 (V2.key t r) c')) →
        (∑ c' : Fin 200, x2 (ix2 p c') * x3 (ix2 r c')) = Spec.gram qq kq (ix2 (row2 i p) (V2.key t r)) := fun x2 x3 h2 h3 => by
      show _ = ∑ c' : Fin 200, qq (ix2 (row2 i p) c') * kq (ix2 (V2.key t r) c')
      exact Finset.sum_congr rfl fun c' _ => by rw [h2, h3]
    rw [e12, hsum (iblk2 V c 2 (pt2 i t.val t.isLt)) (iblk2 V c 3 (pt2 i t.val t.isLt))
      (fun c' => by rw [rd2_2 V c i t.val t.isLt p c', hq])
      (fun c' => by rw [rd2_3 V c i t.val t.isLt r c', hk]; rfl),
      rd2_4 V c i t.val t.isLt r e, hv, EReal.coe_mul, ← hγ, ← hν]
    rfl
  obtain ⟨μ, h1, h2, h3⟩ := scr_last_tracks V c i p σ (fun j e => γ j * ν j e) hσt hωt
  exact V2.close_V support qq kq vv gate Wout bout (row2 i p) p _ _ _ _ _ _ σ γ ν hσ hγ hν
    (μ : EReal) ⟨μ, rfl⟩ h2 h3
    (fun e => by rw [rd2_5 V c i 7 h78 p e, hg])
    (fun d e => by rw [rd2_6 V c i 7 h78 d e, hWo])
    (fun d => by rw [rd2_7 V c i 7 h78 (0 : Fin 1) d]; exact hbo d)
    (fun d => by rw [rd2_0 V c i 7 h78 p d, hs])
    Wv bv _ _
    (fun q' d => by rw [rd2_10 V c i 7 h78 q' d, hWv])
    (fun q' => by rw [rd2_11 V c i 7 h78 (0 : Fin 1) q']; exact hbv q')
    q

/-- THE ARRAY: output 13 after the run is the stage. -/
theorem value2_13 (c : Dev nD) (support : Spec.Mat 4096 768) (qq kq : Spec.Mat 4096 200) (vv gate : Spec.Mat 4096 768) (Wout : Spec.Mat 768 768) (bout : Spec.Vct 768)
    (Wv : Spec.Mat 256 768) (bv : Spec.Vct 256)
    (hs : (V c main_arg1 : S4096x768.Idx → EReal) = support) (hq : (V c main_v15_2 : S4096x200.Idx → EReal) = qq)
    (hk : (V c main_v15_3 : S4096x200.Idx → EReal) = kq) (hv : (V c main_v15_0 : S4096x768.Idx → EReal) = vv)
    (hg : (V c main_v15_1 : S4096x768.Idx → EReal) = gate) (hWo : (V c main_v13 : S768x768.Idx → EReal) = Wout)
    (hbo : ∀ j : Fin 768, (V c main_v6 : S1x768.Idx → EReal) (ix2 (0 : Fin 1) j) = bout (ix1 j))
    (hWv : (V c main_v9 : S256x768.Idx → EReal) = Wv)
    (hbv : ∀ j : Fin 256, (V c main_v2 : S1x256.Idx → EReal) (ix2 (0 : Fin 1) j) = bv (ix1 j))
    (hsr : Spec.IsReal support) (hqr : Spec.IsReal qq) (hkr : Spec.IsReal kq) (hvr : Spec.IsReal vv) (hgr : Spec.IsReal gate) :
    ((dat2 (F := Ideal) V c).arrAt 13 cfg2.N : S4096x256.Idx → EReal)
      = Spec.Vf (Spec.gau (Spec.gated (Spec.attn (Spec.sim qq kq) (Spec.mask support)) vv gate) Wout bout support) Wv bv := by
  refine arrAt2_13_of_blocks V c _ fun t h7 x => ?_
  have hN : cfg2.N = 64 := N_2
  have htl : t.val < 64 := hN ▸ t.isLt
  obtain ⟨i, rfl⟩ : ∃ i : Fin 8, t = pt2 i 7 h78 :=
    ⟨⟨t.val / 8, by omega⟩, Fin.ext (by show t.val = 8 * (t.val / 8) + 7; omega)⟩
  obtain ⟨p, q, rfl⟩ : ∃ (p : Fin 512) (q : Fin 256), x = ix2 p q := ⟨x 0, x 1, eq_ix2 x⟩
  rw [emb_blk2_13 (pt2 i 7 h78) (ix2 p q) (ix2 (row2 i p) q)
    (by show 512 * i.val + p.val = 512 * ((8 * i.val + 7) / 8) + p.val; have := i.isLt; omega) rfl]
  exact block2_13 V c support qq kq vv gate Wout bout Wv bv hs hq hk hv hg hWo hbo hWv hbv hsr hqr hkr hvr hgr i p q

end Cert.KernelIdeal.HandValue

end
-- ==== Proof.KI.Value3.lean ====
import proofs.«170994_j15857019257044_2_alg».proof.Proof.KI.Region3
import proofs.«170994_j15857019257044_2_alg».proof.Proof.Spec
import proofs.«170994_j15857019257044_2_alg».proof.Proof.LibOnlineSoftmax
import Idealize.ShloMosaic.PureOps.Ideal
import Idealize.ShloMosaic.PureOps.Ideal.Laws
import Idealize.ShloMosaic.Lib.ValueIdx
import Idealize.ShloMosaic.Lib.Pipeline.Value

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open scoped BigOperators

namespace V3

/-! # Call 3's payloads read at an index, at the ideal values

Every payload of the body is a chain of pointwise operations around three non-pointwise ones: a 512×256 by
256×256 matrix product into a zero accumulator, a maximum and a sum along each row of 256 lanes, and the
broadcast of a column to 256 lanes. Read at an index (p, q) each is a plain expression of the operands'
entries; the format changes (single to half precision and back) do nothing at the ideal values. -/

/-! ## The matrix product's operand indices -/

theorem dlhs_0 (i : S512x256.Idx) (q : dot_S512x256_S256x256_S512x256_1_0_0_1_n_n.contr.Idx) :
    (dot_S512x256_S256x256_S512x256_1_0_0_1_n_n.lhsIdx i q 0).val = (i 0).val := by
  unfold DotDims.lhsIdx
  rw [dif_neg (show ¬(0 : Fin S512x256.rank) ∈ dot_S512x256_S256x256_S512x256_1_0_0_1_n_n.lhsBatch by decide), dif_pos (show (0 : Fin S512x256.rank) ∈ dot_S512x256_S256x256_S512x256_1_0_0_1_n_n.lhsNonContracting by decide)]
  rfl
theorem dlhs_1 (i : S512x256.Idx) (q : dot_S512x256_S256x256_S512x256_1_0_0_1_n_n.contr.Idx) :
    (dot_S512x256_S256x256_S512x256_1_0_0_1_n_n.lhsIdx i q 1).val = (q ⟨0, by decide⟩).val :=
  dot_S512x256_S256x256_S512x256_1_0_0_1_n_n.lhsIdx_val_of_single rfl i q
theorem drhs_0 (i : S512x256.Idx) (q : dot_S512x256_S256x256_S512x256_1_0_0_1_n_n.contr.Idx) :
    (dot_S512x256_S256x256_S512x256_1_0_0_1_n_n.rhsIdx i q 0).val = (q ⟨0, by decide⟩).val :=
  dot_S512x256_S256x256_S512x256_1_0_0_1_n_n.rhsIdx_val_of_single rfl i q
theorem drhs_1 (i : S512x256.Idx) (q : dot_S512x256_S256x256_S512x256_1_0_0_1_n_n.contr.Idx) :
    (dot_S512x256_S256x256_S512x256_1_0_0_1_n_n.rhsIdx i q 1).val = (i 1).val := by
  unfold DotDims.rhsIdx
  rw [dif_neg (show ¬(1 : Fin S256x256.rank) ∈ dot_S512x256_S256x256_S512x256_1_0_0_1_n_n.rhsBatch by decide), dif_pos (show (1 : Fin S256x256.rank) ∈ dot_S512x256_S256x256_S512x256_1_0_0_1_n_n.rhsNonContracting by decide)]
  rfl

/-- The product into the zero accumulator, at (p, q): the sum over the 256 contraction coordinates. -/
theorem matmul0_apply (lhs : FVec Ideal S512x256 .bf16) (rhs : FVec Ideal S256x256 .bf16) (p : Fin 512) (q : Fin 256) :
    matmul dot_S512x256_S256x256_S512x256_1_0_0_1_n_n none lhs rhs (constant (F := Ideal) S512x256 .f32 0x00000000#32) (ix2 p q)
      = ∑ k : Fin 256, lhs (ix2 p k) * rhs (ix2 k q) := by
  simp only [matmul]
  rw [Ideal.matmul_constant_zero_apply, ← Equiv.sum_comp (contrEquiv1 dot_S512x256_S256x256_S512x256_1_0_0_1_n_n 256 rfl rfl).symm]
  refine Finset.sum_congr rfl fun k _ => ?_
  have hk := contrEquiv1_symm_val dot_S512x256_S256x256_S512x256_1_0_0_1_n_n 256 rfl rfl k
  have el : dot_S512x256_S256x256_S512x256_1_0_0_1_n_n.lhsIdx (ix2 p q) ((contrEquiv1 dot_S512x256_S256x256_S512x256_1_0_0_1_n_n 256 rfl rfl).symm k) = ix2 p k := funext fun a => Fin.ext (by
    match a with
    | ⟨0, _⟩ => exact dlhs_0 _ _
    | ⟨1, _⟩ => exact (dlhs_1 _ _).trans hk)
  have er : dot_S512x256_S256x256_S512x256_1_0_0_1_n_n.rhsIdx (ix2 p q) ((contrEquiv1 dot_S512x256_S256x256_S512x256_1_0_0_1_n_n 256 rfl rfl).symm k) = ix2 k q := funext fun a => Fin.ext (by
    match a with
    | ⟨0, _⟩ => exact (drhs_0 _ _).trans hk
    | ⟨1, _⟩ => exact drhs_1 _ _)
  rw [el, er]

/-! ## The row reductions and the column broadcast -/

/-- The index of row p of the 512-vector and of the 512×1 column sit at the same row-major position. -/
theorem col_pos (p : Fin 512) : (S512.rowMajor (ix1 p)).val = (S512x1.rowMajor (ix2 p (0 : Fin 1))).val := by
  rw [Shape.rowMajor_val_one, Shape.rowMajor_val_two]
  show p.val = p.val * 1 + 0
  omega

/-- Row p's lanes: the reduced index with lane r put back is (p, r). -/
theorem lift_row (h : S512x256.Reduces [1] S512) (p : Fin 512) (r : Fin 256) : h.lift (ix1 p) r = ix2 p r :=
  funext fun a => Fin.ext (by match a with | ⟨0, _⟩ => rfl | ⟨1, _⟩ => rfl)

/-- The maximum along row p, as a column entry: the fold of max from -∞ over the row's 256 lanes. -/
theorem rowmax_apply (src : FVec Ideal S512x256 .f32) (p : Fin 512) (h : S512x256.Reduces [1] S512) (hc : S512.ShapeCasts S512x1)
    (hφ : FKind.Formats .f32) (hacc : (0xFF800000#32 : BitVec 32) = FKind.maximumf.neutral .f32 hφ) :
    shapeCast S512x1 (multiReduction (F := Ideal) .maximumf [1] S512 src 0xFF800000#32 h hφ hacc) hc (ix2 p (0 : Fin 1))
      = (Finset.univ : Finset (Fin 256)).fold max (⊥ : EReal) (fun r => src (ix2 p r)) := by
  refine (shapeCast_apply _ hc (ix2 p (0 : Fin 1)) (ix1 p) (col_pos p)).trans ?_
  refine (Ideal.multiReduction_maximumf_single src _ h hφ hacc (ix1 p)).trans ?_
  have e : (src ∘ h.lift (ix1 p)) = fun r : Fin 256 => src (ix2 p r) := funext fun r => congrArg src (lift_row h p r)
  have b : (FloatOps.ofBits (F := Ideal) .f32 0xFF800000#32 : EReal) = ⊥ := by
    rw [Ideal.ofBits_def]; simp [Ideal.ofBits, Ideal.ieee]
  rw [b]
  exact congrArg (fun g => (Finset.univ : Finset (Fin 256)).fold max (⊥ : EReal) g) e

/-- The sum along row p, as a column entry. -/
theorem rowsum_apply (src : FVec Ideal S512x256 .f32) (p : Fin 512) (h : S512x256.Reduces [1] S512) (hc : S512.ShapeCasts S512x1)
    (hφ : FKind.Formats .f32) (hacc : (0x00000000#32 : BitVec 32) = FKind.add.neutral .f32 hφ) :
    shapeCast S512x1 (multiReduction (F := Ideal) .add [1] S512 src 0x00000000#32 h hφ hacc) hc (ix2 p (0 : Fin 1))
      = ∑ r : Fin 256, src (ix2 p r) := by
  refine (shapeCast_apply _ hc (ix2 p (0 : Fin 1)) (ix1 p) (col_pos p)).trans ?_
  refine (Ideal.multiReduction_add_single src _ h hφ hacc (ix1 p)).trans ?_
  exact Finset.sum_congr rfl fun r _ => congrArg src (lift_row h p r)

/-- A column broadcast to 256 lanes, at (p, r): the column's entry p. -/
theorem bcol_apply (v : FVec Ideal S512x1 .f32) (hb : S512x1.Broadcasts S512x256) (p : Fin 512) (r : Fin 256) :
    broadcastTo S512x256 v hb (ix2 p r) = v (ix2 p (0 : Fin 1)) :=
  broadcastTo_apply v hb (ix2 p r) (ix2 p (0 : Fin 1)) (fun a => by
    match a with
    | ⟨0, _⟩ => rfl
    | ⟨1, _⟩ => rfl)

/-! ## The payloads -/

/-- The logits of the block's rows against a chunk of 256 keys: entry (p, r) is the inner product of the block's
    row p with the chunk's row r. -/
theorem pay4_apply (v20 : Vec Ideal S256x256 .f32) (x0 : Vec Ideal S512x256 .f32) (p : Fin 512) (r : Fin 256) :
    k3_pay4 (F := Ideal) v20 x0 (ix2 p r) = ∑ c : Fin 256, x0 (ix2 p c) * v20 (ix2 r c) := by
  unfold k3_pay4
  refine (matmul0_apply _ _ p r).trans ?_
  refine Finset.sum_congr rfl fun c _ => ?_
  rw [transpose_apply [1, 0] _ _ (ix2 c r) (ix2 r c) (fun b => by
    match b with
    | ⟨0, _⟩ => rfl
    | ⟨1, _⟩ => rfl)]
  rw [truncf_apply, truncf_apply, shapeCast_self, shapeCast_self]

/-- The new running maximum of row p: the old one against the chunk's largest logit. -/
theorem pay5_apply (m : FVec Ideal S512x1 .f32) (v20 : Vec Ideal S256x256 .f32) (x0 : Vec Ideal S512x256 .f32) (p : Fin 512) :
    k3_pay5 (F := Ideal) m v20 x0 (ix2 p (0 : Fin 1))
      = max (m (ix2 p (0 : Fin 1))) ((Finset.univ : Finset (Fin 256)).fold max (⊥ : EReal) (fun r => k3_pay4 (F := Ideal) v20 x0 (ix2 p r))) := by
  unfold k3_pay5
  exact congrArg (max (m (ix2 p (0 : Fin 1)))) (rowmax_apply _ p _ _ _ _)

/-- The correction of row p: e to the old maximum less the new. -/
theorem pay6_apply (m : FVec Ideal S512x1 .f32) (v20 : Vec Ideal S256x256 .f32) (x0 : Vec Ideal S512x256 .f32) (p : Fin 512) :
    k3_pay6 (F := Ideal) m v20 x0 (ix2 p (0 : Fin 1))
      = Ideal.exp (m (ix2 p (0 : Fin 1)) - k3_pay5 (F := Ideal) m v20 x0 (ix2 p (0 : Fin 1))) := rfl

/-- The chunk's weights: e to each logit less the new maximum of its row. -/
theorem pay7_apply (m : FVec Ideal S512x1 .f32) (v20 : Vec Ideal S256x256 .f32) (x0 : Vec Ideal S512x256 .f32) (p : Fin 512) (r : Fin 256) :
    k3_pay7 (F := Ideal) m v20 x0 (ix2 p r)
      = Ideal.exp (k3_pay4 (F := Ideal) v20 x0 (ix2 p r) - k3_pay5 (F := Ideal) m v20 x0 (ix2 p (0 : Fin 1))) := by
  unfold k3_pay7
  exact congrArg (fun z => Ideal.exp (k3_pay4 (F := Ideal) v20 x0 (ix2 p r) - z)) (bcol_apply _ _ p r)

/-- The new normaliser of row p: the old one corrected, plus the chunk's weights. -/
theorem pay8_apply (m l : FVec Ideal S512x1 .f32) (v20 : Vec Ideal S256x256 .f32) (x0 : Vec Ideal S512x256 .f32) (p : Fin 512) :
    k3_pay8 (F := Ideal) m l v20 x0 (ix2 p (0 : Fin 1))
      = k3_pay6 (F := Ideal) m v20 x0 (ix2 p (0 : Fin 1)) * l (ix2 p (0 : Fin 1)) + ∑ r : Fin 256, k3_pay7 (F := Ideal) m v20 x0 (ix2 p r) := by
  unfold k3_pay8
  exact congrArg (fun z => k3_pay6 (F := Ideal) m v20 x0 (ix2 p (0 : Fin 1)) * l (ix2 p (0 : Fin 1)) + z) (rowsum_apply _ p _ _ _ _)

/-- The new accumulator at (p, q): the old one corrected, plus the chunk's weighted values. -/
theorem pay9_apply (m : FVec Ideal S512x1 .f32) (a : FVec Ideal S512x256 .f32) (v20 v23 : Vec Ideal S256x256 .f32) (x0 : Vec Ideal S512x256 .f32)
    (p : Fin 512) (q : Fin 256) :
    k3_pay9 (F := Ideal) m a v20 v23 x0 (ix2 p q)
      = k3_pay6 (F := Ideal) m v20 x0 (ix2 p (0 : Fin 1)) * a (ix2 p q) + ∑ r : Fin 256, k3_pay7 (F := Ideal) m v20 x0 (ix2 p r) * v23 (ix2 r q) := by
  unfold k3_pay9
  refine congrArg₂ (· + ·) (congrArg (· * a (ix2 p q)) (bcol_apply _ _ p q)) ?_
  refine (matmul0_apply _ _ p q).trans ?_
  refine Finset.sum_congr rfl fun r _ => ?_
  rw [truncf_apply, truncf_apply, shapeCast_self]

/-- The stored block at (p, q): the key entry times (the query entry plus the positive part of the accumulator
    over the normaliser) times the query entry. -/
theorem pay10_apply (l : FVec Ideal S512x1 .f32) (a : FVec Ideal S512x256 .f32) (x1 x0 : Vec Ideal S512x256 .f32) (p : Fin 512) (q : Fin 256) :
    k3_pay10 (F := Ideal) l a x1 x0 (ix2 p q)
      = x0 (ix2 p q) * (x1 (ix2 p q) + max (Ideal.div (a (ix2 p q)) (l (ix2 p (0 : Fin 1)))) 0) * x1 (ix2 p q) := by
  unfold k3_pay10
  have e0 : ∀ (y : Vec Ideal S512x256 .f32) (hs : S512x256.ShapeCasts S512x256), shapeCast S512x256 y hs (ix2 p q) = y (ix2 p q) := by
    intro y hs; rw [shapeCast_self]
  have z : (Scalar.ofBits (F := Ideal) .f32 0x00000000#32 : EReal) = 0 := Ideal.ofBits_zero_f32
  show (shapeCast S512x256 x0 _ (ix2 p q) * (shapeCast S512x256 x1 _ (ix2 p q) + max (Ideal.div (a (ix2 p q)) (broadcastTo S512x256 l _ (ix2 p q))) (Scalar.ofBits (F := Ideal) .f32 0x00000000#32))) * shapeCast S512x256 x1 _ (ix2 p q) = _
  rw [e0, e0, bcol_apply, z]

/-- The loop starts from maximum -∞, normaliser 0 and accumulator 0. -/
theorem pay1_apply (j : S512x1.Idx) : k3_pay1 (F := Ideal) j = ⊥ := by
  show (Scalar.ofBits (F := Ideal) .f32 0xFF800000#32 : EReal) = ⊥
  show Ideal.ofBits .f32 0xFF800000#32 = ⊥
  simp [Ideal.ofBits, Ideal.ieee]
theorem pay2_apply (j : S512x1.Idx) : k3_pay2 (F := Ideal) j = 0 := Ideal.ofBits_zero_f32
theorem pay3_apply (j : S512x256.Idx) : k3_pay3 (F := Ideal) j = 0 := Ideal.ofBits_zero_f32

theorem hz3 : (![0, 0] : Fin 2 → Nat) = fun _ => 0 := funext fun a => by fin_cases a <;> rfl

/-! # One trip of the loop, and the loop's state -/

/-- The loop makes 16 trips. -/
theorem trips3 : k3_t1_loop.trips = 16 := by decide +kernel

/-- The 256 rows trip k loads of a 4096-row array. -/
def chunk3 (x : Vec Ideal S4096x256 .f32) (k : Fin k3_t1_loop.trips) : Vec Ideal S256x256 .f32 :=
  View.ld x (Rect.unit (s := S4096x256) (k3_off1 k) S256x256.size (k3_off1_inb k))

/-- Its entry (r, c) is the array's entry (256·k + r, c). -/
theorem chunk3_apply (x : Vec Ideal S4096x256 .f32) (k : Fin k3_t1_loop.trips) (r c : Fin 256) (hb : 256 * k.val + r.val < 4096) :
    chunk3 x k (ix2 r c) = x (ix2 (⟨256 * k.val + r.val, hb⟩ : Fin 4096) c) := by
  have h0 : k3_off1 k 0 = 256 * k.val := congrFun (k3_off1_eq k) 0
  have h1 : k3_off1 k 1 = 0 := congrFun (k3_off1_eq k) 1
  refine congrArg x (funext fun a => Fin.ext ?_)
  match a with
  | ⟨0, _⟩ =>
    show k3_off1 k 0 + 1 * r.val = 256 * k.val + r.val
    rw [h0]; omega
  | ⟨1, _⟩ =>
    show k3_off1 k 1 + 1 * c.val = c.val
    rw [h1]; omega

/-- One trip's yield from the carried (maximum, normaliser, accumulator), the block and the two chunks. -/
def step3 (x0 : Vec Ideal S512x256 .f32) (v20 v23 : Vec Ideal S256x256 .f32) (acc : FVec Ideal S512x1 .f32 × FVec Ideal S512x1 .f32 × FVec Ideal S512x256 .f32) : FVec Ideal S512x1 .f32 × FVec Ideal S512x1 .f32 × FVec Ideal S512x256 .f32 :=
  (k3_pay5 (F := Ideal) acc.1 v20 x0, k3_pay8 (F := Ideal) acc.1 acc.2.1 v20 x0, k3_pay9 (F := Ideal) acc.1 acc.2.2 v20 v23 x0)

section Trip
variable {F : FTy → Type} [FloatOps F] [Named F]
set_option maxHeartbeats 1000000 in
/-- What the trip the run went through the loop by yields, at any contents of the three memrefs it reads: the
    trip's definition opened, once. -/
theorem tripR3_gen (c : Dev nD) (i : grid3.Coords) (arg1 : Memref sig .tc .vmem S512x256 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S512x256 .f32) (harg5 : arg5.IsWhole)
    (X1 : BufTy.Contents (Elt F) arg1.view.ty) (X3 : BufTy.Contents (Elt F) arg3.view.ty) (X4 : BufTy.Contents (Elt F) arg4.view.ty)
    (k : Fin k3_t1_loop.trips) (acc : FVec F S512x1 .f32 × FVec F S512x1 .f32 × FVec F S512x256 .f32) :
    tripR_k3_t1 (F := F) Variants.none c none i arg1 harg1 arg2 harg2 arg3 harg3 arg4 harg4 arg5 harg5 X1 X3 X4 k acc
      = (k3_pay5 acc.1 (View.readAt (Elt F) arg3.view (Rect.unit (s := S4096x256) (k3_off1 k) S256x256.size (k3_off1_inb k)).toLoadRect X3)
            (View.readAt (Elt F) arg1.view (Rect.unit (s := S512x256) ![0, 0] S512x256.size inb_S512x256_S512x256_0_0).toLoadRect X1),
          k3_pay8 acc.1 acc.2.1 (View.readAt (Elt F) arg3.view (Rect.unit (s := S4096x256) (k3_off1 k) S256x256.size (k3_off1_inb k)).toLoadRect X3)
            (View.readAt (Elt F) arg1.view (Rect.unit (s := S512x256) ![0, 0] S512x256.size inb_S512x256_S512x256_0_0).toLoadRect X1),
          k3_pay9 acc.1 acc.2.2 (View.readAt (Elt F) arg3.view (Rect.unit (s := S4096x256) (k3_off1 k) S256x256.size (k3_off1_inb k)).toLoadRect X3)
            (View.readAt (Elt F) arg4.view (Rect.unit (s := S4096x256) (k3_off1 k) S256x256.size (k3_off1_inb k)).toLoadRect X4)
            (View.readAt (Elt F) arg1.view (Rect.unit (s := S512x256) ![0, 0] S512x256.size inb_S512x256_S512x256_0_0).toLoadRect X1)) := by
  unfold tripR_k3_t1
  unfold trip_k3_t1
  rfl
end Trip

/-- At the memrefs' contents named from the blocks they read, the trip yields the step of the block and the
    two chunks. -/
theorem tripR3_eq (c : Dev nD) (i : grid3.Coords) (arg1 : Memref sig .tc .vmem S512x256 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S512x256 .f32) (harg5 : arg5.IsWhole)
    (x0 : Vec Ideal S512x256 .f32) (x2 x3 : Vec Ideal S4096x256 .f32) (k : Fin k3_t1_loop.trips) (acc : FVec Ideal S512x1 .f32 × FVec Ideal S512x1 .f32 × FVec Ideal S512x256 .f32) :
    tripR_k3_t1 (F := Ideal) Variants.none c none i arg1 harg1 arg2 harg2 arg3 harg3 arg4 harg4 arg5 harg5
        (harg1.unread x0) (harg3.unread x2) (harg4.unread x3) k acc
      = step3 x0 (chunk3 x2 k) (chunk3 x3 k) acc := by
  refine (tripR3_gen c i arg1 harg1 arg2 harg2 arg3 harg3 arg4 harg4 arg5 harg5 _ _ _ k acc).trans ?_
  simp only [View.readAt_eq_ld, Memref.IsWhole.read_unread]
  unfold step3 chunk3
  rw [View.ld_unit_zero (S := S512x256) hz3]

/-- The loop's carried value before trip n, at the blocks. -/
def stN3 (c : Dev nD) (i : grid3.Coords) (arg1 : Memref sig .tc .vmem S512x256 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S512x256 .f32) (harg5 : arg5.IsWhole)
    (x0 : Vec Ideal S512x256 .f32) (x2 x3 : Vec Ideal S4096x256 .f32) (n : ℕ) : FVec Ideal S512x1 .f32 × FVec Ideal S512x1 .f32 × FVec Ideal S512x256 .f32 :=
  st_k3_t1 (F := Ideal) Variants.none c none i arg1 harg1 arg2 harg2 arg3 harg3 arg4 harg4 arg5 harg5 (harg1.unread x0) (harg3.unread x2) (harg4.unread x3)
    (k3_pay1, k3_pay2, k3_pay3) n

theorem stN3_succ (c : Dev nD) (i : grid3.Coords) (arg1 : Memref sig .tc .vmem S512x256 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S512x256 .f32) (harg5 : arg5.IsWhole)
    (x0 : Vec Ideal S512x256 .f32) (x2 x3 : Vec Ideal S4096x256 .f32) (n : ℕ) (hk : n < k3_t1_loop.trips) :
    stN3 c i arg1 harg1 arg2 harg2 arg3 harg3 arg4 harg4 arg5 harg5 x0 x2 x3 (n + 1)
      = step3 x0 (chunk3 x2 ⟨n, hk⟩) (chunk3 x3 ⟨n, hk⟩) (stN3 c i arg1 harg1 arg2 harg2 arg3 harg3 arg4 harg4 arg5 harg5 x0 x2 x3 n) :=
  (st_k3_t1_succ (F := Ideal) Variants.none c none i arg1 harg1 arg2 harg2 arg3 harg3 arg4 harg4 arg5 harg5 (harg1.unread x0) (harg3.unread x2) (harg4.unread x3)
    (k3_pay1, k3_pay2, k3_pay3) ⟨n, hk⟩).trans (tripR3_eq c i arg1 harg1 arg2 harg2 arg3 harg3 arg4 harg4 arg5 harg5 x0 x2 x3 ⟨n, hk⟩ _)

theorem loop3_eq (c : Dev nD) (i : grid3.Coords) (arg1 : Memref sig .tc .vmem S512x256 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S512x256 .f32) (harg5 : arg5.IsWhole)
    (x0 : Vec Ideal S512x256 .f32) (x2 x3 : Vec Ideal S4096x256 .f32) :
    loop3 (F := Ideal) c i arg1 harg1 arg2 harg2 arg3 harg3 arg4 harg4 arg5 harg5 x0 x2 x3 = stN3 c i arg1 harg1 arg2 harg2 arg3 harg3 arg4 harg4 arg5 harg5 x0 x2 x3 16 := by
  unfold loop3 stN3
  exact congrArg _ trips3

/-! # A row of the block through the loop -/

open OnlineSoftmax in
/-- One trip, read at row p and column q, when the chunk's logits of row p are the reals σk and the chunk's
    values in column q the reals φk. -/
theorem step3_row (x0 : Vec Ideal S512x256 .f32) (v20 v23 : Vec Ideal S256x256 .f32) (acc : FVec Ideal S512x1 .f32 × FVec Ideal S512x1 .f32 × FVec Ideal S512x256 .f32) (p : Fin 512) (q : Fin 256)
    (σk φk : Fin 256 → ℝ)
    (hs : ∀ r, (∑ c : Fin 256, x0 (ix2 p c) * v20 (ix2 r c)) = ((σk r : ℝ) : EReal)) (hv : ∀ r, v23 (ix2 r q) = ((φk r : ℝ) : EReal)) :
    (step3 x0 v20 v23 acc).1 (ix2 p (0 : Fin 1))
        = max (acc.1 (ix2 p (0 : Fin 1))) ((Finset.univ : Finset (Fin 256)).fold max (⊥ : EReal) (fun r => ((σk r : ℝ) : EReal)))
      ∧ (step3 x0 v20 v23 acc).2.1 (ix2 p (0 : Fin 1))
        = Ideal.exp (acc.1 (ix2 p (0 : Fin 1)) - max (acc.1 (ix2 p (0 : Fin 1))) ((Finset.univ : Finset (Fin 256)).fold max (⊥ : EReal) (fun r => ((σk r : ℝ) : EReal))))
            * acc.2.1 (ix2 p (0 : Fin 1))
          + ∑ r, Ideal.exp (((σk r : ℝ) : EReal) - max (acc.1 (ix2 p (0 : Fin 1))) ((Finset.univ : Finset (Fin 256)).fold max (⊥ : EReal) (fun r => ((σk r : ℝ) : EReal))))
      ∧ (step3 x0 v20 v23 acc).2.2 (ix2 p q)
        = Ideal.exp (acc.1 (ix2 p (0 : Fin 1)) - max (acc.1 (ix2 p (0 : Fin 1))) ((Finset.univ : Finset (Fin 256)).fold max (⊥ : EReal) (fun r => ((σk r : ℝ) : EReal))))
            * acc.2.2 (ix2 p q)
          + ∑ r, Ideal.exp (((σk r : ℝ) : EReal) - max (acc.1 (ix2 p (0 : Fin 1))) ((Finset.univ : Finset (Fin 256)).fold max (⊥ : EReal) (fun r => ((σk r : ℝ) : EReal))))
              * ((φk r : ℝ) : EReal) := by
  have h4 : ∀ r, k3_pay4 (F := Ideal) v20 x0 (ix2 p r) = ((σk r : ℝ) : EReal) := fun r => (pay4_apply v20 x0 p r).trans (hs r)
  have h5 : k3_pay5 (F := Ideal) acc.1 v20 x0 (ix2 p (0 : Fin 1))
      = max (acc.1 (ix2 p (0 : Fin 1))) ((Finset.univ : Finset (Fin 256)).fold max (⊥ : EReal) (fun r => ((σk r : ℝ) : EReal))) := by
    rw [pay5_apply]; simp only [h4]
  have h6 : k3_pay6 (F := Ideal) acc.1 v20 x0 (ix2 p (0 : Fin 1)) = Ideal.exp (acc.1 (ix2 p (0 : Fin 1)) - max (acc.1 (ix2 p (0 : Fin 1))) ((Finset.univ : Finset (Fin 256)).fold max (⊥ : EReal) (fun r => ((σk r : ℝ) : EReal)))) := by
    rw [pay6_apply, h5]
  have h7 : ∀ r, k3_pay7 (F := Ideal) acc.1 v20 x0 (ix2 p r) = Ideal.exp (((σk r : ℝ) : EReal) - max (acc.1 (ix2 p (0 : Fin 1))) ((Finset.univ : Finset (Fin 256)).fold max (⊥ : EReal) (fun r => ((σk r : ℝ) : EReal)))) := fun r => by
    rw [pay7_apply, h4, h5]
  refine ⟨h5, ?_, ?_⟩
  · show k3_pay8 (F := Ideal) acc.1 acc.2.1 v20 x0 (ix2 p (0 : Fin 1)) = _
    rw [pay8_apply, h6]; simp only [h7]
  · show k3_pay9 (F := Ideal) acc.1 acc.2.2 v20 v23 x0 (ix2 p q) = _
    rw [pay9_apply, h6]; simp only [h7, hv]

open OnlineSoftmax in
/-- The same trip on the tracked sums: the new maximum is a real, and the normaliser and the accumulator track
    the sums extended by the chunk. -/
theorem tracks_chunk (m l a : EReal) (W N : ℝ) (hl : Tracks m l W) (ha : Tracks m a N) (σk φk : Fin 256 → ℝ) :
    (∃ μ' : ℝ, max m ((Finset.univ : Finset (Fin 256)).fold max (⊥ : EReal) (fun r => ((σk r : ℝ) : EReal))) = (μ' : EReal))
      ∧ Tracks (max m ((Finset.univ : Finset (Fin 256)).fold max (⊥ : EReal) (fun r => ((σk r : ℝ) : EReal))))
          (Ideal.exp (m - max m ((Finset.univ : Finset (Fin 256)).fold max (⊥ : EReal) (fun r => ((σk r : ℝ) : EReal)))) * l
            + ∑ r, Ideal.exp (((σk r : ℝ) : EReal) - max m ((Finset.univ : Finset (Fin 256)).fold max (⊥ : EReal) (fun r => ((σk r : ℝ) : EReal)))))
          (W + ∑ r, Real.exp (σk r))
      ∧ Tracks (max m ((Finset.univ : Finset (Fin 256)).fold max (⊥ : EReal) (fun r => ((σk r : ℝ) : EReal))))
          (Ideal.exp (m - max m ((Finset.univ : Finset (Fin 256)).fold max (⊥ : EReal) (fun r => ((σk r : ℝ) : EReal)))) * a
            + ∑ r, Ideal.exp (((σk r : ℝ) : EReal) - max m ((Finset.univ : Finset (Fin 256)).fold max (⊥ : EReal) (fun r => ((σk r : ℝ) : EReal)))) * ((φk r : ℝ) : EReal))
          (N + ∑ r, Real.exp (σk r) * φk r) := by
  obtain ⟨μ', hμ'⟩ := max_fold_real hl.shift σk
  rw [hμ']
  exact ⟨⟨μ', rfl⟩, hl.step_one μ' σk, ha.step μ' σk φk⟩

open OnlineSoftmax in
/-- THE LOOP, ROW BY ROW. When row p's logits against the 4096 keys are the reals σ and column q of the values
    the reals φ, then before trip n the normaliser of row p tracks the sum of e^σ over the first 256·n keys and the
    accumulator at (p, q) the sum of e^σ·φ over them, under the running maximum — a real once a trip has run. -/
theorem loop3_row (c : Dev nD) (i : grid3.Coords) (arg1 : Memref sig .tc .vmem S512x256 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S512x256 .f32) (harg5 : arg5.IsWhole)
    (x0 : Vec Ideal S512x256 .f32) (x2 x3 : Vec Ideal S4096x256 .f32) (p : Fin 512) (q : Fin 256) (σ φ : ℕ → ℝ)
    (hσ : ∀ s : Fin 4096, (∑ cc : Fin 256, x0 (ix2 p cc) * x2 (ix2 s cc)) = ((σ s.val : ℝ) : EReal))
    (hφ : ∀ s : Fin 4096, x3 (ix2 s q) = ((φ s.val : ℝ) : EReal)) :
    ∀ n, n ≤ 16 →
      Tracks ((stN3 c i arg1 harg1 arg2 harg2 arg3 harg3 arg4 harg4 arg5 harg5 x0 x2 x3 n).1 (ix2 p (0 : Fin 1))) ((stN3 c i arg1 harg1 arg2 harg2 arg3 harg3 arg4 harg4 arg5 harg5 x0 x2 x3 n).2.1 (ix2 p (0 : Fin 1)))
          (∑ s ∈ Finset.range (256 * n), Real.exp (σ s))
        ∧ Tracks ((stN3 c i arg1 harg1 arg2 harg2 arg3 harg3 arg4 harg4 arg5 harg5 x0 x2 x3 n).1 (ix2 p (0 : Fin 1))) ((stN3 c i arg1 harg1 arg2 harg2 arg3 harg3 arg4 harg4 arg5 harg5 x0 x2 x3 n).2.2 (ix2 p q))
          (∑ s ∈ Finset.range (256 * n), Real.exp (σ s) * φ s)
        ∧ (0 < n → ∃ μ : ℝ, (stN3 c i arg1 harg1 arg2 harg2 arg3 harg3 arg4 harg4 arg5 harg5 x0 x2 x3 n).1 (ix2 p (0 : Fin 1)) = (μ : EReal))
  | 0, _ => by
    have e : stN3 c i arg1 harg1 arg2 harg2 arg3 harg3 arg4 harg4 arg5 harg5 x0 x2 x3 0 = (k3_pay1, k3_pay2, k3_pay3) := rfl
    rw [e]
    show Tracks (k3_pay1 (F := Ideal) (ix2 p (0 : Fin 1))) (k3_pay2 (F := Ideal) (ix2 p (0 : Fin 1))) _
      ∧ Tracks (k3_pay1 (F := Ideal) (ix2 p (0 : Fin 1))) (k3_pay3 (F := Ideal) (ix2 p q)) _
      ∧ (0 < 0 → ∃ μ : ℝ, k3_pay1 (F := Ideal) (ix2 p (0 : Fin 1)) = (μ : EReal))
    rw [pay1_apply, pay2_apply, pay3_apply]
    simp only [Nat.mul_zero, Finset.range_zero, Finset.sum_empty]
    exact ⟨tracks_init, tracks_init, fun h => absurd h (Nat.lt_irrefl 0)⟩
  | n + 1, hn => by
    have ih := loop3_row c i arg1 harg1 arg2 harg2 arg3 harg3 arg4 harg4 arg5 harg5 x0 x2 x3 p q σ φ hσ hφ n (by omega)
    have hk : n < k3_t1_loop.trips := by rw [trips3]; omega
    rw [stN3_succ c i arg1 harg1 arg2 harg2 arg3 harg3 arg4 harg4 arg5 harg5 x0 x2 x3 n hk]
    have hb : ∀ r : Fin 256, 256 * n + r.val < 4096 := fun r => by have := r.isLt; omega
    obtain ⟨e1, e2, e3⟩ := step3_row x0 (chunk3 x2 ⟨n, hk⟩) (chunk3 x3 ⟨n, hk⟩) (stN3 c i arg1 harg1 arg2 harg2 arg3 harg3 arg4 harg4 arg5 harg5 x0 x2 x3 n) p q
      (fun r => σ (256 * n + r.val)) (fun r => φ (256 * n + r.val))
      (fun r => by
        have := hσ ⟨256 * n + r.val, hb r⟩
        rw [← this]
        exact Finset.sum_congr rfl fun cc _ => by rw [chunk3_apply x2 ⟨n, hk⟩ r cc (hb r)])
      (fun r => by rw [chunk3_apply x3 ⟨n, hk⟩ r q (hb r)]; exact hφ ⟨256 * n + r.val, hb r⟩)
    rw [e1, e2, e3]
    obtain ⟨hr, hl', ha'⟩ := tracks_chunk _ _ _ _ _ ih.1 ih.2.1 (fun r => σ (256 * n + r.val)) (fun r => φ (256 * n + r.val))
    have hsplit : ∀ f : ℕ → ℝ, ∑ s ∈ Finset.range (256 * (n + 1)), f s = ∑ s ∈ Finset.range (256 * n), f s + ∑ r : Fin 256, f (256 * n + r.val) := fun f => by
      rw [show 256 * (n + 1) = 256 * n + 256 by ring, Finset.sum_range_add]
      exact congrArg (∑ s ∈ Finset.range (256 * n), f s + ·) (Finset.sum_range (fun x => f (256 * n + x)))
    rw [hsplit, hsplit]
    exact ⟨hl', ha', fun _ => hr⟩

/-! # The stored block in closed form, and the specification's row -/

open OnlineSoftmax in
/-- THE STORED ENTRY. With row p's logits the reals σ and column q of the values the reals φ, the block's entry
    (p, q) is the key entry times (the query entry plus the positive part of the softmax average of φ under σ)
    times the query entry: after the 16 trips the accumulator over the normaliser is that average. -/
theorem out3_row (c : Dev nD) (i : grid3.Coords) (arg1 : Memref sig .tc .vmem S512x256 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S512x256 .f32) (harg5 : arg5.IsWhole)
    (x0 x1 : Vec Ideal S512x256 .f32) (x2 x3 : Vec Ideal S4096x256 .f32) (p : Fin 512) (q : Fin 256) (σ φ : ℕ → ℝ)
    (hσ : ∀ s : Fin 4096, (∑ cc : Fin 256, x0 (ix2 p cc) * x2 (ix2 s cc)) = ((σ s.val : ℝ) : EReal))
    (hφ : ∀ s : Fin 4096, x3 (ix2 s q) = ((φ s.val : ℝ) : EReal)) :
    k3_pay10 (F := Ideal) (loop3 (F := Ideal) c i arg1 harg1 arg2 harg2 arg3 harg3 arg4 harg4 arg5 harg5 x0 x2 x3).2.1 (loop3 (F := Ideal) c i arg1 harg1 arg2 harg2 arg3 harg3 arg4 harg4 arg5 harg5 x0 x2 x3).2.2 x1 x0 (ix2 p q)
      = x0 (ix2 p q) * (x1 (ix2 p q)
          + max ((((∑ s ∈ Finset.range 4096, Real.exp (σ s) * φ s) / (∑ s ∈ Finset.range 4096, Real.exp (σ s)) : ℝ)) : EReal) 0)
        * x1 (ix2 p q) := by
  rw [pay10_apply, loop3_eq]
  obtain ⟨hl, ha, hm⟩ := loop3_row c i arg1 harg1 arg2 harg2 arg3 harg3 arg4 harg4 arg5 harg5 x0 x2 x3 p q σ φ hσ hφ 16 (le_refl _)
  have hl' : Tracks _ _ (∑ s ∈ Finset.range 4096, Real.exp (σ s)) := hl
  have ha' : Tracks _ _ (∑ s ∈ Finset.range 4096, Real.exp (σ s) * φ s) := ha
  have hW : 0 < ∑ s ∈ Finset.range 4096, Real.exp (σ s) :=
    Finset.sum_pos (fun s _ => Real.exp_pos _) ⟨0, Finset.mem_range.2 (by norm_num)⟩
  rw [Tracks.div (hm (by norm_num)) hl' ha' hW]

open OnlineSoftmax in
/-- THE SPECIFICATION'S ROW. With row a of X·Xᵀ the reals σ and column j of Q the reals φ, the softmax of the row
    applied to the column is the same average: the row maximum is one of the reals, and the two-pass form of a
    softmax average does not depend on the shift. -/
theorem spec_row3 (X Q : Spec.Mat 4096 256) (a : Fin 4096) (j : Fin 256) (σ φ : ℕ → ℝ)
    (hσ : ∀ s : Fin 4096, Spec.gram X X (ix2 a s) = ((σ s.val : ℝ) : EReal))
    (hφ : ∀ s : Fin 4096, Q (ix2 s j) = ((φ s.val : ℝ) : EReal)) :
    Spec.mm (Spec.softmaxRow (Spec.gram X X)) Q (ix2 a j)
      = ((((∑ s ∈ Finset.range 4096, Real.exp (σ s) * φ s) / (∑ s ∈ Finset.range 4096, Real.exp (σ s)) : ℝ)) : EReal) := by
  have hmax : ∃ μ : ℝ, Spec.rowMax (Spec.gram X X) a = (μ : EReal) := by
    unfold Spec.rowMax
    obtain ⟨s, -, hs⟩ := Finset.exists_mem_eq_sup (Finset.univ : Finset (Fin 4096)) ⟨⟨0, by norm_num⟩, Finset.mem_univ _⟩
      (fun k => Spec.gram X X (ix2 a k))
    exact ⟨σ s.val, hs.trans (hσ s)⟩
  obtain ⟨μ, hμ⟩ := hmax
  haveI : Nonempty (Fin 4096) := ⟨⟨0, by norm_num⟩⟩
  refine Eq.trans ?_ ((two_pass μ (fun s : Fin 4096 => σ s.val) (fun s : Fin 4096 => φ s.val)).trans ?_)
  · show (∑ cc : Fin 4096, Spec.softmaxRow (Spec.gram X X) (ix2 a cc) * Q (ix2 cc j)) = _
    rw [zero_add]
    refine Finset.sum_congr rfl fun s _ => ?_
    show Ideal.div (Ideal.exp (Spec.gram X X (ix2 a s) - Spec.rowMax (Spec.gram X X) a))
        (∑ k : Fin 4096, Ideal.exp (Spec.gram X X (ix2 a k) - Spec.rowMax (Spec.gram X X) a)) * Q (ix2 s j) = _
    rw [hμ, hφ s, zero_add, mul_comm]
    simp only [hσ]
  · rw [Finset.sum_range, Finset.sum_range]

/-- A sum of products of reals, in the extended reals. -/
theorem coe_dot (n : ℕ) (u v : Fin n → ℝ) :
    (∑ cc : Fin n, ((u cc : ℝ) : EReal) * ((v cc : ℝ) : EReal)) = ((∑ cc : Fin n, u cc * v cc : ℝ) : EReal) := by
  rw [OnlineSoftmax.coe_sum]
  exact Finset.sum_congr rfl fun cc _ => (EReal.coe_mul _ _).symm

/-! # One grid point -/

/-- THE POINT. At the point whose block is rows 512·tv … 512·tv + 511: when the staging buffers hold those rows of X
    and of Q and the whole of X and of Q, all entries real, the stored block is those rows of the specification's
    stage. -/
theorem point3 (c : Dev nD) (i : grid3.Coords) (arg1 : Memref sig .tc .vmem S512x256 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S512x256 .f32) (harg5 : arg5.IsWhole)
    (x0 x1 : Vec Ideal S512x256 .f32) (x2 x3 : Vec Ideal S4096x256 .f32) (X Q : Spec.Mat 4096 256)
    (hXr : ∀ i, ∃ r : ℝ, X i = (r : EReal)) (hQr : ∀ i, ∃ r : ℝ, Q i = (r : EReal)) (tv : ℕ) (ht : tv < 8)
    (h0 : ∀ (p : Fin 512) (cc : Fin 256), x0 (ix2 p cc) = X (ix2 (⟨512 * tv + p.val, by have := p.isLt; omega⟩ : Fin 4096) cc))
    (h1 : ∀ (p : Fin 512) (cc : Fin 256), x1 (ix2 p cc) = Q (ix2 (⟨512 * tv + p.val, by have := p.isLt; omega⟩ : Fin 4096) cc))
    (h2 : ∀ (s : Fin 4096) (cc : Fin 256), x2 (ix2 s cc) = X (ix2 s cc))
    (h3 : ∀ (s : Fin 4096) (cc : Fin 256), x3 (ix2 s cc) = Q (ix2 s cc)) :
    k3_pay10 (F := Ideal) (loop3 (F := Ideal) c i arg1 harg1 arg2 harg2 arg3 harg3 arg4 harg4 arg5 harg5 x0 x2 x3).2.1 (loop3 (F := Ideal) c i arg1 harg1 arg2 harg2 arg3 harg3 arg4 harg4 arg5 harg5 x0 x2 x3).2.2 x1 x0
      = fun j : S512x256.Idx => Spec.B X Q (ix2 (⟨512 * tv + (j 0).val, by have := idx2_lt0 j; omega⟩ : Fin 4096) (j 1)) := by
  funext j
  obtain ⟨p, q, rfl⟩ : ∃ (p : Fin 512) (q : Fin 256), j = ix2 p q := ⟨j 0, j 1, eq_ix2 j⟩
  choose xr hxr using hXr
  choose qr hqr using hQr
  have hpb : 512 * tv + p.val < 4096 := by have := p.isLt; omega
  -- row p's logits and column q's values, as reals indexed by the key's number
  let σ : ℕ → ℝ := fun s => if h : s < 4096 then ∑ cc : Fin 256, xr (ix2 (⟨512 * tv + p.val, hpb⟩ : Fin 4096) cc) * xr (ix2 (⟨s, h⟩ : Fin 4096) cc) else 0
  let φ : ℕ → ℝ := fun s => if h : s < 4096 then qr (ix2 (⟨s, h⟩ : Fin 4096) q) else 0
  have hσv : ∀ s : Fin 4096, σ s.val = ∑ cc : Fin 256, xr (ix2 (⟨512 * tv + p.val, hpb⟩ : Fin 4096) cc) * xr (ix2 s cc) := fun s => dif_pos s.isLt
  have hφv : ∀ s : Fin 4096, φ s.val = qr (ix2 s q) := fun s => dif_pos s.isLt
  have hgram : ∀ s : Fin 4096, Spec.gram X X (ix2 (⟨512 * tv + p.val, hpb⟩ : Fin 4096) s) = ((σ s.val : ℝ) : EReal) := fun s => by
    show (∑ cc : Fin 256, X (ix2 (⟨512 * tv + p.val, hpb⟩ : Fin 4096) cc) * X (ix2 s cc)) = _
    rw [hσv s, ← coe_dot]
    exact Finset.sum_congr rfl fun cc _ => by rw [hxr, hxr]
  have hσk : ∀ s : Fin 4096, (∑ cc : Fin 256, x0 (ix2 p cc) * x2 (ix2 s cc)) = ((σ s.val : ℝ) : EReal) := fun s => by
    rw [← hgram s]
    show (∑ cc : Fin 256, x0 (ix2 p cc) * x2 (ix2 s cc))
      = ∑ cc : Fin 256, X (ix2 (⟨512 * tv + p.val, hpb⟩ : Fin 4096) cc) * X (ix2 s cc)
    exact Finset.sum_congr rfl fun cc _ => by rw [h0, h2]
  have hφs : ∀ s : Fin 4096, Q (ix2 s q) = ((φ s.val : ℝ) : EReal) := fun s => by rw [hφv s, hqr]
  have hφk : ∀ s : Fin 4096, x3 (ix2 s q) = ((φ s.val : ℝ) : EReal) := fun s => by rw [h3, hφs s]
  rw [out3_row c i arg1 harg1 arg2 harg2 arg3 harg3 arg4 harg4 arg5 harg5 x0 x1 x2 x3 p q σ φ hσk hφk, h0, h1]
  show _ = X (ix2 (⟨512 * tv + p.val, hpb⟩ : Fin 4096) q)
      * (Q (ix2 (⟨512 * tv + p.val, hpb⟩ : Fin 4096) q) + max (Spec.mm (Spec.softmaxRow (Spec.gram X X)) Q (ix2 (⟨512 * tv + p.val, hpb⟩ : Fin 4096) q)) 0)
      * Q (ix2 (⟨512 * tv + p.val, hpb⟩ : Fin 4096) q)
  rw [spec_row3 X Q ⟨512 * tv + p.val, hpb⟩ q σ φ hgram hφs]

/-! # From the blocks to the array -/

/-- The printed index maps over the grid: the block windows 0, 1, 4 sit at block row t, the whole-array windows 2, 3
    at block 0. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

section Blocks
variable (V : (c : Dev nD) → (b : Ref sig .tc) → Buf (Elt Ideal) ((c : Thread nD τ).loc b))

/-- WHAT POINT t WRITES BACK is block t of the specification's stage of the region-entry arrays. -/
theorem flushed3_eq (c : Dev nD) (X Q : Spec.Mat 4096 256)
    (hX : (V c main_v16_0 : S4096x256.Idx → EReal) = X) (hQ : (V c main_v14 : S4096x256.Idx → EReal) = Q)
    (hXr : ∀ i, ∃ r : ℝ, X i = (r : EReal)) (hQr : ∀ i, ∃ r : ℝ, Q i = (r : EReal)) (t : Fin cfg3.N) :
    (dat3 (F := Ideal) V c).flushed 4 t = ((cfg3.win 4).blk t).view.read (Elt Ideal) (Spec.B X Q) := by
  have htN : t.val < 8 := by have := t.isLt; have hN : cfg3.N = 8 := N_3; omega
  obtain ⟨e00, e01, e10, e11, e20, e21, e30, e31, e40, e41⟩ := idx_facts3 t
  show (cfg3.win 4).cut (grid3.coords t) ((dat3 (F := Ideal) V c).after 4 t) = _
  rw [after3_4]
  unfold out3_4
  rw [View.canon_unit_zero hz3]
  simp only [View.ld_unit_zero (S := S512x256) hz3]
  refine (point3 c _ _ _ _ _ _ _ _ _ _ _ (iblk3 V c 0 t) (iblk3 V c 1 t) (iblk3 V c 2 t) (iblk3 V c 3 t) X Q hXr hQr t.val htN ?_ ?_ ?_ ?_).trans ?_
  · intro p cc
    show V c main_v16_0 (((cfg3.win 0).blk t).view.emb (ix2 p cc)) = _
    rw [← hX]
    refine congrArg (V c main_v16_0) (funext fun a => Fin.ext ?_)
    match a with
    | ⟨0, _⟩ => show win3_0.index t (0 : Fin 2) * 512 + 1 * p.val = 512 * t.val + p.val; rw [e00]; omega
    | ⟨1, _⟩ => show win3_0.index t (1 : Fin 2) * 256 + 1 * cc.val = cc.val; rw [e01]; omega
  · intro p cc
    show V c main_v14 (((cfg3.win 1).blk t).view.emb (ix2 p cc)) = _
    rw [← hQ]
    refine congrArg (V c main_v14) (funext fun a => Fin.ext ?_)
    match a with
    | ⟨0, _⟩ => show win3_1.index t (0 : Fin 2) * 512 + 1 * p.val = 512 * t.val + p.val; rw [e10]; omega
    | ⟨1, _⟩ => show win3_1.index t (1 : Fin 2) * 256 + 1 * cc.val = cc.val; rw [e11]; omega
  · intro s cc
    show V c main_v16_0 (((cfg3.win 2).blk t).view.emb (ix2 s cc)) = _
    rw [← hX]
    refine congrArg (V c main_v16_0) (funext fun a => Fin.ext ?_)
    match a with
    | ⟨0, _⟩ => show win3_2.index t (0 : Fin 2) * 4096 + 1 * s.val = s.val; rw [e20]; omega
    | ⟨1, _⟩ => show win3_2.index t (1 : Fin 2) * 256 + 1 * cc.val = cc.val; rw [e21]; omega
  · intro s cc
    show V c main_v14 (((cfg3.win 3).blk t).view.emb (ix2 s cc)) = _
    rw [← hQ]
    refine congrArg (V c main_v14) (funext fun a => Fin.ext ?_)
    match a with
    | ⟨0, _⟩ => show win3_3.index t (0 : Fin 2) * 4096 + 1 * s.val = s.val; rw [e30]; omega
    | ⟨1, _⟩ => show win3_3.index t (1 : Fin 2) * 256 + 1 * cc.val = cc.val; rw [e31]; omega
  · funext j
    show Spec.B X Q _ = Spec.B X Q (((cfg3.win 4).blk t).view.emb j)
    refine congrArg (Spec.B X Q) (funext fun a => Fin.ext ?_)
    match a with
    | ⟨0, _⟩ => show 512 * t.val + (j 0).val = win3_4.index t (0 : Fin 2) * 512 + 1 * (j 0).val; rw [e40]; omega
    | ⟨1, _⟩ => show (j 1).val = win3_4.index t (1 : Fin 2) * 256 + 1 * (j 1).val; rw [e41]; omega

/-- An index of the output array is in point t's block iff each coordinate is in the block's range on its axis. -/
theorem mem_blk3 (t : Fin cfg3.N) (i : S4096x256.Idx) :
    i ∈ ((cfg3.win 4).blk t).view.set ↔ ∀ a : Fin 2, win3_4.index t a * S512x256.size a ≤ (i a).val ∧ (i a).val < win3_4.index t a * S512x256.size a + S512x256.size a := by
  show i ∈ ((View.whole main_v17).slice (win3_4.rect t)).set ↔ _
  rw [View.set_slice_whole, Rect.mem_set_unit]
  exact Iff.rfl

/-- Row r of the output array is in the block of point r / 512, which writes it back. -/
theorem cover3 (i : S4096x256.Idx) :
    ∃ t : Fin cfg3.N, (cfg3.win 4).flush t = true ∧ i ∈ ((cfg3.win 4).blk t).view.set := by
  have hi0 : (i 0).val < 4096 := idx2_lt0 i
  have hi1 : (i 1).val < 256 := idx2_lt1 i
  have hN : cfg3.N = 8 := N_3
  have htb : (i 0).val / 512 < cfg3.N := by rw [hN]; omega
  obtain ⟨-, -, -, -, -, -, -, -, e40, e41⟩ := idx_facts3 ⟨(i 0).val / 512, htb⟩
  refine ⟨⟨(i 0).val / 512, htb⟩, flush3_4 _, ?_⟩
  rw [mem_blk3]
  intro a
  match a with
  | ⟨0, _⟩ =>
    show win3_4.index ⟨(i 0).val / 512, htb⟩ (0 : Fin 2) * 512 ≤ (i 0).val ∧ (i 0).val < win3_4.index ⟨(i 0).val / 512, htb⟩ (0 : Fin 2) * 512 + 512
    rw [e40]; show (i 0).val / 512 * 512 ≤ (i 0).val ∧ (i 0).val < (i 0).val / 512 * 512 + 512; omega
  | ⟨1, _⟩ =>
    show win3_4.index ⟨(i 0).val / 512, htb⟩ (1 : Fin 2) * 256 ≤ (i 1).val ∧ (i 1).val < win3_4.index ⟨(i 0).val / 512, htb⟩ (1 : Fin 2) * 256 + 256
    rw [e41]; omega

end Blocks

end V3

section Out
variable (V : (c : Dev nD) → (b : Ref sig .tc) → Buf (Elt Ideal) ((c : Thread nD τ).loc b))

/-- THE OUTPUT ARRAY after the region: the specification's stage X · (Q + max(softmax(X·Xᵀ)·Q, 0)) · Q of the
    region-entry arrays, all of whose entries are real. -/
theorem value3 (c : Dev nD) (X Q : Spec.Mat 4096 256)
    (hX : (V c main_v16_0 : S4096x256.Idx → EReal) = X) (hQ : (V c main_v14 : S4096x256.Idx → EReal) = Q)
    (hXr : ∀ i, ∃ r : ℝ, X i = (r : EReal)) (hQr : ∀ i, ∃ r : ℝ, Q i = (r : EReal)) :
    ((dat3 (F := Ideal) V c).arrAt 4 cfg3.N : S4096x256.Idx → EReal) = Spec.B X Q :=
  (dat3 (F := Ideal) V c).arrAt_eq_of_cover 4 (Spec.B X Q) (fun t _ => V3.flushed3_eq V c X Q hX hQ hXr hQr t) (V3.cover3)
end Out

end Cert.KernelIdeal.HandValue

end
-- ==== Proof.KI.Value4.lean ====
import proofs.«170994_j15857019257044_2_alg».proof.Proof.KI.Region4
import proofs.«170994_j15857019257044_2_alg».proof.Proof.Spec
import proofs.«170994_j15857019257044_2_alg».proof.Proof.LibOnlineSoftmax
import Idealize.ShloMosaic.PureOps.Ideal
import Idealize.ShloMosaic.PureOps.Ideal.Laws
import Idealize.ShloMosaic.Lib.ValueIdx
import Idealize.ShloMosaic.Lib.Pipeline.Value

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open scoped BigOperators

namespace V4

/-! # Call 4's payloads read at an index, at the ideal values

Every payload of the body is a chain of pointwise operations around three non-pointwise ones: a 512×256 by
256×256 matrix product into a zero accumulator, a maximum and a sum along each row of 256 lanes, and the
broadcast of a column to 256 lanes. Read at an index (p, q) each is a plain expression of the operands'
entries; the format changes (single to half precision and back) do nothing at the ideal values. -/

/-! ## The matrix product's operand indices -/

theorem dlhs_0 (i : S512x256.Idx) (q : dot_S512x256_S256x256_S512x256_1_0_0_1_n_n.contr.Idx) :
    (dot_S512x256_S256x256_S512x256_1_0_0_1_n_n.lhsIdx i q 0).val = (i 0).val := by
  unfold DotDims.lhsIdx
  rw [dif_neg (show ¬(0 : Fin S512x256.rank) ∈ dot_S512x256_S256x256_S512x256_1_0_0_1_n_n.lhsBatch by decide), dif_pos (show (0 : Fin S512x256.rank) ∈ dot_S512x256_S256x256_S512x256_1_0_0_1_n_n.lhsNonContracting by decide)]
  rfl
theorem dlhs_1 (i : S512x256.Idx) (q : dot_S512x256_S256x256_S512x256_1_0_0_1_n_n.contr.Idx) :
    (dot_S512x256_S256x256_S512x256_1_0_0_1_n_n.lhsIdx i q 1).val = (q ⟨0, by decide⟩).val :=
  dot_S512x256_S256x256_S512x256_1_0_0_1_n_n.lhsIdx_val_of_single rfl i q
theorem drhs_0 (i : S512x256.Idx) (q : dot_S512x256_S256x256_S512x256_1_0_0_1_n_n.contr.Idx) :
    (dot_S512x256_S256x256_S512x256_1_0_0_1_n_n.rhsIdx i q 0).val = (q ⟨0, by decide⟩).val :=
  dot_S512x256_S256x256_S512x256_1_0_0_1_n_n.rhsIdx_val_of_single rfl i q
theorem drhs_1 (i : S512x256.Idx) (q : dot_S512x256_S256x256_S512x256_1_0_0_1_n_n.contr.Idx) :
    (dot_S512x256_S256x256_S512x256_1_0_0_1_n_n.rhsIdx i q 1).val = (i 1).val := by
  unfold DotDims.rhsIdx
  rw [dif_neg (show ¬(1 : Fin S256x256.rank) ∈ dot_S512x256_S256x256_S512x256_1_0_0_1_n_n.rhsBatch by decide), dif_pos (show (1 : Fin S256x256.rank) ∈ dot_S512x256_S256x256_S512x256_1_0_0_1_n_n.rhsNonContracting by decide)]
  rfl

/-- The product into the zero accumulator, at (p, q): the sum over the 256 contraction coordinates. -/
theorem matmul0_apply (lhs : FVec Ideal S512x256 .bf16) (rhs : FVec Ideal S256x256 .bf16) (p : Fin 512) (q : Fin 256) :
    matmul dot_S512x256_S256x256_S512x256_1_0_0_1_n_n none lhs rhs (constant (F := Ideal) S512x256 .f32 0x00000000#32) (ix2 p q)
      = ∑ k : Fin 256, lhs (ix2 p k) * rhs (ix2 k q) := by
  simp only [matmul]
  rw [Ideal.matmul_constant_zero_apply, ← Equiv.sum_comp (contrEquiv1 dot_S512x256_S256x256_S512x256_1_0_0_1_n_n 256 rfl rfl).symm]
  refine Finset.sum_congr rfl fun k _ => ?_
  have hk := contrEquiv1_symm_val dot_S512x256_S256x256_S512x256_1_0_0_1_n_n 256 rfl rfl k
  have el : dot_S512x256_S256x256_S512x256_1_0_0_1_n_n.lhsIdx (ix2 p q) ((contrEquiv1 dot_S512x256_S256x256_S512x256_1_0_0_1_n_n 256 rfl rfl).symm k) = ix2 p k := funext fun a => Fin.ext (by
    match a with
    | ⟨0, _⟩ => exact dlhs_0 _ _
    | ⟨1, _⟩ => exact (dlhs_1 _ _).trans hk)
  have er : dot_S512x256_S256x256_S512x256_1_0_0_1_n_n.rhsIdx (ix2 p q) ((contrEquiv1 dot_S512x256_S256x256_S512x256_1_0_0_1_n_n 256 rfl rfl).symm k) = ix2 k q := funext fun a => Fin.ext (by
    match a with
    | ⟨0, _⟩ => exact (drhs_0 _ _).trans hk
    | ⟨1, _⟩ => exact drhs_1 _ _)
  rw [el, er]

/-! ## The row reductions and the column broadcast -/

/-- The index of row p of the 512-vector and of the 512×1 column sit at the same row-major position. -/
theorem col_pos (p : Fin 512) : (S512.rowMajor (ix1 p)).val = (S512x1.rowMajor (ix2 p (0 : Fin 1))).val := by
  rw [Shape.rowMajor_val_one, Shape.rowMajor_val_two]
  show p.val = p.val * 1 + 0
  omega

/-- Row p's lanes: the reduced index with lane r put back is (p, r). -/
theorem lift_row (h : S512x256.Reduces [1] S512) (p : Fin 512) (r : Fin 256) : h.lift (ix1 p) r = ix2 p r :=
  funext fun a => Fin.ext (by match a with | ⟨0, _⟩ => rfl | ⟨1, _⟩ => rfl)

/-- The maximum along row p, as a column entry: the fold of max from -∞ over the row's 256 lanes. -/
theorem rowmax_apply (src : FVec Ideal S512x256 .f32) (p : Fin 512) (h : S512x256.Reduces [1] S512) (hc : S512.ShapeCasts S512x1)
    (hφ : FKind.Formats .f32) (hacc : (0xFF800000#32 : BitVec 32) = FKind.maximumf.neutral .f32 hφ) :
    shapeCast S512x1 (multiReduction (F := Ideal) .maximumf [1] S512 src 0xFF800000#32 h hφ hacc) hc (ix2 p (0 : Fin 1))
      = (Finset.univ : Finset (Fin 256)).fold max (⊥ : EReal) (fun r => src (ix2 p r)) := by
  refine (shapeCast_apply _ hc (ix2 p (0 : Fin 1)) (ix1 p) (col_pos p)).trans ?_
  refine (Ideal.multiReduction_maximumf_single src _ h hφ hacc (ix1 p)).trans ?_
  have e : (src ∘ h.lift (ix1 p)) = fun r : Fin 256 => src (ix2 p r) := funext fun r => congrArg src (lift_row h p r)
  have b : (FloatOps.ofBits (F := Ideal) .f32 0xFF800000#32 : EReal) = ⊥ := by
    rw [Ideal.ofBits_def]; simp [Ideal.ofBits, Ideal.ieee]
  rw [b]
  exact congrArg (fun g => (Finset.univ : Finset (Fin 256)).fold max (⊥ : EReal) g) e

/-- The sum along row p, as a column entry. -/
theorem rowsum_apply (src : FVec Ideal S512x256 .f32) (p : Fin 512) (h : S512x256.Reduces [1] S512) (hc : S512.ShapeCasts S512x1)
    (hφ : FKind.Formats .f32) (hacc : (0x00000000#32 : BitVec 32) = FKind.add.neutral .f32 hφ) :
    shapeCast S512x1 (multiReduction (F := Ideal) .add [1] S512 src 0x00000000#32 h hφ hacc) hc (ix2 p (0 : Fin 1))
      = ∑ r : Fin 256, src (ix2 p r) := by
  refine (shapeCast_apply _ hc (ix2 p (0 : Fin 1)) (ix1 p) (col_pos p)).trans ?_
  refine (Ideal.multiReduction_add_single src _ h hφ hacc (ix1 p)).trans ?_
  exact Finset.sum_congr rfl fun r _ => congrArg src (lift_row h p r)

/-- A column broadcast to 256 lanes, at (p, r): the column's entry p. -/
theorem bcol_apply (v : FVec Ideal S512x1 .f32) (hb : S512x1.Broadcasts S512x256) (p : Fin 512) (r : Fin 256) :
    broadcastTo S512x256 v hb (ix2 p r) = v (ix2 p (0 : Fin 1)) :=
  broadcastTo_apply v hb (ix2 p r) (ix2 p (0 : Fin 1)) (fun a => by
    match a with
    | ⟨0, _⟩ => rfl
    | ⟨1, _⟩ => rfl)

/-! ## The payloads -/

/-- The logits of the block's rows against a chunk of 256 keys: entry (p, r) is the inner product of the block's
    row p with the chunk's row r. -/
theorem pay4_apply (v20 : Vec Ideal S256x256 .f32) (x0 : Vec Ideal S512x256 .f32) (p : Fin 512) (r : Fin 256) :
    k4_pay4 (F := Ideal) v20 x0 (ix2 p r) = ∑ c : Fin 256, x0 (ix2 p c) * v20 (ix2 r c) := by
  unfold k4_pay4
  refine (matmul0_apply _ _ p r).trans ?_
  refine Finset.sum_congr rfl fun c _ => ?_
  rw [transpose_apply [1, 0] _ _ (ix2 c r) (ix2 r c) (fun b => by
    match b with
    | ⟨0, _⟩ => rfl
    | ⟨1, _⟩ => rfl)]
  rw [truncf_apply, truncf_apply, shapeCast_self, shapeCast_self]

/-- The new running maximum of row p: the old one against the chunk's largest logit. -/
theorem pay5_apply (m : FVec Ideal S512x1 .f32) (v20 : Vec Ideal S256x256 .f32) (x0 : Vec Ideal S512x256 .f32) (p : Fin 512) :
    k4_pay5 (F := Ideal) m v20 x0 (ix2 p (0 : Fin 1))
      = max (m (ix2 p (0 : Fin 1))) ((Finset.univ : Finset (Fin 256)).fold max (⊥ : EReal) (fun r => k4_pay4 (F := Ideal) v20 x0 (ix2 p r))) := by
  unfold k4_pay5
  exact congrArg (max (m (ix2 p (0 : Fin 1)))) (rowmax_apply _ p _ _ _ _)

/-- The correction of row p: e to the old maximum less the new. -/
theorem pay6_apply (m : FVec Ideal S512x1 .f32) (v20 : Vec Ideal S256x256 .f32) (x0 : Vec Ideal S512x256 .f32) (p : Fin 512) :
    k4_pay6 (F := Ideal) m v20 x0 (ix2 p (0 : Fin 1))
      = Ideal.exp (m (ix2 p (0 : Fin 1)) - k4_pay5 (F := Ideal) m v20 x0 (ix2 p (0 : Fin 1))) := rfl

/-- The chunk's weights: e to each logit less the new maximum of its row. -/
theorem pay7_apply (m : FVec Ideal S512x1 .f32) (v20 : Vec Ideal S256x256 .f32) (x0 : Vec Ideal S512x256 .f32) (p : Fin 512) (r : Fin 256) :
    k4_pay7 (F := Ideal) m v20 x0 (ix2 p r)
      = Ideal.exp (k4_pay4 (F := Ideal) v20 x0 (ix2 p r) - k4_pay5 (F := Ideal) m v20 x0 (ix2 p (0 : Fin 1))) := by
  unfold k4_pay7
  exact congrArg (fun z => Ideal.exp (k4_pay4 (F := Ideal) v20 x0 (ix2 p r) - z)) (bcol_apply _ _ p r)

/-- The new normaliser of row p: the old one corrected, plus the chunk's weights. -/
theorem pay8_apply (m l : FVec Ideal S512x1 .f32) (v20 : Vec Ideal S256x256 .f32) (x0 : Vec Ideal S512x256 .f32) (p : Fin 512) :
    k4_pay8 (F := Ideal) m l v20 x0 (ix2 p (0 : Fin 1))
      = k4_pay6 (F := Ideal) m v20 x0 (ix2 p (0 : Fin 1)) * l (ix2 p (0 : Fin 1)) + ∑ r : Fin 256, k4_pay7 (F := Ideal) m v20 x0 (ix2 p r) := by
  unfold k4_pay8
  exact congrArg (fun z => k4_pay6 (F := Ideal) m v20 x0 (ix2 p (0 : Fin 1)) * l (ix2 p (0 : Fin 1)) + z) (rowsum_apply _ p _ _ _ _)

/-- The new accumulator at (p, q): the old one corrected, plus the chunk's weighted values. -/
theorem pay9_apply (m : FVec Ideal S512x1 .f32) (a : FVec Ideal S512x256 .f32) (v20 v23 : Vec Ideal S256x256 .f32) (x0 : Vec Ideal S512x256 .f32)
    (p : Fin 512) (q : Fin 256) :
    k4_pay9 (F := Ideal) m a v20 v23 x0 (ix2 p q)
      = k4_pay6 (F := Ideal) m v20 x0 (ix2 p (0 : Fin 1)) * a (ix2 p q) + ∑ r : Fin 256, k4_pay7 (F := Ideal) m v20 x0 (ix2 p r) * v23 (ix2 r q) := by
  unfold k4_pay9
  refine congrArg₂ (· + ·) (congrArg (· * a (ix2 p q)) (bcol_apply _ _ p q)) ?_
  refine (matmul0_apply _ _ p q).trans ?_
  refine Finset.sum_congr rfl fun r _ => ?_
  rw [truncf_apply, truncf_apply, shapeCast_self]

/-- The stored block at (p, q): the key entry times (the query entry plus the positive part of the accumulator
    over the normaliser) times the query entry. -/
theorem pay10_apply (l : FVec Ideal S512x1 .f32) (a : FVec Ideal S512x256 .f32) (x1 x0 : Vec Ideal S512x256 .f32) (p : Fin 512) (q : Fin 256) :
    k4_pay10 (F := Ideal) l a x1 x0 (ix2 p q)
      = x0 (ix2 p q) * (x1 (ix2 p q) + max (Ideal.div (a (ix2 p q)) (l (ix2 p (0 : Fin 1)))) 0) * x1 (ix2 p q) := by
  unfold k4_pay10
  have e0 : ∀ (y : Vec Ideal S512x256 .f32) (hs : S512x256.ShapeCasts S512x256), shapeCast S512x256 y hs (ix2 p q) = y (ix2 p q) := by
    intro y hs; rw [shapeCast_self]
  have z : (Scalar.ofBits (F := Ideal) .f32 0x00000000#32 : EReal) = 0 := Ideal.ofBits_zero_f32
  show (shapeCast S512x256 x0 _ (ix2 p q) * (shapeCast S512x256 x1 _ (ix2 p q) + max (Ideal.div (a (ix2 p q)) (broadcastTo S512x256 l _ (ix2 p q))) (Scalar.ofBits (F := Ideal) .f32 0x00000000#32))) * shapeCast S512x256 x1 _ (ix2 p q) = _
  rw [e0, e0, bcol_apply, z]

/-- The loop starts from maximum -∞, normaliser 0 and accumulator 0. -/
theorem pay1_apply (j : S512x1.Idx) : k4_pay1 (F := Ideal) j = ⊥ := by
  show (Scalar.ofBits (F := Ideal) .f32 0xFF800000#32 : EReal) = ⊥
  show Ideal.ofBits .f32 0xFF800000#32 = ⊥
  simp [Ideal.ofBits, Ideal.ieee]
theorem pay2_apply (j : S512x1.Idx) : k4_pay2 (F := Ideal) j = 0 := Ideal.ofBits_zero_f32
theorem pay3_apply (j : S512x256.Idx) : k4_pay3 (F := Ideal) j = 0 := Ideal.ofBits_zero_f32

theorem hz4 : (![0, 0] : Fin 2 → Nat) = fun _ => 0 := funext fun a => by fin_cases a <;> rfl

/-! # One trip of the loop, and the loop's state -/

/-- The loop makes 16 trips. -/
theorem trips4 : k4_t1_loop.trips = 16 := by decide +kernel

/-- The 256 rows trip k loads of a 4096-row array. -/
def chunk4 (x : Vec Ideal S4096x256 .f32) (k : Fin k4_t1_loop.trips) : Vec Ideal S256x256 .f32 :=
  View.ld x (Rect.unit (s := S4096x256) (k4_off1 k) S256x256.size (k4_off1_inb k))

/-- Its entry (r, c) is the array's entry (256·k + r, c). -/
theorem chunk4_apply (x : Vec Ideal S4096x256 .f32) (k : Fin k4_t1_loop.trips) (r c : Fin 256) (hb : 256 * k.val + r.val < 4096) :
    chunk4 x k (ix2 r c) = x (ix2 (⟨256 * k.val + r.val, hb⟩ : Fin 4096) c) := by
  have h0 : k4_off1 k 0 = 256 * k.val := congrFun (k4_off1_eq k) 0
  have h1 : k4_off1 k 1 = 0 := congrFun (k4_off1_eq k) 1
  refine congrArg x (funext fun a => Fin.ext ?_)
  match a with
  | ⟨0, _⟩ =>
    show k4_off1 k 0 + 1 * r.val = 256 * k.val + r.val
    rw [h0]; omega
  | ⟨1, _⟩ =>
    show k4_off1 k 1 + 1 * c.val = c.val
    rw [h1]; omega

/-- One trip's yield from the carried (maximum, normaliser, accumulator), the block and the two chunks. -/
def step4 (x0 : Vec Ideal S512x256 .f32) (v20 v23 : Vec Ideal S256x256 .f32) (acc : FVec Ideal S512x1 .f32 × FVec Ideal S512x1 .f32 × FVec Ideal S512x256 .f32) : FVec Ideal S512x1 .f32 × FVec Ideal S512x1 .f32 × FVec Ideal S512x256 .f32 :=
  (k4_pay5 (F := Ideal) acc.1 v20 x0, k4_pay8 (F := Ideal) acc.1 acc.2.1 v20 x0, k4_pay9 (F := Ideal) acc.1 acc.2.2 v20 v23 x0)

section Trip
variable {F : FTy → Type} [FloatOps F] [Named F]
set_option maxHeartbeats 1000000 in
/-- What the trip the run went through the loop by yields, at any contents of the three memrefs it reads: the
    trip's definition opened, once. -/
theorem tripR4_gen (c : Dev nD) (i : grid4.Coords) (arg1 : Memref sig .tc .vmem S512x256 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S512x256 .f32) (harg5 : arg5.IsWhole)
    (X1 : BufTy.Contents (Elt F) arg1.view.ty) (X3 : BufTy.Contents (Elt F) arg3.view.ty) (X4 : BufTy.Contents (Elt F) arg4.view.ty)
    (k : Fin k4_t1_loop.trips) (acc : FVec F S512x1 .f32 × FVec F S512x1 .f32 × FVec F S512x256 .f32) :
    tripR_k4_t1 (F := F) Variants.none c none i arg1 harg1 arg2 harg2 arg3 harg3 arg4 harg4 arg5 harg5 X1 X3 X4 k acc
      = (k4_pay5 acc.1 (View.readAt (Elt F) arg3.view (Rect.unit (s := S4096x256) (k4_off1 k) S256x256.size (k4_off1_inb k)).toLoadRect X3)
            (View.readAt (Elt F) arg1.view (Rect.unit (s := S512x256) ![0, 0] S512x256.size inb_S512x256_S512x256_0_0).toLoadRect X1),
          k4_pay8 acc.1 acc.2.1 (View.readAt (Elt F) arg3.view (Rect.unit (s := S4096x256) (k4_off1 k) S256x256.size (k4_off1_inb k)).toLoadRect X3)
            (View.readAt (Elt F) arg1.view (Rect.unit (s := S512x256) ![0, 0] S512x256.size inb_S512x256_S512x256_0_0).toLoadRect X1),
          k4_pay9 acc.1 acc.2.2 (View.readAt (Elt F) arg3.view (Rect.unit (s := S4096x256) (k4_off1 k) S256x256.size (k4_off1_inb k)).toLoadRect X3)
            (View.readAt (Elt F) arg4.view (Rect.unit (s := S4096x256) (k4_off1 k) S256x256.size (k4_off1_inb k)).toLoadRect X4)
            (View.readAt (Elt F) arg1.view (Rect.unit (s := S512x256) ![0, 0] S512x256.size inb_S512x256_S512x256_0_0).toLoadRect X1)) := by
  unfold tripR_k4_t1
  unfold trip_k4_t1
  rfl
end Trip

/-- At the memrefs' contents named from the blocks they read, the trip yields the step of the block and the
    two chunks. -/
theorem tripR4_eq (c : Dev nD) (i : grid4.Coords) (arg1 : Memref sig .tc .vmem S512x256 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S512x256 .f32) (harg5 : arg5.IsWhole)
    (x0 : Vec Ideal S512x256 .f32) (x2 x3 : Vec Ideal S4096x256 .f32) (k : Fin k4_t1_loop.trips) (acc : FVec Ideal S512x1 .f32 × FVec Ideal S512x1 .f32 × FVec Ideal S512x256 .f32) :
    tripR_k4_t1 (F := Ideal) Variants.none c none i arg1 harg1 arg2 harg2 arg3 harg3 arg4 harg4 arg5 harg5
        (harg1.unread x0) (harg3.unread x2) (harg4.unread x3) k acc
      = step4 x0 (chunk4 x2 k) (chunk4 x3 k) acc := by
  refine (tripR4_gen c i arg1 harg1 arg2 harg2 arg3 harg3 arg4 harg4 arg5 harg5 _ _ _ k acc).trans ?_
  simp only [View.readAt_eq_ld, Memref.IsWhole.read_unread]
  unfold step4 chunk4
  rw [View.ld_unit_zero (S := S512x256) hz4]

/-- The loop's carried value before trip n, at the blocks. -/
def stN4 (c : Dev nD) (i : grid4.Coords) (arg1 : Memref sig .tc .vmem S512x256 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S512x256 .f32) (harg5 : arg5.IsWhole)
    (x0 : Vec Ideal S512x256 .f32) (x2 x3 : Vec Ideal S4096x256 .f32) (n : ℕ) : FVec Ideal S512x1 .f32 × FVec Ideal S512x1 .f32 × FVec Ideal S512x256 .f32 :=
  st_k4_t1 (F := Ideal) Variants.none c none i arg1 harg1 arg2 harg2 arg3 harg3 arg4 harg4 arg5 harg5 (harg1.unread x0) (harg3.unread x2) (harg4.unread x3)
    (k4_pay1, k4_pay2, k4_pay3) n

theorem stN4_succ (c : Dev nD) (i : grid4.Coords) (arg1 : Memref sig .tc .vmem S512x256 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S512x256 .f32) (harg5 : arg5.IsWhole)
    (x0 : Vec Ideal S512x256 .f32) (x2 x3 : Vec Ideal S4096x256 .f32) (n : ℕ) (hk : n < k4_t1_loop.trips) :
    stN4 c i arg1 harg1 arg2 harg2 arg3 harg3 arg4 harg4 arg5 harg5 x0 x2 x3 (n + 1)
      = step4 x0 (chunk4 x2 ⟨n, hk⟩) (chunk4 x3 ⟨n, hk⟩) (stN4 c i arg1 harg1 arg2 harg2 arg3 harg3 arg4 harg4 arg5 harg5 x0 x2 x3 n) :=
  (st_k4_t1_succ (F := Ideal) Variants.none c none i arg1 harg1 arg2 harg2 arg3 harg3 arg4 harg4 arg5 harg5 (harg1.unread x0) (harg3.unread x2) (harg4.unread x3)
    (k4_pay1, k4_pay2, k4_pay3) ⟨n, hk⟩).trans (tripR4_eq c i arg1 harg1 arg2 harg2 arg3 harg3 arg4 harg4 arg5 harg5 x0 x2 x3 ⟨n, hk⟩ _)

theorem loop4_eq (c : Dev nD) (i : grid4.Coords) (arg1 : Memref sig .tc .vmem S512x256 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S512x256 .f32) (harg5 : arg5.IsWhole)
    (x0 : Vec Ideal S512x256 .f32) (x2 x3 : Vec Ideal S4096x256 .f32) :
    loop4 (F := Ideal) c i arg1 harg1 arg2 harg2 arg3 harg3 arg4 harg4 arg5 harg5 x0 x2 x3 = stN4 c i arg1 harg1 arg2 harg2 arg3 harg3 arg4 harg4 arg5 harg5 x0 x2 x3 16 := by
  unfold loop4 stN4
  exact congrArg _ trips4

/-! # A row of the block through the loop -/

open OnlineSoftmax in
/-- One trip, read at row p and column q, when the chunk's logits of row p are the reals σk and the chunk's
    values in column q the reals φk. -/
theorem step4_row (x0 : Vec Ideal S512x256 .f32) (v20 v23 : Vec Ideal S256x256 .f32) (acc : FVec Ideal S512x1 .f32 × FVec Ideal S512x1 .f32 × FVec Ideal S512x256 .f32) (p : Fin 512) (q : Fin 256)
    (σk φk : Fin 256 → ℝ)
    (hs : ∀ r, (∑ c : Fin 256, x0 (ix2 p c) * v20 (ix2 r c)) = ((σk r : ℝ) : EReal)) (hv : ∀ r, v23 (ix2 r q) = ((φk r : ℝ) : EReal)) :
    (step4 x0 v20 v23 acc).1 (ix2 p (0 : Fin 1))
        = max (acc.1 (ix2 p (0 : Fin 1))) ((Finset.univ : Finset (Fin 256)).fold max (⊥ : EReal) (fun r => ((σk r : ℝ) : EReal)))
      ∧ (step4 x0 v20 v23 acc).2.1 (ix2 p (0 : Fin 1))
        = Ideal.exp (acc.1 (ix2 p (0 : Fin 1)) - max (acc.1 (ix2 p (0 : Fin 1))) ((Finset.univ : Finset (Fin 256)).fold max (⊥ : EReal) (fun r => ((σk r : ℝ) : EReal))))
            * acc.2.1 (ix2 p (0 : Fin 1))
          + ∑ r, Ideal.exp (((σk r : ℝ) : EReal) - max (acc.1 (ix2 p (0 : Fin 1))) ((Finset.univ : Finset (Fin 256)).fold max (⊥ : EReal) (fun r => ((σk r : ℝ) : EReal))))
      ∧ (step4 x0 v20 v23 acc).2.2 (ix2 p q)
        = Ideal.exp (acc.1 (ix2 p (0 : Fin 1)) - max (acc.1 (ix2 p (0 : Fin 1))) ((Finset.univ : Finset (Fin 256)).fold max (⊥ : EReal) (fun r => ((σk r : ℝ) : EReal))))
            * acc.2.2 (ix2 p q)
          + ∑ r, Ideal.exp (((σk r : ℝ) : EReal) - max (acc.1 (ix2 p (0 : Fin 1))) ((Finset.univ : Finset (Fin 256)).fold max (⊥ : EReal) (fun r => ((σk r : ℝ) : EReal))))
              * ((φk r : ℝ) : EReal) := by
  have h4 : ∀ r, k4_pay4 (F := Ideal) v20 x0 (ix2 p r) = ((σk r : ℝ) : EReal) := fun r => (pay4_apply v20 x0 p r).trans (hs r)
  have h5 : k4_pay5 (F := Ideal) acc.1 v20 x0 (ix2 p (0 : Fin 1))
      = max (acc.1 (ix2 p (0 : Fin 1))) ((Finset.univ : Finset (Fin 256)).fold max (⊥ : EReal) (fun r => ((σk r : ℝ) : EReal))) := by
    rw [pay5_apply]; simp only [h4]
  have h6 : k4_pay6 (F := Ideal) acc.1 v20 x0 (ix2 p (0 : Fin 1)) = Ideal.exp (acc.1 (ix2 p (0 : Fin 1)) - max (acc.1 (ix2 p (0 : Fin 1))) ((Finset.univ : Finset (Fin 256)).fold max (⊥ : EReal) (fun r => ((σk r : ℝ) : EReal)))) := by
    rw [pay6_apply, h5]
  have h7 : ∀ r, k4_pay7 (F := Ideal) acc.1 v20 x0 (ix2 p r) = Ideal.exp (((σk r : ℝ) : EReal) - max (acc.1 (ix2 p (0 : Fin 1))) ((Finset.univ : Finset (Fin 256)).fold max (⊥ : EReal) (fun r => ((σk r : ℝ) : EReal)))) := fun r => by
    rw [pay7_apply, h4, h5]
  refine ⟨h5, ?_, ?_⟩
  · show k4_pay8 (F := Ideal) acc.1 acc.2.1 v20 x0 (ix2 p (0 : Fin 1)) = _
    rw [pay8_apply, h6]; simp only [h7]
  · show k4_pay9 (F := Ideal) acc.1 acc.2.2 v20 v23 x0 (ix2 p q) = _
    rw [pay9_apply, h6]; simp only [h7, hv]

open OnlineSoftmax in
/-- The same trip on the tracked sums: the new maximum is a real, and the normaliser and the accumulator track
    the sums extended by the chunk. -/
theorem tracks_chunk (m l a : EReal) (W N : ℝ) (hl : Tracks m l W) (ha : Tracks m a N) (σk φk : Fin 256 → ℝ) :
    (∃ μ' : ℝ, max m ((Finset.univ : Finset (Fin 256)).fold max (⊥ : EReal) (fun r => ((σk r : ℝ) : EReal))) = (μ' : EReal))
      ∧ Tracks (max m ((Finset.univ : Finset (Fin 256)).fold max (⊥ : EReal) (fun r => ((σk r : ℝ) : EReal))))
          (Ideal.exp (m - max m ((Finset.univ : Finset (Fin 256)).fold max (⊥ : EReal) (fun r => ((σk r : ℝ) : EReal)))) * l
            + ∑ r, Ideal.exp (((σk r : ℝ) : EReal) - max m ((Finset.univ : Finset (Fin 256)).fold max (⊥ : EReal) (fun r => ((σk r : ℝ) : EReal)))))
          (W + ∑ r, Real.exp (σk r))
      ∧ Tracks (max m ((Finset.univ : Finset (Fin 256)).fold max (⊥ : EReal) (fun r => ((σk r : ℝ) : EReal))))
          (Ideal.exp (m - max m ((Finset.univ : Finset (Fin 256)).fold max (⊥ : EReal) (fun r => ((σk r : ℝ) : EReal)))) * a
            + ∑ r, Ideal.exp (((σk r : ℝ) : EReal) - max m ((Finset.univ : Finset (Fin 256)).fold max (⊥ : EReal) (fun r => ((σk r : ℝ) : EReal)))) * ((φk r : ℝ) : EReal))
          (N + ∑ r, Real.exp (σk r) * φk r) := by
  obtain ⟨μ', hμ'⟩ := max_fold_real hl.shift σk
  rw [hμ']
  exact ⟨⟨μ', rfl⟩, hl.step_one μ' σk, ha.step μ' σk φk⟩

open OnlineSoftmax in
/-- THE LOOP, ROW BY ROW. When row p's logits against the 4096 keys are the reals σ and column q of the values
    the reals φ, then before trip n the normaliser of row p tracks the sum of e^σ over the first 256·n keys and the
    accumulator at (p, q) the sum of e^σ·φ over them, under the running maximum — a real once a trip has run. -/
theorem loop4_row (c : Dev nD) (i : grid4.Coords) (arg1 : Memref sig .tc .vmem S512x256 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S512x256 .f32) (harg5 : arg5.IsWhole)
    (x0 : Vec Ideal S512x256 .f32) (x2 x3 : Vec Ideal S4096x256 .f32) (p : Fin 512) (q : Fin 256) (σ φ : ℕ → ℝ)
    (hσ : ∀ s : Fin 4096, (∑ cc : Fin 256, x0 (ix2 p cc) * x2 (ix2 s cc)) = ((σ s.val : ℝ) : EReal))
    (hφ : ∀ s : Fin 4096, x3 (ix2 s q) = ((φ s.val : ℝ) : EReal)) :
    ∀ n, n ≤ 16 →
      Tracks ((stN4 c i arg1 harg1 arg2 harg2 arg3 harg3 arg4 harg4 arg5 harg5 x0 x2 x3 n).1 (ix2 p (0 : Fin 1))) ((stN4 c i arg1 harg1 arg2 harg2 arg3 harg3 arg4 harg4 arg5 harg5 x0 x2 x3 n).2.1 (ix2 p (0 : Fin 1)))
          (∑ s ∈ Finset.range (256 * n), Real.exp (σ s))
        ∧ Tracks ((stN4 c i arg1 harg1 arg2 harg2 arg3 harg3 arg4 harg4 arg5 harg5 x0 x2 x3 n).1 (ix2 p (0 : Fin 1))) ((stN4 c i arg1 harg1 arg2 harg2 arg3 harg3 arg4 harg4 arg5 harg5 x0 x2 x3 n).2.2 (ix2 p q))
          (∑ s ∈ Finset.range (256 * n), Real.exp (σ s) * φ s)
        ∧ (0 < n → ∃ μ : ℝ, (stN4 c i arg1 harg1 arg2 harg2 arg3 harg3 arg4 harg4 arg5 harg5 x0 x2 x3 n).1 (ix2 p (0 : Fin 1)) = (μ : EReal))
  | 0, _ => by
    have e : stN4 c i arg1 harg1 arg2 harg2 arg3 harg3 arg4 harg4 arg5 harg5 x0 x2 x3 0 = (k4_pay1, k4_pay2, k4_pay3) := rfl
    rw [e]
    show Tracks (k4_pay1 (F := Ideal) (ix2 p (0 : Fin 1))) (k4_pay2 (F := Ideal) (ix2 p (0 : Fin 1))) _
      ∧ Tracks (k4_pay1 (F := Ideal) (ix2 p (0 : Fin 1))) (k4_pay3 (F := Ideal) (ix2 p q)) _
      ∧ (0 < 0 → ∃ μ : ℝ, k4_pay1 (F := Ideal) (ix2 p (0 : Fin 1)) = (μ : EReal))
    rw [pay1_apply, pay2_apply, pay3_apply]
    simp only [Nat.mul_zero, Finset.range_zero, Finset.sum_empty]
    exact ⟨tracks_init, tracks_init, fun h => absurd h (Nat.lt_irrefl 0)⟩
  | n + 1, hn => by
    have ih := loop4_row c i arg1 harg1 arg2 harg2 arg3 harg3 arg4 harg4 arg5 harg5 x0 x2 x3 p q σ φ hσ hφ n (by omega)
    have hk : n < k4_t1_loop.trips := by rw [trips4]; omega
    rw [stN4_succ c i arg1 harg1 arg2 harg2 arg3 harg3 arg4 harg4 arg5 harg5 x0 x2 x3 n hk]
    have hb : ∀ r : Fin 256, 256 * n + r.val < 4096 := fun r => by have := r.isLt; omega
    obtain ⟨e1, e2, e3⟩ := step4_row x0 (chunk4 x2 ⟨n, hk⟩) (chunk4 x3 ⟨n, hk⟩) (stN4 c i arg1 harg1 arg2 harg2 arg3 harg3 arg4 harg4 arg5 harg5 x0 x2 x3 n) p q
      (fun r => σ (256 * n + r.val)) (fun r => φ (256 * n + r.val))
      (fun r => by
        have := hσ ⟨256 * n + r.val, hb r⟩
        rw [← this]
        exact Finset.sum_congr rfl fun cc _ => by rw [chunk4_apply x2 ⟨n, hk⟩ r cc (hb r)])
      (fun r => by rw [chunk4_apply x3 ⟨n, hk⟩ r q (hb r)]; exact hφ ⟨256 * n + r.val, hb r⟩)
    rw [e1, e2, e3]
    obtain ⟨hr, hl', ha'⟩ := tracks_chunk _ _ _ _ _ ih.1 ih.2.1 (fun r => σ (256 * n + r.val)) (fun r => φ (256 * n + r.val))
    have hsplit : ∀ f : ℕ → ℝ, ∑ s ∈ Finset.range (256 * (n + 1)), f s = ∑ s ∈ Finset.range (256 * n), f s + ∑ r : Fin 256, f (256 * n + r.val) := fun f => by
      rw [show 256 * (n + 1) = 256 * n + 256 by ring, Finset.sum_range_add]
      exact congrArg (∑ s ∈ Finset.range (256 * n), f s + ·) (Finset.sum_range (fun x => f (256 * n + x)))
    rw [hsplit, hsplit]
    exact ⟨hl', ha', fun _ => hr⟩

/-! # The stored block in closed form, and the specification's row -/

open OnlineSoftmax in
/-- THE STORED ENTRY. With row p's logits the reals σ and column q of the values the reals φ, the block's entry
    (p, q) is the key entry times (the query entry plus the positive part of the softmax average of φ under σ)
    times the query entry: after the 16 trips the accumulator over the normaliser is that average. -/
theorem out4_row (c : Dev nD) (i : grid4.Coords) (arg1 : Memref sig .tc .vmem S512x256 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S512x256 .f32) (harg5 : arg5.IsWhole)
    (x0 x1 : Vec Ideal S512x256 .f32) (x2 x3 : Vec Ideal S4096x256 .f32) (p : Fin 512) (q : Fin 256) (σ φ : ℕ → ℝ)
    (hσ : ∀ s : Fin 4096, (∑ cc : Fin 256, x0 (ix2 p cc) * x2 (ix2 s cc)) = ((σ s.val : ℝ) : EReal))
    (hφ : ∀ s : Fin 4096, x3 (ix2 s q) = ((φ s.val : ℝ) : EReal)) :
    k4_pay10 (F := Ideal) (loop4 (F := Ideal) c i arg1 harg1 arg2 harg2 arg3 harg3 arg4 harg4 arg5 harg5 x0 x2 x3).2.1 (loop4 (F := Ideal) c i arg1 harg1 arg2 harg2 arg3 harg3 arg4 harg4 arg5 harg5 x0 x2 x3).2.2 x1 x0 (ix2 p q)
      = x0 (ix2 p q) * (x1 (ix2 p q)
          + max ((((∑ s ∈ Finset.range 4096, Real.exp (σ s) * φ s) / (∑ s ∈ Finset.range 4096, Real.exp (σ s)) : ℝ)) : EReal) 0)
        * x1 (ix2 p q) := by
  rw [pay10_apply, loop4_eq]
  obtain ⟨hl, ha, hm⟩ := loop4_row c i arg1 harg1 arg2 harg2 arg3 harg3 arg4 harg4 arg5 harg5 x0 x2 x3 p q σ φ hσ hφ 16 (le_refl _)
  have hl' : Tracks _ _ (∑ s ∈ Finset.range 4096, Real.exp (σ s)) := hl
  have ha' : Tracks _ _ (∑ s ∈ Finset.range 4096, Real.exp (σ s) * φ s) := ha
  have hW : 0 < ∑ s ∈ Finset.range 4096, Real.exp (σ s) :=
    Finset.sum_pos (fun s _ => Real.exp_pos _) ⟨0, Finset.mem_range.2 (by norm_num)⟩
  rw [Tracks.div (hm (by norm_num)) hl' ha' hW]

open OnlineSoftmax in
/-- THE SPECIFICATION'S ROW. With row a of X·Xᵀ the reals σ and column j of Q the reals φ, the softmax of the row
    applied to the column is the same average: the row maximum is one of the reals, and the two-pass form of a
    softmax average does not depend on the shift. -/
theorem spec_row4 (X Q : Spec.Mat 4096 256) (a : Fin 4096) (j : Fin 256) (σ φ : ℕ → ℝ)
    (hσ : ∀ s : Fin 4096, Spec.gram X X (ix2 a s) = ((σ s.val : ℝ) : EReal))
    (hφ : ∀ s : Fin 4096, Q (ix2 s j) = ((φ s.val : ℝ) : EReal)) :
    Spec.mm (Spec.softmaxRow (Spec.gram X X)) Q (ix2 a j)
      = ((((∑ s ∈ Finset.range 4096, Real.exp (σ s) * φ s) / (∑ s ∈ Finset.range 4096, Real.exp (σ s)) : ℝ)) : EReal) := by
  have hmax : ∃ μ : ℝ, Spec.rowMax (Spec.gram X X) a = (μ : EReal) := by
    unfold Spec.rowMax
    obtain ⟨s, -, hs⟩ := Finset.exists_mem_eq_sup (Finset.univ : Finset (Fin 4096)) ⟨⟨0, by norm_num⟩, Finset.mem_univ _⟩
      (fun k => Spec.gram X X (ix2 a k))
    exact ⟨σ s.val, hs.trans (hσ s)⟩
  obtain ⟨μ, hμ⟩ := hmax
  haveI : Nonempty (Fin 4096) := ⟨⟨0, by norm_num⟩⟩
  refine Eq.trans ?_ ((two_pass μ (fun s : Fin 4096 => σ s.val) (fun s : Fin 4096 => φ s.val)).trans ?_)
  · show (∑ cc : Fin 4096, Spec.softmaxRow (Spec.gram X X) (ix2 a cc) * Q (ix2 cc j)) = _
    rw [zero_add]
    refine Finset.sum_congr rfl fun s _ => ?_
    show Ideal.div (Ideal.exp (Spec.gram X X (ix2 a s) - Spec.rowMax (Spec.gram X X) a))
        (∑ k : Fin 4096, Ideal.exp (Spec.gram X X (ix2 a k) - Spec.rowMax (Spec.gram X X) a)) * Q (ix2 s j) = _
    rw [hμ, hφ s, zero_add, mul_comm]
    simp only [hσ]
  · rw [Finset.sum_range, Finset.sum_range]

/-- A sum of products of reals, in the extended reals. -/
theorem coe_dot (n : ℕ) (u v : Fin n → ℝ) :
    (∑ cc : Fin n, ((u cc : ℝ) : EReal) * ((v cc : ℝ) : EReal)) = ((∑ cc : Fin n, u cc * v cc : ℝ) : EReal) := by
  rw [OnlineSoftmax.coe_sum]
  exact Finset.sum_congr rfl fun cc _ => (EReal.coe_mul _ _).symm

/-! # One grid point -/

/-- THE POINT. At the point whose block is rows 512·tv … 512·tv + 511: when the staging buffers hold those rows of X
    and of Q and the whole of X and of Q, all entries real, the stored block is those rows of the specification's
    stage. -/
theorem point4 (c : Dev nD) (i : grid4.Coords) (arg1 : Memref sig .tc .vmem S512x256 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S512x256 .f32) (harg5 : arg5.IsWhole)
    (x0 x1 : Vec Ideal S512x256 .f32) (x2 x3 : Vec Ideal S4096x256 .f32) (X Q : Spec.Mat 4096 256)
    (hXr : ∀ i, ∃ r : ℝ, X i = (r : EReal)) (hQr : ∀ i, ∃ r : ℝ, Q i = (r : EReal)) (tv : ℕ) (ht : tv < 8)
    (h0 : ∀ (p : Fin 512) (cc : Fin 256), x0 (ix2 p cc) = X (ix2 (⟨512 * tv + p.val, by have := p.isLt; omega⟩ : Fin 4096) cc))
    (h1 : ∀ (p : Fin 512) (cc : Fin 256), x1 (ix2 p cc) = Q (ix2 (⟨512 * tv + p.val, by have := p.isLt; omega⟩ : Fin 4096) cc))
    (h2 : ∀ (s : Fin 4096) (cc : Fin 256), x2 (ix2 s cc) = X (ix2 s cc))
    (h3 : ∀ (s : Fin 4096) (cc : Fin 256), x3 (ix2 s cc) = Q (ix2 s cc)) :
    k4_pay10 (F := Ideal) (loop4 (F := Ideal) c i arg1 harg1 arg2 harg2 arg3 harg3 arg4 harg4 arg5 harg5 x0 x2 x3).2.1 (loop4 (F := Ideal) c i arg1 harg1 arg2 harg2 arg3 harg3 arg4 harg4 arg5 harg5 x0 x2 x3).2.2 x1 x0
      = fun j : S512x256.Idx => Spec.B X Q (ix2 (⟨512 * tv + (j 0).val, by have := idx2_lt0 j; omega⟩ : Fin 4096) (j 1)) := by
  funext j
  obtain ⟨p, q, rfl⟩ : ∃ (p : Fin 512) (q : Fin 256), j = ix2 p q := ⟨j 0, j 1, eq_ix2 j⟩
  choose xr hxr using hXr
  choose qr hqr using hQr
  have hpb : 512 * tv + p.val < 4096 := by have := p.isLt; omega
  -- row p's logits and column q's values, as reals indexed by the key's number
  let σ : ℕ → ℝ := fun s => if h : s < 4096 then ∑ cc : Fin 256, xr (ix2 (⟨512 * tv + p.val, hpb⟩ : Fin 4096) cc) * xr (ix2 (⟨s, h⟩ : Fin 4096) cc) else 0
  let φ : ℕ → ℝ := fun s => if h : s < 4096 then qr (ix2 (⟨s, h⟩ : Fin 4096) q) else 0
  have hσv : ∀ s : Fin 4096, σ s.val = ∑ cc : Fin 256, xr (ix2 (⟨512 * tv + p.val, hpb⟩ : Fin 4096) cc) * xr (ix2 s cc) := fun s => dif_pos s.isLt
  have hφv : ∀ s : Fin 4096, φ s.val = qr (ix2 s q) := fun s => dif_pos s.isLt
  have hgram : ∀ s : Fin 4096, Spec.gram X X (ix2 (⟨512 * tv + p.val, hpb⟩ : Fin 4096) s) = ((σ s.val : ℝ) : EReal) := fun s => by
    show (∑ cc : Fin 256, X (ix2 (⟨512 * tv + p.val, hpb⟩ : Fin 4096) cc) * X (ix2 s cc)) = _
    rw [hσv s, ← coe_dot]
    exact Finset.sum_congr rfl fun cc _ => by rw [hxr, hxr]
  have hσk : ∀ s : Fin 4096, (∑ cc : Fin 256, x0 (ix2 p cc) * x2 (ix2 s cc)) = ((σ s.val : ℝ) : EReal) := fun s => by
    rw [← hgram s]
    show (∑ cc : Fin 256, x0 (ix2 p cc) * x2 (ix2 s cc))
      = ∑ cc : Fin 256, X (ix2 (⟨512 * tv + p.val, hpb⟩ : Fin 4096) cc) * X (ix2 s cc)
    exact Finset.sum_congr rfl fun cc _ => by rw [h0, h2]
  have hφs : ∀ s : Fin 4096, Q (ix2 s q) = ((φ s.val : ℝ) : EReal) := fun s => by rw [hφv s, hqr]
  have hφk : ∀ s : Fin 4096, x3 (ix2 s q) = ((φ s.val : ℝ) : EReal) := fun s => by rw [h3, hφs s]
  rw [out4_row c i arg1 harg1 arg2 harg2 arg3 harg3 arg4 harg4 arg5 harg5 x0 x1 x2 x3 p q σ φ hσk hφk, h0, h1]
  show _ = X (ix2 (⟨512 * tv + p.val, hpb⟩ : Fin 4096) q)
      * (Q (ix2 (⟨512 * tv + p.val, hpb⟩ : Fin 4096) q) + max (Spec.mm (Spec.softmaxRow (Spec.gram X X)) Q (ix2 (⟨512 * tv + p.val, hpb⟩ : Fin 4096) q)) 0)
      * Q (ix2 (⟨512 * tv + p.val, hpb⟩ : Fin 4096) q)
  rw [spec_row4 X Q ⟨512 * tv + p.val, hpb⟩ q σ φ hgram hφs]

/-! # From the blocks to the array -/

/-- The printed index maps over the grid: the block windows 0, 1, 4 sit at block row t, the whole-array windows 2, 3
    at block 0. -/
theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

section Blocks
variable (V : (c : Dev nD) → (b : Ref sig .tc) → Buf (Elt Ideal) ((c : Thread nD τ).loc b))

/-- WHAT POINT t WRITES BACK is block t of the specification's stage of the region-entry arrays. -/
theorem flushed4_eq (c : Dev nD) (X Q : Spec.Mat 4096 256)
    (hX : (V c main_v16_1 : S4096x256.Idx → EReal) = X) (hQ : (V c main_v14 : S4096x256.Idx → EReal) = Q)
    (hXr : ∀ i, ∃ r : ℝ, X i = (r : EReal)) (hQr : ∀ i, ∃ r : ℝ, Q i = (r : EReal)) (t : Fin cfg4.N) :
    (dat4 (F := Ideal) V c).flushed 4 t = ((cfg4.win 4).blk t).view.read (Elt Ideal) (Spec.B X Q) := by
  have htN : t.val < 8 := by have := t.isLt; have hN : cfg4.N = 8 := N_4; omega
  obtain ⟨e00, e01, e10, e11, e20, e21, e30, e31, e40, e41⟩ := idx_facts4 t
  show (cfg4.win 4).cut (grid4.coords t) ((dat4 (F := Ideal) V c).after 4 t) = _
  rw [after4_4]
  unfold out4_4
  rw [View.canon_unit_zero hz4]
  simp only [View.ld_unit_zero (S := S512x256) hz4]
  refine (point4 c _ _ _ _ _ _ _ _ _ _ _ (iblk4 V c 0 t) (iblk4 V c 1 t) (iblk4 V c 2 t) (iblk4 V c 3 t) X Q hXr hQr t.val htN ?_ ?_ ?_ ?_).trans ?_
  · intro p cc
    show V c main_v16_1 (((cfg4.win 0).blk t).view.emb (ix2 p cc)) = _
    rw [← hX]
    refine congrArg (V c main_v16_1) (funext fun a => Fin.ext ?_)
    match a with
    | ⟨0, _⟩ => show win4_0.index t (0 : Fin 2) * 512 + 1 * p.val = 512 * t.val + p.val; rw [e00]; omega
    | ⟨1, _⟩ => show win4_0.index t (1 : Fin 2) * 256 + 1 * cc.val = cc.val; rw [e01]; omega
  · intro p cc
    show V c main_v14 (((cfg4.win 1).blk t).view.emb (ix2 p cc)) = _
    rw [← hQ]
    refine congrArg (V c main_v14) (funext fun a => Fin.ext ?_)
    match a with
    | ⟨0, _⟩ => show win4_1.index t (0 : Fin 2) * 512 + 1 * p.val = 512 * t.val + p.val; rw [e10]; omega
    | ⟨1, _⟩ => show win4_1.index t (1 : Fin 2) * 256 + 1 * cc.val = cc.val; rw [e11]; omega
  · intro s cc
    show V c main_v16_1 (((cfg4.win 2).blk t).view.emb (ix2 s cc)) = _
    rw [← hX]
    refine congrArg (V c main_v16_1) (funext fun a => Fin.ext ?_)
    match a with
    | ⟨0, _⟩ => show win4_2.index t (0 : Fin 2) * 4096 + 1 * s.val = s.val; rw [e20]; omega
    | ⟨1, _⟩ => show win4_2.index t (1 : Fin 2) * 256 + 1 * cc.val = cc.val; rw [e21]; omega
  · intro s cc
    show V c main_v14 (((cfg4.win 3).blk t).view.emb (ix2 s cc)) = _
    rw [← hQ]
    refine congrArg (V c main_v14) (funext fun a => Fin.ext ?_)
    match a with
    | ⟨0, _⟩ => show win4_3.index t (0 : Fin 2) * 4096 + 1 * s.val = s.val; rw [e30]; omega
    | ⟨1, _⟩ => show win4_3.index t (1 : Fin 2) * 256 + 1 * cc.val = cc.val; rw [e31]; omega
  · funext j
    show Spec.B X Q _ = Spec.B X Q (((cfg4.win 4).blk t).view.emb j)
    refine congrArg (Spec.B X Q) (funext fun a => Fin.ext ?_)
    match a with
    | ⟨0, _⟩ => show 512 * t.val + (j 0).val = win4_4.index t (0 : Fin 2) * 512 + 1 * (j 0).val; rw [e40]; omega
    | ⟨1, _⟩ => show (j 1).val = win4_4.index t (1 : Fin 2) * 256 + 1 * (j 1).val; rw [e41]; omega

/-- An index of the output array is in point t's block iff each coordinate is in the block's range on its axis. -/
theorem mem_blk4 (t : Fin cfg4.N) (i : S4096x256.Idx) :
    i ∈ ((cfg4.win 4).blk t).view.set ↔ ∀ a : Fin 2, win4_4.index t a * S512x256.size a ≤ (i a).val ∧ (i a).val < win4_4.index t a * S512x256.size a + S512x256.size a := by
  show i ∈ ((View.whole main_v18).slice (win4_4.rect t)).set ↔ _
  rw [View.set_slice_whole, Rect.mem_set_unit]
  exact Iff.rfl

/-- Row r of the output array is in the block of point r / 512, which writes it back. -/
theorem cover4 (i : S4096x256.Idx) :
    ∃ t : Fin cfg4.N, (cfg4.win 4).flush t = true ∧ i ∈ ((cfg4.win 4).blk t).view.set := by
  have hi0 : (i 0).val < 4096 := idx2_lt0 i
  have hi1 : (i 1).val < 256 := idx2_lt1 i
  have hN : cfg4.N = 8 := N_4
  have htb : (i 0).val / 512 < cfg4.N := by rw [hN]; omega
  obtain ⟨-, -, -, -, -, -, -, -, e40, e41⟩ := idx_facts4 ⟨(i 0).val / 512, htb⟩
  refine ⟨⟨(i 0).val / 512, htb⟩, flush4_4 _, ?_⟩
  rw [mem_blk4]
  intro a
  match a with
  | ⟨0, _⟩ =>
    show win4_4.index ⟨(i 0).val / 512, htb⟩ (0 : Fin 2) * 512 ≤ (i 0).val ∧ (i 0).val < win4_4.index ⟨(i 0).val / 512, htb⟩ (0 : Fin 2) * 512 + 512
    rw [e40]; show (i 0).val / 512 * 512 ≤ (i 0).val ∧ (i 0).val < (i 0).val / 512 * 512 + 512; omega
  | ⟨1, _⟩ =>
    show win4_4.index ⟨(i 0).val / 512, htb⟩ (1 : Fin 2) * 256 ≤ (i 1).val ∧ (i 1).val < win4_4.index ⟨(i 0).val / 512, htb⟩ (1 : Fin 2) * 256 + 256
    rw [e41]; omega

end Blocks

end V4

section Out
variable (V : (c : Dev nD) → (b : Ref sig .tc) → Buf (Elt Ideal) ((c : Thread nD τ).loc b))

/-- THE OUTPUT ARRAY after the region: the specification's stage X · (Q + max(softmax(X·Xᵀ)·Q, 0)) · Q of the
    region-entry arrays, all of whose entries are real. -/
theorem value4 (c : Dev nD) (X Q : Spec.Mat 4096 256)
    (hX : (V c main_v16_1 : S4096x256.Idx → EReal) = X) (hQ : (V c main_v14 : S4096x256.Idx → EReal) = Q)
    (hXr : ∀ i, ∃ r : ℝ, X i = (r : EReal)) (hQr : ∀ i, ∃ r : ℝ, Q i = (r : EReal)) :
    ((dat4 (F := Ideal) V c).arrAt 4 cfg4.N : S4096x256.Idx → EReal) = Spec.B X Q :=
  (dat4 (F := Ideal) V c).arrAt_eq_of_cover 4 (Spec.B X Q) (fun t _ => V4.flushed4_eq V c X Q hX hQ hXr hQr t) (V4.cover4)
end Out

end Cert.KernelIdeal.HandValue

end
-- ==== Proof.KI.Value5.lean ====
import proofs.«170994_j15857019257044_2_alg».proof.Proof.KI.Region5
import proofs.«170994_j15857019257044_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

/-! # The value of region 5: its output array after the run is logistic (x·Wᵀ + b) of the arrays it finds -/

/-! The operand indices of the product lin5: at output entry i and contraction index q, the left operand is read at
(i 0, q) and the right at (q, i 1). -/
theorem lhs_lin5_0 (i : S512x256.Idx) (q : dot_S512x256_S256x256_S512x256_1_0_0_1_n_n.contr.Idx) : (dot_S512x256_S256x256_S512x256_1_0_0_1_n_n.lhsIdx i q 0).val = (i 0).val := by
  unfold DotDims.lhsIdx
  rw [dif_neg (show ¬(0 : Fin S512x256.rank) ∈ dot_S512x256_S256x256_S512x256_1_0_0_1_n_n.lhsBatch by decide), dif_pos (show (0 : Fin S512x256.rank) ∈ dot_S512x256_S256x256_S512x256_1_0_0_1_n_n.lhsNonContracting by decide)]
  rfl
theorem lhs_lin5_1 (i : S512x256.Idx) (q : dot_S512x256_S256x256_S512x256_1_0_0_1_n_n.contr.Idx) : (dot_S512x256_S256x256_S512x256_1_0_0_1_n_n.lhsIdx i q 1).val = (q ⟨0, by decide⟩).val :=
  dot_S512x256_S256x256_S512x256_1_0_0_1_n_n.lhsIdx_val_of_single rfl i q
theorem rhs_lin5_0 (i : S512x256.Idx) (q : dot_S512x256_S256x256_S512x256_1_0_0_1_n_n.contr.Idx) : (dot_S512x256_S256x256_S512x256_1_0_0_1_n_n.rhsIdx i q 0).val = (q ⟨0, by decide⟩).val :=
  dot_S512x256_S256x256_S512x256_1_0_0_1_n_n.rhsIdx_val_of_single rfl i q
theorem rhs_lin5_1 (i : S512x256.Idx) (q : dot_S512x256_S256x256_S512x256_1_0_0_1_n_n.contr.Idx) : (dot_S512x256_S256x256_S512x256_1_0_0_1_n_n.rhsIdx i q 1).val = (i 1).val := by
  unfold DotDims.rhsIdx
  rw [dif_neg (show ¬(1 : Fin S256x256.rank) ∈ dot_S512x256_S256x256_S512x256_1_0_0_1_n_n.rhsBatch by decide), dif_pos (show (1 : Fin S256x256.rank) ∈ dot_S512x256_S256x256_S512x256_1_0_0_1_n_n.rhsNonContracting by decide)]
  rfl

/-- The logistic of a vector, read at an index, is the logistic of its entry there. -/
theorem logistic_apply5 {s : Shape} {φ : FTy} (a : FVec Ideal s φ) (i : s.Idx) : logistic a i = Ideal.logistic (a i) := rfl

/-- The block product read at an entry: entry (p, q) of logistic (x·Wᵀ + b) over one block of 512 rows is the logistic of the sum over
    the 256 columns k of x(p, k)·W(q, k), plus b(q): the roundings to bf16 are the identity on the extended reals, a
    product into the zero accumulator is the plain sum, and the bias row is broadcast down the rows. -/
theorem pay5_apply (x0 : Vec Ideal S512x256 .f32) (x1 : Vec Ideal S256x256 .bf16) (x2 : Vec Ideal S1x256 .f32)
    (p : Fin 512) (q : Fin 256) :
    k5_pay1 x0 x1 x2 (ix2 p q) = Ideal.logistic ((∑ k : Fin 256, x0 (ix2 p k) * x1 (ix2 q k)) + x2 (ix2 (0 : Fin 1) q)) := by
  unfold k5_pay1
  dsimp only
  rw [logistic_apply5, addf_apply, broadcastTo_1b_ab_apply, shapeCast_self, shapeCast_self, shapeCast_self]
  refine congrArg (fun s => Ideal.logistic (s + x2 (ix2 (0 : Fin 1) q))) ?_
  refine (Ideal.matmul_constant_zero_apply dot_S512x256_S256x256_S512x256_1_0_0_1_n_n none _ _ (ix2 p q)).trans ?_
  rw [← Equiv.sum_comp (contrEquiv1 dot_S512x256_S256x256_S512x256_1_0_0_1_n_n 256 rfl rfl).symm]
  refine Finset.sum_congr rfl fun k _ => ?_
  have hk := contrEquiv1_symm_val dot_S512x256_S256x256_S512x256_1_0_0_1_n_n 256 rfl rfl k
  have el : dot_S512x256_S256x256_S512x256_1_0_0_1_n_n.lhsIdx (ix2 p q) ((contrEquiv1 dot_S512x256_S256x256_S512x256_1_0_0_1_n_n 256 rfl rfl).symm k) = ix2 p k := funext fun a => Fin.ext (by
    match a with
    | ⟨0, _⟩ => exact lhs_lin5_0 _ _
    | ⟨1, _⟩ => exact (lhs_lin5_1 _ _).trans hk)
  have er : dot_S512x256_S256x256_S512x256_1_0_0_1_n_n.rhsIdx (ix2 p q) ((contrEquiv1 dot_S512x256_S256x256_S512x256_1_0_0_1_n_n 256 rfl rfl).symm k) = ix2 k q := funext fun a => Fin.ext (by
    match a with
    | ⟨0, _⟩ => exact (rhs_lin5_0 _ _).trans hk
    | ⟨1, _⟩ => exact rhs_lin5_1 _ _)
  rw [el, er]
  rw [truncf_apply, transpose_ix2_apply]

variable (V : (c : Dev nD) → (b : Ref sig .tc) → Buf (Elt Ideal) ((c : Thread nD τ).loc b))

theorem hz5 : (![0, 0] : Fin 2 → Nat) = fun _ => 0 := funext fun a => by fin_cases a <;> rfl

/-- The printed index maps over the grid: the row-tiled windows (x and the output) sit at block row t, the whole-array
    windows (the weight and the bias row) at block 0. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- Block t of x is its rows 512·t … 512·t + 511. -/
theorem blk5_0_apply (c : Dev nD) (t : Fin cfg5.N) (p : Fin 512) (k : Fin 256) (r : Fin 4096) (hr : r.val = t.val * 512 + p.val) :
    (iblk5 V c 0 t : Vec Ideal S512x256 .f32) (ix2 p k) = (V c main_v17 : S4096x256.Idx → EReal) (ix2 r k) := by
  obtain ⟨e0, e1, -⟩ := idx_facts5 t
  unfold iblk5
  rw [View.read_apply]
  show V c main_v17 _ = V c main_v17 _
  refine congrArg _ (funext fun a => Fin.ext ?_)
  match a with
  | ⟨0, _⟩ => show win5_0.index t (0 : Fin 2) * 512 + 1 * p.val = r.val; rw [e0, hr]; omega
  | ⟨1, _⟩ => show win5_0.index t (1 : Fin 2) * 256 + 1 * k.val = k.val; rw [e1]; omega

/-- The weight's one block is the weight. -/
theorem blk5_1_apply (c : Dev nD) (t : Fin cfg5.N) (a b : Fin 256) :
    (iblk5 V c 1 t : Vec Ideal S256x256 .bf16) (ix2 a b) = (V c main_v10 : S256x256.Idx → EReal) (ix2 a b) := by
  obtain ⟨-, -, e2, e3, -⟩ := idx_facts5 t
  unfold iblk5
  rw [View.read_apply]
  show V c main_v10 _ = V c main_v10 _
  refine congrArg _ (funext fun d => Fin.ext ?_)
  match d with
  | ⟨0, _⟩ => show win5_1.index t (0 : Fin 2) * 256 + 1 * a.val = a.val; rw [e2]; omega
  | ⟨1, _⟩ => show win5_1.index t (1 : Fin 2) * 256 + 1 * b.val = b.val; rw [e3]; omega

/-- The bias row's one block is the bias row. -/
theorem blk5_2_apply (c : Dev nD) (t : Fin cfg5.N) (b : Fin 256) :
    (iblk5 V c 2 t : Vec Ideal S1x256 .f32) (ix2 (0 : Fin 1) b) = (V c main_v3 : S1x256.Idx → EReal) (ix2 (0 : Fin 1) b) := by
  obtain ⟨-, -, -, -, e4, e5, -⟩ := idx_facts5 t
  unfold iblk5
  rw [View.read_apply]
  show V c main_v3 _ = V c main_v3 _
  refine congrArg _ (funext fun d => Fin.ext ?_)
  match d with
  | ⟨0, _⟩ => show win5_2.index t (0 : Fin 2) * 1 + 1 * 0 = 0; rw [e4]
  | ⟨1, _⟩ => show win5_2.index t (1 : Fin 2) * 256 + 1 * b.val = b.val; rw [e5]; omega

/-- What point t writes back is block t (rows 512·t …) of logistic (x·Wᵀ + b) of the arrays as the region finds them. -/
theorem flushed5_eq (c : Dev nD) (x : Spec.Mat 4096 256) (W : Spec.Mat 256 256) (bias : Spec.Vct 256)
    (hx : (V c main_v17 : S4096x256.Idx → EReal) = x) (hW : (V c main_v10 : S256x256.Idx → EReal) = W)
    (hb : ∀ j : Fin 256, (V c main_v3 : S1x256.Idx → EReal) (ix2 0 j) = bias (ix1 j)) (t : Fin cfg5.N) :
    (dat5 (F := Ideal) V c).flushed 3 t = ((cfg5.win 3).blk t).view.read (Elt Ideal) (Spec.gt x W bias) := by
  have hN : cfg5.N = 8 := N_5
  have ht : t.val < 8 := hN ▸ t.isLt
  show (cfg5.win 3).cut (grid5.coords t) ((dat5 (F := Ideal) V c).after 3 t) = _
  rw [after5_3]
  unfold out5_3
  rw [View.canon_unit_zero hz5]
  simp only [View.ld_unit_zero (S := S512x256) hz5, View.ld_unit_zero (S := S256x256) hz5, View.ld_unit_zero (S := S1x256) hz5]
  funext j
  obtain ⟨p, q, rfl⟩ : ∃ (p : Fin 512) (q : Fin 256), j = ix2 p q := ⟨j 0, j 1, eq_ix2 j⟩
  obtain ⟨-, -, -, -, -, -, e6, e7⟩ := idx_facts5 t
  have hemb : ((cfg5.win 3).blk t).view.emb (ix2 p q) = (ix2 (⟨t.val * 512 + p.val, by omega⟩ : Fin 4096) q : S4096x256.Idx) :=
    funext fun a => Fin.ext (by
      match a with
      | ⟨0, _⟩ => show win5_3.index t (0 : Fin 2) * 512 + 1 * p.val = t.val * 512 + p.val; rw [e6]; omega
      | ⟨1, _⟩ => show win5_3.index t (1 : Fin 2) * 256 + 1 * q.val = q.val; rw [e7]; omega)
  show k5_pay1 (iblk5 V c 0 t) (iblk5 V c 1 t) (iblk5 V c 2 t) (ix2 p q) = Spec.gt x W bias (((cfg5.win 3).blk t).view.emb (ix2 p q))
  rw [hemb]
  refine (pay5_apply (iblk5 V c 0 t) (iblk5 V c 1 t) (iblk5 V c 2 t) p q).trans ?_
  show _ = Ideal.logistic ((∑ k : Fin 256, x (ix2 (⟨t.val * 512 + p.val, by omega⟩ : Fin 4096) k) * W (ix2 q k)) + bias (ix1 q))
  rw [blk5_2_apply V c t q, hb q]
  refine congrArg (fun s => Ideal.logistic (s + bias (ix1 q))) (Finset.sum_congr rfl fun k _ => ?_)
  rw [blk5_0_apply V c t p k ⟨t.val * 512 + p.val, by omega⟩ rfl, blk5_1_apply V c t q k, hx, hW]

/-- An index of the output array is in point t's block iff each coordinate is in the block's range on its axis. -/
theorem mem_blk5 (t : Fin cfg5.N) (i : S4096x256.Idx) :
    i ∈ ((cfg5.win 3).blk t).view.set ↔ ∀ a : Fin 2, win5_3.index t a * S512x256.size a ≤ (i a).val ∧ (i a).val < win5_3.index t a * S512x256.size a + S512x256.size a := by
  show i ∈ ((View.whole main_v19).slice (win5_3.rect t)).set ↔ _
  rw [View.set_slice_whole, Rect.mem_set_unit]
  exact Iff.rfl

/-- Row r of the output is covered by point r / 512. -/
theorem cover5 (i : S4096x256.Idx) : ∃ t : Fin cfg5.N, (cfg5.win 3).flush t = true ∧ i ∈ ((cfg5.win 3).blk t).view.set := by
  have hN : cfg5.N = 8 := N_5
  have hi0 : (i 0).val < 4096 := (i 0).isLt
  have hi1 : (i 1).val < 256 := (i 1).isLt
  obtain ⟨t, ht⟩ : ∃ t : Fin cfg5.N, t.val = (i 0).val / 512 := ⟨⟨(i 0).val / 512, by omega⟩, rfl⟩
  obtain ⟨-, -, -, -, -, -, e6, e7⟩ := idx_facts5 t
  refine ⟨t, flush5_3 t, ?_⟩
  rw [mem_blk5]
  intro a
  match a with
  | ⟨0, _⟩ => show win5_3.index t (0 : Fin 2) * 512 ≤ (i 0).val ∧ (i 0).val < win5_3.index t (0 : Fin 2) * 512 + 512; rw [e6, ht]; omega
  | ⟨1, _⟩ => show win5_3.index t (1 : Fin 2) * 256 ≤ (i 1).val ∧ (i 1).val < win5_3.index t (1 : Fin 2) * 256 + 256; rw [e7]; omega

/-- The output array of region 5 after its run is logistic (x·Wᵀ + b) of the arrays the region finds. -/
theorem value5 (c : Dev nD)
    (x : Spec.Mat 4096 256) (W : Spec.Mat 256 256) (bias : Spec.Vct 256)
    (hx : (V c main_v17 : S4096x256.Idx → EReal) = x) (hW : (V c main_v10 : S256x256.Idx → EReal) = W)
    (hb : ∀ j : Fin 256, (V c main_v3 : S1x256.Idx → EReal) (ix2 0 j) = bias (ix1 j)) :
    ((dat5 (F := Ideal) V c).arrAt 3 cfg5.N : S4096x256.Idx → EReal) = Spec.gt x W bias :=
  (dat5 (F := Ideal) V c).arrAt_eq_of_cover 3 (Spec.gt x W bias) (fun t _ => flushed5_eq V c x W bias hx hW hb t) cover5

end Cert.KernelIdeal.HandValue

end
-- ==== Proof.KI.Value6.lean ====
import proofs.«170994_j15857019257044_2_alg».proof.Proof.KI.Region6
import proofs.«170994_j15857019257044_2_alg».proof.Proof.Spec
import proofs.«170994_j15857019257044_2_alg».proof.Proof.SpecReal
import proofs.«170994_j15857019257044_2_alg».proof.Proof.LibOnlineSoftmax
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

/-! # The value of region 6: the last attention, the gating and the row normalisation -/

namespace V6

/-! ## Layout operations at an index -/

/-- Entry p of a 512-vector and entry (p, 0) of a 512 × 1 column sit at the same row-major position. -/
theorem col_pos (p : Fin 512) : (S512.rowMajor (ix1 p)).val = (S512x1.rowMajor (ix2 p (0 : Fin 1))).val := by
  rw [Shape.rowMajor_val_one, Shape.rowMajor_val_two]
  show p.val = p.val * 1 + 0
  omega

/-- The index a lane reduction of a 512 × 256 array reads at row p, lane q. -/
theorem lift_row (h : S512x256.Reduces [1] S512) (p : Fin 512) (q : Fin 256) : h.lift (ix1 p) q = ix2 p q :=
  funext fun a => Fin.ext (by
    match a with
    | ⟨0, _⟩ => rfl
    | ⟨1, _⟩ => rfl)

/-- The maximum along row p, as a column entry: the fold of max from -∞ over the row's 256 lanes. -/
theorem rowmax_apply (src : FVec Ideal S512x256 .f32) (p : Fin 512) (h : S512x256.Reduces [1] S512) (hc : S512.ShapeCasts S512x1)
    (hφ : FKind.Formats .f32) (hacc : (0xFF800000#32 : BitVec 32) = FKind.maximumf.neutral .f32 hφ) :
    shapeCast S512x1 (multiReduction (F := Ideal) .maximumf [1] S512 src 0xFF800000#32 h hφ hacc) hc (ix2 p (0 : Fin 1))
      = (Finset.univ : Finset (Fin 256)).fold max (⊥ : EReal) (fun q => src (ix2 p q)) := by
  refine (shapeCast_apply _ hc (ix2 p (0 : Fin 1)) (ix1 p) (col_pos p)).trans ?_
  refine (Ideal.multiReduction_maximumf_single src _ h hφ hacc (ix1 p)).trans ?_
  have e : (src ∘ h.lift (ix1 p)) = fun q : Fin 256 => src (ix2 p q) := funext fun q => congrArg src (lift_row h p q)
  have b : (FloatOps.ofBits (F := Ideal) .f32 0xFF800000#32 : EReal) = ⊥ := Spec.ofBits_neg_inf_f32
  rw [b]
  exact congrArg (fun g => (Finset.univ : Finset (Fin 256)).fold max (⊥ : EReal) g) e

/-- The sum along row p, as a column entry. -/
theorem rowsum_apply (src : FVec Ideal S512x256 .f32) (p : Fin 512) (h : S512x256.Reduces [1] S512) (hc : S512.ShapeCasts S512x1)
    (hφ : FKind.Formats .f32) (hacc : (0x00000000#32 : BitVec 32) = FKind.add.neutral .f32 hφ) :
    shapeCast S512x1 (multiReduction (F := Ideal) .add [1] S512 src 0x00000000#32 h hφ hacc) hc (ix2 p (0 : Fin 1))
      = ∑ q : Fin 256, src (ix2 p q) := by
  refine (shapeCast_apply _ hc (ix2 p (0 : Fin 1)) (ix1 p) (col_pos p)).trans ?_
  refine (Ideal.multiReduction_add_single src _ h hφ hacc (ix1 p)).trans ?_
  exact Finset.sum_congr rfl fun q _ => congrArg src (lift_row h p q)

/-- A 512 × 1 column broadcast to 256 lanes reads, at (p, q), the column at p. -/
theorem bcol_apply (v : FVec Ideal S512x1 .f32) (hb : S512x1.Broadcasts S512x256) (p : Fin 512) (q : Fin 256) :
    broadcastTo S512x256 v hb (ix2 p q) = v (ix2 p (0 : Fin 1)) :=
  broadcastTo_apply v hb (ix2 p q) (ix2 p (0 : Fin 1)) (fun a => by
    match a with
    | ⟨0, _⟩ => rfl
    | ⟨1, _⟩ => rfl)

/-! ## The constants -/

/-- The word 0x3F800000 is 1. -/
theorem ofBits_one : Ideal.ofBits .f32 0x3F800000#32 = 1 := by
  simp [Ideal.ofBits, Ideal.ieee, -EReal.coe_mul]; norm_num

/-- The word 0x3D800000 is 1/16. -/
theorem ofBits_sixteenth : Ideal.ofBits .f32 0x3D800000#32 = ((1 / 16 : ℝ) : EReal) := by
  simp [Ideal.ofBits, Ideal.ieee, -EReal.coe_mul]; norm_num

/-! ## The operand indices of the two block products -/

theorem lhs_0 (i : S512x256.Idx) (q : dot_S512x256_S256x256_S512x256_1_0_0_1_n_n.contr.Idx) : (dot_S512x256_S256x256_S512x256_1_0_0_1_n_n.lhsIdx i q 0).val = (i 0).val := by
  unfold DotDims.lhsIdx
  rw [dif_neg (show ¬(0 : Fin S512x256.rank) ∈ dot_S512x256_S256x256_S512x256_1_0_0_1_n_n.lhsBatch by decide), dif_pos (show (0 : Fin S512x256.rank) ∈ dot_S512x256_S256x256_S512x256_1_0_0_1_n_n.lhsNonContracting by decide)]
  rfl
theorem lhs_1 (i : S512x256.Idx) (q : dot_S512x256_S256x256_S512x256_1_0_0_1_n_n.contr.Idx) : (dot_S512x256_S256x256_S512x256_1_0_0_1_n_n.lhsIdx i q 1).val = (q ⟨0, by decide⟩).val :=
  dot_S512x256_S256x256_S512x256_1_0_0_1_n_n.lhsIdx_val_of_single rfl i q
theorem rhs_0 (i : S512x256.Idx) (q : dot_S512x256_S256x256_S512x256_1_0_0_1_n_n.contr.Idx) : (dot_S512x256_S256x256_S512x256_1_0_0_1_n_n.rhsIdx i q 0).val = (q ⟨0, by decide⟩).val :=
  dot_S512x256_S256x256_S512x256_1_0_0_1_n_n.rhsIdx_val_of_single rfl i q
theorem rhs_1 (i : S512x256.Idx) (q : dot_S512x256_S256x256_S512x256_1_0_0_1_n_n.contr.Idx) : (dot_S512x256_S256x256_S512x256_1_0_0_1_n_n.rhsIdx i q 1).val = (i 1).val := by
  unfold DotDims.rhsIdx
  rw [dif_neg (show ¬(1 : Fin S256x256.rank) ∈ dot_S512x256_S256x256_S512x256_1_0_0_1_n_n.rhsBatch by decide), dif_pos (show (1 : Fin S256x256.rank) ∈ dot_S512x256_S256x256_S512x256_1_0_0_1_n_n.rhsNonContracting by decide)]
  rfl

/-- A 512 × 256 by 256 × 256 product into the zero accumulator, read at (p, q): the sum over the 256 inner indices. -/
theorem matmul_apply (x : FVec Ideal S512x256 .bf16) (y : FVec Ideal S256x256 .bf16) (p : Fin 512) (q : Fin 256) :
    matmul dot_S512x256_S256x256_S512x256_1_0_0_1_n_n none x y (constant (F := Ideal) S512x256 .f32 0x00000000#32) (ix2 p q) = ∑ k : Fin 256, x (ix2 p k) * y (ix2 k q) := by
  refine (Ideal.matmul_constant_zero_apply dot_S512x256_S256x256_S512x256_1_0_0_1_n_n none _ _ (ix2 p q)).trans ?_
  rw [← Equiv.sum_comp (contrEquiv1 dot_S512x256_S256x256_S512x256_1_0_0_1_n_n 256 rfl rfl).symm]
  refine Finset.sum_congr rfl fun k _ => ?_
  have hk := contrEquiv1_symm_val dot_S512x256_S256x256_S512x256_1_0_0_1_n_n 256 rfl rfl k
  have el : dot_S512x256_S256x256_S512x256_1_0_0_1_n_n.lhsIdx (ix2 p q) ((contrEquiv1 dot_S512x256_S256x256_S512x256_1_0_0_1_n_n 256 rfl rfl).symm k) = ix2 p k := funext fun a => Fin.ext (by
    match a with
    | ⟨0, _⟩ => exact lhs_0 _ _
    | ⟨1, _⟩ => exact (lhs_1 _ _).trans hk)
  have er : dot_S512x256_S256x256_S512x256_1_0_0_1_n_n.rhsIdx (ix2 p q) ((contrEquiv1 dot_S512x256_S256x256_S512x256_1_0_0_1_n_n 256 rfl rfl).symm k) = ix2 k q := funext fun a => Fin.ext (by
    match a with
    | ⟨0, _⟩ => exact (rhs_0 _ _).trans hk
    | ⟨1, _⟩ => exact rhs_1 _ _)
  rw [el, er]

/-! ## The trip's payloads at an index -/

/-- The chunk's logits: entry (p, q) is the inner product of row p of the gated queries with row q of the chunk's gated
    keys, times 1/16. -/
theorem pay4_apply (v0 v2 : Vec Ideal S512x256 .f32) (v29 v32 : Vec Ideal S256x256 .f32) (p : Fin 512) (q : Fin 256) :
    k6_pay4 (F := Ideal) v0 v2 v29 v32 (ix2 p q)
      = (∑ c : Fin 256, (v0 (ix2 p c) * v2 (ix2 p c)) * ((1 - v29 (ix2 q c)) * v32 (ix2 q c))) * ((1 / 16 : ℝ) : EReal) := by
  unfold k6_pay4
  refine congrArg₂ (· * ·) ((matmul_apply _ _ p q).trans ?_) ofBits_sixteenth
  refine Finset.sum_congr rfl fun c _ => ?_
  rw [transpose_apply [1, 0] _ _ (ix2 c q) (ix2 q c) (fun b => by
    match b with
    | ⟨0, _⟩ => rfl
    | ⟨1, _⟩ => rfl)]
  rw [truncf_apply, truncf_apply, mulf_apply, mulf_apply, subf_apply, broadcast_apply, shapeCast_self, shapeCast_self, shapeCast_self, shapeCast_self]
  exact congrArg (fun z => v0 (ix2 p c) * v2 (ix2 p c) * ((z - v29 (ix2 q c)) * v32 (ix2 q c))) ofBits_one

/-- The new running maximum of row p: the old one against the maximum of the chunk's logits. -/
theorem pay5_apply (v0 v2 : Vec Ideal S512x256 .f32) (arg9 : FVec Ideal S512x1 .f32) (v29 v32 : Vec Ideal S256x256 .f32) (p : Fin 512) :
    k6_pay5 (F := Ideal) v0 v2 arg9 v29 v32 (ix2 p (0 : Fin 1))
      = max (arg9 (ix2 p (0 : Fin 1)))
          ((Finset.univ : Finset (Fin 256)).fold max (⊥ : EReal) fun q => k6_pay4 (F := Ideal) v0 v2 v29 v32 (ix2 p q)) := by
  unfold k6_pay5
  exact congrArg (max (arg9 (ix2 p (0 : Fin 1)))) (rowmax_apply _ p _ _ _ _)

/-- The rescaling factor of row p: e^(old maximum − new maximum). -/
theorem pay6_apply (v0 v2 : Vec Ideal S512x256 .f32) (arg9 : FVec Ideal S512x1 .f32) (v29 v32 : Vec Ideal S256x256 .f32) (p : Fin 512) :
    k6_pay6 (F := Ideal) v0 v2 arg9 v29 v32 (ix2 p (0 : Fin 1))
      = Ideal.exp (arg9 (ix2 p (0 : Fin 1)) - k6_pay5 (F := Ideal) v0 v2 arg9 v29 v32 (ix2 p (0 : Fin 1))) := rfl

/-- The chunk's weights: e^(logit − new maximum of the row). -/
theorem pay7_apply (v0 v2 : Vec Ideal S512x256 .f32) (arg9 : FVec Ideal S512x1 .f32) (v29 v32 : Vec Ideal S256x256 .f32) (p : Fin 512) (q : Fin 256) :
    k6_pay7 (F := Ideal) v0 v2 arg9 v29 v32 (ix2 p q)
      = Ideal.exp (k6_pay4 (F := Ideal) v0 v2 v29 v32 (ix2 p q) - k6_pay5 (F := Ideal) v0 v2 arg9 v29 v32 (ix2 p (0 : Fin 1))) := by
  unfold k6_pay7
  exact congrArg (fun z => Ideal.exp (k6_pay4 (F := Ideal) v0 v2 v29 v32 (ix2 p q) - z)) (bcol_apply _ _ p q)

/-- The new normaliser of row p: the old one rescaled, plus the chunk's weights. -/
theorem pay8_apply (v0 v2 : Vec Ideal S512x256 .f32) (arg9 arg10 : FVec Ideal S512x1 .f32) (v29 v32 : Vec Ideal S256x256 .f32) (p : Fin 512) :
    k6_pay8 (F := Ideal) v0 v2 arg9 arg10 v29 v32 (ix2 p (0 : Fin 1))
      = k6_pay6 (F := Ideal) v0 v2 arg9 v29 v32 (ix2 p (0 : Fin 1)) * arg10 (ix2 p (0 : Fin 1))
        + ∑ q : Fin 256, k6_pay7 (F := Ideal) v0 v2 arg9 v29 v32 (ix2 p q) := by
  unfold k6_pay8
  exact congrArg (fun z => k6_pay6 (F := Ideal) v0 v2 arg9 v29 v32 (ix2 p (0 : Fin 1)) * arg10 (ix2 p (0 : Fin 1)) + z) (rowsum_apply _ p _ _ _ _)

/-- The new accumulator at (p, j): the old one rescaled, plus the chunk's weights against column j of the chunk's values. -/
theorem pay9_apply (v0 v2 : Vec Ideal S512x256 .f32) (arg9 : FVec Ideal S512x1 .f32) (arg11 : FVec Ideal S512x256 .f32)
    (v29 v32 v38 : Vec Ideal S256x256 .f32) (p : Fin 512) (j : Fin 256) :
    k6_pay9 (F := Ideal) v0 v2 arg9 arg11 v29 v32 v38 (ix2 p j)
      = k6_pay6 (F := Ideal) v0 v2 arg9 v29 v32 (ix2 p (0 : Fin 1)) * arg11 (ix2 p j)
        + ∑ q : Fin 256, k6_pay7 (F := Ideal) v0 v2 arg9 v29 v32 (ix2 p q) * v38 (ix2 q j) := by
  unfold k6_pay9
  refine congrArg₂ (· + ·) (congrArg (· * arg11 (ix2 p j)) (bcol_apply _ _ p j)) ?_
  refine (matmul_apply _ _ p j).trans ?_
  refine Finset.sum_congr rfl fun q _ => ?_
  rw [truncf_apply, truncf_apply, shapeCast_self]

/-- The gated, squashed row before its normalisation: the logistic function of b1² times the accumulator over the
    normaliser. -/
def sq (l : FVec Ideal S512x1 .f32) (a : FVec Ideal S512x256 .f32) (b1 : Vec Ideal S512x256 .f32) (p : Fin 512) (c : Fin 256) : EReal :=
  Ideal.logistic (b1 (ix2 p c) * b1 (ix2 p c) * Ideal.div (a (ix2 p c)) (l (ix2 p (0 : Fin 1))))

/-- The stored block at (p, j): the squashed entry over the larger of the row's norm and the floor. -/
theorem pay10_apply (l : FVec Ideal S512x1 .f32) (a : FVec Ideal S512x256 .f32) (b1 : Vec Ideal S512x256 .f32) (p : Fin 512) (j : Fin 256) :
    k6_pay10 (F := Ideal) l a b1 (ix2 p j)
      = Ideal.div (sq l a b1 p j) (max (Ideal.sqrt (∑ c : Fin 256, sq l a b1 p c * sq l a b1 p c)) Spec.eps) := by
  unfold k6_pay10
  have e0 : ∀ (c : Fin 256) (hs : S512x256.ShapeCasts S512x256) (hb : S512x1.Broadcasts S512x256),
      Ideal.logistic (shapeCast S512x256 b1 hs (ix2 p c) * shapeCast S512x256 b1 hs (ix2 p c) * Ideal.div (a (ix2 p c)) (broadcastTo S512x256 l hb (ix2 p c)))
        = sq l a b1 p c := by
    intro c hs hb; rw [shapeCast_self, bcol_apply]; rfl
  refine congrArg₂ Ideal.div (e0 j _ _) ?_
  refine (bcol_apply _ _ p j).trans ?_
  refine congrArg₂ max (congrArg Ideal.sqrt ((rowsum_apply _ p _ _ _ _).trans ?_)) rfl
  exact Finset.sum_congr rfl fun c _ => congrArg₂ (· * ·) (e0 c _ _) (e0 c _ _)

/-- The loop starts from maximum -∞, normaliser 0 and accumulator 0. -/
theorem pay1_apply (j : S512x1.Idx) : k6_pay1 (F := Ideal) j = ⊥ := Spec.ofBits_neg_inf_f32
theorem pay2_apply (j : S512x1.Idx) : k6_pay2 (F := Ideal) j = 0 := Ideal.ofBits_zero_f32
theorem pay3_apply (j : S512x256.Idx) : k6_pay3 (F := Ideal) j = 0 := Ideal.ofBits_zero_f32

/-! ## One trip of the loop, and the loop's state -/

theorem hz : (![0, 0] : Fin 2 → Nat) = fun _ => 0 := funext fun a => by fin_cases a <;> rfl

/-- The loop makes 16 trips. -/
theorem trips : k6_t1_loop.trips = 16 := by decide +kernel

/-- The 256 rows trip k loads of a 4096-row array. -/
def chunk (x : Vec Ideal S4096x256 .f32) (k : Fin k6_t1_loop.trips) : Vec Ideal S256x256 .f32 :=
  View.ld x (Rect.unit (s := S4096x256) (k6_off1 k) S256x256.size (k6_off1_inb k))

/-- Its entry (r, c) is the array's entry (256·k + r, c). -/
theorem chunk_apply (x : Vec Ideal S4096x256 .f32) (k : Fin k6_t1_loop.trips) (r c : Fin 256) (hb : 256 * k.val + r.val < 4096) :
    chunk x k (ix2 r c) = x (ix2 (⟨256 * k.val + r.val, hb⟩ : Fin 4096) c) := by
  have h0 : k6_off1 k 0 = 256 * k.val := congrFun (k6_off1_eq k) 0
  have h1 : k6_off1 k 1 = 0 := congrFun (k6_off1_eq k) 1
  refine congrArg x (funext fun a => Fin.ext ?_)
  match a with
  | ⟨0, _⟩ =>
    show k6_off1 k 0 + 1 * r.val = 256 * k.val + r.val
    rw [h0]; omega
  | ⟨1, _⟩ =>
    show k6_off1 k 1 + 1 * c.val = c.val
    rw [h1]; omega

/-- One trip's yield from the carried (maximum, normaliser, accumulator), the two loaded blocks and the three chunks. -/
def step (v0 v2 : Vec Ideal S512x256 .f32) (v29 v32 v38 : Vec Ideal S256x256 .f32) (acc : FVec Ideal S512x1 .f32 × FVec Ideal S512x1 .f32 × FVec Ideal S512x256 .f32) : FVec Ideal S512x1 .f32 × FVec Ideal S512x1 .f32 × FVec Ideal S512x256 .f32 :=
  (k6_pay5 (F := Ideal) v0 v2 acc.1 v29 v32, k6_pay8 (F := Ideal) v0 v2 acc.1 acc.2.1 v29 v32, k6_pay9 (F := Ideal) v0 v2 acc.1 acc.2.2 v29 v32 v38)

section Trip
variable {F : FTy → Type} [FloatOps F] [Named F]
set_option maxHeartbeats 1000000 in
/-- What the trip yields, at any contents of the three memrefs it reads: the trip's definition opened, once. -/
theorem tripR_gen (c : Dev nD) (i : grid6.Coords) (arg1 : Memref sig .tc .vmem S512x256 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S4096x256 .f32) (harg5 : arg5.IsWhole) (arg6 : Memref sig .tc .vmem S512x256 .f32) (harg6 : arg6.IsWhole) (arg7 : Memref sig .tc .vmem S512x256 .f32) (harg7 : arg7.IsWhole)
    (v0 v2 : Vec F S512x256 .f32) (X3 : BufTy.Contents (Elt F) arg3.view.ty) (X4 : BufTy.Contents (Elt F) arg4.view.ty) (X5 : BufTy.Contents (Elt F) arg5.view.ty)
    (k : Fin k6_t1_loop.trips) (acc : FVec F S512x1 .f32 × FVec F S512x1 .f32 × FVec F S512x256 .f32) :
    tripR_k6_t1 (F := F) Variants.none c none i arg1 harg1 arg2 harg2 arg3 harg3 arg4 harg4 arg5 harg5 arg6 harg6 arg7 harg7 v0 v2 X3 X4 X5 k acc
      = (k6_pay5 v0 v2 acc.1 (View.readAt (Elt F) arg3.view (Rect.unit (s := S4096x256) (k6_off1 k) S256x256.size (k6_off1_inb k)).toLoadRect X3)
            (View.readAt (Elt F) arg4.view (Rect.unit (s := S4096x256) (k6_off1 k) S256x256.size (k6_off1_inb k)).toLoadRect X4),
          k6_pay8 v0 v2 acc.1 acc.2.1 (View.readAt (Elt F) arg3.view (Rect.unit (s := S4096x256) (k6_off1 k) S256x256.size (k6_off1_inb k)).toLoadRect X3)
            (View.readAt (Elt F) arg4.view (Rect.unit (s := S4096x256) (k6_off1 k) S256x256.size (k6_off1_inb k)).toLoadRect X4),
          k6_pay9 v0 v2 acc.1 acc.2.2 (View.readAt (Elt F) arg3.view (Rect.unit (s := S4096x256) (k6_off1 k) S256x256.size (k6_off1_inb k)).toLoadRect X3)
            (View.readAt (Elt F) arg4.view (Rect.unit (s := S4096x256) (k6_off1 k) S256x256.size (k6_off1_inb k)).toLoadRect X4)
            (View.readAt (Elt F) arg5.view (Rect.unit (s := S4096x256) (k6_off1 k) S256x256.size (k6_off1_inb k)).toLoadRect X5)) := by
  unfold tripR_k6_t1
  unfold trip_k6_t1
  rfl
end Trip

/-- At the memrefs' contents named from the arrays they read, the trip yields the step of the blocks and the three chunks. -/
theorem tripR_eq (c : Dev nD) (i : grid6.Coords) (arg1 : Memref sig .tc .vmem S512x256 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S4096x256 .f32) (harg5 : arg5.IsWhole) (arg6 : Memref sig .tc .vmem S512x256 .f32) (harg6 : arg6.IsWhole) (arg7 : Memref sig .tc .vmem S512x256 .f32) (harg7 : arg7.IsWhole)
    (v0 v2 : Vec Ideal S512x256 .f32) (x2 x3 x4 : Vec Ideal S4096x256 .f32) (k : Fin k6_t1_loop.trips) (acc : FVec Ideal S512x1 .f32 × FVec Ideal S512x1 .f32 × FVec Ideal S512x256 .f32) :
    tripR_k6_t1 (F := Ideal) Variants.none c none i arg1 harg1 arg2 harg2 arg3 harg3 arg4 harg4 arg5 harg5 arg6 harg6 arg7 harg7 v0 v2 (harg3.unread x2) (harg4.unread x3) (harg5.unread x4) k acc
      = step v0 v2 (chunk x2 k) (chunk x3 k) (chunk x4 k) acc := by
  refine (tripR_gen c i arg1 harg1 arg2 harg2 arg3 harg3 arg4 harg4 arg5 harg5 arg6 harg6 arg7 harg7 v0 v2 _ _ _ k acc).trans ?_
  simp only [View.readAt_eq_ld, Memref.IsWhole.read_unread]
  rfl

/-- The loop's carried value before trip n. -/
def stN (c : Dev nD) (i : grid6.Coords) (arg1 : Memref sig .tc .vmem S512x256 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S4096x256 .f32) (harg5 : arg5.IsWhole) (arg6 : Memref sig .tc .vmem S512x256 .f32) (harg6 : arg6.IsWhole) (arg7 : Memref sig .tc .vmem S512x256 .f32) (harg7 : arg7.IsWhole)
    (v0 v2 : Vec Ideal S512x256 .f32) (x2 x3 x4 : Vec Ideal S4096x256 .f32) (n : ℕ) : FVec Ideal S512x1 .f32 × FVec Ideal S512x1 .f32 × FVec Ideal S512x256 .f32 :=
  st_k6_t1 (F := Ideal) Variants.none c none i arg1 harg1 arg2 harg2 arg3 harg3 arg4 harg4 arg5 harg5 arg6 harg6 arg7 harg7 v0 v2 (harg3.unread x2) (harg4.unread x3) (harg5.unread x4)
    (k6_pay1, k6_pay2, k6_pay3) n

theorem stN_succ (c : Dev nD) (i : grid6.Coords) (arg1 : Memref sig .tc .vmem S512x256 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S4096x256 .f32) (harg5 : arg5.IsWhole) (arg6 : Memref sig .tc .vmem S512x256 .f32) (harg6 : arg6.IsWhole) (arg7 : Memref sig .tc .vmem S512x256 .f32) (harg7 : arg7.IsWhole)
    (v0 v2 : Vec Ideal S512x256 .f32) (x2 x3 x4 : Vec Ideal S4096x256 .f32) (n : ℕ) (hk : n < k6_t1_loop.trips) :
    stN c i arg1 harg1 arg2 harg2 arg3 harg3 arg4 harg4 arg5 harg5 arg6 harg6 arg7 harg7 v0 v2 x2 x3 x4 (n + 1)
      = step v0 v2 (chunk x2 ⟨n, hk⟩) (chunk x3 ⟨n, hk⟩) (chunk x4 ⟨n, hk⟩) (stN c i arg1 harg1 arg2 harg2 arg3 harg3 arg4 harg4 arg5 harg5 arg6 harg6 arg7 harg7 v0 v2 x2 x3 x4 n) :=
  (st_k6_t1_succ (F := Ideal) Variants.none c none i arg1 harg1 arg2 harg2 arg3 harg3 arg4 harg4 arg5 harg5 arg6 harg6 arg7 harg7 v0 v2 (harg3.unread x2) (harg4.unread x3) (harg5.unread x4)
    (k6_pay1, k6_pay2, k6_pay3) ⟨n, hk⟩).trans (tripR_eq c i arg1 harg1 arg2 harg2 arg3 harg3 arg4 harg4 arg5 harg5 arg6 harg6 arg7 harg7 v0 v2 x2 x3 x4 ⟨n, hk⟩ _)

theorem loop_eq (c : Dev nD) (i : grid6.Coords) (arg1 : Memref sig .tc .vmem S512x256 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S4096x256 .f32) (harg5 : arg5.IsWhole) (arg6 : Memref sig .tc .vmem S512x256 .f32) (harg6 : arg6.IsWhole) (arg7 : Memref sig .tc .vmem S512x256 .f32) (harg7 : arg7.IsWhole)
    (x0 x1 : Vec Ideal S512x256 .f32) (x2 x3 x4 : Vec Ideal S4096x256 .f32) :
    loop6 (F := Ideal) c i arg1 harg1 arg2 harg2 arg3 harg3 arg4 harg4 arg5 harg5 arg6 harg6 arg7 harg7 x0 x1 x2 x3 x4 = stN c i arg1 harg1 arg2 harg2 arg3 harg3 arg4 harg4 arg5 harg5 arg6 harg6 arg7 harg7 x0 x1 x2 x3 x4 16 := by
  unfold loop6 stN
  simp only [View.ld_unit_zero (S := S512x256) hz]
  exact congrArg _ trips

/-! ## A row of the block through the loop -/

open OnlineSoftmax in
/-- One trip, read at row p and column j, when the chunk's logits of row p are the reals σk and the chunk's values in
    column j the reals φk. -/
theorem step_row (v0 v2 : Vec Ideal S512x256 .f32) (v29 v32 v38 : Vec Ideal S256x256 .f32) (acc : FVec Ideal S512x1 .f32 × FVec Ideal S512x1 .f32 × FVec Ideal S512x256 .f32) (p : Fin 512) (j : Fin 256)
    (σk φk : Fin 256 → ℝ)
    (hs : ∀ q, (∑ c : Fin 256, (v0 (ix2 p c) * v2 (ix2 p c)) * ((1 - v29 (ix2 q c)) * v32 (ix2 q c))) * ((1 / 16 : ℝ) : EReal) = ((σk q : ℝ) : EReal))
    (hv : ∀ q, v38 (ix2 q j) = ((φk q : ℝ) : EReal)) :
    (step v0 v2 v29 v32 v38 acc).1 (ix2 p (0 : Fin 1)) = max (acc.1 (ix2 p (0 : Fin 1))) ((Finset.univ : Finset (Fin 256)).fold max (⊥ : EReal) (fun q => ((σk q : ℝ) : EReal)))
      ∧ (step v0 v2 v29 v32 v38 acc).2.1 (ix2 p (0 : Fin 1))
        = Ideal.exp (acc.1 (ix2 p (0 : Fin 1)) - max (acc.1 (ix2 p (0 : Fin 1))) ((Finset.univ : Finset (Fin 256)).fold max (⊥ : EReal) (fun q => ((σk q : ℝ) : EReal)))) * acc.2.1 (ix2 p (0 : Fin 1))
          + ∑ q, Ideal.exp (((σk q : ℝ) : EReal) - max (acc.1 (ix2 p (0 : Fin 1))) ((Finset.univ : Finset (Fin 256)).fold max (⊥ : EReal) (fun q => ((σk q : ℝ) : EReal))))
      ∧ (step v0 v2 v29 v32 v38 acc).2.2 (ix2 p j)
        = Ideal.exp (acc.1 (ix2 p (0 : Fin 1)) - max (acc.1 (ix2 p (0 : Fin 1))) ((Finset.univ : Finset (Fin 256)).fold max (⊥ : EReal) (fun q => ((σk q : ℝ) : EReal)))) * acc.2.2 (ix2 p j)
          + ∑ q, Ideal.exp (((σk q : ℝ) : EReal) - max (acc.1 (ix2 p (0 : Fin 1))) ((Finset.univ : Finset (Fin 256)).fold max (⊥ : EReal) (fun q => ((σk q : ℝ) : EReal)))) * ((φk q : ℝ) : EReal) := by
  have h4 : ∀ q, k6_pay4 (F := Ideal) v0 v2 v29 v32 (ix2 p q) = ((σk q : ℝ) : EReal) := fun q => (pay4_apply v0 v2 v29 v32 p q).trans (hs q)
  have h5 : k6_pay5 (F := Ideal) v0 v2 acc.1 v29 v32 (ix2 p (0 : Fin 1)) = max (acc.1 (ix2 p (0 : Fin 1))) ((Finset.univ : Finset (Fin 256)).fold max (⊥ : EReal) (fun q => ((σk q : ℝ) : EReal))) := by
    rw [pay5_apply]; simp only [h4]
  have h6 : k6_pay6 (F := Ideal) v0 v2 acc.1 v29 v32 (ix2 p (0 : Fin 1)) = Ideal.exp (acc.1 (ix2 p (0 : Fin 1)) - max (acc.1 (ix2 p (0 : Fin 1))) ((Finset.univ : Finset (Fin 256)).fold max (⊥ : EReal) (fun q => ((σk q : ℝ) : EReal)))) := by
    rw [pay6_apply, h5]
  have h7 : ∀ q, k6_pay7 (F := Ideal) v0 v2 acc.1 v29 v32 (ix2 p q) = Ideal.exp (((σk q : ℝ) : EReal) - max (acc.1 (ix2 p (0 : Fin 1))) ((Finset.univ : Finset (Fin 256)).fold max (⊥ : EReal) (fun q => ((σk q : ℝ) : EReal)))) := fun q => by
    rw [pay7_apply, h4, h5]
  refine ⟨h5, ?_, ?_⟩
  · show k6_pay8 (F := Ideal) v0 v2 acc.1 acc.2.1 v29 v32 (ix2 p (0 : Fin 1)) = _
    rw [pay8_apply, h6]; simp only [h7]
  · show k6_pay9 (F := Ideal) v0 v2 acc.1 acc.2.2 v29 v32 v38 (ix2 p j) = _
    rw [pay9_apply, h6]; simp only [h7, hv]

open OnlineSoftmax in
/-- The same trip on the tracked sums: the new maximum is a real number, and the normaliser and the accumulator track the
    sums extended by the chunk. -/
theorem tracks_chunk (m l a : EReal) (W N : ℝ) (hl : Tracks m l W) (ha : Tracks m a N) (σk φk : Fin 256 → ℝ) :
    (∃ μ' : ℝ, max (m) ((Finset.univ : Finset (Fin 256)).fold max (⊥ : EReal) (fun q => ((σk q : ℝ) : EReal))) = (μ' : EReal))
      ∧ Tracks (max (m) ((Finset.univ : Finset (Fin 256)).fold max (⊥ : EReal) (fun q => ((σk q : ℝ) : EReal))))
          (Ideal.exp (m - max (m) ((Finset.univ : Finset (Fin 256)).fold max (⊥ : EReal) (fun q => ((σk q : ℝ) : EReal)))) * l + ∑ q, Ideal.exp (((σk q : ℝ) : EReal) - max (m) ((Finset.univ : Finset (Fin 256)).fold max (⊥ : EReal) (fun q => ((σk q : ℝ) : EReal)))))
          (W + ∑ q, Real.exp (σk q))
      ∧ Tracks (max (m) ((Finset.univ : Finset (Fin 256)).fold max (⊥ : EReal) (fun q => ((σk q : ℝ) : EReal))))
          (Ideal.exp (m - max (m) ((Finset.univ : Finset (Fin 256)).fold max (⊥ : EReal) (fun q => ((σk q : ℝ) : EReal)))) * a + ∑ q, Ideal.exp (((σk q : ℝ) : EReal) - max (m) ((Finset.univ : Finset (Fin 256)).fold max (⊥ : EReal) (fun q => ((σk q : ℝ) : EReal)))) * ((φk q : ℝ) : EReal))
          (N + ∑ q, Real.exp (σk q) * φk q) := by
  obtain ⟨μ', hμ'⟩ := max_fold_real hl.shift σk
  rw [hμ']
  exact ⟨⟨μ', rfl⟩, hl.step_one μ' σk, ha.step μ' σk φk⟩

open OnlineSoftmax in
/-- THE LOOP, ROW BY ROW. When row p's logits against the 4096 keys are the reals σ and column j of the values the reals
    φ, then before trip n the normaliser of row p tracks the sum of e^σ over the first 256·n keys and the accumulator at
    (p, j) the sum of e^σ·φ over them, under the running maximum — a real number once a trip has run. -/
theorem loop_row (c : Dev nD) (i : grid6.Coords) (arg1 : Memref sig .tc .vmem S512x256 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S4096x256 .f32) (harg5 : arg5.IsWhole) (arg6 : Memref sig .tc .vmem S512x256 .f32) (harg6 : arg6.IsWhole) (arg7 : Memref sig .tc .vmem S512x256 .f32) (harg7 : arg7.IsWhole)
    (v0 v2 : Vec Ideal S512x256 .f32) (x2 x3 x4 : Vec Ideal S4096x256 .f32) (p : Fin 512) (j : Fin 256) (σ φ : ℕ → ℝ)
    (hσ : ∀ s : Fin 4096, (∑ cc : Fin 256, (v0 (ix2 p cc) * v2 (ix2 p cc)) * ((1 - x2 (ix2 s cc)) * x3 (ix2 s cc))) * ((1 / 16 : ℝ) : EReal) = ((σ s.val : ℝ) : EReal))
    (hφ : ∀ s : Fin 4096, x4 (ix2 s j) = ((φ s.val : ℝ) : EReal)) :
    ∀ n, n ≤ 16 →
      Tracks ((stN c i arg1 harg1 arg2 harg2 arg3 harg3 arg4 harg4 arg5 harg5 arg6 harg6 arg7 harg7 v0 v2 x2 x3 x4 n).1 (ix2 p (0 : Fin 1))) ((stN c i arg1 harg1 arg2 harg2 arg3 harg3 arg4 harg4 arg5 harg5 arg6 harg6 arg7 harg7 v0 v2 x2 x3 x4 n).2.1 (ix2 p (0 : Fin 1)))
          (∑ s ∈ Finset.range (256 * n), Real.exp (σ s))
        ∧ Tracks ((stN c i arg1 harg1 arg2 harg2 arg3 harg3 arg4 harg4 arg5 harg5 arg6 harg6 arg7 harg7 v0 v2 x2 x3 x4 n).1 (ix2 p (0 : Fin 1))) ((stN c i arg1 harg1 arg2 harg2 arg3 harg3 arg4 harg4 arg5 harg5 arg6 harg6 arg7 harg7 v0 v2 x2 x3 x4 n).2.2 (ix2 p j))
          (∑ s ∈ Finset.range (256 * n), Real.exp (σ s) * φ s)
        ∧ (0 < n → ∃ μ : ℝ, (stN c i arg1 harg1 arg2 harg2 arg3 harg3 arg4 harg4 arg5 harg5 arg6 harg6 arg7 harg7 v0 v2 x2 x3 x4 n).1 (ix2 p (0 : Fin 1)) = (μ : EReal))
  | 0, _ => by
    have e : stN c i arg1 harg1 arg2 harg2 arg3 harg3 arg4 harg4 arg5 harg5 arg6 harg6 arg7 harg7 v0 v2 x2 x3 x4 0 = (k6_pay1, k6_pay2, k6_pay3) := rfl
    rw [e]
    show Tracks (k6_pay1 (F := Ideal) (ix2 p (0 : Fin 1))) (k6_pay2 (F := Ideal) (ix2 p (0 : Fin 1))) _
      ∧ Tracks (k6_pay1 (F := Ideal) (ix2 p (0 : Fin 1))) (k6_pay3 (F := Ideal) (ix2 p j)) _
      ∧ (0 < 0 → ∃ μ : ℝ, k6_pay1 (F := Ideal) (ix2 p (0 : Fin 1)) = (μ : EReal))
    rw [pay1_apply, pay2_apply, pay3_apply]
    simp only [Nat.mul_zero, Finset.range_zero, Finset.sum_empty]
    exact ⟨tracks_init, tracks_init, fun h => absurd h (Nat.lt_irrefl 0)⟩
  | n + 1, hn => by
    have ih := loop_row c i arg1 harg1 arg2 harg2 arg3 harg3 arg4 harg4 arg5 harg5 arg6 harg6 arg7 harg7 v0 v2 x2 x3 x4 p j σ φ hσ hφ n (by omega)
    have hk : n < k6_t1_loop.trips := by rw [trips]; omega
    rw [stN_succ c i arg1 harg1 arg2 harg2 arg3 harg3 arg4 harg4 arg5 harg5 arg6 harg6 arg7 harg7 v0 v2 x2 x3 x4 n hk]
    have hb : ∀ r : Fin 256, 256 * n + r.val < 4096 := fun r => by have := r.isLt; omega
    obtain ⟨e1, e2, e3⟩ := step_row v0 v2 (chunk x2 ⟨n, hk⟩) (chunk x3 ⟨n, hk⟩) (chunk x4 ⟨n, hk⟩) (stN c i arg1 harg1 arg2 harg2 arg3 harg3 arg4 harg4 arg5 harg5 arg6 harg6 arg7 harg7 v0 v2 x2 x3 x4 n) p j
      (fun r => σ (256 * n + r.val)) (fun r => φ (256 * n + r.val))
      (fun r => by
        have := hσ ⟨256 * n + r.val, hb r⟩
        rw [← this]
        refine congrArg (· * ((1 / 16 : ℝ) : EReal)) (Finset.sum_congr rfl fun cc _ => ?_)
        rw [chunk_apply x2 ⟨n, hk⟩ r cc (hb r), chunk_apply x3 ⟨n, hk⟩ r cc (hb r)])
      (fun r => by rw [chunk_apply x4 ⟨n, hk⟩ r j (hb r)]; exact hφ ⟨256 * n + r.val, hb r⟩)
    rw [e1, e2, e3]
    obtain ⟨hr, hl', ha'⟩ := tracks_chunk _ _ _ _ _ ih.1 ih.2.1 (fun r => σ (256 * n + r.val)) (fun r => φ (256 * n + r.val))
    have hsplit : ∀ f : ℕ → ℝ, ∑ s ∈ Finset.range (256 * (n + 1)), f s = ∑ s ∈ Finset.range (256 * n), f s + ∑ r : Fin 256, f (256 * n + r.val) := fun f => by
      rw [show 256 * (n + 1) = 256 * n + 256 by ring, Finset.sum_range_add]
      exact congrArg (∑ s ∈ Finset.range (256 * n), f s + ·) (Finset.sum_range (fun x => f (256 * n + x)))
    rw [hsplit, hsplit]
    exact ⟨hl', ha', fun _ => hr⟩

open OnlineSoftmax in
/-- After the 16 trips the accumulator over the normaliser, at (p, j), is the softmax average of φ under σ. -/
theorem div_row (c : Dev nD) (i : grid6.Coords) (arg1 : Memref sig .tc .vmem S512x256 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S4096x256 .f32) (harg5 : arg5.IsWhole) (arg6 : Memref sig .tc .vmem S512x256 .f32) (harg6 : arg6.IsWhole) (arg7 : Memref sig .tc .vmem S512x256 .f32) (harg7 : arg7.IsWhole)
    (x0 x1 : Vec Ideal S512x256 .f32) (x2 x3 x4 : Vec Ideal S4096x256 .f32) (p : Fin 512) (j : Fin 256) (σ φ : ℕ → ℝ)
    (hσ : ∀ s : Fin 4096, (∑ cc : Fin 256, (x0 (ix2 p cc) * x1 (ix2 p cc)) * ((1 - x2 (ix2 s cc)) * x3 (ix2 s cc))) * ((1 / 16 : ℝ) : EReal) = ((σ s.val : ℝ) : EReal))
    (hφ : ∀ s : Fin 4096, x4 (ix2 s j) = ((φ s.val : ℝ) : EReal)) :
    Ideal.div ((loop6 (F := Ideal) c i arg1 harg1 arg2 harg2 arg3 harg3 arg4 harg4 arg5 harg5 arg6 harg6 arg7 harg7 x0 x1 x2 x3 x4).2.2 (ix2 p j)) ((loop6 (F := Ideal) c i arg1 harg1 arg2 harg2 arg3 harg3 arg4 harg4 arg5 harg5 arg6 harg6 arg7 harg7 x0 x1 x2 x3 x4).2.1 (ix2 p (0 : Fin 1)))
      = ((((∑ s ∈ Finset.range 4096, Real.exp (σ s) * φ s) / (∑ s ∈ Finset.range 4096, Real.exp (σ s)) : ℝ)) : EReal) := by
  rw [loop_eq]
  obtain ⟨hl, ha, hm⟩ := loop_row c i arg1 harg1 arg2 harg2 arg3 harg3 arg4 harg4 arg5 harg5 arg6 harg6 arg7 harg7 x0 x1 x2 x3 x4 p j σ φ hσ hφ 16 (le_refl _)
  have hl' : Tracks _ _ (∑ s ∈ Finset.range 4096, Real.exp (σ s)) := hl
  have ha' : Tracks _ _ (∑ s ∈ Finset.range 4096, Real.exp (σ s) * φ s) := ha
  have hW : 0 < ∑ s ∈ Finset.range 4096, Real.exp (σ s) :=
    Finset.sum_pos (fun s _ => Real.exp_pos _) ⟨0, Finset.mem_range.2 (by norm_num)⟩
  exact Tracks.div (hm (by norm_num)) hl' ha' hW

/-! ## The specification's row -/

/-- The last attention's logits: ((gt·K)·((1 − gt)·Q)ᵀ) / 16. -/
def Z (gt Kf Q : Spec.Mat 4096 256) : Spec.Mat 4096 4096 :=
  Spec.mat fun a b => Ideal.div (Spec.gram (Spec.gq gt Kf) (Spec.gk gt Q) (ix2 a b)) Spec.c16

/-- The logits are real numbers when the three arrays are. -/
theorem Z_real {gt Kf Q : Spec.Mat 4096 256} (hgt : Spec.IsReal gt) (hKf : Spec.IsReal Kf) (hQ : Spec.IsReal Q) : Spec.IsReal (Z gt Kf Q) :=
  Spec.isReal_mat fun _ _ => ((Spec.gram_real (Spec.gq_real hgt hKf) (Spec.gk_real hgt hQ)).at _).div Spec.c16_eq (by norm_num)

/-- A logit spelled as the kernel computes it: the inner product times 1/16 (division by the nonzero real 16 is the
    product with its reciprocal, at the infinities too). -/
theorem Z_apply (gt Kf Q : Spec.Mat 4096 256) (a s : Fin 4096) :
    Z gt Kf Q (ix2 a s)
      = (∑ c : Fin 256, (gt (ix2 a c) * Kf (ix2 a c)) * ((1 - gt (ix2 s c)) * Q (ix2 s c))) * ((1 / 16 : ℝ) : EReal) := by
  show Ideal.div (∑ c : Fin 256, Spec.gq gt Kf (ix2 a c) * Spec.gk gt Q (ix2 s c)) Spec.c16 = _
  rw [Spec.c16_eq, Ideal.div_coe (by norm_num : (16 : ℝ) ≠ 0)]
  rfl

open OnlineSoftmax in
/-- THE SPECIFICATION'S ROW. With row a of the logits the reals σ and column j of the values the reals φ, the softmax of
    the row applied to the column is the softmax average of φ under σ: the row maximum is one of the reals, and the
    two-pass form of a softmax average does not depend on the shift. -/
theorem spec_row (Zm : Spec.Mat 4096 4096) (B2 : Spec.Mat 4096 256) (a : Fin 4096) (j : Fin 256) (σ φ : ℕ → ℝ)
    (hσ : ∀ s : Fin 4096, Zm (ix2 a s) = ((σ s.val : ℝ) : EReal))
    (hφ : ∀ s : Fin 4096, B2 (ix2 s j) = ((φ s.val : ℝ) : EReal)) :
    Spec.mm (Spec.softmaxRow Zm) B2 (ix2 a j)
      = ((((∑ s ∈ Finset.range 4096, Real.exp (σ s) * φ s) / (∑ s ∈ Finset.range 4096, Real.exp (σ s)) : ℝ)) : EReal) := by
  have hmax : ∃ μ : ℝ, Spec.rowMax Zm a = (μ : EReal) := by
    unfold Spec.rowMax
    obtain ⟨s, -, hs⟩ := Finset.exists_mem_eq_sup (Finset.univ : Finset (Fin 4096)) ⟨⟨0, by norm_num⟩, Finset.mem_univ _⟩
      (fun k => Zm (ix2 a k))
    exact ⟨σ s.val, hs.trans (hσ s)⟩
  obtain ⟨μ, hμ⟩ := hmax
  haveI : Nonempty (Fin 4096) := ⟨⟨0, by norm_num⟩⟩
  refine Eq.trans ?_ ((two_pass μ (fun s : Fin 4096 => σ s.val) (fun s : Fin 4096 => φ s.val)).trans ?_)
  · show (∑ cc : Fin 4096, Spec.softmaxRow Zm (ix2 a cc) * B2 (ix2 cc j)) = _
    rw [zero_add]
    refine Finset.sum_congr rfl fun s _ => ?_
    show Ideal.div (Ideal.exp (Zm (ix2 a s) - Spec.rowMax Zm a))
        (∑ k : Fin 4096, Ideal.exp (Zm (ix2 a k) - Spec.rowMax Zm a)) * B2 (ix2 s j) = _
    rw [hμ, hφ s, zero_add, mul_comm]
    simp only [hσ]
  · rw [Finset.sum_range, Finset.sum_range]

/-! ## One grid point -/

/-- THE POINT. At the point whose block is rows 512·tv … 512·tv + 511: when the staging buffers hold those rows of the
    gate, of K and of B1 and the whole of the gate, of Q and of B2, the gate, K, Q and B2 real, the stored block is
    those rows of the specification's normalised result. -/
theorem point (c : Dev nD) (i : grid6.Coords) (arg1 : Memref sig .tc .vmem S512x256 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S4096x256 .f32) (harg5 : arg5.IsWhole) (arg6 : Memref sig .tc .vmem S512x256 .f32) (harg6 : arg6.IsWhole) (arg7 : Memref sig .tc .vmem S512x256 .f32) (harg7 : arg7.IsWhole)
    (x0 x1 : Vec Ideal S512x256 .f32) (x2 x3 x4 : Vec Ideal S4096x256 .f32) (x5 : Vec Ideal S512x256 .f32)
    (gt Kf Q B2 B1 : Spec.Mat 4096 256)
    (hgtr : Spec.IsReal gt) (hKr : Spec.IsReal Kf) (hQr : Spec.IsReal Q) (hB2r : Spec.IsReal B2) (tv : ℕ) (ht : tv < 8)
    (h0 : ∀ (p : Fin 512) (cc : Fin 256), x0 (ix2 p cc) = gt (ix2 (⟨512 * tv + p.val, by have := p.isLt; omega⟩ : Fin 4096) cc))
    (h1 : ∀ (p : Fin 512) (cc : Fin 256), x1 (ix2 p cc) = Kf (ix2 (⟨512 * tv + p.val, by have := p.isLt; omega⟩ : Fin 4096) cc))
    (h2 : ∀ (s : Fin 4096) (cc : Fin 256), x2 (ix2 s cc) = gt (ix2 s cc))
    (h3 : ∀ (s : Fin 4096) (cc : Fin 256), x3 (ix2 s cc) = Q (ix2 s cc))
    (h4 : ∀ (s : Fin 4096) (cc : Fin 256), x4 (ix2 s cc) = B2 (ix2 s cc))
    (h5 : ∀ (p : Fin 512) (cc : Fin 256), x5 (ix2 p cc) = B1 (ix2 (⟨512 * tv + p.val, by have := p.isLt; omega⟩ : Fin 4096) cc)) :
    k6_pay10 (F := Ideal) (loop6 (F := Ideal) c i arg1 harg1 arg2 harg2 arg3 harg3 arg4 harg4 arg5 harg5 arg6 harg6 arg7 harg7 x0 x1 x2 x3 x4).2.1 (loop6 (F := Ideal) c i arg1 harg1 arg2 harg2 arg3 harg3 arg4 harg4 arg5 harg5 arg6 harg6 arg7 harg7 x0 x1 x2 x3 x4).2.2 x5
      = fun j : S512x256.Idx => Spec.normalize (Spec.out B1 (Spec.Gs gt Kf Q) B2) (ix2 (⟨512 * tv + (j 0).val, by have := idx2_lt0 j; omega⟩ : Fin 4096) (j 1)) := by
  funext j
  obtain ⟨p, q, rfl⟩ : ∃ (p : Fin 512) (q : Fin 256), j = ix2 p q := ⟨j 0, j 1, eq_ix2 j⟩
  have hpb : 512 * tv + p.val < 4096 := by have := p.isLt; omega
  choose zr hzr using Z_real hgtr hKr hQr
  choose br hbr using hB2r
  -- row p's logits, and each column's values, as reals indexed by the key's number
  let σ : ℕ → ℝ := fun s => if h : s < 4096 then zr (ix2 (⟨512 * tv + p.val, hpb⟩ : Fin 4096) (⟨s, h⟩ : Fin 4096)) else 0
  let φ : Fin 256 → ℕ → ℝ := fun cc s => if h : s < 4096 then br (ix2 (⟨s, h⟩ : Fin 4096) cc) else 0
  have hσv : ∀ s : Fin 4096, σ s.val = zr (ix2 (⟨512 * tv + p.val, hpb⟩ : Fin 4096) s) := fun s => dif_pos s.isLt
  have hφv : ∀ (cc : Fin 256) (s : Fin 4096), φ cc s.val = br (ix2 s cc) := fun cc s => dif_pos s.isLt
  have hZ : ∀ s : Fin 4096, Z gt Kf Q (ix2 (⟨512 * tv + p.val, hpb⟩ : Fin 4096) s) = ((σ s.val : ℝ) : EReal) := fun s => by
    rw [hσv s]; exact hzr _
  have hσk : ∀ s : Fin 4096, (∑ cc : Fin 256, (x0 (ix2 p cc) * x1 (ix2 p cc)) * ((1 - x2 (ix2 s cc)) * x3 (ix2 s cc))) * ((1 / 16 : ℝ) : EReal)
      = ((σ s.val : ℝ) : EReal) := fun s => by
    rw [← hZ s, Z_apply]
    refine congrArg (· * ((1 / 16 : ℝ) : EReal)) (Finset.sum_congr rfl fun cc _ => ?_)
    rw [h0, h1, h2, h3]
  have hφs : ∀ (cc : Fin 256) (s : Fin 4096), B2 (ix2 s cc) = ((φ cc s.val : ℝ) : EReal) := fun cc s => by rw [hφv cc s]; exact hbr _
  have hφk : ∀ (cc : Fin 256) (s : Fin 4096), x4 (ix2 s cc) = ((φ cc s.val : ℝ) : EReal) := fun cc s => by rw [h4, hφs cc s]
  -- the squashed row is the specification's
  have hsq : ∀ cc : Fin 256, sq (loop6 (F := Ideal) c i arg1 harg1 arg2 harg2 arg3 harg3 arg4 harg4 arg5 harg5 arg6 harg6 arg7 harg7 x0 x1 x2 x3 x4).2.1 (loop6 (F := Ideal) c i arg1 harg1 arg2 harg2 arg3 harg3 arg4 harg4 arg5 harg5 arg6 harg6 arg7 harg7 x0 x1 x2 x3 x4).2.2 x5 p cc
      = Spec.out B1 (Spec.Gs gt Kf Q) B2 (ix2 (⟨512 * tv + p.val, hpb⟩ : Fin 4096) cc) := fun cc => by
    unfold sq
    rw [div_row c i arg1 harg1 arg2 harg2 arg3 harg3 arg4 harg4 arg5 harg5 arg6 harg6 arg7 harg7 x0 x1 x2 x3 x4 p cc σ (φ cc) hσk (hφk cc), h5]
    show _ = Ideal.logistic (B1 (ix2 (⟨512 * tv + p.val, hpb⟩ : Fin 4096) cc) * B1 (ix2 (⟨512 * tv + p.val, hpb⟩ : Fin 4096) cc)
      * Spec.mm (Spec.softmaxRow (Z gt Kf Q)) B2 (ix2 (⟨512 * tv + p.val, hpb⟩ : Fin 4096) cc))
    rw [spec_row (Z gt Kf Q) B2 ⟨512 * tv + p.val, hpb⟩ cc σ (φ cc) hZ (hφs cc)]
  rw [pay10_apply]
  simp only [hsq]
  rfl

/-! ## From the blocks to the array -/

/-- The printed index maps over the grid: the block windows 0, 1, 5, 6 sit at block row t, the whole-array windows 2, 3,
    4 at block 0. -/
theorem idx_facts : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0
    ∧ win6_6.index t (0 : Fin 2) = t.val ∧ win6_6.index t (1 : Fin 2) = 0 :=
  (by decide +kernel : ∀ t : Fin grid6.N, _)

section Blocks
variable (V : (c : Dev nD) → (b : Ref sig .tc) → Buf (Elt Ideal) ((c : Thread nD τ).loc b))

/-- WHAT POINT t WRITES BACK is block t of the specification's normalised result of the region-entry arrays. -/
theorem flushed_eq (c : Dev nD) (gt Kf Q B2 B1 : Spec.Mat 4096 256)
    (hgt : (V c main_v19 : S4096x256.Idx → EReal) = gt) (hK : (V c main_v16_0 : S4096x256.Idx → EReal) = Kf)
    (hQ : (V c main_v14 : S4096x256.Idx → EReal) = Q) (hB2 : (V c main_v18 : S4096x256.Idx → EReal) = B2)
    (hB1 : (V c main_v17 : S4096x256.Idx → EReal) = B1)
    (hgtr : Spec.IsReal gt) (hKr : Spec.IsReal Kf) (hQr : Spec.IsReal Q) (hB2r : Spec.IsReal B2) (t : Fin cfg6.N) :
    (dat6 (F := Ideal) V c).flushed 6 t
      = ((cfg6.win 6).blk t).view.read (Elt Ideal) (Spec.normalize (Spec.out B1 (Spec.Gs gt Kf Q) B2)) := by
  have htN : t.val < 8 := by have := t.isLt; have hN : cfg6.N = 8 := N_6; omega
  obtain ⟨e00, e01, e10, e11, e20, e21, e30, e31, e40, e41, e50, e51, e60, e61⟩ := idx_facts t
  show (cfg6.win 6).cut (grid6.coords t) ((dat6 (F := Ideal) V c).after 6 t) = _
  rw [after6_6]
  unfold out6_6
  rw [View.canon_unit_zero hz]
  simp only [View.ld_unit_zero (S := S512x256) hz]
  refine (point c _ _ _ _ _ _ _ _ _ _ _ _ _ _ _ (iblk6 V c 0 t) (iblk6 V c 1 t) (iblk6 V c 2 t) (iblk6 V c 3 t) (iblk6 V c 4 t) (iblk6 V c 5 t)
    gt Kf Q B2 B1 hgtr hKr hQr hB2r t.val htN ?_ ?_ ?_ ?_ ?_ ?_).trans ?_
  · intro p cc
    show V c main_v19 (((cfg6.win 0).blk t).view.emb (ix2 p cc)) = _
    rw [← hgt]
    refine congrArg (V c main_v19) (funext fun a => Fin.ext ?_)
    match a with
    | ⟨0, _⟩ => show win6_0.index t (0 : Fin 2) * 512 + 1 * p.val = 512 * t.val + p.val; rw [e00]; omega
    | ⟨1, _⟩ => show win6_0.index t (1 : Fin 2) * 256 + 1 * cc.val = cc.val; rw [e01]; omega
  · intro p cc
    show V c main_v16_0 (((cfg6.win 1).blk t).view.emb (ix2 p cc)) = _
    rw [← hK]
    refine congrArg (V c main_v16_0) (funext fun a => Fin.ext ?_)
    match a with
    | ⟨0, _⟩ => show win6_1.index t (0 : Fin 2) * 512 + 1 * p.val = 512 * t.val + p.val; rw [e10]; omega
    | ⟨1, _⟩ => show win6_1.index t (1 : Fin 2) * 256 + 1 * cc.val = cc.val; rw [e11]; omega
  · intro s cc
    show V c main_v19 (((cfg6.win 2).blk t).view.emb (ix2 s cc)) = _
    rw [← hgt]
    refine congrArg (V c main_v19) (funext fun a => Fin.ext ?_)
    match a with
    | ⟨0, _⟩ => show win6_2.index t (0 : Fin 2) * 4096 + 1 * s.val = s.val; rw [e20]; omega
    | ⟨1, _⟩ => show win6_2.index t (1 : Fin 2) * 256 + 1 * cc.val = cc.val; rw [e21]; omega
  · intro s cc
    show V c main_v14 (((cfg6.win 3).blk t).view.emb (ix2 s cc)) = _
    rw [← hQ]
    refine congrArg (V c main_v14) (funext fun a => Fin.ext ?_)
    match a with
    | ⟨0, _⟩ => show win6_3.index t (0 : Fin 2) * 4096 + 1 * s.val = s.val; rw [e30]; omega
    | ⟨1, _⟩ => show win6_3.index t (1 : Fin 2) * 256 + 1 * cc.val = cc.val; rw [e31]; omega
  · intro s cc
    show V c main_v18 (((cfg6.win 4).blk t).view.emb (ix2 s cc)) = _
    rw [← hB2]
    refine congrArg (V c main_v18) (funext fun a => Fin.ext ?_)
    match a with
    | ⟨0, _⟩ => show win6_4.index t (0 : Fin 2) * 4096 + 1 * s.val = s.val; rw [e40]; omega
    | ⟨1, _⟩ => show win6_4.index t (1 : Fin 2) * 256 + 1 * cc.val = cc.val; rw [e41]; omega
  · intro p cc
    show V c main_v17 (((cfg6.win 5).blk t).view.emb (ix2 p cc)) = _
    rw [← hB1]
    refine congrArg (V c main_v17) (funext fun a => Fin.ext ?_)
    match a with
    | ⟨0, _⟩ => show win6_5.index t (0 : Fin 2) * 512 + 1 * p.val = 512 * t.val + p.val; rw [e50]; omega
    | ⟨1, _⟩ => show win6_5.index t (1 : Fin 2) * 256 + 1 * cc.val = cc.val; rw [e51]; omega
  · funext j
    show Spec.normalize (Spec.out B1 (Spec.Gs gt Kf Q) B2) _ = Spec.normalize (Spec.out B1 (Spec.Gs gt Kf Q) B2) (((cfg6.win 6).blk t).view.emb j)
    refine congrArg (Spec.normalize (Spec.out B1 (Spec.Gs gt Kf Q) B2)) (funext fun a => Fin.ext ?_)
    match a with
    | ⟨0, _⟩ => show 512 * t.val + (j 0).val = win6_6.index t (0 : Fin 2) * 512 + 1 * (j 0).val; rw [e60]; omega
    | ⟨1, _⟩ => show (j 1).val = win6_6.index t (1 : Fin 2) * 256 + 1 * (j 1).val; rw [e61]; omega

/-- An index of the output array is in point t's block iff each coordinate is in the block's range on its axis. -/
theorem mem_blk (t : Fin cfg6.N) (i : S4096x256.Idx) :
    i ∈ ((cfg6.win 6).blk t).view.set ↔ ∀ a : Fin 2, win6_6.index t a * S512x256.size a ≤ (i a).val ∧ (i a).val < win6_6.index t a * S512x256.size a + S512x256.size a := by
  show i ∈ ((View.whole main_v20).slice (win6_6.rect t)).set ↔ _
  rw [View.set_slice_whole, Rect.mem_set_unit]
  exact Iff.rfl

/-- Row r of the output array is in the block of point r / 512, which writes it back. -/
theorem cover (i : S4096x256.Idx) :
    ∃ t : Fin cfg6.N, (cfg6.win 6).flush t = true ∧ i ∈ ((cfg6.win 6).blk t).view.set := by
  have hi0 : (i 0).val < 4096 := idx2_lt0 i
  have hi1 : (i 1).val < 256 := idx2_lt1 i
  have hN : cfg6.N = 8 := N_6
  have htb : (i 0).val / 512 < cfg6.N := by rw [hN]; omega
  obtain ⟨-, -, -, -, -, -, -, -, -, -, -, -, e60, e61⟩ := idx_facts ⟨(i 0).val / 512, htb⟩
  refine ⟨⟨(i 0).val / 512, htb⟩, flush6_6 _, ?_⟩
  rw [mem_blk]
  intro a
  match a with
  | ⟨0, _⟩ =>
    show win6_6.index ⟨(i 0).val / 512, htb⟩ (0 : Fin 2) * 512 ≤ (i 0).val ∧ (i 0).val < win6_6.index ⟨(i 0).val / 512, htb⟩ (0 : Fin 2) * 512 + 512
    rw [e60]; show (i 0).val / 512 * 512 ≤ (i 0).val ∧ (i 0).val < (i 0).val / 512 * 512 + 512; omega
  | ⟨1, _⟩ =>
    show win6_6.index ⟨(i 0).val / 512, htb⟩ (1 : Fin 2) * 256 ≤ (i 1).val ∧ (i 1).val < win6_6.index ⟨(i 0).val / 512, htb⟩ (1 : Fin 2) * 256 + 256
    rw [e61]; omega

end Blocks

end V6

section Out
variable (V : (c : Dev nD) → (b : Ref sig .tc) → Buf (Elt Ideal) ((c : Thread nD τ).loc b))

/-- THE OUTPUT ARRAY after the region: the specification's normalised result — the logistic function of B1² times the
    last attention applied to B2, each row scaled to unit length — of the region-entry arrays, the gate, K, Q and B2
    real. -/
theorem value6 (c : Dev nD) (gt Kf Q B2 B1 : Spec.Mat 4096 256)
    (hgt : (V c main_v19 : S4096x256.Idx → EReal) = gt) (hK : (V c main_v16_0 : S4096x256.Idx → EReal) = Kf)
    (hQ : (V c main_v14 : S4096x256.Idx → EReal) = Q) (hB2 : (V c main_v18 : S4096x256.Idx → EReal) = B2)
    (hB1 : (V c main_v17 : S4096x256.Idx → EReal) = B1)
    (hgtr : Spec.IsReal gt) (hKr : Spec.IsReal Kf) (hQr : Spec.IsReal Q) (hB2r : Spec.IsReal B2) (hB1r : Spec.IsReal B1) :
    ((dat6 (F := Ideal) V c).arrAt 6 cfg6.N : S4096x256.Idx → EReal) = Spec.normalize (Spec.out B1 (Spec.Gs gt Kf Q) B2) :=
  (dat6 (F := Ideal) V c).arrAt_eq_of_cover 6 (Spec.normalize (Spec.out B1 (Spec.Gs gt Kf Q) B2))
    (fun t _ => V6.flushed_eq V c gt Kf Q B2 B1 hgt hK hQ hB2 hB1 hgtr hKr hQr hB2r t) (V6.cover)
end Out

end Cert.KernelIdeal.HandValue

end
-- ==== Proof.FiniteInputs.lean ====
/-
  The precondition decoded: every entry of every argument array is a real number.

  The precondition is the conjunction, over the eighteen argument arrays, of "every entry x has |x| < +∞", each
  conjunct a reduction by "and" of the entrywise comparisons. A reduction by "and" that gives 1 had a 1 at every
  entry; |x| = max(x, -x) is +∞ at both infinities, so |x| < +∞ leaves the real numbers only.
-/
import proofs.«170994_j15857019257044_2_alg».proof.Defs
import proofs.«170994_j15857019257044_2_alg».proof.Proof.SpecReal
import Idealize.ShloMosaic.Lib.ReduceAll

noncomputable section

namespace Cert.FiniteInputs

open Idealize.ShloMosaic Idealize.SL.Sem
open Cert.Pre_finite_inputs

/-- The shape of a scalar has one index. -/
instance : Subsingleton S_.Idx := ⟨fun a b => funext fun d => d.elim0⟩

/-- The single-precision word 0x7F800000 is +∞. -/
theorem ofBits_inf : Ideal.ofBits .f32 0x7F800000#32 = ⊤ := by simp [Ideal.ofBits, Ideal.ieee]

/-- An extended real whose absolute value max(x, -x) is below +∞ is a real number: at either infinity the
    absolute value is +∞. -/
theorem real_of_abs_lt (x : EReal) (h : Ideal.cmp .olt (max x (-x)) (Ideal.ofBits .f32 0x7F800000#32) = 1#1) :
    ∃ r : ℝ, x = (r : EReal) := by
  rw [ofBits_inf] at h
  induction x using EReal.rec with
  | bot => simp [Ideal.cmp] at h
  | coe r => exact ⟨r, rfl⟩
  | top => simp [Ideal.cmp] at h

/-- One array's conjunct, at any shape: if the reduction by "and" of the comparisons |x| < +∞ is 1, every entry of
    x is a real number. -/
theorem isReal_of_all {s : Shape} {axes : List (Fin s.rank)} (x : FVec Ideal s .f32)
    (bc : S_.BroadcastsInDim s (![] : Fin 0 → Fin s.rank)) (hr : s.ReducesTo axes S_) (hu : 0 < S_.numel)
    (init : IVec S_ 1)
    (e : Host.reduce IntOp.andi
        (cmpf .olt (Host.absf x) (broadcastInDim s ![] bc (constant S_ .f32 0x7F800000#32))) init hr hu ValueIdx.ix0
      = 1#1) : Cert.Spec.IsReal x := fun i =>
  real_of_abs_lt (x i) (Host.reduce_andi_all _ init hr hu _ e i)

/-- A conjunction of two scalar truth values that is 1 has both 1. -/
theorem andi_ix0 {x y : IVec S_ 1} (h : andi x y ValueIdx.ix0 = 1#1) : x ValueIdx.ix0 = 1#1 ∧ y ValueIdx.ix0 = 1#1 :=
  IntOp.andi_eq_one.1 h

variable [Cert.Pre_finite_inputs.Facts]

/-- Under the precondition, on every device, each of the eighteen argument arrays holds real numbers only. -/
theorem args_real (m : (ℓ : Loc Cert.KernelIdeal.nD Cert.KernelIdeal.τ Cert.KernelIdeal.sig) → Buf (Elt Ideal) ℓ)
    (h : Cert.Pre_KernelIdeal m) (c : Dev Cert.KernelIdeal.nD) :
    Cert.Spec.IsReal (m ((c.tc : Thread Cert.KernelIdeal.nD Cert.KernelIdeal.τ).loc Cert.KernelIdeal.main_arg0))
    ∧ Cert.Spec.IsReal (m ((c.tc : Thread Cert.KernelIdeal.nD Cert.KernelIdeal.τ).loc Cert.KernelIdeal.main_arg1))
    ∧ Cert.Spec.IsReal (m ((c.tc : Thread Cert.KernelIdeal.nD Cert.KernelIdeal.τ).loc Cert.KernelIdeal.main_arg2))
    ∧ Cert.Spec.IsReal (m ((c.tc : Thread Cert.KernelIdeal.nD Cert.KernelIdeal.τ).loc Cert.KernelIdeal.main_arg3))
    ∧ Cert.Spec.IsReal (m ((c.tc : Thread Cert.KernelIdeal.nD Cert.KernelIdeal.τ).loc Cert.KernelIdeal.main_arg4))
    ∧ Cert.Spec.IsReal (m ((c.tc : Thread Cert.KernelIdeal.nD Cert.KernelIdeal.τ).loc Cert.KernelIdeal.main_arg5))
    ∧ Cert.Spec.IsReal (m ((c.tc : Thread Cert.KernelIdeal.nD Cert.KernelIdeal.τ).loc Cert.KernelIdeal.main_arg6))
    ∧ Cert.Spec.IsReal (m ((c.tc : Thread Cert.KernelIdeal.nD Cert.KernelIdeal.τ).loc Cert.KernelIdeal.main_arg7))
    ∧ Cert.Spec.IsReal (m ((c.tc : Thread Cert.KernelIdeal.nD Cert.KernelIdeal.τ).loc Cert.KernelIdeal.main_arg8))
    ∧ Cert.Spec.IsReal (m ((c.tc : Thread Cert.KernelIdeal.nD Cert.KernelIdeal.τ).loc Cert.KernelIdeal.main_arg9))
    ∧ Cert.Spec.IsReal (m ((c.tc : Thread Cert.KernelIdeal.nD Cert.KernelIdeal.τ).loc Cert.KernelIdeal.main_arg10))
    ∧ Cert.Spec.IsReal (m ((c.tc : Thread Cert.KernelIdeal.nD Cert.KernelIdeal.τ).loc Cert.KernelIdeal.main_arg11))
    ∧ Cert.Spec.IsReal (m ((c.tc : Thread Cert.KernelIdeal.nD Cert.KernelIdeal.τ).loc Cert.KernelIdeal.main_arg12))
    ∧ Cert.Spec.IsReal (m ((c.tc : Thread Cert.KernelIdeal.nD Cert.KernelIdeal.τ).loc Cert.KernelIdeal.main_arg13))
    ∧ Cert.Spec.IsReal (m ((c.tc : Thread Cert.KernelIdeal.nD Cert.KernelIdeal.τ).loc Cert.KernelIdeal.main_arg14))
    ∧ Cert.Spec.IsReal (m ((c.tc : Thread Cert.KernelIdeal.nD Cert.KernelIdeal.τ).loc Cert.KernelIdeal.main_arg15))
    ∧ Cert.Spec.IsReal (m ((c.tc : Thread Cert.KernelIdeal.nD Cert.KernelIdeal.τ).loc Cert.KernelIdeal.main_arg16))
    ∧ Cert.Spec.IsReal (m ((c.tc : Thread Cert.KernelIdeal.nD Cert.KernelIdeal.τ).loc Cert.KernelIdeal.main_arg17)) := by
  have e := congrFun (h c) ValueIdx.ix0
  dsimp only [Cert.Pre_finite_inputs.fn, fn_part1, fn_part2, fn_part3, fn_part4, fn_part5] at e
  obtain ⟨e, e17⟩ := andi_ix0 e
  obtain ⟨e, e16⟩ := andi_ix0 e
  obtain ⟨e, e15⟩ := andi_ix0 e
  obtain ⟨e, e14⟩ := andi_ix0 e
  obtain ⟨e, e13⟩ := andi_ix0 e
  obtain ⟨e, e12⟩ := andi_ix0 e
  obtain ⟨e, e11⟩ := andi_ix0 e
  obtain ⟨e, e10⟩ := andi_ix0 e
  obtain ⟨e, e9⟩ := andi_ix0 e
  obtain ⟨e, e8⟩ := andi_ix0 e
  obtain ⟨e, e7⟩ := andi_ix0 e
  obtain ⟨e, e6⟩ := andi_ix0 e
  obtain ⟨e, e5⟩ := andi_ix0 e
  obtain ⟨e, e4⟩ := andi_ix0 e
  obtain ⟨e, e3⟩ := andi_ix0 e
  obtain ⟨e, e2⟩ := andi_ix0 e
  obtain ⟨e, e1⟩ := andi_ix0 e
  exact ⟨isReal_of_all _ _ _ _ _ e,
    isReal_of_all _ _ _ _ _ e1,
    isReal_of_all _ _ _ _ _ e2,
    isReal_of_all _ _ _ _ _ e3,
    isReal_of_all _ _ _ _ _ e4,
    isReal_of_all _ _ _ _ _ e5,
    isReal_of_all _ _ _ _ _ e6,
    isReal_of_all _ _ _ _ _ e7,
    isReal_of_all _ _ _ _ _ e8,
    isReal_of_all _ _ _ _ _ e9,
    isReal_of_all _ _ _ _ _ e10,
    isReal_of_all _ _ _ _ _ e11,
    isReal_of_all _ _ _ _ _ e12,
    isReal_of_all _ _ _ _ _ e13,
    isReal_of_all _ _ _ _ _ e14,
    isReal_of_all _ _ _ _ _ e15,
    isReal_of_all _ _ _ _ _ e16,
    isReal_of_all _ _ _ _ _ e17⟩

end Cert.FiniteInputs

end
-- ==== Proof.Bridge.lean ====
import proofs.«170994_j15857019257044_2_alg».proof.Proof.KI.Run
import proofs.«170994_j15857019257044_2_alg».proof.Proof.KI.HostRead
import proofs.«170994_j15857019257044_2_alg».proof.Proof.KI.Value0
import proofs.«170994_j15857019257044_2_alg».proof.Proof.KI.Value1
import proofs.«170994_j15857019257044_2_alg».proof.Proof.KI.Value2
import proofs.«170994_j15857019257044_2_alg».proof.Proof.KI.Value3
import proofs.«170994_j15857019257044_2_alg».proof.Proof.KI.Value4
import proofs.«170994_j15857019257044_2_alg».proof.Proof.KI.Value5
import proofs.«170994_j15857019257044_2_alg».proof.Proof.KI.Value6
import proofs.«170994_j15857019257044_2_alg».proof.Proof.SpecReal
import proofs.«170994_j15857019257044_2_alg».proof.Proof.FiniteInputs

set_option maxRecDepth 16384

noncomputable section

namespace Cert.Bridge

open Cert.KernelIdeal Cert.KernelIdeal.Gen Cert.KernelIdeal.Hand Cert.KernelIdeal.HandValue Cert.Spec
open Idealize.ShloMosaic Idealize.ShloMosaic.TcCoe Idealize.SL.Sem ValueIdx

variable [hP : Cert.Pre_finite_inputs.Facts]
variable (m : (ℓ : Loc nD τ sig) → Buf (Elt Ideal) ℓ) (c : Dev nD)

/-! # The kernel's result is the specification of its arguments

Region by region, the array a region leaves is the specification's stage of the arrays it found: the linear layer `Q`;
the gated unit's four pieces; the attention's two projections `Kf`, `Vf`; the two graph-attention results; the gate
`gt`; the normalised output. The four softmax-weighted sums agree with the specification's two-pass form because
every entry involved is a real number, which follows stage by stage from the arguments being real. -/

/-- Argument 0 as an array over the extended reals. -/
abbrev A0 : Mat 4096 256 := (m ((c : Thread nD τ).loc main_arg0) : S4096x256.Idx → EReal)
/-- Argument 1 as an array over the extended reals. -/
abbrev A1 : Mat 4096 768 := (m ((c : Thread nD τ).loc main_arg1) : S4096x768.Idx → EReal)
/-- Argument 2 as an array over the extended reals. -/
abbrev A2 : Mat 256 256 := (m ((c : Thread nD τ).loc main_arg2) : S256x256.Idx → EReal)
/-- Argument 3 as an array over the extended reals. -/
abbrev A3 : Vct 256 := (m ((c : Thread nD τ).loc main_arg3) : S256.Idx → EReal)
/-- Argument 4 as an array over the extended reals. -/
abbrev A4 : Mat 256 768 := (m ((c : Thread nD τ).loc main_arg4) : S256x768.Idx → EReal)
/-- Argument 5 as an array over the extended reals. -/
abbrev A5 : Vct 256 := (m ((c : Thread nD τ).loc main_arg5) : S256.Idx → EReal)
/-- Argument 6 as an array over the extended reals. -/
abbrev A6 : Mat 256 768 := (m ((c : Thread nD τ).loc main_arg6) : S256x768.Idx → EReal)
/-- Argument 7 as an array over the extended reals. -/
abbrev A7 : Vct 256 := (m ((c : Thread nD τ).loc main_arg7) : S256.Idx → EReal)
/-- Argument 8 as an array over the extended reals. -/
abbrev A8 : Mat 256 256 := (m ((c : Thread nD τ).loc main_arg8) : S256x256.Idx → EReal)
/-- Argument 9 as an array over the extended reals. -/
abbrev A9 : Vct 256 := (m ((c : Thread nD τ).loc main_arg9) : S256.Idx → EReal)
/-- Argument 10 as an array over the extended reals. -/
abbrev A10 : Mat 1536 768 := (m ((c : Thread nD τ).loc main_arg10) : S1536x768.Idx → EReal)
/-- Argument 11 as an array over the extended reals. -/
abbrev A11 : Vct 1536 := (m ((c : Thread nD τ).loc main_arg11) : S1536.Idx → EReal)
/-- Argument 12 as an array over the extended reals. -/
abbrev A12 : Mat 200 768 := (m ((c : Thread nD τ).loc main_arg12) : S200x768.Idx → EReal)
/-- Argument 13 as an array over the extended reals. -/
abbrev A13 : Vct 200 := (m ((c : Thread nD τ).loc main_arg13) : S200.Idx → EReal)
/-- Argument 14 as an array over the extended reals. -/
abbrev A14 : Mat 2 200 := (m ((c : Thread nD τ).loc main_arg14) : S2x200.Idx → EReal)
/-- Argument 15 as an array over the extended reals. -/
abbrev A15 : Mat 2 200 := (m ((c : Thread nD τ).loc main_arg15) : S2x200.Idx → EReal)
/-- Argument 16 as an array over the extended reals. -/
abbrev A16 : Mat 768 768 := (m ((c : Thread nD τ).loc main_arg16) : S768x768.Idx → EReal)
/-- Argument 17 as an array over the extended reals. -/
abbrev A17 : Vct 768 := (m ((c : Thread nD τ).loc main_arg17) : S768.Idx → EReal)

/-- Region 0 leaves the linear layer of the node features. -/
theorem stage_Q : (X2 m c main_v14 : S4096x256.Idx → EReal) = Spec.Q (A0 m c) (A2 m c) (A3 m c) := by
  rw [X2_out3]
  have hx : (X1 m c main_arg0 : S4096x256.Idx → EReal) = A0 m c := by
    exact V1_arg m c main_arg0 (by decide)
  have hW : (X1 m c main_v7 : S256x256.Idx → EReal) = A2 m c := by
    exact V1_v7 m c
  have hb : ∀ j : Fin 256, (X1 m c main_v0 : S1x256.Idx → EReal) (ix2 0 j) = A3 m c (ix1 j) := fun j => by
    exact V1_v0_apply m c j
  exact value0 (Vt (X1 m)) c (A0 m c) (A2 m c) (A3 m c) hx hW hb

/-- Region 1 leaves the `vv` half of the hidden layer. -/
theorem stage_vv : (X3 m c main_v15_0 : S4096x768.Idx → EReal) = Spec.vv (Spec.hid (A1 m c) (A10 m c) (A11 m c)) := by
  rw [X3_out7]
  have hs : (X2 m c main_arg1 : S4096x768.Idx → EReal) = A1 m c := by
    rw [X2_of_ne m c main_arg1 (by decide)]; exact V1_arg m c main_arg1 (by decide)
  have hWh : (X2 m c main_v11 : S1536x768.Idx → EReal) = A10 m c := by
    rw [X2_of_ne m c main_v11 (by decide)]; exact V1_v11 m c
  have hbh : ∀ j : Fin 1536, (X2 m c main_v4 : S1x1536.Idx → EReal) (ix2 0 j) = A11 m c (ix1 j) := fun j => by
    rw [X2_of_ne m c main_v4 (by decide)]; exact V1_v4_apply m c j
  exact value1_7 (Vt (X2 m)) c (A1 m c) (A10 m c) (A11 m c) hs hWh hbh

/-- Region 1 leaves the `gate` half of the hidden layer. -/
theorem stage_gate : (X3 m c main_v15_1 : S4096x768.Idx → EReal) = Spec.gate (Spec.hid (A1 m c) (A10 m c) (A11 m c)) := by
  rw [X3_out8]
  have hs : (X2 m c main_arg1 : S4096x768.Idx → EReal) = A1 m c := by
    rw [X2_of_ne m c main_arg1 (by decide)]; exact V1_arg m c main_arg1 (by decide)
  have hWh : (X2 m c main_v11 : S1536x768.Idx → EReal) = A10 m c := by
    rw [X2_of_ne m c main_v11 (by decide)]; exact V1_v11 m c
  have hbh : ∀ j : Fin 1536, (X2 m c main_v4 : S1x1536.Idx → EReal) (ix2 0 j) = A11 m c (ix1 j) := fun j => by
    rw [X2_of_ne m c main_v4 (by decide)]; exact V1_v4_apply m c j
  exact value1_8 (Vt (X2 m)) c (A1 m c) (A10 m c) (A11 m c) hs hWh hbh

/-- Region 1 leaves the scaled and shifted `qq`. -/
theorem stage_qq : (X3 m c main_v15_2 : S4096x200.Idx → EReal) = Spec.qq (Spec.qk (A1 m c) (A12 m c) (A13 m c)) (A14 m c) (A15 m c) := by
  rw [X3_out9]
  have hs : (X2 m c main_arg1 : S4096x768.Idx → EReal) = A1 m c := by
    rw [X2_of_ne m c main_arg1 (by decide)]; exact V1_arg m c main_arg1 (by decide)
  have hWqk : (X2 m c main_v12 : S200x768.Idx → EReal) = A12 m c := by
    rw [X2_of_ne m c main_v12 (by decide)]; exact V1_v12 m c
  have hbqk : ∀ j : Fin 200, (X2 m c main_v5 : S1x200.Idx → EReal) (ix2 0 j) = A13 m c (ix1 j) := fun j => by
    rw [X2_of_ne m c main_v5 (by decide)]; exact V1_v5_apply m c j
  have hg : (X2 m c main_arg14 : S2x200.Idx → EReal) = A14 m c := by
    rw [X2_of_ne m c main_arg14 (by decide)]; exact V1_arg m c main_arg14 (by decide)
  have hbt : (X2 m c main_arg15 : S2x200.Idx → EReal) = A15 m c := by
    rw [X2_of_ne m c main_arg15 (by decide)]; exact V1_arg m c main_arg15 (by decide)
  exact value1_9 (Vt (X2 m)) c (A1 m c) (A12 m c) (A13 m c) (A14 m c) (A15 m c) hs hWqk hbqk hg hbt

/-- Region 1 leaves the scaled and shifted `kq`. -/
theorem stage_kq : (X3 m c main_v15_3 : S4096x200.Idx → EReal) = Spec.kq (Spec.qk (A1 m c) (A12 m c) (A13 m c)) (A14 m c) (A15 m c) := by
  rw [X3_out10]
  have hs : (X2 m c main_arg1 : S4096x768.Idx → EReal) = A1 m c := by
    rw [X2_of_ne m c main_arg1 (by decide)]; exact V1_arg m c main_arg1 (by decide)
  have hWqk : (X2 m c main_v12 : S200x768.Idx → EReal) = A12 m c := by
    rw [X2_of_ne m c main_v12 (by decide)]; exact V1_v12 m c
  have hbqk : ∀ j : Fin 200, (X2 m c main_v5 : S1x200.Idx → EReal) (ix2 0 j) = A13 m c (ix1 j) := fun j => by
    rw [X2_of_ne m c main_v5 (by decide)]; exact V1_v5_apply m c j
  have hg : (X2 m c main_arg14 : S2x200.Idx → EReal) = A14 m c := by
    rw [X2_of_ne m c main_arg14 (by decide)]; exact V1_arg m c main_arg14 (by decide)
  have hbt : (X2 m c main_arg15 : S2x200.Idx → EReal) = A15 m c := by
    rw [X2_of_ne m c main_arg15 (by decide)]; exact V1_arg m c main_arg15 (by decide)
  exact value1_10 (Vt (X2 m)) c (A1 m c) (A12 m c) (A13 m c) (A14 m c) (A15 m c) hs hWqk hbqk hg hbt

section Real
variable (hpre : Cert.Pre_KernelIdeal m)
include hpre

/-- Region 2 leaves the projection `Kf` of the gated attention. -/
theorem stage_Kf : (X4 m c main_v16_0 : S4096x256.Idx → EReal) = Spec.Chain.Kf (A1 m c) (A4 m c) (A5 m c) (A10 m c) (A11 m c) (A12 m c) (A13 m c) (A14 m c) (A15 m c) (A16 m c) (A17 m c) := by
  obtain ⟨r0, r1, r2, r3, r4, r5, r6, r7, r8, r9, r10, r11, r12, r13, r14, r15, r16, r17⟩ := Cert.FiniteInputs.args_real m hpre c
  rw [X4_out12]
  have hs : (X3 m c main_arg1 : S4096x768.Idx → EReal) = A1 m c := by
    rw [X3_of_ne m c main_arg1 (by decide), X2_of_ne m c main_arg1 (by decide)]; exact V1_arg m c main_arg1 (by decide)
  have hq : (X3 m c main_v15_2 : S4096x200.Idx → EReal) = Spec.qq (Spec.qk (A1 m c) (A12 m c) (A13 m c)) (A14 m c) (A15 m c) := by
    exact stage_qq m c
  have hk : (X3 m c main_v15_3 : S4096x200.Idx → EReal) = Spec.kq (Spec.qk (A1 m c) (A12 m c) (A13 m c)) (A14 m c) (A15 m c) := by
    exact stage_kq m c
  have hv : (X3 m c main_v15_0 : S4096x768.Idx → EReal) = Spec.vv (Spec.hid (A1 m c) (A10 m c) (A11 m c)) := by
    exact stage_vv m c
  have hg : (X3 m c main_v15_1 : S4096x768.Idx → EReal) = Spec.gate (Spec.hid (A1 m c) (A10 m c) (A11 m c)) := by
    exact stage_gate m c
  have hWo : (X3 m c main_v13 : S768x768.Idx → EReal) = A16 m c := by
    rw [X3_of_ne m c main_v13 (by decide), X2_of_ne m c main_v13 (by decide)]; exact V1_v13 m c
  have hbo : ∀ j : Fin 768, (X3 m c main_v6 : S1x768.Idx → EReal) (ix2 0 j) = A17 m c (ix1 j) := fun j => by
    rw [X3_of_ne m c main_v6 (by decide), X2_of_ne m c main_v6 (by decide)]; exact V1_v6_apply m c j
  have hWp : (X3 m c main_v8 : S256x768.Idx → EReal) = A4 m c := by
    rw [X3_of_ne m c main_v8 (by decide), X2_of_ne m c main_v8 (by decide)]; exact V1_v8 m c
  have hbp : ∀ j : Fin 256, (X3 m c main_v1 : S1x256.Idx → EReal) (ix2 0 j) = A5 m c (ix1 j) := fun j => by
    rw [X3_of_ne m c main_v1 (by decide), X2_of_ne m c main_v1 (by decide)]; exact V1_v1_apply m c j
  have hhid := Spec.hid_real r1 r10 r11
  have hqk := Spec.qk_real r1 r12 r13
  exact value2_12 (Vt (X3 m)) c (A1 m c) (Spec.qq (Spec.qk (A1 m c) (A12 m c) (A13 m c)) (A14 m c) (A15 m c)) (Spec.kq (Spec.qk (A1 m c) (A12 m c) (A13 m c)) (A14 m c) (A15 m c)) (Spec.vv (Spec.hid (A1 m c) (A10 m c) (A11 m c))) (Spec.gate (Spec.hid (A1 m c) (A10 m c) (A11 m c))) (A16 m c) (A17 m c) (A4 m c) (A5 m c)
    hs hq hk hv hg hWo hbo hWp hbp r1 (Spec.qq_real hqk r14 r15) (Spec.kq_real hqk r14 r15) (Spec.vv_real hhid) (Spec.gate_real hhid)

/-- Region 2 leaves the projection `Vf` of the gated attention. -/
theorem stage_Vf : (X4 m c main_v16_1 : S4096x256.Idx → EReal) = Spec.Chain.Vf (A1 m c) (A6 m c) (A7 m c) (A10 m c) (A11 m c) (A12 m c) (A13 m c) (A14 m c) (A15 m c) (A16 m c) (A17 m c) := by
  obtain ⟨r0, r1, r2, r3, r4, r5, r6, r7, r8, r9, r10, r11, r12, r13, r14, r15, r16, r17⟩ := Cert.FiniteInputs.args_real m hpre c
  rw [X4_out13]
  have hs : (X3 m c main_arg1 : S4096x768.Idx → EReal) = A1 m c := by
    rw [X3_of_ne m c main_arg1 (by decide), X2_of_ne m c main_arg1 (by decide)]; exact V1_arg m c main_arg1 (by decide)
  have hq : (X3 m c main_v15_2 : S4096x200.Idx → EReal) = Spec.qq (Spec.qk (A1 m c) (A12 m c) (A13 m c)) (A14 m c) (A15 m c) := by
    exact stage_qq m c
  have hk : (X3 m c main_v15_3 : S4096x200.Idx → EReal) = Spec.kq (Spec.qk (A1 m c) (A12 m c) (A13 m c)) (A14 m c) (A15 m c) := by
    exact stage_kq m c
  have hv : (X3 m c main_v15_0 : S4096x768.Idx → EReal) = Spec.vv (Spec.hid (A1 m c) (A10 m c) (A11 m c)) := by
    exact stage_vv m c
  have hg : (X3 m c main_v15_1 : S4096x768.Idx → EReal) = Spec.gate (Spec.hid (A1 m c) (A10 m c) (A11 m c)) := by
    exact stage_gate m c
  have hWo : (X3 m c main_v13 : S768x768.Idx → EReal) = A16 m c := by
    rw [X3_of_ne m c main_v13 (by decide), X2_of_ne m c main_v13 (by decide)]; exact V1_v13 m c
  have hbo : ∀ j : Fin 768, (X3 m c main_v6 : S1x768.Idx → EReal) (ix2 0 j) = A17 m c (ix1 j) := fun j => by
    rw [X3_of_ne m c main_v6 (by decide), X2_of_ne m c main_v6 (by decide)]; exact V1_v6_apply m c j
  have hWp : (X3 m c main_v9 : S256x768.Idx → EReal) = A6 m c := by
    rw [X3_of_ne m c main_v9 (by decide), X2_of_ne m c main_v9 (by decide)]; exact V1_v9 m c
  have hbp : ∀ j : Fin 256, (X3 m c main_v2 : S1x256.Idx → EReal) (ix2 0 j) = A7 m c (ix1 j) := fun j => by
    rw [X3_of_ne m c main_v2 (by decide), X2_of_ne m c main_v2 (by decide)]; exact V1_v2_apply m c j
  have hhid := Spec.hid_real r1 r10 r11
  have hqk := Spec.qk_real r1 r12 r13
  exact value2_13 (Vt (X3 m)) c (A1 m c) (Spec.qq (Spec.qk (A1 m c) (A12 m c) (A13 m c)) (A14 m c) (A15 m c)) (Spec.kq (Spec.qk (A1 m c) (A12 m c) (A13 m c)) (A14 m c) (A15 m c)) (Spec.vv (Spec.hid (A1 m c) (A10 m c) (A11 m c))) (Spec.gate (Spec.hid (A1 m c) (A10 m c) (A11 m c))) (A16 m c) (A17 m c) (A6 m c) (A7 m c)
    hs hq hk hv hg hWo hbo hWp hbp r1 (Spec.qq_real hqk r14 r15) (Spec.kq_real hqk r14 r15) (Spec.vv_real hhid) (Spec.gate_real hhid)

/-- Region 3 leaves the graph attention of `Kf`. -/
theorem stage_B1 : (X5 m c main_v17 : S4096x256.Idx → EReal) = Spec.Chain.B1 (A0 m c) (A1 m c) (A2 m c) (A3 m c) (A4 m c) (A5 m c) (A10 m c) (A11 m c) (A12 m c) (A13 m c) (A14 m c) (A15 m c) (A16 m c) (A17 m c) := by
  obtain ⟨r0, r1, r2, r3, r4, r5, r6, r7, r8, r9, r10, r11, r12, r13, r14, r15, r16, r17⟩ := Cert.FiniteInputs.args_real m hpre c
  rw [X5_out4]
  have hX : (X4 m c main_v16_0 : S4096x256.Idx → EReal) = Spec.Chain.Kf (A1 m c) (A4 m c) (A5 m c) (A10 m c) (A11 m c) (A12 m c) (A13 m c) (A14 m c) (A15 m c) (A16 m c) (A17 m c) := by
    exact stage_Kf m c hpre
  have hQ : (X4 m c main_v14 : S4096x256.Idx → EReal) = Spec.Q (A0 m c) (A2 m c) (A3 m c) := by
    rw [X4_of_ne m c main_v14 (by decide), X3_of_ne m c main_v14 (by decide)]; exact stage_Q m c
  exact value3 (Vt (X4 m)) c (Spec.Chain.Kf (A1 m c) (A4 m c) (A5 m c) (A10 m c) (A11 m c) (A12 m c) (A13 m c) (A14 m c) (A15 m c) (A16 m c) (A17 m c)) (Spec.Q (A0 m c) (A2 m c) (A3 m c)) hX hQ (Spec.Chain.Kf_real r1 r4 r5 r10 r11 r12 r13 r14 r15 r16 r17) (Spec.Q_real r0 r2 r3)

/-- Region 4 leaves the graph attention of `Vf`. -/
theorem stage_B2 : (X6 m c main_v18 : S4096x256.Idx → EReal) = Spec.Chain.B2 (A0 m c) (A1 m c) (A2 m c) (A3 m c) (A6 m c) (A7 m c) (A10 m c) (A11 m c) (A12 m c) (A13 m c) (A14 m c) (A15 m c) (A16 m c) (A17 m c) := by
  obtain ⟨r0, r1, r2, r3, r4, r5, r6, r7, r8, r9, r10, r11, r12, r13, r14, r15, r16, r17⟩ := Cert.FiniteInputs.args_real m hpre c
  rw [X6_out4]
  have hX : (X5 m c main_v16_1 : S4096x256.Idx → EReal) = Spec.Chain.Vf (A1 m c) (A6 m c) (A7 m c) (A10 m c) (A11 m c) (A12 m c) (A13 m c) (A14 m c) (A15 m c) (A16 m c) (A17 m c) := by
    rw [X5_of_ne m c main_v16_1 (by decide)]; exact stage_Vf m c hpre
  have hQ : (X5 m c main_v14 : S4096x256.Idx → EReal) = Spec.Q (A0 m c) (A2 m c) (A3 m c) := by
    rw [X5_of_ne m c main_v14 (by decide), X4_of_ne m c main_v14 (by decide), X3_of_ne m c main_v14 (by decide)]; exact stage_Q m c
  exact value4 (Vt (X5 m)) c (Spec.Chain.Vf (A1 m c) (A6 m c) (A7 m c) (A10 m c) (A11 m c) (A12 m c) (A13 m c) (A14 m c) (A15 m c) (A16 m c) (A17 m c)) (Spec.Q (A0 m c) (A2 m c) (A3 m c)) hX hQ (Spec.Chain.Vf_real r1 r6 r7 r10 r11 r12 r13 r14 r15 r16 r17) (Spec.Q_real r0 r2 r3)

/-- Region 5 leaves the gate. -/
theorem stage_gt : (X7 m c main_v19 : S4096x256.Idx → EReal) = Spec.Chain.gt (A0 m c) (A1 m c) (A2 m c) (A3 m c) (A4 m c) (A5 m c) (A8 m c) (A9 m c) (A10 m c) (A11 m c) (A12 m c) (A13 m c) (A14 m c) (A15 m c) (A16 m c) (A17 m c) := by
  rw [X7_out3]
  have hx : (X6 m c main_v17 : S4096x256.Idx → EReal) = Spec.Chain.B1 (A0 m c) (A1 m c) (A2 m c) (A3 m c) (A4 m c) (A5 m c) (A10 m c) (A11 m c) (A12 m c) (A13 m c) (A14 m c) (A15 m c) (A16 m c) (A17 m c) := by
    rw [X6_of_ne m c main_v17 (by decide)]; exact stage_B1 m c hpre
  have hW : (X6 m c main_v10 : S256x256.Idx → EReal) = A8 m c := by
    rw [X6_of_ne m c main_v10 (by decide), X5_of_ne m c main_v10 (by decide), X4_of_ne m c main_v10 (by decide), X3_of_ne m c main_v10 (by decide), X2_of_ne m c main_v10 (by decide)]; exact V1_v10 m c
  have hb : ∀ j : Fin 256, (X6 m c main_v3 : S1x256.Idx → EReal) (ix2 0 j) = A9 m c (ix1 j) := fun j => by
    rw [X6_of_ne m c main_v3 (by decide), X5_of_ne m c main_v3 (by decide), X4_of_ne m c main_v3 (by decide), X3_of_ne m c main_v3 (by decide), X2_of_ne m c main_v3 (by decide)]; exact V1_v3_apply m c j
  exact value5 (Vt (X6 m)) c (Spec.Chain.B1 (A0 m c) (A1 m c) (A2 m c) (A3 m c) (A4 m c) (A5 m c) (A10 m c) (A11 m c) (A12 m c) (A13 m c) (A14 m c) (A15 m c) (A16 m c) (A17 m c)) (A8 m c) (A9 m c) hx hW hb

/-- Region 6 leaves the specification's result. -/
theorem stage_res : (X8 m c main_v20 : S4096x256.Idx → EReal) = Spec.res (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) := by
  obtain ⟨r0, r1, r2, r3, r4, r5, r6, r7, r8, r9, r10, r11, r12, r13, r14, r15, r16, r17⟩ := Cert.FiniteInputs.args_real m hpre c
  rw [X8_out6]
  have hgt : (X7 m c main_v19 : S4096x256.Idx → EReal) = Spec.Chain.gt (A0 m c) (A1 m c) (A2 m c) (A3 m c) (A4 m c) (A5 m c) (A8 m c) (A9 m c) (A10 m c) (A11 m c) (A12 m c) (A13 m c) (A14 m c) (A15 m c) (A16 m c) (A17 m c) := by
    exact stage_gt m c hpre
  have hK : (X7 m c main_v16_0 : S4096x256.Idx → EReal) = Spec.Chain.Kf (A1 m c) (A4 m c) (A5 m c) (A10 m c) (A11 m c) (A12 m c) (A13 m c) (A14 m c) (A15 m c) (A16 m c) (A17 m c) := by
    rw [X7_of_ne m c main_v16_0 (by decide), X6_of_ne m c main_v16_0 (by decide), X5_of_ne m c main_v16_0 (by decide)]; exact stage_Kf m c hpre
  have hQ : (X7 m c main_v14 : S4096x256.Idx → EReal) = Spec.Q (A0 m c) (A2 m c) (A3 m c) := by
    rw [X7_of_ne m c main_v14 (by decide), X6_of_ne m c main_v14 (by decide), X5_of_ne m c main_v14 (by decide), X4_of_ne m c main_v14 (by decide), X3_of_ne m c main_v14 (by decide)]; exact stage_Q m c
  have hB2 : (X7 m c main_v18 : S4096x256.Idx → EReal) = Spec.Chain.B2 (A0 m c) (A1 m c) (A2 m c) (A3 m c) (A6 m c) (A7 m c) (A10 m c) (A11 m c) (A12 m c) (A13 m c) (A14 m c) (A15 m c) (A16 m c) (A17 m c) := by
    rw [X7_of_ne m c main_v18 (by decide)]; exact stage_B2 m c hpre
  have hB1 : (X7 m c main_v17 : S4096x256.Idx → EReal) = Spec.Chain.B1 (A0 m c) (A1 m c) (A2 m c) (A3 m c) (A4 m c) (A5 m c) (A10 m c) (A11 m c) (A12 m c) (A13 m c) (A14 m c) (A15 m c) (A16 m c) (A17 m c) := by
    rw [X7_of_ne m c main_v17 (by decide), X6_of_ne m c main_v17 (by decide)]; exact stage_B1 m c hpre
  exact value6 (Vt (X7 m)) c (Spec.Chain.gt (A0 m c) (A1 m c) (A2 m c) (A3 m c) (A4 m c) (A5 m c) (A8 m c) (A9 m c) (A10 m c) (A11 m c) (A12 m c) (A13 m c) (A14 m c) (A15 m c) (A16 m c) (A17 m c)) (Spec.Chain.Kf (A1 m c) (A4 m c) (A5 m c) (A10 m c) (A11 m c) (A12 m c) (A13 m c) (A14 m c) (A15 m c) (A16 m c) (A17 m c)) (Spec.Q (A0 m c) (A2 m c) (A3 m c)) (Spec.Chain.B2 (A0 m c) (A1 m c) (A2 m c) (A3 m c) (A6 m c) (A7 m c) (A10 m c) (A11 m c) (A12 m c) (A13 m c) (A14 m c) (A15 m c) (A16 m c) (A17 m c)) (Spec.Chain.B1 (A0 m c) (A1 m c) (A2 m c) (A3 m c) (A4 m c) (A5 m c) (A10 m c) (A11 m c) (A12 m c) (A13 m c) (A14 m c) (A15 m c) (A16 m c) (A17 m c)) hgt hK hQ hB2 hB1
    (Spec.Chain.gt_real r0 r1 r2 r3 r4 r5 r8 r9 r10 r11 r12 r13 r14 r15 r16 r17) (Spec.Chain.Kf_real r1 r4 r5 r10 r11 r12 r13 r14 r15 r16 r17) (Spec.Q_real r0 r2 r3)
    (Spec.Chain.B2_real r0 r1 r2 r3 r6 r7 r10 r11 r12 r13 r14 r15 r16 r17) (Spec.Chain.B1_real r0 r1 r2 r3 r4 r5 r10 r11 r12 r13 r14 r15 r16 r17)

end Real

end Cert.Bridge

end
-- ==== Proof.RefOps.lean ====
/-
  The reference's composite host operations read at an index, over the extended reals: the row softmax as jax
  spells it (the row maximum taken from -∞, the exponentials of the differences, their row sum from 0, the quotient),
  the logistic function as the quotient 1 / (1 + exp (-x)), and the broadcast of a column down the rows. Each is stated
  for any witnesses of the shape facts the operations take, so it applies to whichever program supplies them.
-/
import Idealize.ShloMosaic.Lib.IdealHost
import Idealize.ShloMosaic.Lib.Pipeline.Value

noncomputable section

open scoped BigOperators

namespace Cert.RefOps

open Idealize.ShloMosaic Idealize.ShloMosaic.ValueIdx

abbrev S0 : Shape := ⟨0, ![]⟩
abbrev SN : Shape := ⟨1, ![4096]⟩
abbrev SN1 : Shape := ⟨2, ![4096, 1]⟩
abbrev SNN : Shape := ⟨2, ![4096, 4096]⟩

/-- A vector broadcast to a column and then along the rows of a matrix: entry (a, b) is the vector's entry a. -/
theorem bcast_col_apply {m : Nat} (h1 : SN.BroadcastsInDim SN1 (![0] : Fin 1 → Fin SN1.rank))
    (h2 : SN1.BroadcastsInDim (⟨2, ![4096, m]⟩ : Shape) (![0, 1] : Fin 2 → Fin (⟨2, ![4096, m]⟩ : Shape).rank))
    (y : SN.Idx → EReal) (a : Fin 4096) (b : Fin m) :
    broadcastInDim (⟨2, ![4096, m]⟩ : Shape) ![0, 1] h2 (broadcastInDim SN1 ![0] h1 y) (ix2 a b) = y (ix1 a) := by
  rw [broadcastInDim_apply _ h2 _ (ix2 a b) (ix2 a (0 : Fin 1)) (fun d => match d with
      | ⟨0, _⟩ => by show a.val = if (4096 : Nat) = 1 then 0 else a.val; rw [if_neg (by decide)]
      | ⟨1, _⟩ => by show 0 = if (1 : Nat) = 1 then 0 else b.val; rw [if_pos rfl]),
    broadcastInDim_apply _ h1 y (ix2 a (0 : Fin 1)) (ix1 a) (fun d => match d with
      | ⟨0, _⟩ => by show a.val = if (4096 : Nat) = 1 then 0 else a.val; rw [if_neg (by decide)])]

/-- The word of -∞ is the least extended real. -/
theorem ofBits_neg_inf : Ideal.ofBits .f32 0xFF800000#32 = ⊥ := by simp [Ideal.ofBits, Ideal.ieee]

/-- A fold of max from -∞ is the supremum. -/
theorem fold_max_bot_eq_sup {ι : Type} [DecidableEq ι] (S : Finset ι) (f : ι → EReal) : S.fold max ⊥ f = S.sup f := by
  induction S using Finset.induction_on with
  | empty => simp
  | insert a S ha ih => rw [Finset.fold_insert ha, Finset.sup_insert, ih]

/-- The row maximum as jax computes it: the maximum of -∞ and the fold of max from -∞ over the row is the supremum of the row. -/
theorem rowmax_apply (hr : SNN.ReducesTo [1] SN) (h0 : 0 < S0.numel)
    (hb : S0.BroadcastsInDim SN (![] : Fin 0 → Fin SN.rank)) (s : FVec Ideal SNN .f32) (a : Fin 4096) :
    maximumf (broadcastInDim SN ![] hb (constant (F := Ideal) S0 .f32 0xFF800000#32))
        (Host.reduce FloatOps.maximumf s (constant (F := Ideal) S0 .f32 0xFF800000#32) hr h0) (ix1 a)
      = Finset.univ.sup fun k : Fin 4096 => s (ix2 a k) := by
  rw [maximumf_apply, broadcastInDim_scalar_apply, constant_apply, ofBits_neg_inf, max_bot_left,
    Host.reduce_eq_fold_single _ _ _ hr (by decide) h0, constant_apply, ofBits_neg_inf]
  show (Finset.univ : Finset (Fin 4096)).fold max ⊥ _ = _
  refine (fold_max_bot_eq_sup (Finset.univ : Finset (Fin 4096)) _).trans ?_
  refine congrArg (Finset.univ : Finset (Fin 4096)).sup (funext fun k => ?_)
  exact congrArg s (funext fun d => Fin.ext (by match d with | ⟨0, _⟩ => rfl | ⟨1, _⟩ => rfl))

/-- The logistic function as the reference spells it, 1 / (1 + exp (-x)) with the ones broadcast from the word of 1. -/
theorem logistic_apply {s : Shape} (hb : S0.BroadcastsInDim s (![] : Fin 0 → Fin s.rank)) (x : FVec Ideal s .f32) (i : s.Idx) :
    Host.divf (F := Ideal) (broadcastInDim s ![] hb (constant (F := Ideal) S0 .f32 0x3F800000#32))
        (addf (broadcastInDim s ![] hb (constant (F := Ideal) S0 .f32 0x3F800000#32)) (Host.exp (Host.negf x))) i
      = Ideal.logistic (x i) := by
  rw [hostDivf_apply, addf_apply, broadcastInDim_scalar_apply, constant_apply, Ideal.ofBits_one_f32]
  rfl

/-- The row softmax as jax spells it, at entry (a, b): exp (s(a,b) - the row's supremum) over the row's sum of these. -/
theorem softmax_apply (hr : SNN.ReducesTo [1] SN) (h0 : 0 < S0.numel)
    (hb : S0.BroadcastsInDim SN (![] : Fin 0 → Fin SN.rank))
    (h1 : SN.BroadcastsInDim SN1 (![0] : Fin 1 → Fin SN1.rank))
    (h2 : SN1.BroadcastsInDim SNN (![0, 1] : Fin 2 → Fin SNN.rank))
    (s : FVec Ideal SNN .f32) (a b : Fin 4096) :
    Host.divf (F := Ideal)
        (Host.exp (subf s (broadcastInDim SNN ![0, 1] h2 (broadcastInDim SN1 ![0] h1
          (maximumf (broadcastInDim SN ![] hb (constant (F := Ideal) S0 .f32 0xFF800000#32))
            (Host.reduce FloatOps.maximumf s (constant (F := Ideal) S0 .f32 0xFF800000#32) hr h0))))))
        (broadcastInDim SNN ![0, 1] h2 (broadcastInDim SN1 ![0] h1
          (Host.reduceAdd (F := Ideal) (Host.exp (subf s (broadcastInDim SNN ![0, 1] h2 (broadcastInDim SN1 ![0] h1
            (maximumf (broadcastInDim SN ![] hb (constant (F := Ideal) S0 .f32 0xFF800000#32))
              (Host.reduce FloatOps.maximumf s (constant (F := Ideal) S0 .f32 0xFF800000#32) hr h0))))))
            (constant (F := Ideal) S0 .f32 0x00000000#32) hr h0))) (ix2 a b)
      = Ideal.div (Ideal.exp (s (ix2 a b) - Finset.univ.sup fun k : Fin 4096 => s (ix2 a k)))
          (∑ k : Fin 4096, Ideal.exp (s (ix2 a k) - Finset.univ.sup fun k' : Fin 4096 => s (ix2 a k'))) := by
  generalize hm : maximumf (broadcastInDim SN ![] hb (constant (F := Ideal) S0 .f32 0xFF800000#32))
            (Host.reduce FloatOps.maximumf s (constant (F := Ideal) S0 .f32 0xFF800000#32) hr h0) = mx
  have hmx : ∀ a' : Fin 4096, mx (ix1 a') = Finset.univ.sup fun k : Fin 4096 => s (ix2 a' k) := fun a' => by
    rw [← hm]; exact rowmax_apply hr h0 hb s a'
  have he : ∀ (a' b' : Fin 4096), Host.exp (subf s (broadcastInDim SNN ![0, 1] h2 (broadcastInDim SN1 ![0] h1 mx))) (ix2 a' b')
      = Ideal.exp (s (ix2 a' b') - Finset.univ.sup fun k : Fin 4096 => s (ix2 a' k)) := fun a' b' => by
    show Ideal.exp (s (ix2 a' b') - broadcastInDim SNN ![0, 1] h2 (broadcastInDim SN1 ![0] h1 mx) (ix2 a' b')) = _
    rw [bcast_col_apply, hmx]
  generalize Host.exp (subf s (broadcastInDim SNN ![0, 1] h2 (broadcastInDim SN1 ![0] h1 mx))) = e at he ⊢
  rw [hostDivf_apply, bcast_col_apply, hostReduceAdd_apply, Ideal.hostReduceAdd_single hr (by decide), constant_apply,
    Ideal.ofBits_zero_f32, zero_add, he]
  refine congrArg (Ideal.div _) (Finset.sum_congr rfl fun k _ => ?_)
  exact (congrArg e (funext fun d => Fin.ext (by match d with | ⟨0, _⟩ => rfl | ⟨1, _⟩ => rfl))).trans (he a k)

/-- max(x, 0) with the zero broadcast from the word of 0. -/
theorem relu_apply {s : Shape} (hb : S0.BroadcastsInDim s (![] : Fin 0 → Fin s.rank)) (x : FVec Ideal s .f32) (i : s.Idx) :
    maximumf x (broadcastInDim s ![] hb (constant (F := Ideal) S0 .f32 0x00000000#32)) i = max (x i) 0 := by
  rw [maximumf_apply, broadcastInDim_scalar_apply, constant_apply, Ideal.ofBits_zero_f32]

/-- A quotient by a broadcast constant word. -/
theorem div_const_apply {s : Shape} (hb : S0.BroadcastsInDim s (![] : Fin 0 → Fin s.rank)) (w : BitVec 32)
    (x : FVec Ideal s .f32) (i : s.Idx) :
    Host.divf (F := Ideal) x (broadcastInDim s ![] hb (constant (F := Ideal) S0 .f32 w)) i = Ideal.div (x i) (Ideal.ofBits .f32 w) := by
  rw [hostDivf_apply, broadcastInDim_scalar_apply, constant_apply]

/-- 1 - x with the one broadcast from the word of 1. -/
theorem one_sub_apply {s : Shape} (hb : S0.BroadcastsInDim s (![] : Fin 0 → Fin s.rank)) (x : FVec Ideal s .f32) (i : s.Idx) :
    subf (broadcastInDim s ![] hb (constant (F := Ideal) S0 .f32 0x3F800000#32)) x i = 1 - x i := by
  rw [subf_apply, broadcastInDim_scalar_apply, constant_apply, Ideal.ofBits_one_f32]

/-- A vector as a column: entry (a, 0) is the vector's entry a. -/
theorem bcast_to_col_apply (h1 : SN.BroadcastsInDim SN1 (![0] : Fin 1 → Fin SN1.rank)) (y : SN.Idx → EReal) (a : Fin 4096) :
    broadcastInDim SN1 ![0] h1 y (ix2 a (0 : Fin 1)) = y (ix1 a) :=
  broadcastInDim_apply _ h1 y (ix2 a (0 : Fin 1)) (ix1 a) (fun d => match d with
    | ⟨0, _⟩ => by show a.val = if (4096 : Nat) = 1 then 0 else a.val; rw [if_neg (by decide)])

/-- A column along the rows of a matrix: entry (a, b) is the column's entry (a, 0). -/
theorem bcast_col_rows_apply {m : Nat}
    (h2 : SN1.BroadcastsInDim (⟨2, ![4096, m]⟩ : Shape) (![0, 1] : Fin 2 → Fin (⟨2, ![4096, m]⟩ : Shape).rank))
    (z : SN1.Idx → EReal) (a : Fin 4096) (b : Fin m) :
    broadcastInDim (⟨2, ![4096, m]⟩ : Shape) ![0, 1] h2 z (ix2 a b) = z (ix2 a (0 : Fin 1)) :=
  broadcastInDim_apply _ h2 z (ix2 a b) (ix2 a (0 : Fin 1)) (fun d => match d with
    | ⟨0, _⟩ => by show a.val = if (4096 : Nat) = 1 then 0 else a.val; rw [if_neg (by decide)]
    | ⟨1, _⟩ => by show 0 = if (1 : Nat) = 1 then 0 else b.val; rw [if_pos rfl])

abbrev SNM : Shape := ⟨2, ![4096, 256]⟩

/-- The rows scaled to unit length as the reference spells it: x / max(√(the row's sum of squares, from 0), the floor word). -/
theorem normalize_apply (hr : SNM.ReducesTo [1] SN) (h0 : 0 < S0.numel)
    (h1 : SN.BroadcastsInDim SN1 (![0] : Fin 1 → Fin SN1.rank))
    (he : S0.BroadcastsInDim SN1 (![] : Fin 0 → Fin SN1.rank))
    (h2 : SN1.BroadcastsInDim SNM (![0, 1] : Fin 2 → Fin SNM.rank))
    (o : FVec Ideal SNM .f32) (a : Fin 4096) (j : Fin 256) :
    Host.divf (F := Ideal) o (broadcastInDim SNM ![0, 1] h2
        (maximumf (Host.sqrt (broadcastInDim SN1 ![0] h1
            (Host.reduceAdd (F := Ideal) (mulf o o) (constant (F := Ideal) S0 .f32 0x00000000#32) hr h0)))
          (broadcastInDim SN1 ![] he (constant (F := Ideal) S0 .f32 0x2B8CBCCC#32)))) (ix2 a j)
      = Ideal.div (o (ix2 a j))
          (max (Ideal.sqrt (∑ c : Fin 256, o (ix2 a c) * o (ix2 a c))) (Ideal.ofBits .f32 0x2B8CBCCC#32)) := by
  rw [hostDivf_apply, bcast_col_rows_apply, maximumf_apply, broadcastInDim_scalar_apply, constant_apply]
  simp only [Host.sqrt]
  rw [Ideal.hostUnary_sqrt_def, bcast_to_col_apply, hostReduceAdd_apply, Ideal.hostReduceAdd_single hr (by decide), constant_apply,
    Ideal.ofBits_zero_f32, zero_add]
  refine congrArg (fun t => Ideal.div (o (ix2 a j)) (max (Ideal.sqrt t) _)) (Finset.sum_congr rfl fun k _ => ?_)
  have e : (by decide : SNM.Reduces [1] SN).lift (ix1 a) k = ix2 a k :=
    funext fun d => Fin.ext (by match d with | ⟨0, _⟩ => rfl | ⟨1, _⟩ => rfl)
  rw [e]; rfl

end Cert.RefOps

end
-- ==== Proof.RefTac.lean ====
/-
  Two closing steps used when a stage of the reference is read at an index: an equation between two indices of a
  literal shape, decided coordinate by coordinate, and the descent through sums, products and applications to such
  equations.
-/
import Idealize.ShloMosaic.Lib.ValueIdx

namespace Cert.RefSide

/-- Two indices of a shape of rank at most two with the same coordinates are equal (a coordinate may come reduced
    modulo its extent, which leaves it as it is; a shape of rank one has no second coordinate). -/
macro "ix_eq" : tactic => `(tactic| exact funext fun d => Fin.ext (by
  match d with
  | ⟨0, _⟩ => first | rfl | exact Nat.mod_eq_of_lt (Fin.isLt _)
  | ⟨1, h⟩ => first | rfl | exact Nat.mod_eq_of_lt (Fin.isLt _) | exact absurd h (by decide)))

/-- Descend through equal heads to equations between indices. -/
macro "ix_congr" : tactic => `(tactic| repeat (first
  | ix_eq
  | (refine Finset.sum_congr rfl fun _ _ => ?_)
  | congr 1))

end Cert.RefSide
-- ==== Proof.RefIsSpecA.lean ====
/-
  The reference's stages up to the attention weights are the specification's: Q, the mask, the hidden layer and its
  halves, the queries and keys, the similarity and the attention weights — each read at an index through the generated
  per-operation lemmas, the indices identified coordinate by coordinate.
-/
import proofs.«170994_j15857019257044_2_alg».proof.Proof.Spec
import proofs.«170994_j15857019257044_2_alg».proof.Proof.RefOps
import proofs.«170994_j15857019257044_2_alg».proof.Proof.RefTac
import proofs.«170994_j15857019257044_2_alg».proof.Proof.RefReadPatched

noncomputable section

open scoped BigOperators

namespace Cert.RefSide

open Cert.ReferenceIdeal Cert.ReferenceIdeal.Gen Cert.ReferenceIdeal.Read
open Idealize.ShloMosaic Idealize.ShloMosaic.ValueIdx

variable (x0 : (⟨S4096x256, .f32⟩ : BufTy).Contents (Elt Ideal)) (x1 : (⟨S4096x768, .f32⟩ : BufTy).Contents (Elt Ideal)) (x2 : (⟨S256x256, .f32⟩ : BufTy).Contents (Elt Ideal)) (x3 : (⟨S256, .f32⟩ : BufTy).Contents (Elt Ideal))
  (x4 : (⟨S256x768, .f32⟩ : BufTy).Contents (Elt Ideal)) (x5 : (⟨S256, .f32⟩ : BufTy).Contents (Elt Ideal)) (x6 : (⟨S256x768, .f32⟩ : BufTy).Contents (Elt Ideal)) (x7 : (⟨S256, .f32⟩ : BufTy).Contents (Elt Ideal))
  (x8 : (⟨S256x256, .f32⟩ : BufTy).Contents (Elt Ideal)) (x9 : (⟨S256, .f32⟩ : BufTy).Contents (Elt Ideal)) (x10 : (⟨S1536x768, .f32⟩ : BufTy).Contents (Elt Ideal)) (x11 : (⟨S1536, .f32⟩ : BufTy).Contents (Elt Ideal))
  (x12 : (⟨S200x768, .f32⟩ : BufTy).Contents (Elt Ideal)) (x13 : (⟨S200, .f32⟩ : BufTy).Contents (Elt Ideal)) (x14 x15 : (⟨S2x200, .f32⟩ : BufTy).Contents (Elt Ideal))
  (x16 : (⟨S768x768, .f32⟩ : BufTy).Contents (Elt Ideal)) (x17 : (⟨S768, .f32⟩ : BufTy).Contents (Elt Ideal))

/-- %4: Q = node·Wqᵀ + bq. -/
theorem v4_eq : (val_main_v4 (F := Ideal) x0 x2 x3) = Spec.Q x0 x2 x3 := by
  refine Spec.Mat.ext fun a j => ?_
  rw [val_main_v4_apply, val_main_v1_apply, val_main_v3_apply, val_main_v2_apply, Ideal.addf_def]
  simp only [val_main_v0_apply]
  show _ = (∑ c : Fin 256, x0 (ix2 a c) * x2 (ix2 j c)) + x3 (ix1 j)
  ix_congr

/-- %6: support·supportᵀ. -/
theorem v6_eq : (val_main_v6 (F := Ideal) x1) = Spec.gram x1 x1 := by
  refine Spec.Mat.ext fun a b => ?_
  rw [val_main_v6_apply]
  simp only [val_main_v5_apply]
  show _ = ∑ c : Fin 768, x1 (ix2 a c) * x1 (ix2 b c)
  ix_congr

/-- %17: the mask, the row softmax of %6. -/
theorem v17_eq : (val_main_v17 (F := Ideal) x1) = Spec.mask x1 := by
  rw [Spec.mask, ← v6_eq]
  refine Spec.Mat.ext fun a b => ?_
  unfold val_main_v17 val_main_v16 val_main_v15 val_main_v14 val_main_v13 val_main_v12 val_main_v11 val_main_v10 val_main_v9 val_main_v8 val_main_v7 val_main_cst val_main_cst_0 val_main_cst_1
  exact RefOps.softmax_apply reducesTo_S4096x4096_S4096_d1 h_S_ bcast_S_S4096 bcast_S4096_S4096x1_0
    bcast_S4096x1_S4096x4096_0_1 (val_main_v6 (F := Ideal) x1) a b

/-- %22: support·Whᵀ + bh. -/
theorem v22_eq : (val_main_v22 (F := Ideal) x1 x10 x11) = Spec.lin x1 x10 x11 := by
  refine Spec.Mat.ext fun a j => ?_
  rw [val_main_v22_apply, val_main_v19_apply, val_main_v21_apply, val_main_v20_apply, Ideal.addf_def]
  simp only [val_main_v18_apply]
  show _ = (∑ c : Fin 768, x1 (ix2 a c) * x10 (ix2 j c)) + x11 (ix1 j)
  ix_congr

/-- %23: the hidden layer, silu of %22. -/
theorem v23_eq : (val_main_v23 (F := Ideal) x1 x10 x11) = Spec.hid x1 x10 x11 := by
  refine Spec.Mat.ext fun a j => ?_
  rw [val_main_v23_apply, Ideal.mulf_def]
  unfold val_main_call0_v5 val_main_call0_v4 val_main_call0_v3 val_main_call0_v2 val_main_call0_v1 val_main_call0_v0
    val_main_call0_cst val_main_call0_cst_0
  rw [RefOps.logistic_apply bcast_S_S4096x1536, v22_eq]
  rfl

/-- %24: the value half. -/
theorem v24_eq : (val_main_v24 (F := Ideal) x1 x10 x11) = Spec.vv (val_main_v23 (F := Ideal) x1 x10 x11) := by
  refine Spec.Mat.ext fun a j => ?_
  rw [val_main_v24_apply]
  show _ = (val_main_v23 (F := Ideal) x1 x10 x11) (ix2 a (⟨j.val, by have := j.isLt; omega⟩ : Fin 1536))
  ix_congr

/-- %25: the gate half. -/
theorem v25_eq : (val_main_v25 (F := Ideal) x1 x10 x11) = Spec.gate (val_main_v23 (F := Ideal) x1 x10 x11) := by
  refine Spec.Mat.ext fun a j => ?_
  rw [val_main_v25_apply]
  show _ = (val_main_v23 (F := Ideal) x1 x10 x11) (ix2 a (⟨768 + j.val, by have := j.isLt; omega⟩ : Fin 1536))
  ix_congr

/-- %30: support·Wqkᵀ + bqk. -/
theorem v30_eq : (val_main_v30 (F := Ideal) x1 x12 x13) = Spec.lin x1 x12 x13 := by
  refine Spec.Mat.ext fun a j => ?_
  rw [val_main_v30_apply, val_main_v27_apply, val_main_v29_apply, val_main_v28_apply, Ideal.addf_def]
  simp only [val_main_v26_apply]
  show _ = (∑ c : Fin 768, x1 (ix2 a c) * x12 (ix2 j c)) + x13 (ix1 j)
  ix_congr

/-- %31: silu of %30. -/
theorem v31_eq : (val_main_v31 (F := Ideal) x1 x12 x13) = Spec.qk x1 x12 x13 := by
  refine Spec.Mat.ext fun a j => ?_
  rw [val_main_v31_apply, Ideal.mulf_def]
  unfold val_main_call1_v5 val_main_call1_v4 val_main_call1_v3 val_main_call1_v2 val_main_call1_v1 val_main_call1_v0
    val_main_call1_cst val_main_call1_cst_0
  rw [RefOps.logistic_apply bcast_S_S4096x200, v30_eq]
  rfl

/-- %41: the queries. -/
theorem v41_eq : (val_main_v41 (F := Ideal) x1 x12 x13 x14 x15) = Spec.qq (val_main_v31 (F := Ideal) x1 x12 x13) x14 x15 := by
  refine Spec.Mat.ext fun a j => ?_
  rw [val_main_v41_apply, val_main_v36_apply, val_main_v35_apply, val_main_v34_apply, val_main_v33_apply,
    val_main_v32_apply, val_main_v40_apply, val_main_v39_apply, val_main_v38_apply, val_main_v37_apply,
    Ideal.addf_def, Ideal.mulf_def]
  show _ = (val_main_v31 (F := Ideal) x1 x12 x13) (ix2 a j) * x14 (ix2 (0 : Fin 2) j) + x15 (ix2 (0 : Fin 2) j)
  ix_congr

/-- %51: the keys. -/
theorem v51_eq : (val_main_v51 (F := Ideal) x1 x12 x13 x14 x15) = Spec.kq (val_main_v31 (F := Ideal) x1 x12 x13) x14 x15 := by
  refine Spec.Mat.ext fun a j => ?_
  rw [val_main_v51_apply, val_main_v46_apply, val_main_v45_apply, val_main_v44_apply, val_main_v43_apply,
    val_main_v42_apply, val_main_v50_apply, val_main_v49_apply, val_main_v48_apply, val_main_v47_apply,
    Ideal.addf_def, Ideal.mulf_def]
  show _ = (val_main_v31 (F := Ideal) x1 x12 x13) (ix2 a j) * x14 (ix2 (1 : Fin 2) j) + x15 (ix2 (1 : Fin 2) j)
  ix_congr

/-- %55: the similarity. -/
theorem v55_eq : (val_main_v55 (F := Ideal) x1 x12 x13 x14 x15) = Spec.sim (val_main_v41 (F := Ideal) x1 x12 x13 x14 x15) (val_main_v51 (F := Ideal) x1 x12 x13 x14 x15) := by
  refine Spec.Mat.ext fun a b => ?_
  unfold val_main_v55 val_main_v54 val_main_cst_2
  rw [RefOps.div_const_apply bcast_S_S4096x4096, val_main_v53_apply]
  simp only [val_main_v52_apply]
  show _ = Ideal.div (∑ c : Fin 200, (val_main_v41 (F := Ideal) x1 x12 x13 x14 x15) (ix2 a c) * (val_main_v51 (F := Ideal) x1 x12 x13 x14 x15) (ix2 b c)) (Ideal.ofBits .f32 0x41DDB3D7#32)
  ix_congr

/-- %58: the attention weights. -/
theorem v58_eq : (val_main_v58 (F := Ideal) x1 x12 x13 x14 x15) = Spec.attn (val_main_v55 (F := Ideal) x1 x12 x13 x14 x15) (val_main_v17 (F := Ideal) x1) := by
  refine Spec.Mat.ext fun a b => ?_
  rw [val_main_v58_apply, val_main_v57_apply, Ideal.mulf_def, Ideal.mulf_def]
  unfold val_main_v56 val_main_call2_v0 val_main_call2_cst
  rw [RefOps.relu_apply bcast_S_S4096x4096]
  rfl

end Cert.RefSide

end
-- ==== Proof.RefIsSpecB.lean ====
/-
  The reference's stages from the gated unit's result to B1 and B2 are the specification's: the gated product, the
  unit's result, K and V, and for each of K and V the graph attention (its Gram matrix, the row softmax, the product
  with Q, the rectified sum) times Q.
-/
import proofs.«170994_j15857019257044_2_alg».proof.Proof.Spec
import proofs.«170994_j15857019257044_2_alg».proof.Proof.RefOps
import proofs.«170994_j15857019257044_2_alg».proof.Proof.RefTac
import proofs.«170994_j15857019257044_2_alg».proof.Proof.RefReadPatched

noncomputable section

open scoped BigOperators

namespace Cert.RefSide

open Cert.ReferenceIdeal Cert.ReferenceIdeal.Gen Cert.ReferenceIdeal.Read
open Idealize.ShloMosaic Idealize.ShloMosaic.ValueIdx

variable (x0 : (⟨S4096x256, .f32⟩ : BufTy).Contents (Elt Ideal)) (x1 : (⟨S4096x768, .f32⟩ : BufTy).Contents (Elt Ideal)) (x2 : (⟨S256x256, .f32⟩ : BufTy).Contents (Elt Ideal)) (x3 : (⟨S256, .f32⟩ : BufTy).Contents (Elt Ideal))
  (x4 : (⟨S256x768, .f32⟩ : BufTy).Contents (Elt Ideal)) (x5 : (⟨S256, .f32⟩ : BufTy).Contents (Elt Ideal)) (x6 : (⟨S256x768, .f32⟩ : BufTy).Contents (Elt Ideal)) (x7 : (⟨S256, .f32⟩ : BufTy).Contents (Elt Ideal))
  (x8 : (⟨S256x256, .f32⟩ : BufTy).Contents (Elt Ideal)) (x9 : (⟨S256, .f32⟩ : BufTy).Contents (Elt Ideal)) (x10 : (⟨S1536x768, .f32⟩ : BufTy).Contents (Elt Ideal)) (x11 : (⟨S1536, .f32⟩ : BufTy).Contents (Elt Ideal))
  (x12 : (⟨S200x768, .f32⟩ : BufTy).Contents (Elt Ideal)) (x13 : (⟨S200, .f32⟩ : BufTy).Contents (Elt Ideal)) (x14 x15 : (⟨S2x200, .f32⟩ : BufTy).Contents (Elt Ideal))
  (x16 : (⟨S768x768, .f32⟩ : BufTy).Contents (Elt Ideal)) (x17 : (⟨S768, .f32⟩ : BufTy).Contents (Elt Ideal))

/-- %60: (attn·vv) · gate. -/
theorem v60_eq : (val_main_v60 (F := Ideal) x1 x10 x11 x12 x13 x14 x15) = Spec.gated (val_main_v58 (F := Ideal) x1 x12 x13 x14 x15) (val_main_v24 (F := Ideal) x1 x10 x11) (val_main_v25 (F := Ideal) x1 x10 x11) := by
  refine Spec.Mat.ext fun a j => ?_
  rw [val_main_v60_apply, val_main_v59_apply, Ideal.mulf_def]
  show _ = (∑ c : Fin 4096, (val_main_v58 (F := Ideal) x1 x12 x13 x14 x15) (ix2 a c) * (val_main_v24 (F := Ideal) x1 x10 x11) (ix2 c j)) * (val_main_v25 (F := Ideal) x1 x10 x11) (ix2 a j)
  refine congrArg₂ (· * ·) (Finset.sum_congr rfl fun c _ => congrArg₂ (· * ·) (congrArg _ ?_) (congrArg _ ?_)) (congrArg _ ?_)
  · ix_eq
  · ix_eq
  · ix_eq

/-- %65: gated·Woutᵀ + bout. -/
theorem v65_eq : (val_main_v65 (F := Ideal) x1 x10 x11 x12 x13 x14 x15 x16 x17) = Spec.lin (val_main_v60 (F := Ideal) x1 x10 x11 x12 x13 x14 x15) x16 x17 := by
  refine Spec.Mat.ext fun a j => ?_
  rw [val_main_v65_apply, val_main_v62_apply, val_main_v64_apply, val_main_v63_apply, Ideal.addf_def]
  simp only [val_main_v61_apply]
  show _ = (∑ c : Fin 768, (val_main_v60 (F := Ideal) x1 x10 x11 x12 x13 x14 x15) (ix2 a c) * x16 (ix2 j c)) + x17 (ix1 j)
  refine congrArg₂ (· + ·) (Finset.sum_congr rfl fun c _ => congrArg₂ (· * ·) (congrArg _ ?_) (congrArg _ ?_)) (congrArg _ ?_)
  · ix_eq
  · ix_eq
  · ix_eq

/-- %66: the gated unit's result. -/
theorem v66_eq : (val_main_v66 (F := Ideal) x1 x10 x11 x12 x13 x14 x15 x16 x17) = Spec.gau (val_main_v60 (F := Ideal) x1 x10 x11 x12 x13 x14 x15) x16 x17 x1 := by
  refine Spec.Mat.ext fun a j => ?_
  rw [val_main_v66_apply, Ideal.mulf_def, v65_eq]
  rfl

/-- %71: K. -/
theorem v71_eq : (val_main_v71 (F := Ideal) x1 x4 x5 x10 x11 x12 x13 x14 x15 x16 x17) = Spec.Kf (val_main_v66 (F := Ideal) x1 x10 x11 x12 x13 x14 x15 x16 x17) x4 x5 := by
  refine Spec.Mat.ext fun a j => ?_
  rw [val_main_v71_apply, val_main_v68_apply, val_main_v70_apply, val_main_v69_apply, Ideal.addf_def]
  simp only [val_main_v67_apply]
  show _ = (∑ c : Fin 768, (val_main_v66 (F := Ideal) x1 x10 x11 x12 x13 x14 x15 x16 x17) (ix2 a c) * x4 (ix2 j c)) + x5 (ix1 j)
  refine congrArg₂ (· + ·) (Finset.sum_congr rfl fun c _ => congrArg₂ (· * ·) (congrArg _ ?_) (congrArg _ ?_)) (congrArg _ ?_)
  · ix_eq
  · ix_eq
  · ix_eq

/-- %76: V. -/
theorem v76_eq : (val_main_v76 (F := Ideal) x1 x6 x7 x10 x11 x12 x13 x14 x15 x16 x17) = Spec.Vf (val_main_v66 (F := Ideal) x1 x10 x11 x12 x13 x14 x15 x16 x17) x6 x7 := by
  refine Spec.Mat.ext fun a j => ?_
  rw [val_main_v76_apply, val_main_v73_apply, val_main_v75_apply, val_main_v74_apply, Ideal.addf_def]
  simp only [val_main_v72_apply]
  show _ = (∑ c : Fin 768, (val_main_v66 (F := Ideal) x1 x10 x11 x12 x13 x14 x15 x16 x17) (ix2 a c) * x6 (ix2 j c)) + x7 (ix1 j)
  refine congrArg₂ (· + ·) (Finset.sum_congr rfl fun c _ => congrArg₂ (· * ·) (congrArg _ ?_) (congrArg _ ?_)) (congrArg _ ?_)
  · ix_eq
  · ix_eq
  · ix_eq

/-- %78: K·Kᵀ. -/
theorem v78_eq : (val_main_v78 (F := Ideal) x1 x4 x5 x10 x11 x12 x13 x14 x15 x16 x17) = Spec.gram (val_main_v71 (F := Ideal) x1 x4 x5 x10 x11 x12 x13 x14 x15 x16 x17) (val_main_v71 (F := Ideal) x1 x4 x5 x10 x11 x12 x13 x14 x15 x16 x17) := by
  refine Spec.Mat.ext fun a b => ?_
  rw [val_main_v78_apply]
  simp only [val_main_v77_apply]
  show _ = ∑ c : Fin 256, (val_main_v71 (F := Ideal) x1 x4 x5 x10 x11 x12 x13 x14 x15 x16 x17) (ix2 a c) * (val_main_v71 (F := Ideal) x1 x4 x5 x10 x11 x12 x13 x14 x15 x16 x17) (ix2 b c)
  refine Finset.sum_congr rfl fun c _ => congrArg₂ (· * ·) (congrArg _ ?_) (congrArg _ ?_)
  · ix_eq
  · ix_eq

/-- %89: the row softmax of %78. -/
theorem v89_eq : (val_main_v89 (F := Ideal) x1 x4 x5 x10 x11 x12 x13 x14 x15 x16 x17) = Spec.softmaxRow (val_main_v78 (F := Ideal) x1 x4 x5 x10 x11 x12 x13 x14 x15 x16 x17) := by
  refine Spec.Mat.ext fun a b => ?_
  unfold val_main_v89 val_main_v88 val_main_v87 val_main_v86 val_main_v85 val_main_v84 val_main_v83 val_main_v82 val_main_v81 val_main_v80 val_main_v79 val_main_cst_3 val_main_cst_4 val_main_cst_5
  exact RefOps.softmax_apply reducesTo_S4096x4096_S4096_d1 h_S_ bcast_S_S4096 bcast_S4096_S4096x1_0
    bcast_S4096x1_S4096x4096_0_1 (val_main_v78 (F := Ideal) x1 x4 x5 x10 x11 x12 x13 x14 x15 x16 x17) a b

/-- %90: the softmax times Q. -/
theorem v90_eq : (val_main_v90 (F := Ideal) x0 x1 x2 x3 x4 x5 x10 x11 x12 x13 x14 x15 x16 x17) = Spec.mm (val_main_v89 (F := Ideal) x1 x4 x5 x10 x11 x12 x13 x14 x15 x16 x17) (val_main_v4 (F := Ideal) x0 x2 x3) := by
  refine Spec.Mat.ext fun a j => ?_
  rw [val_main_v90_apply]
  show _ = ∑ c : Fin 4096, (val_main_v89 (F := Ideal) x1 x4 x5 x10 x11 x12 x13 x14 x15 x16 x17) (ix2 a c) * (val_main_v4 (F := Ideal) x0 x2 x3) (ix2 c j)
  refine Finset.sum_congr rfl fun c _ => congrArg₂ (· * ·) (congrArg _ ?_) (congrArg _ ?_)
  · ix_eq
  · ix_eq

/-- %94: K · (Q + max(softmax(K·Kᵀ)·Q, 0)) · Q. -/
theorem v94_eq : (val_main_v94 (F := Ideal) x0 x1 x2 x3 x4 x5 x10 x11 x12 x13 x14 x15 x16 x17) = Spec.B (val_main_v71 (F := Ideal) x1 x4 x5 x10 x11 x12 x13 x14 x15 x16 x17) (val_main_v4 (F := Ideal) x0 x2 x3) := by
  refine Spec.Mat.ext fun a j => ?_
  rw [val_main_v94_apply, val_main_v93_apply, val_main_v92_apply, Ideal.mulf_def, Ideal.mulf_def, Ideal.addf_def]
  unfold val_main_v91 val_main_call3_v0 val_main_call3_cst
  rw [RefOps.relu_apply bcast_S_S4096x256, v90_eq, v89_eq, v78_eq]
  rfl

/-- %96: V·Vᵀ. -/
theorem v96_eq : (val_main_v96 (F := Ideal) x1 x6 x7 x10 x11 x12 x13 x14 x15 x16 x17) = Spec.gram (val_main_v76 (F := Ideal) x1 x6 x7 x10 x11 x12 x13 x14 x15 x16 x17) (val_main_v76 (F := Ideal) x1 x6 x7 x10 x11 x12 x13 x14 x15 x16 x17) := by
  refine Spec.Mat.ext fun a b => ?_
  rw [val_main_v96_apply]
  simp only [val_main_v95_apply]
  show _ = ∑ c : Fin 256, (val_main_v76 (F := Ideal) x1 x6 x7 x10 x11 x12 x13 x14 x15 x16 x17) (ix2 a c) * (val_main_v76 (F := Ideal) x1 x6 x7 x10 x11 x12 x13 x14 x15 x16 x17) (ix2 b c)
  refine Finset.sum_congr rfl fun c _ => congrArg₂ (· * ·) (congrArg _ ?_) (congrArg _ ?_)
  · ix_eq
  · ix_eq

/-- %107: the row softmax of %96. -/
theorem v107_eq : (val_main_v107 (F := Ideal) x1 x6 x7 x10 x11 x12 x13 x14 x15 x16 x17) = Spec.softmaxRow (val_main_v96 (F := Ideal) x1 x6 x7 x10 x11 x12 x13 x14 x15 x16 x17) := by
  refine Spec.Mat.ext fun a b => ?_
  unfold val_main_v107 val_main_v106 val_main_v105 val_main_v104 val_main_v103 val_main_v102 val_main_v101 val_main_v100 val_main_v99 val_main_v98 val_main_v97 val_main_cst_6 val_main_cst_7 val_main_cst_8
  exact RefOps.softmax_apply reducesTo_S4096x4096_S4096_d1 h_S_ bcast_S_S4096 bcast_S4096_S4096x1_0
    bcast_S4096x1_S4096x4096_0_1 (val_main_v96 (F := Ideal) x1 x6 x7 x10 x11 x12 x13 x14 x15 x16 x17) a b

/-- %108: the softmax times Q. -/
theorem v108_eq : (val_main_v108 (F := Ideal) x0 x1 x2 x3 x6 x7 x10 x11 x12 x13 x14 x15 x16 x17) = Spec.mm (val_main_v107 (F := Ideal) x1 x6 x7 x10 x11 x12 x13 x14 x15 x16 x17) (val_main_v4 (F := Ideal) x0 x2 x3) := by
  refine Spec.Mat.ext fun a j => ?_
  rw [val_main_v108_apply]
  show _ = ∑ c : Fin 4096, (val_main_v107 (F := Ideal) x1 x6 x7 x10 x11 x12 x13 x14 x15 x16 x17) (ix2 a c) * (val_main_v4 (F := Ideal) x0 x2 x3) (ix2 c j)
  refine Finset.sum_congr rfl fun c _ => congrArg₂ (· * ·) (congrArg _ ?_) (congrArg _ ?_)
  · ix_eq
  · ix_eq

/-- %112: V · (Q + max(softmax(V·Vᵀ)·Q, 0)) · Q. -/
theorem v112_eq : (val_main_v112 (F := Ideal) x0 x1 x2 x3 x6 x7 x10 x11 x12 x13 x14 x15 x16 x17) = Spec.B (val_main_v76 (F := Ideal) x1 x6 x7 x10 x11 x12 x13 x14 x15 x16 x17) (val_main_v4 (F := Ideal) x0 x2 x3) := by
  refine Spec.Mat.ext fun a j => ?_
  rw [val_main_v112_apply, val_main_v111_apply, val_main_v110_apply, Ideal.mulf_def, Ideal.mulf_def, Ideal.addf_def]
  unfold val_main_v109 val_main_call4_v0 val_main_call4_cst
  rw [RefOps.relu_apply bcast_S_S4096x256, v108_eq, v107_eq, v96_eq]
  rfl

end Cert.RefSide

end
-- ==== Proof.RefIsSpecC.lean ====
/-
  The reference's last stages are the specification's: the gate, the last attention's weights, the result before
  scaling and the rows scaled to unit length.
-/
import proofs.«170994_j15857019257044_2_alg».proof.Proof.Spec
import proofs.«170994_j15857019257044_2_alg».proof.Proof.RefOps
import proofs.«170994_j15857019257044_2_alg».proof.Proof.RefTac
import proofs.«170994_j15857019257044_2_alg».proof.Proof.RefReadPatched

noncomputable section

open scoped BigOperators

namespace Cert.RefSide

open Cert.ReferenceIdeal Cert.ReferenceIdeal.Gen Cert.ReferenceIdeal.Read
open Idealize.ShloMosaic Idealize.ShloMosaic.ValueIdx

variable (x0 : (⟨S4096x256, .f32⟩ : BufTy).Contents (Elt Ideal)) (x1 : (⟨S4096x768, .f32⟩ : BufTy).Contents (Elt Ideal)) (x2 : (⟨S256x256, .f32⟩ : BufTy).Contents (Elt Ideal)) (x3 : (⟨S256, .f32⟩ : BufTy).Contents (Elt Ideal))
  (x4 : (⟨S256x768, .f32⟩ : BufTy).Contents (Elt Ideal)) (x5 : (⟨S256, .f32⟩ : BufTy).Contents (Elt Ideal)) (x6 : (⟨S256x768, .f32⟩ : BufTy).Contents (Elt Ideal)) (x7 : (⟨S256, .f32⟩ : BufTy).Contents (Elt Ideal))
  (x8 : (⟨S256x256, .f32⟩ : BufTy).Contents (Elt Ideal)) (x9 : (⟨S256, .f32⟩ : BufTy).Contents (Elt Ideal)) (x10 : (⟨S1536x768, .f32⟩ : BufTy).Contents (Elt Ideal)) (x11 : (⟨S1536, .f32⟩ : BufTy).Contents (Elt Ideal))
  (x12 : (⟨S200x768, .f32⟩ : BufTy).Contents (Elt Ideal)) (x13 : (⟨S200, .f32⟩ : BufTy).Contents (Elt Ideal)) (x14 x15 : (⟨S2x200, .f32⟩ : BufTy).Contents (Elt Ideal))
  (x16 : (⟨S768x768, .f32⟩ : BufTy).Contents (Elt Ideal)) (x17 : (⟨S768, .f32⟩ : BufTy).Contents (Elt Ideal))

/-- %117: B1·Wgᵀ + bg. -/
theorem v117_eq : (val_main_v117 (F := Ideal) x0 x1 x2 x3 x4 x5 x8 x9 x10 x11 x12 x13 x14 x15 x16 x17) = Spec.lin (val_main_v94 (F := Ideal) x0 x1 x2 x3 x4 x5 x10 x11 x12 x13 x14 x15 x16 x17) x8 x9 := by
  refine Spec.Mat.ext fun a j => ?_
  rw [val_main_v117_apply, val_main_v114_apply, val_main_v116_apply, val_main_v115_apply, Ideal.addf_def]
  simp only [val_main_v113_apply]
  generalize val_main_v94 (F := Ideal) x0 x1 x2 x3 x4 x5 x10 x11 x12 x13 x14 x15 x16 x17 = y
  show _ = (∑ c : Fin 256, y (ix2 a c) * x8 (ix2 j c)) + x9 (ix1 j)
  ix_congr

/-- %123: the gate, logistic of %117. -/
theorem v123_eq : (val_main_v123 (F := Ideal) x0 x1 x2 x3 x4 x5 x8 x9 x10 x11 x12 x13 x14 x15 x16 x17) = Spec.gt (val_main_v94 (F := Ideal) x0 x1 x2 x3 x4 x5 x10 x11 x12 x13 x14 x15 x16 x17) x8 x9 := by
  refine Spec.Mat.ext fun a j => ?_
  unfold val_main_v123 val_main_v122 val_main_v121 val_main_v120 val_main_v119 val_main_v118 val_main_cst_9 val_main_cst_10
  rw [RefOps.logistic_apply bcast_S_S4096x256, v117_eq]
  rfl

/-- %124: gt·K. -/
theorem v124_eq : (val_main_v124 (F := Ideal) x0 x1 x2 x3 x4 x5 x8 x9 x10 x11 x12 x13 x14 x15 x16 x17) = Spec.gq (val_main_v123 (F := Ideal) x0 x1 x2 x3 x4 x5 x8 x9 x10 x11 x12 x13 x14 x15 x16 x17) (val_main_v71 (F := Ideal) x1 x4 x5 x10 x11 x12 x13 x14 x15 x16 x17) := by
  refine Spec.Mat.ext fun a j => ?_
  rw [val_main_v124_apply, Ideal.mulf_def]
  rfl

/-- %127: (1 - gt)·Q. -/
theorem v127_eq : (val_main_v127 (F := Ideal) x0 x1 x2 x3 x4 x5 x8 x9 x10 x11 x12 x13 x14 x15 x16 x17) = Spec.gk (val_main_v123 (F := Ideal) x0 x1 x2 x3 x4 x5 x8 x9 x10 x11 x12 x13 x14 x15 x16 x17) (val_main_v4 (F := Ideal) x0 x2 x3) := by
  refine Spec.Mat.ext fun a j => ?_
  rw [val_main_v127_apply, Ideal.mulf_def]
  unfold val_main_v126 val_main_v125 val_main_cst_11
  rw [RefOps.one_sub_apply bcast_S_S4096x256]
  rfl

/-- %131: the last attention's logits. -/
theorem v131_eq : (val_main_v131 (F := Ideal) x0 x1 x2 x3 x4 x5 x8 x9 x10 x11 x12 x13 x14 x15 x16 x17)
    = Spec.mat fun a b => Ideal.div (Spec.gram (val_main_v124 (F := Ideal) x0 x1 x2 x3 x4 x5 x8 x9 x10 x11 x12 x13 x14 x15 x16 x17) (val_main_v127 (F := Ideal) x0 x1 x2 x3 x4 x5 x8 x9 x10 x11 x12 x13 x14 x15 x16 x17) (ix2 a b)) Spec.c16 := by
  refine Spec.Mat.ext fun a b => ?_
  unfold val_main_v131 val_main_v130 val_main_cst_12
  rw [RefOps.div_const_apply bcast_S_S4096x4096, val_main_v129_apply]
  simp only [val_main_v128_apply]
  generalize val_main_v124 (F := Ideal) x0 x1 x2 x3 x4 x5 x8 x9 x10 x11 x12 x13 x14 x15 x16 x17 = y
  generalize val_main_v127 (F := Ideal) x0 x1 x2 x3 x4 x5 x8 x9 x10 x11 x12 x13 x14 x15 x16 x17 = z
  show _ = Ideal.div (∑ c : Fin 256, y (ix2 a c) * z (ix2 b c)) (Ideal.ofBits .f32 0x41800000#32)
  ix_congr

/-- %142: the last attention's weights, the row softmax of %131. -/
theorem v142_eq : (val_main_v142 (F := Ideal) x0 x1 x2 x3 x4 x5 x8 x9 x10 x11 x12 x13 x14 x15 x16 x17) = Spec.Gs (val_main_v123 (F := Ideal) x0 x1 x2 x3 x4 x5 x8 x9 x10 x11 x12 x13 x14 x15 x16 x17) (val_main_v71 (F := Ideal) x1 x4 x5 x10 x11 x12 x13 x14 x15 x16 x17) (val_main_v4 (F := Ideal) x0 x2 x3) := by
  rw [Spec.Gs, ← v124_eq, ← v127_eq, ← v131_eq]
  refine Spec.Mat.ext fun a b => ?_
  unfold val_main_v142 val_main_v141 val_main_v140 val_main_v139 val_main_v138 val_main_v137 val_main_v136 val_main_v135 val_main_v134 val_main_v133 val_main_v132 val_main_cst_13 val_main_cst_14 val_main_cst_15
  exact RefOps.softmax_apply reducesTo_S4096x4096_S4096_d1 h_S_ bcast_S_S4096 bcast_S4096_S4096x1_0
    bcast_S4096x1_S4096x4096_0_1 (val_main_v131 (F := Ideal) x0 x1 x2 x3 x4 x5 x8 x9 x10 x11 x12 x13 x14 x15 x16 x17) a b

/-- %144: the weights times B2. -/
theorem v144_eq : (val_main_v144 (F := Ideal) x0 x1 x2 x3 x4 x5 x6 x7 x8 x9 x10 x11 x12 x13 x14 x15 x16 x17) = Spec.mm (val_main_v142 (F := Ideal) x0 x1 x2 x3 x4 x5 x8 x9 x10 x11 x12 x13 x14 x15 x16 x17) (val_main_v112 (F := Ideal) x0 x1 x2 x3 x6 x7 x10 x11 x12 x13 x14 x15 x16 x17) := by
  refine Spec.Mat.ext fun a j => ?_
  rw [val_main_v144_apply]
  generalize val_main_v142 (F := Ideal) x0 x1 x2 x3 x4 x5 x8 x9 x10 x11 x12 x13 x14 x15 x16 x17 = y
  generalize val_main_v112 (F := Ideal) x0 x1 x2 x3 x6 x7 x10 x11 x12 x13 x14 x15 x16 x17 = z
  show _ = ∑ c : Fin 4096, y (ix2 a c) * z (ix2 c j)
  ix_congr

/-- %151: logistic (B1·B1·(Gs·B2)). -/
theorem v151_eq : (val_main_v151 (F := Ideal) x0 x1 x2 x3 x4 x5 x6 x7 x8 x9 x10 x11 x12 x13 x14 x15 x16 x17) = Spec.out (val_main_v94 (F := Ideal) x0 x1 x2 x3 x4 x5 x10 x11 x12 x13 x14 x15 x16 x17) (val_main_v142 (F := Ideal) x0 x1 x2 x3 x4 x5 x8 x9 x10 x11 x12 x13 x14 x15 x16 x17) (val_main_v112 (F := Ideal) x0 x1 x2 x3 x6 x7 x10 x11 x12 x13 x14 x15 x16 x17) := by
  refine Spec.Mat.ext fun a j => ?_
  unfold val_main_v151 val_main_v150 val_main_v149 val_main_v148 val_main_v147 val_main_v146 val_main_cst_16 val_main_cst_17
  rw [RefOps.logistic_apply bcast_S_S4096x256, val_main_v145_apply, val_main_v143_apply, Ideal.mulf_def, Ideal.mulf_def,
    v144_eq]
  rfl

/-- %159: the rows of %151 scaled to unit length. -/
theorem v159_eq : (val_main_v159 (F := Ideal) x0 x1 x2 x3 x4 x5 x6 x7 x8 x9 x10 x11 x12 x13 x14 x15 x16 x17) = Spec.normalize (val_main_v151 (F := Ideal) x0 x1 x2 x3 x4 x5 x6 x7 x8 x9 x10 x11 x12 x13 x14 x15 x16 x17) := by
  refine Spec.Mat.ext fun a j => ?_
  unfold val_main_v159 val_main_v158 val_main_v157 val_main_v156 val_main_v155 val_main_v154 val_main_v153 val_main_v152
    val_main_cst_18 val_main_cst_19
  exact RefOps.normalize_apply reducesTo_S4096x256_S4096_d1 h_S_ bcast_S4096_S4096x1_0 bcast_S_S4096x1
    bcast_S4096x1_S4096x256_0_1 (val_main_v151 (F := Ideal) x0 x1 x2 x3 x4 x5 x6 x7 x8 x9 x10 x11 x12 x13 x14 x15 x16 x17) a j

end Cert.RefSide

end
-- ==== Proof.RefIsSpec.lean ====
/-
  The reference's result is the specification: the per-stage equations composed, from the last stage back to the
  argument arrays.
-/
import proofs.«170994_j15857019257044_2_alg».proof.Proof.Spec
import proofs.«170994_j15857019257044_2_alg».proof.Proof.RefIsSpecA
import proofs.«170994_j15857019257044_2_alg».proof.Proof.RefIsSpecB
import proofs.«170994_j15857019257044_2_alg».proof.Proof.RefIsSpecC
import proofs.«170994_j15857019257044_2_alg».proof.Proof.RefReadPatchedEq

noncomputable section

open scoped BigOperators

namespace Cert.RefSide

open Cert.ReferenceIdeal Cert.ReferenceIdeal.Gen Cert.ReferenceIdeal.Read
open Idealize.ShloMosaic Idealize.ShloMosaic.ValueIdx Idealize.ShloMosaic.TcCoe Idealize.SL.Sem

variable (x0 : (⟨S4096x256, .f32⟩ : BufTy).Contents (Elt Ideal)) (x1 : (⟨S4096x768, .f32⟩ : BufTy).Contents (Elt Ideal)) (x2 : (⟨S256x256, .f32⟩ : BufTy).Contents (Elt Ideal)) (x3 : (⟨S256, .f32⟩ : BufTy).Contents (Elt Ideal))
  (x4 : (⟨S256x768, .f32⟩ : BufTy).Contents (Elt Ideal)) (x5 : (⟨S256, .f32⟩ : BufTy).Contents (Elt Ideal)) (x6 : (⟨S256x768, .f32⟩ : BufTy).Contents (Elt Ideal)) (x7 : (⟨S256, .f32⟩ : BufTy).Contents (Elt Ideal))
  (x8 : (⟨S256x256, .f32⟩ : BufTy).Contents (Elt Ideal)) (x9 : (⟨S256, .f32⟩ : BufTy).Contents (Elt Ideal)) (x10 : (⟨S1536x768, .f32⟩ : BufTy).Contents (Elt Ideal)) (x11 : (⟨S1536, .f32⟩ : BufTy).Contents (Elt Ideal))
  (x12 : (⟨S200x768, .f32⟩ : BufTy).Contents (Elt Ideal)) (x13 : (⟨S200, .f32⟩ : BufTy).Contents (Elt Ideal)) (x14 x15 : (⟨S2x200, .f32⟩ : BufTy).Contents (Elt Ideal))
  (x16 : (⟨S768x768, .f32⟩ : BufTy).Contents (Elt Ideal)) (x17 : (⟨S768, .f32⟩ : BufTy).Contents (Elt Ideal))

/-- The reference's result term, as a function of its eighteen argument arrays, is the specification's res. -/
theorem result_eq : (val_main_v159 (F := Ideal) x0 x1 x2 x3 x4 x5 x6 x7 x8 x9 x10 x11 x12 x13 x14 x15 x16 x17)
    = Spec.res x0 x1 x2 x3 x4 x5 x6 x7 x8 x9 x10 x11 x12 x13 x14 x15 x16 x17 := by
  rw [v159_eq, v151_eq, v142_eq, v123_eq, v94_eq, v112_eq, v71_eq, v76_eq, v66_eq, v60_eq, v58_eq, v55_eq, v41_eq, v51_eq,
    v31_eq, v24_eq, v25_eq, v23_eq, v17_eq, v4_eq]
  rfl

/-- The result array the reference's run ends with is the specification of the argument arrays as the run found them. -/
theorem res_eq (m : (ℓ : Loc nD τ sig) → Buf (Elt Ideal) ℓ) (c : Dev nD) :
    Cert.ReferenceIdeal.ValueP.res_main_v159 (F := Ideal) m c
      = Spec.res (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8))
        (m ((c.tc : Thread nD τ).loc main_arg9))
        (m ((c.tc : Thread nD τ).loc main_arg10))
        (m ((c.tc : Thread nD τ).loc main_arg11))
        (m ((c.tc : Thread nD τ).loc main_arg12))
        (m ((c.tc : Thread nD τ).loc main_arg13))
        (m ((c.tc : Thread nD τ).loc main_arg14))
        (m ((c.tc : Thread nD τ).loc main_arg15))
        (m ((c.tc : Thread nD τ).loc main_arg16))
        (m ((c.tc : Thread nD τ).loc main_arg17)) :=
  (val_main_v159_eq (F := Ideal) m c).trans (result_eq _ _ _ _ _ _ _ _ _ _ _ _ _ _ _ _ _ _)

end Cert.RefSide

end
-- ==== Proof.Algebraic.lean ====
import proofs.«170994_j15857019257044_2_alg».proof.Defs
import proofs.«170994_j15857019257044_2_alg».proof.Proof.Gen.KernelIdeal
import proofs.«170994_j15857019257044_2_alg».proof.Proof.Gen.ReferenceIdeal
import proofs.«170994_j15857019257044_2_alg».proof.Proof.Gen.Pre_finite_inputs
import proofs.«170994_j15857019257044_2_alg».proof.Proof.Bridge
import proofs.«170994_j15857019257044_2_alg».proof.Proof.RefIsSpec
import proofs.«170994_j15857019257044_2_alg».proof.Proof.RefRunPatched

set_option maxRecDepth 16384

noncomputable section

namespace Cert.Bridge

open Idealize.ShloMosaic Idealize.ShloMosaic.TcCoe Idealize.SL.Sem

/-- From memories agreeing on the arguments both idealized programs run to the end with unchanged arguments and the
    same result: the kernel's result is the specification of its arguments (`stage_res`, which uses that they are
    real), the reference's result is the specification of its arguments (`RefSide.res_eq`), and the arguments agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Hand.X8 (F := Ideal) m c Cert.KernelIdeal.main_v20,
    Cert.KernelIdeal.Hand.value_all (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5, e6, e7, e8, e9, e10, e11, e12, e13, e14, e15, e16, e17⟩ := hagree c
  rw [Cert.RefSide.res_eq m' c, e0, e1, e2, e3, e4, e5, e6, e7, e8, e9, e10, e11, e12, e13, e14, e15, e16, e17]
  exact (stage_res (hP := Cert.Pre_finite_inputs.Gen.facts) m c hpre).symm

end Cert.Bridge

end
-- ==== Proof.lean ====
/- The certificate's five claims, assembled.

   The kernel program is seven tiled regions after a short stretch of host operations (bias vectors kept as rows, weights
   narrowed): a linear layer, the gated-unit preprocessing, a softmax-weighted attention accumulated key tile by key tile
   under a running shift with its two projections, two graph-attention regions and a final attention whose key side is
   consumed in sixteen chunks by a counted loop, and a sigmoid layer between them. Each region's run is proved once, at a
   symbolic grid point, for any float type; the regions are chained over the contents of the buffers between them.
   The idealized kernel multiplies its attention logits by a constant NAMED as the exact reciprocal of the reference's
   printed divisor, so that on the extended reals the product is the reference's quotient. -/
import proofs.«170994_j15857019257044_2_alg».proof.Defs
import proofs.«170994_j15857019257044_2_alg».proof.Proof.Gen.Kernel
import proofs.«170994_j15857019257044_2_alg».proof.Proof.Gen.KernelIdeal
import proofs.«170994_j15857019257044_2_alg».proof.Proof.Gen.ReferenceIdeal
import proofs.«170994_j15857019257044_2_alg».proof.Proof.Gen.Pre_finite_inputs
import proofs.«170994_j15857019257044_2_alg».proof.Proof.KB.Run
import proofs.«170994_j15857019257044_2_alg».proof.Proof.KI.Run
import proofs.«170994_j15857019257044_2_alg».proof.Proof.RefFrame
import proofs.«170994_j15857019257044_2_alg».proof.Proof.Algebraic

noncomputable section

namespace Cert.Proof

open Idealize.ShloMosaic Idealize.SL.Sem

/-- The word-level kernel runs to the end, faults nowhere and leaves its arguments as launched. -/
theorem frame_p : Cert.frame_Kernel (hKernel := Cert.Kernel.Gen.facts) (hPre_finite_inputs := Cert.Pre_finite_inputs.Gen.facts) :=
  fun m ρ _ => Cert.Kernel.Hand.frame_all (F := Bits) m ρ

/-- So does the idealized kernel. -/
theorem frame_pi : Cert.frame_KernelIdeal (hKernelIdeal := Cert.KernelIdeal.Gen.facts) (hPre_finite_inputs := Cert.Pre_finite_inputs.Gen.facts) :=
  fun m ρ _ => Cert.KernelIdeal.Hand.frame_all (F := Ideal) m ρ

/-- The one rewrite of the ideal pass: the folded scale is named the reciprocal of the reference's divisor. -/
theorem preserves : Cert.preserves_Kernel_KernelIdeal :=
  IdealRules.named_const.statement Cert.KernelIdeal.κ "fold_c_524288_14529495" .f32 0x3D13CD3A#32 ((524288 / 14529495 : ℝ) : EReal) rfl

theorem claim : Cert.Claim :=
  ⟨Cert.Kernel.Gen.facts, Cert.KernelIdeal.Gen.facts, Cert.ReferenceIdeal.Gen.facts, Cert.Pre_finite_inputs.Gen.facts,
    frame_p, frame_pi, Cert.RefSide.frame_ri, preserves, Cert.Bridge.algebraic⟩

end Cert.Proof

end
